-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000000x32 : Shape := ⟨2, ![1000000, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000000x32 .f32) : IVec S_ 1 :=
  let main_v0 : FVec F S1000000x32 .f32 := Host.absf main_arg1
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000000x32 : Shape := ⟨2, ![1000000, 32]⟩
abbrev S250000x128 : Shape := ⟨2, ![250000, 128]⟩
abbrev S200x4096 : Shape := ⟨2, ![200, 4096]⟩
abbrev S200x32x4096 : Shape := ⟨3, ![200, 32, 4096]⟩
abbrev S200x128 : Shape := ⟨2, ![200, 128]⟩
abbrev S4x128x128 : Shape := ⟨3, ![4, 128, 128]⟩
abbrev S2x32x128 : Shape := ⟨3, ![2, 32, 128]⟩
abbrev S_ : Shape := ⟨0, ![]⟩
abbrev S16 : Shape := ⟨1, ![16]⟩
abbrev S1x16 : Shape := ⟨2, ![1, 16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x32x128 : Shape := ⟨3, ![1, 32, 128]⟩
abbrev S32x128 : Shape := ⟨2, ![32, 128]⟩
abbrev S1x1x16 : Shape := ⟨3, ![1, 1, 16]⟩
abbrev S4096x200x32 : Shape := ⟨3, ![4096, 200, 32]⟩

abbrev nBuf : Table → Nat
  | .hbm => 6
  | .local .scVector .vmem => 4
  | _ => 0

abbrev bufTy : (tb : Table) → Fin (nBuf tb) → BufTy
  | .hbm, ⟨0, _⟩ => ⟨S4096x200, .i32⟩
  | .hbm, ⟨1, _⟩ => ⟨S1000000x32, .f32⟩
  | .hbm, ⟨2, _⟩ => ⟨S250000x128, .f32⟩
  | .hbm, ⟨3, _⟩ => ⟨S200x4096, .i32⟩
  | .hbm, ⟨4, _⟩ => ⟨S200x32x4096, .f32⟩
  | .hbm, ⟨5, _⟩ => ⟨S4096x200x32, .f32⟩
  | .local .scVector .vmem, ⟨0, _⟩ => ⟨S200x128, .i32⟩
  | .local .scVector .vmem, ⟨1, _⟩ => ⟨S200x128, .i32⟩
  | .local .scVector .vmem, ⟨2, _⟩ => ⟨S4x128x128, .f32⟩
  | .local .scVector .vmem, ⟨3, _⟩ => ⟨S2x32x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_41_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32 : BitVec 32 := 0#32
  let c1600_i32 : BitVec 32 := 1600#32
  let v4 : BitVec 32 := Scalar.addi c0_i32 c1600_i32
  let c1_i32 : BitVec 32 := 1#32
  ⟨c0_i32, v4, c1_i32⟩
def k0_off2 (k0_t1 : Fin k0_t1_loop.trips) : Fin 2 → Nat :=
  let c0_i32_42 : BitVec 32 := 0#32
  let c0_i32 : BitVec 32 := 0#32
  let c1_i32 : BitVec 32 := 1#32
  let arg15 : BitVec 32 := Scf.iv c0_i32 c1_i32 k0_t1
  let c1_i32_41 : BitVec 32 := 1#32
  let v37 : BitVec 32 := Scalar.muli arg15 c1_i32_41
  let v38 : BitVec 32 := Scalar.addi c0_i32_42 v37
  let c0_i32_43 : BitVec 32 := 0#32
  let v40 : BitVec 1 := Scalar.cmpi .sgt v38 c0_i32_43
  let v41 : BitVec 32 := Scalar.extui v40
  let c0_i32_44 : BitVec 32 := 0#32
  let v42 : BitVec 1 := Scalar.cmpi .slt v38 c0_i32_44
  let v43 : BitVec 32 := Scalar.extui v42
  let v44 : BitVec 32 := Scalar.subi v41 v43
  let c8_i32 : BitVec 32 := 8#32
  let c0_i32_45 : BitVec 32 := 0#32
  let v45 : BitVec 1 := Scalar.cmpi .sgt c8_i32 c0_i32_45
  let v46 : BitVec 32 := Scalar.extui v45
  let c0_i32_46 : BitVec 32 := 0#32
  let v47 : BitVec 1 := Scalar.cmpi .slt c8_i32 c0_i32_46
  let v48 : BitVec 32 := Scalar.extui v47
  let v49 : BitVec 32 := Scalar.subi v46 v48
  let v50 : BitVec 1 := Scalar.cmpi .ne v44 v49
  let v51 : BitVec 32 := Scalar.remsi v38 c8_i32
  let c0_i32_47 : BitVec 32 := 0#32
  let v52 : BitVec 1 := Scalar.cmpi .ne v51 c0_i32_47
  let v53 : BitVec 1 := Scalar.andi v50 v52
  let v39 : BitVec 32 := Scalar.divsi v38 c8_i32
  let c1_i32_48 : BitVec 32 := 1#32
  let v54 : BitVec 32 := Scalar.subi v39 c1_i32_48
  let v55 : BitVec 32 := Scalar.select v53 v54 v39
  let v67 : Index := Scalar.indexCast v55
  let c8_i32_49 : BitVec 32 := 8#32
  let c0_i32_50 : BitVec 32 := 0#32
  let v56 : BitVec 1 := Scalar.cmpi .eq c8_i32_49 c0_i32_50
  let c1_i32_51 : BitVec 32 := 1#32
  let v57 : BitVec 32 := Scalar.select v56 c1_i32_51 c8_i32_49
  let v58 : BitVec 32 := Scalar.remsi v38 v57
  let c0_i32_53 : BitVec 32 := 0#32
  let v60 : BitVec 1 := Scalar.cmpi .slt v58 c0_i32_53
  let c0_i32_54 : BitVec 32 := 0#32
  let v61 : BitVec 1 := Scalar.cmpi .slt v57 c0_i32_54
  let v62 : BitVec 1 := Scalar.xori v60 v61
  let c0_i32_52 : BitVec 32 := 0#32
  let v59 : BitVec 1 := Scalar.cmpi .ne v58 c0_i32_52
  let v63 : BitVec 1 := Scalar.andi v62 v59
  let v64 : BitVec 32 := Scalar.addi v58 v57
  let v65 : BitVec 32 := Scalar.select v63 v64 v58
  let c16_i32 : BitVec 32 := 16#32
  let v66 : BitVec 32 := Scalar.muli v65 c16_i32
  let v68 : Index := Scalar.indexCast v66
  ![v67.toNat, v68.toNat]
@[reducible] def k0_t2_loop : Scf.Loop 32 :=
  let c0_i32_22 : BitVec 32 := 0#32
  let c50_i32 : BitVec 32 := 50#32
  let v20 : BitVec 32 := Scalar.addi c0_i32_22 c50_i32
  let c1_i32_23 : BitVec 32 := 1#32
  ⟨c0_i32_22, v20, c1_i32_23⟩
def k0_cond1 (k0_t2 : Fin k0_t2_loop.trips) : BitVec 1 :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c0_i32_43 : BitVec 32 := 0#32
  let v40 : BitVec 32 := Scalar.addi v39 c0_i32_43
  let c3_i32 : BitVec 32 := 3#32
  let v41 : BitVec 32 := Scalar.addi v40 c3_i32
  let c200_i32 : BitVec 32 := 200#32
  let v42 : BitVec 1 := Scalar.cmpi .slt v41 c200_i32
  let v43 : BitVec 32 := Scalar.extui v42
  let c0_i32_44 : BitVec 32 := 0#32
  let v44 : BitVec 1 := Scalar.cmpi .ne v43 c0_i32_44
  v44

def k0_off3 (k0_t2 : Fin k0_t2_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c0_i32_43 : BitVec 32 := 0#32
  let v40 : BitVec 32 := Scalar.addi v39 c0_i32_43
  let c3_i32_143 : BitVec 32 := 3#32
  let v136 : BitVec 32 := Scalar.addi v40 c3_i32_143
  let c0_i32_147 : BitVec 32 := 0#32
  ![v136.toNat, 0]
def k0_cond2 (k0_t2 : Fin k0_t2_loop.trips) : BitVec 1 :=
  let v_false : BitVec 1 := 0#1
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c0_i32_43 : BitVec 32 := 0#32
  let v40 : BitVec 32 := Scalar.addi v39 c0_i32_43
  let c2_i32_52 : BitVec 32 := 2#32
  let v50 : BitVec 1 := Scalar.cmpi .sge v40 c2_i32_52
  let v51 : BitVec 1 := Scalar.ori v_false v50
  let v52 : BitVec 32 := Scalar.extui v51
  let c0_i32_53 : BitVec 32 := 0#32
  let v53 : BitVec 1 := Scalar.cmpi .ne v52 c0_i32_53
  v53

def k0_off4 (i : grid0.Coords) : Fin 3 → Nat :=
  let c0_i32_144 : BitVec 32 := 0#32
  let c0_i32_147 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
@[reducible] def k0_t3_loop : Scf.Loop 32 :=
  let c0_i32_54 : BitVec 32 := 0#32
  let c8_i32 : BitVec 32 := 8#32
  let v54 : BitVec 32 := Scalar.addi c0_i32_54 c8_i32
  let c1_i32_55 : BitVec 32 := 1#32
  ⟨c0_i32_54, v54, c1_i32_55⟩
def k0_off5 (k0_t2 : Fin k0_t2_loop.trips) (k0_t3 : Fin k0_t3_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c0_i32_43 : BitVec 32 := 0#32
  let v40 : BitVec 32 := Scalar.addi v39 c0_i32_43
  let v139 : Index := Scalar.indexCast v40
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v140 : Index := Scalar.indexCast v138
  ![v139.toNat, v140.toNat]

def k0_chk1 (v147 : IVec S16 32) (v149 : IVec S16 32) : Prop :=
  (∀ a x, ((![v147, v149] : Fin 2 → IVec S16 32) a x).toNat < S128x128.size a)
instance k0_chk1.dec : ∀ (v147 : IVec S16 32) (v149 : IVec S16 32), Decidable (k0_chk1 v147 v149) := fun v147 v149 => decidable_of_iff' _ (Iff.of_eq (k0_chk1.eq_1 v147 v149))
theorem k0_idx1_inb : ∀ (v147 : IVec S16 32) (v149 : IVec S16 32) (k0_hw1 : k0_chk1 v147 v149), ∀ a x, ((![v147, v149] : Fin 2 → IVec S16 32) a x).toNat < S128x128.size a := fun v147 v149 k0_hw1 => k0_hw1

def k0_chk2 (v147 : IVec S16 32) (v154 : IVec S16 32) : Prop :=
  (∀ a x, ((![v147, v154] : Fin 2 → IVec S16 32) a x).toNat < S128x128.size a)
instance k0_chk2.dec : ∀ (v147 : IVec S16 32) (v154 : IVec S16 32), Decidable (k0_chk2 v147 v154) := fun v147 v154 => decidable_of_iff' _ (Iff.of_eq (k0_chk2.eq_1 v147 v154))
theorem k0_idx2_inb : ∀ (v147 : IVec S16 32) (v154 : IVec S16 32) (k0_hw2 : k0_chk2 v147 v154), ∀ a x, ((![v147, v154] : Fin 2 → IVec S16 32) a x).toNat < S128x128.size a := fun v147 v154 k0_hw2 => k0_hw2

def k0_chk3 (v147 : IVec S16 32) (v159 : IVec S16 32) : Prop :=
  (∀ a x, ((![v147, v159] : Fin 2 → IVec S16 32) a x).toNat < S128x128.size a)
instance k0_chk3.dec : ∀ (v147 : IVec S16 32) (v159 : IVec S16 32), Decidable (k0_chk3 v147 v159) := fun v147 v159 => decidable_of_iff' _ (Iff.of_eq (k0_chk3.eq_1 v147 v159))
theorem k0_idx3_inb : ∀ (v147 : IVec S16 32) (v159 : IVec S16 32) (k0_hw3 : k0_chk3 v147 v159), ∀ a x, ((![v147, v159] : Fin 2 → IVec S16 32) a x).toNat < S128x128.size a := fun v147 v159 k0_hw3 => k0_hw3

def k0_chk4 (v147 : IVec S16 32) (v164 : IVec S16 32) : Prop :=
  (∀ a x, ((![v147, v164] : Fin 2 → IVec S16 32) a x).toNat < S128x128.size a)
instance k0_chk4.dec : ∀ (v147 : IVec S16 32) (v164 : IVec S16 32), Decidable (k0_chk4 v147 v164) := fun v147 v164 => decidable_of_iff' _ (Iff.of_eq (k0_chk4.eq_1 v147 v164))
theorem k0_idx4_inb : ∀ (v147 : IVec S16 32) (v164 : IVec S16 32) (k0_hw4 : k0_chk4 v147 v164), ∀ a x, ((![v147, v164] : Fin 2 → IVec S16 32) a x).toNat < S128x128.size a := fun v147 v164 k0_hw4 => k0_hw4

def k0_chk5 (v147 : IVec S16 32) (v169 : IVec S16 32) : Prop :=
  (∀ a x, ((![v147, v169] : Fin 2 → IVec S16 32) a x).toNat < S128x128.size a)
instance k0_chk5.dec : ∀ (v147 : IVec S16 32) (v169 : IVec S16 32), Decidable (k0_chk5 v147 v169) := fun v147 v169 => decidable_of_iff' _ (Iff.of_eq (k0_chk5.eq_1 v147 v169))
theorem k0_idx5_inb : ∀ (v147 : IVec S16 32) (v169 : IVec S16 32) (k0_hw5 : k0_chk5 v147 v169), ∀ a x, ((![v147, v169] : Fin 2 → IVec S16 32) a x).toNat < S128x128.size a := fun v147 v169 k0_hw5 => k0_hw5

def k0_chk6 (v147 : IVec S16 32) (v174 : IVec S16 32) : Prop :=
  (∀ a x, ((![v147, v174] : Fin 2 → IVec S16 32) a x).toNat < S128x128.size a)
instance k0_chk6.dec : ∀ (v147 : IVec S16 32) (v174 : IVec S16 32), Decidable (k0_chk6 v147 v174) := fun v147 v174 => decidable_of_iff' _ (Iff.of_eq (k0_chk6.eq_1 v147 v174))
theorem k0_idx6_inb : ∀ (v147 : IVec S16 32) (v174 : IVec S16 32) (k0_hw6 : k0_chk6 v147 v174), ∀ a x, ((![v147, v174] : Fin 2 → IVec S16 32) a x).toNat < S128x128.size a := fun v147 v174 k0_hw6 => k0_hw6

def k0_chk7 (v147 : IVec S16 32) (v179 : IVec S16 32) : Prop :=
  (∀ a x, ((![v147, v179] : Fin 2 → IVec S16 32) a x).toNat < S128x128.size a)
instance k0_chk7.dec : ∀ (v147 : IVec S16 32) (v179 : IVec S16 32), Decidable (k0_chk7 v147 v179) := fun v147 v179 => decidable_of_iff' _ (Iff.of_eq (k0_chk7.eq_1 v147 v179))
theorem k0_idx7_inb : ∀ (v147 : IVec S16 32) (v179 : IVec S16 32) (k0_hw7 : k0_chk7 v147 v179), ∀ a x, ((![v147, v179] : Fin 2 → IVec S16 32) a x).toNat < S128x128.size a := fun v147 v179 k0_hw7 => k0_hw7

def k0_chk8 (v147 : IVec S16 32) (v184 : IVec S16 32) : Prop :=
  (∀ a x, ((![v147, v184] : Fin 2 → IVec S16 32) a x).toNat < S128x128.size a)
instance k0_chk8.dec : ∀ (v147 : IVec S16 32) (v184 : IVec S16 32), Decidable (k0_chk8 v147 v184) := fun v147 v184 => decidable_of_iff' _ (Iff.of_eq (k0_chk8.eq_1 v147 v184))
theorem k0_idx8_inb : ∀ (v147 : IVec S16 32) (v184 : IVec S16 32) (k0_hw8 : k0_chk8 v147 v184), ∀ a x, ((![v147, v184] : Fin 2 → IVec S16 32) a x).toNat < S128x128.size a := fun v147 v184 k0_hw8 => k0_hw8

def k0_chk9 (v147 : IVec S16 32) (v189 : IVec S16 32) : Prop :=
  (∀ a x, ((![v147, v189] : Fin 2 → IVec S16 32) a x).toNat < S128x128.size a)
instance k0_chk9.dec : ∀ (v147 : IVec S16 32) (v189 : IVec S16 32), Decidable (k0_chk9 v147 v189) := fun v147 v189 => decidable_of_iff' _ (Iff.of_eq (k0_chk9.eq_1 v147 v189))
theorem k0_idx9_inb : ∀ (v147 : IVec S16 32) (v189 : IVec S16 32) (k0_hw9 : k0_chk9 v147 v189), ∀ a x, ((![v147, v189] : Fin 2 → IVec S16 32) a x).toNat < S128x128.size a := fun v147 v189 k0_hw9 => k0_hw9

def k0_chk10 (v147 : IVec S16 32) (v194 : IVec S16 32) : Prop :=
  (∀ a x, ((![v147, v194] : Fin 2 → IVec S16 32) a x).toNat < S128x128.size a)
instance k0_chk10.dec : ∀ (v147 : IVec S16 32) (v194 : IVec S16 32), Decidable (k0_chk10 v147 v194) := fun v147 v194 => decidable_of_iff' _ (Iff.of_eq (k0_chk10.eq_1 v147 v194))
theorem k0_idx10_inb : ∀ (v147 : IVec S16 32) (v194 : IVec S16 32) (k0_hw10 : k0_chk10 v147 v194), ∀ a x, ((![v147, v194] : Fin 2 → IVec S16 32) a x).toNat < S128x128.size a := fun v147 v194 k0_hw10 => k0_hw10

def k0_chk11 (v147 : IVec S16 32) (v199 : IVec S16 32) : Prop :=
  (∀ a x, ((![v147, v199] : Fin 2 → IVec S16 32) a x).toNat < S128x128.size a)
instance k0_chk11.dec : ∀ (v147 : IVec S16 32) (v199 : IVec S16 32), Decidable (k0_chk11 v147 v199) := fun v147 v199 => decidable_of_iff' _ (Iff.of_eq (k0_chk11.eq_1 v147 v199))
theorem k0_idx11_inb : ∀ (v147 : IVec S16 32) (v199 : IVec S16 32) (k0_hw11 : k0_chk11 v147 v199), ∀ a x, ((![v147, v199] : Fin 2 → IVec S16 32) a x).toNat < S128x128.size a := fun v147 v199 k0_hw11 => k0_hw11

def k0_chk12 (v147 : IVec S16 32) (v204 : IVec S16 32) : Prop :=
  (∀ a x, ((![v147, v204] : Fin 2 → IVec S16 32) a x).toNat < S128x128.size a)
instance k0_chk12.dec : ∀ (v147 : IVec S16 32) (v204 : IVec S16 32), Decidable (k0_chk12 v147 v204) := fun v147 v204 => decidable_of_iff' _ (Iff.of_eq (k0_chk12.eq_1 v147 v204))
theorem k0_idx12_inb : ∀ (v147 : IVec S16 32) (v204 : IVec S16 32) (k0_hw12 : k0_chk12 v147 v204), ∀ a x, ((![v147, v204] : Fin 2 → IVec S16 32) a x).toNat < S128x128.size a := fun v147 v204 k0_hw12 => k0_hw12

def k0_chk13 (v147 : IVec S16 32) (v209 : IVec S16 32) : Prop :=
  (∀ a x, ((![v147, v209] : Fin 2 → IVec S16 32) a x).toNat < S128x128.size a)
instance k0_chk13.dec : ∀ (v147 : IVec S16 32) (v209 : IVec S16 32), Decidable (k0_chk13 v147 v209) := fun v147 v209 => decidable_of_iff' _ (Iff.of_eq (k0_chk13.eq_1 v147 v209))
theorem k0_idx13_inb : ∀ (v147 : IVec S16 32) (v209 : IVec S16 32) (k0_hw13 : k0_chk13 v147 v209), ∀ a x, ((![v147, v209] : Fin 2 → IVec S16 32) a x).toNat < S128x128.size a := fun v147 v209 k0_hw13 => k0_hw13

def k0_chk14 (v147 : IVec S16 32) (v214 : IVec S16 32) : Prop :=
  (∀ a x, ((![v147, v214] : Fin 2 → IVec S16 32) a x).toNat < S128x128.size a)
instance k0_chk14.dec : ∀ (v147 : IVec S16 32) (v214 : IVec S16 32), Decidable (k0_chk14 v147 v214) := fun v147 v214 => decidable_of_iff' _ (Iff.of_eq (k0_chk14.eq_1 v147 v214))
theorem k0_idx14_inb : ∀ (v147 : IVec S16 32) (v214 : IVec S16 32) (k0_hw14 : k0_chk14 v147 v214), ∀ a x, ((![v147, v214] : Fin 2 → IVec S16 32) a x).toNat < S128x128.size a := fun v147 v214 k0_hw14 => k0_hw14

def k0_chk15 (v147 : IVec S16 32) (v219 : IVec S16 32) : Prop :=
  (∀ a x, ((![v147, v219] : Fin 2 → IVec S16 32) a x).toNat < S128x128.size a)
instance k0_chk15.dec : ∀ (v147 : IVec S16 32) (v219 : IVec S16 32), Decidable (k0_chk15 v147 v219) := fun v147 v219 => decidable_of_iff' _ (Iff.of_eq (k0_chk15.eq_1 v147 v219))
theorem k0_idx15_inb : ∀ (v147 : IVec S16 32) (v219 : IVec S16 32) (k0_hw15 : k0_chk15 v147 v219), ∀ a x, ((![v147, v219] : Fin 2 → IVec S16 32) a x).toNat < S128x128.size a := fun v147 v219 k0_hw15 => k0_hw15

def k0_chk16 (v147 : IVec S16 32) (v224 : IVec S16 32) : Prop :=
  (∀ a x, ((![v147, v224] : Fin 2 → IVec S16 32) a x).toNat < S128x128.size a)
instance k0_chk16.dec : ∀ (v147 : IVec S16 32) (v224 : IVec S16 32), Decidable (k0_chk16 v147 v224) := fun v147 v224 => decidable_of_iff' _ (Iff.of_eq (k0_chk16.eq_1 v147 v224))
theorem k0_idx16_inb : ∀ (v147 : IVec S16 32) (v224 : IVec S16 32) (k0_hw16 : k0_chk16 v147 v224), ∀ a x, ((![v147, v224] : Fin 2 → IVec S16 32) a x).toNat < S128x128.size a := fun v147 v224 k0_hw16 => k0_hw16
def k0_off6 (k0_t3 : Fin k0_t3_loop.trips) : Fin 3 → Nat :=
  let c0_i32_200 : BitVec 32 := 0#32
  let v228 : Index := Scalar.indexCast c0_i32_200
  let c0_i32_201 : BitVec 32 := 0#32
  let v229 : Index := Scalar.indexCast c0_i32_201
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v230 : Index := Scalar.indexCast v138
  ![0, 0, v230.toNat]
def k0_off7 (k0_t3 : Fin k0_t3_loop.trips) : Fin 3 → Nat :=
  let c0_i32_202 : BitVec 32 := 0#32
  let v232 : Index := Scalar.indexCast c0_i32_202
  let c1_i32_203 : BitVec 32 := 1#32
  let v233 : Index := Scalar.indexCast c1_i32_203
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v234 : Index := Scalar.indexCast v138
  ![0, 1, v234.toNat]
def k0_off8 (k0_t3 : Fin k0_t3_loop.trips) : Fin 3 → Nat :=
  let c0_i32_204 : BitVec 32 := 0#32
  let v236 : Index := Scalar.indexCast c0_i32_204
  let c2_i32_205 : BitVec 32 := 2#32
  let v237 : Index := Scalar.indexCast c2_i32_205
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v238 : Index := Scalar.indexCast v138
  ![0, 2, v238.toNat]
def k0_off9 (k0_t3 : Fin k0_t3_loop.trips) : Fin 3 → Nat :=
  let c0_i32_206 : BitVec 32 := 0#32
  let v240 : Index := Scalar.indexCast c0_i32_206
  let c3_i32_207 : BitVec 32 := 3#32
  let v241 : Index := Scalar.indexCast c3_i32_207
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v242 : Index := Scalar.indexCast v138
  ![0, 3, v242.toNat]
def k0_off10 (k0_t3 : Fin k0_t3_loop.trips) : Fin 3 → Nat :=
  let c0_i32_208 : BitVec 32 := 0#32
  let v244 : Index := Scalar.indexCast c0_i32_208
  let c4_i32_209 : BitVec 32 := 4#32
  let v245 : Index := Scalar.indexCast c4_i32_209
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v246 : Index := Scalar.indexCast v138
  ![0, 4, v246.toNat]
def k0_off11 (k0_t3 : Fin k0_t3_loop.trips) : Fin 3 → Nat :=
  let c0_i32_210 : BitVec 32 := 0#32
  let v248 : Index := Scalar.indexCast c0_i32_210
  let c5_i32_211 : BitVec 32 := 5#32
  let v249 : Index := Scalar.indexCast c5_i32_211
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v250 : Index := Scalar.indexCast v138
  ![0, 5, v250.toNat]
def k0_off12 (k0_t3 : Fin k0_t3_loop.trips) : Fin 3 → Nat :=
  let c0_i32_212 : BitVec 32 := 0#32
  let v252 : Index := Scalar.indexCast c0_i32_212
  let c6_i32_213 : BitVec 32 := 6#32
  let v253 : Index := Scalar.indexCast c6_i32_213
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v254 : Index := Scalar.indexCast v138
  ![0, 6, v254.toNat]
def k0_off13 (k0_t3 : Fin k0_t3_loop.trips) : Fin 3 → Nat :=
  let c0_i32_214 : BitVec 32 := 0#32
  let v256 : Index := Scalar.indexCast c0_i32_214
  let c7_i32_215 : BitVec 32 := 7#32
  let v257 : Index := Scalar.indexCast c7_i32_215
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v258 : Index := Scalar.indexCast v138
  ![0, 7, v258.toNat]
def k0_off14 (k0_t3 : Fin k0_t3_loop.trips) : Fin 3 → Nat :=
  let c0_i32_216 : BitVec 32 := 0#32
  let v260 : Index := Scalar.indexCast c0_i32_216
  let c8_i32_217 : BitVec 32 := 8#32
  let v261 : Index := Scalar.indexCast c8_i32_217
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v262 : Index := Scalar.indexCast v138
  ![0, 8, v262.toNat]
def k0_off15 (k0_t3 : Fin k0_t3_loop.trips) : Fin 3 → Nat :=
  let c0_i32_218 : BitVec 32 := 0#32
  let v264 : Index := Scalar.indexCast c0_i32_218
  let c9_i32_219 : BitVec 32 := 9#32
  let v265 : Index := Scalar.indexCast c9_i32_219
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v266 : Index := Scalar.indexCast v138
  ![0, 9, v266.toNat]
def k0_off16 (k0_t3 : Fin k0_t3_loop.trips) : Fin 3 → Nat :=
  let c0_i32_220 : BitVec 32 := 0#32
  let v268 : Index := Scalar.indexCast c0_i32_220
  let c10_i32_221 : BitVec 32 := 10#32
  let v269 : Index := Scalar.indexCast c10_i32_221
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v270 : Index := Scalar.indexCast v138
  ![0, 10, v270.toNat]
def k0_off17 (k0_t3 : Fin k0_t3_loop.trips) : Fin 3 → Nat :=
  let c0_i32_222 : BitVec 32 := 0#32
  let v272 : Index := Scalar.indexCast c0_i32_222
  let c11_i32_223 : BitVec 32 := 11#32
  let v273 : Index := Scalar.indexCast c11_i32_223
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v274 : Index := Scalar.indexCast v138
  ![0, 11, v274.toNat]
def k0_off18 (k0_t3 : Fin k0_t3_loop.trips) : Fin 3 → Nat :=
  let c0_i32_224 : BitVec 32 := 0#32
  let v276 : Index := Scalar.indexCast c0_i32_224
  let c12_i32_225 : BitVec 32 := 12#32
  let v277 : Index := Scalar.indexCast c12_i32_225
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v278 : Index := Scalar.indexCast v138
  ![0, 12, v278.toNat]
def k0_off19 (k0_t3 : Fin k0_t3_loop.trips) : Fin 3 → Nat :=
  let c0_i32_226 : BitVec 32 := 0#32
  let v280 : Index := Scalar.indexCast c0_i32_226
  let c13_i32_227 : BitVec 32 := 13#32
  let v281 : Index := Scalar.indexCast c13_i32_227
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v282 : Index := Scalar.indexCast v138
  ![0, 13, v282.toNat]
def k0_off20 (k0_t3 : Fin k0_t3_loop.trips) : Fin 3 → Nat :=
  let c0_i32_228 : BitVec 32 := 0#32
  let v284 : Index := Scalar.indexCast c0_i32_228
  let c14_i32_229 : BitVec 32 := 14#32
  let v285 : Index := Scalar.indexCast c14_i32_229
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v286 : Index := Scalar.indexCast v138
  ![0, 14, v286.toNat]
def k0_off21 (k0_t3 : Fin k0_t3_loop.trips) : Fin 3 → Nat :=
  let c0_i32_230 : BitVec 32 := 0#32
  let v288 : Index := Scalar.indexCast c0_i32_230
  let c15_i32_231 : BitVec 32 := 15#32
  let v289 : Index := Scalar.indexCast c15_i32_231
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v290 : Index := Scalar.indexCast v138
  ![0, 15, v290.toNat]

def k0_chk17 (v147 : IVec S16 32) (v293 : IVec S16 32) : Prop :=
  (∀ a x, ((![v147, v293] : Fin 2 → IVec S16 32) a x).toNat < S128x128.size a)
instance k0_chk17.dec : ∀ (v147 : IVec S16 32) (v293 : IVec S16 32), Decidable (k0_chk17 v147 v293) := fun v147 v293 => decidable_of_iff' _ (Iff.of_eq (k0_chk17.eq_1 v147 v293))
theorem k0_idx17_inb : ∀ (v147 : IVec S16 32) (v293 : IVec S16 32) (k0_hw17 : k0_chk17 v147 v293), ∀ a x, ((![v147, v293] : Fin 2 → IVec S16 32) a x).toNat < S128x128.size a := fun v147 v293 k0_hw17 => k0_hw17

def k0_chk18 (v147 : IVec S16 32) (v298 : IVec S16 32) : Prop :=
  (∀ a x, ((![v147, v298] : Fin 2 → IVec S16 32) a x).toNat < S128x128.size a)
instance k0_chk18.dec : ∀ (v147 : IVec S16 32) (v298 : IVec S16 32), Decidable (k0_chk18 v147 v298) := fun v147 v298 => decidable_of_iff' _ (Iff.of_eq (k0_chk18.eq_1 v147 v298))
theorem k0_idx18_inb : ∀ (v147 : IVec S16 32) (v298 : IVec S16 32) (k0_hw18 : k0_chk18 v147 v298), ∀ a x, ((![v147, v298] : Fin 2 → IVec S16 32) a x).toNat < S128x128.size a := fun v147 v298 k0_hw18 => k0_hw18

def k0_chk19 (v147 : IVec S16 32) (v303 : IVec S16 32) : Prop :=
  (∀ a x, ((![v147, v303] : Fin 2 → IVec S16 32) a x).toNat < S128x128.size a)
instance k0_chk19.dec : ∀ (v147 : IVec S16 32) (v303 : IVec S16 32), Decidable (k0_chk19 v147 v303) := fun v147 v303 => decidable_of_iff' _ (Iff.of_eq (k0_chk19.eq_1 v147 v303))
theorem k0_idx19_inb : ∀ (v147 : IVec S16 32) (v303 : IVec S16 32) (k0_hw19 : k0_chk19 v147 v303), ∀ a x, ((![v147, v303] : Fin 2 → IVec S16 32) a x).toNat < S128x128.size a := fun v147 v303 k0_hw19 => k0_hw19

def k0_chk20 (v147 : IVec S16 32) (v308 : IVec S16 32) : Prop :=
  (∀ a x, ((![v147, v308] : Fin 2 → IVec S16 32) a x).toNat < S128x128.size a)
instance k0_chk20.dec : ∀ (v147 : IVec S16 32) (v308 : IVec S16 32), Decidable (k0_chk20 v147 v308) := fun v147 v308 => decidable_of_iff' _ (Iff.of_eq (k0_chk20.eq_1 v147 v308))
theorem k0_idx20_inb : ∀ (v147 : IVec S16 32) (v308 : IVec S16 32) (k0_hw20 : k0_chk20 v147 v308), ∀ a x, ((![v147, v308] : Fin 2 → IVec S16 32) a x).toNat < S128x128.size a := fun v147 v308 k0_hw20 => k0_hw20

def k0_chk21 (v147 : IVec S16 32) (v313 : IVec S16 32) : Prop :=
  (∀ a x, ((![v147, v313] : Fin 2 → IVec S16 32) a x).toNat < S128x128.size a)
instance k0_chk21.dec : ∀ (v147 : IVec S16 32) (v313 : IVec S16 32), Decidable (k0_chk21 v147 v313) := fun v147 v313 => decidable_of_iff' _ (Iff.of_eq (k0_chk21.eq_1 v147 v313))
theorem k0_idx21_inb : ∀ (v147 : IVec S16 32) (v313 : IVec S16 32) (k0_hw21 : k0_chk21 v147 v313), ∀ a x, ((![v147, v313] : Fin 2 → IVec S16 32) a x).toNat < S128x128.size a := fun v147 v313 k0_hw21 => k0_hw21

def k0_chk22 (v147 : IVec S16 32) (v318 : IVec S16 32) : Prop :=
  (∀ a x, ((![v147, v318] : Fin 2 → IVec S16 32) a x).toNat < S128x128.size a)
instance k0_chk22.dec : ∀ (v147 : IVec S16 32) (v318 : IVec S16 32), Decidable (k0_chk22 v147 v318) := fun v147 v318 => decidable_of_iff' _ (Iff.of_eq (k0_chk22.eq_1 v147 v318))
theorem k0_idx22_inb : ∀ (v147 : IVec S16 32) (v318 : IVec S16 32) (k0_hw22 : k0_chk22 v147 v318), ∀ a x, ((![v147, v318] : Fin 2 → IVec S16 32) a x).toNat < S128x128.size a := fun v147 v318 k0_hw22 => k0_hw22

def k0_chk23 (v147 : IVec S16 32) (v323 : IVec S16 32) : Prop :=
  (∀ a x, ((![v147, v323] : Fin 2 → IVec S16 32) a x).toNat < S128x128.size a)
instance k0_chk23.dec : ∀ (v147 : IVec S16 32) (v323 : IVec S16 32), Decidable (k0_chk23 v147 v323) := fun v147 v323 => decidable_of_iff' _ (Iff.of_eq (k0_chk23.eq_1 v147 v323))
theorem k0_idx23_inb : ∀ (v147 : IVec S16 32) (v323 : IVec S16 32) (k0_hw23 : k0_chk23 v147 v323), ∀ a x, ((![v147, v323] : Fin 2 → IVec S16 32) a x).toNat < S128x128.size a := fun v147 v323 k0_hw23 => k0_hw23

def k0_chk24 (v147 : IVec S16 32) (v328 : IVec S16 32) : Prop :=
  (∀ a x, ((![v147, v328] : Fin 2 → IVec S16 32) a x).toNat < S128x128.size a)
instance k0_chk24.dec : ∀ (v147 : IVec S16 32) (v328 : IVec S16 32), Decidable (k0_chk24 v147 v328) := fun v147 v328 => decidable_of_iff' _ (Iff.of_eq (k0_chk24.eq_1 v147 v328))
theorem k0_idx24_inb : ∀ (v147 : IVec S16 32) (v328 : IVec S16 32) (k0_hw24 : k0_chk24 v147 v328), ∀ a x, ((![v147, v328] : Fin 2 → IVec S16 32) a x).toNat < S128x128.size a := fun v147 v328 k0_hw24 => k0_hw24

def k0_chk25 (v147 : IVec S16 32) (v333 : IVec S16 32) : Prop :=
  (∀ a x, ((![v147, v333] : Fin 2 → IVec S16 32) a x).toNat < S128x128.size a)
instance k0_chk25.dec : ∀ (v147 : IVec S16 32) (v333 : IVec S16 32), Decidable (k0_chk25 v147 v333) := fun v147 v333 => decidable_of_iff' _ (Iff.of_eq (k0_chk25.eq_1 v147 v333))
theorem k0_idx25_inb : ∀ (v147 : IVec S16 32) (v333 : IVec S16 32) (k0_hw25 : k0_chk25 v147 v333), ∀ a x, ((![v147, v333] : Fin 2 → IVec S16 32) a x).toNat < S128x128.size a := fun v147 v333 k0_hw25 => k0_hw25

def k0_chk26 (v147 : IVec S16 32) (v338 : IVec S16 32) : Prop :=
  (∀ a x, ((![v147, v338] : Fin 2 → IVec S16 32) a x).toNat < S128x128.size a)
instance k0_chk26.dec : ∀ (v147 : IVec S16 32) (v338 : IVec S16 32), Decidable (k0_chk26 v147 v338) := fun v147 v338 => decidable_of_iff' _ (Iff.of_eq (k0_chk26.eq_1 v147 v338))
theorem k0_idx26_inb : ∀ (v147 : IVec S16 32) (v338 : IVec S16 32) (k0_hw26 : k0_chk26 v147 v338), ∀ a x, ((![v147, v338] : Fin 2 → IVec S16 32) a x).toNat < S128x128.size a := fun v147 v338 k0_hw26 => k0_hw26

def k0_chk27 (v147 : IVec S16 32) (v343 : IVec S16 32) : Prop :=
  (∀ a x, ((![v147, v343] : Fin 2 → IVec S16 32) a x).toNat < S128x128.size a)
instance k0_chk27.dec : ∀ (v147 : IVec S16 32) (v343 : IVec S16 32), Decidable (k0_chk27 v147 v343) := fun v147 v343 => decidable_of_iff' _ (Iff.of_eq (k0_chk27.eq_1 v147 v343))
theorem k0_idx27_inb : ∀ (v147 : IVec S16 32) (v343 : IVec S16 32) (k0_hw27 : k0_chk27 v147 v343), ∀ a x, ((![v147, v343] : Fin 2 → IVec S16 32) a x).toNat < S128x128.size a := fun v147 v343 k0_hw27 => k0_hw27

def k0_chk28 (v147 : IVec S16 32) (v348 : IVec S16 32) : Prop :=
  (∀ a x, ((![v147, v348] : Fin 2 → IVec S16 32) a x).toNat < S128x128.size a)
instance k0_chk28.dec : ∀ (v147 : IVec S16 32) (v348 : IVec S16 32), Decidable (k0_chk28 v147 v348) := fun v147 v348 => decidable_of_iff' _ (Iff.of_eq (k0_chk28.eq_1 v147 v348))
theorem k0_idx28_inb : ∀ (v147 : IVec S16 32) (v348 : IVec S16 32) (k0_hw28 : k0_chk28 v147 v348), ∀ a x, ((![v147, v348] : Fin 2 → IVec S16 32) a x).toNat < S128x128.size a := fun v147 v348 k0_hw28 => k0_hw28

def k0_chk29 (v147 : IVec S16 32) (v353 : IVec S16 32) : Prop :=
  (∀ a x, ((![v147, v353] : Fin 2 → IVec S16 32) a x).toNat < S128x128.size a)
instance k0_chk29.dec : ∀ (v147 : IVec S16 32) (v353 : IVec S16 32), Decidable (k0_chk29 v147 v353) := fun v147 v353 => decidable_of_iff' _ (Iff.of_eq (k0_chk29.eq_1 v147 v353))
theorem k0_idx29_inb : ∀ (v147 : IVec S16 32) (v353 : IVec S16 32) (k0_hw29 : k0_chk29 v147 v353), ∀ a x, ((![v147, v353] : Fin 2 → IVec S16 32) a x).toNat < S128x128.size a := fun v147 v353 k0_hw29 => k0_hw29

def k0_chk30 (v147 : IVec S16 32) (v358 : IVec S16 32) : Prop :=
  (∀ a x, ((![v147, v358] : Fin 2 → IVec S16 32) a x).toNat < S128x128.size a)
instance k0_chk30.dec : ∀ (v147 : IVec S16 32) (v358 : IVec S16 32), Decidable (k0_chk30 v147 v358) := fun v147 v358 => decidable_of_iff' _ (Iff.of_eq (k0_chk30.eq_1 v147 v358))
theorem k0_idx30_inb : ∀ (v147 : IVec S16 32) (v358 : IVec S16 32) (k0_hw30 : k0_chk30 v147 v358), ∀ a x, ((![v147, v358] : Fin 2 → IVec S16 32) a x).toNat < S128x128.size a := fun v147 v358 k0_hw30 => k0_hw30

def k0_chk31 (v147 : IVec S16 32) (v363 : IVec S16 32) : Prop :=
  (∀ a x, ((![v147, v363] : Fin 2 → IVec S16 32) a x).toNat < S128x128.size a)
instance k0_chk31.dec : ∀ (v147 : IVec S16 32) (v363 : IVec S16 32), Decidable (k0_chk31 v147 v363) := fun v147 v363 => decidable_of_iff' _ (Iff.of_eq (k0_chk31.eq_1 v147 v363))
theorem k0_idx31_inb : ∀ (v147 : IVec S16 32) (v363 : IVec S16 32) (k0_hw31 : k0_chk31 v147 v363), ∀ a x, ((![v147, v363] : Fin 2 → IVec S16 32) a x).toNat < S128x128.size a := fun v147 v363 k0_hw31 => k0_hw31

def k0_chk32 (v147 : IVec S16 32) (v368 : IVec S16 32) : Prop :=
  (∀ a x, ((![v147, v368] : Fin 2 → IVec S16 32) a x).toNat < S128x128.size a)
instance k0_chk32.dec : ∀ (v147 : IVec S16 32) (v368 : IVec S16 32), Decidable (k0_chk32 v147 v368) := fun v147 v368 => decidable_of_iff' _ (Iff.of_eq (k0_chk32.eq_1 v147 v368))
theorem k0_idx32_inb : ∀ (v147 : IVec S16 32) (v368 : IVec S16 32) (k0_hw32 : k0_chk32 v147 v368), ∀ a x, ((![v147, v368] : Fin 2 → IVec S16 32) a x).toNat < S128x128.size a := fun v147 v368 k0_hw32 => k0_hw32
def k0_off22 (k0_t3 : Fin k0_t3_loop.trips) : Fin 3 → Nat :=
  let c0_i32_281 : BitVec 32 := 0#32
  let v372 : Index := Scalar.indexCast c0_i32_281
  let c16_i32_282 : BitVec 32 := 16#32
  let v373 : Index := Scalar.indexCast c16_i32_282
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v374 : Index := Scalar.indexCast v138
  ![0, 16, v374.toNat]
def k0_off23 (k0_t3 : Fin k0_t3_loop.trips) : Fin 3 → Nat :=
  let c0_i32_283 : BitVec 32 := 0#32
  let v376 : Index := Scalar.indexCast c0_i32_283
  let c17_i32_284 : BitVec 32 := 17#32
  let v377 : Index := Scalar.indexCast c17_i32_284
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v378 : Index := Scalar.indexCast v138
  ![0, 17, v378.toNat]
def k0_off24 (k0_t3 : Fin k0_t3_loop.trips) : Fin 3 → Nat :=
  let c0_i32_285 : BitVec 32 := 0#32
  let v380 : Index := Scalar.indexCast c0_i32_285
  let c18_i32_286 : BitVec 32 := 18#32
  let v381 : Index := Scalar.indexCast c18_i32_286
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v382 : Index := Scalar.indexCast v138
  ![0, 18, v382.toNat]
def k0_off25 (k0_t3 : Fin k0_t3_loop.trips) : Fin 3 → Nat :=
  let c0_i32_287 : BitVec 32 := 0#32
  let v384 : Index := Scalar.indexCast c0_i32_287
  let c19_i32_288 : BitVec 32 := 19#32
  let v385 : Index := Scalar.indexCast c19_i32_288
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v386 : Index := Scalar.indexCast v138
  ![0, 19, v386.toNat]
def k0_off26 (k0_t3 : Fin k0_t3_loop.trips) : Fin 3 → Nat :=
  let c0_i32_289 : BitVec 32 := 0#32
  let v388 : Index := Scalar.indexCast c0_i32_289
  let c20_i32_290 : BitVec 32 := 20#32
  let v389 : Index := Scalar.indexCast c20_i32_290
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v390 : Index := Scalar.indexCast v138
  ![0, 20, v390.toNat]
def k0_off27 (k0_t3 : Fin k0_t3_loop.trips) : Fin 3 → Nat :=
  let c0_i32_291 : BitVec 32 := 0#32
  let v392 : Index := Scalar.indexCast c0_i32_291
  let c21_i32_292 : BitVec 32 := 21#32
  let v393 : Index := Scalar.indexCast c21_i32_292
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v394 : Index := Scalar.indexCast v138
  ![0, 21, v394.toNat]
def k0_off28 (k0_t3 : Fin k0_t3_loop.trips) : Fin 3 → Nat :=
  let c0_i32_293 : BitVec 32 := 0#32
  let v396 : Index := Scalar.indexCast c0_i32_293
  let c22_i32_294 : BitVec 32 := 22#32
  let v397 : Index := Scalar.indexCast c22_i32_294
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v398 : Index := Scalar.indexCast v138
  ![0, 22, v398.toNat]
def k0_off29 (k0_t3 : Fin k0_t3_loop.trips) : Fin 3 → Nat :=
  let c0_i32_295 : BitVec 32 := 0#32
  let v400 : Index := Scalar.indexCast c0_i32_295
  let c23_i32_296 : BitVec 32 := 23#32
  let v401 : Index := Scalar.indexCast c23_i32_296
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v402 : Index := Scalar.indexCast v138
  ![0, 23, v402.toNat]
def k0_off30 (k0_t3 : Fin k0_t3_loop.trips) : Fin 3 → Nat :=
  let c0_i32_297 : BitVec 32 := 0#32
  let v404 : Index := Scalar.indexCast c0_i32_297
  let c24_i32_298 : BitVec 32 := 24#32
  let v405 : Index := Scalar.indexCast c24_i32_298
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v406 : Index := Scalar.indexCast v138
  ![0, 24, v406.toNat]
def k0_off31 (k0_t3 : Fin k0_t3_loop.trips) : Fin 3 → Nat :=
  let c0_i32_299 : BitVec 32 := 0#32
  let v408 : Index := Scalar.indexCast c0_i32_299
  let c25_i32_300 : BitVec 32 := 25#32
  let v409 : Index := Scalar.indexCast c25_i32_300
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v410 : Index := Scalar.indexCast v138
  ![0, 25, v410.toNat]
def k0_off32 (k0_t3 : Fin k0_t3_loop.trips) : Fin 3 → Nat :=
  let c0_i32_301 : BitVec 32 := 0#32
  let v412 : Index := Scalar.indexCast c0_i32_301
  let c26_i32_302 : BitVec 32 := 26#32
  let v413 : Index := Scalar.indexCast c26_i32_302
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v414 : Index := Scalar.indexCast v138
  ![0, 26, v414.toNat]
def k0_off33 (k0_t3 : Fin k0_t3_loop.trips) : Fin 3 → Nat :=
  let c0_i32_303 : BitVec 32 := 0#32
  let v416 : Index := Scalar.indexCast c0_i32_303
  let c27_i32_304 : BitVec 32 := 27#32
  let v417 : Index := Scalar.indexCast c27_i32_304
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v418 : Index := Scalar.indexCast v138
  ![0, 27, v418.toNat]
def k0_off34 (k0_t3 : Fin k0_t3_loop.trips) : Fin 3 → Nat :=
  let c0_i32_305 : BitVec 32 := 0#32
  let v420 : Index := Scalar.indexCast c0_i32_305
  let c28_i32_306 : BitVec 32 := 28#32
  let v421 : Index := Scalar.indexCast c28_i32_306
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v422 : Index := Scalar.indexCast v138
  ![0, 28, v422.toNat]
def k0_off35 (k0_t3 : Fin k0_t3_loop.trips) : Fin 3 → Nat :=
  let c0_i32_307 : BitVec 32 := 0#32
  let v424 : Index := Scalar.indexCast c0_i32_307
  let c29_i32_308 : BitVec 32 := 29#32
  let v425 : Index := Scalar.indexCast c29_i32_308
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v426 : Index := Scalar.indexCast v138
  ![0, 29, v426.toNat]
def k0_off36 (k0_t3 : Fin k0_t3_loop.trips) : Fin 3 → Nat :=
  let c0_i32_309 : BitVec 32 := 0#32
  let v428 : Index := Scalar.indexCast c0_i32_309
  let c30_i32_310 : BitVec 32 := 30#32
  let v429 : Index := Scalar.indexCast c30_i32_310
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v430 : Index := Scalar.indexCast v138
  ![0, 30, v430.toNat]
def k0_off37 (k0_t3 : Fin k0_t3_loop.trips) : Fin 3 → Nat :=
  let c0_i32_311 : BitVec 32 := 0#32
  let v432 : Index := Scalar.indexCast c0_i32_311
  let c31_i32_312 : BitVec 32 := 31#32
  let v433 : Index := Scalar.indexCast c31_i32_312
  let c0_i32_144 : BitVec 32 := 0#32
  let c0_i32_54 : BitVec 32 := 0#32
  let c1_i32_55 : BitVec 32 := 1#32
  let arg16 : BitVec 32 := Scf.iv c0_i32_54 c1_i32_55 k0_t3
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v434 : Index := Scalar.indexCast v138
  ![0, 31, v434.toNat]
def k0_off38 (i : grid0.Coords) (k0_t2 : Fin k0_t2_loop.trips) (c0_i32_43 : BitVec 32) : Fin 3 → Nat :=
  let c0_i32_57 : BitVec 32 := 0#32
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let v40 : BitVec 32 := Scalar.addi v39 c0_i32_43
  let v55 : BitVec 32 := Scalar.addi c0_i32_57 v40
  let c0_i32_61 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v55.toNat, 0, v2.toNat]
def k0_cond3 (k0_t2 : Fin k0_t2_loop.trips) : BitVec 1 :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c1_i32_65 : BitVec 32 := 1#32
  let v64 : BitVec 32 := Scalar.addi v39 c1_i32_65
  let c3_i32_66 : BitVec 32 := 3#32
  let v65 : BitVec 32 := Scalar.addi v64 c3_i32_66
  let c200_i32_67 : BitVec 32 := 200#32
  let v66 : BitVec 1 := Scalar.cmpi .slt v65 c200_i32_67
  let v67 : BitVec 32 := Scalar.extui v66
  let c0_i32_68 : BitVec 32 := 0#32
  let v68 : BitVec 1 := Scalar.cmpi .ne v67 c0_i32_68
  v68

def k0_off39 (k0_t2 : Fin k0_t2_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c1_i32_65 : BitVec 32 := 1#32
  let v64 : BitVec 32 := Scalar.addi v39 c1_i32_65
  let c3_i32_143 : BitVec 32 := 3#32
  let v136 : BitVec 32 := Scalar.addi v64 c3_i32_143
  let c0_i32_147 : BitVec 32 := 0#32
  ![v136.toNat, 0]
def k0_cond4 (k0_t2 : Fin k0_t2_loop.trips) : BitVec 1 :=
  let false_77 : BitVec 1 := 0#1
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c1_i32_65 : BitVec 32 := 1#32
  let v64 : BitVec 32 := Scalar.addi v39 c1_i32_65
  let c2_i32_76 : BitVec 32 := 2#32
  let v74 : BitVec 1 := Scalar.cmpi .sge v64 c2_i32_76
  let v75 : BitVec 1 := Scalar.ori false_77 v74
  let v76 : BitVec 32 := Scalar.extui v75
  let c0_i32_78 : BitVec 32 := 0#32
  let v77 : BitVec 1 := Scalar.cmpi .ne v76 c0_i32_78
  v77

def k0_off40 (i : grid0.Coords) : Fin 3 → Nat :=
  let c0_i32_144 : BitVec 32 := 0#32
  let c0_i32_147 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
@[reducible] def k0_t4_loop : Scf.Loop 32 :=
  let c0_i32_79 : BitVec 32 := 0#32
  let c8_i32_80 : BitVec 32 := 8#32
  let v78 : BitVec 32 := Scalar.addi c0_i32_79 c8_i32_80
  let c1_i32_81 : BitVec 32 := 1#32
  ⟨c0_i32_79, v78, c1_i32_81⟩
def k0_off41 (k0_t2 : Fin k0_t2_loop.trips) (k0_t4 : Fin k0_t4_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c1_i32_65 : BitVec 32 := 1#32
  let v64 : BitVec 32 := Scalar.addi v39 c1_i32_65
  let v139 : Index := Scalar.indexCast v64
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v140 : Index := Scalar.indexCast v138
  ![v139.toNat, v140.toNat]

def k0_chk33 (v147 : IVec S16 32) (v149 : IVec S16 32) : Prop :=
  (∀ a x, ((![v147, v149] : Fin 2 → IVec S16 32) a x).toNat < S128x128.size a)
instance k0_chk33.dec : ∀ (v147 : IVec S16 32) (v149 : IVec S16 32), Decidable (k0_chk33 v147 v149) := fun v147 v149 => decidable_of_iff' _ (Iff.of_eq (k0_chk33.eq_1 v147 v149))
theorem k0_idx33_inb : ∀ (v147 : IVec S16 32) (v149 : IVec S16 32) (k0_hw33 : k0_chk33 v147 v149), ∀ a x, ((![v147, v149] : Fin 2 → IVec S16 32) a x).toNat < S128x128.size a := fun v147 v149 k0_hw33 => k0_hw33

def k0_chk34 (v147 : IVec S16 32) (v154 : IVec S16 32) : Prop :=
  (∀ a x, ((![v147, v154] : Fin 2 → IVec S16 32) a x).toNat < S128x128.size a)
instance k0_chk34.dec : ∀ (v147 : IVec S16 32) (v154 : IVec S16 32), Decidable (k0_chk34 v147 v154) := fun v147 v154 => decidable_of_iff' _ (Iff.of_eq (k0_chk34.eq_1 v147 v154))
theorem k0_idx34_inb : ∀ (v147 : IVec S16 32) (v154 : IVec S16 32) (k0_hw34 : k0_chk34 v147 v154), ∀ a x, ((![v147, v154] : Fin 2 → IVec S16 32) a x).toNat < S128x128.size a := fun v147 v154 k0_hw34 => k0_hw34

def k0_chk35 (v147 : IVec S16 32) (v159 : IVec S16 32) : Prop :=
  (∀ a x, ((![v147, v159] : Fin 2 → IVec S16 32) a x).toNat < S128x128.size a)
instance k0_chk35.dec : ∀ (v147 : IVec S16 32) (v159 : IVec S16 32), Decidable (k0_chk35 v147 v159) := fun v147 v159 => decidable_of_iff' _ (Iff.of_eq (k0_chk35.eq_1 v147 v159))
theorem k0_idx35_inb : ∀ (v147 : IVec S16 32) (v159 : IVec S16 32) (k0_hw35 : k0_chk35 v147 v159), ∀ a x, ((![v147, v159] : Fin 2 → IVec S16 32) a x).toNat < S128x128.size a := fun v147 v159 k0_hw35 => k0_hw35

def k0_chk36 (v147 : IVec S16 32) (v164 : IVec S16 32) : Prop :=
  (∀ a x, ((![v147, v164] : Fin 2 → IVec S16 32) a x).toNat < S128x128.size a)
instance k0_chk36.dec : ∀ (v147 : IVec S16 32) (v164 : IVec S16 32), Decidable (k0_chk36 v147 v164) := fun v147 v164 => decidable_of_iff' _ (Iff.of_eq (k0_chk36.eq_1 v147 v164))
theorem k0_idx36_inb : ∀ (v147 : IVec S16 32) (v164 : IVec S16 32) (k0_hw36 : k0_chk36 v147 v164), ∀ a x, ((![v147, v164] : Fin 2 → IVec S16 32) a x).toNat < S128x128.size a := fun v147 v164 k0_hw36 => k0_hw36

def k0_chk37 (v147 : IVec S16 32) (v169 : IVec S16 32) : Prop :=
  (∀ a x, ((![v147, v169] : Fin 2 → IVec S16 32) a x).toNat < S128x128.size a)
instance k0_chk37.dec : ∀ (v147 : IVec S16 32) (v169 : IVec S16 32), Decidable (k0_chk37 v147 v169) := fun v147 v169 => decidable_of_iff' _ (Iff.of_eq (k0_chk37.eq_1 v147 v169))
theorem k0_idx37_inb : ∀ (v147 : IVec S16 32) (v169 : IVec S16 32) (k0_hw37 : k0_chk37 v147 v169), ∀ a x, ((![v147, v169] : Fin 2 → IVec S16 32) a x).toNat < S128x128.size a := fun v147 v169 k0_hw37 => k0_hw37

def k0_chk38 (v147 : IVec S16 32) (v174 : IVec S16 32) : Prop :=
  (∀ a x, ((![v147, v174] : Fin 2 → IVec S16 32) a x).toNat < S128x128.size a)
instance k0_chk38.dec : ∀ (v147 : IVec S16 32) (v174 : IVec S16 32), Decidable (k0_chk38 v147 v174) := fun v147 v174 => decidable_of_iff' _ (Iff.of_eq (k0_chk38.eq_1 v147 v174))
theorem k0_idx38_inb : ∀ (v147 : IVec S16 32) (v174 : IVec S16 32) (k0_hw38 : k0_chk38 v147 v174), ∀ a x, ((![v147, v174] : Fin 2 → IVec S16 32) a x).toNat < S128x128.size a := fun v147 v174 k0_hw38 => k0_hw38

def k0_chk39 (v147 : IVec S16 32) (v179 : IVec S16 32) : Prop :=
  (∀ a x, ((![v147, v179] : Fin 2 → IVec S16 32) a x).toNat < S128x128.size a)
instance k0_chk39.dec : ∀ (v147 : IVec S16 32) (v179 : IVec S16 32), Decidable (k0_chk39 v147 v179) := fun v147 v179 => decidable_of_iff' _ (Iff.of_eq (k0_chk39.eq_1 v147 v179))
theorem k0_idx39_inb : ∀ (v147 : IVec S16 32) (v179 : IVec S16 32) (k0_hw39 : k0_chk39 v147 v179), ∀ a x, ((![v147, v179] : Fin 2 → IVec S16 32) a x).toNat < S128x128.size a := fun v147 v179 k0_hw39 => k0_hw39

def k0_chk40 (v147 : IVec S16 32) (v184 : IVec S16 32) : Prop :=
  (∀ a x, ((![v147, v184] : Fin 2 → IVec S16 32) a x).toNat < S128x128.size a)
instance k0_chk40.dec : ∀ (v147 : IVec S16 32) (v184 : IVec S16 32), Decidable (k0_chk40 v147 v184) := fun v147 v184 => decidable_of_iff' _ (Iff.of_eq (k0_chk40.eq_1 v147 v184))
theorem k0_idx40_inb : ∀ (v147 : IVec S16 32) (v184 : IVec S16 32) (k0_hw40 : k0_chk40 v147 v184), ∀ a x, ((![v147, v184] : Fin 2 → IVec S16 32) a x).toNat < S128x128.size a := fun v147 v184 k0_hw40 => k0_hw40

def k0_chk41 (v147 : IVec S16 32) (v189 : IVec S16 32) : Prop :=
  (∀ a x, ((![v147, v189] : Fin 2 → IVec S16 32) a x).toNat < S128x128.size a)
instance k0_chk41.dec : ∀ (v147 : IVec S16 32) (v189 : IVec S16 32), Decidable (k0_chk41 v147 v189) := fun v147 v189 => decidable_of_iff' _ (Iff.of_eq (k0_chk41.eq_1 v147 v189))
theorem k0_idx41_inb : ∀ (v147 : IVec S16 32) (v189 : IVec S16 32) (k0_hw41 : k0_chk41 v147 v189), ∀ a x, ((![v147, v189] : Fin 2 → IVec S16 32) a x).toNat < S128x128.size a := fun v147 v189 k0_hw41 => k0_hw41

def k0_chk42 (v147 : IVec S16 32) (v194 : IVec S16 32) : Prop :=
  (∀ a x, ((![v147, v194] : Fin 2 → IVec S16 32) a x).toNat < S128x128.size a)
instance k0_chk42.dec : ∀ (v147 : IVec S16 32) (v194 : IVec S16 32), Decidable (k0_chk42 v147 v194) := fun v147 v194 => decidable_of_iff' _ (Iff.of_eq (k0_chk42.eq_1 v147 v194))
theorem k0_idx42_inb : ∀ (v147 : IVec S16 32) (v194 : IVec S16 32) (k0_hw42 : k0_chk42 v147 v194), ∀ a x, ((![v147, v194] : Fin 2 → IVec S16 32) a x).toNat < S128x128.size a := fun v147 v194 k0_hw42 => k0_hw42

def k0_chk43 (v147 : IVec S16 32) (v199 : IVec S16 32) : Prop :=
  (∀ a x, ((![v147, v199] : Fin 2 → IVec S16 32) a x).toNat < S128x128.size a)
instance k0_chk43.dec : ∀ (v147 : IVec S16 32) (v199 : IVec S16 32), Decidable (k0_chk43 v147 v199) := fun v147 v199 => decidable_of_iff' _ (Iff.of_eq (k0_chk43.eq_1 v147 v199))
theorem k0_idx43_inb : ∀ (v147 : IVec S16 32) (v199 : IVec S16 32) (k0_hw43 : k0_chk43 v147 v199), ∀ a x, ((![v147, v199] : Fin 2 → IVec S16 32) a x).toNat < S128x128.size a := fun v147 v199 k0_hw43 => k0_hw43

def k0_chk44 (v147 : IVec S16 32) (v204 : IVec S16 32) : Prop :=
  (∀ a x, ((![v147, v204] : Fin 2 → IVec S16 32) a x).toNat < S128x128.size a)
instance k0_chk44.dec : ∀ (v147 : IVec S16 32) (v204 : IVec S16 32), Decidable (k0_chk44 v147 v204) := fun v147 v204 => decidable_of_iff' _ (Iff.of_eq (k0_chk44.eq_1 v147 v204))
theorem k0_idx44_inb : ∀ (v147 : IVec S16 32) (v204 : IVec S16 32) (k0_hw44 : k0_chk44 v147 v204), ∀ a x, ((![v147, v204] : Fin 2 → IVec S16 32) a x).toNat < S128x128.size a := fun v147 v204 k0_hw44 => k0_hw44

def k0_chk45 (v147 : IVec S16 32) (v209 : IVec S16 32) : Prop :=
  (∀ a x, ((![v147, v209] : Fin 2 → IVec S16 32) a x).toNat < S128x128.size a)
instance k0_chk45.dec : ∀ (v147 : IVec S16 32) (v209 : IVec S16 32), Decidable (k0_chk45 v147 v209) := fun v147 v209 => decidable_of_iff' _ (Iff.of_eq (k0_chk45.eq_1 v147 v209))
theorem k0_idx45_inb : ∀ (v147 : IVec S16 32) (v209 : IVec S16 32) (k0_hw45 : k0_chk45 v147 v209), ∀ a x, ((![v147, v209] : Fin 2 → IVec S16 32) a x).toNat < S128x128.size a := fun v147 v209 k0_hw45 => k0_hw45

def k0_chk46 (v147 : IVec S16 32) (v214 : IVec S16 32) : Prop :=
  (∀ a x, ((![v147, v214] : Fin 2 → IVec S16 32) a x).toNat < S128x128.size a)
instance k0_chk46.dec : ∀ (v147 : IVec S16 32) (v214 : IVec S16 32), Decidable (k0_chk46 v147 v214) := fun v147 v214 => decidable_of_iff' _ (Iff.of_eq (k0_chk46.eq_1 v147 v214))
theorem k0_idx46_inb : ∀ (v147 : IVec S16 32) (v214 : IVec S16 32) (k0_hw46 : k0_chk46 v147 v214), ∀ a x, ((![v147, v214] : Fin 2 → IVec S16 32) a x).toNat < S128x128.size a := fun v147 v214 k0_hw46 => k0_hw46

def k0_chk47 (v147 : IVec S16 32) (v219 : IVec S16 32) : Prop :=
  (∀ a x, ((![v147, v219] : Fin 2 → IVec S16 32) a x).toNat < S128x128.size a)
instance k0_chk47.dec : ∀ (v147 : IVec S16 32) (v219 : IVec S16 32), Decidable (k0_chk47 v147 v219) := fun v147 v219 => decidable_of_iff' _ (Iff.of_eq (k0_chk47.eq_1 v147 v219))
theorem k0_idx47_inb : ∀ (v147 : IVec S16 32) (v219 : IVec S16 32) (k0_hw47 : k0_chk47 v147 v219), ∀ a x, ((![v147, v219] : Fin 2 → IVec S16 32) a x).toNat < S128x128.size a := fun v147 v219 k0_hw47 => k0_hw47

def k0_chk48 (v147 : IVec S16 32) (v224 : IVec S16 32) : Prop :=
  (∀ a x, ((![v147, v224] : Fin 2 → IVec S16 32) a x).toNat < S128x128.size a)
instance k0_chk48.dec : ∀ (v147 : IVec S16 32) (v224 : IVec S16 32), Decidable (k0_chk48 v147 v224) := fun v147 v224 => decidable_of_iff' _ (Iff.of_eq (k0_chk48.eq_1 v147 v224))
theorem k0_idx48_inb : ∀ (v147 : IVec S16 32) (v224 : IVec S16 32) (k0_hw48 : k0_chk48 v147 v224), ∀ a x, ((![v147, v224] : Fin 2 → IVec S16 32) a x).toNat < S128x128.size a := fun v147 v224 k0_hw48 => k0_hw48
def k0_off42 (k0_t4 : Fin k0_t4_loop.trips) : Fin 3 → Nat :=
  let c1_i32_200 : BitVec 32 := 1#32
  let v228 : Index := Scalar.indexCast c1_i32_200
  let c0_i32_201 : BitVec 32 := 0#32
  let v229 : Index := Scalar.indexCast c0_i32_201
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v230 : Index := Scalar.indexCast v138
  ![1, 0, v230.toNat]
def k0_off43 (k0_t4 : Fin k0_t4_loop.trips) : Fin 3 → Nat :=
  let c1_i32_202 : BitVec 32 := 1#32
  let v232 : Index := Scalar.indexCast c1_i32_202
  let c1_i32_203 : BitVec 32 := 1#32
  let v233 : Index := Scalar.indexCast c1_i32_203
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v234 : Index := Scalar.indexCast v138
  ![1, 1, v234.toNat]
def k0_off44 (k0_t4 : Fin k0_t4_loop.trips) : Fin 3 → Nat :=
  let c1_i32_204 : BitVec 32 := 1#32
  let v236 : Index := Scalar.indexCast c1_i32_204
  let c2_i32_205 : BitVec 32 := 2#32
  let v237 : Index := Scalar.indexCast c2_i32_205
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v238 : Index := Scalar.indexCast v138
  ![1, 2, v238.toNat]
def k0_off45 (k0_t4 : Fin k0_t4_loop.trips) : Fin 3 → Nat :=
  let c1_i32_206 : BitVec 32 := 1#32
  let v240 : Index := Scalar.indexCast c1_i32_206
  let c3_i32_207 : BitVec 32 := 3#32
  let v241 : Index := Scalar.indexCast c3_i32_207
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v242 : Index := Scalar.indexCast v138
  ![1, 3, v242.toNat]
def k0_off46 (k0_t4 : Fin k0_t4_loop.trips) : Fin 3 → Nat :=
  let c1_i32_208 : BitVec 32 := 1#32
  let v244 : Index := Scalar.indexCast c1_i32_208
  let c4_i32_209 : BitVec 32 := 4#32
  let v245 : Index := Scalar.indexCast c4_i32_209
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v246 : Index := Scalar.indexCast v138
  ![1, 4, v246.toNat]
def k0_off47 (k0_t4 : Fin k0_t4_loop.trips) : Fin 3 → Nat :=
  let c1_i32_210 : BitVec 32 := 1#32
  let v248 : Index := Scalar.indexCast c1_i32_210
  let c5_i32_211 : BitVec 32 := 5#32
  let v249 : Index := Scalar.indexCast c5_i32_211
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v250 : Index := Scalar.indexCast v138
  ![1, 5, v250.toNat]
def k0_off48 (k0_t4 : Fin k0_t4_loop.trips) : Fin 3 → Nat :=
  let c1_i32_212 : BitVec 32 := 1#32
  let v252 : Index := Scalar.indexCast c1_i32_212
  let c6_i32_213 : BitVec 32 := 6#32
  let v253 : Index := Scalar.indexCast c6_i32_213
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v254 : Index := Scalar.indexCast v138
  ![1, 6, v254.toNat]
def k0_off49 (k0_t4 : Fin k0_t4_loop.trips) : Fin 3 → Nat :=
  let c1_i32_214 : BitVec 32 := 1#32
  let v256 : Index := Scalar.indexCast c1_i32_214
  let c7_i32_215 : BitVec 32 := 7#32
  let v257 : Index := Scalar.indexCast c7_i32_215
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v258 : Index := Scalar.indexCast v138
  ![1, 7, v258.toNat]
def k0_off50 (k0_t4 : Fin k0_t4_loop.trips) : Fin 3 → Nat :=
  let c1_i32_216 : BitVec 32 := 1#32
  let v260 : Index := Scalar.indexCast c1_i32_216
  let c8_i32_217 : BitVec 32 := 8#32
  let v261 : Index := Scalar.indexCast c8_i32_217
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v262 : Index := Scalar.indexCast v138
  ![1, 8, v262.toNat]
def k0_off51 (k0_t4 : Fin k0_t4_loop.trips) : Fin 3 → Nat :=
  let c1_i32_218 : BitVec 32 := 1#32
  let v264 : Index := Scalar.indexCast c1_i32_218
  let c9_i32_219 : BitVec 32 := 9#32
  let v265 : Index := Scalar.indexCast c9_i32_219
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v266 : Index := Scalar.indexCast v138
  ![1, 9, v266.toNat]
def k0_off52 (k0_t4 : Fin k0_t4_loop.trips) : Fin 3 → Nat :=
  let c1_i32_220 : BitVec 32 := 1#32
  let v268 : Index := Scalar.indexCast c1_i32_220
  let c10_i32_221 : BitVec 32 := 10#32
  let v269 : Index := Scalar.indexCast c10_i32_221
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v270 : Index := Scalar.indexCast v138
  ![1, 10, v270.toNat]
def k0_off53 (k0_t4 : Fin k0_t4_loop.trips) : Fin 3 → Nat :=
  let c1_i32_222 : BitVec 32 := 1#32
  let v272 : Index := Scalar.indexCast c1_i32_222
  let c11_i32_223 : BitVec 32 := 11#32
  let v273 : Index := Scalar.indexCast c11_i32_223
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v274 : Index := Scalar.indexCast v138
  ![1, 11, v274.toNat]
def k0_off54 (k0_t4 : Fin k0_t4_loop.trips) : Fin 3 → Nat :=
  let c1_i32_224 : BitVec 32 := 1#32
  let v276 : Index := Scalar.indexCast c1_i32_224
  let c12_i32_225 : BitVec 32 := 12#32
  let v277 : Index := Scalar.indexCast c12_i32_225
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v278 : Index := Scalar.indexCast v138
  ![1, 12, v278.toNat]
def k0_off55 (k0_t4 : Fin k0_t4_loop.trips) : Fin 3 → Nat :=
  let c1_i32_226 : BitVec 32 := 1#32
  let v280 : Index := Scalar.indexCast c1_i32_226
  let c13_i32_227 : BitVec 32 := 13#32
  let v281 : Index := Scalar.indexCast c13_i32_227
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v282 : Index := Scalar.indexCast v138
  ![1, 13, v282.toNat]
def k0_off56 (k0_t4 : Fin k0_t4_loop.trips) : Fin 3 → Nat :=
  let c1_i32_228 : BitVec 32 := 1#32
  let v284 : Index := Scalar.indexCast c1_i32_228
  let c14_i32_229 : BitVec 32 := 14#32
  let v285 : Index := Scalar.indexCast c14_i32_229
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v286 : Index := Scalar.indexCast v138
  ![1, 14, v286.toNat]
def k0_off57 (k0_t4 : Fin k0_t4_loop.trips) : Fin 3 → Nat :=
  let c1_i32_230 : BitVec 32 := 1#32
  let v288 : Index := Scalar.indexCast c1_i32_230
  let c15_i32_231 : BitVec 32 := 15#32
  let v289 : Index := Scalar.indexCast c15_i32_231
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v290 : Index := Scalar.indexCast v138
  ![1, 15, v290.toNat]

def k0_chk49 (v147 : IVec S16 32) (v293 : IVec S16 32) : Prop :=
  (∀ a x, ((![v147, v293] : Fin 2 → IVec S16 32) a x).toNat < S128x128.size a)
instance k0_chk49.dec : ∀ (v147 : IVec S16 32) (v293 : IVec S16 32), Decidable (k0_chk49 v147 v293) := fun v147 v293 => decidable_of_iff' _ (Iff.of_eq (k0_chk49.eq_1 v147 v293))
theorem k0_idx49_inb : ∀ (v147 : IVec S16 32) (v293 : IVec S16 32) (k0_hw49 : k0_chk49 v147 v293), ∀ a x, ((![v147, v293] : Fin 2 → IVec S16 32) a x).toNat < S128x128.size a := fun v147 v293 k0_hw49 => k0_hw49

def k0_chk50 (v147 : IVec S16 32) (v298 : IVec S16 32) : Prop :=
  (∀ a x, ((![v147, v298] : Fin 2 → IVec S16 32) a x).toNat < S128x128.size a)
instance k0_chk50.dec : ∀ (v147 : IVec S16 32) (v298 : IVec S16 32), Decidable (k0_chk50 v147 v298) := fun v147 v298 => decidable_of_iff' _ (Iff.of_eq (k0_chk50.eq_1 v147 v298))
theorem k0_idx50_inb : ∀ (v147 : IVec S16 32) (v298 : IVec S16 32) (k0_hw50 : k0_chk50 v147 v298), ∀ a x, ((![v147, v298] : Fin 2 → IVec S16 32) a x).toNat < S128x128.size a := fun v147 v298 k0_hw50 => k0_hw50

def k0_chk51 (v147 : IVec S16 32) (v303 : IVec S16 32) : Prop :=
  (∀ a x, ((![v147, v303] : Fin 2 → IVec S16 32) a x).toNat < S128x128.size a)
instance k0_chk51.dec : ∀ (v147 : IVec S16 32) (v303 : IVec S16 32), Decidable (k0_chk51 v147 v303) := fun v147 v303 => decidable_of_iff' _ (Iff.of_eq (k0_chk51.eq_1 v147 v303))
theorem k0_idx51_inb : ∀ (v147 : IVec S16 32) (v303 : IVec S16 32) (k0_hw51 : k0_chk51 v147 v303), ∀ a x, ((![v147, v303] : Fin 2 → IVec S16 32) a x).toNat < S128x128.size a := fun v147 v303 k0_hw51 => k0_hw51

def k0_chk52 (v147 : IVec S16 32) (v308 : IVec S16 32) : Prop :=
  (∀ a x, ((![v147, v308] : Fin 2 → IVec S16 32) a x).toNat < S128x128.size a)
instance k0_chk52.dec : ∀ (v147 : IVec S16 32) (v308 : IVec S16 32), Decidable (k0_chk52 v147 v308) := fun v147 v308 => decidable_of_iff' _ (Iff.of_eq (k0_chk52.eq_1 v147 v308))
theorem k0_idx52_inb : ∀ (v147 : IVec S16 32) (v308 : IVec S16 32) (k0_hw52 : k0_chk52 v147 v308), ∀ a x, ((![v147, v308] : Fin 2 → IVec S16 32) a x).toNat < S128x128.size a := fun v147 v308 k0_hw52 => k0_hw52

def k0_chk53 (v147 : IVec S16 32) (v313 : IVec S16 32) : Prop :=
  (∀ a x, ((![v147, v313] : Fin 2 → IVec S16 32) a x).toNat < S128x128.size a)
instance k0_chk53.dec : ∀ (v147 : IVec S16 32) (v313 : IVec S16 32), Decidable (k0_chk53 v147 v313) := fun v147 v313 => decidable_of_iff' _ (Iff.of_eq (k0_chk53.eq_1 v147 v313))
theorem k0_idx53_inb : ∀ (v147 : IVec S16 32) (v313 : IVec S16 32) (k0_hw53 : k0_chk53 v147 v313), ∀ a x, ((![v147, v313] : Fin 2 → IVec S16 32) a x).toNat < S128x128.size a := fun v147 v313 k0_hw53 => k0_hw53

def k0_chk54 (v147 : IVec S16 32) (v318 : IVec S16 32) : Prop :=
  (∀ a x, ((![v147, v318] : Fin 2 → IVec S16 32) a x).toNat < S128x128.size a)
instance k0_chk54.dec : ∀ (v147 : IVec S16 32) (v318 : IVec S16 32), Decidable (k0_chk54 v147 v318) := fun v147 v318 => decidable_of_iff' _ (Iff.of_eq (k0_chk54.eq_1 v147 v318))
theorem k0_idx54_inb : ∀ (v147 : IVec S16 32) (v318 : IVec S16 32) (k0_hw54 : k0_chk54 v147 v318), ∀ a x, ((![v147, v318] : Fin 2 → IVec S16 32) a x).toNat < S128x128.size a := fun v147 v318 k0_hw54 => k0_hw54

def k0_chk55 (v147 : IVec S16 32) (v323 : IVec S16 32) : Prop :=
  (∀ a x, ((![v147, v323] : Fin 2 → IVec S16 32) a x).toNat < S128x128.size a)
instance k0_chk55.dec : ∀ (v147 : IVec S16 32) (v323 : IVec S16 32), Decidable (k0_chk55 v147 v323) := fun v147 v323 => decidable_of_iff' _ (Iff.of_eq (k0_chk55.eq_1 v147 v323))
theorem k0_idx55_inb : ∀ (v147 : IVec S16 32) (v323 : IVec S16 32) (k0_hw55 : k0_chk55 v147 v323), ∀ a x, ((![v147, v323] : Fin 2 → IVec S16 32) a x).toNat < S128x128.size a := fun v147 v323 k0_hw55 => k0_hw55

def k0_chk56 (v147 : IVec S16 32) (v328 : IVec S16 32) : Prop :=
  (∀ a x, ((![v147, v328] : Fin 2 → IVec S16 32) a x).toNat < S128x128.size a)
instance k0_chk56.dec : ∀ (v147 : IVec S16 32) (v328 : IVec S16 32), Decidable (k0_chk56 v147 v328) := fun v147 v328 => decidable_of_iff' _ (Iff.of_eq (k0_chk56.eq_1 v147 v328))
theorem k0_idx56_inb : ∀ (v147 : IVec S16 32) (v328 : IVec S16 32) (k0_hw56 : k0_chk56 v147 v328), ∀ a x, ((![v147, v328] : Fin 2 → IVec S16 32) a x).toNat < S128x128.size a := fun v147 v328 k0_hw56 => k0_hw56

def k0_chk57 (v147 : IVec S16 32) (v333 : IVec S16 32) : Prop :=
  (∀ a x, ((![v147, v333] : Fin 2 → IVec S16 32) a x).toNat < S128x128.size a)
instance k0_chk57.dec : ∀ (v147 : IVec S16 32) (v333 : IVec S16 32), Decidable (k0_chk57 v147 v333) := fun v147 v333 => decidable_of_iff' _ (Iff.of_eq (k0_chk57.eq_1 v147 v333))
theorem k0_idx57_inb : ∀ (v147 : IVec S16 32) (v333 : IVec S16 32) (k0_hw57 : k0_chk57 v147 v333), ∀ a x, ((![v147, v333] : Fin 2 → IVec S16 32) a x).toNat < S128x128.size a := fun v147 v333 k0_hw57 => k0_hw57

def k0_chk58 (v147 : IVec S16 32) (v338 : IVec S16 32) : Prop :=
  (∀ a x, ((![v147, v338] : Fin 2 → IVec S16 32) a x).toNat < S128x128.size a)
instance k0_chk58.dec : ∀ (v147 : IVec S16 32) (v338 : IVec S16 32), Decidable (k0_chk58 v147 v338) := fun v147 v338 => decidable_of_iff' _ (Iff.of_eq (k0_chk58.eq_1 v147 v338))
theorem k0_idx58_inb : ∀ (v147 : IVec S16 32) (v338 : IVec S16 32) (k0_hw58 : k0_chk58 v147 v338), ∀ a x, ((![v147, v338] : Fin 2 → IVec S16 32) a x).toNat < S128x128.size a := fun v147 v338 k0_hw58 => k0_hw58

def k0_chk59 (v147 : IVec S16 32) (v343 : IVec S16 32) : Prop :=
  (∀ a x, ((![v147, v343] : Fin 2 → IVec S16 32) a x).toNat < S128x128.size a)
instance k0_chk59.dec : ∀ (v147 : IVec S16 32) (v343 : IVec S16 32), Decidable (k0_chk59 v147 v343) := fun v147 v343 => decidable_of_iff' _ (Iff.of_eq (k0_chk59.eq_1 v147 v343))
theorem k0_idx59_inb : ∀ (v147 : IVec S16 32) (v343 : IVec S16 32) (k0_hw59 : k0_chk59 v147 v343), ∀ a x, ((![v147, v343] : Fin 2 → IVec S16 32) a x).toNat < S128x128.size a := fun v147 v343 k0_hw59 => k0_hw59

def k0_chk60 (v147 : IVec S16 32) (v348 : IVec S16 32) : Prop :=
  (∀ a x, ((![v147, v348] : Fin 2 → IVec S16 32) a x).toNat < S128x128.size a)
instance k0_chk60.dec : ∀ (v147 : IVec S16 32) (v348 : IVec S16 32), Decidable (k0_chk60 v147 v348) := fun v147 v348 => decidable_of_iff' _ (Iff.of_eq (k0_chk60.eq_1 v147 v348))
theorem k0_idx60_inb : ∀ (v147 : IVec S16 32) (v348 : IVec S16 32) (k0_hw60 : k0_chk60 v147 v348), ∀ a x, ((![v147, v348] : Fin 2 → IVec S16 32) a x).toNat < S128x128.size a := fun v147 v348 k0_hw60 => k0_hw60

def k0_chk61 (v147 : IVec S16 32) (v353 : IVec S16 32) : Prop :=
  (∀ a x, ((![v147, v353] : Fin 2 → IVec S16 32) a x).toNat < S128x128.size a)
instance k0_chk61.dec : ∀ (v147 : IVec S16 32) (v353 : IVec S16 32), Decidable (k0_chk61 v147 v353) := fun v147 v353 => decidable_of_iff' _ (Iff.of_eq (k0_chk61.eq_1 v147 v353))
theorem k0_idx61_inb : ∀ (v147 : IVec S16 32) (v353 : IVec S16 32) (k0_hw61 : k0_chk61 v147 v353), ∀ a x, ((![v147, v353] : Fin 2 → IVec S16 32) a x).toNat < S128x128.size a := fun v147 v353 k0_hw61 => k0_hw61

def k0_chk62 (v147 : IVec S16 32) (v358 : IVec S16 32) : Prop :=
  (∀ a x, ((![v147, v358] : Fin 2 → IVec S16 32) a x).toNat < S128x128.size a)
instance k0_chk62.dec : ∀ (v147 : IVec S16 32) (v358 : IVec S16 32), Decidable (k0_chk62 v147 v358) := fun v147 v358 => decidable_of_iff' _ (Iff.of_eq (k0_chk62.eq_1 v147 v358))
theorem k0_idx62_inb : ∀ (v147 : IVec S16 32) (v358 : IVec S16 32) (k0_hw62 : k0_chk62 v147 v358), ∀ a x, ((![v147, v358] : Fin 2 → IVec S16 32) a x).toNat < S128x128.size a := fun v147 v358 k0_hw62 => k0_hw62

def k0_chk63 (v147 : IVec S16 32) (v363 : IVec S16 32) : Prop :=
  (∀ a x, ((![v147, v363] : Fin 2 → IVec S16 32) a x).toNat < S128x128.size a)
instance k0_chk63.dec : ∀ (v147 : IVec S16 32) (v363 : IVec S16 32), Decidable (k0_chk63 v147 v363) := fun v147 v363 => decidable_of_iff' _ (Iff.of_eq (k0_chk63.eq_1 v147 v363))
theorem k0_idx63_inb : ∀ (v147 : IVec S16 32) (v363 : IVec S16 32) (k0_hw63 : k0_chk63 v147 v363), ∀ a x, ((![v147, v363] : Fin 2 → IVec S16 32) a x).toNat < S128x128.size a := fun v147 v363 k0_hw63 => k0_hw63

def k0_chk64 (v147 : IVec S16 32) (v368 : IVec S16 32) : Prop :=
  (∀ a x, ((![v147, v368] : Fin 2 → IVec S16 32) a x).toNat < S128x128.size a)
instance k0_chk64.dec : ∀ (v147 : IVec S16 32) (v368 : IVec S16 32), Decidable (k0_chk64 v147 v368) := fun v147 v368 => decidable_of_iff' _ (Iff.of_eq (k0_chk64.eq_1 v147 v368))
theorem k0_idx64_inb : ∀ (v147 : IVec S16 32) (v368 : IVec S16 32) (k0_hw64 : k0_chk64 v147 v368), ∀ a x, ((![v147, v368] : Fin 2 → IVec S16 32) a x).toNat < S128x128.size a := fun v147 v368 k0_hw64 => k0_hw64
def k0_off58 (k0_t4 : Fin k0_t4_loop.trips) : Fin 3 → Nat :=
  let c1_i32_281 : BitVec 32 := 1#32
  let v372 : Index := Scalar.indexCast c1_i32_281
  let c16_i32_282 : BitVec 32 := 16#32
  let v373 : Index := Scalar.indexCast c16_i32_282
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v374 : Index := Scalar.indexCast v138
  ![1, 16, v374.toNat]
def k0_off59 (k0_t4 : Fin k0_t4_loop.trips) : Fin 3 → Nat :=
  let c1_i32_283 : BitVec 32 := 1#32
  let v376 : Index := Scalar.indexCast c1_i32_283
  let c17_i32_284 : BitVec 32 := 17#32
  let v377 : Index := Scalar.indexCast c17_i32_284
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v378 : Index := Scalar.indexCast v138
  ![1, 17, v378.toNat]
def k0_off60 (k0_t4 : Fin k0_t4_loop.trips) : Fin 3 → Nat :=
  let c1_i32_285 : BitVec 32 := 1#32
  let v380 : Index := Scalar.indexCast c1_i32_285
  let c18_i32_286 : BitVec 32 := 18#32
  let v381 : Index := Scalar.indexCast c18_i32_286
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v382 : Index := Scalar.indexCast v138
  ![1, 18, v382.toNat]
def k0_off61 (k0_t4 : Fin k0_t4_loop.trips) : Fin 3 → Nat :=
  let c1_i32_287 : BitVec 32 := 1#32
  let v384 : Index := Scalar.indexCast c1_i32_287
  let c19_i32_288 : BitVec 32 := 19#32
  let v385 : Index := Scalar.indexCast c19_i32_288
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v386 : Index := Scalar.indexCast v138
  ![1, 19, v386.toNat]
def k0_off62 (k0_t4 : Fin k0_t4_loop.trips) : Fin 3 → Nat :=
  let c1_i32_289 : BitVec 32 := 1#32
  let v388 : Index := Scalar.indexCast c1_i32_289
  let c20_i32_290 : BitVec 32 := 20#32
  let v389 : Index := Scalar.indexCast c20_i32_290
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v390 : Index := Scalar.indexCast v138
  ![1, 20, v390.toNat]
def k0_off63 (k0_t4 : Fin k0_t4_loop.trips) : Fin 3 → Nat :=
  let c1_i32_291 : BitVec 32 := 1#32
  let v392 : Index := Scalar.indexCast c1_i32_291
  let c21_i32_292 : BitVec 32 := 21#32
  let v393 : Index := Scalar.indexCast c21_i32_292
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v394 : Index := Scalar.indexCast v138
  ![1, 21, v394.toNat]
def k0_off64 (k0_t4 : Fin k0_t4_loop.trips) : Fin 3 → Nat :=
  let c1_i32_293 : BitVec 32 := 1#32
  let v396 : Index := Scalar.indexCast c1_i32_293
  let c22_i32_294 : BitVec 32 := 22#32
  let v397 : Index := Scalar.indexCast c22_i32_294
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v398 : Index := Scalar.indexCast v138
  ![1, 22, v398.toNat]
def k0_off65 (k0_t4 : Fin k0_t4_loop.trips) : Fin 3 → Nat :=
  let c1_i32_295 : BitVec 32 := 1#32
  let v400 : Index := Scalar.indexCast c1_i32_295
  let c23_i32_296 : BitVec 32 := 23#32
  let v401 : Index := Scalar.indexCast c23_i32_296
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v402 : Index := Scalar.indexCast v138
  ![1, 23, v402.toNat]
def k0_off66 (k0_t4 : Fin k0_t4_loop.trips) : Fin 3 → Nat :=
  let c1_i32_297 : BitVec 32 := 1#32
  let v404 : Index := Scalar.indexCast c1_i32_297
  let c24_i32_298 : BitVec 32 := 24#32
  let v405 : Index := Scalar.indexCast c24_i32_298
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v406 : Index := Scalar.indexCast v138
  ![1, 24, v406.toNat]
def k0_off67 (k0_t4 : Fin k0_t4_loop.trips) : Fin 3 → Nat :=
  let c1_i32_299 : BitVec 32 := 1#32
  let v408 : Index := Scalar.indexCast c1_i32_299
  let c25_i32_300 : BitVec 32 := 25#32
  let v409 : Index := Scalar.indexCast c25_i32_300
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v410 : Index := Scalar.indexCast v138
  ![1, 25, v410.toNat]
def k0_off68 (k0_t4 : Fin k0_t4_loop.trips) : Fin 3 → Nat :=
  let c1_i32_301 : BitVec 32 := 1#32
  let v412 : Index := Scalar.indexCast c1_i32_301
  let c26_i32_302 : BitVec 32 := 26#32
  let v413 : Index := Scalar.indexCast c26_i32_302
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v414 : Index := Scalar.indexCast v138
  ![1, 26, v414.toNat]
def k0_off69 (k0_t4 : Fin k0_t4_loop.trips) : Fin 3 → Nat :=
  let c1_i32_303 : BitVec 32 := 1#32
  let v416 : Index := Scalar.indexCast c1_i32_303
  let c27_i32_304 : BitVec 32 := 27#32
  let v417 : Index := Scalar.indexCast c27_i32_304
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v418 : Index := Scalar.indexCast v138
  ![1, 27, v418.toNat]
def k0_off70 (k0_t4 : Fin k0_t4_loop.trips) : Fin 3 → Nat :=
  let c1_i32_305 : BitVec 32 := 1#32
  let v420 : Index := Scalar.indexCast c1_i32_305
  let c28_i32_306 : BitVec 32 := 28#32
  let v421 : Index := Scalar.indexCast c28_i32_306
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v422 : Index := Scalar.indexCast v138
  ![1, 28, v422.toNat]
def k0_off71 (k0_t4 : Fin k0_t4_loop.trips) : Fin 3 → Nat :=
  let c1_i32_307 : BitVec 32 := 1#32
  let v424 : Index := Scalar.indexCast c1_i32_307
  let c29_i32_308 : BitVec 32 := 29#32
  let v425 : Index := Scalar.indexCast c29_i32_308
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v426 : Index := Scalar.indexCast v138
  ![1, 29, v426.toNat]
def k0_off72 (k0_t4 : Fin k0_t4_loop.trips) : Fin 3 → Nat :=
  let c1_i32_309 : BitVec 32 := 1#32
  let v428 : Index := Scalar.indexCast c1_i32_309
  let c30_i32_310 : BitVec 32 := 30#32
  let v429 : Index := Scalar.indexCast c30_i32_310
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v430 : Index := Scalar.indexCast v138
  ![1, 30, v430.toNat]
def k0_off73 (k0_t4 : Fin k0_t4_loop.trips) : Fin 3 → Nat :=
  let c1_i32_311 : BitVec 32 := 1#32
  let v432 : Index := Scalar.indexCast c1_i32_311
  let c31_i32_312 : BitVec 32 := 31#32
  let v433 : Index := Scalar.indexCast c31_i32_312
  let c0_i32_144 : BitVec 32 := 0#32
  let c0_i32_79 : BitVec 32 := 0#32
  let c1_i32_81 : BitVec 32 := 1#32
  let arg16 : BitVec 32 := Scf.iv c0_i32_79 c1_i32_81 k0_t4
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v434 : Index := Scalar.indexCast v138
  ![1, 31, v434.toNat]
def k0_cond5 (k0_t2 : Fin k0_t2_loop.trips) : BitVec 1 :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c2_i32_91 : BitVec 32 := 2#32
  let v88 : BitVec 32 := Scalar.addi v39 c2_i32_91
  let c3_i32_92 : BitVec 32 := 3#32
  let v89 : BitVec 32 := Scalar.addi v88 c3_i32_92
  let c200_i32_93 : BitVec 32 := 200#32
  let v90 : BitVec 1 := Scalar.cmpi .slt v89 c200_i32_93
  let v91 : BitVec 32 := Scalar.extui v90
  let c0_i32_94 : BitVec 32 := 0#32
  let v92 : BitVec 1 := Scalar.cmpi .ne v91 c0_i32_94
  v92

def k0_off74 (k0_t2 : Fin k0_t2_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c2_i32_91 : BitVec 32 := 2#32
  let v88 : BitVec 32 := Scalar.addi v39 c2_i32_91
  let c3_i32_143 : BitVec 32 := 3#32
  let v136 : BitVec 32 := Scalar.addi v88 c3_i32_143
  let c0_i32_147 : BitVec 32 := 0#32
  ![v136.toNat, 0]
def k0_cond6 (k0_t2 : Fin k0_t2_loop.trips) : BitVec 1 :=
  let false_103 : BitVec 1 := 0#1
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c2_i32_91 : BitVec 32 := 2#32
  let v88 : BitVec 32 := Scalar.addi v39 c2_i32_91
  let c2_i32_102 : BitVec 32 := 2#32
  let v98 : BitVec 1 := Scalar.cmpi .sge v88 c2_i32_102
  let v99 : BitVec 1 := Scalar.ori false_103 v98
  let v100 : BitVec 32 := Scalar.extui v99
  let c0_i32_104 : BitVec 32 := 0#32
  let v101 : BitVec 1 := Scalar.cmpi .ne v100 c0_i32_104
  v101

def k0_off75 (i : grid0.Coords) : Fin 3 → Nat :=
  let c0_i32_144 : BitVec 32 := 0#32
  let c0_i32_147 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
@[reducible] def k0_t5_loop : Scf.Loop 32 :=
  let c0_i32_105 : BitVec 32 := 0#32
  let c8_i32_106 : BitVec 32 := 8#32
  let v102 : BitVec 32 := Scalar.addi c0_i32_105 c8_i32_106
  let c1_i32_107 : BitVec 32 := 1#32
  ⟨c0_i32_105, v102, c1_i32_107⟩
def k0_off76 (k0_t2 : Fin k0_t2_loop.trips) (k0_t5 : Fin k0_t5_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c2_i32_91 : BitVec 32 := 2#32
  let v88 : BitVec 32 := Scalar.addi v39 c2_i32_91
  let v139 : Index := Scalar.indexCast v88
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v140 : Index := Scalar.indexCast v138
  ![v139.toNat, v140.toNat]

def k0_chk65 (v147 : IVec S16 32) (v149 : IVec S16 32) : Prop :=
  (∀ a x, ((![v147, v149] : Fin 2 → IVec S16 32) a x).toNat < S128x128.size a)
instance k0_chk65.dec : ∀ (v147 : IVec S16 32) (v149 : IVec S16 32), Decidable (k0_chk65 v147 v149) := fun v147 v149 => decidable_of_iff' _ (Iff.of_eq (k0_chk65.eq_1 v147 v149))
theorem k0_idx65_inb : ∀ (v147 : IVec S16 32) (v149 : IVec S16 32) (k0_hw65 : k0_chk65 v147 v149), ∀ a x, ((![v147, v149] : Fin 2 → IVec S16 32) a x).toNat < S128x128.size a := fun v147 v149 k0_hw65 => k0_hw65

def k0_chk66 (v147 : IVec S16 32) (v154 : IVec S16 32) : Prop :=
  (∀ a x, ((![v147, v154] : Fin 2 → IVec S16 32) a x).toNat < S128x128.size a)
instance k0_chk66.dec : ∀ (v147 : IVec S16 32) (v154 : IVec S16 32), Decidable (k0_chk66 v147 v154) := fun v147 v154 => decidable_of_iff' _ (Iff.of_eq (k0_chk66.eq_1 v147 v154))
theorem k0_idx66_inb : ∀ (v147 : IVec S16 32) (v154 : IVec S16 32) (k0_hw66 : k0_chk66 v147 v154), ∀ a x, ((![v147, v154] : Fin 2 → IVec S16 32) a x).toNat < S128x128.size a := fun v147 v154 k0_hw66 => k0_hw66

def k0_chk67 (v147 : IVec S16 32) (v159 : IVec S16 32) : Prop :=
  (∀ a x, ((![v147, v159] : Fin 2 → IVec S16 32) a x).toNat < S128x128.size a)
instance k0_chk67.dec : ∀ (v147 : IVec S16 32) (v159 : IVec S16 32), Decidable (k0_chk67 v147 v159) := fun v147 v159 => decidable_of_iff' _ (Iff.of_eq (k0_chk67.eq_1 v147 v159))
theorem k0_idx67_inb : ∀ (v147 : IVec S16 32) (v159 : IVec S16 32) (k0_hw67 : k0_chk67 v147 v159), ∀ a x, ((![v147, v159] : Fin 2 → IVec S16 32) a x).toNat < S128x128.size a := fun v147 v159 k0_hw67 => k0_hw67

def k0_chk68 (v147 : IVec S16 32) (v164 : IVec S16 32) : Prop :=
  (∀ a x, ((![v147, v164] : Fin 2 → IVec S16 32) a x).toNat < S128x128.size a)
instance k0_chk68.dec : ∀ (v147 : IVec S16 32) (v164 : IVec S16 32), Decidable (k0_chk68 v147 v164) := fun v147 v164 => decidable_of_iff' _ (Iff.of_eq (k0_chk68.eq_1 v147 v164))
theorem k0_idx68_inb : ∀ (v147 : IVec S16 32) (v164 : IVec S16 32) (k0_hw68 : k0_chk68 v147 v164), ∀ a x, ((![v147, v164] : Fin 2 → IVec S16 32) a x).toNat < S128x128.size a := fun v147 v164 k0_hw68 => k0_hw68

def k0_chk69 (v147 : IVec S16 32) (v169 : IVec S16 32) : Prop :=
  (∀ a x, ((![v147, v169] : Fin 2 → IVec S16 32) a x).toNat < S128x128.size a)
instance k0_chk69.dec : ∀ (v147 : IVec S16 32) (v169 : IVec S16 32), Decidable (k0_chk69 v147 v169) := fun v147 v169 => decidable_of_iff' _ (Iff.of_eq (k0_chk69.eq_1 v147 v169))
theorem k0_idx69_inb : ∀ (v147 : IVec S16 32) (v169 : IVec S16 32) (k0_hw69 : k0_chk69 v147 v169), ∀ a x, ((![v147, v169] : Fin 2 → IVec S16 32) a x).toNat < S128x128.size a := fun v147 v169 k0_hw69 => k0_hw69

def k0_chk70 (v147 : IVec S16 32) (v174 : IVec S16 32) : Prop :=
  (∀ a x, ((![v147, v174] : Fin 2 → IVec S16 32) a x).toNat < S128x128.size a)
instance k0_chk70.dec : ∀ (v147 : IVec S16 32) (v174 : IVec S16 32), Decidable (k0_chk70 v147 v174) := fun v147 v174 => decidable_of_iff' _ (Iff.of_eq (k0_chk70.eq_1 v147 v174))
theorem k0_idx70_inb : ∀ (v147 : IVec S16 32) (v174 : IVec S16 32) (k0_hw70 : k0_chk70 v147 v174), ∀ a x, ((![v147, v174] : Fin 2 → IVec S16 32) a x).toNat < S128x128.size a := fun v147 v174 k0_hw70 => k0_hw70

def k0_chk71 (v147 : IVec S16 32) (v179 : IVec S16 32) : Prop :=
  (∀ a x, ((![v147, v179] : Fin 2 → IVec S16 32) a x).toNat < S128x128.size a)
instance k0_chk71.dec : ∀ (v147 : IVec S16 32) (v179 : IVec S16 32), Decidable (k0_chk71 v147 v179) := fun v147 v179 => decidable_of_iff' _ (Iff.of_eq (k0_chk71.eq_1 v147 v179))
theorem k0_idx71_inb : ∀ (v147 : IVec S16 32) (v179 : IVec S16 32) (k0_hw71 : k0_chk71 v147 v179), ∀ a x, ((![v147, v179] : Fin 2 → IVec S16 32) a x).toNat < S128x128.size a := fun v147 v179 k0_hw71 => k0_hw71

def k0_chk72 (v147 : IVec S16 32) (v184 : IVec S16 32) : Prop :=
  (∀ a x, ((![v147, v184] : Fin 2 → IVec S16 32) a x).toNat < S128x128.size a)
instance k0_chk72.dec : ∀ (v147 : IVec S16 32) (v184 : IVec S16 32), Decidable (k0_chk72 v147 v184) := fun v147 v184 => decidable_of_iff' _ (Iff.of_eq (k0_chk72.eq_1 v147 v184))
theorem k0_idx72_inb : ∀ (v147 : IVec S16 32) (v184 : IVec S16 32) (k0_hw72 : k0_chk72 v147 v184), ∀ a x, ((![v147, v184] : Fin 2 → IVec S16 32) a x).toNat < S128x128.size a := fun v147 v184 k0_hw72 => k0_hw72

def k0_chk73 (v147 : IVec S16 32) (v189 : IVec S16 32) : Prop :=
  (∀ a x, ((![v147, v189] : Fin 2 → IVec S16 32) a x).toNat < S128x128.size a)
instance k0_chk73.dec : ∀ (v147 : IVec S16 32) (v189 : IVec S16 32), Decidable (k0_chk73 v147 v189) := fun v147 v189 => decidable_of_iff' _ (Iff.of_eq (k0_chk73.eq_1 v147 v189))
theorem k0_idx73_inb : ∀ (v147 : IVec S16 32) (v189 : IVec S16 32) (k0_hw73 : k0_chk73 v147 v189), ∀ a x, ((![v147, v189] : Fin 2 → IVec S16 32) a x).toNat < S128x128.size a := fun v147 v189 k0_hw73 => k0_hw73

def k0_chk74 (v147 : IVec S16 32) (v194 : IVec S16 32) : Prop :=
  (∀ a x, ((![v147, v194] : Fin 2 → IVec S16 32) a x).toNat < S128x128.size a)
instance k0_chk74.dec : ∀ (v147 : IVec S16 32) (v194 : IVec S16 32), Decidable (k0_chk74 v147 v194) := fun v147 v194 => decidable_of_iff' _ (Iff.of_eq (k0_chk74.eq_1 v147 v194))
theorem k0_idx74_inb : ∀ (v147 : IVec S16 32) (v194 : IVec S16 32) (k0_hw74 : k0_chk74 v147 v194), ∀ a x, ((![v147, v194] : Fin 2 → IVec S16 32) a x).toNat < S128x128.size a := fun v147 v194 k0_hw74 => k0_hw74

def k0_chk75 (v147 : IVec S16 32) (v199 : IVec S16 32) : Prop :=
  (∀ a x, ((![v147, v199] : Fin 2 → IVec S16 32) a x).toNat < S128x128.size a)
instance k0_chk75.dec : ∀ (v147 : IVec S16 32) (v199 : IVec S16 32), Decidable (k0_chk75 v147 v199) := fun v147 v199 => decidable_of_iff' _ (Iff.of_eq (k0_chk75.eq_1 v147 v199))
theorem k0_idx75_inb : ∀ (v147 : IVec S16 32) (v199 : IVec S16 32) (k0_hw75 : k0_chk75 v147 v199), ∀ a x, ((![v147, v199] : Fin 2 → IVec S16 32) a x).toNat < S128x128.size a := fun v147 v199 k0_hw75 => k0_hw75

def k0_chk76 (v147 : IVec S16 32) (v204 : IVec S16 32) : Prop :=
  (∀ a x, ((![v147, v204] : Fin 2 → IVec S16 32) a x).toNat < S128x128.size a)
instance k0_chk76.dec : ∀ (v147 : IVec S16 32) (v204 : IVec S16 32), Decidable (k0_chk76 v147 v204) := fun v147 v204 => decidable_of_iff' _ (Iff.of_eq (k0_chk76.eq_1 v147 v204))
theorem k0_idx76_inb : ∀ (v147 : IVec S16 32) (v204 : IVec S16 32) (k0_hw76 : k0_chk76 v147 v204), ∀ a x, ((![v147, v204] : Fin 2 → IVec S16 32) a x).toNat < S128x128.size a := fun v147 v204 k0_hw76 => k0_hw76

def k0_chk77 (v147 : IVec S16 32) (v209 : IVec S16 32) : Prop :=
  (∀ a x, ((![v147, v209] : Fin 2 → IVec S16 32) a x).toNat < S128x128.size a)
instance k0_chk77.dec : ∀ (v147 : IVec S16 32) (v209 : IVec S16 32), Decidable (k0_chk77 v147 v209) := fun v147 v209 => decidable_of_iff' _ (Iff.of_eq (k0_chk77.eq_1 v147 v209))
theorem k0_idx77_inb : ∀ (v147 : IVec S16 32) (v209 : IVec S16 32) (k0_hw77 : k0_chk77 v147 v209), ∀ a x, ((![v147, v209] : Fin 2 → IVec S16 32) a x).toNat < S128x128.size a := fun v147 v209 k0_hw77 => k0_hw77

def k0_chk78 (v147 : IVec S16 32) (v214 : IVec S16 32) : Prop :=
  (∀ a x, ((![v147, v214] : Fin 2 → IVec S16 32) a x).toNat < S128x128.size a)
instance k0_chk78.dec : ∀ (v147 : IVec S16 32) (v214 : IVec S16 32), Decidable (k0_chk78 v147 v214) := fun v147 v214 => decidable_of_iff' _ (Iff.of_eq (k0_chk78.eq_1 v147 v214))
theorem k0_idx78_inb : ∀ (v147 : IVec S16 32) (v214 : IVec S16 32) (k0_hw78 : k0_chk78 v147 v214), ∀ a x, ((![v147, v214] : Fin 2 → IVec S16 32) a x).toNat < S128x128.size a := fun v147 v214 k0_hw78 => k0_hw78

def k0_chk79 (v147 : IVec S16 32) (v219 : IVec S16 32) : Prop :=
  (∀ a x, ((![v147, v219] : Fin 2 → IVec S16 32) a x).toNat < S128x128.size a)
instance k0_chk79.dec : ∀ (v147 : IVec S16 32) (v219 : IVec S16 32), Decidable (k0_chk79 v147 v219) := fun v147 v219 => decidable_of_iff' _ (Iff.of_eq (k0_chk79.eq_1 v147 v219))
theorem k0_idx79_inb : ∀ (v147 : IVec S16 32) (v219 : IVec S16 32) (k0_hw79 : k0_chk79 v147 v219), ∀ a x, ((![v147, v219] : Fin 2 → IVec S16 32) a x).toNat < S128x128.size a := fun v147 v219 k0_hw79 => k0_hw79

def k0_chk80 (v147 : IVec S16 32) (v224 : IVec S16 32) : Prop :=
  (∀ a x, ((![v147, v224] : Fin 2 → IVec S16 32) a x).toNat < S128x128.size a)
instance k0_chk80.dec : ∀ (v147 : IVec S16 32) (v224 : IVec S16 32), Decidable (k0_chk80 v147 v224) := fun v147 v224 => decidable_of_iff' _ (Iff.of_eq (k0_chk80.eq_1 v147 v224))
theorem k0_idx80_inb : ∀ (v147 : IVec S16 32) (v224 : IVec S16 32) (k0_hw80 : k0_chk80 v147 v224), ∀ a x, ((![v147, v224] : Fin 2 → IVec S16 32) a x).toNat < S128x128.size a := fun v147 v224 k0_hw80 => k0_hw80
def k0_off77 (k0_t5 : Fin k0_t5_loop.trips) : Fin 3 → Nat :=
  let c0_i32_200 : BitVec 32 := 0#32
  let v228 : Index := Scalar.indexCast c0_i32_200
  let c0_i32_201 : BitVec 32 := 0#32
  let v229 : Index := Scalar.indexCast c0_i32_201
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v230 : Index := Scalar.indexCast v138
  ![0, 0, v230.toNat]
def k0_off78 (k0_t5 : Fin k0_t5_loop.trips) : Fin 3 → Nat :=
  let c0_i32_202 : BitVec 32 := 0#32
  let v232 : Index := Scalar.indexCast c0_i32_202
  let c1_i32_203 : BitVec 32 := 1#32
  let v233 : Index := Scalar.indexCast c1_i32_203
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v234 : Index := Scalar.indexCast v138
  ![0, 1, v234.toNat]
def k0_off79 (k0_t5 : Fin k0_t5_loop.trips) : Fin 3 → Nat :=
  let c0_i32_204 : BitVec 32 := 0#32
  let v236 : Index := Scalar.indexCast c0_i32_204
  let c2_i32_205 : BitVec 32 := 2#32
  let v237 : Index := Scalar.indexCast c2_i32_205
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v238 : Index := Scalar.indexCast v138
  ![0, 2, v238.toNat]
def k0_off80 (k0_t5 : Fin k0_t5_loop.trips) : Fin 3 → Nat :=
  let c0_i32_206 : BitVec 32 := 0#32
  let v240 : Index := Scalar.indexCast c0_i32_206
  let c3_i32_207 : BitVec 32 := 3#32
  let v241 : Index := Scalar.indexCast c3_i32_207
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v242 : Index := Scalar.indexCast v138
  ![0, 3, v242.toNat]
def k0_off81 (k0_t5 : Fin k0_t5_loop.trips) : Fin 3 → Nat :=
  let c0_i32_208 : BitVec 32 := 0#32
  let v244 : Index := Scalar.indexCast c0_i32_208
  let c4_i32_209 : BitVec 32 := 4#32
  let v245 : Index := Scalar.indexCast c4_i32_209
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v246 : Index := Scalar.indexCast v138
  ![0, 4, v246.toNat]
def k0_off82 (k0_t5 : Fin k0_t5_loop.trips) : Fin 3 → Nat :=
  let c0_i32_210 : BitVec 32 := 0#32
  let v248 : Index := Scalar.indexCast c0_i32_210
  let c5_i32_211 : BitVec 32 := 5#32
  let v249 : Index := Scalar.indexCast c5_i32_211
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v250 : Index := Scalar.indexCast v138
  ![0, 5, v250.toNat]
def k0_off83 (k0_t5 : Fin k0_t5_loop.trips) : Fin 3 → Nat :=
  let c0_i32_212 : BitVec 32 := 0#32
  let v252 : Index := Scalar.indexCast c0_i32_212
  let c6_i32_213 : BitVec 32 := 6#32
  let v253 : Index := Scalar.indexCast c6_i32_213
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v254 : Index := Scalar.indexCast v138
  ![0, 6, v254.toNat]
def k0_off84 (k0_t5 : Fin k0_t5_loop.trips) : Fin 3 → Nat :=
  let c0_i32_214 : BitVec 32 := 0#32
  let v256 : Index := Scalar.indexCast c0_i32_214
  let c7_i32_215 : BitVec 32 := 7#32
  let v257 : Index := Scalar.indexCast c7_i32_215
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v258 : Index := Scalar.indexCast v138
  ![0, 7, v258.toNat]
def k0_off85 (k0_t5 : Fin k0_t5_loop.trips) : Fin 3 → Nat :=
  let c0_i32_216 : BitVec 32 := 0#32
  let v260 : Index := Scalar.indexCast c0_i32_216
  let c8_i32_217 : BitVec 32 := 8#32
  let v261 : Index := Scalar.indexCast c8_i32_217
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v262 : Index := Scalar.indexCast v138
  ![0, 8, v262.toNat]
def k0_off86 (k0_t5 : Fin k0_t5_loop.trips) : Fin 3 → Nat :=
  let c0_i32_218 : BitVec 32 := 0#32
  let v264 : Index := Scalar.indexCast c0_i32_218
  let c9_i32_219 : BitVec 32 := 9#32
  let v265 : Index := Scalar.indexCast c9_i32_219
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v266 : Index := Scalar.indexCast v138
  ![0, 9, v266.toNat]
def k0_off87 (k0_t5 : Fin k0_t5_loop.trips) : Fin 3 → Nat :=
  let c0_i32_220 : BitVec 32 := 0#32
  let v268 : Index := Scalar.indexCast c0_i32_220
  let c10_i32_221 : BitVec 32 := 10#32
  let v269 : Index := Scalar.indexCast c10_i32_221
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v270 : Index := Scalar.indexCast v138
  ![0, 10, v270.toNat]
def k0_off88 (k0_t5 : Fin k0_t5_loop.trips) : Fin 3 → Nat :=
  let c0_i32_222 : BitVec 32 := 0#32
  let v272 : Index := Scalar.indexCast c0_i32_222
  let c11_i32_223 : BitVec 32 := 11#32
  let v273 : Index := Scalar.indexCast c11_i32_223
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v274 : Index := Scalar.indexCast v138
  ![0, 11, v274.toNat]
def k0_off89 (k0_t5 : Fin k0_t5_loop.trips) : Fin 3 → Nat :=
  let c0_i32_224 : BitVec 32 := 0#32
  let v276 : Index := Scalar.indexCast c0_i32_224
  let c12_i32_225 : BitVec 32 := 12#32
  let v277 : Index := Scalar.indexCast c12_i32_225
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v278 : Index := Scalar.indexCast v138
  ![0, 12, v278.toNat]
def k0_off90 (k0_t5 : Fin k0_t5_loop.trips) : Fin 3 → Nat :=
  let c0_i32_226 : BitVec 32 := 0#32
  let v280 : Index := Scalar.indexCast c0_i32_226
  let c13_i32_227 : BitVec 32 := 13#32
  let v281 : Index := Scalar.indexCast c13_i32_227
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v282 : Index := Scalar.indexCast v138
  ![0, 13, v282.toNat]
def k0_off91 (k0_t5 : Fin k0_t5_loop.trips) : Fin 3 → Nat :=
  let c0_i32_228 : BitVec 32 := 0#32
  let v284 : Index := Scalar.indexCast c0_i32_228
  let c14_i32_229 : BitVec 32 := 14#32
  let v285 : Index := Scalar.indexCast c14_i32_229
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v286 : Index := Scalar.indexCast v138
  ![0, 14, v286.toNat]
def k0_off92 (k0_t5 : Fin k0_t5_loop.trips) : Fin 3 → Nat :=
  let c0_i32_230 : BitVec 32 := 0#32
  let v288 : Index := Scalar.indexCast c0_i32_230
  let c15_i32_231 : BitVec 32 := 15#32
  let v289 : Index := Scalar.indexCast c15_i32_231
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v290 : Index := Scalar.indexCast v138
  ![0, 15, v290.toNat]

def k0_chk81 (v147 : IVec S16 32) (v293 : IVec S16 32) : Prop :=
  (∀ a x, ((![v147, v293] : Fin 2 → IVec S16 32) a x).toNat < S128x128.size a)
instance k0_chk81.dec : ∀ (v147 : IVec S16 32) (v293 : IVec S16 32), Decidable (k0_chk81 v147 v293) := fun v147 v293 => decidable_of_iff' _ (Iff.of_eq (k0_chk81.eq_1 v147 v293))
theorem k0_idx81_inb : ∀ (v147 : IVec S16 32) (v293 : IVec S16 32) (k0_hw81 : k0_chk81 v147 v293), ∀ a x, ((![v147, v293] : Fin 2 → IVec S16 32) a x).toNat < S128x128.size a := fun v147 v293 k0_hw81 => k0_hw81

def k0_chk82 (v147 : IVec S16 32) (v298 : IVec S16 32) : Prop :=
  (∀ a x, ((![v147, v298] : Fin 2 → IVec S16 32) a x).toNat < S128x128.size a)
instance k0_chk82.dec : ∀ (v147 : IVec S16 32) (v298 : IVec S16 32), Decidable (k0_chk82 v147 v298) := fun v147 v298 => decidable_of_iff' _ (Iff.of_eq (k0_chk82.eq_1 v147 v298))
theorem k0_idx82_inb : ∀ (v147 : IVec S16 32) (v298 : IVec S16 32) (k0_hw82 : k0_chk82 v147 v298), ∀ a x, ((![v147, v298] : Fin 2 → IVec S16 32) a x).toNat < S128x128.size a := fun v147 v298 k0_hw82 => k0_hw82

def k0_chk83 (v147 : IVec S16 32) (v303 : IVec S16 32) : Prop :=
  (∀ a x, ((![v147, v303] : Fin 2 → IVec S16 32) a x).toNat < S128x128.size a)
instance k0_chk83.dec : ∀ (v147 : IVec S16 32) (v303 : IVec S16 32), Decidable (k0_chk83 v147 v303) := fun v147 v303 => decidable_of_iff' _ (Iff.of_eq (k0_chk83.eq_1 v147 v303))
theorem k0_idx83_inb : ∀ (v147 : IVec S16 32) (v303 : IVec S16 32) (k0_hw83 : k0_chk83 v147 v303), ∀ a x, ((![v147, v303] : Fin 2 → IVec S16 32) a x).toNat < S128x128.size a := fun v147 v303 k0_hw83 => k0_hw83

def k0_chk84 (v147 : IVec S16 32) (v308 : IVec S16 32) : Prop :=
  (∀ a x, ((![v147, v308] : Fin 2 → IVec S16 32) a x).toNat < S128x128.size a)
instance k0_chk84.dec : ∀ (v147 : IVec S16 32) (v308 : IVec S16 32), Decidable (k0_chk84 v147 v308) := fun v147 v308 => decidable_of_iff' _ (Iff.of_eq (k0_chk84.eq_1 v147 v308))
theorem k0_idx84_inb : ∀ (v147 : IVec S16 32) (v308 : IVec S16 32) (k0_hw84 : k0_chk84 v147 v308), ∀ a x, ((![v147, v308] : Fin 2 → IVec S16 32) a x).toNat < S128x128.size a := fun v147 v308 k0_hw84 => k0_hw84

def k0_chk85 (v147 : IVec S16 32) (v313 : IVec S16 32) : Prop :=
  (∀ a x, ((![v147, v313] : Fin 2 → IVec S16 32) a x).toNat < S128x128.size a)
instance k0_chk85.dec : ∀ (v147 : IVec S16 32) (v313 : IVec S16 32), Decidable (k0_chk85 v147 v313) := fun v147 v313 => decidable_of_iff' _ (Iff.of_eq (k0_chk85.eq_1 v147 v313))
theorem k0_idx85_inb : ∀ (v147 : IVec S16 32) (v313 : IVec S16 32) (k0_hw85 : k0_chk85 v147 v313), ∀ a x, ((![v147, v313] : Fin 2 → IVec S16 32) a x).toNat < S128x128.size a := fun v147 v313 k0_hw85 => k0_hw85

def k0_chk86 (v147 : IVec S16 32) (v318 : IVec S16 32) : Prop :=
  (∀ a x, ((![v147, v318] : Fin 2 → IVec S16 32) a x).toNat < S128x128.size a)
instance k0_chk86.dec : ∀ (v147 : IVec S16 32) (v318 : IVec S16 32), Decidable (k0_chk86 v147 v318) := fun v147 v318 => decidable_of_iff' _ (Iff.of_eq (k0_chk86.eq_1 v147 v318))
theorem k0_idx86_inb : ∀ (v147 : IVec S16 32) (v318 : IVec S16 32) (k0_hw86 : k0_chk86 v147 v318), ∀ a x, ((![v147, v318] : Fin 2 → IVec S16 32) a x).toNat < S128x128.size a := fun v147 v318 k0_hw86 => k0_hw86

def k0_chk87 (v147 : IVec S16 32) (v323 : IVec S16 32) : Prop :=
  (∀ a x, ((![v147, v323] : Fin 2 → IVec S16 32) a x).toNat < S128x128.size a)
instance k0_chk87.dec : ∀ (v147 : IVec S16 32) (v323 : IVec S16 32), Decidable (k0_chk87 v147 v323) := fun v147 v323 => decidable_of_iff' _ (Iff.of_eq (k0_chk87.eq_1 v147 v323))
theorem k0_idx87_inb : ∀ (v147 : IVec S16 32) (v323 : IVec S16 32) (k0_hw87 : k0_chk87 v147 v323), ∀ a x, ((![v147, v323] : Fin 2 → IVec S16 32) a x).toNat < S128x128.size a := fun v147 v323 k0_hw87 => k0_hw87

def k0_chk88 (v147 : IVec S16 32) (v328 : IVec S16 32) : Prop :=
  (∀ a x, ((![v147, v328] : Fin 2 → IVec S16 32) a x).toNat < S128x128.size a)
instance k0_chk88.dec : ∀ (v147 : IVec S16 32) (v328 : IVec S16 32), Decidable (k0_chk88 v147 v328) := fun v147 v328 => decidable_of_iff' _ (Iff.of_eq (k0_chk88.eq_1 v147 v328))
theorem k0_idx88_inb : ∀ (v147 : IVec S16 32) (v328 : IVec S16 32) (k0_hw88 : k0_chk88 v147 v328), ∀ a x, ((![v147, v328] : Fin 2 → IVec S16 32) a x).toNat < S128x128.size a := fun v147 v328 k0_hw88 => k0_hw88

def k0_chk89 (v147 : IVec S16 32) (v333 : IVec S16 32) : Prop :=
  (∀ a x, ((![v147, v333] : Fin 2 → IVec S16 32) a x).toNat < S128x128.size a)
instance k0_chk89.dec : ∀ (v147 : IVec S16 32) (v333 : IVec S16 32), Decidable (k0_chk89 v147 v333) := fun v147 v333 => decidable_of_iff' _ (Iff.of_eq (k0_chk89.eq_1 v147 v333))
theorem k0_idx89_inb : ∀ (v147 : IVec S16 32) (v333 : IVec S16 32) (k0_hw89 : k0_chk89 v147 v333), ∀ a x, ((![v147, v333] : Fin 2 → IVec S16 32) a x).toNat < S128x128.size a := fun v147 v333 k0_hw89 => k0_hw89

def k0_chk90 (v147 : IVec S16 32) (v338 : IVec S16 32) : Prop :=
  (∀ a x, ((![v147, v338] : Fin 2 → IVec S16 32) a x).toNat < S128x128.size a)
instance k0_chk90.dec : ∀ (v147 : IVec S16 32) (v338 : IVec S16 32), Decidable (k0_chk90 v147 v338) := fun v147 v338 => decidable_of_iff' _ (Iff.of_eq (k0_chk90.eq_1 v147 v338))
theorem k0_idx90_inb : ∀ (v147 : IVec S16 32) (v338 : IVec S16 32) (k0_hw90 : k0_chk90 v147 v338), ∀ a x, ((![v147, v338] : Fin 2 → IVec S16 32) a x).toNat < S128x128.size a := fun v147 v338 k0_hw90 => k0_hw90

def k0_chk91 (v147 : IVec S16 32) (v343 : IVec S16 32) : Prop :=
  (∀ a x, ((![v147, v343] : Fin 2 → IVec S16 32) a x).toNat < S128x128.size a)
instance k0_chk91.dec : ∀ (v147 : IVec S16 32) (v343 : IVec S16 32), Decidable (k0_chk91 v147 v343) := fun v147 v343 => decidable_of_iff' _ (Iff.of_eq (k0_chk91.eq_1 v147 v343))
theorem k0_idx91_inb : ∀ (v147 : IVec S16 32) (v343 : IVec S16 32) (k0_hw91 : k0_chk91 v147 v343), ∀ a x, ((![v147, v343] : Fin 2 → IVec S16 32) a x).toNat < S128x128.size a := fun v147 v343 k0_hw91 => k0_hw91

def k0_chk92 (v147 : IVec S16 32) (v348 : IVec S16 32) : Prop :=
  (∀ a x, ((![v147, v348] : Fin 2 → IVec S16 32) a x).toNat < S128x128.size a)
instance k0_chk92.dec : ∀ (v147 : IVec S16 32) (v348 : IVec S16 32), Decidable (k0_chk92 v147 v348) := fun v147 v348 => decidable_of_iff' _ (Iff.of_eq (k0_chk92.eq_1 v147 v348))
theorem k0_idx92_inb : ∀ (v147 : IVec S16 32) (v348 : IVec S16 32) (k0_hw92 : k0_chk92 v147 v348), ∀ a x, ((![v147, v348] : Fin 2 → IVec S16 32) a x).toNat < S128x128.size a := fun v147 v348 k0_hw92 => k0_hw92

def k0_chk93 (v147 : IVec S16 32) (v353 : IVec S16 32) : Prop :=
  (∀ a x, ((![v147, v353] : Fin 2 → IVec S16 32) a x).toNat < S128x128.size a)
instance k0_chk93.dec : ∀ (v147 : IVec S16 32) (v353 : IVec S16 32), Decidable (k0_chk93 v147 v353) := fun v147 v353 => decidable_of_iff' _ (Iff.of_eq (k0_chk93.eq_1 v147 v353))
theorem k0_idx93_inb : ∀ (v147 : IVec S16 32) (v353 : IVec S16 32) (k0_hw93 : k0_chk93 v147 v353), ∀ a x, ((![v147, v353] : Fin 2 → IVec S16 32) a x).toNat < S128x128.size a := fun v147 v353 k0_hw93 => k0_hw93

def k0_chk94 (v147 : IVec S16 32) (v358 : IVec S16 32) : Prop :=
  (∀ a x, ((![v147, v358] : Fin 2 → IVec S16 32) a x).toNat < S128x128.size a)
instance k0_chk94.dec : ∀ (v147 : IVec S16 32) (v358 : IVec S16 32), Decidable (k0_chk94 v147 v358) := fun v147 v358 => decidable_of_iff' _ (Iff.of_eq (k0_chk94.eq_1 v147 v358))
theorem k0_idx94_inb : ∀ (v147 : IVec S16 32) (v358 : IVec S16 32) (k0_hw94 : k0_chk94 v147 v358), ∀ a x, ((![v147, v358] : Fin 2 → IVec S16 32) a x).toNat < S128x128.size a := fun v147 v358 k0_hw94 => k0_hw94

def k0_chk95 (v147 : IVec S16 32) (v363 : IVec S16 32) : Prop :=
  (∀ a x, ((![v147, v363] : Fin 2 → IVec S16 32) a x).toNat < S128x128.size a)
instance k0_chk95.dec : ∀ (v147 : IVec S16 32) (v363 : IVec S16 32), Decidable (k0_chk95 v147 v363) := fun v147 v363 => decidable_of_iff' _ (Iff.of_eq (k0_chk95.eq_1 v147 v363))
theorem k0_idx95_inb : ∀ (v147 : IVec S16 32) (v363 : IVec S16 32) (k0_hw95 : k0_chk95 v147 v363), ∀ a x, ((![v147, v363] : Fin 2 → IVec S16 32) a x).toNat < S128x128.size a := fun v147 v363 k0_hw95 => k0_hw95

def k0_chk96 (v147 : IVec S16 32) (v368 : IVec S16 32) : Prop :=
  (∀ a x, ((![v147, v368] : Fin 2 → IVec S16 32) a x).toNat < S128x128.size a)
instance k0_chk96.dec : ∀ (v147 : IVec S16 32) (v368 : IVec S16 32), Decidable (k0_chk96 v147 v368) := fun v147 v368 => decidable_of_iff' _ (Iff.of_eq (k0_chk96.eq_1 v147 v368))
theorem k0_idx96_inb : ∀ (v147 : IVec S16 32) (v368 : IVec S16 32) (k0_hw96 : k0_chk96 v147 v368), ∀ a x, ((![v147, v368] : Fin 2 → IVec S16 32) a x).toNat < S128x128.size a := fun v147 v368 k0_hw96 => k0_hw96
def k0_off93 (k0_t5 : Fin k0_t5_loop.trips) : Fin 3 → Nat :=
  let c0_i32_281 : BitVec 32 := 0#32
  let v372 : Index := Scalar.indexCast c0_i32_281
  let c16_i32_282 : BitVec 32 := 16#32
  let v373 : Index := Scalar.indexCast c16_i32_282
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v374 : Index := Scalar.indexCast v138
  ![0, 16, v374.toNat]
def k0_off94 (k0_t5 : Fin k0_t5_loop.trips) : Fin 3 → Nat :=
  let c0_i32_283 : BitVec 32 := 0#32
  let v376 : Index := Scalar.indexCast c0_i32_283
  let c17_i32_284 : BitVec 32 := 17#32
  let v377 : Index := Scalar.indexCast c17_i32_284
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v378 : Index := Scalar.indexCast v138
  ![0, 17, v378.toNat]
def k0_off95 (k0_t5 : Fin k0_t5_loop.trips) : Fin 3 → Nat :=
  let c0_i32_285 : BitVec 32 := 0#32
  let v380 : Index := Scalar.indexCast c0_i32_285
  let c18_i32_286 : BitVec 32 := 18#32
  let v381 : Index := Scalar.indexCast c18_i32_286
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v382 : Index := Scalar.indexCast v138
  ![0, 18, v382.toNat]
def k0_off96 (k0_t5 : Fin k0_t5_loop.trips) : Fin 3 → Nat :=
  let c0_i32_287 : BitVec 32 := 0#32
  let v384 : Index := Scalar.indexCast c0_i32_287
  let c19_i32_288 : BitVec 32 := 19#32
  let v385 : Index := Scalar.indexCast c19_i32_288
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v386 : Index := Scalar.indexCast v138
  ![0, 19, v386.toNat]
def k0_off97 (k0_t5 : Fin k0_t5_loop.trips) : Fin 3 → Nat :=
  let c0_i32_289 : BitVec 32 := 0#32
  let v388 : Index := Scalar.indexCast c0_i32_289
  let c20_i32_290 : BitVec 32 := 20#32
  let v389 : Index := Scalar.indexCast c20_i32_290
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v390 : Index := Scalar.indexCast v138
  ![0, 20, v390.toNat]
def k0_off98 (k0_t5 : Fin k0_t5_loop.trips) : Fin 3 → Nat :=
  let c0_i32_291 : BitVec 32 := 0#32
  let v392 : Index := Scalar.indexCast c0_i32_291
  let c21_i32_292 : BitVec 32 := 21#32
  let v393 : Index := Scalar.indexCast c21_i32_292
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v394 : Index := Scalar.indexCast v138
  ![0, 21, v394.toNat]
def k0_off99 (k0_t5 : Fin k0_t5_loop.trips) : Fin 3 → Nat :=
  let c0_i32_293 : BitVec 32 := 0#32
  let v396 : Index := Scalar.indexCast c0_i32_293
  let c22_i32_294 : BitVec 32 := 22#32
  let v397 : Index := Scalar.indexCast c22_i32_294
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v398 : Index := Scalar.indexCast v138
  ![0, 22, v398.toNat]
def k0_off100 (k0_t5 : Fin k0_t5_loop.trips) : Fin 3 → Nat :=
  let c0_i32_295 : BitVec 32 := 0#32
  let v400 : Index := Scalar.indexCast c0_i32_295
  let c23_i32_296 : BitVec 32 := 23#32
  let v401 : Index := Scalar.indexCast c23_i32_296
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v402 : Index := Scalar.indexCast v138
  ![0, 23, v402.toNat]
def k0_off101 (k0_t5 : Fin k0_t5_loop.trips) : Fin 3 → Nat :=
  let c0_i32_297 : BitVec 32 := 0#32
  let v404 : Index := Scalar.indexCast c0_i32_297
  let c24_i32_298 : BitVec 32 := 24#32
  let v405 : Index := Scalar.indexCast c24_i32_298
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v406 : Index := Scalar.indexCast v138
  ![0, 24, v406.toNat]
def k0_off102 (k0_t5 : Fin k0_t5_loop.trips) : Fin 3 → Nat :=
  let c0_i32_299 : BitVec 32 := 0#32
  let v408 : Index := Scalar.indexCast c0_i32_299
  let c25_i32_300 : BitVec 32 := 25#32
  let v409 : Index := Scalar.indexCast c25_i32_300
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v410 : Index := Scalar.indexCast v138
  ![0, 25, v410.toNat]
def k0_off103 (k0_t5 : Fin k0_t5_loop.trips) : Fin 3 → Nat :=
  let c0_i32_301 : BitVec 32 := 0#32
  let v412 : Index := Scalar.indexCast c0_i32_301
  let c26_i32_302 : BitVec 32 := 26#32
  let v413 : Index := Scalar.indexCast c26_i32_302
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v414 : Index := Scalar.indexCast v138
  ![0, 26, v414.toNat]
def k0_off104 (k0_t5 : Fin k0_t5_loop.trips) : Fin 3 → Nat :=
  let c0_i32_303 : BitVec 32 := 0#32
  let v416 : Index := Scalar.indexCast c0_i32_303
  let c27_i32_304 : BitVec 32 := 27#32
  let v417 : Index := Scalar.indexCast c27_i32_304
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v418 : Index := Scalar.indexCast v138
  ![0, 27, v418.toNat]
def k0_off105 (k0_t5 : Fin k0_t5_loop.trips) : Fin 3 → Nat :=
  let c0_i32_305 : BitVec 32 := 0#32
  let v420 : Index := Scalar.indexCast c0_i32_305
  let c28_i32_306 : BitVec 32 := 28#32
  let v421 : Index := Scalar.indexCast c28_i32_306
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v422 : Index := Scalar.indexCast v138
  ![0, 28, v422.toNat]
def k0_off106 (k0_t5 : Fin k0_t5_loop.trips) : Fin 3 → Nat :=
  let c0_i32_307 : BitVec 32 := 0#32
  let v424 : Index := Scalar.indexCast c0_i32_307
  let c29_i32_308 : BitVec 32 := 29#32
  let v425 : Index := Scalar.indexCast c29_i32_308
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v426 : Index := Scalar.indexCast v138
  ![0, 29, v426.toNat]
def k0_off107 (k0_t5 : Fin k0_t5_loop.trips) : Fin 3 → Nat :=
  let c0_i32_309 : BitVec 32 := 0#32
  let v428 : Index := Scalar.indexCast c0_i32_309
  let c30_i32_310 : BitVec 32 := 30#32
  let v429 : Index := Scalar.indexCast c30_i32_310
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v430 : Index := Scalar.indexCast v138
  ![0, 30, v430.toNat]
def k0_off108 (k0_t5 : Fin k0_t5_loop.trips) : Fin 3 → Nat :=
  let c0_i32_311 : BitVec 32 := 0#32
  let v432 : Index := Scalar.indexCast c0_i32_311
  let c31_i32_312 : BitVec 32 := 31#32
  let v433 : Index := Scalar.indexCast c31_i32_312
  let c0_i32_144 : BitVec 32 := 0#32
  let c0_i32_105 : BitVec 32 := 0#32
  let c1_i32_107 : BitVec 32 := 1#32
  let arg16 : BitVec 32 := Scf.iv c0_i32_105 c1_i32_107 k0_t5
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v434 : Index := Scalar.indexCast v138
  ![0, 31, v434.toNat]
def k0_cond7 (k0_t2 : Fin k0_t2_loop.trips) : BitVec 1 :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c3_i32_117 : BitVec 32 := 3#32
  let v112 : BitVec 32 := Scalar.addi v39 c3_i32_117
  let c3_i32_118 : BitVec 32 := 3#32
  let v113 : BitVec 32 := Scalar.addi v112 c3_i32_118
  let c200_i32_119 : BitVec 32 := 200#32
  let v114 : BitVec 1 := Scalar.cmpi .slt v113 c200_i32_119
  let v115 : BitVec 32 := Scalar.extui v114
  let c0_i32_120 : BitVec 32 := 0#32
  let v116 : BitVec 1 := Scalar.cmpi .ne v115 c0_i32_120
  v116

def k0_off109 (k0_t2 : Fin k0_t2_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c3_i32_117 : BitVec 32 := 3#32
  let v112 : BitVec 32 := Scalar.addi v39 c3_i32_117
  let c3_i32_143 : BitVec 32 := 3#32
  let v136 : BitVec 32 := Scalar.addi v112 c3_i32_143
  let c0_i32_147 : BitVec 32 := 0#32
  ![v136.toNat, 0]
def k0_cond8 (k0_t2 : Fin k0_t2_loop.trips) : BitVec 1 :=
  let false_129 : BitVec 1 := 0#1
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c3_i32_117 : BitVec 32 := 3#32
  let v112 : BitVec 32 := Scalar.addi v39 c3_i32_117
  let c2_i32_128 : BitVec 32 := 2#32
  let v122 : BitVec 1 := Scalar.cmpi .sge v112 c2_i32_128
  let v123 : BitVec 1 := Scalar.ori false_129 v122
  let v124 : BitVec 32 := Scalar.extui v123
  let c0_i32_130 : BitVec 32 := 0#32
  let v125 : BitVec 1 := Scalar.cmpi .ne v124 c0_i32_130
  v125

def k0_off110 (i : grid0.Coords) : Fin 3 → Nat :=
  let c0_i32_144 : BitVec 32 := 0#32
  let c0_i32_147 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
@[reducible] def k0_t6_loop : Scf.Loop 32 :=
  let c0_i32_131 : BitVec 32 := 0#32
  let c8_i32_132 : BitVec 32 := 8#32
  let v126 : BitVec 32 := Scalar.addi c0_i32_131 c8_i32_132
  let c1_i32_133 : BitVec 32 := 1#32
  ⟨c0_i32_131, v126, c1_i32_133⟩
def k0_off111 (k0_t2 : Fin k0_t2_loop.trips) (k0_t6 : Fin k0_t6_loop.trips) : Fin 2 → Nat :=
  let c0_i32_42 : BitVec 32 := 0#32
  let c0_i32_22 : BitVec 32 := 0#32
  let c1_i32_23 : BitVec 32 := 1#32
  let arg15 : BitVec 32 := Scf.iv c0_i32_22 c1_i32_23 k0_t2
  let c1_i32_41 : BitVec 32 := 1#32
  let v37 : BitVec 32 := Scalar.muli arg15 c1_i32_41
  let v38 : BitVec 32 := Scalar.addi c0_i32_42 v37
  let c4_i32 : BitVec 32 := 4#32
  let v39 : BitVec 32 := Scalar.muli v38 c4_i32
  let c3_i32_117 : BitVec 32 := 3#32
  let v112 : BitVec 32 := Scalar.addi v39 c3_i32_117
  let v139 : Index := Scalar.indexCast v112
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v140 : Index := Scalar.indexCast v138
  ![v139.toNat, v140.toNat]

def k0_chk97 (v147 : IVec S16 32) (v149 : IVec S16 32) : Prop :=
  (∀ a x, ((![v147, v149] : Fin 2 → IVec S16 32) a x).toNat < S128x128.size a)
instance k0_chk97.dec : ∀ (v147 : IVec S16 32) (v149 : IVec S16 32), Decidable (k0_chk97 v147 v149) := fun v147 v149 => decidable_of_iff' _ (Iff.of_eq (k0_chk97.eq_1 v147 v149))
theorem k0_idx97_inb : ∀ (v147 : IVec S16 32) (v149 : IVec S16 32) (k0_hw97 : k0_chk97 v147 v149), ∀ a x, ((![v147, v149] : Fin 2 → IVec S16 32) a x).toNat < S128x128.size a := fun v147 v149 k0_hw97 => k0_hw97

def k0_chk98 (v147 : IVec S16 32) (v154 : IVec S16 32) : Prop :=
  (∀ a x, ((![v147, v154] : Fin 2 → IVec S16 32) a x).toNat < S128x128.size a)
instance k0_chk98.dec : ∀ (v147 : IVec S16 32) (v154 : IVec S16 32), Decidable (k0_chk98 v147 v154) := fun v147 v154 => decidable_of_iff' _ (Iff.of_eq (k0_chk98.eq_1 v147 v154))
theorem k0_idx98_inb : ∀ (v147 : IVec S16 32) (v154 : IVec S16 32) (k0_hw98 : k0_chk98 v147 v154), ∀ a x, ((![v147, v154] : Fin 2 → IVec S16 32) a x).toNat < S128x128.size a := fun v147 v154 k0_hw98 => k0_hw98

def k0_chk99 (v147 : IVec S16 32) (v159 : IVec S16 32) : Prop :=
  (∀ a x, ((![v147, v159] : Fin 2 → IVec S16 32) a x).toNat < S128x128.size a)
instance k0_chk99.dec : ∀ (v147 : IVec S16 32) (v159 : IVec S16 32), Decidable (k0_chk99 v147 v159) := fun v147 v159 => decidable_of_iff' _ (Iff.of_eq (k0_chk99.eq_1 v147 v159))
theorem k0_idx99_inb : ∀ (v147 : IVec S16 32) (v159 : IVec S16 32) (k0_hw99 : k0_chk99 v147 v159), ∀ a x, ((![v147, v159] : Fin 2 → IVec S16 32) a x).toNat < S128x128.size a := fun v147 v159 k0_hw99 => k0_hw99

def k0_chk100 (v147 : IVec S16 32) (v164 : IVec S16 32) : Prop :=
  (∀ a x, ((![v147, v164] : Fin 2 → IVec S16 32) a x).toNat < S128x128.size a)
instance k0_chk100.dec : ∀ (v147 : IVec S16 32) (v164 : IVec S16 32), Decidable (k0_chk100 v147 v164) := fun v147 v164 => decidable_of_iff' _ (Iff.of_eq (k0_chk100.eq_1 v147 v164))
theorem k0_idx100_inb : ∀ (v147 : IVec S16 32) (v164 : IVec S16 32) (k0_hw100 : k0_chk100 v147 v164), ∀ a x, ((![v147, v164] : Fin 2 → IVec S16 32) a x).toNat < S128x128.size a := fun v147 v164 k0_hw100 => k0_hw100

def k0_chk101 (v147 : IVec S16 32) (v169 : IVec S16 32) : Prop :=
  (∀ a x, ((![v147, v169] : Fin 2 → IVec S16 32) a x).toNat < S128x128.size a)
instance k0_chk101.dec : ∀ (v147 : IVec S16 32) (v169 : IVec S16 32), Decidable (k0_chk101 v147 v169) := fun v147 v169 => decidable_of_iff' _ (Iff.of_eq (k0_chk101.eq_1 v147 v169))
theorem k0_idx101_inb : ∀ (v147 : IVec S16 32) (v169 : IVec S16 32) (k0_hw101 : k0_chk101 v147 v169), ∀ a x, ((![v147, v169] : Fin 2 → IVec S16 32) a x).toNat < S128x128.size a := fun v147 v169 k0_hw101 => k0_hw101

def k0_chk102 (v147 : IVec S16 32) (v174 : IVec S16 32) : Prop :=
  (∀ a x, ((![v147, v174] : Fin 2 → IVec S16 32) a x).toNat < S128x128.size a)
instance k0_chk102.dec : ∀ (v147 : IVec S16 32) (v174 : IVec S16 32), Decidable (k0_chk102 v147 v174) := fun v147 v174 => decidable_of_iff' _ (Iff.of_eq (k0_chk102.eq_1 v147 v174))
theorem k0_idx102_inb : ∀ (v147 : IVec S16 32) (v174 : IVec S16 32) (k0_hw102 : k0_chk102 v147 v174), ∀ a x, ((![v147, v174] : Fin 2 → IVec S16 32) a x).toNat < S128x128.size a := fun v147 v174 k0_hw102 => k0_hw102

def k0_chk103 (v147 : IVec S16 32) (v179 : IVec S16 32) : Prop :=
  (∀ a x, ((![v147, v179] : Fin 2 → IVec S16 32) a x).toNat < S128x128.size a)
instance k0_chk103.dec : ∀ (v147 : IVec S16 32) (v179 : IVec S16 32), Decidable (k0_chk103 v147 v179) := fun v147 v179 => decidable_of_iff' _ (Iff.of_eq (k0_chk103.eq_1 v147 v179))
theorem k0_idx103_inb : ∀ (v147 : IVec S16 32) (v179 : IVec S16 32) (k0_hw103 : k0_chk103 v147 v179), ∀ a x, ((![v147, v179] : Fin 2 → IVec S16 32) a x).toNat < S128x128.size a := fun v147 v179 k0_hw103 => k0_hw103

def k0_chk104 (v147 : IVec S16 32) (v184 : IVec S16 32) : Prop :=
  (∀ a x, ((![v147, v184] : Fin 2 → IVec S16 32) a x).toNat < S128x128.size a)
instance k0_chk104.dec : ∀ (v147 : IVec S16 32) (v184 : IVec S16 32), Decidable (k0_chk104 v147 v184) := fun v147 v184 => decidable_of_iff' _ (Iff.of_eq (k0_chk104.eq_1 v147 v184))
theorem k0_idx104_inb : ∀ (v147 : IVec S16 32) (v184 : IVec S16 32) (k0_hw104 : k0_chk104 v147 v184), ∀ a x, ((![v147, v184] : Fin 2 → IVec S16 32) a x).toNat < S128x128.size a := fun v147 v184 k0_hw104 => k0_hw104

def k0_chk105 (v147 : IVec S16 32) (v189 : IVec S16 32) : Prop :=
  (∀ a x, ((![v147, v189] : Fin 2 → IVec S16 32) a x).toNat < S128x128.size a)
instance k0_chk105.dec : ∀ (v147 : IVec S16 32) (v189 : IVec S16 32), Decidable (k0_chk105 v147 v189) := fun v147 v189 => decidable_of_iff' _ (Iff.of_eq (k0_chk105.eq_1 v147 v189))
theorem k0_idx105_inb : ∀ (v147 : IVec S16 32) (v189 : IVec S16 32) (k0_hw105 : k0_chk105 v147 v189), ∀ a x, ((![v147, v189] : Fin 2 → IVec S16 32) a x).toNat < S128x128.size a := fun v147 v189 k0_hw105 => k0_hw105

def k0_chk106 (v147 : IVec S16 32) (v194 : IVec S16 32) : Prop :=
  (∀ a x, ((![v147, v194] : Fin 2 → IVec S16 32) a x).toNat < S128x128.size a)
instance k0_chk106.dec : ∀ (v147 : IVec S16 32) (v194 : IVec S16 32), Decidable (k0_chk106 v147 v194) := fun v147 v194 => decidable_of_iff' _ (Iff.of_eq (k0_chk106.eq_1 v147 v194))
theorem k0_idx106_inb : ∀ (v147 : IVec S16 32) (v194 : IVec S16 32) (k0_hw106 : k0_chk106 v147 v194), ∀ a x, ((![v147, v194] : Fin 2 → IVec S16 32) a x).toNat < S128x128.size a := fun v147 v194 k0_hw106 => k0_hw106

def k0_chk107 (v147 : IVec S16 32) (v199 : IVec S16 32) : Prop :=
  (∀ a x, ((![v147, v199] : Fin 2 → IVec S16 32) a x).toNat < S128x128.size a)
instance k0_chk107.dec : ∀ (v147 : IVec S16 32) (v199 : IVec S16 32), Decidable (k0_chk107 v147 v199) := fun v147 v199 => decidable_of_iff' _ (Iff.of_eq (k0_chk107.eq_1 v147 v199))
theorem k0_idx107_inb : ∀ (v147 : IVec S16 32) (v199 : IVec S16 32) (k0_hw107 : k0_chk107 v147 v199), ∀ a x, ((![v147, v199] : Fin 2 → IVec S16 32) a x).toNat < S128x128.size a := fun v147 v199 k0_hw107 => k0_hw107

def k0_chk108 (v147 : IVec S16 32) (v204 : IVec S16 32) : Prop :=
  (∀ a x, ((![v147, v204] : Fin 2 → IVec S16 32) a x).toNat < S128x128.size a)
instance k0_chk108.dec : ∀ (v147 : IVec S16 32) (v204 : IVec S16 32), Decidable (k0_chk108 v147 v204) := fun v147 v204 => decidable_of_iff' _ (Iff.of_eq (k0_chk108.eq_1 v147 v204))
theorem k0_idx108_inb : ∀ (v147 : IVec S16 32) (v204 : IVec S16 32) (k0_hw108 : k0_chk108 v147 v204), ∀ a x, ((![v147, v204] : Fin 2 → IVec S16 32) a x).toNat < S128x128.size a := fun v147 v204 k0_hw108 => k0_hw108

def k0_chk109 (v147 : IVec S16 32) (v209 : IVec S16 32) : Prop :=
  (∀ a x, ((![v147, v209] : Fin 2 → IVec S16 32) a x).toNat < S128x128.size a)
instance k0_chk109.dec : ∀ (v147 : IVec S16 32) (v209 : IVec S16 32), Decidable (k0_chk109 v147 v209) := fun v147 v209 => decidable_of_iff' _ (Iff.of_eq (k0_chk109.eq_1 v147 v209))
theorem k0_idx109_inb : ∀ (v147 : IVec S16 32) (v209 : IVec S16 32) (k0_hw109 : k0_chk109 v147 v209), ∀ a x, ((![v147, v209] : Fin 2 → IVec S16 32) a x).toNat < S128x128.size a := fun v147 v209 k0_hw109 => k0_hw109

def k0_chk110 (v147 : IVec S16 32) (v214 : IVec S16 32) : Prop :=
  (∀ a x, ((![v147, v214] : Fin 2 → IVec S16 32) a x).toNat < S128x128.size a)
instance k0_chk110.dec : ∀ (v147 : IVec S16 32) (v214 : IVec S16 32), Decidable (k0_chk110 v147 v214) := fun v147 v214 => decidable_of_iff' _ (Iff.of_eq (k0_chk110.eq_1 v147 v214))
theorem k0_idx110_inb : ∀ (v147 : IVec S16 32) (v214 : IVec S16 32) (k0_hw110 : k0_chk110 v147 v214), ∀ a x, ((![v147, v214] : Fin 2 → IVec S16 32) a x).toNat < S128x128.size a := fun v147 v214 k0_hw110 => k0_hw110

def k0_chk111 (v147 : IVec S16 32) (v219 : IVec S16 32) : Prop :=
  (∀ a x, ((![v147, v219] : Fin 2 → IVec S16 32) a x).toNat < S128x128.size a)
instance k0_chk111.dec : ∀ (v147 : IVec S16 32) (v219 : IVec S16 32), Decidable (k0_chk111 v147 v219) := fun v147 v219 => decidable_of_iff' _ (Iff.of_eq (k0_chk111.eq_1 v147 v219))
theorem k0_idx111_inb : ∀ (v147 : IVec S16 32) (v219 : IVec S16 32) (k0_hw111 : k0_chk111 v147 v219), ∀ a x, ((![v147, v219] : Fin 2 → IVec S16 32) a x).toNat < S128x128.size a := fun v147 v219 k0_hw111 => k0_hw111

def k0_chk112 (v147 : IVec S16 32) (v224 : IVec S16 32) : Prop :=
  (∀ a x, ((![v147, v224] : Fin 2 → IVec S16 32) a x).toNat < S128x128.size a)
instance k0_chk112.dec : ∀ (v147 : IVec S16 32) (v224 : IVec S16 32), Decidable (k0_chk112 v147 v224) := fun v147 v224 => decidable_of_iff' _ (Iff.of_eq (k0_chk112.eq_1 v147 v224))
theorem k0_idx112_inb : ∀ (v147 : IVec S16 32) (v224 : IVec S16 32) (k0_hw112 : k0_chk112 v147 v224), ∀ a x, ((![v147, v224] : Fin 2 → IVec S16 32) a x).toNat < S128x128.size a := fun v147 v224 k0_hw112 => k0_hw112
def k0_off112 (k0_t6 : Fin k0_t6_loop.trips) : Fin 3 → Nat :=
  let c1_i32_200 : BitVec 32 := 1#32
  let v228 : Index := Scalar.indexCast c1_i32_200
  let c0_i32_201 : BitVec 32 := 0#32
  let v229 : Index := Scalar.indexCast c0_i32_201
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v230 : Index := Scalar.indexCast v138
  ![1, 0, v230.toNat]
def k0_off113 (k0_t6 : Fin k0_t6_loop.trips) : Fin 3 → Nat :=
  let c1_i32_202 : BitVec 32 := 1#32
  let v232 : Index := Scalar.indexCast c1_i32_202
  let c1_i32_203 : BitVec 32 := 1#32
  let v233 : Index := Scalar.indexCast c1_i32_203
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v234 : Index := Scalar.indexCast v138
  ![1, 1, v234.toNat]
def k0_off114 (k0_t6 : Fin k0_t6_loop.trips) : Fin 3 → Nat :=
  let c1_i32_204 : BitVec 32 := 1#32
  let v236 : Index := Scalar.indexCast c1_i32_204
  let c2_i32_205 : BitVec 32 := 2#32
  let v237 : Index := Scalar.indexCast c2_i32_205
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v238 : Index := Scalar.indexCast v138
  ![1, 2, v238.toNat]
def k0_off115 (k0_t6 : Fin k0_t6_loop.trips) : Fin 3 → Nat :=
  let c1_i32_206 : BitVec 32 := 1#32
  let v240 : Index := Scalar.indexCast c1_i32_206
  let c3_i32_207 : BitVec 32 := 3#32
  let v241 : Index := Scalar.indexCast c3_i32_207
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v242 : Index := Scalar.indexCast v138
  ![1, 3, v242.toNat]
def k0_off116 (k0_t6 : Fin k0_t6_loop.trips) : Fin 3 → Nat :=
  let c1_i32_208 : BitVec 32 := 1#32
  let v244 : Index := Scalar.indexCast c1_i32_208
  let c4_i32_209 : BitVec 32 := 4#32
  let v245 : Index := Scalar.indexCast c4_i32_209
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v246 : Index := Scalar.indexCast v138
  ![1, 4, v246.toNat]
def k0_off117 (k0_t6 : Fin k0_t6_loop.trips) : Fin 3 → Nat :=
  let c1_i32_210 : BitVec 32 := 1#32
  let v248 : Index := Scalar.indexCast c1_i32_210
  let c5_i32_211 : BitVec 32 := 5#32
  let v249 : Index := Scalar.indexCast c5_i32_211
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v250 : Index := Scalar.indexCast v138
  ![1, 5, v250.toNat]
def k0_off118 (k0_t6 : Fin k0_t6_loop.trips) : Fin 3 → Nat :=
  let c1_i32_212 : BitVec 32 := 1#32
  let v252 : Index := Scalar.indexCast c1_i32_212
  let c6_i32_213 : BitVec 32 := 6#32
  let v253 : Index := Scalar.indexCast c6_i32_213
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v254 : Index := Scalar.indexCast v138
  ![1, 6, v254.toNat]
def k0_off119 (k0_t6 : Fin k0_t6_loop.trips) : Fin 3 → Nat :=
  let c1_i32_214 : BitVec 32 := 1#32
  let v256 : Index := Scalar.indexCast c1_i32_214
  let c7_i32_215 : BitVec 32 := 7#32
  let v257 : Index := Scalar.indexCast c7_i32_215
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v258 : Index := Scalar.indexCast v138
  ![1, 7, v258.toNat]
def k0_off120 (k0_t6 : Fin k0_t6_loop.trips) : Fin 3 → Nat :=
  let c1_i32_216 : BitVec 32 := 1#32
  let v260 : Index := Scalar.indexCast c1_i32_216
  let c8_i32_217 : BitVec 32 := 8#32
  let v261 : Index := Scalar.indexCast c8_i32_217
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v262 : Index := Scalar.indexCast v138
  ![1, 8, v262.toNat]
def k0_off121 (k0_t6 : Fin k0_t6_loop.trips) : Fin 3 → Nat :=
  let c1_i32_218 : BitVec 32 := 1#32
  let v264 : Index := Scalar.indexCast c1_i32_218
  let c9_i32_219 : BitVec 32 := 9#32
  let v265 : Index := Scalar.indexCast c9_i32_219
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v266 : Index := Scalar.indexCast v138
  ![1, 9, v266.toNat]
def k0_off122 (k0_t6 : Fin k0_t6_loop.trips) : Fin 3 → Nat :=
  let c1_i32_220 : BitVec 32 := 1#32
  let v268 : Index := Scalar.indexCast c1_i32_220
  let c10_i32_221 : BitVec 32 := 10#32
  let v269 : Index := Scalar.indexCast c10_i32_221
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v270 : Index := Scalar.indexCast v138
  ![1, 10, v270.toNat]
def k0_off123 (k0_t6 : Fin k0_t6_loop.trips) : Fin 3 → Nat :=
  let c1_i32_222 : BitVec 32 := 1#32
  let v272 : Index := Scalar.indexCast c1_i32_222
  let c11_i32_223 : BitVec 32 := 11#32
  let v273 : Index := Scalar.indexCast c11_i32_223
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v274 : Index := Scalar.indexCast v138
  ![1, 11, v274.toNat]
def k0_off124 (k0_t6 : Fin k0_t6_loop.trips) : Fin 3 → Nat :=
  let c1_i32_224 : BitVec 32 := 1#32
  let v276 : Index := Scalar.indexCast c1_i32_224
  let c12_i32_225 : BitVec 32 := 12#32
  let v277 : Index := Scalar.indexCast c12_i32_225
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v278 : Index := Scalar.indexCast v138
  ![1, 12, v278.toNat]
def k0_off125 (k0_t6 : Fin k0_t6_loop.trips) : Fin 3 → Nat :=
  let c1_i32_226 : BitVec 32 := 1#32
  let v280 : Index := Scalar.indexCast c1_i32_226
  let c13_i32_227 : BitVec 32 := 13#32
  let v281 : Index := Scalar.indexCast c13_i32_227
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v282 : Index := Scalar.indexCast v138
  ![1, 13, v282.toNat]
def k0_off126 (k0_t6 : Fin k0_t6_loop.trips) : Fin 3 → Nat :=
  let c1_i32_228 : BitVec 32 := 1#32
  let v284 : Index := Scalar.indexCast c1_i32_228
  let c14_i32_229 : BitVec 32 := 14#32
  let v285 : Index := Scalar.indexCast c14_i32_229
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v286 : Index := Scalar.indexCast v138
  ![1, 14, v286.toNat]
def k0_off127 (k0_t6 : Fin k0_t6_loop.trips) : Fin 3 → Nat :=
  let c1_i32_230 : BitVec 32 := 1#32
  let v288 : Index := Scalar.indexCast c1_i32_230
  let c15_i32_231 : BitVec 32 := 15#32
  let v289 : Index := Scalar.indexCast c15_i32_231
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v290 : Index := Scalar.indexCast v138
  ![1, 15, v290.toNat]

def k0_chk113 (v147 : IVec S16 32) (v293 : IVec S16 32) : Prop :=
  (∀ a x, ((![v147, v293] : Fin 2 → IVec S16 32) a x).toNat < S128x128.size a)
instance k0_chk113.dec : ∀ (v147 : IVec S16 32) (v293 : IVec S16 32), Decidable (k0_chk113 v147 v293) := fun v147 v293 => decidable_of_iff' _ (Iff.of_eq (k0_chk113.eq_1 v147 v293))
theorem k0_idx113_inb : ∀ (v147 : IVec S16 32) (v293 : IVec S16 32) (k0_hw113 : k0_chk113 v147 v293), ∀ a x, ((![v147, v293] : Fin 2 → IVec S16 32) a x).toNat < S128x128.size a := fun v147 v293 k0_hw113 => k0_hw113

def k0_chk114 (v147 : IVec S16 32) (v298 : IVec S16 32) : Prop :=
  (∀ a x, ((![v147, v298] : Fin 2 → IVec S16 32) a x).toNat < S128x128.size a)
instance k0_chk114.dec : ∀ (v147 : IVec S16 32) (v298 : IVec S16 32), Decidable (k0_chk114 v147 v298) := fun v147 v298 => decidable_of_iff' _ (Iff.of_eq (k0_chk114.eq_1 v147 v298))
theorem k0_idx114_inb : ∀ (v147 : IVec S16 32) (v298 : IVec S16 32) (k0_hw114 : k0_chk114 v147 v298), ∀ a x, ((![v147, v298] : Fin 2 → IVec S16 32) a x).toNat < S128x128.size a := fun v147 v298 k0_hw114 => k0_hw114

def k0_chk115 (v147 : IVec S16 32) (v303 : IVec S16 32) : Prop :=
  (∀ a x, ((![v147, v303] : Fin 2 → IVec S16 32) a x).toNat < S128x128.size a)
instance k0_chk115.dec : ∀ (v147 : IVec S16 32) (v303 : IVec S16 32), Decidable (k0_chk115 v147 v303) := fun v147 v303 => decidable_of_iff' _ (Iff.of_eq (k0_chk115.eq_1 v147 v303))
theorem k0_idx115_inb : ∀ (v147 : IVec S16 32) (v303 : IVec S16 32) (k0_hw115 : k0_chk115 v147 v303), ∀ a x, ((![v147, v303] : Fin 2 → IVec S16 32) a x).toNat < S128x128.size a := fun v147 v303 k0_hw115 => k0_hw115

def k0_chk116 (v147 : IVec S16 32) (v308 : IVec S16 32) : Prop :=
  (∀ a x, ((![v147, v308] : Fin 2 → IVec S16 32) a x).toNat < S128x128.size a)
instance k0_chk116.dec : ∀ (v147 : IVec S16 32) (v308 : IVec S16 32), Decidable (k0_chk116 v147 v308) := fun v147 v308 => decidable_of_iff' _ (Iff.of_eq (k0_chk116.eq_1 v147 v308))
theorem k0_idx116_inb : ∀ (v147 : IVec S16 32) (v308 : IVec S16 32) (k0_hw116 : k0_chk116 v147 v308), ∀ a x, ((![v147, v308] : Fin 2 → IVec S16 32) a x).toNat < S128x128.size a := fun v147 v308 k0_hw116 => k0_hw116

def k0_chk117 (v147 : IVec S16 32) (v313 : IVec S16 32) : Prop :=
  (∀ a x, ((![v147, v313] : Fin 2 → IVec S16 32) a x).toNat < S128x128.size a)
instance k0_chk117.dec : ∀ (v147 : IVec S16 32) (v313 : IVec S16 32), Decidable (k0_chk117 v147 v313) := fun v147 v313 => decidable_of_iff' _ (Iff.of_eq (k0_chk117.eq_1 v147 v313))
theorem k0_idx117_inb : ∀ (v147 : IVec S16 32) (v313 : IVec S16 32) (k0_hw117 : k0_chk117 v147 v313), ∀ a x, ((![v147, v313] : Fin 2 → IVec S16 32) a x).toNat < S128x128.size a := fun v147 v313 k0_hw117 => k0_hw117

def k0_chk118 (v147 : IVec S16 32) (v318 : IVec S16 32) : Prop :=
  (∀ a x, ((![v147, v318] : Fin 2 → IVec S16 32) a x).toNat < S128x128.size a)
instance k0_chk118.dec : ∀ (v147 : IVec S16 32) (v318 : IVec S16 32), Decidable (k0_chk118 v147 v318) := fun v147 v318 => decidable_of_iff' _ (Iff.of_eq (k0_chk118.eq_1 v147 v318))
theorem k0_idx118_inb : ∀ (v147 : IVec S16 32) (v318 : IVec S16 32) (k0_hw118 : k0_chk118 v147 v318), ∀ a x, ((![v147, v318] : Fin 2 → IVec S16 32) a x).toNat < S128x128.size a := fun v147 v318 k0_hw118 => k0_hw118

def k0_chk119 (v147 : IVec S16 32) (v323 : IVec S16 32) : Prop :=
  (∀ a x, ((![v147, v323] : Fin 2 → IVec S16 32) a x).toNat < S128x128.size a)
instance k0_chk119.dec : ∀ (v147 : IVec S16 32) (v323 : IVec S16 32), Decidable (k0_chk119 v147 v323) := fun v147 v323 => decidable_of_iff' _ (Iff.of_eq (k0_chk119.eq_1 v147 v323))
theorem k0_idx119_inb : ∀ (v147 : IVec S16 32) (v323 : IVec S16 32) (k0_hw119 : k0_chk119 v147 v323), ∀ a x, ((![v147, v323] : Fin 2 → IVec S16 32) a x).toNat < S128x128.size a := fun v147 v323 k0_hw119 => k0_hw119

def k0_chk120 (v147 : IVec S16 32) (v328 : IVec S16 32) : Prop :=
  (∀ a x, ((![v147, v328] : Fin 2 → IVec S16 32) a x).toNat < S128x128.size a)
instance k0_chk120.dec : ∀ (v147 : IVec S16 32) (v328 : IVec S16 32), Decidable (k0_chk120 v147 v328) := fun v147 v328 => decidable_of_iff' _ (Iff.of_eq (k0_chk120.eq_1 v147 v328))
theorem k0_idx120_inb : ∀ (v147 : IVec S16 32) (v328 : IVec S16 32) (k0_hw120 : k0_chk120 v147 v328), ∀ a x, ((![v147, v328] : Fin 2 → IVec S16 32) a x).toNat < S128x128.size a := fun v147 v328 k0_hw120 => k0_hw120

def k0_chk121 (v147 : IVec S16 32) (v333 : IVec S16 32) : Prop :=
  (∀ a x, ((![v147, v333] : Fin 2 → IVec S16 32) a x).toNat < S128x128.size a)
instance k0_chk121.dec : ∀ (v147 : IVec S16 32) (v333 : IVec S16 32), Decidable (k0_chk121 v147 v333) := fun v147 v333 => decidable_of_iff' _ (Iff.of_eq (k0_chk121.eq_1 v147 v333))
theorem k0_idx121_inb : ∀ (v147 : IVec S16 32) (v333 : IVec S16 32) (k0_hw121 : k0_chk121 v147 v333), ∀ a x, ((![v147, v333] : Fin 2 → IVec S16 32) a x).toNat < S128x128.size a := fun v147 v333 k0_hw121 => k0_hw121

def k0_chk122 (v147 : IVec S16 32) (v338 : IVec S16 32) : Prop :=
  (∀ a x, ((![v147, v338] : Fin 2 → IVec S16 32) a x).toNat < S128x128.size a)
instance k0_chk122.dec : ∀ (v147 : IVec S16 32) (v338 : IVec S16 32), Decidable (k0_chk122 v147 v338) := fun v147 v338 => decidable_of_iff' _ (Iff.of_eq (k0_chk122.eq_1 v147 v338))
theorem k0_idx122_inb : ∀ (v147 : IVec S16 32) (v338 : IVec S16 32) (k0_hw122 : k0_chk122 v147 v338), ∀ a x, ((![v147, v338] : Fin 2 → IVec S16 32) a x).toNat < S128x128.size a := fun v147 v338 k0_hw122 => k0_hw122

def k0_chk123 (v147 : IVec S16 32) (v343 : IVec S16 32) : Prop :=
  (∀ a x, ((![v147, v343] : Fin 2 → IVec S16 32) a x).toNat < S128x128.size a)
instance k0_chk123.dec : ∀ (v147 : IVec S16 32) (v343 : IVec S16 32), Decidable (k0_chk123 v147 v343) := fun v147 v343 => decidable_of_iff' _ (Iff.of_eq (k0_chk123.eq_1 v147 v343))
theorem k0_idx123_inb : ∀ (v147 : IVec S16 32) (v343 : IVec S16 32) (k0_hw123 : k0_chk123 v147 v343), ∀ a x, ((![v147, v343] : Fin 2 → IVec S16 32) a x).toNat < S128x128.size a := fun v147 v343 k0_hw123 => k0_hw123

def k0_chk124 (v147 : IVec S16 32) (v348 : IVec S16 32) : Prop :=
  (∀ a x, ((![v147, v348] : Fin 2 → IVec S16 32) a x).toNat < S128x128.size a)
instance k0_chk124.dec : ∀ (v147 : IVec S16 32) (v348 : IVec S16 32), Decidable (k0_chk124 v147 v348) := fun v147 v348 => decidable_of_iff' _ (Iff.of_eq (k0_chk124.eq_1 v147 v348))
theorem k0_idx124_inb : ∀ (v147 : IVec S16 32) (v348 : IVec S16 32) (k0_hw124 : k0_chk124 v147 v348), ∀ a x, ((![v147, v348] : Fin 2 → IVec S16 32) a x).toNat < S128x128.size a := fun v147 v348 k0_hw124 => k0_hw124

def k0_chk125 (v147 : IVec S16 32) (v353 : IVec S16 32) : Prop :=
  (∀ a x, ((![v147, v353] : Fin 2 → IVec S16 32) a x).toNat < S128x128.size a)
instance k0_chk125.dec : ∀ (v147 : IVec S16 32) (v353 : IVec S16 32), Decidable (k0_chk125 v147 v353) := fun v147 v353 => decidable_of_iff' _ (Iff.of_eq (k0_chk125.eq_1 v147 v353))
theorem k0_idx125_inb : ∀ (v147 : IVec S16 32) (v353 : IVec S16 32) (k0_hw125 : k0_chk125 v147 v353), ∀ a x, ((![v147, v353] : Fin 2 → IVec S16 32) a x).toNat < S128x128.size a := fun v147 v353 k0_hw125 => k0_hw125

def k0_chk126 (v147 : IVec S16 32) (v358 : IVec S16 32) : Prop :=
  (∀ a x, ((![v147, v358] : Fin 2 → IVec S16 32) a x).toNat < S128x128.size a)
instance k0_chk126.dec : ∀ (v147 : IVec S16 32) (v358 : IVec S16 32), Decidable (k0_chk126 v147 v358) := fun v147 v358 => decidable_of_iff' _ (Iff.of_eq (k0_chk126.eq_1 v147 v358))
theorem k0_idx126_inb : ∀ (v147 : IVec S16 32) (v358 : IVec S16 32) (k0_hw126 : k0_chk126 v147 v358), ∀ a x, ((![v147, v358] : Fin 2 → IVec S16 32) a x).toNat < S128x128.size a := fun v147 v358 k0_hw126 => k0_hw126

def k0_chk127 (v147 : IVec S16 32) (v363 : IVec S16 32) : Prop :=
  (∀ a x, ((![v147, v363] : Fin 2 → IVec S16 32) a x).toNat < S128x128.size a)
instance k0_chk127.dec : ∀ (v147 : IVec S16 32) (v363 : IVec S16 32), Decidable (k0_chk127 v147 v363) := fun v147 v363 => decidable_of_iff' _ (Iff.of_eq (k0_chk127.eq_1 v147 v363))
theorem k0_idx127_inb : ∀ (v147 : IVec S16 32) (v363 : IVec S16 32) (k0_hw127 : k0_chk127 v147 v363), ∀ a x, ((![v147, v363] : Fin 2 → IVec S16 32) a x).toNat < S128x128.size a := fun v147 v363 k0_hw127 => k0_hw127

def k0_chk128 (v147 : IVec S16 32) (v368 : IVec S16 32) : Prop :=
  (∀ a x, ((![v147, v368] : Fin 2 → IVec S16 32) a x).toNat < S128x128.size a)
instance k0_chk128.dec : ∀ (v147 : IVec S16 32) (v368 : IVec S16 32), Decidable (k0_chk128 v147 v368) := fun v147 v368 => decidable_of_iff' _ (Iff.of_eq (k0_chk128.eq_1 v147 v368))
theorem k0_idx128_inb : ∀ (v147 : IVec S16 32) (v368 : IVec S16 32) (k0_hw128 : k0_chk128 v147 v368), ∀ a x, ((![v147, v368] : Fin 2 → IVec S16 32) a x).toNat < S128x128.size a := fun v147 v368 k0_hw128 => k0_hw128
def k0_off128 (k0_t6 : Fin k0_t6_loop.trips) : Fin 3 → Nat :=
  let c1_i32_281 : BitVec 32 := 1#32
  let v372 : Index := Scalar.indexCast c1_i32_281
  let c16_i32_282 : BitVec 32 := 16#32
  let v373 : Index := Scalar.indexCast c16_i32_282
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v374 : Index := Scalar.indexCast v138
  ![1, 16, v374.toNat]
def k0_off129 (k0_t6 : Fin k0_t6_loop.trips) : Fin 3 → Nat :=
  let c1_i32_283 : BitVec 32 := 1#32
  let v376 : Index := Scalar.indexCast c1_i32_283
  let c17_i32_284 : BitVec 32 := 17#32
  let v377 : Index := Scalar.indexCast c17_i32_284
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v378 : Index := Scalar.indexCast v138
  ![1, 17, v378.toNat]
def k0_off130 (k0_t6 : Fin k0_t6_loop.trips) : Fin 3 → Nat :=
  let c1_i32_285 : BitVec 32 := 1#32
  let v380 : Index := Scalar.indexCast c1_i32_285
  let c18_i32_286 : BitVec 32 := 18#32
  let v381 : Index := Scalar.indexCast c18_i32_286
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v382 : Index := Scalar.indexCast v138
  ![1, 18, v382.toNat]
def k0_off131 (k0_t6 : Fin k0_t6_loop.trips) : Fin 3 → Nat :=
  let c1_i32_287 : BitVec 32 := 1#32
  let v384 : Index := Scalar.indexCast c1_i32_287
  let c19_i32_288 : BitVec 32 := 19#32
  let v385 : Index := Scalar.indexCast c19_i32_288
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v386 : Index := Scalar.indexCast v138
  ![1, 19, v386.toNat]
def k0_off132 (k0_t6 : Fin k0_t6_loop.trips) : Fin 3 → Nat :=
  let c1_i32_289 : BitVec 32 := 1#32
  let v388 : Index := Scalar.indexCast c1_i32_289
  let c20_i32_290 : BitVec 32 := 20#32
  let v389 : Index := Scalar.indexCast c20_i32_290
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v390 : Index := Scalar.indexCast v138
  ![1, 20, v390.toNat]
def k0_off133 (k0_t6 : Fin k0_t6_loop.trips) : Fin 3 → Nat :=
  let c1_i32_291 : BitVec 32 := 1#32
  let v392 : Index := Scalar.indexCast c1_i32_291
  let c21_i32_292 : BitVec 32 := 21#32
  let v393 : Index := Scalar.indexCast c21_i32_292
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v394 : Index := Scalar.indexCast v138
  ![1, 21, v394.toNat]
def k0_off134 (k0_t6 : Fin k0_t6_loop.trips) : Fin 3 → Nat :=
  let c1_i32_293 : BitVec 32 := 1#32
  let v396 : Index := Scalar.indexCast c1_i32_293
  let c22_i32_294 : BitVec 32 := 22#32
  let v397 : Index := Scalar.indexCast c22_i32_294
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v398 : Index := Scalar.indexCast v138
  ![1, 22, v398.toNat]
def k0_off135 (k0_t6 : Fin k0_t6_loop.trips) : Fin 3 → Nat :=
  let c1_i32_295 : BitVec 32 := 1#32
  let v400 : Index := Scalar.indexCast c1_i32_295
  let c23_i32_296 : BitVec 32 := 23#32
  let v401 : Index := Scalar.indexCast c23_i32_296
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v402 : Index := Scalar.indexCast v138
  ![1, 23, v402.toNat]
def k0_off136 (k0_t6 : Fin k0_t6_loop.trips) : Fin 3 → Nat :=
  let c1_i32_297 : BitVec 32 := 1#32
  let v404 : Index := Scalar.indexCast c1_i32_297
  let c24_i32_298 : BitVec 32 := 24#32
  let v405 : Index := Scalar.indexCast c24_i32_298
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v406 : Index := Scalar.indexCast v138
  ![1, 24, v406.toNat]
def k0_off137 (k0_t6 : Fin k0_t6_loop.trips) : Fin 3 → Nat :=
  let c1_i32_299 : BitVec 32 := 1#32
  let v408 : Index := Scalar.indexCast c1_i32_299
  let c25_i32_300 : BitVec 32 := 25#32
  let v409 : Index := Scalar.indexCast c25_i32_300
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v410 : Index := Scalar.indexCast v138
  ![1, 25, v410.toNat]
def k0_off138 (k0_t6 : Fin k0_t6_loop.trips) : Fin 3 → Nat :=
  let c1_i32_301 : BitVec 32 := 1#32
  let v412 : Index := Scalar.indexCast c1_i32_301
  let c26_i32_302 : BitVec 32 := 26#32
  let v413 : Index := Scalar.indexCast c26_i32_302
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v414 : Index := Scalar.indexCast v138
  ![1, 26, v414.toNat]
def k0_off139 (k0_t6 : Fin k0_t6_loop.trips) : Fin 3 → Nat :=
  let c1_i32_303 : BitVec 32 := 1#32
  let v416 : Index := Scalar.indexCast c1_i32_303
  let c27_i32_304 : BitVec 32 := 27#32
  let v417 : Index := Scalar.indexCast c27_i32_304
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v418 : Index := Scalar.indexCast v138
  ![1, 27, v418.toNat]
def k0_off140 (k0_t6 : Fin k0_t6_loop.trips) : Fin 3 → Nat :=
  let c1_i32_305 : BitVec 32 := 1#32
  let v420 : Index := Scalar.indexCast c1_i32_305
  let c28_i32_306 : BitVec 32 := 28#32
  let v421 : Index := Scalar.indexCast c28_i32_306
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v422 : Index := Scalar.indexCast v138
  ![1, 28, v422.toNat]
def k0_off141 (k0_t6 : Fin k0_t6_loop.trips) : Fin 3 → Nat :=
  let c1_i32_307 : BitVec 32 := 1#32
  let v424 : Index := Scalar.indexCast c1_i32_307
  let c29_i32_308 : BitVec 32 := 29#32
  let v425 : Index := Scalar.indexCast c29_i32_308
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v426 : Index := Scalar.indexCast v138
  ![1, 29, v426.toNat]
def k0_off142 (k0_t6 : Fin k0_t6_loop.trips) : Fin 3 → Nat :=
  let c1_i32_309 : BitVec 32 := 1#32
  let v428 : Index := Scalar.indexCast c1_i32_309
  let c30_i32_310 : BitVec 32 := 30#32
  let v429 : Index := Scalar.indexCast c30_i32_310
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v430 : Index := Scalar.indexCast v138
  ![1, 30, v430.toNat]
def k0_off143 (k0_t6 : Fin k0_t6_loop.trips) : Fin 3 → Nat :=
  let c1_i32_311 : BitVec 32 := 1#32
  let v432 : Index := Scalar.indexCast c1_i32_311
  let c31_i32_312 : BitVec 32 := 31#32
  let v433 : Index := Scalar.indexCast c31_i32_312
  let c0_i32_144 : BitVec 32 := 0#32
  let c0_i32_131 : BitVec 32 := 0#32
  let c1_i32_133 : BitVec 32 := 1#32
  let arg16 : BitVec 32 := Scf.iv c0_i32_131 c1_i32_133 k0_t6
  let c1_i32_143 : BitVec 32 := 1#32
  let v136 : BitVec 32 := Scalar.muli arg16 c1_i32_143
  let v137 : BitVec 32 := Scalar.addi c0_i32_144 v136
  let c16_i32 : BitVec 32 := 16#32
  let v138 : BitVec 32 := Scalar.muli v137 c16_i32
  let v434 : Index := Scalar.indexCast v138
  ![1, 31, v434.toNat]
def k0_off144 (i : grid0.Coords) : Fin 3 → Nat :=
  let c0_i32_26 : BitVec 32 := 0#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x32_S250000x128 : S1000000x32.ShapeCasts S250000x128
  transposes_S4096x200_S200x4096_1_0 : S4096x200.Transposes [1, 0] S200x4096
  iota_S16_d0_w32_scVector : S16.Iotas .scVector 32 [0]
  h_S1x16 : 0 < S1x16.numel
  shapeCasts_S1x16_S16 : S1x16.ShapeCasts S16
  shapeCasts_S16_S1x16 : S16.ShapeCasts S1x16
  inb_S4x128x128_S1x128x128_0_0_0 : ∀ a, (![0, 0, 0] : Fin 3 → Nat) a + S1x128x128.size a ≤ S4x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S250000x128_S250000x128_0_0 : ∀ a, (![0, 0] : Fin 2 → Nat) a + S250000x128.size a ≤ S250000x128.size a
  gathers_S250000x128_S128x128 : S250000x128.Gathers 0 S128x128
  inb_S4x128x128_S1x128x128_1_0_0 : ∀ a, (![1, 0, 0] : Fin 3 → Nat) a + S1x128x128.size a ≤ S4x128x128.size a
  inb_S200x128_S1x128_1_0 : ∀ a, (![1, 0] : Fin 2 → Nat) a + S1x128.size a ≤ S200x128.size a
  inb_S4x128x128_S1x128x128_2_0_0 : ∀ a, (![2, 0, 0] : Fin 3 → Nat) a + S1x128x128.size a ≤ S4x128x128.size a
  inb_S200x128_S1x128_2_0 : ∀ a, (![2, 0] : Fin 2 → Nat) a + S1x128.size a ≤ S200x128.size a
  inb_S4x128x128_S1x128x128_3_0_0 : ∀ a, (![3, 0, 0] : Fin 3 → Nat) a + S1x128x128.size a ≤ S4x128x128.size a
  inb_S2x32x128_S1x32x128_0_0_0 : ∀ a, (![0, 0, 0] : Fin 3 → Nat) a + S1x32x128.size a ≤ S2x32x128.size a
  squeezes_S1x32x128_S32x128 : S1x32x128.Squeezes S32x128
  h_S128x128 : 0 < S128x128.numel
  h_S1x1x16 : 0 < S1x1x16.numel
  shapeCasts_S1x1x16_S16 : S1x1x16.ShapeCasts S16
  shapeCasts_S16_S1x1x16 : S16.ShapeCasts S1x1x16
  inb_S2x32x128_S1x32x128_1_0_0 : ∀ a, (![1, 0, 0] : Fin 3 → Nat) a + S1x32x128.size a ≤ S2x32x128.size a
  transposes_S200x32x4096_S4096x200x32_2_0_1 : S200x32x4096.Transposes [2, 0, 1] S4096x200x32
  hcc0_scratch4 : 0 + S_.numel ≤ 7
  hcc0_scratch5 : 1 + S_.numel ≤ 7
  hcc0_scratch6 : 2 + S_.numel ≤ 7
  hcc0_scratch7 : 3 + S_.numel ≤ 7
  hcc0_scratch8 : 4 + S_.numel ≤ 7
  hcc0_scratch9 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S200x4096.size a
  k0_t1_ok : k0_t1_loop.OK
  k0_off2_inb : ∀ k0_t1 : Fin k0_t1_loop.trips, ∀ a, (k0_off2 k0_t1) a + S1x16.size a ≤ S200x128.size a
  k0_t2_ok : k0_t2_loop.OK
  k0_off3_inb : ∀ k0_t2 : Fin k0_t2_loop.trips, ∀ (k0_h1 : k0_cond1 k0_t2 = 1#1), ∀ a, (k0_off3 k0_t2) a + S1x128.size a ≤ S200x128.size a
  k0_off4_inb : ∀ (i : grid0.Coords) (k0_t2 : Fin k0_t2_loop.trips), ∀ (k0_h2 : k0_cond2 k0_t2 = 1#1), ∀ a, (k0_off4 i) a + S1x32x128.size a ≤ S200x32x4096.size a
  k0_t3_ok : k0_t3_loop.OK
  k0_off5_inb : ∀ (k0_t2 : Fin k0_t2_loop.trips) (k0_t3 : Fin k0_t3_loop.trips), ∀ a, (k0_off5 k0_t2 k0_t3) a + S1x16.size a ≤ S200x128.size a
  k0_off6_inb : ∀ k0_t3 : Fin k0_t3_loop.trips, ∀ a, (k0_off6 k0_t3) a + S1x1x16.size a ≤ S2x32x128.size a
  k0_off7_inb : ∀ k0_t3 : Fin k0_t3_loop.trips, ∀ a, (k0_off7 k0_t3) a + S1x1x16.size a ≤ S2x32x128.size a
  k0_off8_inb : ∀ k0_t3 : Fin k0_t3_loop.trips, ∀ a, (k0_off8 k0_t3) a + S1x1x16.size a ≤ S2x32x128.size a
  k0_off9_inb : ∀ k0_t3 : Fin k0_t3_loop.trips, ∀ a, (k0_off9 k0_t3) a + S1x1x16.size a ≤ S2x32x128.size a
  k0_off10_inb : ∀ k0_t3 : Fin k0_t3_loop.trips, ∀ a, (k0_off10 k0_t3) a + S1x1x16.size a ≤ S2x32x128.size a
  k0_off11_inb : ∀ k0_t3 : Fin k0_t3_loop.trips, ∀ a, (k0_off11 k0_t3) a + S1x1x16.size a ≤ S2x32x128.size a
  k0_off12_inb : ∀ k0_t3 : Fin k0_t3_loop.trips, ∀ a, (k0_off12 k0_t3) a + S1x1x16.size a ≤ S2x32x128.size a
  k0_off13_inb : ∀ k0_t3 : Fin k0_t3_loop.trips, ∀ a, (k0_off13 k0_t3) a + S1x1x16.size a ≤ S2x32x128.size a
  k0_off14_inb : ∀ k0_t3 : Fin k0_t3_loop.trips, ∀ a, (k0_off14 k0_t3) a + S1x1x16.size a ≤ S2x32x128.size a
  k0_off15_inb : ∀ k0_t3 : Fin k0_t3_loop.trips, ∀ a, (k0_off15 k0_t3) a + S1x1x16.size a ≤ S2x32x128.size a
  k0_off16_inb : ∀ k0_t3 : Fin k0_t3_loop.trips, ∀ a, (k0_off16 k0_t3) a + S1x1x16.size a ≤ S2x32x128.size a
  k0_off17_inb : ∀ k0_t3 : Fin k0_t3_loop.trips, ∀ a, (k0_off17 k0_t3) a + S1x1x16.size a ≤ S2x32x128.size a
  k0_off18_inb : ∀ k0_t3 : Fin k0_t3_loop.trips, ∀ a, (k0_off18 k0_t3) a + S1x1x16.size a ≤ S2x32x128.size a
  k0_off19_inb : ∀ k0_t3 : Fin k0_t3_loop.trips, ∀ a, (k0_off19 k0_t3) a + S1x1x16.size a ≤ S2x32x128.size a
  k0_off20_inb : ∀ k0_t3 : Fin k0_t3_loop.trips, ∀ a, (k0_off20 k0_t3) a + S1x1x16.size a ≤ S2x32x128.size a
  k0_off21_inb : ∀ k0_t3 : Fin k0_t3_loop.trips, ∀ a, (k0_off21 k0_t3) a + S1x1x16.size a ≤ S2x32x128.size a
  k0_off22_inb : ∀ k0_t3 : Fin k0_t3_loop.trips, ∀ a, (k0_off22 k0_t3) a + S1x1x16.size a ≤ S2x32x128.size a
  k0_off23_inb : ∀ k0_t3 : Fin k0_t3_loop.trips, ∀ a, (k0_off23 k0_t3) a + S1x1x16.size a ≤ S2x32x128.size a
  k0_off24_inb : ∀ k0_t3 : Fin k0_t3_loop.trips, ∀ a, (k0_off24 k0_t3) a + S1x1x16.size a ≤ S2x32x128.size a
  k0_off25_inb : ∀ k0_t3 : Fin k0_t3_loop.trips, ∀ a, (k0_off25 k0_t3) a + S1x1x16.size a ≤ S2x32x128.size a
  k0_off26_inb : ∀ k0_t3 : Fin k0_t3_loop.trips, ∀ a, (k0_off26 k0_t3) a + S1x1x16.size a ≤ S2x32x128.size a
  k0_off27_inb : ∀ k0_t3 : Fin k0_t3_loop.trips, ∀ a, (k0_off27 k0_t3) a + S1x1x16.size a ≤ S2x32x128.size a
  k0_off28_inb : ∀ k0_t3 : Fin k0_t3_loop.trips, ∀ a, (k0_off28 k0_t3) a + S1x1x16.size a ≤ S2x32x128.size a
  k0_off29_inb : ∀ k0_t3 : Fin k0_t3_loop.trips, ∀ a, (k0_off29 k0_t3) a + S1x1x16.size a ≤ S2x32x128.size a
  k0_off30_inb : ∀ k0_t3 : Fin k0_t3_loop.trips, ∀ a, (k0_off30 k0_t3) a + S1x1x16.size a ≤ S2x32x128.size a
  k0_off31_inb : ∀ k0_t3 : Fin k0_t3_loop.trips, ∀ a, (k0_off31 k0_t3) a + S1x1x16.size a ≤ S2x32x128.size a
  k0_off32_inb : ∀ k0_t3 : Fin k0_t3_loop.trips, ∀ a, (k0_off32 k0_t3) a + S1x1x16.size a ≤ S2x32x128.size a
  k0_off33_inb : ∀ k0_t3 : Fin k0_t3_loop.trips, ∀ a, (k0_off33 k0_t3) a + S1x1x16.size a ≤ S2x32x128.size a
  k0_off34_inb : ∀ k0_t3 : Fin k0_t3_loop.trips, ∀ a, (k0_off34 k0_t3) a + S1x1x16.size a ≤ S2x32x128.size a
  k0_off35_inb : ∀ k0_t3 : Fin k0_t3_loop.trips, ∀ a, (k0_off35 k0_t3) a + S1x1x16.size a ≤ S2x32x128.size a
  k0_off36_inb : ∀ k0_t3 : Fin k0_t3_loop.trips, ∀ a, (k0_off36 k0_t3) a + S1x1x16.size a ≤ S2x32x128.size a
  k0_off37_inb : ∀ k0_t3 : Fin k0_t3_loop.trips, ∀ a, (k0_off37 k0_t3) a + S1x1x16.size a ≤ S2x32x128.size a
  k0_off38_inb : ∀ (i : grid0.Coords) (k0_t2 : Fin k0_t2_loop.trips), ∀ (r : Fin 4), ∀ a, (k0_off38 i k0_t2 (BitVec.ofNat 32 r.val)) a + S1x32x128.size a ≤ S200x32x4096.size a
  k0_off39_inb : ∀ k0_t2 : Fin k0_t2_loop.trips, ∀ (k0_h3 : k0_cond3 k0_t2 = 1#1), ∀ a, (k0_off39 k0_t2) a + S1x128.size a ≤ S200x128.size a
  k0_off40_inb : ∀ (i : grid0.Coords) (k0_t2 : Fin k0_t2_loop.trips), ∀ (k0_h4 : k0_cond4 k0_t2 = 1#1), ∀ a, (k0_off40 i) a + S1x32x128.size a ≤ S200x32x4096.size a
  k0_t4_ok : k0_t4_loop.OK
  k0_off41_inb : ∀ (k0_t2 : Fin k0_t2_loop.trips) (k0_t4 : Fin k0_t4_loop.trips), ∀ a, (k0_off41 k0_t2 k0_t4) a + S1x16.size a ≤ S200x128.size a
  k0_off42_inb : ∀ k0_t4 : Fin k0_t4_loop.trips, ∀ a, (k0_off42 k0_t4) a + S1x1x16.size a ≤ S2x32x128.size a
  k0_off43_inb : ∀ k0_t4 : Fin k0_t4_loop.trips, ∀ a, (k0_off43 k0_t4) a + S1x1x16.size a ≤ S2x32x128.size a
  k0_off44_inb : ∀ k0_t4 : Fin k0_t4_loop.trips, ∀ a, (k0_off44 k0_t4) a + S1x1x16.size a ≤ S2x32x128.size a
  k0_off45_inb : ∀ k0_t4 : Fin k0_t4_loop.trips, ∀ a, (k0_off45 k0_t4) a + S1x1x16.size a ≤ S2x32x128.size a
  k0_off46_inb : ∀ k0_t4 : Fin k0_t4_loop.trips, ∀ a, (k0_off46 k0_t4) a + S1x1x16.size a ≤ S2x32x128.size a
  k0_off47_inb : ∀ k0_t4 : Fin k0_t4_loop.trips, ∀ a, (k0_off47 k0_t4) a + S1x1x16.size a ≤ S2x32x128.size a
  k0_off48_inb : ∀ k0_t4 : Fin k0_t4_loop.trips, ∀ a, (k0_off48 k0_t4) a + S1x1x16.size a ≤ S2x32x128.size a
  k0_off49_inb : ∀ k0_t4 : Fin k0_t4_loop.trips, ∀ a, (k0_off49 k0_t4) a + S1x1x16.size a ≤ S2x32x128.size a
  k0_off50_inb : ∀ k0_t4 : Fin k0_t4_loop.trips, ∀ a, (k0_off50 k0_t4) a + S1x1x16.size a ≤ S2x32x128.size a
  k0_off51_inb : ∀ k0_t4 : Fin k0_t4_loop.trips, ∀ a, (k0_off51 k0_t4) a + S1x1x16.size a ≤ S2x32x128.size a
  k0_off52_inb : ∀ k0_t4 : Fin k0_t4_loop.trips, ∀ a, (k0_off52 k0_t4) a + S1x1x16.size a ≤ S2x32x128.size a
  k0_off53_inb : ∀ k0_t4 : Fin k0_t4_loop.trips, ∀ a, (k0_off53 k0_t4) a + S1x1x16.size a ≤ S2x32x128.size a
  k0_off54_inb : ∀ k0_t4 : Fin k0_t4_loop.trips, ∀ a, (k0_off54 k0_t4) a + S1x1x16.size a ≤ S2x32x128.size a
  k0_off55_inb : ∀ k0_t4 : Fin k0_t4_loop.trips, ∀ a, (k0_off55 k0_t4) a + S1x1x16.size a ≤ S2x32x128.size a
  k0_off56_inb : ∀ k0_t4 : Fin k0_t4_loop.trips, ∀ a, (k0_off56 k0_t4) a + S1x1x16.size a ≤ S2x32x128.size a
  k0_off57_inb : ∀ k0_t4 : Fin k0_t4_loop.trips, ∀ a, (k0_off57 k0_t4) a + S1x1x16.size a ≤ S2x32x128.size a
  k0_off58_inb : ∀ k0_t4 : Fin k0_t4_loop.trips, ∀ a, (k0_off58 k0_t4) a + S1x1x16.size a ≤ S2x32x128.size a
  k0_off59_inb : ∀ k0_t4 : Fin k0_t4_loop.trips, ∀ a, (k0_off59 k0_t4) a + S1x1x16.size a ≤ S2x32x128.size a
  k0_off60_inb : ∀ k0_t4 : Fin k0_t4_loop.trips, ∀ a, (k0_off60 k0_t4) a + S1x1x16.size a ≤ S2x32x128.size a
  k0_off61_inb : ∀ k0_t4 : Fin k0_t4_loop.trips, ∀ a, (k0_off61 k0_t4) a + S1x1x16.size a ≤ S2x32x128.size a
  k0_off62_inb : ∀ k0_t4 : Fin k0_t4_loop.trips, ∀ a, (k0_off62 k0_t4) a + S1x1x16.size a ≤ S2x32x128.size a
  k0_off63_inb : ∀ k0_t4 : Fin k0_t4_loop.trips, ∀ a, (k0_off63 k0_t4) a + S1x1x16.size a ≤ S2x32x128.size a
  k0_off64_inb : ∀ k0_t4 : Fin k0_t4_loop.trips, ∀ a, (k0_off64 k0_t4) a + S1x1x16.size a ≤ S2x32x128.size a
  k0_off65_inb : ∀ k0_t4 : Fin k0_t4_loop.trips, ∀ a, (k0_off65 k0_t4) a + S1x1x16.size a ≤ S2x32x128.size a
  k0_off66_inb : ∀ k0_t4 : Fin k0_t4_loop.trips, ∀ a, (k0_off66 k0_t4) a + S1x1x16.size a ≤ S2x32x128.size a
  k0_off67_inb : ∀ k0_t4 : Fin k0_t4_loop.trips, ∀ a, (k0_off67 k0_t4) a + S1x1x16.size a ≤ S2x32x128.size a
  k0_off68_inb : ∀ k0_t4 : Fin k0_t4_loop.trips, ∀ a, (k0_off68 k0_t4) a + S1x1x16.size a ≤ S2x32x128.size a
  k0_off69_inb : ∀ k0_t4 : Fin k0_t4_loop.trips, ∀ a, (k0_off69 k0_t4) a + S1x1x16.size a ≤ S2x32x128.size a
  k0_off70_inb : ∀ k0_t4 : Fin k0_t4_loop.trips, ∀ a, (k0_off70 k0_t4) a + S1x1x16.size a ≤ S2x32x128.size a
  k0_off71_inb : ∀ k0_t4 : Fin k0_t4_loop.trips, ∀ a, (k0_off71 k0_t4) a + S1x1x16.size a ≤ S2x32x128.size a
  k0_off72_inb : ∀ k0_t4 : Fin k0_t4_loop.trips, ∀ a, (k0_off72 k0_t4) a + S1x1x16.size a ≤ S2x32x128.size a
  k0_off73_inb : ∀ k0_t4 : Fin k0_t4_loop.trips, ∀ a, (k0_off73 k0_t4) a + S1x1x16.size a ≤ S2x32x128.size a
  k0_off74_inb : ∀ k0_t2 : Fin k0_t2_loop.trips, ∀ (k0_h5 : k0_cond5 k0_t2 = 1#1), ∀ a, (k0_off74 k0_t2) a + S1x128.size a ≤ S200x128.size a
  k0_off75_inb : ∀ (i : grid0.Coords) (k0_t2 : Fin k0_t2_loop.trips), ∀ (k0_h6 : k0_cond6 k0_t2 = 1#1), ∀ a, (k0_off75 i) a + S1x32x128.size a ≤ S200x32x4096.size a
  k0_t5_ok : k0_t5_loop.OK
  k0_off76_inb : ∀ (k0_t2 : Fin k0_t2_loop.trips) (k0_t5 : Fin k0_t5_loop.trips), ∀ a, (k0_off76 k0_t2 k0_t5) a + S1x16.size a ≤ S200x128.size a
  k0_off77_inb : ∀ k0_t5 : Fin k0_t5_loop.trips, ∀ a, (k0_off77 k0_t5) a + S1x1x16.size a ≤ S2x32x128.size a
  k0_off78_inb : ∀ k0_t5 : Fin k0_t5_loop.trips, ∀ a, (k0_off78 k0_t5) a + S1x1x16.size a ≤ S2x32x128.size a
  k0_off79_inb : ∀ k0_t5 : Fin k0_t5_loop.trips, ∀ a, (k0_off79 k0_t5) a + S1x1x16.size a ≤ S2x32x128.size a
  k0_off80_inb : ∀ k0_t5 : Fin k0_t5_loop.trips, ∀ a, (k0_off80 k0_t5) a + S1x1x16.size a ≤ S2x32x128.size a
  k0_off81_inb : ∀ k0_t5 : Fin k0_t5_loop.trips, ∀ a, (k0_off81 k0_t5) a + S1x1x16.size a ≤ S2x32x128.size a
  k0_off82_inb : ∀ k0_t5 : Fin k0_t5_loop.trips, ∀ a, (k0_off82 k0_t5) a + S1x1x16.size a ≤ S2x32x128.size a
  k0_off83_inb : ∀ k0_t5 : Fin k0_t5_loop.trips, ∀ a, (k0_off83 k0_t5) a + S1x1x16.size a ≤ S2x32x128.size a
  k0_off84_inb : ∀ k0_t5 : Fin k0_t5_loop.trips, ∀ a, (k0_off84 k0_t5) a + S1x1x16.size a ≤ S2x32x128.size a
  k0_off85_inb : ∀ k0_t5 : Fin k0_t5_loop.trips, ∀ a, (k0_off85 k0_t5) a + S1x1x16.size a ≤ S2x32x128.size a
  k0_off86_inb : ∀ k0_t5 : Fin k0_t5_loop.trips, ∀ a, (k0_off86 k0_t5) a + S1x1x16.size a ≤ S2x32x128.size a
  k0_off87_inb : ∀ k0_t5 : Fin k0_t5_loop.trips, ∀ a, (k0_off87 k0_t5) a + S1x1x16.size a ≤ S2x32x128.size a
  k0_off88_inb : ∀ k0_t5 : Fin k0_t5_loop.trips, ∀ a, (k0_off88 k0_t5) a + S1x1x16.size a ≤ S2x32x128.size a
  k0_off89_inb : ∀ k0_t5 : Fin k0_t5_loop.trips, ∀ a, (k0_off89 k0_t5) a + S1x1x16.size a ≤ S2x32x128.size a
  k0_off90_inb : ∀ k0_t5 : Fin k0_t5_loop.trips, ∀ a, (k0_off90 k0_t5) a + S1x1x16.size a ≤ S2x32x128.size a
  k0_off91_inb : ∀ k0_t5 : Fin k0_t5_loop.trips, ∀ a, (k0_off91 k0_t5) a + S1x1x16.size a ≤ S2x32x128.size a
  k0_off92_inb : ∀ k0_t5 : Fin k0_t5_loop.trips, ∀ a, (k0_off92 k0_t5) a + S1x1x16.size a ≤ S2x32x128.size a
  k0_off93_inb : ∀ k0_t5 : Fin k0_t5_loop.trips, ∀ a, (k0_off93 k0_t5) a + S1x1x16.size a ≤ S2x32x128.size a
  k0_off94_inb : ∀ k0_t5 : Fin k0_t5_loop.trips, ∀ a, (k0_off94 k0_t5) a + S1x1x16.size a ≤ S2x32x128.size a
  k0_off95_inb : ∀ k0_t5 : Fin k0_t5_loop.trips, ∀ a, (k0_off95 k0_t5) a + S1x1x16.size a ≤ S2x32x128.size a
  k0_off96_inb : ∀ k0_t5 : Fin k0_t5_loop.trips, ∀ a, (k0_off96 k0_t5) a + S1x1x16.size a ≤ S2x32x128.size a
  k0_off97_inb : ∀ k0_t5 : Fin k0_t5_loop.trips, ∀ a, (k0_off97 k0_t5) a + S1x1x16.size a ≤ S2x32x128.size a
  k0_off98_inb : ∀ k0_t5 : Fin k0_t5_loop.trips, ∀ a, (k0_off98 k0_t5) a + S1x1x16.size a ≤ S2x32x128.size a
  k0_off99_inb : ∀ k0_t5 : Fin k0_t5_loop.trips, ∀ a, (k0_off99 k0_t5) a + S1x1x16.size a ≤ S2x32x128.size a
  k0_off100_inb : ∀ k0_t5 : Fin k0_t5_loop.trips, ∀ a, (k0_off100 k0_t5) a + S1x1x16.size a ≤ S2x32x128.size a
  k0_off101_inb : ∀ k0_t5 : Fin k0_t5_loop.trips, ∀ a, (k0_off101 k0_t5) a + S1x1x16.size a ≤ S2x32x128.size a
  k0_off102_inb : ∀ k0_t5 : Fin k0_t5_loop.trips, ∀ a, (k0_off102 k0_t5) a + S1x1x16.size a ≤ S2x32x128.size a
  k0_off103_inb : ∀ k0_t5 : Fin k0_t5_loop.trips, ∀ a, (k0_off103 k0_t5) a + S1x1x16.size a ≤ S2x32x128.size a
  k0_off104_inb : ∀ k0_t5 : Fin k0_t5_loop.trips, ∀ a, (k0_off104 k0_t5) a + S1x1x16.size a ≤ S2x32x128.size a
  k0_off105_inb : ∀ k0_t5 : Fin k0_t5_loop.trips, ∀ a, (k0_off105 k0_t5) a + S1x1x16.size a ≤ S2x32x128.size a
  k0_off106_inb : ∀ k0_t5 : Fin k0_t5_loop.trips, ∀ a, (k0_off106 k0_t5) a + S1x1x16.size a ≤ S2x32x128.size a
  k0_off107_inb : ∀ k0_t5 : Fin k0_t5_loop.trips, ∀ a, (k0_off107 k0_t5) a + S1x1x16.size a ≤ S2x32x128.size a
  k0_off108_inb : ∀ k0_t5 : Fin k0_t5_loop.trips, ∀ a, (k0_off108 k0_t5) a + S1x1x16.size a ≤ S2x32x128.size a
  k0_off109_inb : ∀ k0_t2 : Fin k0_t2_loop.trips, ∀ (k0_h7 : k0_cond7 k0_t2 = 1#1), ∀ a, (k0_off109 k0_t2) a + S1x128.size a ≤ S200x128.size a
  k0_off110_inb : ∀ (i : grid0.Coords) (k0_t2 : Fin k0_t2_loop.trips), ∀ (k0_h8 : k0_cond8 k0_t2 = 1#1), ∀ a, (k0_off110 i) a + S1x32x128.size a ≤ S200x32x4096.size a
  k0_t6_ok : k0_t6_loop.OK
  k0_off111_inb : ∀ (k0_t2 : Fin k0_t2_loop.trips) (k0_t6 : Fin k0_t6_loop.trips), ∀ a, (k0_off111 k0_t2 k0_t6) a + S1x16.size a ≤ S200x128.size a
  k0_off112_inb : ∀ k0_t6 : Fin k0_t6_loop.trips, ∀ a, (k0_off112 k0_t6) a + S1x1x16.size a ≤ S2x32x128.size a
  k0_off113_inb : ∀ k0_t6 : Fin k0_t6_loop.trips, ∀ a, (k0_off113 k0_t6) a + S1x1x16.size a ≤ S2x32x128.size a
  k0_off114_inb : ∀ k0_t6 : Fin k0_t6_loop.trips, ∀ a, (k0_off114 k0_t6) a + S1x1x16.size a ≤ S2x32x128.size a
  k0_off115_inb : ∀ k0_t6 : Fin k0_t6_loop.trips, ∀ a, (k0_off115 k0_t6) a + S1x1x16.size a ≤ S2x32x128.size a
  k0_off116_inb : ∀ k0_t6 : Fin k0_t6_loop.trips, ∀ a, (k0_off116 k0_t6) a + S1x1x16.size a ≤ S2x32x128.size a
  k0_off117_inb : ∀ k0_t6 : Fin k0_t6_loop.trips, ∀ a, (k0_off117 k0_t6) a + S1x1x16.size a ≤ S2x32x128.size a
  k0_off118_inb : ∀ k0_t6 : Fin k0_t6_loop.trips, ∀ a, (k0_off118 k0_t6) a + S1x1x16.size a ≤ S2x32x128.size a
  k0_off119_inb : ∀ k0_t6 : Fin k0_t6_loop.trips, ∀ a, (k0_off119 k0_t6) a + S1x1x16.size a ≤ S2x32x128.size a
  k0_off120_inb : ∀ k0_t6 : Fin k0_t6_loop.trips, ∀ a, (k0_off120 k0_t6) a + S1x1x16.size a ≤ S2x32x128.size a
  k0_off121_inb : ∀ k0_t6 : Fin k0_t6_loop.trips, ∀ a, (k0_off121 k0_t6) a + S1x1x16.size a ≤ S2x32x128.size a
  k0_off122_inb : ∀ k0_t6 : Fin k0_t6_loop.trips, ∀ a, (k0_off122 k0_t6) a + S1x1x16.size a ≤ S2x32x128.size a
  k0_off123_inb : ∀ k0_t6 : Fin k0_t6_loop.trips, ∀ a, (k0_off123 k0_t6) a + S1x1x16.size a ≤ S2x32x128.size a
  k0_off124_inb : ∀ k0_t6 : Fin k0_t6_loop.trips, ∀ a, (k0_off124 k0_t6) a + S1x1x16.size a ≤ S2x32x128.size a
  k0_off125_inb : ∀ k0_t6 : Fin k0_t6_loop.trips, ∀ a, (k0_off125 k0_t6) a + S1x1x16.size a ≤ S2x32x128.size a
  k0_off126_inb : ∀ k0_t6 : Fin k0_t6_loop.trips, ∀ a, (k0_off126 k0_t6) a + S1x1x16.size a ≤ S2x32x128.size a
  k0_off127_inb : ∀ k0_t6 : Fin k0_t6_loop.trips, ∀ a, (k0_off127 k0_t6) a + S1x1x16.size a ≤ S2x32x128.size a
  k0_off128_inb : ∀ k0_t6 : Fin k0_t6_loop.trips, ∀ a, (k0_off128 k0_t6) a + S1x1x16.size a ≤ S2x32x128.size a
  k0_off129_inb : ∀ k0_t6 : Fin k0_t6_loop.trips, ∀ a, (k0_off129 k0_t6) a + S1x1x16.size a ≤ S2x32x128.size a
  k0_off130_inb : ∀ k0_t6 : Fin k0_t6_loop.trips, ∀ a, (k0_off130 k0_t6) a + S1x1x16.size a ≤ S2x32x128.size a
  k0_off131_inb : ∀ k0_t6 : Fin k0_t6_loop.trips, ∀ a, (k0_off131 k0_t6) a + S1x1x16.size a ≤ S2x32x128.size a
  k0_off132_inb : ∀ k0_t6 : Fin k0_t6_loop.trips, ∀ a, (k0_off132 k0_t6) a + S1x1x16.size a ≤ S2x32x128.size a
  k0_off133_inb : ∀ k0_t6 : Fin k0_t6_loop.trips, ∀ a, (k0_off133 k0_t6) a + S1x1x16.size a ≤ S2x32x128.size a
  k0_off134_inb : ∀ k0_t6 : Fin k0_t6_loop.trips, ∀ a, (k0_off134 k0_t6) a + S1x1x16.size a ≤ S2x32x128.size a
  k0_off135_inb : ∀ k0_t6 : Fin k0_t6_loop.trips, ∀ a, (k0_off135 k0_t6) a + S1x1x16.size a ≤ S2x32x128.size a
  k0_off136_inb : ∀ k0_t6 : Fin k0_t6_loop.trips, ∀ a, (k0_off136 k0_t6) a + S1x1x16.size a ≤ S2x32x128.size a
  k0_off137_inb : ∀ k0_t6 : Fin k0_t6_loop.trips, ∀ a, (k0_off137 k0_t6) a + S1x1x16.size a ≤ S2x32x128.size a
  k0_off138_inb : ∀ k0_t6 : Fin k0_t6_loop.trips, ∀ a, (k0_off138 k0_t6) a + S1x1x16.size a ≤ S2x32x128.size a
  k0_off139_inb : ∀ k0_t6 : Fin k0_t6_loop.trips, ∀ a, (k0_off139 k0_t6) a + S1x1x16.size a ≤ S2x32x128.size a
  k0_off140_inb : ∀ k0_t6 : Fin k0_t6_loop.trips, ∀ a, (k0_off140 k0_t6) a + S1x1x16.size a ≤ S2x32x128.size a
  k0_off141_inb : ∀ k0_t6 : Fin k0_t6_loop.trips, ∀ a, (k0_off141 k0_t6) a + S1x1x16.size a ≤ S2x32x128.size a
  k0_off142_inb : ∀ k0_t6 : Fin k0_t6_loop.trips, ∀ a, (k0_off142 k0_t6) a + S1x1x16.size a ≤ S2x32x128.size a
  k0_off143_inb : ∀ k0_t6 : Fin k0_t6_loop.trips, ∀ a, (k0_off143 k0_t6) a + S1x1x16.size a ≤ S2x32x128.size a
  k0_off144_inb : ∀ i : grid0.Coords, ∀ a, (k0_off144 i) a + S1x32x128.size a ≤ S200x32x4096.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scoped0 : DmaSems sig S_ := SemArray.consecutive 6 S_ hcc0_scoped0

class Facts : Prop extends Facts₀ where

variable [Facts]
-- ==== ReferenceIdeal.lean ====
abbrev S4096x200 : Shape := ⟨2, ![4096, 200]⟩
abbrev S1000000x32 : Shape := ⟨2, ![1000000, 32]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x32 : Shape := ⟨3, ![4096, 200, 32]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x32, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x32, .f32⟩
  | .hbm, ⟨21, _⟩ => ⟨S4096x200x32, .i1⟩
  | .hbm, ⟨22, _⟩ => ⟨S_, .f32⟩
  | .hbm, ⟨23, _⟩ => ⟨S4096x200x32, .f32⟩
  | .hbm, ⟨24, _⟩ => ⟨S4096x200x32, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x32_0_1 : S4096x200.BroadcastsInDim S4096x200x32 (![0, 1] : Fin 2 → Fin S4096x200x32.rank)
  bcast_S_S4096x200x32 : S_.BroadcastsInDim S4096x200x32 (![] : Fin 0 → Fin S4096x200x32.rank)
  gather_S1000000x32_S4096x200x1_S4096x200x32_2_0_n_n_0_2_132_wf : GatherDims.WF S1000000x32 S4096x200x1 S4096x200x32 [2] [0] [] [0] [] 2 ![1, 32]

variable [Facts₀]

def gather_S1000000x32_S4096x200x1_S4096x200x32_2_0_n_n_0_2_132 : GatherDims S1000000x32 S4096x200x1 S4096x200x32 where
  offsetDims := [2]
  collapsedSliceDims := [0]
  operandBatchingDims := []
  startIndicesBatchingDims := []
  startIndexMap := [0]
  indexVectorDim := 2
  sliceSizes := ![1, 32]
  wf := gather_S1000000x32_S4096x200x1_S4096x200x32_2_0_n_n_0_2_132_wf

class Facts : Prop extends Facts₀ where

variable [Facts]
-- ==== Proof.KernelCommon.lean ====
/-
  The kernel's program as its launch sees it, and the names the tile's proof is written over: the
  three arrays in HBM (the table as rows of 128, the transposed index array, the result laid out position-major),
  a tile's four scratch arrays and seven transfer semaphores, and the block of 128 batch columns that tile
  `(core, subcore)` works on: columns `[128 * (2 * subcore + core), + 128)`.
-/
import proofs.«206503_g81295140979383_cont_9to1c4b_414_34_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206503_g81295140979383_cont_9to1c4b_414_34_alg».proof.Proof.Gen.Kernel
import proofs.«206503_g81295140979383_cont_9to1c4b_414_34_alg».proof.Proof.Gen.Kernel.Skeleton

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays -/

/-- The table as 250000 rows of 128, the transposed indices, the result position-major: as a tile names them. -/
abbrev tV : Memref sig .scVector .hbm S250000x128 .f32 := Memref.whole main_v0_scv
abbrev iV : Memref sig .scVector .hbm S200x4096 .i32 := Memref.whole main_v1_scv
abbrev oV : Memref sig .scVector .hbm S200x32x4096 .f32 := Memref.whole main_v2_scv
/-- A tile's scratch: its block of indices, their row numbers in the table of 128-wide rows, four slots of
    gathered rows, two slots of result rows. -/
abbrev sI : Memref sig .scVector .vmem S200x128 .i32 := Memref.whole cc0_scratch0
abbrev sQ : Memref sig .scVector .vmem S200x128 .i32 := Memref.whole cc0_scratch1
abbrev sG : Memref sig .scVector .vmem S4x128x128 .f32 := Memref.whole cc0_scratch2
abbrev sO : Memref sig .scVector .vmem S2x32x128 .f32 := Memref.whole cc0_scratch3

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-! ## A tile -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The tile's program. -/
abbrev tileProg [FloatOps F] (L : grid0.Coords) :=
  cc0_emb_kernel (F := F) L tV (Memref.isWhole_whole _) iV (Memref.isWhole_whole _) oV (Memref.isWhole_whole _)
    sI (Memref.isWhole_whole _) sQ (Memref.isWhole_whole _) sG (Memref.isWhole_whole _) sO (Memref.isWhole_whole _)
    cc0_scratch4 cc0_scratch5 cc0_scratch6 cc0_scratch7 cc0_scratch8 cc0_scratch9 cc0_scoped0

theorem defs₀_vector [FloatOps F] (c : Fin τ.nSC) (s : Fin τ.nSub) :
    defs₀ (F := F) (.scVector c s) 0 ()
      = SparseCore.onTile hcore0 hsub0 (fun c s => tileProg (F := F) (coordsV c s)) ⟨⟩ c s := rfl

end Cert.Proof.Kernel

end
-- ==== Proof.KernelTileSpec.lean ====
/-
  What one tile does, as a statement. Tile `(core, subcore)` works on batch columns
  `[128 * (2 * subcore + core), + 128)`: it reads those columns of the transposed index array, and for every
  position `h`, every one of its columns `b` and every `d < 32` it writes
  `table[w / 4, (w % 4) * 32 + d]` at `(h, d, b)` of the position-major result, `w` the index at `(h, b)`:
  the table is held as rows of 128, so row `w` of the table of 32-wide rows is the quarter `w % 4` of row `w / 4`.
-/
import proofs.«206503_g81295140979383_cont_9to1c4b_414_34_alg».proof.Proof.KernelCommon
import Idealize.ShloMosaic.Lib.ValueIdx

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The thread of tile `L` on device `d`. -/
abbrev thr (d : Dev nD) (L : grid0.Coords) : Thread nD τ := V d (cV L) (jV L)

theorem core_lt (L : grid0.Coords) : (L 0).val < 2 := (L 0).isLt
theorem sub_lt (L : grid0.Coords) : (L 1).val < 16 := (L 1).isLt

/-- The first batch column of tile `L`. -/
def col0 (L : grid0.Coords) : Nat := 256 * (L 1).val + 128 * (L 0).val

theorem oBlk_inb (L : grid0.Coords) : ∀ a, (![0, 0, col0 L] : Fin 3 → Nat) a + (![200, 32, 128] : Fin 3 → Nat) a ≤ S200x32x4096.size a := by
  have h0 := core_lt L; have h1 := sub_lt L
  intro a
  match a with
  | ⟨0, _⟩ => exact Nat.le_refl _
  | ⟨1, _⟩ => exact Nat.le_refl _
  | ⟨2, _⟩ => show col0 L + 128 ≤ 4096; unfold col0; omega

/-- Tile `L`'s part of the result: every position, every `d`, its 128 columns. -/
abbrev oBlk (L : grid0.Coords) : Rect S200x32x4096 := Rect.unit (s := S200x32x4096) ![0, 0, col0 L] ![200, 32, 128] (oBlk_inb L)

/-- The elements of the result that tile `L` writes. -/
abbrev oSet (L : grid0.Coords) : Finset S200x32x4096.Idx := (oBlk L).set

/-- What the tiles leave in the result: at `(h, d, b)` the table's entry `(w / 4, (w % 4) * 32 + d)`, `w` the index
    at `(h, b)` (the row number taken modulo the table's height, so that the function is total). -/
def tileVal (tb : S250000x128.Idx → Elt F .f32) (ix : S200x4096.Idx → BitVec 32) : S200x32x4096.Idx → Elt F .f32 :=
  fun j =>
    let w : BitVec 32 := ix (ix2 (j 0 : Fin 200) (j 2 : Fin 4096))
    tb (ix2 (⟨w.toNat / 4 % 250000, Nat.mod_lt _ (by decide)⟩ : Fin 250000)
      (⟨(w.toNat % 4 * 32 + (j 1 : Fin 32).val) % 128, Nat.mod_lt _ (by decide)⟩ : Fin 128))

/-- The tile's obligation: from a share of the table and of the index array and its own part of the result, the
    tile's program runs to its end and leaves its part of the result at `tileVal`. -/
def TileSpec [FloatOps F] : Prop :=
  ∀ (hF : (K (F := F)).Facts) (d : Dev nD) (L : grid0.Coords) (O : CellTallies nD τ sig (HIx 1)) (W : Waits sig (HIx 1)) (hO : ∀ g, O g none = 0)
    (q1 q2 : PosShare TreeShare) (tb : Buf (Elt F) (tLoc d)) (ix : Buf (Elt F) (iLoc d)) (o0 : Buf (Elt F) (oLoc d))
    (hix : ∀ j, (ix j).toNat < 1000000),
    iprop(levAts (K (F := F)).L (K (F := F)).lev ∗ emp
        ∗ ((tLoc d ↦{q1} tb) ∗ (iLoc d ↦{q2} ix) ∗ (oLoc d ↦[oSet L]{fullShare} o0))
        ∗ scopedBufs (thr d L) ∗ scopedSems0 (thr d L) ∗ owes (thr d L) O W)
      ⊢ (wp frame (wpE (defs₀ (F := F)) 𝒱₀ (thr d L) none) Set.univ (tileProg (F := F) L)
          fun _ => iprop(((tLoc d ↦{q1} tb) ∗ (iLoc d ↦{q2} ix) ∗ (oLoc d ↦[oSet L]{fullShare} (tileVal tb ix : Buf (Elt F) (oLoc d))))
            ∗ scopedBufs (thr d L) ∗ scopedSems0 (thr d L)
            ∗ ∃ W', ⌜∀ p ∈ W', p ∈ W ∨ p.2 = none⌝ ∗ owes (thr d L) O W') : sProp 𝕄)

end Cert.Proof.Kernel

end
-- ==== Proof.KernelLaunch.lean ====
/-
  The launch of the lookup kernel. What the handshakes carry: the call hands each SparseCore a read share of the
  whole table and of the whole index array and the result's elements of its sixteen tiles; a SparseCore hands
  each tile a read share of both arrays and the tile's own block of 128 batch columns of the result. The 32
  blocks are pairwise disjoint (they are separated along the batch axis) and cover the result, so the result is
  dealt by elements and, every tile leaving its block at the one function `tileVal`, comes back whole at that
  function. @main on the TensorCore regroups the table into rows of 128 and transposes the index array before the
  call and transposes the result after it; from the tile's specification the whole program's run follows, the
  result a pure term of the two arguments.
-/
import proofs.«206503_g81295140979383_cont_9to1c4b_414_34_alg».proof.Proof.KernelTileSpec
import Idealize.ShloMosaic.Lib.Transfers

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The 32 blocks of batch columns -/

theorem col0_coordsV (c : Fin 2) (s : Fin 16) : col0 (coordsV c s) = 256 * s.val + 128 * c.val := rfl

/-- Two different tiles' blocks are separated along the batch axis. -/
theorem oSet_disjoint {c c' : Fin 2} {s s' : Fin 16} (h : c ≠ c' ∨ s ≠ s') :
    Disjoint (oSet (coordsV c s)) (oSet (coordsV c' s')) := by
  refine Rect.unit_disjoint (2 : Fin 3) ?_
  show col0 (coordsV c s) + 128 ≤ col0 (coordsV c' s') ∨ col0 (coordsV c' s') + 128 ≤ col0 (coordsV c s)
  rw [col0_coordsV, col0_coordsV]
  have := c.isLt; have := c'.isLt; have := s.isLt; have := s'.isLt
  have h' : c.val ≠ c'.val ∨ s.val ≠ s'.val := h.imp (fun e => Fin.val_ne_of_ne e) (fun e => Fin.val_ne_of_ne e)
  omega

/-- Every element of the result lies in some tile's block: batch column `b` in that of subcore `b / 256` of
    SparseCore `b % 256 / 128`. -/
theorem oSet_cover (j : S200x32x4096.Idx) : ∃ c : Fin 2, ∃ s : Fin 16, j ∈ oSet (coordsV c s) := by
  have h0 : (j 0).val < 200 := (j 0).isLt
  have h1 : (j 1).val < 32 := (j 1).isLt
  have h2 : (j 2).val < 4096 := (j 2).isLt
  refine ⟨⟨(j 2).val % 256 / 128, by omega⟩, ⟨(j 2).val / 256, by omega⟩, Rect.mem_set_unit.mpr fun a => ?_⟩
  match a with
  | ⟨0, _⟩ => exact ⟨Nat.zero_le _, by show (j 0).val < 0 + 200; omega⟩
  | ⟨1, _⟩ => exact ⟨Nat.zero_le _, by show (j 1).val < 0 + 32; omega⟩
  | ⟨2, _⟩ =>
    show 256 * ((j 2).val / 256) + 128 * ((j 2).val % 256 / 128) ≤ (j 2).val
      ∧ (j 2).val < 256 * ((j 2).val / 256) + 128 * ((j 2).val % 256 / 128) + 128
    omega

/-- The result's elements of SparseCore `c`'s sixteen tiles. -/
def coreSet (c : Fin 2) : Finset S200x32x4096.Idx := Finset.univ.biUnion fun s : Fin 16 => oSet (coordsV c s)

theorem tiles_disjoint (c : Fin 2) : ∀ s ∈ (Finset.univ : Finset (Fin 16)), ∀ s' ∈ (Finset.univ : Finset (Fin 16)), s ≠ s' →
    Disjoint (oSet (coordsV c s)) (oSet (coordsV c s')) :=
  fun _ _ _ _ h => oSet_disjoint (.inr h)

theorem cores_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]; intro s _
  rw [Finset.disjoint_biUnion_right]; intro s' _
  exact oSet_disjoint (.inl h)

theorem cores_cover : (Finset.univ : Finset (Fin 2)).biUnion coreSet = Finset.univ := by
  ext j
  simp only [Finset.mem_biUnion, Finset.mem_univ, true_and, iff_true, coreSet]
  exact oSet_cover j

/-! ## The read shares -/

/-- SparseCore `c`'s share of an array every tile reads, and tile `(c, s)`'s share of that. -/
abbrev qC (c : ℕ) : PosShare TreeShare := Transfers.shareTokN fullShare c
abbrev qT (c s : ℕ) : PosShare TreeShare := Transfers.shareTokN (qC c) s

/-! ## What the handshakes carry -/

variable (tb : (d : Dev nD) → Buf (Elt F) (tLoc d)) (ix : (d : Dev nD) → Buf (Elt F) (iLoc d)) (o0 : (d : Dev nD) → Buf (Elt F) (oLoc d))

/-- What a tile holds: its shares of the table and of the index array, its block of the result at `o`. -/
def tileRes (d : Dev nD) (c : Fin 2) (s : Fin 16) (o : Buf (Elt F) (oLoc d)) : sProp 𝕄 :=
  iprop((tLoc d ↦{qT c.val s.val} tb d) ∗ (iLoc d ↦{qT c.val s.val} ix d) ∗ (oLoc d ↦[oSet (coordsV c s)]{fullShare} o))
/-- What a SparseCore holds: its shares of the two arrays, its tiles' blocks of the result at `o`. -/
def coreRes (d : Dev nD) (c : Fin 2) (o : Buf (Elt F) (oLoc d)) : sProp 𝕄 :=
  iprop((tLoc d ↦{qC c.val} tb d) ∗ (iLoc d ↦{qC c.val} ix d) ∗ (oLoc d ↦[coreSet c]{fullShare} o))

instance tileRes_storable (d : Dev nD) (c : Fin 2) (s : Fin 16) (o : Buf (Elt F) (oLoc d)) :
    BI.Storable (upEmb : UEmb _ 𝕄) (tileRes tb ix d c s o) := by unfold tileRes; infer_instance
instance coreRes_storable (d : Dev nD) (c : Fin 2) (o : Buf (Elt F) (oLoc d)) :
    BI.Storable (upEmb : UEmb _ 𝕄) (coreRes tb ix d c o) := by unfold coreRes; infer_instance

/-- The one call: each SparseCore takes its shares and its tiles' blocks of the result at the launch contents and
    brings them back with the blocks at `tileVal`; each tile the same of its own. -/
def P : (K (F := F)).Pay (nD := nD) (Val := Elt F) (Name := ℕ) (U := UU) where
  st := fun q d c => match q with | 0 => coreRes tb ix d (Fin.cast nCore_zero c) (o0 d)
  dn := fun q d c => match q with | 0 => coreRes tb ix d (Fin.cast nCore_zero c) (tileVal (tb d) (ix d))
  go := fun q d c i => match q with | 0 => tileRes tb ix d (Fin.cast nCore_zero c) (Fin.cast nSub_zero i) (o0 d)
  td := fun q d c i => match q with | 0 => tileRes tb ix d (Fin.cast nCore_zero c) (Fin.cast nSub_zero i) (tileVal (tb d) (ix d))
  x := fun _ _ => iprop(emp)

instance P_storable : (P (F := F) tb ix o0).IsStorable where
  st q d c := match q with | 0 => coreRes_storable tb ix d _ _
  dn q d c := match q with | 0 => coreRes_storable tb ix d _ _
  go q d c i := match q with | 0 => tileRes_storable tb ix d _ _ _
  td q d c i := match q with | 0 => tileRes_storable tb ix d _ _ _

theorem P_st (d : Dev nD) (c : Fin ((K (F := F)).nCore 0)) : (P tb ix o0).st 0 d c = coreRes tb ix d (Fin.cast nCore_zero c) (o0 d) := rfl
theorem P_dn (d : Dev nD) (c : Fin ((K (F := F)).nCore 0)) : (P tb ix o0).dn 0 d c = coreRes tb ix d (Fin.cast nCore_zero c) (tileVal (tb d) (ix d)) := rfl
theorem P_go (d : Dev nD) (c : Fin ((K (F := F)).nCore 0)) (i : Fin ((K (F := F)).nSub 0)) :
    (P tb ix o0).go 0 d c i = tileRes tb ix d (Fin.cast nCore_zero c) (Fin.cast nSub_zero i) (o0 d) := rfl
theorem P_td (d : Dev nD) (c : Fin ((K (F := F)).nCore 0)) (i : Fin ((K (F := F)).nSub 0)) :
    (P tb ix o0).td 0 d c i = tileRes tb ix d (Fin.cast nCore_zero c) (Fin.cast nSub_zero i) (tileVal (tb d) (ix d)) := rfl

/-! ## The result dealt by elements -/

theorem oCore_eq (d : Dev nD) (c : Fin 2) (o : Buf (Elt F) (oLoc d)) :
    (oLoc d ↦[coreSet c]{fullShare} o : sProp 𝕄) = bigSep Finset.univ fun s : Fin 16 => oLoc d ↦[oSet (coordsV c s)]{fullShare} o := by
  unfold coreSet; exact pointsTo_biUnion _ _ (tiles_disjoint c)

theorem oAll_eq (d : Dev nD) (o : Buf (Elt F) (oLoc d)) :
    (oLoc d ↦{fullShare} o : sProp 𝕄) = bigSep Finset.univ fun c : Fin 2 => oLoc d ↦[coreSet c]{fullShare} o := by
  rw [← pointsTo_biUnion Finset.univ (ℓ := oLoc d) coreSet cores_disjoint, cores_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's holdings split into its sixteen tiles' and come back from them, the remainder of its two read
    shares kept aside meanwhile. -/
theorem core_split (d : Dev nD) (c : Fin 2) (o o' : Buf (Elt F) (oLoc d)) :
    coreRes tb ix d c o ⊢ |={Set.univ}=> iprop((bigSep Finset.univ fun s : Fin 16 => tileRes tb ix d c s o)
      ∗ ((bigSep Finset.univ fun s : Fin 16 => tileRes tb ix d c s o') -∗ coreRes tb ix d c o')) := by
  unfold coreRes tileRes
  rw [bigSep_sep', bigSep_sep', bigSep_sep', bigSep_sep', oCore_eq, oCore_eq]
  iintro ⟨Ht, Hi, Ho⟩
  ihave Ht' := (Transfers.pointsTo_toks_split (qC c.val) 16) $$ Ht
  icases Ht' with ⟨Htd, Hts⟩
  ihave Hi' := (Transfers.pointsTo_toks_split (qC c.val) 16) $$ Hi
  icases Hi' with ⟨Hid, His⟩
  imodintro
  isplitl [Hts His Ho]
  · isplitl [Hts]; · iexact Hts
    isplitl [His]; · iexact His
    iexact Ho
  iintro ⟨Hts, His, Ho⟩
  isplitl [Htd Hts]
  · iapply (Transfers.pointsTo_toks_join (qC c.val) 16)
    isplitl [Htd]; · iexact Htd
    iexact Hts
  isplitl [Hid His]
  · iapply (Transfers.pointsTo_toks_join (qC c.val) 16)
    isplitl [Hid]; · iexact Hid
    iexact His
  iexact Ho

/-- The three arrays whole split into the two SparseCores' holdings and come back from them. -/
theorem tc_split (d : Dev nD) (o o' : Buf (Elt F) (oLoc d)) :
    iprop((tLoc d ↦{fullShare} tb d) ∗ (iLoc d ↦{fullShare} ix d) ∗ (oLoc d ↦{fullShare} o))
      ⊢ iprop((bigSep Finset.univ fun c : Fin 2 => coreRes tb ix d c o)
        ∗ ((bigSep Finset.univ fun c : Fin 2 => coreRes tb ix d c o') -∗ iprop((tLoc d ↦{fullShare} tb d) ∗ (iLoc d ↦{fullShare} ix d) ∗ (oLoc d ↦{fullShare} o')))) := by
  unfold coreRes
  rw [bigSep_sep', bigSep_sep', bigSep_sep', bigSep_sep', oAll_eq, oAll_eq]
  iintro ⟨Ht, Hi, Ho⟩
  ihave Ht' := (Transfers.pointsTo_toks_split fullShare 2) $$ Ht
  icases Ht' with ⟨Htd, Hts⟩
  ihave Hi' := (Transfers.pointsTo_toks_split fullShare 2) $$ Hi
  icases Hi' with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join fullShare 2)
    isplitl [Htd]; · iexact Htd
    iexact Hts
  isplitl [Hid His]
  · iapply (Transfers.pointsTo_toks_join fullShare 2)
    isplitl [Hid]; · iexact Hid
    iexact His
  iexact Ho

/-- How a SparseCore's operands split among its tiles. -/
theorem vecSplit : (K (F := F)).VecSplit' (P tb ix o0) 0 := by
  intro d c
  rw [P_st, P_dn]
  simp only [P_go, P_td]
  rw [bigSep_tasks (F := F) (fun s => tileRes tb ix d (Fin.cast nCore_zero c) s (o0 d)),
    bigSep_tasks (F := F) (fun s => tileRes tb ix d (Fin.cast nCore_zero c) s (tileVal (tb d) (ix d)))]
  exact core_split tb ix d _ _ _

/-! ## The tile's obligation, from its specification -/

omit tb ix o0 in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from the tile's specification: the tile is handed exactly the specification's three
    resources, at its own two read shares. -/
theorem tileObl [FloatOps F] (hT : TileSpec (F := F)) (hF : (K (F := F)).Facts) (hix : ∀ d j, (ix d j).toNat < 1000000) :
    (K (F := F)).TileObl (D (F := F)) 𝒱 (P tb ix o0) v₀ 0 := by
  intro d c i O W hO _ _
  -- the kernel owes nothing for a protocol of its own
  simp only [show (P tb ix o0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT hF d (coordsV ⟨_, hc.1⟩ ⟨_, hc.2⟩) O W hO (qT c.val i.val) (qT c.val i.val) (tb d) (ix d) (o0 d) (hix d)).trans
    (wp_mono frame _ _ fun _ => obl_post)

/-! ## The launch element: the handshakes' rounds; the transfers' counters are dropped -/

def u₀ : UU := (initOf (K (F := F)).hsCells (K (F := F)).hsToks, 1)

omit tb ix o0 in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb ix o0).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit tb ix o0

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v3

/-- The three host operations: the table regrouped into rows of 128, the index array transposed, the
    position-major result transposed into the batch-major one. -/
abbrev opR : HloOp τ sig (Elt F) := StableHlo.reshape main_arg1 main_v0 rfl shapeCasts_S1000000x32_S250000x128
abbrev opI : HloOp τ sig (Elt F) :=
  StableHlo.unary main_arg0 main_v1 ((transpose S200x4096 [1, 0] · transposes_S4096x200_S200x4096_1_0) : (⟨S4096x200, .i32⟩ : BufTy).Contents (Elt F) → (⟨S200x4096, .i32⟩ : BufTy).Contents (Elt F))
abbrev opO : HloOp τ sig (Elt F) :=
  StableHlo.unary main_v2 main_v3 ((transpose S4096x200x32 [2, 0, 1] · transposes_S200x32x4096_S4096x200x32_2_0_1) : (⟨S200x32x4096, .f32⟩ : BufTy).Contents (Elt F) → (⟨S4096x200x32, .f32⟩ : BufTy).Contents (Elt F))

/-- The TensorCore's arrays, all unscoped. -/
abbrev S6 : Finset (DevRef τ sig) := {a0', a1', v0', v1', v2', v3'}

theorem held_S6 (d : Dev nD) (W : Valuation τ sig (Elt F)) :
    (held (T d) S6 W : sProp 𝕄) = iprop((a0Loc d ↦{fullShare} W a0') ∗ (a1Loc d ↦{fullShare} W a1') ∗ (tLoc d ↦{fullShare} W v0')
      ∗ (iLoc d ↦{fullShare} W v1') ∗ (oLoc d ↦{fullShare} W v2') ∗ rLoc d ↦{fullShare} W v3') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (tLoc d ↦{fullShare} W main_v0)
      ∗ (iLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ) (ρ : Dev nD → PrngReg)

/-- The launch valuation, and the valuations after the regrouping and after the index array's transposition. -/
def V0 (d : Dev nD) : Valuation τ sig (Elt F) := fun b => m (d, b)
def V1 (d : Dev nD) : Valuation τ sig (Elt F) := (opR (F := F)).result (V0 m d)
def V2 (d : Dev nD) : Valuation τ sig (Elt F) := (opI (F := F)).result (V1 m d)

theorem unscoped_held (d : Dev nD) : (unscopedBufs d (fun b => m ((SparseCore.T d).loc b)) : sProp 𝕄) = held (T d) S6 (V0 m d) := by
  rw [unscopedBufs_eq, held_S6]; rfl

/-- What the kernel is run on: the regrouped table, the transposed index array, the result's launch contents. -/
def tbOf (d : Dev nD) : Buf (Elt F) (tLoc d) := V2 m d v0'
def ixOf (d : Dev nD) : Buf (Elt F) (iLoc d) := V2 m d v1'
def o0Of (d : Dev nD) : Buf (Elt F) (oLoc d) := V2 m d v2'

/-- After the call: the result at what the tiles left. -/
def V3 (d : Dev nD) : Valuation τ sig (Elt F) := Function.update (V2 m d) v2' (tileVal (tbOf m d) (ixOf m d))
def V4 (d : Dev nD) : Valuation τ sig (Elt F) := (opO (F := F)).result (V3 m d)

theorem hR : (opR (F := F)).bufs ⊆ S6 := show ({a1', v0'} : Finset (DevRef τ sig)) ⊆ S6 by decide
theorem hI : (opI (F := F)).bufs ⊆ S6 := show ({a0', v1'} : Finset (DevRef τ sig)) ⊆ S6 by decide
theorem hO : (opO (F := F)).bufs ⊆ S6 := show ({v2', v3'} : Finset (DevRef τ sig)) ⊆ S6 by decide

theorem V1_a0 (d : Dev nD) : V1 m d a0' = m (a0Loc d) :=
  (opR (F := F)).result_of_not_mem (V0 m d) (b := a0') (show a0' ∉ ({v0'} : Finset (DevRef τ sig)) by decide)
theorem V2_a0 (d : Dev nD) : V2 m d a0' = m (a0Loc d) :=
  ((opI (F := F)).result_of_not_mem (V1 m d) (b := a0') (show a0' ∉ ({v1'} : Finset (DevRef τ sig)) by decide)).trans (V1_a0 m d)
theorem V2_a1 (d : Dev nD) : V2 m d a1' = m (a1Loc d) :=
  ((opI (F := F)).result_of_not_mem (V1 m d) (b := a1') (show a1' ∉ ({v1'} : Finset (DevRef τ sig)) by decide)).trans
    ((opR (F := F)).result_of_not_mem (V0 m d) (b := a1') (show a1' ∉ ({v0'} : Finset (DevRef τ sig)) by decide))
theorem V3_a0 (d : Dev nD) : V3 m d a0' = m (a0Loc d) := (Function.update_of_ne (show a0' ≠ v2' by decide) _ _).trans (V2_a0 m d)
theorem V3_a1 (d : Dev nD) : V3 m d a1' = m (a1Loc d) := (Function.update_of_ne (show a1' ≠ v2' by decide) _ _).trans (V2_a1 m d)
theorem V3_v0 (d : Dev nD) : V3 m d v0' = tbOf m d := Function.update_of_ne (show v0' ≠ v2' by decide) _ _
theorem V3_v1 (d : Dev nD) : V3 m d v1' = ixOf m d := Function.update_of_ne (show v1' ≠ v2' by decide) _ _
theorem V3_v2 (d : Dev nD) : V3 m d v2' = tileVal (tbOf m d) (ixOf m d) := Function.update_self _ _ _
theorem V3_v3 (d : Dev nD) : V3 m d v3' = V2 m d v3' := Function.update_of_ne (show v3' ≠ v2' by decide) _ _
theorem V4_a0 (d : Dev nD) : V4 m d a0' = m (a0Loc d) :=
  ((opO (F := F)).result_of_not_mem (V3 m d) (b := a0') (show a0' ∉ ({v3'} : Finset (DevRef τ sig)) by decide)).trans (V3_a0 m d)
theorem V4_a1 (d : Dev nD) : V4 m d a1' = m (a1Loc d) :=
  ((opO (F := F)).result_of_not_mem (V3 m d) (b := a1') (show a1' ∉ ({v3'} : Finset (DevRef τ sig)) by decide)).trans (V3_a1 m d)

/-- Before the call: the arguments unchanged, the kernel's three arrays. -/
theorem held_V2 (d : Dev nD) :
    (held (T d) S6 ((opI (F := F)).result (V1 m d)) : sProp 𝕄) = iprop((a0Loc d ↦{fullShare} m (a0Loc d)) ∗ (a1Loc d ↦{fullShare} m (a1Loc d)) ∗ (tLoc d ↦{fullShare} tbOf m d)
      ∗ (iLoc d ↦{fullShare} ixOf m d) ∗ (oLoc d ↦{fullShare} o0Of m d) ∗ rLoc d ↦{fullShare} V2 m d v3') := by
  show (held (T d) S6 (V2 m d) : sProp 𝕄) = _
  rw [held_S6, V2_a0, V2_a1]; rfl
/-- After the call: the result at what the tiles left. -/
theorem held_V3 (d : Dev nD) :
    (held (T d) S6 (V3 m d) : sProp 𝕄) = iprop((a0Loc d ↦{fullShare} m (a0Loc d)) ∗ (a1Loc d ↦{fullShare} m (a1Loc d)) ∗ (tLoc d ↦{fullShare} tbOf m d)
      ∗ (iLoc d ↦{fullShare} ixOf m d) ∗ (oLoc d ↦{fullShare} (tileVal (tbOf m d) (ixOf m d) : Buf (Elt F) (oLoc d))) ∗ rLoc d ↦{fullShare} V2 m d v3') := by
  rw [held_S6, V3_a0, V3_a1, V3_v0, V3_v1, V3_v2, V3_v3]
/-- At the end: the arguments unchanged, the result transposed. -/
theorem held_V4 (d : Dev nD) :
    (held (T d) S6 ((opO (F := F)).result (V3 m d)) : sProp 𝕄) = iprop((a0Loc d ↦{fullShare} m (a0Loc d)) ∗ (a1Loc d ↦{fullShare} m (a1Loc d)) ∗ (tLoc d ↦{fullShare} V4 m d v0')
      ∗ (iLoc d ↦{fullShare} V4 m d v1') ∗ (oLoc d ↦{fullShare} V4 m d v2') ∗ rLoc d ↦{fullShare} V4 m d v3') := by
  show (held (T d) S6 (V4 m d) : sProp 𝕄) = _
  rw [held_S6, V4_a0, V4_a1]

variable [FloatOps F]

theorem st0_eq (d : Dev nD) : (bigSep Finset.univ fun c : Fin ((K (F := F)).nCore 0) => (P (tbOf m) (ixOf m) (o0Of m)).st 0 d c)
    = bigSep Finset.univ fun c : Fin 2 => coreRes (tbOf m) (ixOf m) d c (o0Of m d) := by
  simp only [P_st]
  exact bigSep_cores (F := F) (fun c => coreRes (tbOf m) (ixOf m) d c (o0Of m d))
theorem dn0_eq (d : Dev nD) : (bigSep Finset.univ fun c : Fin ((K (F := F)).nCore 0) => (P (tbOf m) (ixOf m) (o0Of m)).dn 0 d c)
    = bigSep Finset.univ fun c : Fin 2 => coreRes (tbOf m) (ixOf m) d c (tileVal (tbOf m d) (ixOf m d)) := by
  simp only [P_dn]
  exact bigSep_cores (F := F) (fun c => coreRes (tbOf m) (ixOf m) d c (tileVal (tbOf m d) (ixOf m d)))

/-- What @main leaves the claim: the two arguments at their launch contents, the result at its final value. -/
abbrev FIN (d : Dev nD) : sProp 𝕄 := iprop((a0Loc d ↦{fullShare} m (a0Loc d)) ∗ (a1Loc d ↦{fullShare} m (a1Loc d)) ∗ rLoc d ↦{fullShare} V4 m d v3')

/-- @main on device `d`'s TensorCore: the two host operations before the call, the call — the three arrays split
    between the two SparseCores and back —, the transposition after it. -/
theorem hmain (κ : GSem nD τ sig → ℕ) (d : Dev nD) :
    iprop((K (F := F)).ctx EH (P (tbOf m) (ixOf m) (o0Of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table regrouped
  iapply (wp_hlo_within 𝒱 (SparseCore.T d) none Set.univ (op := opR) (S := S6) hR (V := V0 m d)) $$ [Hb Hheld]
  · isplitl [Hb]; · iexact Hb
    iexact Hheld
  iintro ⟨Hb, Hheld⟩
  rw [wp_ret]; imodintro
  -- the index array transposed
  iapply (wp_hlo_within 𝒱 (SparseCore.T d) none Set.univ (op := opI) (S := S6) hI (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Ht, Hi, Ho, Hr⟩
  -- the call: the table, the index array and the result to the two SparseCores and back
  ihave Hsp := (tc_split (tbOf m) (ixOf m) d (o0Of m d) (tileVal (tbOf m d) (ixOf m d))) $$ [Ht Hi Ho]
  · isplitl [Ht]; · iexact Ht
    isplitl [Hi]; · iexact Hi
    iexact Ho
  icases Hsp with ⟨Hcores, Hback⟩
  iapply ((K (F := F)).wp_run (D (F := F)) 𝒱 (EH := EH) (P := P (tbOf m) (ixOf m) (o0Of m)) κ d 0) $$ [Hst Hcores Hback Ha0 Ha1 Hr Hb]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ispecialize Hback $$ Hdn'
  icases Hback with ⟨Ht, Hi, Ho⟩
  -- the result transposed
  iapply (wp_hlo_within 𝒱 (SparseCore.T d) none Set.univ (op := opO) (S := S6) hO (V := V3 m d)) $$ [Hb Ha0 Ha1 Ht Hi Ho Hr]
  · isplitl [Hb]; · iexact Hb
    rw [held_V3]
    isplitl [Ha0]; · iexact Ha0
    isplitl [Ha1]; · iexact Ha1
    isplitl [Ht]; · iexact Ht
    isplitl [Hi]; · iexact Hi
    isplitl [Ho]; · iexact Ho
    iexact Hr
  iintro ⟨Hb, Hheld⟩
  ihave Hh := (Entails.of_eq (held_V4 (F := F) m d)) $$ Hheld
  icases Hh with ⟨Ha0, Ha1, -, -, -, Hr⟩
  rw [wp_ret]; imodintro; imodintro
  isplitl [Hst]; · iexact Hst
  isplitl [Ha0]; · iexact Ha0
  isplitl [Ha1]; · iexact Ha1
  iexact Hr

/-! ## The values: what the kernel is run on, what @main returns -/

/-- The result as a pure term of the two arguments: the host operations' own terms around `tileVal`. -/
def hostTerm (inputs : S4096x200.Idx → BitVec 32) (emb : S1000000x32.Idx → Elt F .f32) : S4096x200x32.Idx → Elt F .f32 :=
  transpose S4096x200x32 [2, 0, 1]
    (tileVal (shapeCast S250000x128 emb shapeCasts_S1000000x32_S250000x128) (transpose S200x4096 [1, 0] inputs transposes_S4096x200_S200x4096_1_0))
    transposes_S200x32x4096_S4096x200x32_2_0_1

omit [FloatOps F] in
/-- The index array the kernel reads is the argument transposed; -/
theorem ixOf_eq (d : Dev nD) : ixOf m d = transpose S200x4096 [1, 0] (m (a0Loc d)) transposes_S4096x200_S200x4096_1_0 := by
  unfold ixOf V2
  rw [StableHlo.unary_result', V1_a0]
omit [FloatOps F] in
/-- the table it reads is the argument regrouped into rows of 128. -/
theorem tbOf_eq (d : Dev nD) : tbOf m d = shapeCast S250000x128 (m (a1Loc d)) shapeCasts_S1000000x32_S250000x128 := by
  unfold tbOf V2
  rw [(opI (F := F)).result_of_not_mem (V1 m d) (b := v0') (show v0' ∉ ({v1'} : Finset (DevRef τ sig)) by decide)]
  unfold V1
  rw [StableHlo.reshape_result']
  rfl
omit [FloatOps F] in
/-- What @main returns. -/
theorem V4_v3 (d : Dev nD) : V4 m d v3' = hostTerm (m (a0Loc d)) (m (a1Loc d)) := by
  unfold V4
  rw [StableHlo.unary_result', V3_v2, ixOf_eq, tbOf_eq]
  rfl

omit [FloatOps F] in
/-- Transposition only moves entries: every index the kernel reads is an entry of the argument, so names a row. -/
theorem hix_of_pre (hpre : ∀ (c : Dev nD) j, (m (a0Loc c) j).toNat < 1000000) (d : Dev nD) (j : S200x4096.Idx) :
    (ixOf m d j).toNat < 1000000 := by
  rw [ixOf_eq]
  exact hpre d _

/-! ## The final memory -/

def fq (d : Dev nD) (s' : Phys nD τ sig (Elt F)) : Prop :=
  s'.mem.mem (rLoc d) = V4 m d v3' ∧ s'.mem.mem (a0Loc d) = m (a0Loc d) ∧ s'.mem.mem (a1Loc d) = m (a1Loc d)

omit [FloatOps F] in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare) (f := V4 m d v3')) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From the tile's specification: every weakly fair execution of the device's threads terminates, the result the
    host operations' terms around `tileVal` of the two arguments, the arguments unchanged. -/
theorem run_of_tile [∀ e, Nonempty (Elt F e)] (hT : TileSpec (F := F))
    (m : (ℓ : Loc nD τ sig) → Buf (Elt F) ℓ) (ρ : Dev nD → PrngReg)
    (hpre : ∀ (c : Dev nD) j, (m ((c.tc : Thread nD τ).loc main_arg0) j).toNat < 1000000) :
    θ_run (Cert.Kernel.defs (F := F)) (Cert.Kernel.threads (F := F)) ⟨m, fun _ => 0, ρ⟩
      (fun r => ∀ c : Dev nD,
          r.2.mem ((c.tc : Thread nD τ).loc main_v3) = hostTerm (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (tbOf m) (ixOf m) (o0Of m)) facts v₀
    (fun q hq => match q with | 0 => nomatch hq)
    (fun q _ => match q with | 0 => tileObl (tbOf m) (ixOf m) (o0Of m) hT facts (hix_of_pre m hpre))
    (fun q _ => match q with | 0 => SparseCore.Cfg.VecSplit.of_plain (vecSplit (tbOf m) (ixOf m) (o0Of m)))
    m ρ main (fun _ => iprop(emp)) (FIN m) (u₀ (F := F)) (sep_elim_left.trans (hu₀ (tbOf m) (ixOf m) (o0Of m))) (hmain m ρ) (fq m) (hfin m) _
    (fun _ h c => ⟨(h c).1.trans (V4_v3 m c), (h c).2.1, (h c).2.2⟩)

end Cert.Proof.Kernel

end
-- ==== Proof.Lookup.lean ====
/-
  The function both programs compute: an embedding lookup. The result's entry (b, h, d) is entry
  (inputs[b, h], d) of the table. The row number is taken modulo the table's height so that the function is
  total; where every entry of `inputs` is below the height (the certificate's precondition) the modulus does
  nothing.
-/
import Idealize.ShloMosaic.PureOps.Ideal
import Idealize.ShloMosaic.Lib.ValueIdx

noncomputable section

namespace Cert.Lookup

open Idealize.ShloMosaic Idealize.ShloMosaic.ValueIdx

/-- The index array: 4096 batches of 200 positions. -/
abbrev SIn : Shape := ⟨2, ![4096, 200]⟩
/-- The table: a million rows of 32 entries. -/
abbrev STab : Shape := ⟨2, ![1000000, 32]⟩
/-- The result: one table row per batch and position. -/
abbrev SOut : Shape := ⟨3, ![4096, 200, 32]⟩

/-- The row of the table that index word `w` names. -/
def rowOf (w : BitVec 32) : Fin 1000000 := ⟨w.toNat % 1000000, Nat.mod_lt _ (by decide)⟩

/-- The lookup: entry `(b, h, d)` of the result is entry `(inputs[b, h], d)` of the table. -/
def lookup {α : Type} (inputs : SIn.Idx → BitVec 32) (emb : STab.Idx → α) : SOut.Idx → α :=
  fun j => emb (ix2 (rowOf (inputs (ix2 (j 0 : Fin 4096) (j 1 : Fin 200)))) (j 2 : Fin 32))

theorem lookup_apply {α : Type} (inputs : SIn.Idx → BitVec 32) (emb : STab.Idx → α) (b : Fin 4096) (h : Fin 200) (d : Fin 32) :
    lookup inputs emb (ix3 b h d) = emb (ix2 (rowOf (inputs (ix2 b h))) d) := rfl

/-- Where the word is below the table's height, its row is its own value. -/
theorem rowOf_val_of_lt {w : BitVec 32} (h : w.toNat < 1000000) : (rowOf w).val = w.toNat := Nat.mod_eq_of_lt h

end Cert.Lookup

end
-- ==== Proof.KernelHostTerm.lean ====
/-
  The host operations' terms around `tileVal` compute the lookup. Entry `(b, h, d)` of the transposed result is
  entry `(h, d, b)` of what the tiles leave: the table's entry `(w / 4, (w % 4) * 32 + d)` in its rows of 128,
  `w` the transposed index array's entry `(h, b)`, which is the index array's entry `(b, h)`. Regrouping keeps
  row-major positions, and `128 * (w / 4) + (w % 4) * 32 + d = 32 * w + d`: that is entry `(w, d)` of the table
  of 32-wide rows, `w` below the table's height.
-/
import proofs.«206503_g81295140979383_cont_9to1c4b_414_34_alg».proof.Proof.KernelLaunch
import proofs.«206503_g81295140979383_cont_9to1c4b_414_34_alg».proof.Proof.Lookup
import Idealize.ShloMosaic.Lib.Pipeline.Value

noncomputable section

namespace Cert.Proof.Kernel

open Cert.Kernel Cert.Kernel.Gen

open Idealize.ShloMosaic Idealize.ShloMosaic.ValueIdx

variable {F : FTy → Type}

/-- What the tiles leave at `(h, d, b)`. -/
theorem tileVal_apply (tb : S250000x128.Idx → Elt F .f32) (ix : S200x4096.Idx → BitVec 32) (h : Fin 200) (d : Fin 32) (b : Fin 4096) :
    tileVal tb ix (ix3 h d b)
      = tb (ix2 (⟨(ix (ix2 h b)).toNat / 4 % 250000, Nat.mod_lt _ (by decide)⟩ : Fin 250000)
          (⟨((ix (ix2 h b)).toNat % 4 * 32 + d.val) % 128, Nat.mod_lt _ (by decide)⟩ : Fin 128)) := rfl

/-- Under the precondition the program's result is the lookup. -/
theorem hostTerm_eq_lookup (inputs : S4096x200.Idx → BitVec 32) (emb : S1000000x32.Idx → Elt F .f32)
    (hin : ∀ j, (inputs j).toNat < 1000000) : hostTerm inputs emb = Cert.Lookup.lookup inputs emb := by
  funext j
  obtain ⟨b, h, d, rfl⟩ : ∃ (b : Fin 4096) (h : Fin 200) (d : Fin 32), j = ix3 b h d := ⟨j 0, j 1, j 2, eq_ix3 j⟩
  have hd : d.val < 32 := d.isLt
  have hw := hin (ix2 b h)
  unfold hostTerm
  rw [transpose_apply [2, 0, 1] _ transposes_S200x32x4096_S4096x200x32_2_0_1 (ix3 b h d) (ix3 h d b)
      (by intro a; match a with | ⟨0, _⟩ => rfl | ⟨1, _⟩ => rfl | ⟨2, _⟩ => rfl),
    tileVal_apply,
    transpose_apply [1, 0] inputs transposes_S4096x200_S200x4096_1_0 (ix2 h b) (ix2 b h)
      (by intro a; match a with | ⟨0, _⟩ => rfl | ⟨1, _⟩ => rfl),
    Cert.Lookup.lookup_apply]
  refine shapeCast_apply emb shapeCasts_S1000000x32_S250000x128 _ (ix2 (Cert.Lookup.rowOf (inputs (ix2 b h))) d) ?_
  rw [Shape.rowMajor_val_two, Shape.rowMajor_val_two]
  show (inputs (ix2 b h)).toNat % 1000000 * 32 + d.val
    = (inputs (ix2 b h)).toNat / 4 % 250000 * 128 + ((inputs (ix2 b h)).toNat % 4 * 32 + d.val) % 128
  omega

end Cert.Proof.Kernel

end
-- ==== Proof.KernelIdealCommon.lean ====
/-
  The idealized kernel's program as its launch sees it, and the names the tile's proof is written over: the
  three arrays in HBM (the table as rows of 128, the transposed index array, the result laid out position-major),
  a tile's four scratch arrays and seven transfer semaphores, and the block of 128 batch columns that tile
  `(core, subcore)` works on: columns `[128 * (2 * subcore + core), + 128)`.
-/
import proofs.«206503_g81295140979383_cont_9to1c4b_414_34_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206503_g81295140979383_cont_9to1c4b_414_34_alg».proof.Proof.Gen.KernelIdeal
import proofs.«206503_g81295140979383_cont_9to1c4b_414_34_alg».proof.Proof.Gen.KernelIdeal.Skeleton

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays -/

/-- The table as 250000 rows of 128, the transposed indices, the result position-major: as a tile names them. -/
abbrev tV : Memref sig .scVector .hbm S250000x128 .f32 := Memref.whole main_v0_scv
abbrev iV : Memref sig .scVector .hbm S200x4096 .i32 := Memref.whole main_v1_scv
abbrev oV : Memref sig .scVector .hbm S200x32x4096 .f32 := Memref.whole main_v2_scv
/-- A tile's scratch: its block of indices, their row numbers in the table of 128-wide rows, four slots of
    gathered rows, two slots of result rows. -/
abbrev sI : Memref sig .scVector .vmem S200x128 .i32 := Memref.whole cc0_scratch0
abbrev sQ : Memref sig .scVector .vmem S200x128 .i32 := Memref.whole cc0_scratch1
abbrev sG : Memref sig .scVector .vmem S4x128x128 .f32 := Memref.whole cc0_scratch2
abbrev sO : Memref sig .scVector .vmem S2x32x128 .f32 := Memref.whole cc0_scratch3

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-! ## A tile -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The tile's program. -/
abbrev tileProg [FloatOps F] (L : grid0.Coords) :=
  cc0_emb_kernel (F := F) L tV (Memref.isWhole_whole _) iV (Memref.isWhole_whole _) oV (Memref.isWhole_whole _)
    sI (Memref.isWhole_whole _) sQ (Memref.isWhole_whole _) sG (Memref.isWhole_whole _) sO (Memref.isWhole_whole _)
    cc0_scratch4 cc0_scratch5 cc0_scratch6 cc0_scratch7 cc0_scratch8 cc0_scratch9 cc0_scoped0

theorem defs₀_vector [FloatOps F] (c : Fin τ.nSC) (s : Fin τ.nSub) :
    defs₀ (F := F) (.scVector c s) 0 ()
      = SparseCore.onTile hcore0 hsub0 (fun c s => tileProg (F := F) (coordsV c s)) ⟨⟩ c s := rfl

end Cert.Proof.KernelIdeal

end
-- ==== Proof.KernelIdealTileSpec.lean ====
/-
  What one tile does, as a statement. Tile `(core, subcore)` works on batch columns
  `[128 * (2 * subcore + core), + 128)`: it reads those columns of the transposed index array, and for every
  position `h`, every one of its columns `b` and every `d < 32` it writes
  `table[w / 4, (w % 4) * 32 + d]` at `(h, d, b)` of the position-major result, `w` the index at `(h, b)`:
  the table is held as rows of 128, so row `w` of the table of 32-wide rows is the quarter `w % 4` of row `w / 4`.
-/
import proofs.«206503_g81295140979383_cont_9to1c4b_414_34_alg».proof.Proof.KernelIdealCommon
import Idealize.ShloMosaic.Lib.ValueIdx

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The thread of tile `L` on device `d`. -/
abbrev thr (d : Dev nD) (L : grid0.Coords) : Thread nD τ := V d (cV L) (jV L)

theorem core_lt (L : grid0.Coords) : (L 0).val < 2 := (L 0).isLt
theorem sub_lt (L : grid0.Coords) : (L 1).val < 16 := (L 1).isLt

/-- The first batch column of tile `L`. -/
def col0 (L : grid0.Coords) : Nat := 256 * (L 1).val + 128 * (L 0).val

theorem oBlk_inb (L : grid0.Coords) : ∀ a, (![0, 0, col0 L] : Fin 3 → Nat) a + (![200, 32, 128] : Fin 3 → Nat) a ≤ S200x32x4096.size a := by
  have h0 := core_lt L; have h1 := sub_lt L
  intro a
  match a with
  | ⟨0, _⟩ => exact Nat.le_refl _
  | ⟨1, _⟩ => exact Nat.le_refl _
  | ⟨2, _⟩ => show col0 L + 128 ≤ 4096; unfold col0; omega

/-- Tile `L`'s part of the result: every position, every `d`, its 128 columns. -/
abbrev oBlk (L : grid0.Coords) : Rect S200x32x4096 := Rect.unit (s := S200x32x4096) ![0, 0, col0 L] ![200, 32, 128] (oBlk_inb L)

/-- The elements of the result that tile `L` writes. -/
abbrev oSet (L : grid0.Coords) : Finset S200x32x4096.Idx := (oBlk L).set

/-- What the tiles leave in the result: at `(h, d, b)` the table's entry `(w / 4, (w % 4) * 32 + d)`, `w` the index
    at `(h, b)` (the row number taken modulo the table's height, so that the function is total). -/
def tileVal (tb : S250000x128.Idx → Elt F .f32) (ix : S200x4096.Idx → BitVec 32) : S200x32x4096.Idx → Elt F .f32 :=
  fun j =>
    let w : BitVec 32 := ix (ix2 (j 0 : Fin 200) (j 2 : Fin 4096))
    tb (ix2 (⟨w.toNat / 4 % 250000, Nat.mod_lt _ (by decide)⟩ : Fin 250000)
      (⟨(w.toNat % 4 * 32 + (j 1 : Fin 32).val) % 128, Nat.mod_lt _ (by decide)⟩ : Fin 128))

/-- The tile's obligation: from a share of the table and of the index array and its own part of the result, the
    tile's program runs to its end and leaves its part of the result at `tileVal`. -/
def TileSpec [FloatOps F] : Prop :=
  ∀ (hF : (K (F := F)).Facts) (d : Dev nD) (L : grid0.Coords) (O : CellTallies nD τ sig (HIx 1)) (W : Waits sig (HIx 1)) (hO : ∀ g, O g none = 0)
    (q1 q2 : PosShare TreeShare) (tb : Buf (Elt F) (tLoc d)) (ix : Buf (Elt F) (iLoc d)) (o0 : Buf (Elt F) (oLoc d))
    (hix : ∀ j, (ix j).toNat < 1000000),
    iprop(levAts (K (F := F)).L (K (F := F)).lev ∗ emp
        ∗ ((tLoc d ↦{q1} tb) ∗ (iLoc d ↦{q2} ix) ∗ (oLoc d ↦[oSet L]{fullShare} o0))
        ∗ scopedBufs (thr d L) ∗ scopedSems0 (thr d L) ∗ owes (thr d L) O W)
      ⊢ (wp frame (wpE (defs₀ (F := F)) 𝒱₀ (thr d L) none) Set.univ (tileProg (F := F) L)
          fun _ => iprop(((tLoc d ↦{q1} tb) ∗ (iLoc d ↦{q2} ix) ∗ (oLoc d ↦[oSet L]{fullShare} (tileVal tb ix : Buf (Elt F) (oLoc d))))
            ∗ scopedBufs (thr d L) ∗ scopedSems0 (thr d L)
            ∗ ∃ W', ⌜∀ p ∈ W', p ∈ W ∨ p.2 = none⌝ ∗ owes (thr d L) O W') : sProp 𝕄)

end Cert.Proof.KernelIdeal

end
-- ==== Proof.KernelIdealLaunch.lean ====
/-
  The launch of the lookup kernel. What the handshakes carry: the call hands each SparseCore a read share of the
  whole table and of the whole index array and the result's elements of its sixteen tiles; a SparseCore hands
  each tile a read share of both arrays and the tile's own block of 128 batch columns of the result. The 32
  blocks are pairwise disjoint (they are separated along the batch axis) and cover the result, so the result is
  dealt by elements and, every tile leaving its block at the one function `tileVal`, comes back whole at that
  function. @main on the TensorCore regroups the table into rows of 128 and transposes the index array before the
  call and transposes the result after it; from the tile's specification the whole program's run follows, the
  result a pure term of the two arguments.
-/
import proofs.«206503_g81295140979383_cont_9to1c4b_414_34_alg».proof.Proof.KernelIdealTileSpec
import Idealize.ShloMosaic.Lib.Transfers

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The 32 blocks of batch columns -/

theorem col0_coordsV (c : Fin 2) (s : Fin 16) : col0 (coordsV c s) = 256 * s.val + 128 * c.val := rfl

/-- Two different tiles' blocks are separated along the batch axis. -/
theorem oSet_disjoint {c c' : Fin 2} {s s' : Fin 16} (h : c ≠ c' ∨ s ≠ s') :
    Disjoint (oSet (coordsV c s)) (oSet (coordsV c' s')) := by
  refine Rect.unit_disjoint (2 : Fin 3) ?_
  show col0 (coordsV c s) + 128 ≤ col0 (coordsV c' s') ∨ col0 (coordsV c' s') + 128 ≤ col0 (coordsV c s)
  rw [col0_coordsV, col0_coordsV]
  have := c.isLt; have := c'.isLt; have := s.isLt; have := s'.isLt
  have h' : c.val ≠ c'.val ∨ s.val ≠ s'.val := h.imp (fun e => Fin.val_ne_of_ne e) (fun e => Fin.val_ne_of_ne e)
  omega

/-- Every element of the result lies in some tile's block: batch column `b` in that of subcore `b / 256` of
    SparseCore `b % 256 / 128`. -/
theorem oSet_cover (j : S200x32x4096.Idx) : ∃ c : Fin 2, ∃ s : Fin 16, j ∈ oSet (coordsV c s) := by
  have h0 : (j 0).val < 200 := (j 0).isLt
  have h1 : (j 1).val < 32 := (j 1).isLt
  have h2 : (j 2).val < 4096 := (j 2).isLt
  refine ⟨⟨(j 2).val % 256 / 128, by omega⟩, ⟨(j 2).val / 256, by omega⟩, Rect.mem_set_unit.mpr fun a => ?_⟩
  match a with
  | ⟨0, _⟩ => exact ⟨Nat.zero_le _, by show (j 0).val < 0 + 200; omega⟩
  | ⟨1, _⟩ => exact ⟨Nat.zero_le _, by show (j 1).val < 0 + 32; omega⟩
  | ⟨2, _⟩ =>
    show 256 * ((j 2).val / 256) + 128 * ((j 2).val % 256 / 128) ≤ (j 2).val
      ∧ (j 2).val < 256 * ((j 2).val / 256) + 128 * ((j 2).val % 256 / 128) + 128
    omega

/-- The result's elements of SparseCore `c`'s sixteen tiles. -/
def coreSet (c : Fin 2) : Finset S200x32x4096.Idx := Finset.univ.biUnion fun s : Fin 16 => oSet (coordsV c s)

theorem tiles_disjoint (c : Fin 2) : ∀ s ∈ (Finset.univ : Finset (Fin 16)), ∀ s' ∈ (Finset.univ : Finset (Fin 16)), s ≠ s' →
    Disjoint (oSet (coordsV c s)) (oSet (coordsV c s')) :=
  fun _ _ _ _ h => oSet_disjoint (.inr h)

theorem cores_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]; intro s _
  rw [Finset.disjoint_biUnion_right]; intro s' _
  exact oSet_disjoint (.inl h)

theorem cores_cover : (Finset.univ : Finset (Fin 2)).biUnion coreSet = Finset.univ := by
  ext j
  simp only [Finset.mem_biUnion, Finset.mem_univ, true_and, iff_true, coreSet]
  exact oSet_cover j

/-! ## The read shares -/

/-- SparseCore `c`'s share of an array every tile reads, and tile `(c, s)`'s share of that. -/
abbrev qC (c : ℕ) : PosShare TreeShare := Transfers.shareTokN fullShare c
abbrev qT (c s : ℕ) : PosShare TreeShare := Transfers.shareTokN (qC c) s

/-! ## What the handshakes carry -/

variable (tb : (d : Dev nD) → Buf (Elt F) (tLoc d)) (ix : (d : Dev nD) → Buf (Elt F) (iLoc d)) (o0 : (d : Dev nD) → Buf (Elt F) (oLoc d))

/-- What a tile holds: its shares of the table and of the index array, its block of the result at `o`. -/
def tileRes (d : Dev nD) (c : Fin 2) (s : Fin 16) (o : Buf (Elt F) (oLoc d)) : sProp 𝕄 :=
  iprop((tLoc d ↦{qT c.val s.val} tb d) ∗ (iLoc d ↦{qT c.val s.val} ix d) ∗ (oLoc d ↦[oSet (coordsV c s)]{fullShare} o))
/-- What a SparseCore holds: its shares of the two arrays, its tiles' blocks of the result at `o`. -/
def coreRes (d : Dev nD) (c : Fin 2) (o : Buf (Elt F) (oLoc d)) : sProp 𝕄 :=
  iprop((tLoc d ↦{qC c.val} tb d) ∗ (iLoc d ↦{qC c.val} ix d) ∗ (oLoc d ↦[coreSet c]{fullShare} o))

instance tileRes_storable (d : Dev nD) (c : Fin 2) (s : Fin 16) (o : Buf (Elt F) (oLoc d)) :
    BI.Storable (upEmb : UEmb _ 𝕄) (tileRes tb ix d c s o) := by unfold tileRes; infer_instance
instance coreRes_storable (d : Dev nD) (c : Fin 2) (o : Buf (Elt F) (oLoc d)) :
    BI.Storable (upEmb : UEmb _ 𝕄) (coreRes tb ix d c o) := by unfold coreRes; infer_instance

/-- The one call: each SparseCore takes its shares and its tiles' blocks of the result at the launch contents and
    brings them back with the blocks at `tileVal`; each tile the same of its own. -/
def P : (K (F := F)).Pay (nD := nD) (Val := Elt F) (Name := ℕ) (U := UU) where
  st := fun q d c => match q with | 0 => coreRes tb ix d (Fin.cast nCore_zero c) (o0 d)
  dn := fun q d c => match q with | 0 => coreRes tb ix d (Fin.cast nCore_zero c) (tileVal (tb d) (ix d))
  go := fun q d c i => match q with | 0 => tileRes tb ix d (Fin.cast nCore_zero c) (Fin.cast nSub_zero i) (o0 d)
  td := fun q d c i => match q with | 0 => tileRes tb ix d (Fin.cast nCore_zero c) (Fin.cast nSub_zero i) (tileVal (tb d) (ix d))
  x := fun _ _ => iprop(emp)

instance P_storable : (P (F := F) tb ix o0).IsStorable where
  st q d c := match q with | 0 => coreRes_storable tb ix d _ _
  dn q d c := match q with | 0 => coreRes_storable tb ix d _ _
  go q d c i := match q with | 0 => tileRes_storable tb ix d _ _ _
  td q d c i := match q with | 0 => tileRes_storable tb ix d _ _ _

theorem P_st (d : Dev nD) (c : Fin ((K (F := F)).nCore 0)) : (P tb ix o0).st 0 d c = coreRes tb ix d (Fin.cast nCore_zero c) (o0 d) := rfl
theorem P_dn (d : Dev nD) (c : Fin ((K (F := F)).nCore 0)) : (P tb ix o0).dn 0 d c = coreRes tb ix d (Fin.cast nCore_zero c) (tileVal (tb d) (ix d)) := rfl
theorem P_go (d : Dev nD) (c : Fin ((K (F := F)).nCore 0)) (i : Fin ((K (F := F)).nSub 0)) :
    (P tb ix o0).go 0 d c i = tileRes tb ix d (Fin.cast nCore_zero c) (Fin.cast nSub_zero i) (o0 d) := rfl
theorem P_td (d : Dev nD) (c : Fin ((K (F := F)).nCore 0)) (i : Fin ((K (F := F)).nSub 0)) :
    (P tb ix o0).td 0 d c i = tileRes tb ix d (Fin.cast nCore_zero c) (Fin.cast nSub_zero i) (tileVal (tb d) (ix d)) := rfl

/-! ## The result dealt by elements -/

theorem oCore_eq (d : Dev nD) (c : Fin 2) (o : Buf (Elt F) (oLoc d)) :
    (oLoc d ↦[coreSet c]{fullShare} o : sProp 𝕄) = bigSep Finset.univ fun s : Fin 16 => oLoc d ↦[oSet (coordsV c s)]{fullShare} o := by
  unfold coreSet; exact pointsTo_biUnion _ _ (tiles_disjoint c)

theorem oAll_eq (d : Dev nD) (o : Buf (Elt F) (oLoc d)) :
    (oLoc d ↦{fullShare} o : sProp 𝕄) = bigSep Finset.univ fun c : Fin 2 => oLoc d ↦[coreSet c]{fullShare} o := by
  rw [← pointsTo_biUnion Finset.univ (ℓ := oLoc d) coreSet cores_disjoint, cores_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's holdings split into its sixteen tiles' and come back from them, the remainder of its two read
    shares kept aside meanwhile. -/
theorem core_split (d : Dev nD) (c : Fin 2) (o o' : Buf (Elt F) (oLoc d)) :
    coreRes tb ix d c o ⊢ |={Set.univ}=> iprop((bigSep Finset.univ fun s : Fin 16 => tileRes tb ix d c s o)
      ∗ ((bigSep Finset.univ fun s : Fin 16 => tileRes tb ix d c s o') -∗ coreRes tb ix d c o')) := by
  unfold coreRes tileRes
  rw [bigSep_sep', bigSep_sep', bigSep_sep', bigSep_sep', oCore_eq, oCore_eq]
  iintro ⟨Ht, Hi, Ho⟩
  ihave Ht' := (Transfers.pointsTo_toks_split (qC c.val) 16) $$ Ht
  icases Ht' with ⟨Htd, Hts⟩
  ihave Hi' := (Transfers.pointsTo_toks_split (qC c.val) 16) $$ Hi
  icases Hi' with ⟨Hid, His⟩
  imodintro
  isplitl [Hts His Ho]
  · isplitl [Hts]; · iexact Hts
    isplitl [His]; · iexact His
    iexact Ho
  iintro ⟨Hts, His, Ho⟩
  isplitl [Htd Hts]
  · iapply (Transfers.pointsTo_toks_join (qC c.val) 16)
    isplitl [Htd]; · iexact Htd
    iexact Hts
  isplitl [Hid His]
  · iapply (Transfers.pointsTo_toks_join (qC c.val) 16)
    isplitl [Hid]; · iexact Hid
    iexact His
  iexact Ho

/-- The three arrays whole split into the two SparseCores' holdings and come back from them. -/
theorem tc_split (d : Dev nD) (o o' : Buf (Elt F) (oLoc d)) :
    iprop((tLoc d ↦{fullShare} tb d) ∗ (iLoc d ↦{fullShare} ix d) ∗ (oLoc d ↦{fullShare} o))
      ⊢ iprop((bigSep Finset.univ fun c : Fin 2 => coreRes tb ix d c o)
        ∗ ((bigSep Finset.univ fun c : Fin 2 => coreRes tb ix d c o') -∗ iprop((tLoc d ↦{fullShare} tb d) ∗ (iLoc d ↦{fullShare} ix d) ∗ (oLoc d ↦{fullShare} o')))) := by
  unfold coreRes
  rw [bigSep_sep', bigSep_sep', bigSep_sep', bigSep_sep', oAll_eq, oAll_eq]
  iintro ⟨Ht, Hi, Ho⟩
  ihave Ht' := (Transfers.pointsTo_toks_split fullShare 2) $$ Ht
  icases Ht' with ⟨Htd, Hts⟩
  ihave Hi' := (Transfers.pointsTo_toks_split fullShare 2) $$ Hi
  icases Hi' with ⟨Hid, His⟩
  isplitl [Hts His Ho]
  · isplitl [Hts]; · iexact Hts
    isplitl [His]; · iexact His
    iexact Ho
  iintro ⟨Hts, His, Ho⟩
  isplitl [Htd Hts]
  · iapply (Transfers.pointsTo_toks_join fullShare 2)
    isplitl [Htd]; · iexact Htd
    iexact Hts
  isplitl [Hid His]
  · iapply (Transfers.pointsTo_toks_join fullShare 2)
    isplitl [Hid]; · iexact Hid
    iexact His
  iexact Ho

/-- How a SparseCore's operands split among its tiles. -/
theorem vecSplit : (K (F := F)).VecSplit' (P tb ix o0) 0 := by
  intro d c
  rw [P_st, P_dn]
  simp only [P_go, P_td]
  rw [bigSep_tasks (F := F) (fun s => tileRes tb ix d (Fin.cast nCore_zero c) s (o0 d)),
    bigSep_tasks (F := F) (fun s => tileRes tb ix d (Fin.cast nCore_zero c) s (tileVal (tb d) (ix d)))]
  exact core_split tb ix d _ _ _

/-! ## The tile's obligation, from its specification -/

omit tb ix o0 in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from the tile's specification: the tile is handed exactly the specification's three
    resources, at its own two read shares. -/
theorem tileObl [FloatOps F] (hT : TileSpec (F := F)) (hF : (K (F := F)).Facts) (hix : ∀ d j, (ix d j).toNat < 1000000) :
    (K (F := F)).TileObl (D (F := F)) 𝒱 (P tb ix o0) v₀ 0 := by
  intro d c i O W hO _ _
  -- the kernel owes nothing for a protocol of its own
  simp only [show (P tb ix o0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT hF d (coordsV ⟨_, hc.1⟩ ⟨_, hc.2⟩) O W hO (qT c.val i.val) (qT c.val i.val) (tb d) (ix d) (o0 d) (hix d)).trans
    (wp_mono frame _ _ fun _ => obl_post)

/-! ## The launch element: the handshakes' rounds; the transfers' counters are dropped -/

def u₀ : UU := (initOf (K (F := F)).hsCells (K (F := F)).hsToks, 1)

omit tb ix o0 in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb ix o0).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit tb ix o0

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v3

/-- The three host operations: the table regrouped into rows of 128, the index array transposed, the
    position-major result transposed into the batch-major one. -/
abbrev opR : HloOp τ sig (Elt F) := StableHlo.reshape main_arg1 main_v0 rfl shapeCasts_S1000000x32_S250000x128
abbrev opI : HloOp τ sig (Elt F) :=
  StableHlo.unary main_arg0 main_v1 ((transpose S200x4096 [1, 0] · transposes_S4096x200_S200x4096_1_0) : (⟨S4096x200, .i32⟩ : BufTy).Contents (Elt F) → (⟨S200x4096, .i32⟩ : BufTy).Contents (Elt F))
abbrev opO : HloOp τ sig (Elt F) :=
  StableHlo.unary main_v2 main_v3 ((transpose S4096x200x32 [2, 0, 1] · transposes_S200x32x4096_S4096x200x32_2_0_1) : (⟨S200x32x4096, .f32⟩ : BufTy).Contents (Elt F) → (⟨S4096x200x32, .f32⟩ : BufTy).Contents (Elt F))

/-- The TensorCore's arrays, all unscoped. -/
abbrev S6 : Finset (DevRef τ sig) := {a0', a1', v0', v1', v2', v3'}

theorem held_S6 (d : Dev nD) (W : Valuation τ sig (Elt F)) :
    (held (T d) S6 W : sProp 𝕄) = iprop((a0Loc d ↦{fullShare} W a0') ∗ (a1Loc d ↦{fullShare} W a1') ∗ (tLoc d ↦{fullShare} W v0')
      ∗ (iLoc d ↦{fullShare} W v1') ∗ (oLoc d ↦{fullShare} W v2') ∗ rLoc d ↦{fullShare} W v3') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (tLoc d ↦{fullShare} W main_v0)
      ∗ (iLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ) (ρ : Dev nD → PrngReg)

/-- The launch valuation, and the valuations after the regrouping and after the index array's transposition. -/
def V0 (d : Dev nD) : Valuation τ sig (Elt F) := fun b => m (d, b)
def V1 (d : Dev nD) : Valuation τ sig (Elt F) := (opR (F := F)).result (V0 m d)
def V2 (d : Dev nD) : Valuation τ sig (Elt F) := (opI (F := F)).result (V1 m d)

theorem unscoped_held (d : Dev nD) : (unscopedBufs d (fun b => m ((SparseCore.T d).loc b)) : sProp 𝕄) = held (T d) S6 (V0 m d) := by
  rw [unscopedBufs_eq, held_S6]; rfl

/-- What the kernel is run on: the regrouped table, the transposed index array, the result's launch contents. -/
def tbOf (d : Dev nD) : Buf (Elt F) (tLoc d) := V2 m d v0'
def ixOf (d : Dev nD) : Buf (Elt F) (iLoc d) := V2 m d v1'
def o0Of (d : Dev nD) : Buf (Elt F) (oLoc d) := V2 m d v2'

/-- After the call: the result at what the tiles left. -/
def V3 (d : Dev nD) : Valuation τ sig (Elt F) := Function.update (V2 m d) v2' (tileVal (tbOf m d) (ixOf m d))
def V4 (d : Dev nD) : Valuation τ sig (Elt F) := (opO (F := F)).result (V3 m d)

theorem hR : (opR (F := F)).bufs ⊆ S6 := show ({a1', v0'} : Finset (DevRef τ sig)) ⊆ S6 by decide
theorem hI : (opI (F := F)).bufs ⊆ S6 := show ({a0', v1'} : Finset (DevRef τ sig)) ⊆ S6 by decide
theorem hO : (opO (F := F)).bufs ⊆ S6 := show ({v2', v3'} : Finset (DevRef τ sig)) ⊆ S6 by decide

theorem V1_a0 (d : Dev nD) : V1 m d a0' = m (a0Loc d) :=
  (opR (F := F)).result_of_not_mem (V0 m d) (b := a0') (show a0' ∉ ({v0'} : Finset (DevRef τ sig)) by decide)
theorem V2_a0 (d : Dev nD) : V2 m d a0' = m (a0Loc d) :=
  ((opI (F := F)).result_of_not_mem (V1 m d) (b := a0') (show a0' ∉ ({v1'} : Finset (DevRef τ sig)) by decide)).trans (V1_a0 m d)
theorem V2_a1 (d : Dev nD) : V2 m d a1' = m (a1Loc d) :=
  ((opI (F := F)).result_of_not_mem (V1 m d) (b := a1') (show a1' ∉ ({v1'} : Finset (DevRef τ sig)) by decide)).trans
    ((opR (F := F)).result_of_not_mem (V0 m d) (b := a1') (show a1' ∉ ({v0'} : Finset (DevRef τ sig)) by decide))
theorem V3_a0 (d : Dev nD) : V3 m d a0' = m (a0Loc d) := (Function.update_of_ne (show a0' ≠ v2' by decide) _ _).trans (V2_a0 m d)
theorem V3_a1 (d : Dev nD) : V3 m d a1' = m (a1Loc d) := (Function.update_of_ne (show a1' ≠ v2' by decide) _ _).trans (V2_a1 m d)
theorem V3_v0 (d : Dev nD) : V3 m d v0' = tbOf m d := Function.update_of_ne (show v0' ≠ v2' by decide) _ _
theorem V3_v1 (d : Dev nD) : V3 m d v1' = ixOf m d := Function.update_of_ne (show v1' ≠ v2' by decide) _ _
theorem V3_v2 (d : Dev nD) : V3 m d v2' = tileVal (tbOf m d) (ixOf m d) := Function.update_self _ _ _
theorem V3_v3 (d : Dev nD) : V3 m d v3' = V2 m d v3' := Function.update_of_ne (show v3' ≠ v2' by decide) _ _
theorem V4_a0 (d : Dev nD) : V4 m d a0' = m (a0Loc d) :=
  ((opO (F := F)).result_of_not_mem (V3 m d) (b := a0') (show a0' ∉ ({v3'} : Finset (DevRef τ sig)) by decide)).trans (V3_a0 m d)
theorem V4_a1 (d : Dev nD) : V4 m d a1' = m (a1Loc d) :=
  ((opO (F := F)).result_of_not_mem (V3 m d) (b := a1') (show a1' ∉ ({v3'} : Finset (DevRef τ sig)) by decide)).trans (V3_a1 m d)

/-- Before the call: the arguments unchanged, the kernel's three arrays. -/
theorem held_V2 (d : Dev nD) :
    (held (T d) S6 ((opI (F := F)).result (V1 m d)) : sProp 𝕄) = iprop((a0Loc d ↦{fullShare} m (a0Loc d)) ∗ (a1Loc d ↦{fullShare} m (a1Loc d)) ∗ (tLoc d ↦{fullShare} tbOf m d)
      ∗ (iLoc d ↦{fullShare} ixOf m d) ∗ (oLoc d ↦{fullShare} o0Of m d) ∗ rLoc d ↦{fullShare} V2 m d v3') := by
  show (held (T d) S6 (V2 m d) : sProp 𝕄) = _
  rw [held_S6, V2_a0, V2_a1]; rfl
/-- After the call: the result at what the tiles left. -/
theorem held_V3 (d : Dev nD) :
    (held (T d) S6 (V3 m d) : sProp 𝕄) = iprop((a0Loc d ↦{fullShare} m (a0Loc d)) ∗ (a1Loc d ↦{fullShare} m (a1Loc d)) ∗ (tLoc d ↦{fullShare} tbOf m d)
      ∗ (iLoc d ↦{fullShare} ixOf m d) ∗ (oLoc d ↦{fullShare} (tileVal (tbOf m d) (ixOf m d) : Buf (Elt F) (oLoc d))) ∗ rLoc d ↦{fullShare} V2 m d v3') := by
  rw [held_S6, V3_a0, V3_a1, V3_v0, V3_v1, V3_v2, V3_v3]
/-- At the end: the arguments unchanged, the result transposed. -/
theorem held_V4 (d : Dev nD) :
    (held (T d) S6 ((opO (F := F)).result (V3 m d)) : sProp 𝕄) = iprop((a0Loc d ↦{fullShare} m (a0Loc d)) ∗ (a1Loc d ↦{fullShare} m (a1Loc d)) ∗ (tLoc d ↦{fullShare} V4 m d v0')
      ∗ (iLoc d ↦{fullShare} V4 m d v1') ∗ (oLoc d ↦{fullShare} V4 m d v2') ∗ rLoc d ↦{fullShare} V4 m d v3') := by
  show (held (T d) S6 (V4 m d) : sProp 𝕄) = _
  rw [held_S6, V4_a0, V4_a1]

variable [FloatOps F]

theorem st0_eq (d : Dev nD) : (bigSep Finset.univ fun c : Fin ((K (F := F)).nCore 0) => (P (tbOf m) (ixOf m) (o0Of m)).st 0 d c)
    = bigSep Finset.univ fun c : Fin 2 => coreRes (tbOf m) (ixOf m) d c (o0Of m d) := by
  simp only [P_st]
  exact bigSep_cores (F := F) (fun c => coreRes (tbOf m) (ixOf m) d c (o0Of m d))
theorem dn0_eq (d : Dev nD) : (bigSep Finset.univ fun c : Fin ((K (F := F)).nCore 0) => (P (tbOf m) (ixOf m) (o0Of m)).dn 0 d c)
    = bigSep Finset.univ fun c : Fin 2 => coreRes (tbOf m) (ixOf m) d c (tileVal (tbOf m d) (ixOf m d)) := by
  simp only [P_dn]
  exact bigSep_cores (F := F) (fun c => coreRes (tbOf m) (ixOf m) d c (tileVal (tbOf m d) (ixOf m d)))

/-- What @main leaves the claim: the two arguments at their launch contents, the result at its final value. -/
abbrev FIN (d : Dev nD) : sProp 𝕄 := iprop((a0Loc d ↦{fullShare} m (a0Loc d)) ∗ (a1Loc d ↦{fullShare} m (a1Loc d)) ∗ rLoc d ↦{fullShare} V4 m d v3')

/-- @main on device `d`'s TensorCore: the two host operations before the call, the call — the three arrays split
    between the two SparseCores and back —, the transposition after it. -/
theorem hmain (κ : GSem nD τ sig → ℕ) (d : Dev nD) :
    iprop((K (F := F)).ctx EH (P (tbOf m) (ixOf m) (o0Of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table regrouped
  iapply (wp_hlo_within 𝒱 (SparseCore.T d) none Set.univ (op := opR) (S := S6) hR (V := V0 m d)) $$ [Hb Hheld]
  · isplitl [Hb]; · iexact Hb
    iexact Hheld
  iintro ⟨Hb, Hheld⟩
  rw [wp_ret]; imodintro
  -- the index array transposed
  iapply (wp_hlo_within 𝒱 (SparseCore.T d) none Set.univ (op := opI) (S := S6) hI (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Ht, Hi, Ho, Hr⟩
  -- the call: the table, the index array and the result to the two SparseCores and back
  ihave Hsp := (tc_split (tbOf m) (ixOf m) d (o0Of m d) (tileVal (tbOf m d) (ixOf m d))) $$ [Ht Hi Ho]
  · isplitl [Ht]; · iexact Ht
    isplitl [Hi]; · iexact Hi
    iexact Ho
  icases Hsp with ⟨Hcores, Hback⟩
  iapply ((K (F := F)).wp_run (D (F := F)) 𝒱 (EH := EH) (P := P (tbOf m) (ixOf m) (o0Of m)) κ d 0) $$ [Hst Hcores Hback Ha0 Ha1 Hr Hb]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ispecialize Hback $$ Hdn'
  icases Hback with ⟨Ht, Hi, Ho⟩
  -- the result transposed
  iapply (wp_hlo_within 𝒱 (SparseCore.T d) none Set.univ (op := opO) (S := S6) hO (V := V3 m d)) $$ [Hb Ha0 Ha1 Ht Hi Ho Hr]
  · isplitl [Hb]; · iexact Hb
    rw [held_V3]
    isplitl [Ha0]; · iexact Ha0
    isplitl [Ha1]; · iexact Ha1
    isplitl [Ht]; · iexact Ht
    isplitl [Hi]; · iexact Hi
    isplitl [Ho]; · iexact Ho
    iexact Hr
  iintro ⟨Hb, Hheld⟩
  ihave Hh := (Entails.of_eq (held_V4 (F := F) m d)) $$ Hheld
  icases Hh with ⟨Ha0, Ha1, -, -, -, Hr⟩
  rw [wp_ret]; imodintro; imodintro
  isplitl [Hst]; · iexact Hst
  isplitl [Ha0]; · iexact Ha0
  isplitl [Ha1]; · iexact Ha1
  iexact Hr

/-! ## The values: what the kernel is run on, what @main returns -/

/-- The result as a pure term of the two arguments: the host operations' own terms around `tileVal`. -/
def hostTerm (inputs : S4096x200.Idx → BitVec 32) (emb : S1000000x32.Idx → Elt F .f32) : S4096x200x32.Idx → Elt F .f32 :=
  transpose S4096x200x32 [2, 0, 1]
    (tileVal (shapeCast S250000x128 emb shapeCasts_S1000000x32_S250000x128) (transpose S200x4096 [1, 0] inputs transposes_S4096x200_S200x4096_1_0))
    transposes_S200x32x4096_S4096x200x32_2_0_1

omit [FloatOps F] in
/-- The index array the kernel reads is the argument transposed; -/
theorem ixOf_eq (d : Dev nD) : ixOf m d = transpose S200x4096 [1, 0] (m (a0Loc d)) transposes_S4096x200_S200x4096_1_0 := by
  unfold ixOf V2
  rw [StableHlo.unary_result', V1_a0]
omit [FloatOps F] in
/-- the table it reads is the argument regrouped into rows of 128. -/
theorem tbOf_eq (d : Dev nD) : tbOf m d = shapeCast S250000x128 (m (a1Loc d)) shapeCasts_S1000000x32_S250000x128 := by
  unfold tbOf V2
  rw [(opI (F := F)).result_of_not_mem (V1 m d) (b := v0') (show v0' ∉ ({v1'} : Finset (DevRef τ sig)) by decide)]
  unfold V1
  rw [StableHlo.reshape_result']
  rfl
omit [FloatOps F] in
/-- What @main returns. -/
theorem V4_v3 (d : Dev nD) : V4 m d v3' = hostTerm (m (a0Loc d)) (m (a1Loc d)) := by
  unfold V4
  rw [StableHlo.unary_result', V3_v2, ixOf_eq, tbOf_eq]
  rfl

omit [FloatOps F] in
/-- Transposition only moves entries: every index the kernel reads is an entry of the argument, so names a row. -/
theorem hix_of_pre (hpre : ∀ (c : Dev nD) j, (m (a0Loc c) j).toNat < 1000000) (d : Dev nD) (j : S200x4096.Idx) :
    (ixOf m d j).toNat < 1000000 := by
  rw [ixOf_eq]
  exact hpre d _

/-! ## The final memory -/

def fq (d : Dev nD) (s' : Phys nD τ sig (Elt F)) : Prop :=
  s'.mem.mem (rLoc d) = V4 m d v3' ∧ s'.mem.mem (a0Loc d) = m (a0Loc d) ∧ s'.mem.mem (a1Loc d) = m (a1Loc d)

omit [FloatOps F] in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare) (f := V4 m d v3')) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From the tile's specification: every weakly fair execution of the device's threads terminates, the result the
    host operations' terms around `tileVal` of the two arguments, the arguments unchanged. -/
theorem run_of_tile [∀ e, Nonempty (Elt F e)] (hT : TileSpec (F := F))
    (m : (ℓ : Loc nD τ sig) → Buf (Elt F) ℓ) (ρ : Dev nD → PrngReg)
    (hpre : ∀ (c : Dev nD) j, (m ((c.tc : Thread nD τ).loc main_arg0) j).toNat < 1000000) :
    θ_run (Cert.KernelIdeal.defs (F := F)) (Cert.KernelIdeal.threads (F := F)) ⟨m, fun _ => 0, ρ⟩
      (fun r => ∀ c : Dev nD,
          r.2.mem ((c.tc : Thread nD τ).loc main_v3) = hostTerm (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (tbOf m) (ixOf m) (o0Of m)) facts v₀
    (fun q hq => match q with | 0 => nomatch hq)
    (fun q _ => match q with | 0 => tileObl (tbOf m) (ixOf m) (o0Of m) hT facts (hix_of_pre m hpre))
    (fun q _ => match q with | 0 => SparseCore.Cfg.VecSplit.of_plain (vecSplit (tbOf m) (ixOf m) (o0Of m)))
    m ρ main (fun _ => iprop(emp)) (FIN m) (u₀ (F := F)) (sep_elim_left.trans (hu₀ (tbOf m) (ixOf m) (o0Of m))) (hmain m ρ) (fq m) (hfin m) _
    (fun _ h c => ⟨(h c).1.trans (V4_v3 m c), (h c).2.1, (h c).2.2⟩)

end Cert.Proof.KernelIdeal

end
-- ==== Proof.KernelIdealHostTerm.lean ====
/-
  The host operations' terms around `tileVal` compute the lookup. Entry `(b, h, d)` of the transposed result is
  entry `(h, d, b)` of what the tiles leave: the table's entry `(w / 4, (w % 4) * 32 + d)` in its rows of 128,
  `w` the transposed index array's entry `(h, b)`, which is the index array's entry `(b, h)`. Regrouping keeps
  row-major positions, and `128 * (w / 4) + (w % 4) * 32 + d = 32 * w + d`: that is entry `(w, d)` of the table
  of 32-wide rows, `w` below the table's height.
-/
import proofs.«206503_g81295140979383_cont_9to1c4b_414_34_alg».proof.Proof.KernelIdealLaunch
import proofs.«206503_g81295140979383_cont_9to1c4b_414_34_alg».proof.Proof.Lookup
import Idealize.ShloMosaic.Lib.Pipeline.Value

noncomputable section

namespace Cert.Proof.KernelIdeal

open Cert.KernelIdeal Cert.KernelIdeal.Gen

open Idealize.ShloMosaic Idealize.ShloMosaic.ValueIdx

variable {F : FTy → Type}

/-- What the tiles leave at `(h, d, b)`. -/
theorem tileVal_apply (tb : S250000x128.Idx → Elt F .f32) (ix : S200x4096.Idx → BitVec 32) (h : Fin 200) (d : Fin 32) (b : Fin 4096) :
    tileVal tb ix (ix3 h d b)
      = tb (ix2 (⟨(ix (ix2 h b)).toNat / 4 % 250000, Nat.mod_lt _ (by decide)⟩ : Fin 250000)
          (⟨((ix (ix2 h b)).toNat % 4 * 32 + d.val) % 128, Nat.mod_lt _ (by decide)⟩ : Fin 128)) := rfl

/-- Under the precondition the program's result is the lookup. -/
theorem hostTerm_eq_lookup (inputs : S4096x200.Idx → BitVec 32) (emb : S1000000x32.Idx → Elt F .f32)
    (hin : ∀ j, (inputs j).toNat < 1000000) : hostTerm inputs emb = Cert.Lookup.lookup inputs emb := by
  funext j
  obtain ⟨b, h, d, rfl⟩ : ∃ (b : Fin 4096) (h : Fin 200) (d : Fin 32), j = ix3 b h d := ⟨j 0, j 1, j 2, eq_ix3 j⟩
  have hd : d.val < 32 := d.isLt
  have hw := hin (ix2 b h)
  unfold hostTerm
  rw [transpose_apply [2, 0, 1] _ transposes_S200x32x4096_S4096x200x32_2_0_1 (ix3 b h d) (ix3 h d b)
      (by intro a; match a with | ⟨0, _⟩ => rfl | ⟨1, _⟩ => rfl | ⟨2, _⟩ => rfl),
    tileVal_apply,
    transpose_apply [1, 0] inputs transposes_S4096x200_S200x4096_1_0 (ix2 h b) (ix2 b h)
      (by intro a; match a with | ⟨0, _⟩ => rfl | ⟨1, _⟩ => rfl),
    Cert.Lookup.lookup_apply]
  refine shapeCast_apply emb shapeCasts_S1000000x32_S250000x128 _ (ix2 (Cert.Lookup.rowOf (inputs (ix2 b h))) d) ?_
  rw [Shape.rowMajor_val_two, Shape.rowMajor_val_two]
  show (inputs (ix2 b h)).toNat % 1000000 * 32 + d.val
    = (inputs (ix2 b h)).toNat / 4 % 250000 * 128 + ((inputs (ix2 b h)).toNat % 4 * 32 + d.val) % 128
  omega

end Cert.Proof.KernelIdeal

end
-- ==== Proof.PreDecode.lean ====
/-
  The precondition read back. The printed predicate is the conjunction of two reductions by `and`: one over the
  table (every entry finite) and one over the index array (every index word, read signed, is at least 0 and at most
  999999). Where the predicate is 1, the second reduction is 1, so every element of the reduced array is 1, so both
  signed comparisons hold at every index; a word that is nonnegative signed and at most 999999 signed is below
  1000000 unsigned.
-/
import proofs.«206503_g81295140979383_cont_9to1c4b_414_34_alg».proof.Pre_input_domain
import Idealize.ShloMosaic.Lib.ReduceAll

namespace Cert.PreDecode

open Idealize.ShloMosaic

/-- The rank-0 shape has one index. -/
instance : Subsingleton Cert.Pre_input_domain.S_.Idx := ⟨fun a b => funext fun d => d.elim0⟩

/-- A word that reads, signed, at least 0 and at most 999999 is below 1000000 unsigned. -/
theorem word_lt (w : BitVec 32) (h0 : IntOp.cmpi .sge w 0#32 = 1#1) (h1 : IntOp.cmpi .sle w 999999#32 = 1#1) :
    w.toNat < 1000000 := by
  rw [IntOp.cmpi_sge, show (0#32 : BitVec 32).toInt = 0 from by decide] at h0
  rw [IntOp.cmpi_sle, show (999999#32 : BitVec 32).toInt = 999999 from by decide] at h1
  have h32 := w.isLt
  unfold BitVec.toInt at h0 h1
  split at h0 <;> omega

/-- Under the precondition every index word is below the table's height. -/
theorem idx_lt {F : FTy → Type} [FloatOps F] [Cert.Pre_input_domain.Facts]
    (a0 : IVec Cert.Pre_input_domain.S4096x200 32) (a1 : FVec F Cert.Pre_input_domain.S1000000x32 .f32)
    (h : Cert.Pre_input_domain.fn (F := F) a0 a1 = fun _ => 1#1) : ∀ j, (a0 j).toNat < 1000000 := by
  intro j
  have e := congrFun h (fun a => a.elim0)
  dsimp only [Cert.Pre_input_domain.fn] at e
  have e2 := (IntOp.andi_eq_one.1 e).2
  have e3 := Host.reduce_andi_all _ _ _ _ _ e2 j
  obtain ⟨h0, h1⟩ := IntOp.andi_eq_one.1 e3
  exact word_lt (a0 j) h0 h1

end Cert.PreDecode
-- ==== Proof.RefOps.lean ====
/-
  The reference program as a straight line. Its entry function calls one outlined function (the row lookup), which
  calls another (an elementwise choice); with both calls unfolded at their call sites the program is twenty-three
  array operations in order, each writing one buffer of its own. Every weakly fair execution of a straight line
  terminates, and each buffer ends at the fold of the operations' results over the launch contents.
-/
import proofs.«206503_g81295140979383_cont_9to1c4b_414_34_alg».proof.ReferenceIdeal
import Idealize.ShloMosaic.Lib.StableHlo.Run

noncomputable section

namespace Cert.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The program's operations in order, the two calls unfolded: the wrap of negative indices (six operations and the
    choice), the index array given a trailing unit axis, the in-bounds mask (nine operations and its reduction over
    the unit axis), the row gather, and the choice between the gathered rows and the fill. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000000x32_S4096x200x1_S4096x200x32_2_0_n_n_0_2_132 x i),
    TRef.unary main_call0.v12 main_call0.v14 (broadcastInDim S4096x200x32 ![0, 1] bcast_S4096x200_S4096x200x32_0_1),
    TRef.nullary main_call0.cst (constant S_ .f32 0x7FC00000#32),
    TRef.unary main_call0.cst main_call0.v15 (broadcastInDim S4096x200x32 ![] bcast_S_S4096x200x32),
    TRef.ternary main_call0.v14 main_call0.v13 main_call0.v15 main_call0.v16 select ]

set_option maxRecDepth 1024 in
/-- The entry function is that straight line: the two functions' definitions unfolded at their calls, both sides are
    one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of the entry function terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefOps

end
-- ==== Proof.RefTerm.lean ====
/-
  The reference's arithmetic, read index by index. As a function of the index array and the table the reference
  computes: the indices with negative words wrapped (a word below zero, read signed, has the table's height added),
  the wrapped indices given a trailing unit axis, a mask saying at which positions the wrapped index lies in
  [0, 999999] (two signed comparisons, and-reduced over the unit axis), the gather of table rows at the wrapped
  indices (the gather clamps its start index into [0, 999999]), and a choice, by the mask, between the gathered
  row and a fill value. Where every index word is below the table's height nothing wraps, the mask is one
  everywhere, the clamp does nothing, and the choice takes the gathered row: the result is the lookup.
-/
import proofs.«206503_g81295140979383_cont_9to1c4b_414_34_alg».proof.ReferenceIdeal
import proofs.«206503_g81295140979383_cont_9to1c4b_414_34_alg».proof.Proof.Lookup
import Idealize.ShloMosaic.Lib.Pipeline.Value
import Idealize.ShloMosaic.Lib.ValueIdx
import Idealize.ShloMosaic.Lib.Affine
import Idealize.ShloMosaic.PureOps.Reduce

noncomputable section

namespace Cert.RefTerm

open Cert.ReferenceIdeal Idealize.ShloMosaic Idealize.ShloMosaic.ValueIdx
open Cert.ReferenceIdeal.Facts₀

variable {F : FTy → Type} [FloatOps F] [Cert.ReferenceIdeal.Facts]

/-! ## The function the reference computes -/

/-- The index array with negative words wrapped: a word below zero (signed) has the table's height added. -/
def wrapped (inputs : IVec S4096x200 32) : IVec S4096x200 32 :=
  select (cmpi .slt inputs (broadcastInDim S4096x200 ![] bcast_S_S4096x200 (constantI S_ 32 0#32)))
    (addi inputs (broadcastInDim S4096x200 ![] bcast_S_S4096x200 (constantI S_ 32 1000000#32))) inputs

/-- The wrapped indices with a trailing unit axis: the gather's start indices. -/
def starts (inputs : IVec S4096x200 32) : IVec S4096x200x1 32 :=
  broadcastInDim S4096x200x1 ![0, 1] bcast_S4096x200_S4096x200x1_0_1 (wrapped inputs)

/-- The in-bounds mask: at each position, whether the wrapped index is at least 0 and at most 999999, signed. -/
def mask (inputs : IVec S4096x200 32) : IVec S4096x200 1 :=
  Host.reduce IntOp.andi
    (andi (cmpi .sge (starts inputs) (broadcastInDim S4096x200x1 ![] bcast_S_S4096x200x1 (constantI S_ 32 0#32)))
      (cmpi .sle (starts inputs) (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- The reference's result as a function of its two arguments. -/
def refTerm (inputs : IVec S4096x200 32) (emb : FVec F S1000000x32 .f32) : FVec F S4096x200x32 .f32 :=
  select (broadcastInDim S4096x200x32 ![0, 1] bcast_S4096x200_S4096x200x32_0_1 (mask inputs))
    (Host.gather gather_S1000000x32_S4096x200x1_S4096x200x32_2_0_n_n_0_2_132 emb (starts inputs))
    (broadcastInDim S4096x200x32 ![] bcast_S_S4096x200x32 (constant S_ .f32 0x7FC00000#32))

/-! ## Words below the table's height -/

theorem toInt_of_lt {w : BitVec 32} (h : w.toNat < 1000000) : w.toInt = (w.toNat : Int) :=
  BitVec.toInt_eq_toNat_of_lt (by omega)

/-- Such a word is not negative … -/
theorem slt_zero_of_lt {w : BitVec 32} (h : w.toNat < 1000000) : IntOp.cmpi .slt w 0#32 = 0#1 := by
  apply eq_zero_of_ne_one
  rw [IntOp.cmpi_slt, show (0#32 : BitVec 32).toInt = 0 from by decide, toInt_of_lt h]
  omega
/-- … it is at least zero … -/
theorem sge_zero_of_lt {w : BitVec 32} (h : w.toNat < 1000000) : IntOp.cmpi .sge w 0#32 = 1#1 := by
  rw [IntOp.cmpi_sge, show (0#32 : BitVec 32).toInt = 0 from by decide, toInt_of_lt h]
  omega
/-- … and at most 999999. -/
theorem sle_max_of_lt {w : BitVec 32} (h : w.toNat < 1000000) : IntOp.cmpi .sle w 999999#32 = 1#1 := by
  rw [IntOp.cmpi_sle, show (999999#32 : BitVec 32).toInt = 999999 from by decide, toInt_of_lt h]
  omega

/-! ## The stages at an index -/

/-- A word below the height is not wrapped. -/
theorem wrapped_apply (inputs : IVec S4096x200 32) (i : S4096x200.Idx) (h : (inputs i).toNat < 1000000) :
    wrapped inputs i = inputs i := by
  unfold wrapped
  rw [select_apply]
  show Scalar.select (IntOp.cmpi .slt (inputs i) 0#32) _ _ = _
  rw [slt_zero_of_lt h, select_zero]

/-- The start index at (b, h, 0) is the wrapped index at (b, h). -/
theorem starts_apply (inputs : IVec S4096x200 32) (b : Fin 4096) (h : Fin 200) (z : Fin 1) :
    starts inputs (ix3 b h z) = wrapped inputs (ix2 b h) := by
  unfold starts
  exact broadcastInDim_apply _ _ _ _ (ix2 b h) (fun a => by fin_cases a <;> rfl)

/-- A fold by `and` from 1 over ones is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l (fun n hn => h n (List.mem_cons_of_mem _ hn))

/-- Where every index word is below the height the mask is one everywhere. -/
theorem mask_apply (inputs : IVec S4096x200 32) (hall : ∀ i, (inputs i).toNat < 1000000) (j : S4096x200.Idx) :
    mask inputs j = 1#1 := by
  unfold mask
  rw [Host.reduce_eq_foldl]
  refine foldl_andi_one _ _ (fun i _ => ?_)
  obtain ⟨b, h, z, rfl⟩ : ∃ (b : Fin 4096) (h : Fin 200) (z : Fin 1), i = ix3 b h z := ⟨i 0, i 1, i 2, eq_ix3 i⟩
  show IntOp.andi (IntOp.cmpi .sge (starts inputs (ix3 b h z)) 0#32) (IntOp.cmpi .sle (starts inputs (ix3 b h z)) 999999#32) = 1#1
  rw [starts_apply, wrapped_apply _ _ (hall _), sge_zero_of_lt (hall _), sle_max_of_lt (hall _)]
  decide

/-- THE ROW GATHER AT (b, h, d): entry d of the table's row at the start index (b, h, 0), read signed and clamped
    into [0, 999999]. -/
theorem gather_row_apply {α : Type} {w : Nat} (x : S1000000x32.Idx → α) (idx : IVec S4096x200x1 w)
    (b : Fin 4096) (h : Fin 200) (d : Fin 32) (r : Fin 1000000)
    (hr : r.val = min (idx (ix3 b h (0 : Fin 1))).toInt.toNat (1000000 - 1)) :
    Host.gather gather_S1000000x32_S4096x200x1_S4096x200x32_2_0_n_n_0_2_132 x idx (ix3 b h d) = x (ix2 r d) := by
  unfold Host.gather
  refine congrArg x (funext fun a => Fin.ext ?_)
  match a with
  | ⟨0, _⟩ =>
    show GatherDims.start _ (ix3 b h d) idx 0 + GatherDims.batchCoord _ (ix3 b h d) 0 + GatherDims.offCoord _ (ix3 b h d) 0 = r.val
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (gather_S1000000x32_S4096x200x1_S4096x200x32_2_0_n_n_0_2_132).startIndexMap from List.mem_singleton.mpr rfl)]
    have hsi : (gather_S1000000x32_S4096x200x1_S4096x200x32_2_0_n_n_0_2_132).siIdx (ix3 b h d)
        ⟨List.idxOf (0 : Fin 2) (gather_S1000000x32_S4096x200x1_S4096x200x32_2_0_n_n_0_2_132).startIndexMap,
          List.idxOf_lt_length_iff.2 (List.mem_singleton.mpr rfl)⟩ = ix3 b h (0 : Fin 1) := by
      funext c; refine Fin.ext ?_
      match c with
      | ⟨0, _⟩ => rfl
      | ⟨1, _⟩ => rfl
      | ⟨2, _⟩ => rfl
    rw [hsi, hr]
    rfl
  | ⟨1, _⟩ =>
    show GatherDims.start _ (ix3 b h d) idx 1 + GatherDims.batchCoord _ (ix3 b h d) 1 + GatherDims.offCoord _ (ix3 b h d) 1 = d.val
    rw [GatherDims.batchCoord_eq_zero _ _ _ List.not_mem_nil]
    unfold GatherDims.start
    rw [dif_neg (show (1 : Fin 2) ∉ (gather_S1000000x32_S4096x200x1_S4096x200x32_2_0_n_n_0_2_132).startIndexMap from
      (by decide : (1 : Fin 2) ∉ ([0] : List (Fin 2))))]
    unfold GatherDims.offCoord
    rw [dif_pos (show (1 : Fin 2) ∈ (gather_S1000000x32_S4096x200x1_S4096x200x32_2_0_n_n_0_2_132).sKept from
      (by decide : (1 : Fin 2) ∈ S1000000x32.kept (([0] : List (Fin 2)) ++ [])))]
    simp only [Nat.zero_add, Nat.add_zero]
    rfl

/-! ## The reference is the lookup -/

/-- Where every index word is below the table's height the reference's result is the lookup. -/
theorem refTerm_eq_lookup (inputs : IVec S4096x200 32) (emb : FVec F S1000000x32 .f32)
    (hall : ∀ i, (inputs i).toNat < 1000000) : refTerm inputs emb = Cert.Lookup.lookup inputs emb := by
  funext j
  obtain ⟨b, h, d, rfl⟩ : ∃ (b : Fin 4096) (h : Fin 200) (d : Fin 32), j = ix3 b h d := ⟨j 0, j 1, j 2, eq_ix3 j⟩
  rw [Cert.Lookup.lookup_apply]
  unfold refTerm
  rw [select_apply]
  have hm : broadcastInDim S4096x200x32 ![0, 1] bcast_S4096x200_S4096x200x32_0_1 (mask inputs) (ix3 b h d) = 1#1 := by
    rw [broadcastInDim_apply _ _ _ _ (ix2 b h) (fun a => by fin_cases a <;> rfl)]
    exact mask_apply inputs hall _
  rw [hm, select_one]
  refine gather_row_apply emb (starts inputs) b h d (Cert.Lookup.rowOf (inputs (ix2 b h))) ?_
  rw [starts_apply, wrapped_apply _ _ (hall _), Cert.Lookup.rowOf_val_of_lt (hall _), toInt_of_lt (hall _), Int.toNat_natCast]
  have := hall (ix2 b h)
  omega

end Cert.RefTerm

end
-- ==== Proof.RefRun.lean ====
/-
  The reference's run. The program is a straight line of array operations (its two calls unfolded), so every weakly
  fair execution terminates with each buffer at the fold of the operations' results over the launch contents. At the
  result buffer that fold is the reference's arithmetic as a function of the two arguments; no operation writes an
  argument. Under the precondition every index word is below the table's height, and there the arithmetic is the
  lookup.
-/
import proofs.«206503_g81295140979383_cont_9to1c4b_414_34_alg».proof.Defs
import proofs.«206503_g81295140979383_cont_9to1c4b_414_34_alg».proof.Proof.Gen.ReferenceIdeal
import proofs.«206503_g81295140979383_cont_9to1c4b_414_34_alg».proof.Proof.Gen.Pre_input_domain
import proofs.«206503_g81295140979383_cont_9to1c4b_414_34_alg».proof.Proof.RefOps
import proofs.«206503_g81295140979383_cont_9to1c4b_414_34_alg».proof.Proof.RefTerm
import proofs.«206503_g81295140979383_cont_9to1c4b_414_34_alg».proof.Proof.PreDecode

noncomputable section

namespace Cert.RefRun

open Cert.ReferenceIdeal Idealize.ShloMosaic Idealize.ShloMosaic.TcCoe Idealize.SL.Sem Idealize.ShloMosaic.StableHlo
open Cert.ReferenceIdeal.Facts₀

variable {F : FTy → Type} [FloatOps F]

attribute [local irreducible] Host.reduce Host.gather in
/-- The fold at the result buffer is the reference's arithmetic of the two arguments' contents. The contents after
    each operation are named in turn; after operation k, every buffer a later operation still reads is recorded at
    its value as a function of the two arguments: the buffer the operation writes by the operation's function of its
    operands' recorded values, any other by what it held before. Each equation is checked with the operands as
    the preceding contents' entries, so that it never looks inside the reduction or the gather. -/
theorem out_eq (V : Valuation τ sig (Elt F)) :
    after (Cert.RefOps.ops (F := F)) V (main_v0 : DevRef τ sig)
      = Cert.RefTerm.refTerm (V (main_arg0 : DevRef τ sig)) (V (main_arg1 : DevRef τ sig)) := by
  rw [after_cons]
  generalize h1 : HloOp.result _ V = V1
  have a1_c : V1 (main_call0_c : DevRef τ sig) = (constantI S_ 32 0#32) := by
    rw [← h1]; exact nullary_result ..
  have a1_arg0 : V1 (main_arg0 : DevRef τ sig) = (V (main_arg0 : DevRef τ sig)) := by
    rw [← h1]; exact (nullary_result_ne _ _ _ _ (by decide))
  have a1_arg1 : V1 (main_arg1 : DevRef τ sig) = (V (main_arg1 : DevRef τ sig)) := by
    rw [← h1]; exact (nullary_result_ne _ _ _ _ (by decide))
  clear h1
  rw [after_cons]
  generalize h2 : HloOp.result _ V1 = V2
  have a2_arg0 : V2 (main_arg0 : DevRef τ sig) = (V (main_arg0 : DevRef τ sig)) := by
    rw [← h2]; exact (unary_result_ne _ _ _ _ _ _ (by decide)).trans a1_arg0
  have a2_v0 : V2 (main_call0_v0 : DevRef τ sig) = (broadcastInDim S4096x200 ![] bcast_S_S4096x200 (constantI S_ 32 0#32)) := by
    rw [← h2]; refine (unary_result ..).trans ?_; rw [← a1_c]; rfl
  have a2_arg1 : V2 (main_arg1 : DevRef τ sig) = (V (main_arg1 : DevRef τ sig)) := by
    rw [← h2]; exact (unary_result_ne _ _ _ _ _ _ (by decide)).trans a1_arg1
  clear h2
  rw [after_cons]
  generalize h3 : HloOp.result _ V2 = V3
  have a3_arg0 : V3 (main_arg0 : DevRef τ sig) = (V (main_arg0 : DevRef τ sig)) := by
    rw [← h3]; exact (binary_result_ne _ _ _ _ _ _ _ _ (by decide)).trans a2_arg0
  have a3_v1 : V3 (main_call0_v1 : DevRef τ sig) = (cmpi .slt (V (main_arg0 : DevRef τ sig)) (broadcastInDim S4096x200 ![] bcast_S_S4096x200 (constantI S_ 32 0#32))) := by
    rw [← h3]; refine (binary_result ..).trans ?_; rw [← a2_v0, ← a2_arg0]; rfl
  have a3_arg1 : V3 (main_arg1 : DevRef τ sig) = (V (main_arg1 : DevRef τ sig)) := by
    rw [← h3]; exact (binary_result_ne _ _ _ _ _ _ _ _ (by decide)).trans a2_arg1
  clear h3
  rw [after_cons]
  generalize h4 : HloOp.result _ V3 = V4
  have a4_c_0 : V4 (main_call0_c_0 : DevRef τ sig) = (constantI S_ 32 1000000#32) := by
    rw [← h4]; exact nullary_result ..
  have a4_arg0 : V4 (main_arg0 : DevRef τ sig) = (V (main_arg0 : DevRef τ sig)) := by
    rw [← h4]; exact (nullary_result_ne _ _ _ _ (by decide)).trans a3_arg0
  have a4_v1 : V4 (main_call0_v1 : DevRef τ sig) = (cmpi .slt (V (main_arg0 : DevRef τ sig)) (broadcastInDim S4096x200 ![] bcast_S_S4096x200 (constantI S_ 32 0#32))) := by
    rw [← h4]; exact (nullary_result_ne _ _ _ _ (by decide)).trans a3_v1
  have a4_arg1 : V4 (main_arg1 : DevRef τ sig) = (V (main_arg1 : DevRef τ sig)) := by
    rw [← h4]; exact (nullary_result_ne _ _ _ _ (by decide)).trans a3_arg1
  clear h4
  rw [after_cons]
  generalize h5 : HloOp.result _ V4 = V5
  have a5_arg0 : V5 (main_arg0 : DevRef τ sig) = (V (main_arg0 : DevRef τ sig)) := by
    rw [← h5]; exact (unary_result_ne _ _ _ _ _ _ (by decide)).trans a4_arg0
  have a5_v2 : V5 (main_call0_v2 : DevRef τ sig) = (broadcastInDim S4096x200 ![] bcast_S_S4096x200 (constantI S_ 32 1000000#32)) := by
    rw [← h5]; refine (unary_result ..).trans ?_; rw [← a4_c_0]; rfl
  have a5_v1 : V5 (main_call0_v1 : DevRef τ sig) = (cmpi .slt (V (main_arg0 : DevRef τ sig)) (broadcastInDim S4096x200 ![] bcast_S_S4096x200 (constantI S_ 32 0#32))) := by
    rw [← h5]; exact (unary_result_ne _ _ _ _ _ _ (by decide)).trans a4_v1
  have a5_arg1 : V5 (main_arg1 : DevRef τ sig) = (V (main_arg1 : DevRef τ sig)) := by
    rw [← h5]; exact (unary_result_ne _ _ _ _ _ _ (by decide)).trans a4_arg1
  clear h5
  rw [after_cons]
  generalize h6 : HloOp.result _ V5 = V6
  have a6_v1 : V6 (main_call0_v1 : DevRef τ sig) = (cmpi .slt (V (main_arg0 : DevRef τ sig)) (broadcastInDim S4096x200 ![] bcast_S_S4096x200 (constantI S_ 32 0#32))) := by
    rw [← h6]; exact (binary_result_ne _ _ _ _ _ _ _ _ (by decide)).trans a5_v1
  have a6_v3 : V6 (main_call0_v3 : DevRef τ sig) = (addi (V (main_arg0 : DevRef τ sig)) (broadcastInDim S4096x200 ![] bcast_S_S4096x200 (constantI S_ 32 1000000#32))) := by
    rw [← h6]; refine (binary_result ..).trans ?_; rw [← a5_v2, ← a5_arg0]; rfl
  have a6_arg0 : V6 (main_arg0 : DevRef τ sig) = (V (main_arg0 : DevRef τ sig)) := by
    rw [← h6]; exact (binary_result_ne _ _ _ _ _ _ _ _ (by decide)).trans a5_arg0
  have a6_arg1 : V6 (main_arg1 : DevRef τ sig) = (V (main_arg1 : DevRef τ sig)) := by
    rw [← h6]; exact (binary_result_ne _ _ _ _ _ _ _ _ (by decide)).trans a5_arg1
  clear h6
  rw [after_cons]
  generalize h7 : HloOp.result _ V6 = V7
  have a7_v4 : V7 (main_call0_v4 : DevRef τ sig) = (Cert.RefTerm.wrapped (V (main_arg0 : DevRef τ sig))) := by
    rw [← h7]; refine (ternary_result ..).trans ?_; unfold Cert.RefTerm.wrapped; rw [← a6_v3, ← a6_v1, ← a6_arg0]; rfl
  have a7_arg1 : V7 (main_arg1 : DevRef τ sig) = (V (main_arg1 : DevRef τ sig)) := by
    rw [← h7]; exact (ternary_result_ne _ _ _ _ _ _ _ _ _ _ (by decide)).trans a6_arg1
  clear h7
  rw [after_cons]
  generalize h8 : HloOp.result _ V7 = V8
  have a8_v5 : V8 (main_call0_v5 : DevRef τ sig) = (Cert.RefTerm.starts (V (main_arg0 : DevRef τ sig))) := by
    rw [← h8]; refine (unary_result ..).trans ?_; unfold Cert.RefTerm.starts; rw [← a7_v4]; rfl
  have a8_arg1 : V8 (main_arg1 : DevRef τ sig) = (V (main_arg1 : DevRef τ sig)) := by
    rw [← h8]; exact (unary_result_ne _ _ _ _ _ _ (by decide)).trans a7_arg1
  clear h8
  rw [after_cons]
  generalize h9 : HloOp.result _ V8 = V9
  have a9_v5 : V9 (main_call0_v5 : DevRef τ sig) = (Cert.RefTerm.starts (V (main_arg0 : DevRef τ sig))) := by
    rw [← h9]; exact (nullary_result_ne _ _ _ _ (by decide)).trans a8_v5
  have a9_c_1 : V9 (main_call0_c_1 : DevRef τ sig) = (constantI S1 32 999999#32) := by
    rw [← h9]; exact nullary_result ..
  have a9_arg1 : V9 (main_arg1 : DevRef τ sig) = (V (main_arg1 : DevRef τ sig)) := by
    rw [← h9]; exact (nullary_result_ne _ _ _ _ (by decide)).trans a8_arg1
  clear h9
  rw [after_cons]
  generalize h10 : HloOp.result _ V9 = V10
  have a10_c_2 : V10 (main_call0_c_2 : DevRef τ sig) = (constantI S_ 32 0#32) := by
    rw [← h10]; exact nullary_result ..
  have a10_v5 : V10 (main_call0_v5 : DevRef τ sig) = (Cert.RefTerm.starts (V (main_arg0 : DevRef τ sig))) := by
    rw [← h10]; exact (nullary_result_ne _ _ _ _ (by decide)).trans a9_v5
  have a10_c_1 : V10 (main_call0_c_1 : DevRef τ sig) = (constantI S1 32 999999#32) := by
    rw [← h10]; exact (nullary_result_ne _ _ _ _ (by decide)).trans a9_c_1
  have a10_arg1 : V10 (main_arg1 : DevRef τ sig) = (V (main_arg1 : DevRef τ sig)) := by
    rw [← h10]; exact (nullary_result_ne _ _ _ _ (by decide)).trans a9_arg1
  clear h10
  rw [after_cons]
  generalize h11 : HloOp.result _ V10 = V11
  have a11_v5 : V11 (main_call0_v5 : DevRef τ sig) = (Cert.RefTerm.starts (V (main_arg0 : DevRef τ sig))) := by
    rw [← h11]; exact (unary_result_ne _ _ _ _ _ _ (by decide)).trans a10_v5
  have a11_v6 : V11 (main_call0_v6 : DevRef τ sig) = (broadcastInDim S4096x200x1 ![] bcast_S_S4096x200x1 (constantI S_ 32 0#32)) := by
    rw [← h11]; refine (unary_result ..).trans ?_; rw [← a10_c_2]; rfl
  have a11_c_1 : V11 (main_call0_c_1 : DevRef τ sig) = (constantI S1 32 999999#32) := by
    rw [← h11]; exact (unary_result_ne _ _ _ _ _ _ (by decide)).trans a10_c_1
  have a11_arg1 : V11 (main_arg1 : DevRef τ sig) = (V (main_arg1 : DevRef τ sig)) := by
    rw [← h11]; exact (unary_result_ne _ _ _ _ _ _ (by decide)).trans a10_arg1
  clear h11
  rw [after_cons]
  generalize h12 : HloOp.result _ V11 = V12
  have a12_c_1 : V12 (main_call0_c_1 : DevRef τ sig) = (constantI S1 32 999999#32) := by
    rw [← h12]; exact (binary_result_ne _ _ _ _ _ _ _ _ (by decide)).trans a11_c_1
  have a12_v5 : V12 (main_call0_v5 : DevRef τ sig) = (Cert.RefTerm.starts (V (main_arg0 : DevRef τ sig))) := by
    rw [← h12]; exact (binary_result_ne _ _ _ _ _ _ _ _ (by decide)).trans a11_v5
  have a12_v7 : V12 (main_call0_v7 : DevRef τ sig) = (cmpi .sge (Cert.RefTerm.starts (V (main_arg0 : DevRef τ sig))) (broadcastInDim S4096x200x1 ![] bcast_S_S4096x200x1 (constantI S_ 32 0#32))) := by
    rw [← h12]; refine (binary_result ..).trans ?_; rw [← a11_v6, ← a11_v5]; rfl
  have a12_arg1 : V12 (main_arg1 : DevRef τ sig) = (V (main_arg1 : DevRef τ sig)) := by
    rw [← h12]; exact (binary_result_ne _ _ _ _ _ _ _ _ (by decide)).trans a11_arg1
  clear h12
  rw [after_cons]
  generalize h13 : HloOp.result _ V12 = V13
  have a13_v8 : V13 (main_call0_v8 : DevRef τ sig) = (broadcastInDim S1x1x1 ![2] bcast_S1_S1x1x1_2 (constantI S1 32 999999#32)) := by
    rw [← h13]; refine (unary_result ..).trans ?_; rw [← a12_c_1]; rfl
  have a13_v5 : V13 (main_call0_v5 : DevRef τ sig) = (Cert.RefTerm.starts (V (main_arg0 : DevRef τ sig))) := by
    rw [← h13]; exact (unary_result_ne _ _ _ _ _ _ (by decide)).trans a12_v5
  have a13_v7 : V13 (main_call0_v7 : DevRef τ sig) = (cmpi .sge (Cert.RefTerm.starts (V (main_arg0 : DevRef τ sig))) (broadcastInDim S4096x200x1 ![] bcast_S_S4096x200x1 (constantI S_ 32 0#32))) := by
    rw [← h13]; exact (unary_result_ne _ _ _ _ _ _ (by decide)).trans a12_v7
  have a13_arg1 : V13 (main_arg1 : DevRef τ sig) = (V (main_arg1 : DevRef τ sig)) := by
    rw [← h13]; exact (unary_result_ne _ _ _ _ _ _ (by decide)).trans a12_arg1
  clear h13
  rw [after_cons]
  generalize h14 : HloOp.result _ V13 = V14
  have a14_v5 : V14 (main_call0_v5 : DevRef τ sig) = (Cert.RefTerm.starts (V (main_arg0 : DevRef τ sig))) := by
    rw [← h14]; exact (unary_result_ne _ _ _ _ _ _ (by decide)).trans a13_v5
  have a14_v9 : V14 (main_call0_v9 : DevRef τ sig) = (broadcastInDim S4096x200x1 ![0, 1, 2] bcast_S1x1x1_S4096x200x1_0_1_2 (broadcastInDim S1x1x1 ![2] bcast_S1_S1x1x1_2 (constantI S1 32 999999#32))) := by
    rw [← h14]; refine (unary_result ..).trans ?_; rw [← a13_v8]; rfl
  have a14_v7 : V14 (main_call0_v7 : DevRef τ sig) = (cmpi .sge (Cert.RefTerm.starts (V (main_arg0 : DevRef τ sig))) (broadcastInDim S4096x200x1 ![] bcast_S_S4096x200x1 (constantI S_ 32 0#32))) := by
    rw [← h14]; exact (unary_result_ne _ _ _ _ _ _ (by decide)).trans a13_v7
  have a14_arg1 : V14 (main_arg1 : DevRef τ sig) = (V (main_arg1 : DevRef τ sig)) := by
    rw [← h14]; exact (unary_result_ne _ _ _ _ _ _ (by decide)).trans a13_arg1
  clear h14
  rw [after_cons]
  generalize h15 : HloOp.result _ V14 = V15
  have a15_v7 : V15 (main_call0_v7 : DevRef τ sig) = (cmpi .sge (Cert.RefTerm.starts (V (main_arg0 : DevRef τ sig))) (broadcastInDim S4096x200x1 ![] bcast_S_S4096x200x1 (constantI S_ 32 0#32))) := by
    rw [← h15]; exact (binary_result_ne _ _ _ _ _ _ _ _ (by decide)).trans a14_v7
  have a15_v10 : V15 (main_call0_v10 : DevRef τ sig) = (cmpi .sle (Cert.RefTerm.starts (V (main_arg0 : DevRef τ sig))) (broadcastInDim S4096x200x1 ![0, 1, 2] bcast_S1x1x1_S4096x200x1_0_1_2 (broadcastInDim S1x1x1 ![2] bcast_S1_S1x1x1_2 (constantI S1 32 999999#32)))) := by
    rw [← h15]; refine (binary_result ..).trans ?_; rw [← a14_v9, ← a14_v5]; rfl
  have a15_arg1 : V15 (main_arg1 : DevRef τ sig) = (V (main_arg1 : DevRef τ sig)) := by
    rw [← h15]; exact (binary_result_ne _ _ _ _ _ _ _ _ (by decide)).trans a14_arg1
  have a15_v5 : V15 (main_call0_v5 : DevRef τ sig) = (Cert.RefTerm.starts (V (main_arg0 : DevRef τ sig))) := by
    rw [← h15]; exact (binary_result_ne _ _ _ _ _ _ _ _ (by decide)).trans a14_v5
  clear h15
  rw [after_cons]
  generalize h16 : HloOp.result _ V15 = V16
  have a16_v11 : V16 (main_call0_v11 : DevRef τ sig) = (andi (cmpi .sge (Cert.RefTerm.starts (V (main_arg0 : DevRef τ sig))) (broadcastInDim S4096x200x1 ![] bcast_S_S4096x200x1 (constantI S_ 32 0#32))) (cmpi .sle (Cert.RefTerm.starts (V (main_arg0 : DevRef τ sig))) (broadcastInDim S4096x200x1 ![0, 1, 2] bcast_S1x1x1_S4096x200x1_0_1_2 (broadcastInDim S1x1x1 ![2] bcast_S1_S1x1x1_2 (constantI S1 32 999999#32))))) := by
    rw [← h16]; refine (binary_result ..).trans ?_; rw [← a15_v10, ← a15_v7]; rfl
  have a16_arg1 : V16 (main_arg1 : DevRef τ sig) = (V (main_arg1 : DevRef τ sig)) := by
    rw [← h16]; exact (binary_result_ne _ _ _ _ _ _ _ _ (by decide)).trans a15_arg1
  have a16_v5 : V16 (main_call0_v5 : DevRef τ sig) = (Cert.RefTerm.starts (V (main_arg0 : DevRef τ sig))) := by
    rw [← h16]; exact (binary_result_ne _ _ _ _ _ _ _ _ (by decide)).trans a15_v5
  clear h16
  rw [after_cons]
  generalize h17 : HloOp.result _ V16 = V17
  have a17_v11 : V17 (main_call0_v11 : DevRef τ sig) = (andi (cmpi .sge (Cert.RefTerm.starts (V (main_arg0 : DevRef τ sig))) (broadcastInDim S4096x200x1 ![] bcast_S_S4096x200x1 (constantI S_ 32 0#32))) (cmpi .sle (Cert.RefTerm.starts (V (main_arg0 : DevRef τ sig))) (broadcastInDim S4096x200x1 ![0, 1, 2] bcast_S1x1x1_S4096x200x1_0_1_2 (broadcastInDim S1x1x1 ![2] bcast_S1_S1x1x1_2 (constantI S1 32 999999#32))))) := by
    rw [← h17]; exact (nullary_result_ne _ _ _ _ (by decide)).trans a16_v11
  have a17_c_3 : V17 (main_call0_c_3 : DevRef τ sig) = (constantI S_ 1 1#1) := by
    rw [← h17]; exact nullary_result ..
  have a17_arg1 : V17 (main_arg1 : DevRef τ sig) = (V (main_arg1 : DevRef τ sig)) := by
    rw [← h17]; exact (nullary_result_ne _ _ _ _ (by decide)).trans a16_arg1
  have a17_v5 : V17 (main_call0_v5 : DevRef τ sig) = (Cert.RefTerm.starts (V (main_arg0 : DevRef τ sig))) := by
    rw [← h17]; exact (nullary_result_ne _ _ _ _ (by decide)).trans a16_v5
  clear h17
  rw [after_cons]
  generalize h18 : HloOp.result _ V17 = V18
  have a18_arg1 : V18 (main_arg1 : DevRef τ sig) = (V (main_arg1 : DevRef τ sig)) := by
    rw [← h18]; exact (binary_result_ne _ _ _ _ _ _ _ _ (by decide)).trans a17_arg1
  have a18_v5 : V18 (main_call0_v5 : DevRef τ sig) = (Cert.RefTerm.starts (V (main_arg0 : DevRef τ sig))) := by
    rw [← h18]; exact (binary_result_ne _ _ _ _ _ _ _ _ (by decide)).trans a17_v5
  have a18_v12 : V18 (main_call0_v12 : DevRef τ sig) = (Cert.RefTerm.mask (V (main_arg0 : DevRef τ sig))) := by
    rw [← h18]; refine (binary_result ..).trans ?_; unfold Cert.RefTerm.mask; rw [← a17_v11, ← a17_c_3]; rfl
  clear h18
  rw [after_cons]
  generalize h19 : HloOp.result _ V18 = V19
  have a19_v12 : V19 (main_call0_v12 : DevRef τ sig) = (Cert.RefTerm.mask (V (main_arg0 : DevRef τ sig))) := by
    rw [← h19]; exact (binary_result_ne _ _ _ _ _ _ _ _ (by decide)).trans a18_v12
  have a19_v13 : V19 (main_call0_v13 : DevRef τ sig) = (Host.gather gather_S1000000x32_S4096x200x1_S4096x200x32_2_0_n_n_0_2_132 (V (main_arg1 : DevRef τ sig)) (Cert.RefTerm.starts (V (main_arg0 : DevRef τ sig)))) := by
    rw [← h19]; refine (binary_result ..).trans ?_; rw [← a18_v5, ← a18_arg1]; rfl
  clear h19
  rw [after_cons]
  generalize h20 : HloOp.result _ V19 = V20
  have a20_v14 : V20 (main_call0_v14 : DevRef τ sig) = (broadcastInDim S4096x200x32 ![0, 1] bcast_S4096x200_S4096x200x32_0_1 (Cert.RefTerm.mask (V (main_arg0 : DevRef τ sig)))) := by
    rw [← h20]; refine (unary_result ..).trans ?_; rw [← a19_v12]; rfl
  have a20_v13 : V20 (main_call0_v13 : DevRef τ sig) = (Host.gather gather_S1000000x32_S4096x200x1_S4096x200x32_2_0_n_n_0_2_132 (V (main_arg1 : DevRef τ sig)) (Cert.RefTerm.starts (V (main_arg0 : DevRef τ sig)))) := by
    rw [← h20]; exact (unary_result_ne _ _ _ _ _ _ (by decide)).trans a19_v13
  clear h20
  rw [after_cons]
  generalize h21 : HloOp.result _ V20 = V21
  have a21_cst : V21 (main_call0_cst : DevRef τ sig) = (constant (F := F) S_ .f32 0x7FC00000#32) := by
    rw [← h21]; exact nullary_result ..
  have a21_v14 : V21 (main_call0_v14 : DevRef τ sig) = (broadcastInDim S4096x200x32 ![0, 1] bcast_S4096x200_S4096x200x32_0_1 (Cert.RefTerm.mask (V (main_arg0 : DevRef τ sig)))) := by
    rw [← h21]; exact (nullary_result_ne _ _ _ _ (by decide)).trans a20_v14
  have a21_v13 : V21 (main_call0_v13 : DevRef τ sig) = (Host.gather gather_S1000000x32_S4096x200x1_S4096x200x32_2_0_n_n_0_2_132 (V (main_arg1 : DevRef τ sig)) (Cert.RefTerm.starts (V (main_arg0 : DevRef τ sig)))) := by
    rw [← h21]; exact (nullary_result_ne _ _ _ _ (by decide)).trans a20_v13
  clear h21
  rw [after_cons]
  generalize h22 : HloOp.result _ V21 = V22
  have a22_v14 : V22 (main_call0_v14 : DevRef τ sig) = (broadcastInDim S4096x200x32 ![0, 1] bcast_S4096x200_S4096x200x32_0_1 (Cert.RefTerm.mask (V (main_arg0 : DevRef τ sig)))) := by
    rw [← h22]; exact (unary_result_ne _ _ _ _ _ _ (by decide)).trans a21_v14
  have a22_v13 : V22 (main_call0_v13 : DevRef τ sig) = (Host.gather gather_S1000000x32_S4096x200x1_S4096x200x32_2_0_n_n_0_2_132 (V (main_arg1 : DevRef τ sig)) (Cert.RefTerm.starts (V (main_arg0 : DevRef τ sig)))) := by
    rw [← h22]; exact (unary_result_ne _ _ _ _ _ _ (by decide)).trans a21_v13
  have a22_v15 : V22 (main_call0_v15 : DevRef τ sig) = (broadcastInDim S4096x200x32 ![] bcast_S_S4096x200x32 (constant (F := F) S_ .f32 0x7FC00000#32)) := by
    rw [← h22]; refine (unary_result ..).trans ?_; rw [← a21_cst]; rfl
  clear h22
  rw [after_cons]
  generalize h23 : HloOp.result _ V22 = V23
  have a23_v16 : V23 (main_v0 : DevRef τ sig) = (Cert.RefTerm.refTerm (V (main_arg0 : DevRef τ sig)) (V (main_arg1 : DevRef τ sig))) := by
    rw [← h23]; refine (ternary_result ..).trans ?_; unfold Cert.RefTerm.refTerm; rw [← a22_v13, ← a22_v14, ← a22_v15]; rfl
  clear h23
  rw [after_nil]
  exact a23_v16

/-- No operation writes the index array … -/
theorem arg0_eq (V : Valuation τ sig (Elt F)) :
    after (Cert.RefOps.ops (F := F)) V (main_arg0 : DevRef τ sig) = V (main_arg0 : DevRef τ sig) := by
  simp only [after_cons, after_nil]
  rfl

/-- … nor the table. -/
theorem arg1_eq (V : Valuation τ sig (Elt F)) :
    after (Cert.RefOps.ops (F := F)) V (main_arg1 : DevRef τ sig) = V (main_arg1 : DevRef τ sig) := by
  simp only [after_cons, after_nil]
  rfl

/-- Under the precondition every weakly fair execution of the reference terminates with the result buffer at the
    lookup of the table at the index array, and both arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_ReferenceIdeal (hPre_input_domain := Cert.Pre_input_domain.Gen.facts) m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
          r.2.mem ((c.tc : Thread Cert.ReferenceIdeal.nD Cert.ReferenceIdeal.τ).loc Cert.ReferenceIdeal.main_v0)
            = Cert.Lookup.lookup (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
              = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
              = m' ((c.tc : Thread Cert.ReferenceIdeal.nD Cert.ReferenceIdeal.τ).loc Cert.ReferenceIdeal.main_arg1)) :=
  (θ_run Cert.ReferenceIdeal.defs _ _).mono (fun _ h c =>
      ⟨(h c main_v0).trans ((out_eq _).trans
          (Cert.RefTerm.refTerm_eq_lookup _ _ (Cert.PreDecode.idx_lt (F := Ideal) _ _ (hpre c)))),
        (h c main_arg0).trans (arg0_eq _),
        (h c main_arg1).trans (arg1_eq _)⟩)
    (Cert.RefOps.run_main (F := Ideal) m' g')

end Cert.RefRun

end
-- ==== Proof.Assemble.lean ====
/-
  The certificate assembled from the two tiles' obligations. Each program's run, from its tile's obligation and the
  precondition read as "every index word is below the table's height", ends with the result at the lookup's value
  and the two arguments unchanged. A frame keeps the last two facts of a run. For the equivalence the common value
  is the lookup of the kernel's own arguments: the kernel's run ends there (its host operations around the tiles'
  function compute the lookup), and so does the reference's, whose arguments are the kernel's by hypothesis — the
  reference's precondition is the kernel's, read at equal arguments.
-/
import proofs.«206503_g81295140979383_cont_9to1c4b_414_34_alg».proof.Defs
import proofs.«206503_g81295140979383_cont_9to1c4b_414_34_alg».proof.Proof.Gen.Kernel
import proofs.«206503_g81295140979383_cont_9to1c4b_414_34_alg».proof.Proof.Gen.KernelIdeal
import proofs.«206503_g81295140979383_cont_9to1c4b_414_34_alg».proof.Proof.Gen.ReferenceIdeal
import proofs.«206503_g81295140979383_cont_9to1c4b_414_34_alg».proof.Proof.Gen.Pre_input_domain
import proofs.«206503_g81295140979383_cont_9to1c4b_414_34_alg».proof.Proof.KernelHostTerm
import proofs.«206503_g81295140979383_cont_9to1c4b_414_34_alg».proof.Proof.KernelIdealHostTerm
import proofs.«206503_g81295140979383_cont_9to1c4b_414_34_alg».proof.Proof.PreDecode
import proofs.«206503_g81295140979383_cont_9to1c4b_414_34_alg».proof.Proof.RefRun

noncomputable section

namespace Cert.Proof

open Idealize.ShloMosaic Idealize.SL.Sem

/-- The word-level kernel runs and leaves its arguments unchanged. -/
theorem frame_Kernel_of_tile (hB : Cert.Proof.Kernel.TileSpec (F := Bits)) :
    Cert.frame_Kernel (hKernel := Cert.Kernel.Gen.facts) (hPre_input_domain := Cert.Pre_input_domain.Gen.facts) :=
  fun m g hpre => (θ_run (Cert.Kernel.defs (F := Bits)) _ _).mono (fun _ h c => (h c).2)
    (Cert.Proof.Kernel.run_of_tile hB m g (fun c => Cert.PreDecode.idx_lt (F := Bits) _ _ (hpre c)))

/-- The kernel over extended reals runs and leaves its arguments unchanged. -/
theorem frame_KernelIdeal_of_tile (hI : Cert.Proof.KernelIdeal.TileSpec (F := Ideal)) :
    Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2)
    (Cert.Proof.KernelIdeal.run_of_tile hI m g (fun c => Cert.PreDecode.idx_lt (F := Ideal) _ _ (hpre c)))

/-- The reference runs and leaves its arguments unchanged. -/
theorem frame_ReferenceIdeal_holds :
    Cert.frame_ReferenceIdeal (hReferenceIdeal := Cert.ReferenceIdeal.Gen.facts) (hPre_input_domain := Cert.Pre_input_domain.Gen.facts) :=
  fun m g hpre => (θ_run Cert.ReferenceIdeal.defs _ _).mono (fun _ h c => (h c).2) (Cert.RefRun.run m g hpre)

/-- From memories agreeing on the arguments both programs end with the lookup of those arguments. -/
theorem algebraic_of_tile (hI : Cert.Proof.KernelIdeal.TileSpec (F := Ideal)) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hlt : ∀ (c : Dev Cert.KernelIdeal.nD) j,
      (m ((c.tc : Thread Cert.KernelIdeal.nD Cert.KernelIdeal.τ).loc Cert.KernelIdeal.main_arg0) j).toNat < 1000000 :=
    fun c => Cert.PreDecode.idx_lt (F := Ideal) _ _ (hpre c)
  have hpre' : Cert.Pre_ReferenceIdeal (hPre_input_domain := Cert.Pre_input_domain.Gen.facts) m' := fun c => by
    rw [(hagree c).1, (hagree c).2]; exact hpre c
  refine ⟨fun c => Cert.Lookup.lookup
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.Proof.KernelIdeal.hostTerm_eq_lookup _ _ (hlt c)), (h c).2⟩)
      (Cert.Proof.KernelIdeal.run_of_tile hI m g hlt)
  · refine (θ_run Cert.ReferenceIdeal.defs _ _).mono (fun _ h c => ⟨?_, (h c).2⟩) (Cert.RefRun.run m' g' hpre')
    rw [(h c).1, (hagree c).1, (hagree c).2]

/-- The certificate's claim, from the tile's obligation at each instance. -/
theorem claim_of_tiles (hI : Cert.Proof.KernelIdeal.TileSpec (F := Ideal)) (hB : Cert.Proof.Kernel.TileSpec (F := Bits)) :
    Cert.Claim :=
  ⟨Cert.Kernel.Gen.facts, Cert.KernelIdeal.Gen.facts, Cert.ReferenceIdeal.Gen.facts, Cert.Pre_input_domain.Gen.facts,
    frame_Kernel_of_tile hB, frame_KernelIdeal_of_tile hI, frame_ReferenceIdeal_holds, trivial, algebraic_of_tile hI⟩

end Cert.Proof

end
-- ==== Proof.KernelIdealTileRes.lean ====
/-
  What a tile holds while it runs: its seven transfer semaphores and four scratch arrays taken out of the
  bundle the launch hands it, the three arrays in HBM respelt as the tile's memrefs address them, and a read
  share cut into one token per gather slot.
-/
import proofs.«206503_g81295140979383_cont_9to1c4b_414_34_alg».proof.Proof.KernelIdealTileSpec

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The tile's own semaphores and scratch arrays, taken out of what the launch hands it -/

/-- The cell of one of the tile's transfer semaphores. -/
abbrev cell (s : DmaSems sig S_) : GSem nD τ sig := (thr d L, .dma s.sem)

theorem cell_mem (s : DmaSems sig S_) (h : (SemLoc.dma s.sem : SemLoc sig).isScoped .scVector = true) : cell d L s ∈ ownCells (thr d L) :=
  (mem_ownCells (g := cell d L s)).mpr ⟨rfl, h⟩

theorem cell_ne {a b : DmaSems sig S_} (h : (a.sem : DmaSem sig) ≠ b.sem) : cell d L a ≠ cell d L b :=
  fun e => h (SemLoc.dma.inj (Prod.mk.inj e).2)

/-- The seven transfer semaphores — four for the gathers' slots, two for the write-outs' slots, one for the
    first copy — are among the tile's own, at zero. -/
theorem ownSems0_tile :
    (ownSems0 (thr d L) : sProp 𝕄)
      = iprop(semVal (cell d L cc0_scratch4) 0 ∗ semVal (cell d L cc0_scratch5) 0 ∗ semVal (cell d L cc0_scratch6) 0 ∗ semVal (cell d L cc0_scratch7) 0
          ∗ semVal (cell d L cc0_scratch8) 0 ∗ semVal (cell d L cc0_scratch9) 0 ∗ semVal (cell d L cc0_scoped0) 0
          ∗ bigSep (((((((ownCells (thr d L)).erase (cell d L cc0_scratch4)).erase (cell d L cc0_scratch5)).erase (cell d L cc0_scratch6)).erase (cell d L cc0_scratch7)).erase
              (cell d L cc0_scratch8)).erase (cell d L cc0_scratch9) |>.erase (cell d L cc0_scoped0))
              fun g => semVal g 0) := by
  unfold SparseCore.Cfg.ownSems0
  rw [SparseCore.bigSep_erase' (cell_mem d L cc0_scratch4 (by decide)),
    SparseCore.bigSep_erase' (Finset.mem_erase.mpr ⟨cell_ne d L (by decide), cell_mem d L cc0_scratch5 (by decide)⟩),
    SparseCore.bigSep_erase' (Finset.mem_erase.mpr ⟨cell_ne d L (by decide), Finset.mem_erase.mpr ⟨cell_ne d L (by decide), cell_mem d L cc0_scratch6 (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scratch7 (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch8 (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch9 (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped0 (by decide)⟩⟩⟩⟩⟩⟩)]

abbrev sref (b : Ref sig .scVector) : DevRef τ sig := (Proc.scVector (cV L) (jV L)).devRef b

theorem sref_mem0 : sref L cc0_scratch0 ∈ ownRefs (τ := τ) (sig := sig) (.scVector (cV L) (jV L)) :=
  SparseCore.Cfg.mem_ownRefs_of_owner (p := Proc.scVector (cV L) (jV L)) (b := sref L cc0_scratch0) rfl
theorem sref_mem1 : sref L cc0_scratch1 ∈ ownRefs (τ := τ) (sig := sig) (.scVector (cV L) (jV L)) :=
  SparseCore.Cfg.mem_ownRefs_of_owner (p := Proc.scVector (cV L) (jV L)) (b := sref L cc0_scratch1) rfl
theorem sref_mem2 : sref L cc0_scratch2 ∈ ownRefs (τ := τ) (sig := sig) (.scVector (cV L) (jV L)) :=
  SparseCore.Cfg.mem_ownRefs_of_owner (p := Proc.scVector (cV L) (jV L)) (b := sref L cc0_scratch2) rfl
theorem sref_mem3 : sref L cc0_scratch3 ∈ ownRefs (τ := τ) (sig := sig) (.scVector (cV L) (jV L)) :=
  SparseCore.Cfg.mem_ownRefs_of_owner (p := Proc.scVector (cV L) (jV L)) (b := sref L cc0_scratch3) rfl

theorem sref_ne {a b : Ref sig .scVector} (h : a ≠ b) : sref L a ≠ sref L b := fun e => h (Proc.devRef_injective _ e)

/-- The four scratch arrays are among the tile's own, at some contents. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (sig := sig) (.scVector (cV L) (jV L))).erase (sref L cc0_scratch0)).erase (sref L cc0_scratch1)).erase (sref L cc0_scratch2)).erase (sref L cc0_scratch3))
              fun b => iprop(∃ f, ((d, b) : Loc nD τ sig) ↦{fullShare} f)) := by
  unfold SparseCore.Cfg.ownBufs
  refine (SparseCore.bigSep_erase' (sref_mem0 L)).trans ?_
  rw [SparseCore.bigSep_erase' (Finset.mem_erase.mpr ⟨sref_ne L (by decide), sref_mem1 L⟩),
    SparseCore.bigSep_erase' (Finset.mem_erase.mpr ⟨sref_ne L (by decide), Finset.mem_erase.mpr ⟨sref_ne L (by decide), sref_mem2 L⟩⟩),
    SparseCore.bigSep_erase' (Finset.mem_erase.mpr ⟨sref_ne L (by decide), Finset.mem_erase.mpr ⟨sref_ne L (by decide), Finset.mem_erase.mpr ⟨sref_ne L (by decide), sref_mem3 L⟩⟩⟩)]

/-! ## The arrays as the tile's memrefs address them -/

theorem pts_t (q : PosShare TreeShare) (f : Buf (Elt F) (tLoc d)) : ((tV).view.loc (thr d L) ↦{q} f : sProp 𝕄) = (tLoc d ↦{q} f) := rfl
theorem pts_i (q : PosShare TreeShare) (f : Buf (Elt F) (iLoc d)) : ((iV).view.loc (thr d L) ↦{q} f : sProp 𝕄) = (iLoc d ↦{q} f) := rfl
theorem pts_s0 (f : Buf (Elt F) ((thr d L).loc cc0_scratch0)) : ((sI).view.loc (thr d L) ↦{fullShare} f : sProp 𝕄) = ((thr d L).loc cc0_scratch0 ↦{fullShare} f) := rfl
theorem pts_s1 (f : Buf (Elt F) ((thr d L).loc cc0_scratch1)) : ((sQ).view.loc (thr d L) ↦{fullShare} f : sProp 𝕄) = ((thr d L).loc cc0_scratch1 ↦{fullShare} f) := rfl
theorem pts_s2 (f : Buf (Elt F) ((thr d L).loc cc0_scratch2)) : ((sG).view.loc (thr d L) ↦{fullShare} f : sProp 𝕄) = ((thr d L).loc cc0_scratch2 ↦{fullShare} f) := rfl
theorem pts_s3 (f : Buf (Elt F) ((thr d L).loc cc0_scratch3)) : ((sO).view.loc (thr d L) ↦{fullShare} f : sProp 𝕄) = ((thr d L).loc cc0_scratch3 ↦{fullShare} f) := rfl

/-- A read share cut into four tokens, one per gather slot, and a remainder. -/
theorem toks4 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 4} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f)) := by
  have h0 := pointsTo_share (Ix := HIx 1) (Val := Elt F) (Name := ℕ) (U := UU) (Lvl := ℕ) (ℓ := ℓ) (I := S) (f := f) (q := q) (q₁ := Transfers.shareDrop q 1) (q₂ := Transfers.shareTokN q 0) (PosShare.mem_left_op_right _)
  have h1 := pointsTo_share (Ix := HIx 1) (Val := Elt F) (Name := ℕ) (U := UU) (Lvl := ℕ) (ℓ := ℓ) (I := S) (f := f) (q := Transfers.shareDrop q 1) (q₁ := Transfers.shareDrop q 2) (q₂ := Transfers.shareTokN q 1) (PosShare.mem_left_op_right _)
  have h2 := pointsTo_share (Ix := HIx 1) (Val := Elt F) (Name := ℕ) (U := UU) (Lvl := ℕ) (ℓ := ℓ) (I := S) (f := f) (q := Transfers.shareDrop q 2) (q₁ := Transfers.shareDrop q 3) (q₂ := Transfers.shareTokN q 2) (PosShare.mem_left_op_right _)
  have h3 := pointsTo_share (Ix := HIx 1) (Val := Elt F) (Name := ℕ) (U := UU) (Lvl := ℕ) (ℓ := ℓ) (I := S) (f := f) (q := Transfers.shareDrop q 3) (q₁ := Transfers.shareDrop q 4) (q₂ := Transfers.shareTokN q 3) (PosShare.mem_left_op_right _)
  constructor
  · iintro H
    ihave H := h0.1 $$ H
    icases H with ⟨H, H0⟩
    ihave H := h1.1 $$ H
    icases H with ⟨H, H1⟩
    ihave H := h2.1 $$ H
    icases H with ⟨H, H2⟩
    ihave H := h3.1 $$ H
    icases H with ⟨H, H3⟩
    isplitl [H]; · iexact H
    isplitl [H0]; · iexact H0
    isplitl [H1]; · iexact H1
    isplitl [H2]; · iexact H2
    iexact H3
  · iintro ⟨H, H0, H1, H2, H3⟩
    iapply h0.2
    isplitr [H0]
    · iapply h1.2
      isplitr [H1]
      · iapply h2.2
        isplitr [H2]
        · iapply h3.2
          isplitl [H]; · iexact H
          iexact H3
        · iexact H2
      · iexact H1
    · iexact H0

end Cert.Proof.KernelIdeal

end
-- ==== Proof.KernelIdealRingDefs.lean ====
/-
  The pieces of the tile's pipeline, in the program's own spelling: slot `s` of the gathered-rows scratch, row `h`
  of the row-number scratch (the offset list of position `h`'s gather), the table as a gather's source, slot `b`
  of the result-rows scratch, and the tile's columns of position `h` of the result (one write-out's destination);
  the pipeline's conditions and the first loop's offsets in closed form; and a gather in flight.
-/
import proofs.«206503_g81295140979383_cont_9to1c4b_414_34_alg».proof.Proof.KernelIdealTileRes

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxRecDepth 100000 in
theorem off2_eq : ∀ t : Fin k0_t1_loop.trips, k0_off2 t = ![t.val / 8, t.val % 8 * 16] := by decide +kernel
theorem cond1_eq : ∀ t : Fin k0_t2_loop.trips, k0_cond1 t = 1#1 := by decide +kernel
theorem cond2_eq : ∀ t : Fin k0_t2_loop.trips, (k0_cond2 t = 1#1) ↔ 0 < t.val := by decide +kernel
theorem cond3_eq : ∀ t : Fin k0_t2_loop.trips, (k0_cond3 t = 1#1) ↔ t.val < 49 := by decide +kernel
theorem cond4_eq : ∀ t : Fin k0_t2_loop.trips, (k0_cond4 t = 1#1) ↔ 0 < t.val := by decide +kernel
theorem cond5_eq : ∀ t : Fin k0_t2_loop.trips, (k0_cond5 t = 1#1) ↔ t.val < 49 := by decide +kernel
theorem cond6_eq : ∀ t : Fin k0_t2_loop.trips, k0_cond6 t = 1#1 := by decide +kernel
theorem cond7_eq : ∀ t : Fin k0_t2_loop.trips, (k0_cond7 t = 1#1) ↔ t.val < 49 := by decide +kernel
theorem cond8_eq : ∀ t : Fin k0_t2_loop.trips, k0_cond8 t = 1#1 := by decide +kernel

variable (d : Dev nD) (L : grid0.Coords)

/-! ## The program's spellings of the pieces -/

theorem slotG_inb (s : Nat) (hs : s < 4) : ∀ a, (![s, 0, 0] : Fin 3 → Nat) a + S1x128x128.size a ≤ S4x128x128.size a := by
  intro a; match a with
  | ⟨0, _⟩ => show s + 1 ≤ 4; omega
  | ⟨1, _⟩ => exact Nat.le_refl _
  | ⟨2, _⟩ => exact Nat.le_refl _
/-- Slot `s` of the gathered-rows scratch, as the program slices it. -/
abbrev slotG (s : Nat) (hs : s < 4) : Memref sig .scVector .vmem S128x128 .f32 :=
  (sG.slice (Rect.unit (s := S4x128x128) ![s, 0, 0] S1x128x128.size (slotG_inb s hs)) (fun _ => rfl)).squeeze S128x128 squeezes_S1x128x128_S128x128

theorem rowQ_inb (h : Nat) (hh : h < 200) : ∀ a, (![h, 0] : Fin 2 → Nat) a + S1x128.size a ≤ S200x128.size a := by
  intro a; match a with
  | ⟨0, _⟩ => show h + 1 ≤ 200; omega
  | ⟨1, _⟩ => exact Nat.le_refl _
/-- Row `h` of the row-number scratch: the offset list of position `h`'s gather. -/
abbrev rowQ (h : Nat) (hh : h < 200) : Memref sig .scVector .vmem S128 .i32 :=
  (sQ.slice (Rect.unit (s := S200x128) ![h, 0] S1x128.size (rowQ_inb h hh)) (fun _ => rfl)).squeeze S128 squeezes_S1x128_S128

/-- The table as a gather's source: all of it. -/
abbrev tW : Memref sig .scVector .hbm S250000x128 .f32 :=
  tV.slice (Rect.unit (s := S250000x128) ![0, 0] S250000x128.size inb_S250000x128_S250000x128_0_0) (fun _ => rfl)

theorem slotO_inb (b : Nat) (hb : b < 2) : ∀ a, (![b, 0, 0] : Fin 3 → Nat) a + S1x32x128.size a ≤ S2x32x128.size a := by
  intro a; match a with
  | ⟨0, _⟩ => show b + 1 ≤ 2; omega
  | ⟨1, _⟩ => exact Nat.le_refl _
  | ⟨2, _⟩ => exact Nat.le_refl _
/-- Slot `b` of the result-rows scratch. -/
abbrev slotO (b : Nat) (hb : b < 2) : Memref sig .scVector .vmem S32x128 .f32 :=
  (sO.slice (Rect.unit (s := S2x32x128) ![b, 0, 0] S1x32x128.size (slotO_inb b hb)) (fun _ => rfl)).squeeze S32x128 squeezes_S1x32x128_S32x128

theorem outRow_inb (h : Nat) (hh : h < 200) : ∀ a, (![h, 0, col0 L] : Fin 3 → Nat) a + S1x32x128.size a ≤ S200x32x4096.size a := by
  have h0 := core_lt L; have h1 := sub_lt L
  intro a; match a with
  | ⟨0, _⟩ => show h + 1 ≤ 200; omega
  | ⟨1, _⟩ => exact Nat.le_refl _
  | ⟨2, _⟩ => show col0 L + 128 ≤ 4096; unfold col0; omega
/-- The tile's columns of position `h` of the result: one write-out's destination. -/
abbrev outRow (h : Nat) (hh : h < 200) : Memref sig .scVector .hbm S32x128 .f32 :=
  (oV.slice (Rect.unit (s := S200x32x4096) ![h, 0, col0 L] S1x32x128.size (outRow_inb L h hh)) (fun _ => rfl)).squeeze S32x128 squeezes_S1x32x128_S32x128

/-- The gathers' semaphores by slot, the write-outs' by slot. -/
abbrev gsem : Fin 4 → DmaSems sig S_ := ![cc0_scratch4, cc0_scratch5, cc0_scratch6, cc0_scratch7]
abbrev wsem : Fin 2 → DmaSems sig S_ := ![cc0_scratch8, cc0_scratch9]

variable (q1 : PosShare TreeShare) (tb : Buf (Elt F) (tLoc d)) (fq : Buf (Elt F) ((thr d L).loc cc0_scratch1))

/-- The gather of position `h` into slot `s`, in flight: what its wait will hand back. -/
abbrev GF (s : Nat) (hs : s < 4) (sem : DmaSems sig S_) (h : Nat) (hh : h < 200) (g : Buf (Elt F) ((thr d L).loc cc0_scratch2)) (pay : S128x128.Idx → Elt F .f32) : sProp 𝕄 :=
  Transfers.Flight countersEmb (thr d L) (SemLoc.dma sem.sem) default 524288
    iprop((((sG).view.loc (thr d L) ↦[(slotG s hs).view.set]{fullShare} View.write (Elt F) (slotG s hs).view g pay Finset.univ)
        ∗ ((sQ).view.loc (thr d L) ↦[(rowQ h hh).view.set]{Transfers.shareTokN fullShare s} fq))
      ∗ ((tV).view.loc (thr d L) ↦[(tW).view.set]{Transfers.shareTokN q1 s} tb))

end Cert.Proof.KernelIdeal

end
-- ==== Proof.KernelIdealGeom.lean ====
/-
  The tile's pieces read at coordinates. Each piece is a rectangle of one of the tile's arrays with its unit axes
  dropped: slot `s` of the gathered rows is the elements `(s, r, c)`, row `h` of the row numbers the elements
  `(h, r)`, slot `b` of the result rows the elements `(b, dd, col)`, the tile's columns of position `h` of the
  result the elements `(h, dd, col0 + col)`, the tile's block of the index array the elements `(h, col0 + col)`.
  Stated here: where each piece puts a coordinate, which elements it covers, what a whole write through it leaves
  at a coordinate and off the piece, and what a gather through a row of row numbers delivers at a coordinate.
-/
import proofs.«206503_g81295140979383_cont_9to1c4b_414_34_alg».proof.Proof.KernelIdealRingDefs
import Idealize.ShloMosaic.Lib.ValueLayout

noncomputable section

namespace Cert.Proof.KernelIdeal

open Cert.KernelIdeal Cert.KernelIdeal.Gen

open Idealize.ShloMosaic Idealize.ShloMosaic.ValueIdx
open Idealize.ShloMosaic.SparseCore (S V T)
open Idealize.SL.Sem

variable {F : FTy → Type}

/-! ## A unit axis put back -/

/-- An index `r` matched with shape `[1, a]` is `(0, r)`. -/
theorem reshapeEquiv_ix1_1a {a : ℕ} (h : (⟨1, ![a]⟩ : Shape).numel = (⟨2, ![1, a]⟩ : Shape).numel) (r : Fin a) :
    Shape.reshapeEquiv h (ix1 r) = ix2 (⟨0, Nat.one_pos⟩ : Fin 1) r :=
  Shape.reshapeEquiv_eq_of_rowMajor h (by
    rw [Shape.rowMajor_val_two, Shape.rowMajor_val_one]
    show 0 * a + r.val = r.val
    simp only [Nat.zero_mul, Nat.zero_add])

/-! ## Where each piece puts a coordinate -/

/-- Slot `s` of the gathered rows puts `(r, c)` at `(s, r, c)`. -/
theorem slotG_emb (s : Nat) (hs : s < 4) (r c : Fin 128) :
    (slotG s hs).view.emb (ix2 r c) = (ix3 (⟨s, hs⟩ : Fin 4) r c : S4x128x128.Idx) := by
  have e1 : Shape.reshapeEquiv (squeezes_S1x128x128_S128x128).numel_eq (ix2 r c) = ix3 (⟨0, Nat.one_pos⟩ : Fin 1) r c :=
    reshapeEquiv_ix2_1ab _ r c
  show (Rect.unit (s := S4x128x128) ![s, 0, 0] S1x128x128.size (slotG_inb s hs)).emb (Shape.reshapeEquiv _ (ix2 r c)) = _
  rw [e1]
  funext a; apply Fin.ext
  match a with
  | ⟨0, _⟩ => show s + 1 * 0 = s; omega
  | ⟨1, _⟩ => show 0 + 1 * r.val = r.val; omega
  | ⟨2, _⟩ => show 0 + 1 * c.val = c.val; omega

/-- Slot `b` of the result rows puts `(dd, col)` at `(b, dd, col)`. -/
theorem slotO_emb (b : Nat) (hb : b < 2) (dd : Fin 32) (col : Fin 128) :
    (slotO b hb).view.emb (ix2 dd col) = (ix3 (⟨b, hb⟩ : Fin 2) dd col : S2x32x128.Idx) := by
  have e1 : Shape.reshapeEquiv (squeezes_S1x32x128_S32x128).numel_eq (ix2 dd col) = ix3 (⟨0, Nat.one_pos⟩ : Fin 1) dd col :=
    reshapeEquiv_ix2_1ab _ dd col
  show (Rect.unit (s := S2x32x128) ![b, 0, 0] S1x32x128.size (slotO_inb b hb)).emb (Shape.reshapeEquiv _ (ix2 dd col)) = _
  rw [e1]
  funext a; apply Fin.ext
  match a with
  | ⟨0, _⟩ => show b + 1 * 0 = b; omega
  | ⟨1, _⟩ => show 0 + 1 * dd.val = dd.val; omega
  | ⟨2, _⟩ => show 0 + 1 * col.val = col.val; omega

/-- Row `h` of the row numbers puts `r` at `(h, r)`. -/
theorem rowQ_emb (h : Nat) (hh : h < 200) (r : Fin 128) :
    (rowQ h hh).view.emb (ix1 r) = (ix2 (⟨h, hh⟩ : Fin 200) r : S200x128.Idx) := by
  have e1 : Shape.reshapeEquiv (squeezes_S1x128_S128).numel_eq (ix1 r) = ix2 (⟨0, Nat.one_pos⟩ : Fin 1) r :=
    reshapeEquiv_ix1_1a _ r
  show (Rect.unit (s := S200x128) ![h, 0] S1x128.size (rowQ_inb h hh)).emb (Shape.reshapeEquiv _ (ix1 r)) = _
  rw [e1]
  funext a; apply Fin.ext
  match a with
  | ⟨0, _⟩ => show h + 1 * 0 = h; omega
  | ⟨1, _⟩ => show 0 + 1 * r.val = r.val; omega

/-! ## Which elements each piece covers -/

/-- Slot `s` of the gathered rows covers the elements whose first coordinate is `s`. -/
theorem slotG_mem (s : Nat) (hs : s < 4) (i : S4x128x128.Idx) : i ∈ (slotG s hs).view.set ↔ (i 0).val = s := by
  rw [Memref.set_view_squeeze]
  show i ∈ ((View.whole (cc0_scratch2 : Ref sig .scVector)).slice (Rect.unit (s := S4x128x128) ![s, 0, 0] S1x128x128.size (slotG_inb s hs))).set ↔ _
  rw [View.set_slice_whole, Rect.mem_set_unit]
  have h1 : (i 1).val < 128 := (i 1).isLt
  have h2 : (i 2).val < 128 := (i 2).isLt
  constructor
  · intro h; have := h 0
    have a1 : s ≤ (i 0).val := this.1
    have a2 : (i 0).val < s + 1 := this.2
    omega
  · intro h a
    match a with
    | ⟨0, _⟩ => exact ⟨by show s ≤ (i 0).val; omega, by show (i 0).val < s + 1; omega⟩
    | ⟨1, _⟩ => exact ⟨by show 0 ≤ (i 1).val; omega, by show (i 1).val < 0 + 128; omega⟩
    | ⟨2, _⟩ => exact ⟨by show 0 ≤ (i 2).val; omega, by show (i 2).val < 0 + 128; omega⟩

/-- Slot `b` of the result rows covers the elements whose first coordinate is `b`. -/
theorem slotO_mem (b : Nat) (hb : b < 2) (i : S2x32x128.Idx) : i ∈ (slotO b hb).view.set ↔ (i 0).val = b := by
  rw [Memref.set_view_squeeze]
  show i ∈ ((View.whole (cc0_scratch3 : Ref sig .scVector)).slice (Rect.unit (s := S2x32x128) ![b, 0, 0] S1x32x128.size (slotO_inb b hb))).set ↔ _
  rw [View.set_slice_whole, Rect.mem_set_unit]
  have h1 : (i 1).val < 32 := (i 1).isLt
  have h2 : (i 2).val < 128 := (i 2).isLt
  constructor
  · intro h; have := h 0
    have a1 : b ≤ (i 0).val := this.1
    have a2 : (i 0).val < b + 1 := this.2
    omega
  · intro h a
    match a with
    | ⟨0, _⟩ => exact ⟨by show b ≤ (i 0).val; omega, by show (i 0).val < b + 1; omega⟩
    | ⟨1, _⟩ => exact ⟨by show 0 ≤ (i 1).val; omega, by show (i 1).val < 0 + 32; omega⟩
    | ⟨2, _⟩ => exact ⟨by show 0 ≤ (i 2).val; omega, by show (i 2).val < 0 + 128; omega⟩

/-- Row `h` of the row numbers covers the elements whose first coordinate is `h`. -/
theorem rowQ_mem (h : Nat) (hh : h < 200) (i : S200x128.Idx) : i ∈ (rowQ h hh).view.set ↔ (i 0).val = h := by
  rw [Memref.set_view_squeeze]
  show i ∈ ((View.whole (cc0_scratch1 : Ref sig .scVector)).slice (Rect.unit (s := S200x128) ![h, 0] S1x128.size (rowQ_inb h hh))).set ↔ _
  rw [View.set_slice_whole, Rect.mem_set_unit]
  have h1 : (i 1).val < 128 := (i 1).isLt
  constructor
  · intro hm; have := hm 0
    have a1 : h ≤ (i 0).val := this.1
    have a2 : (i 0).val < h + 1 := this.2
    omega
  · intro hm a
    match a with
    | ⟨0, _⟩ => exact ⟨by show h ≤ (i 0).val; omega, by show (i 0).val < h + 1; omega⟩
    | ⟨1, _⟩ => exact ⟨by show 0 ≤ (i 1).val; omega, by show (i 1).val < 0 + 128; omega⟩

/-! ## A whole write through a piece, read back -/

/-- A whole write through slot `s` of the gathered rows leaves the payload's `(r, c)` at `(s, r, c)` … -/
theorem slotG_write_at (s : Nat) (hs : s < 4) (g : S4x128x128.Idx → Elt F .f32) (pay : S128x128.Idx → Elt F .f32) (r c : Fin 128) :
    View.write (Elt F) (slotG s hs).view g pay Finset.univ (ix3 (⟨s, hs⟩ : Fin 4) r c) = pay (ix2 r c) := by
  rw [← slotG_emb s hs r c, View.write_emb_of_mem (v := (slotG s hs).view) g pay (Finset.mem_univ _)]
  rfl
/-- … and every element outside the slot as it was. -/
theorem slotG_write_off (s : Nat) (hs : s < 4) (g : S4x128x128.Idx → Elt F .f32) (pay : S128x128.Idx → Elt F .f32)
    (i : S4x128x128.Idx) (hi : (i 0).val ≠ s) : View.write (Elt F) (slotG s hs).view g pay Finset.univ i = g i :=
  View.write_of_not_mem (v := (slotG s hs).view) g pay Finset.univ (by rw [View.setOn_univ, slotG_mem]; exact hi)

/-- A whole write through slot `b` of the result rows leaves the payload's `(dd, col)` at `(b, dd, col)` … -/
theorem slotO_write_at (b : Nat) (hb : b < 2) (o : S2x32x128.Idx → Elt F .f32) (pay : S32x128.Idx → Elt F .f32) (dd : Fin 32) (col : Fin 128) :
    View.write (Elt F) (slotO b hb).view o pay Finset.univ (ix3 (⟨b, hb⟩ : Fin 2) dd col) = pay (ix2 dd col) := by
  rw [← slotO_emb b hb dd col, View.write_emb_of_mem (v := (slotO b hb).view) o pay (Finset.mem_univ _)]
  rfl
/-- … and every element outside the slot as it was. -/
theorem slotO_write_off (b : Nat) (hb : b < 2) (o : S2x32x128.Idx → Elt F .f32) (pay : S32x128.Idx → Elt F .f32)
    (i : S2x32x128.Idx) (hi : (i 0).val ≠ b) : View.write (Elt F) (slotO b hb).view o pay Finset.univ i = o i :=
  View.write_of_not_mem (v := (slotO b hb).view) o pay Finset.univ (by rw [View.setOn_univ, slotO_mem]; exact hi)

/-- Row `h` of the row numbers reads `(h, r)` at `r`. -/
theorem rowQ_read (h : Nat) (hh : h < 200) (fq : S200x128.Idx → BitVec 32) (r : Fin 128) :
    (rowQ h hh).view.read (Elt F) fq (ix1 r) = fq (ix2 (⟨h, hh⟩ : Fin 200) r) := by
  rw [View.read_apply, rowQ_emb h hh r]
  rfl

/-! ## The table as a gather's source: all of it -/

/-- The table's whole rectangle puts every coordinate where it is. -/
theorem tW_emb (x : S250000x128.Idx) : (tW).view.emb x = x := by
  show (Rect.unit (s := S250000x128) ![0, 0] S250000x128.size inb_S250000x128_S250000x128_0_0).emb x = x
  funext a; apply Fin.ext
  match a with
  | ⟨0, _⟩ => show 0 + 1 * (x 0).val = (x 0).val; omega
  | ⟨1, _⟩ => show 0 + 1 * (x 1).val = (x 1).val; omega

/-- It covers every element. -/
theorem tW_mem (i : S250000x128.Idx) : i ∈ (tW).view.set := by
  rw [← tW_emb i]; exact View.emb_mem_set _ _

/-- Read through it, the table is the table. -/
theorem tW_read (tb : S250000x128.Idx → Elt F .f32) (x : S250000x128.Idx) : (tW).view.read (Elt F) tb x = tb x := by
  rw [View.read_apply, tW_emb x]
  rfl

/-! ## The tile's columns of the result and of the index array -/

/-- Column `col` of the tile's 128, as a column of the array's 4096. -/
def tcol (L : grid0.Coords) (col : Fin 128) : Fin 4096 :=
  ⟨col0 L + col.val, by have h0 := core_lt L; have h1 := sub_lt L; have := col.isLt; unfold col0; omega⟩

theorem tcol_val (L : grid0.Coords) (col : Fin 128) : (tcol L col).val = col0 L + col.val := rfl

/-- The tile's columns of position `h` of the result put `(dd, col)` at `(h, dd, col0 + col)`. -/
theorem outRow_emb (L : grid0.Coords) (h : Nat) (hh : h < 200) (dd : Fin 32) (col : Fin 128) :
    (outRow L h hh).view.emb (ix2 dd col) = (ix3 (⟨h, hh⟩ : Fin 200) dd (tcol L col) : S200x32x4096.Idx) := by
  have e1 : Shape.reshapeEquiv (squeezes_S1x32x128_S32x128).numel_eq (ix2 dd col) = ix3 (⟨0, Nat.one_pos⟩ : Fin 1) dd col :=
    reshapeEquiv_ix2_1ab _ dd col
  show (Rect.unit (s := S200x32x4096) ![h, 0, col0 L] S1x32x128.size (outRow_inb L h hh)).emb (Shape.reshapeEquiv _ (ix2 dd col)) = _
  rw [e1]
  funext a; apply Fin.ext
  match a with
  | ⟨0, _⟩ => show h + 1 * 0 = h; omega
  | ⟨1, _⟩ => show 0 + 1 * dd.val = dd.val; omega
  | ⟨2, _⟩ => show col0 L + 1 * col.val = col0 L + col.val; omega

/-- They cover the elements of position `h` in the tile's columns. -/
theorem outRow_mem (L : grid0.Coords) (h : Nat) (hh : h < 200) (i : S200x32x4096.Idx) :
    i ∈ (outRow L h hh).view.set ↔ (i 0).val = h ∧ col0 L ≤ (i 2).val ∧ (i 2).val < col0 L + 128 := by
  rw [Memref.set_view_squeeze]
  show i ∈ ((View.whole (main_v2_scv : Ref sig .scVector)).slice (Rect.unit (s := S200x32x4096) ![h, 0, col0 L] S1x32x128.size (outRow_inb L h hh))).set ↔ _
  rw [View.set_slice_whole, Rect.mem_set_unit]
  have h1 : (i 1).val < 32 := (i 1).isLt
  constructor
  · intro hm
    have m0 := hm 0; have m2 := hm 2
    have a1 : h ≤ (i 0).val := m0.1
    have a2 : (i 0).val < h + 1 := m0.2
    have b1 : col0 L ≤ (i 2).val := m2.1
    have b2 : (i 2).val < col0 L + 128 := m2.2
    exact ⟨by omega, b1, b2⟩
  · intro hm a
    match a with
    | ⟨0, _⟩ => exact ⟨by show h ≤ (i 0).val; omega, by show (i 0).val < h + 1; omega⟩
    | ⟨1, _⟩ => exact ⟨by show 0 ≤ (i 1).val; omega, by show (i 1).val < 0 + 32; omega⟩
    | ⟨2, _⟩ => exact ⟨by show col0 L ≤ (i 2).val; exact hm.2.1, by show (i 2).val < col0 L + 128; exact hm.2.2⟩

/-- A whole write through them leaves the payload's `(dd, col)` at `(h, dd, col0 + col)` … -/
theorem outRow_write_at (L : grid0.Coords) (h : Nat) (hh : h < 200) (o : S200x32x4096.Idx → Elt F .f32) (pay : S32x128.Idx → Elt F .f32)
    (dd : Fin 32) (col : Fin 128) :
    View.write (Elt F) (outRow L h hh).view o pay Finset.univ (ix3 (⟨h, hh⟩ : Fin 200) dd (tcol L col)) = pay (ix2 dd col) := by
  rw [← outRow_emb L h hh dd col, View.write_emb_of_mem (v := (outRow L h hh).view) o pay (Finset.mem_univ _)]
  rfl
/-- … and every other element as it was. -/
theorem outRow_write_off (L : grid0.Coords) (h : Nat) (hh : h < 200) (o : S200x32x4096.Idx → Elt F .f32) (pay : S32x128.Idx → Elt F .f32)
    (i : S200x32x4096.Idx) (hi : ¬((i 0).val = h ∧ col0 L ≤ (i 2).val ∧ (i 2).val < col0 L + 128)) :
    View.write (Elt F) (outRow L h hh).view o pay Finset.univ i = o i :=
  View.write_of_not_mem (v := (outRow L h hh).view) o pay Finset.univ (by rw [View.setOn_univ, outRow_mem]; exact hi)

/-- The first column of the tile's block of the index array, as the program computes it. -/
theorem k0_off1_eq : ∀ L : grid0.Coords, k0_off1 L = ![0, 256 * (L 1).val + 128 * (L 0).val] := by decide +kernel

/-- The tile's block of the index array: every position, the tile's 128 columns. -/
abbrev iBlk (L : grid0.Coords) : Memref sig .scVector .hbm S200x128 .i32 :=
  (iV).slice (Rect.unit (s := S200x4096) (k0_off1 L) S200x128.size (k0_off1_inb L)) (fun _ => rfl)

/-- It puts `(h, col)` at `(h, col0 + col)`. -/
theorem iBlk_emb (L : grid0.Coords) (h : Fin 200) (col : Fin 128) :
    (iBlk L).view.emb (ix2 h col) = (ix2 h (tcol L col) : S200x4096.Idx) := by
  show (Rect.unit (s := S200x4096) (k0_off1 L) S200x128.size (k0_off1_inb L)).emb (ix2 h col) = _
  funext a; apply Fin.ext
  match a with
  | ⟨0, _⟩ => show k0_off1 L 0 + 1 * h.val = h.val; rw [k0_off1_eq L]; show 0 + 1 * h.val = h.val; omega
  | ⟨1, _⟩ =>
    show k0_off1 L 1 + 1 * col.val = col0 L + col.val
    rw [k0_off1_eq L]; show 256 * (L 1).val + 128 * (L 0).val + 1 * col.val = col0 L + col.val
    unfold col0; omega

/-- Read through it, the index array at `(h, col0 + col)`. -/
theorem iBlk_read (L : grid0.Coords) (ix : S200x4096.Idx → BitVec 32) (h : Fin 200) (col : Fin 128) :
    (iBlk L).view.read (Elt F) ix (ix2 h col) = ix (ix2 h (tcol L col)) := by
  rw [View.read_apply, iBlk_emb L h col]
  rfl

/-! ## A gather through a row of row numbers -/

/-- The gather's payload at `(a, c)`: the source's row that the list names for `a`, at column `c`. -/
theorem gatherPayload_apply (g : S250000x128.Idx → Elt F .f32)
    (r : Fin (S128x128.size (gathers_S250000x128_S128x128).axis') → Fin (S250000x128.size (gathers_S250000x128_S128x128).axis))
    (a c : Fin 128) :
    SparseCore.gatherPayload gathers_S250000x128_S128x128 g r (ix2 a c) = g (ix2 (r a) c) := by
  unfold SparseCore.gatherPayload
  refine congrArg g (funext fun b => Fin.ext ?_)
  match b with
  | ⟨0, _⟩ => unfold Shape.Gathers.idx; rw [dif_pos rfl]; rfl
  | ⟨1, _⟩ => unfold Shape.Gathers.idx; rw [dif_neg (Nat.succ_ne_zero 0)]; rfl

/-- Entry `k` of a rank-one list, in row-major order, is its entry at `k`. -/
theorem rowMajor_symm_ix1 {n : Nat} (hn : S128.numel = n) (k : Fin n) (hk : k.val < 128) :
    S128.rowMajor.symm (k.cast hn.symm) = ix1 (⟨k.val, hk⟩ : Fin 128) := by
  rw [Equiv.symm_apply_eq]
  apply Fin.ext
  rw [Shape.rowMajor_val_one]
  rfl

/-- The rows that row `h` of the row numbers names: entry `k` is the word at `(h, k)`. -/
theorem rows_rowQ (h : Nat) (hh : h < 200) (fq : S200x128.Idx → BitVec 32)
    (hn : S128.numel = S128x128.size (gathers_S250000x128_S128x128).axis')
    (hin : ∀ x, ((rowQ h hh).view.read (Elt F) fq x).toNat < S250000x128.size (gathers_S250000x128_S128x128).axis)
    (k : Fin (S128x128.size (gathers_S250000x128_S128x128).axis')) :
    (SparseCore.rows ((rowQ h hh).view.read (Elt F) fq) hn hin k).val = (fq (ix2 (⟨h, hh⟩ : Fin 200) (⟨k.val, k.isLt⟩ : Fin 128))).toNat := by
  show ((rowQ h hh).view.read (Elt F) fq (S128.rowMajor.symm (Fin.cast hn.symm k))).toNat = _
  rw [rowMajor_symm_ix1 hn k k.isLt, rowQ_read]

/-- The gathered slot at `(r, c)`: the table's row numbered by the word at `(h, r)`, at column `c`. -/
theorem gather_rowQ_apply (tb : S250000x128.Idx → Elt F .f32) (h : Nat) (hh : h < 200) (fq : S200x128.Idx → BitVec 32)
    (hn : S128.numel = S128x128.size (gathers_S250000x128_S128x128).axis')
    (hin : ∀ x, ((rowQ h hh).view.read (Elt F) fq x).toNat < S250000x128.size (gathers_S250000x128_S128x128).axis)
    (r c : Fin 128) (row : Fin 250000) (hrow : row.val = (fq (ix2 (⟨h, hh⟩ : Fin 200) r)).toNat) :
    SparseCore.gatherPayload gathers_S250000x128_S128x128 tb (SparseCore.rows ((rowQ h hh).view.read (Elt F) fq) hn hin) (ix2 r c)
      = tb (ix2 row c) := by
  rw [gatherPayload_apply]
  refine congrArg (fun q => tb (ix2 q c)) (Fin.ext ?_)
  rw [hrow]; exact rows_rowQ h hh fq hn hin r

end Cert.Proof.KernelIdeal

end
-- ==== Proof.KernelIdealWords.lean ====
/-
  Word arithmetic of the lookup's tile. A table of a million rows of 32 entries is held as 250000 rows of 128:
  row `w` is the quarter `w % 4` of row `w / 4`. On 32-bit words `w / 4` is the logical shift right by two and
  `w % 4` the conjunction with 3; the column `(w % 4) * 32 + d` of entry `d < 32` stays below 128, so the word
  operations that compute it do not wrap.
-/
import Idealize.ShloMosaic.PureOps.Vector

namespace Cert.Proof.KernelIdeal

open Idealize.ShloMosaic

/-- The logical shift right by two is the quotient by four; -/
theorem toNat_shr2 (w : BitVec 32) : (w >>> 2).toNat = w.toNat / 4 := by
  rw [BitVec.toNat_ushiftRight, Nat.shiftRight_eq_div_pow]

/-- so is the shift by the word two, -/
theorem toNat_shr2' (w : BitVec 32) : (w >>> (2#32 : BitVec 32)).toNat = w.toNat / 4 := by
  rw [BitVec.ushiftRight_eq']; exact toNat_shr2 w

/-- and a vector lane's shift by a lane holding two: the amount is below the width, no corner. -/
theorem toNat_shrui_two (u : ArithUnit) (w : BitVec 32) : (IntOp.shrui u w (2#32)).toNat = w.toNat / 4 := by
  unfold IntOp.shrui
  rw [if_pos (by decide), toNat_shr2']

/-- The row of 128 that holds row `w` of the table exists: a quarter of a million bounds it. -/
theorem shr2_lt (w : BitVec 32) (h : w.toNat < 1000000) : (w >>> 2).toNat < 250000 := by
  rw [toNat_shr2]; omega

/-- The conjunction with 3 is the remainder by four. -/
theorem toNat_and3 (w : BitVec 32) : (w &&& 3#32).toNat = w.toNat % 4 := by
  rw [BitVec.toNat_and]
  exact Nat.and_two_pow_sub_one_eq_mod w.toNat 2

/-- The column of entry `dd` of row `w` inside its row of 128, as the words compute it: nothing wraps. -/
theorem toNat_quarterCol (w : BitVec 32) (dd : Nat) (h : dd < 32) :
    ((w &&& 3#32) * 32#32 + BitVec.ofNat 32 dd).toNat = w.toNat % 4 * 32 + dd := by
  have h3 := toNat_and3 w
  have hlt : w.toNat % 4 < 4 := Nat.mod_lt _ (by decide)
  rw [BitVec.toNat_add, BitVec.toNat_mul, BitVec.toNat_ofNat, h3]
  show (w.toNat % 4 * 32 % 2 ^ 32 + dd % 2 ^ 32) % 2 ^ 32 = w.toNat % 4 * 32 + dd
  omega

/-- It is a column of the row of 128. -/
theorem quarterCol_lt (w : BitVec 32) (dd : Nat) (h : dd < 32) :
    ((w &&& 3#32) * 32#32 + BitVec.ofNat 32 dd).toNat < 128 := by
  rw [toNat_quarterCol w dd h]
  have hlt : w.toNat % 4 < 4 := Nat.mod_lt _ (by decide)
  omega

end Cert.Proof.KernelIdeal
-- ==== Proof.KernelIdealQLoop.lean ====
/-
  The tile's first counted loop: 1600 trips, trip `t` reading the sixteen index words at row `t / 8`, columns
  `[16 * (t % 8), + 16)` of the index scratch and storing them, shifted right by two, at the same place of the
  row-number scratch. A word's group of sixteen is number `8 * row + column / 16`; the groups are passed in order,
  so before trip `t` the groups below `t` hold the quotients by four of the index words and after the last trip
  the whole scratch does: the row of 128 that holds table row `w` is row `w / 4`.
-/
import proofs.«206503_g81295140979383_cont_9to1c4b_414_34_alg».proof.Proof.KernelIdealTileRes
import proofs.«206503_g81295140979383_cont_9to1c4b_414_34_alg».proof.Proof.KernelIdealWords
import Idealize.ShloMosaic.Lib.Writes
import Idealize.ShloMosaic.Lib.Pipeline.Value

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The loop's offsets -/

set_option maxRecDepth 100000 in
/-- Trip `t` works on the sixteen words at row `t / 8`, columns `[16 * (t % 8), + 16)`. -/
theorem off2_eq : ∀ t : Fin k0_t1_loop.trips, k0_off2 t = ![t.val / 8, t.val % 8 * 16] := by decide +kernel

theorem trips_eq : Scf.trips k0_t1_loop.lb k0_t1_loop.ub k0_t1_loop.st = 1600 := by decide

variable (d : Dev nD) (L : grid0.Coords)

/-- Before trip `t`: the index scratch unchanged, and every word of the row-number scratch whose group of sixteen
    has been passed — group number `8 * row + column / 16` below `t` — is the quotient by four of the index word
    at the same place. -/
def qInv (fI : Buf (Elt F) ((thr d L).loc cc0_scratch0)) : Nat → Unit → sProp 𝕄 := fun t _ =>
  iprop(((sI).view.loc (thr d L) ↦{fullShare} fI)
    ∗ ∃ f, ((sQ).view.loc (thr d L) ↦{fullShare} f) ∗ ⌜∀ p : S200x128.Idx, (p 0).val * 8 + (p 1).val / 16 < t → (f p).toNat = (fI p).toNat / 4⌝)

/-! ## One trip's store, read back -/

/-- The sixteen words trip `k` works on. -/
abbrev qRect (k : Fin (Scf.trips k0_t1_loop.lb k0_t1_loop.ub k0_t1_loop.st)) : Rect S200x128 :=
  Rect.unit (s := S200x128) (k0_off2 k) S1x16.size (k0_off2_inb k)

theorem off2_zero (k : Fin (Scf.trips k0_t1_loop.lb k0_t1_loop.ub k0_t1_loop.st)) : k0_off2 k 0 = k.val / 8 := by rw [off2_eq]; rfl
theorem off2_one (k : Fin (Scf.trips k0_t1_loop.lb k0_t1_loop.ub k0_t1_loop.st)) : k0_off2 k 1 = k.val % 8 * 16 := by rw [off2_eq]; rfl

/-- A word is among trip `k`'s sixteen exactly when its group of sixteen is number `k`. -/
theorem mem_qRect (k : Fin (Scf.trips k0_t1_loop.lb k0_t1_loop.ub k0_t1_loop.st)) (p : S200x128.Idx) :
    p ∈ (qRect k).set ↔ (p 0).val * 8 + (p 1).val / 16 = k.val := by
  have h1 : (p 1).val < 128 := (p 1).isLt
  rw [Rect.mem_set_unit]
  constructor
  · intro h
    have a0 := h 0; have a1 := h 1
    rw [off2_zero] at a0; rw [off2_one] at a1
    have s0 : S1x16.size 0 = 1 := rfl
    have s1 : S1x16.size 1 = 16 := rfl
    rw [s0] at a0; rw [s1] at a1
    omega
  · intro h a
    match a with
    | ⟨0, _⟩ =>
      show k0_off2 k 0 ≤ (p 0).val ∧ (p 0).val < k0_off2 k 0 + 1
      rw [off2_zero]; omega
    | ⟨1, _⟩ =>
      show k0_off2 k 1 ≤ (p 1).val ∧ (p 1).val < k0_off2 k 1 + 16
      rw [off2_one]; omega

/-- What the trip stores at one of its sixteen words: the index word there shifted right by two. -/
theorem qPay_apply (fI : S200x128.Idx → BitVec 32) (k : Fin (Scf.trips k0_t1_loop.lb k0_t1_loop.ub k0_t1_loop.st)) (x : (qRect k).shape.Idx) :
    (shapeCast S1x16 (k0_pay137 (F := F) (View.readAt (Elt F) (sI).view (qRect k).toLoadRect fI)) shapeCasts_S16_S1x16 x : BitVec 32)
      = IntOp.shrui .vector (fI ((qRect k).emb x)) (2#32) := by
  have hx0 : (x 0).val < 1 := (x 0).isLt
  let j : S16.Idx := ix1 (⟨(x 1).val, (x 1).isLt⟩ : Fin 16)
  have hj : (S16.rowMajor j).val = (S1x16.rowMajor x).val := by
    rw [Shape.rowMajor_val_one, Shape.rowMajor_val_two]
    show (x 1).val = (x 0).val * 16 + (x 1).val
    omega
  rw [shapeCast_apply _ shapeCasts_S16_S1x16 x j hj]
  show IntOp.shrui .vector (shapeCast S16 (View.readAt (Elt F) (sI).view (qRect k).toLoadRect fI) shapeCasts_S1x16_S16 j) (2#32) = _
  rw [shapeCast_apply _ shapeCasts_S1x16_S16 j x hj.symm]
  rfl

/-- After trip `k`'s store the groups up to `k` hold the quotients. -/
theorem q_step (fI : Buf (Elt F) ((thr d L).loc cc0_scratch0)) (g : Buf (Elt F) ((thr d L).loc cc0_scratch1))
    (k : Fin (Scf.trips k0_t1_loop.lb k0_t1_loop.ub k0_t1_loop.st))
    (hg : ∀ p : S200x128.Idx, (p 0).val * 8 + (p 1).val / 16 < k.val → (g p).toNat = (fI p).toNat / 4)
    (p : S200x128.Idx) (hp : (p 0).val * 8 + (p 1).val / 16 < k.val + 1) :
    (((sQ).view.writes (Elt F) g
        [⟨qRect k, shapeCast S1x16 (k0_pay137 (F := F) (View.readAt (Elt F) (sI).view (qRect k).toLoadRect fI)) shapeCasts_S16_S1x16⟩] : Buf (Elt F) ((thr d L).loc cc0_scratch1)) p).toNat
      = (fI p).toNat / 4 := by
  by_cases hk : (p 0).val * 8 + (p 1).val / 16 = k.val
  · -- one of the trip's sixteen: the stored word
    have hm : p ∈ (qRect k).set := (mem_qRect k p).mpr hk
    rw [← (qRect k).map_emb_univ] at hm
    obtain ⟨x, -, rfl⟩ := Finset.mem_map.mp hm
    have h1 := View.read_writes_cons_emb (sQ).view (Val := Elt F) g (qRect k)
      (shapeCast S1x16 (k0_pay137 (F := F) (View.readAt (Elt F) (sI).view (qRect k).toLoadRect fI)) shapeCasts_S16_S1x16) [] x
    simp only [Memref.view_whole, View.read_whole] at h1
    rw [h1, qPay_apply, toNat_shrui_two]
  · -- a word of another group: untouched
    have hm : p ∉ (qRect k).set := fun h => hk ((mem_qRect k p).mp h)
    have h1 := View.read_writes_apply_of_forall_not_mem (sQ).view (Val := Elt F) g p
      [⟨qRect k, shapeCast S1x16 (k0_pay137 (F := F) (View.readAt (Elt F) (sI).view (qRect k).toLoadRect fI)) shapeCasts_S16_S1x16⟩]
      (by intro q hq; rw [List.mem_singleton] at hq; subst hq; exact hm)
    simp only [Memref.view_whole, View.read_whole] at h1
    rw [h1]
    exact hg p (by omega)

/-! ## The loop by its invariant -/

theorem q_intro (fI : Buf (Elt F) ((thr d L).loc cc0_scratch0)) (f : Buf (Elt F) ((thr d L).loc cc0_scratch1)) :
    iprop(((sI).view.loc (thr d L) ↦{fullShare} fI) ∗ ((sQ).view.loc (thr d L) ↦{fullShare} f)) ⊢ (qInv d L fI 0 () : sProp 𝕄) := by
  unfold qInv
  iintro ⟨H0, H1⟩
  isplitl [H0]; · iexact H0
  iexists f
  isplitl [H1]; · iexact H1
  ipureintro
  intro p hp
  exact absurd hp (Nat.not_lt_zero _)

/-- After the last trip every group has been passed: the row-number scratch holds the quotients everywhere. -/
theorem q_elim (fI : Buf (Elt F) ((thr d L).loc cc0_scratch0)) (acc : Unit) :
    (qInv d L fI 1600 acc : sProp 𝕄) ⊢ iprop(((sI).view.loc (thr d L) ↦{fullShare} fI)
      ∗ ∃ fq, ((sQ).view.loc (thr d L) ↦{fullShare} fq) ∗ ⌜∀ p : S200x128.Idx, (fq p).toNat = (fI p).toNat / 4⌝) := by
  unfold qInv
  iintro ⟨H0, %g, H1, %hg⟩
  isplitl [H0]; · iexact H0
  iexists g
  isplitl [H1]; · iexact H1
  ipureintro
  intro p
  have h0 : (p 0).val < 200 := (p 0).isLt
  have h1 : (p 1).val < 128 := (p 1).isLt
  exact hg p (by omega)

/-- The same at the loop's own trip count. -/
theorem q_elim_trips (fI : Buf (Elt F) ((thr d L).loc cc0_scratch0)) (acc : Unit) :
    (qInv d L fI (Scf.trips k0_t1_loop.lb k0_t1_loop.ub k0_t1_loop.st) acc : sProp 𝕄) ⊢ iprop(((sI).view.loc (thr d L) ↦{fullShare} fI)
      ∗ ∃ fq, ((sQ).view.loc (thr d L) ↦{fullShare} fq) ∗ ⌜∀ p : S200x128.Idx, (fq p).toNat = (fI p).toNat / 4⌝) := by
  rw [trips_eq]; exact q_elim d L fI acc

variable [FloatOps F]

/-- One trip keeps the invariant: a load of the sixteen index words, a load of the sixteen row-number words (not
    used), the store of the index words shifted right by two. -/
theorem q_region (fI : Buf (Elt F) ((thr d L).loc cc0_scratch0)) :
    ∀ (k : Fin (Scf.trips k0_t1_loop.lb k0_t1_loop.ub k0_t1_loop.st)) (acc : Unit),
      (qInv d L fI k.val acc : sProp 𝕄) ⊢ wp frame (wpE (defs₀ (F := F)) 𝒱₀ (thr d L) none) Set.univ
        (k0_t1_body (F := F) L tV (Memref.isWhole_whole _) iV (Memref.isWhole_whole _) oV (Memref.isWhole_whole _)
          sI (Memref.isWhole_whole _) sQ (Memref.isWhole_whole _) sG (Memref.isWhole_whole _) sO (Memref.isWhole_whole _)
          cc0_scratch4 cc0_scratch5 cc0_scratch6 cc0_scratch7 cc0_scratch8 cc0_scratch9 cc0_scoped0 k acc)
        (qInv d L fI (k.val + 1)) := by
  intro k acc
  unfold qInv
  unfold k0_t1_body
  iintro ⟨Hs0, %g, Hs1, %hg⟩
  sl_exec
  sl_step
  isplitl [Hs0]; · iexact Hs0
  iexists _
  isplitl [Hs1]; · iexact Hs1
  ipureintro
  exact q_step d L fI g k hg

end Cert.Proof.KernelIdeal

end
-- ==== Proof.KernelIdealExtractLib.lean ====
/-
  The inner loops of a tile: for one row `h` of the tile's index block and one slot of gathered 128-wide table rows,
  every column `c < 128` and every `dd < 32` get `result[dd, c] = gathered[c, (w % 4) * 32 + dd]`, `w` the index word
  at `(h, c)`: the table's row `w` of 32 elements is the quarter `w % 4` of the gathered row of 128. A trip of the loop
  does sixteen columns: one load of sixteen index words, thirty-two indexed loads (one per `dd`), thirty-two stores of
  sixteen elements. This file has what the four copies of the loop share: the two slots as sets of elements, what the
  indexed load reads, the words' arithmetic, one indexed load and one store as steps, and the loop's invariant.
-/
import proofs.«206503_g81295140979383_cont_9to1c4b_414_34_alg».proof.Proof.KernelIdealTileSpec
import Idealize.ShloMosaic.Lib.ValueLayout

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The two slots, in the program's spelling -/

/-- Slot `kk` of the gathered rows: the 128 x 128 block at `(kk, 0, 0)`, its unit axis dropped. -/
abbrev slotGn (kk : Nat) (inb : ∀ a, (![kk, 0, 0] : Fin 3 → Nat) a + S1x128x128.size a ≤ S4x128x128.size a) :
    Memref sig .scVector .vmem S128x128 .f32 :=
  (sG.slice (Rect.unit (s := S4x128x128) ![kk, 0, 0] S1x128x128.size inb) (fun _ => rfl)).squeeze S128x128 squeezes_S1x128x128_S128x128

/-- Slot `bb` of the result rows: the 32 x 128 block at `(bb, 0, 0)`, its unit axis dropped. -/
abbrev slotOn (bb : Nat) (inb : ∀ a, (![bb, 0, 0] : Fin 3 → Nat) a + S1x32x128.size a ≤ S2x32x128.size a) :
    Memref sig .scVector .vmem S32x128 .f32 :=
  (sO.slice (Rect.unit (s := S2x32x128) ![bb, 0, 0] S1x32x128.size inb) (fun _ => rfl)).squeeze S32x128 squeezes_S1x32x128_S32x128

omit [FloatOps F] in
theorem mem_slotG (kk : Nat) (inb) (i : S4x128x128.Idx) : i ∈ (slotGn kk inb).view.set ↔ (i 0).val = kk := by
  rw [Memref.set_view_squeeze]
  show i ∈ ((View.whole (cc0_scratch2 : Ref sig .scVector)).slice (Rect.unit (s := S4x128x128) ![kk, 0, 0] S1x128x128.size inb)).set ↔ _
  rw [View.set_slice_whole, Rect.mem_set_unit]
  have h1 : (i 1).val < 128 := (i 1).isLt
  have h2 : (i 2).val < 128 := (i 2).isLt
  constructor
  · intro h; have := h 0
    have a1 : kk ≤ (i 0).val := this.1
    have a2 : (i 0).val < kk + 1 := this.2
    omega
  · intro h a
    match a with
    | ⟨0, _⟩ => exact ⟨by show kk ≤ (i 0).val; omega, by show (i 0).val < kk + 1; omega⟩
    | ⟨1, _⟩ => exact ⟨by show 0 ≤ (i 1).val; omega, by show (i 1).val < 0 + 128; omega⟩
    | ⟨2, _⟩ => exact ⟨by show 0 ≤ (i 2).val; omega, by show (i 2).val < 0 + 128; omega⟩

omit [FloatOps F] in
theorem mem_slotO (bb : Nat) (inb) (i : S2x32x128.Idx) : i ∈ (slotOn bb inb).view.set ↔ (i 0).val = bb := by
  rw [Memref.set_view_squeeze]
  show i ∈ ((View.whole (cc0_scratch3 : Ref sig .scVector)).slice (Rect.unit (s := S2x32x128) ![bb, 0, 0] S1x32x128.size inb)).set ↔ _
  rw [View.set_slice_whole, Rect.mem_set_unit]
  have h1 : (i 1).val < 32 := (i 1).isLt
  have h2 : (i 2).val < 128 := (i 2).isLt
  constructor
  · intro h; have := h 0
    have a1 : bb ≤ (i 0).val := this.1
    have a2 : (i 0).val < bb + 1 := this.2
    omega
  · intro h a
    match a with
    | ⟨0, _⟩ => exact ⟨by show bb ≤ (i 0).val; omega, by show (i 0).val < bb + 1; omega⟩
    | ⟨1, _⟩ => exact ⟨by show 0 ≤ (i 1).val; omega, by show (i 1).val < 0 + 32; omega⟩
    | ⟨2, _⟩ => exact ⟨by show 0 ≤ (i 2).val; omega, by show (i 2).val < 0 + 128; omega⟩

omit [FloatOps F] in
/-- Where the whole-slot view of slot `kk` puts `(r, c)`: at `(kk, r, c)` of the scratch. -/
theorem emb_slotG (kk : Nat) (hk : kk < 4) (inb) (r c : Fin 128) :
    ((slotGn kk inb).access (Rect.whole S128x128)).emb (ix2 r c) = (ix3 (⟨kk, hk⟩ : Fin 4) r c : S4x128x128.Idx) := by
  have e1 : Shape.reshapeEquiv (squeezes_S1x128x128_S128x128).numel_eq ((Rect.whole S128x128).emb (ix2 r c)) = ix3 (⟨0, Nat.one_pos⟩ : Fin 1) r c := by
    rw [Rect.emb_whole_apply]; exact reshapeEquiv_ix2_1ab _ r c
  show (Rect.unit (s := S4x128x128) ![kk, 0, 0] S1x128x128.size inb).emb (Shape.reshapeEquiv _ ((Rect.whole S128x128).emb (ix2 r c))) = _
  rw [e1]
  funext a; apply Fin.ext
  match a with
  | ⟨0, _⟩ => show kk + 1 * 0 = kk; omega
  | ⟨1, _⟩ => show 0 + 1 * r.val = r.val; omega
  | ⟨2, _⟩ => show 0 + 1 * c.val = c.val; omega

/-- What the whole-slot view of slot `kk` reads at `(r, c)`: the scratch at `(kk, r, c)`. -/
theorem read_slotG (d : Dev nD) (L : grid0.Coords) (kk : Nat) (hk : kk < 4) (inb) (g : Buf (Elt F) ((thr d L).loc cc0_scratch2)) (r c : Fin 128) :
    ((slotGn kk inb).access (Rect.whole S128x128)).read (Elt F) g (ix2 r c) = g (ix3 (⟨kk, hk⟩ : Fin 4) r c) := by
  rw [View.read_apply, emb_slotG kk hk inb r c]
  rfl

/-! ## Words -/

/-- The column a gather reads in lane `l`: the index word's low two bits pick the quarter of the 128-wide row,
    `n < 32` the element within the quarter. -/
theorem col_word (w : BitVec 32) (n : Nat) (hn : n < 32) :
    (IntOp.addi (IntOp.muli (IntOp.andi w 3#32) 32#32) (BitVec.ofNat 32 n)).toNat = w.toNat % 4 * 32 + n := by
  show ((w &&& 3#32) * 32#32 + BitVec.ofNat 32 n).toNat = _
  have h3 : (w &&& 3#32).toNat = w.toNat % 4 := by
    rw [BitVec.toNat_and]
    show w.toNat &&& 3 = w.toNat % 4
    exact Nat.and_two_pow_sub_one_eq_mod w.toNat 2
  rw [BitVec.toNat_add, BitVec.toNat_mul, h3, BitVec.toNat_ofNat]
  show (w.toNat % 4 * 32 % 2 ^ 32 + n % 2 ^ 32) % 2 ^ 32 = _
  omega

/-- The row a gather reads in lane `l` of trip `t`: lane plus sixteen times the trip. -/
theorem row_word (l t : Nat) (hl : l < 16) (ht : t < 8) :
    (IntOp.addi (BitVec.ofNat 32 l) (Scalar.muli (Scalar.addi (0#32) (Scalar.muli (Scf.iv 0#32 1#32 t) 1#32)) 16#32)).toNat = l + 16 * t := by
  show (BitVec.ofNat 32 l + (0#32 + (0#32 + BitVec.ofNat 32 t * 1#32) * 1#32) * 16#32).toNat = _
  simp only [BitVec.toNat_add, BitVec.toNat_mul, BitVec.toNat_ofNat]
  omega

/-! ## One trip's state, and its two kinds of step -/

/-- What the result slot `bb` holds once trip `t` has stored its rows `dd < n`: at every column before the trip's
    sixteen, and at the trip's sixteen in the rows already stored, the gathered row's element the index word names —
    column `cl`'s word `w` picks quarter `w % 4` of the 128-wide row gathered for it. -/
def TripInv (fI : S200x128.Idx → BitVec 32) (g : S4x128x128.Idx → Elt F .f32) (hrow : Fin 200) (kk : Fin 4) (bb : Fin 2)
    (t n : Nat) (o : S2x32x128.Idx → Elt F .f32) : Prop :=
  ∀ (dd : Fin 32) (cl : Fin 128), (cl.val < 16 * t ∨ (cl.val < 16 * t + 16 ∧ dd.val < n)) →
    o (ix3 bb dd cl) = g (ix3 kk cl ⟨(fI (ix2 hrow cl)).toNat % 4 * 32 + dd.val, by have := dd.isLt; omega⟩)

omit [FloatOps F] in
theorem storeRect_sub (bb n t : Nat) (inbO : ∀ a, (![bb, n, 16 * t] : Fin 3 → Nat) a + S1x1x16.size a ≤ S2x32x128.size a) (inbS)
    (i : S2x32x128.Idx) (hi : i ∈ (Rect.unit (s := S2x32x128) ![bb, n, 16 * t] S1x1x16.size inbO).set) : i ∈ (slotOn bb inbS).view.set := by
  rw [mem_slotO]
  have h0 := (Rect.mem_set_unit.1 hi) 0
  have a1 : bb ≤ (i 0).val := h0.1
  have a2 : (i 0).val < bb + 1 := h0.2
  omega

omit [FloatOps F] in
theorem mem_storeRect (bb n t : Nat) (inbO : ∀ a, (![bb, n, 16 * t] : Fin 3 → Nat) a + S1x1x16.size a ≤ S2x32x128.size a)
    (i : S2x32x128.Idx) : i ∈ (Rect.unit (s := S2x32x128) ![bb, n, 16 * t] S1x1x16.size inbO).set ↔
      (i 0).val = bb ∧ (i 1).val = n ∧ 16 * t ≤ (i 2).val ∧ (i 2).val < 16 * t + 16 := by
  rw [Rect.mem_set_unit]
  constructor
  · intro h
    have h0 := h 0; have h1 := h 1; have h2 := h 2
    have a1 : bb ≤ (i 0).val := h0.1
    have a2 : (i 0).val < bb + 1 := h0.2
    have b1 : n ≤ (i 1).val := h1.1
    have b2 : (i 1).val < n + 1 := h1.2
    have c1 : 16 * t ≤ (i 2).val := h2.1
    have c2 : (i 2).val < 16 * t + 16 := h2.2
    omega
  · intro h a
    match a with
    | ⟨0, _⟩ => exact ⟨by show bb ≤ (i 0).val; omega, by show (i 0).val < bb + 1; omega⟩
    | ⟨1, _⟩ => exact ⟨by show n ≤ (i 1).val; omega, by show (i 1).val < n + 1; omega⟩
    | ⟨2, _⟩ => exact ⟨by show 16 * t ≤ (i 2).val; omega, by show (i 2).val < 16 * t + 16; omega⟩

/-- One row's store: the load the store is printed behind, then the sixteen gathered elements written at
    `(bb, n, 16 t …)`. The state advances from `n` rows stored to `n + 1`. -/
theorem store_step (d : Dev nD) (L : grid0.Coords) (bb : Nat) (hb : bb < 2) (inbS) (kk : Nat) (hk : kk < 4) (inbG)
    (fI : Buf (Elt F) ((thr d L).loc cc0_scratch0)) (g : Buf (Elt F) ((thr d L).loc cc0_scratch2))
    (hrow : Fin 200) (t : Nat) (ht : t < 8) (n : Nat) (hn : n < 32)
    (off : Fin 3 → Nat) (hoff : off = ![bb, n, 16 * t]) (inbO : ∀ a, off a + S1x1x16.size a ≤ S2x32x128.size a)
    (row col : IVec S16 32) (hrc : ∀ a x, ((![row, col] : Fin 2 → IVec S16 32) a x).toNat < S128x128.size a)
    (hr : ∀ l : Fin 16, (row (ix1 l)).toNat = l.val + 16 * t)
    (hc : ∀ l : Fin 16, (col (ix1 l)).toNat = (fI (ix2 hrow (⟨16 * t + l.val, by have := l.isLt; omega⟩ : Fin 128))).toNat % 4 * 32 + n)
    {hl} {hx} {hm} {hsc} {α : Type} {K : PUnit → Prog (TpuEff nD τ sig (Elt F) Λ₀ (thr d L).2) α} {Q : α → sProp 𝕄}
    (o : Buf (Elt F) ((thr d L).loc cc0_scratch3)) (hJ : TripInv fI g hrow ⟨kk, hk⟩ ⟨bb, hb⟩ t n o) :
    ((sO).view.loc (thr d L) ↦[(slotOn bb inbS).view.set]{fullShare} o : sProp 𝕄)
      ⊢ iprop((∀ o' : Buf (Elt F) ((thr d L).loc cc0_scratch3), ⌜TripInv fI g hrow ⟨kk, hk⟩ ⟨bb, hb⟩ t (n + 1) o'⌝
              -∗ ((sO).view.loc (thr d L) ↦[(slotOn bb inbS).view.set]{fullShare} o')
              -∗ wp frame (wpE (defs₀ (F := F)) 𝒱₀ (thr d L) none) Set.univ (K ⟨⟩) Q)
          -∗ wp frame (wpE (defs₀ (F := F)) 𝒱₀ (thr d L) none) Set.univ
              (.op (.load sO (Rect.unit (s := S2x32x128) off S1x1x16.size inbO).toLoadRect hl) fun _ =>
                .op (.store sO (Rect.unit (s := S2x32x128) off S1x1x16.size inbO)
                  (shapeCast S1x1x16 (loadIdx (((slotGn kk inbG).access (Rect.whole S128x128)).read (Elt F) g) ![row, col] hrc) hsc)
                  Finset.univ hx hm) K) Q) := by
  subst hoff
  have hsub1 : (sO : Memref sig .scVector .vmem S2x32x128 .f32).view.setOn (Rect.unit (s := S2x32x128) ![bb, n, 16 * t] S1x1x16.size inbO).toLoadRect.set ⊆ (slotOn bb inbS).view.set := by
    intro i hi
    obtain ⟨x, hx, rfl⟩ := Finset.mem_map.1 hi
    exact storeRect_sub bb n t inbO inbS x hx
  have hsub2 : ((sO : Memref sig .scVector .vmem S2x32x128 .f32).access (Rect.unit (s := S2x32x128) ![bb, n, 16 * t] S1x1x16.size inbO)).setOn Finset.univ ⊆ (slotOn bb inbS).view.set := by
    intro i hi
    have h' : i ∈ ((View.whole (cc0_scratch3 : Ref sig .scVector)).slice (Rect.unit (s := S2x32x128) ![bb, n, 16 * t] S1x1x16.size inbO)).set := hi
    rw [View.set_slice_whole] at h'
    exact storeRect_sub bb n t inbO inbS i h'
  iintro HO HK
  iapply (wp_load 𝒱₀ (thr d L) none Set.univ (m := sO) (S := (slotOn bb inbS).view.set) hsub1) $$ HO; iintro HO
  iapply (wp_store 𝒱₀ (thr d L) none Set.univ (m := sO) (r := Rect.unit (s := S2x32x128) ![bb, n, 16 * t] S1x1x16.size inbO) (Mk := Finset.univ) (S := (slotOn bb inbS).view.set) hsub2) $$ HO; iintro HO
  iapply HK $$ [] HO
  ipureintro
  intro dd cl hcl
  have hdd := dd.isLt
  by_cases hin : dd.val = n ∧ 16 * t ≤ cl.val ∧ cl.val < 16 * t + 16
  · -- the element is one of the sixteen this store writes
    obtain ⟨h1, h2, h3⟩ := hin
    let l : Fin 16 := ⟨cl.val - 16 * t, by omega⟩
    let x : S1x1x16.Idx := ix3 (⟨0, Nat.one_pos⟩ : Fin 1) (⟨0, Nat.one_pos⟩ : Fin 1) l
    have hx : ((sO : Memref sig .scVector .vmem S2x32x128 .f32).access (Rect.unit (s := S2x32x128) ![bb, n, 16 * t] S1x1x16.size inbO)).emb x
        = (ix3 (⟨bb, hb⟩ : Fin 2) dd cl : S2x32x128.Idx) := by
      funext a; apply Fin.ext
      match a with
      | ⟨0, _⟩ => show bb + 1 * 0 = bb; omega
      | ⟨1, _⟩ => show n + 1 * 0 = dd.val; omega
      | ⟨2, _⟩ => show 16 * t + 1 * (cl.val - 16 * t) = cl.val; omega
    rw [← hx, View.write_emb_of_mem _ _ (Finset.mem_univ x)]
    have hv : shapeCast S1x1x16 (loadIdx (((slotGn kk inbG).access (Rect.whole S128x128)).read (Elt F) g) ![row, col] hrc) hsc x
        = g (ix3 (⟨kk, hk⟩ : Fin 4) cl ⟨(fI (ix2 hrow cl)).toNat % 4 * 32 + dd.val, by omega⟩) := by
      rw [shapeCast_apply _ hsc x (ix1 l) (by
        rw [Shape.rowMajor_val_three, Shape.rowMajor_val_one]
        show l.val = (0 * 1 + 0) * 16 + l.val
        omega)]
      show ((slotGn kk inbG).access (Rect.whole S128x128)).read (Elt F) g (idxAt ![row, col] hrc (ix1 l)) = _
      have hi : idxAt ![row, col] hrc (ix1 l) = ix2 (⟨(row (ix1 l)).toNat, hrc 0 (ix1 l)⟩ : Fin 128) (⟨(col (ix1 l)).toNat, hrc 1 (ix1 l)⟩ : Fin 128) := by
        funext a
        match a with
        | ⟨0, _⟩ => rfl
        | ⟨1, _⟩ => rfl
      rw [hi, read_slotG d L kk hk inbG g]
      have e1 : (⟨(row (ix1 l)).toNat, hrc 0 (ix1 l)⟩ : Fin 128) = cl := Fin.ext (by show (row (ix1 l)).toNat = cl.val; rw [hr l]; show cl.val - 16 * t + 16 * t = cl.val; omega)
      have ecl : (⟨16 * t + l.val, by have := l.isLt; omega⟩ : Fin 128) = cl := Fin.ext (by show 16 * t + (cl.val - 16 * t) = cl.val; omega)
      have e2 : (⟨(col (ix1 l)).toNat, hrc 1 (ix1 l)⟩ : Fin 128) = ⟨(fI (ix2 hrow cl)).toNat % 4 * 32 + dd.val, by omega⟩ :=
        Fin.ext (by
          show (col (ix1 l)).toNat = (fI (ix2 hrow cl)).toNat % 4 * 32 + dd.val
          rw [hc l, ecl, h1])
      rw [e1, e2]
    exact hv
  · -- the store leaves the element as it was
    have hnot : (ix3 (⟨bb, hb⟩ : Fin 2) dd cl : S2x32x128.Idx) ∉ ((sO : Memref sig .scVector .vmem S2x32x128 .f32).access (Rect.unit (s := S2x32x128) ![bb, n, 16 * t] S1x1x16.size inbO)).setOn Finset.univ := by
      intro hi
      have h' : (ix3 (⟨bb, hb⟩ : Fin 2) dd cl : S2x32x128.Idx) ∈ ((View.whole (cc0_scratch3 : Ref sig .scVector)).slice (Rect.unit (s := S2x32x128) ![bb, n, 16 * t] S1x1x16.size inbO)).set := hi
      rw [View.set_slice_whole, mem_storeRect] at h'
      obtain ⟨-, b1, b2, b3⟩ := h'
      exact hin ⟨b1, b2, b3⟩
    rw [View.write_of_not_mem _ _ _ hnot]
    exact hJ dd cl (by omega)

/-- One gather: the check that its indices are in range, then the indexed load off slot `kk`, which reads what the
    whole-slot view reads. -/
theorem gather_step (d : Dev nD) (L : grid0.Coords) (kk : Nat) (inbG) (g : Buf (Elt F) ((thr d L).loc cc0_scratch2))
    (P : Prop) (dec : Decidable P) (hP : P) {hl} {α : Type}
    {K : PLift P → Vec F S128x128 .f32 → Prog (TpuEff nD τ sig (Elt F) Λ₀ (thr d L).2) α} {Q : α → sProp 𝕄} :
    ((sG).view.loc (thr d L) ↦[(slotGn kk inbG).view.set]{fullShare} g : sProp 𝕄)
      ⊢ iprop((((sG).view.loc (thr d L) ↦[(slotGn kk inbG).view.set]{fullShare} g)
              -∗ wp frame (wpE (defs₀ (F := F)) 𝒱₀ (thr d L) none) Set.univ (K ⟨hP⟩ (((slotGn kk inbG).access (Rect.whole S128x128)).read (Elt F) g)) Q)
          -∗ wp frame (wpE (defs₀ (F := F)) 𝒱₀ (thr d L) none) Set.univ
              (.op (.assume P dec) fun hw => .op (.load (slotGn kk inbG) (.whole S128x128) hl) (K hw)) Q) := by
  iintro HG HK
  iapply (wp_assume 𝒱₀ (thr d L) none Set.univ hP)
  iapply (wp_load_rect 𝒱₀ (thr d L) none Set.univ (m := slotGn kk inbG) (r := Rect.whole S128x128) (S := (slotGn kk inbG).view.set)
    (View.set_slice_subset _ _)) $$ HG
  iintro HG
  iapply HK $$ HG

omit [FloatOps F] in
/-- What the load of sixteen index words reads in lane `l`: the word at `(h, 16 t + l)`. -/
theorem read_sI (d : Dev nD) (L : grid0.Coords) (fI : Buf (Elt F) ((thr d L).loc cc0_scratch0)) (off : Fin 2 → Nat) (h t : Nat) (hh : h < 200) (ht : t < 8)
    (hoff : off = ![h, 16 * t]) (inb : ∀ a, off a + S1x16.size a ≤ S200x128.size a) (l : Fin 16) :
    ((sI : Memref sig .scVector .vmem S200x128 .i32).view.readAt (Elt F) (Rect.unit (s := S200x128) off S1x16.size inb).toLoadRect fI) (ix2 (⟨0, Nat.one_pos⟩ : Fin 1) l)
      = fI (ix2 (⟨h, hh⟩ : Fin 200) (⟨16 * t + l.val, by have := l.isLt; omega⟩ : Fin 128)) := by
  subst hoff
  rw [View.readAt_apply, View.read_apply]
  show fI _ = fI _
  congr 1
  funext a; apply Fin.ext
  match a with
  | ⟨0, _⟩ => show h + 1 * 0 = h; omega
  | ⟨1, _⟩ => show 16 * t + 1 * l.val = 16 * t + l.val; omega

omit [FloatOps F] in
/-- The column vector of the gather for row `n` of the result, in lane `l`. -/
theorem col_val (ld : Vec F S1x16 .i32) (hsc) (n : Nat) (hn : n < 32) (l : Fin 16) :
    ((addi (muli (andi (shapeCast S16 ld hsc) (broadcast S16 3#32)) (broadcast S16 32#32)) (broadcast S16 (BitVec.ofNat 32 n))) (ix1 l)).toNat
      = (ld (ix2 (⟨0, Nat.one_pos⟩ : Fin 1) l)).toNat % 4 * 32 + n := by
  show (IntOp.addi (IntOp.muli (IntOp.andi (shapeCast S16 ld hsc (ix1 l)) 3#32) 32#32) (BitVec.ofNat 32 n)).toNat = _
  rw [col_word _ n hn, shapeCast_1a_a_apply]
  rfl

/-! ## The loop's invariant -/

/-- Before trip `bg` of an extract loop: the index block whole, slot `kk` of the gathered rows, and slot `bb` of the
    result rows holding, in every row, the first `16 bg` columns of what the loop leaves there. -/
def extractInv (d : Dev nD) (L : grid0.Coords) (kk : Nat) (hk : kk < 4) (inbG : ∀ a, (![kk, 0, 0] : Fin 3 → Nat) a + S1x128x128.size a ≤ S4x128x128.size a) (bb : Nat) (hb : bb < 2) (inbS : ∀ a, (![bb, 0, 0] : Fin 3 → Nat) a + S1x32x128.size a ≤ S2x32x128.size a) (hrow : Fin 200)
    (fI : Buf (Elt F) ((thr d L).loc cc0_scratch0)) (g : Buf (Elt F) ((thr d L).loc cc0_scratch2)) : Nat → Unit → sProp 𝕄 :=
  fun bg _ => iprop(((sI).view.loc (thr d L) ↦{fullShare} fI)
    ∗ ((sG).view.loc (thr d L) ↦[(slotGn kk inbG).view.set]{fullShare} g)
    ∗ ∃ o : Buf (Elt F) ((thr d L).loc cc0_scratch3), ((sO).view.loc (thr d L) ↦[(slotOn bb inbS).view.set]{fullShare} o)
        ∗ ⌜TripInv fI g hrow ⟨kk, hk⟩ ⟨bb, hb⟩ bg 0 o⌝)

theorem extract_intro (d : Dev nD) (L : grid0.Coords) (kk : Nat) (hk : kk < 4) (inbG : ∀ a, (![kk, 0, 0] : Fin 3 → Nat) a + S1x128x128.size a ≤ S4x128x128.size a) (bb : Nat) (hb : bb < 2) (inbS : ∀ a, (![bb, 0, 0] : Fin 3 → Nat) a + S1x32x128.size a ≤ S2x32x128.size a) (hrow : Fin 200)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn kk inbG).view.set]{fullShare} g)
      ∗ ((sO).view.loc (thr d L) ↦[(slotOn bb inbS).view.set]{fullShare} o))
    ⊢ extractInv (F := F) d L kk hk inbG bb hb inbS hrow fI g 0 () := by
  unfold extractInv
  iintro ⟨HI, HG, HO⟩
  isplitl [HI]; · iexact HI
  isplitl [HG]; · iexact HG
  iexists o
  isplitl [HO]; · iexact HO
  ipureintro
  intro dd cl h
  omega

theorem extract_elim (d : Dev nD) (L : grid0.Coords) (kk : Nat) (hk : kk < 4) (inbG : ∀ a, (![kk, 0, 0] : Fin 3 → Nat) a + S1x128x128.size a ≤ S4x128x128.size a) (bb : Nat) (hb : bb < 2) (inbS : ∀ a, (![bb, 0, 0] : Fin 3 → Nat) a + S1x32x128.size a ≤ S2x32x128.size a) (hrow : Fin 200)
    (fI : Buf (Elt F) ((thr d L).loc cc0_scratch0)) (g : Buf (Elt F) ((thr d L).loc cc0_scratch2)) :
    extractInv (F := F) d L kk hk inbG bb hb inbS hrow fI g 8 ()
    ⊢ iprop(((sI).view.loc (thr d L) ↦{fullShare} fI)
      ∗ ((sG).view.loc (thr d L) ↦[(slotGn kk inbG).view.set]{fullShare} g)
      ∗ ∃ o' : Buf (Elt F) ((thr d L).loc cc0_scratch3), ((sO).view.loc (thr d L) ↦[(slotOn bb inbS).view.set]{fullShare} o')
          ∗ ⌜∀ (dd : Fin 32) (col : Fin 128), o' (ix3 (⟨bb, hb⟩ : Fin 2) dd col)
              = g (ix3 (⟨kk, hk⟩ : Fin 4) col ⟨(fI (ix2 hrow col)).toNat % 4 * 32 + dd.val, by have := dd.isLt; omega⟩)⌝) := by
  unfold extractInv
  iintro ⟨HI, HG, %o, HO, %hO⟩
  isplitl [HI]; · iexact HI
  isplitl [HG]; · iexact HG
  iexists o
  isplitl [HO]; · iexact HO
  ipureintro
  intro dd cl
  exact hO dd cl (Or.inl (by have := cl.isLt; omega))

omit [FloatOps F] in
theorem t2_lt (t2 : Fin k0_t2_loop.trips) : t2.val < 50 := Nat.lt_of_lt_of_le t2.isLt k0_t2_abs.2.1

/-- Row `4 t2 + k` of the index block: the row the `k`-th extract loop of trip `t2` of the pipeline reads. -/
abbrev rowIx (t2 : Fin k0_t2_loop.trips) (k : Nat) (hk : k < 4) : Fin 200 := ⟨4 * t2.val + k, by have := t2_lt t2; omega⟩

end Cert.Proof.KernelIdeal

end
-- ==== Proof.KernelIdealExtract0.lean ====
/-
  The extract loop of row `4 t2 + 0` of the index block: from slot 0 of the gathered rows into slot 0 of the result rows.
  One trip is proved operation by operation with the shared steps; the invariant says which columns are done.
-/
import proofs.«206503_g81295140979383_cont_9to1c4b_414_34_alg».proof.Proof.KernelIdealExtractLib

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 0` of the index block, slot 0 of the gathered rows, slot 0 of the result rows. -/
def extractInv_0 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 0 (by omega) inb_S4x128x128_S1x128x128_0_0_0 0 (by omega) inb_S2x32x128_S1x32x128_0_0_0 (rowIx t2 0 (by omega)) fI g

set_option maxHeartbeats 8000000 in
/-- Trip `bg` of the extract loop of row `4 t2 + 0`: sixteen more columns of every row of the result slot. -/
theorem extract_region_0 (d : Dev nD) (L : grid0.Coords) (v3 : IVec S16 32) (hv3 : ∀ l : Fin 16, v3 (ix1 l) = BitVec.ofNat 32 l.val)
    (c0 c1 : BitVec 32) (t2 : Fin k0_t2_loop.trips) (v40 : BitVec 32)
    (fI : Buf (Elt F) ((thr d L).loc cc0_scratch0)) (g : Buf (Elt F) ((thr d L).loc cc0_scratch2)) :
    ∀ (bg : Fin k0_t3_loop.trips) (acc : Unit),
      extractInv_0 (F := F) d L t2 fI g bg.val acc
      ⊢ wp frame (wpE (defs₀ (F := F)) 𝒱₀ (thr d L) none) Set.univ (k0_t3_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 c0 c1 t2 v40 bg acc)
          (extractInv_0 (F := F) d L t2 fI g (bg.val + 1)) := by
  intro bg acc
  have ht2 : t2.val < 50 := t2_lt t2
  have hbg : bg.val < 8 := Nat.lt_of_lt_of_le bg.isLt k0_t3_abs.2.1
  simp only [k0_t3_body, k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.bind_assoc, Prog.pure_eq_ret, Prog.bind_ret, Prog.bind_lift, SparseCore.vectorLoadIdx_bind (thr d L), Prog.bind_op]
  unfold extractInv_0 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off5 t2 bg) S1x16.size (k0_off5_inb t2 bg)).toLoadRect fI = ld
  have hldv : ∀ l : Fin 16, ld (ix2 (⟨0, Nat.one_pos⟩ : Fin 1) l)
      = fI (ix2 (⟨4 * t2.val + 0, by omega⟩ : Fin 200) (⟨16 * bg.val + l.val, by have := l.isLt; omega⟩ : Fin 128)) := by
    intro l; rw [← hld]
    exact read_sI d L fI _ (4 * t2.val + 0) bg.val (by omega) hbg (k0_off5_eq t2 bg) _ l
  have hrowv : ∀ l : Fin 16, ((k0_pay2 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay1 ld) (broadcast S16 (BitVec.ofNat 32 n))) (ix1 l)).toNat
      = (fI (ix2 (⟨4 * t2.val + 0, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay2 v3 (0#32) (1#32) bg, addi (k0_pay1 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay2 v3 (0#32) (1#32) bg) (ix1 (x 0))).toNat < 128
      exact lt_of_eq_of_lt (hrowv (x 0)) (by omega)
    | ⟨1, _⟩ =>
      show ((addi (k0_pay1 ld) (broadcast S16 (BitVec.ofNat 32 n))) (ix1 (x 0))).toNat < 128
      exact lt_of_eq_of_lt (hcolv n hn (x 0)) (by omega)
  iapply (gather_step d L 0 inb_S4x128x128_S1x128x128_0_0_0 g _ _ (hchk 0 (by omega))) $$ HG; iintro HG
  iapply (gather_step d L 0 inb_S4x128x128_S1x128x128_0_0_0 g _ _ (hchk 1 (by omega))) $$ HG; iintro HG
  iapply (gather_step d L 0 inb_S4x128x128_S1x128x128_0_0_0 g _ _ (hchk 2 (by omega))) $$ HG; iintro HG
  iapply (gather_step d L 0 inb_S4x128x128_S1x128x128_0_0_0 g _ _ (hchk 3 (by omega))) $$ HG; iintro HG
  iapply (gather_step d L 0 inb_S4x128x128_S1x128x128_0_0_0 g _ _ (hchk 4 (by omega))) $$ HG; iintro HG
  iapply (gather_step d L 0 inb_S4x128x128_S1x128x128_0_0_0 g _ _ (hchk 5 (by omega))) $$ HG; iintro HG
  iapply (gather_step d L 0 inb_S4x128x128_S1x128x128_0_0_0 g _ _ (hchk 6 (by omega))) $$ HG; iintro HG
  iapply (gather_step d L 0 inb_S4x128x128_S1x128x128_0_0_0 g _ _ (hchk 7 (by omega))) $$ HG; iintro HG
  iapply (gather_step d L 0 inb_S4x128x128_S1x128x128_0_0_0 g _ _ (hchk 8 (by omega))) $$ HG; iintro HG
  iapply (gather_step d L 0 inb_S4x128x128_S1x128x128_0_0_0 g _ _ (hchk 9 (by omega))) $$ HG; iintro HG
  iapply (gather_step d L 0 inb_S4x128x128_S1x128x128_0_0_0 g _ _ (hchk 10 (by omega))) $$ HG; iintro HG
  iapply (gather_step d L 0 inb_S4x128x128_S1x128x128_0_0_0 g _ _ (hchk 11 (by omega))) $$ HG; iintro HG
  iapply (gather_step d L 0 inb_S4x128x128_S1x128x128_0_0_0 g _ _ (hchk 12 (by omega))) $$ HG; iintro HG
  iapply (gather_step d L 0 inb_S4x128x128_S1x128x128_0_0_0 g _ _ (hchk 13 (by omega))) $$ HG; iintro HG
  iapply (gather_step d L 0 inb_S4x128x128_S1x128x128_0_0_0 g _ _ (hchk 14 (by omega))) $$ HG; iintro HG
  iapply (gather_step d L 0 inb_S4x128x128_S1x128x128_0_0_0 g _ _ (hchk 15 (by omega))) $$ HG; iintro HG
  iapply (store_step d L 0 (by omega) inb_S2x32x128_S1x32x128_0_0_0 0 (by omega) inb_S4x128x128_S1x128x128_0_0_0 fI g ⟨4 * t2.val + 0, by omega⟩ bg.val hbg 0 (by omega) _ (k0_off6_eq bg) _ _ _ _ hrowv (hcolv 0 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 1 (by omega) _ (k0_off7_eq bg) _ _ _ _ hrowv (hcolv 1 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 2 (by omega) _ (k0_off8_eq bg) _ _ _ _ hrowv (hcolv 2 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 3 (by omega) _ (k0_off9_eq bg) _ _ _ _ hrowv (hcolv 3 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 4 (by omega) _ (k0_off10_eq bg) _ _ _ _ hrowv (hcolv 4 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 5 (by omega) _ (k0_off11_eq bg) _ _ _ _ hrowv (hcolv 5 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 6 (by omega) _ (k0_off12_eq bg) _ _ _ _ hrowv (hcolv 6 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 7 (by omega) _ (k0_off13_eq bg) _ _ _ _ hrowv (hcolv 7 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 8 (by omega) _ (k0_off14_eq bg) _ _ _ _ hrowv (hcolv 8 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 9 (by omega) _ (k0_off15_eq bg) _ _ _ _ hrowv (hcolv 9 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 10 (by omega) _ (k0_off16_eq bg) _ _ _ _ hrowv (hcolv 10 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 11 (by omega) _ (k0_off17_eq bg) _ _ _ _ hrowv (hcolv 11 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 12 (by omega) _ (k0_off18_eq bg) _ _ _ _ hrowv (hcolv 12 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 13 (by omega) _ (k0_off19_eq bg) _ _ _ _ hrowv (hcolv 13 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 14 (by omega) _ (k0_off20_eq bg) _ _ _ _ hrowv (hcolv 14 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 15 (by omega) _ (k0_off21_eq bg) _ _ _ _ hrowv (hcolv 15 (by omega)) o hJ) $$ HO; iintro %o %hJ HO
  iapply (gather_step d L 0 inb_S4x128x128_S1x128x128_0_0_0 g _ _ (hchk 16 (by omega))) $$ HG; iintro HG
  iapply (gather_step d L 0 inb_S4x128x128_S1x128x128_0_0_0 g _ _ (hchk 17 (by omega))) $$ HG; iintro HG
  iapply (gather_step d L 0 inb_S4x128x128_S1x128x128_0_0_0 g _ _ (hchk 18 (by omega))) $$ HG; iintro HG
  iapply (gather_step d L 0 inb_S4x128x128_S1x128x128_0_0_0 g _ _ (hchk 19 (by omega))) $$ HG; iintro HG
  iapply (gather_step d L 0 inb_S4x128x128_S1x128x128_0_0_0 g _ _ (hchk 20 (by omega))) $$ HG; iintro HG
  iapply (gather_step d L 0 inb_S4x128x128_S1x128x128_0_0_0 g _ _ (hchk 21 (by omega))) $$ HG; iintro HG
  iapply (gather_step d L 0 inb_S4x128x128_S1x128x128_0_0_0 g _ _ (hchk 22 (by omega))) $$ HG; iintro HG
  iapply (gather_step d L 0 inb_S4x128x128_S1x128x128_0_0_0 g _ _ (hchk 23 (by omega))) $$ HG; iintro HG
  iapply (gather_step d L 0 inb_S4x128x128_S1x128x128_0_0_0 g _ _ (hchk 24 (by omega))) $$ HG; iintro HG
  iapply (gather_step d L 0 inb_S4x128x128_S1x128x128_0_0_0 g _ _ (hchk 25 (by omega))) $$ HG; iintro HG
  iapply (gather_step d L 0 inb_S4x128x128_S1x128x128_0_0_0 g _ _ (hchk 26 (by omega))) $$ HG; iintro HG
  iapply (gather_step d L 0 inb_S4x128x128_S1x128x128_0_0_0 g _ _ (hchk 27 (by omega))) $$ HG; iintro HG
  iapply (gather_step d L 0 inb_S4x128x128_S1x128x128_0_0_0 g _ _ (hchk 28 (by omega))) $$ HG; iintro HG
  iapply (gather_step d L 0 inb_S4x128x128_S1x128x128_0_0_0 g _ _ (hchk 29 (by omega))) $$ HG; iintro HG
  iapply (gather_step d L 0 inb_S4x128x128_S1x128x128_0_0_0 g _ _ (hchk 30 (by omega))) $$ HG; iintro HG
  iapply (gather_step d L 0 inb_S4x128x128_S1x128x128_0_0_0 g _ _ (hchk 31 (by omega))) $$ HG; iintro HG
  iapply (store_step d L 0 (by omega) inb_S2x32x128_S1x32x128_0_0_0 0 (by omega) inb_S4x128x128_S1x128x128_0_0_0 fI g ⟨4 * t2.val + 0, by omega⟩ bg.val hbg 16 (by omega) _ (k0_off22_eq bg) _ _ _ _ hrowv (hcolv 16 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 17 (by omega) _ (k0_off23_eq bg) _ _ _ _ hrowv (hcolv 17 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 18 (by omega) _ (k0_off24_eq bg) _ _ _ _ hrowv (hcolv 18 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 19 (by omega) _ (k0_off25_eq bg) _ _ _ _ hrowv (hcolv 19 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 20 (by omega) _ (k0_off26_eq bg) _ _ _ _ hrowv (hcolv 20 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 21 (by omega) _ (k0_off27_eq bg) _ _ _ _ hrowv (hcolv 21 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 22 (by omega) _ (k0_off28_eq bg) _ _ _ _ hrowv (hcolv 22 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 23 (by omega) _ (k0_off29_eq bg) _ _ _ _ hrowv (hcolv 23 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 24 (by omega) _ (k0_off30_eq bg) _ _ _ _ hrowv (hcolv 24 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 25 (by omega) _ (k0_off31_eq bg) _ _ _ _ hrowv (hcolv 25 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 26 (by omega) _ (k0_off32_eq bg) _ _ _ _ hrowv (hcolv 26 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 27 (by omega) _ (k0_off33_eq bg) _ _ _ _ hrowv (hcolv 27 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 28 (by omega) _ (k0_off34_eq bg) _ _ _ _ hrowv (hcolv 28 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 29 (by omega) _ (k0_off35_eq bg) _ _ _ _ hrowv (hcolv 29 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 30 (by omega) _ (k0_off36_eq bg) _ _ _ _ hrowv (hcolv 30 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 31 (by omega) _ (k0_off37_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_0 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 0 inb_S4x128x128_S1x128x128_0_0_0).view.set]{fullShare} g)
      ∗ ((sO).view.loc (thr d L) ↦[(slotOn 0 inb_S2x32x128_S1x32x128_0_0_0).view.set]{fullShare} o))
    ⊢ extractInv_0 (F := F) d L t2 fI g 0 () :=
  extract_intro d L 0 (by omega) inb_S4x128x128_S1x128x128_0_0_0 0 (by omega) inb_S2x32x128_S1x32x128_0_0_0 (rowIx t2 0 (by omega)) fI g o

theorem extract_elim_0 (d : Dev nD) (L : grid0.Coords) (t2 : Fin k0_t2_loop.trips)
    (fI : Buf (Elt F) ((thr d L).loc cc0_scratch0)) (g : Buf (Elt F) ((thr d L).loc cc0_scratch2)) :
    extractInv_0 (F := F) d L t2 fI g 8 ()
    ⊢ iprop(((sI).view.loc (thr d L) ↦{fullShare} fI)
      ∗ ((sG).view.loc (thr d L) ↦[(slotGn 0 inb_S4x128x128_S1x128x128_0_0_0).view.set]{fullShare} g)
      ∗ ∃ o' : Buf (Elt F) ((thr d L).loc cc0_scratch3), ((sO).view.loc (thr d L) ↦[(slotOn 0 inb_S2x32x128_S1x32x128_0_0_0).view.set]{fullShare} o')
          ∗ ⌜∀ (dd : Fin 32) (col : Fin 128), o' (ix3 (0 : Fin 2) dd col)
              = g (ix3 (0 : Fin 4) col ⟨(fI (ix2 (rowIx t2 0 (by omega)) col)).toNat % 4 * 32 + dd.val, by have := dd.isLt; omega⟩)⌝) :=
  extract_elim d L 0 (by omega) inb_S4x128x128_S1x128x128_0_0_0 0 (by omega) inb_S2x32x128_S1x32x128_0_0_0 (rowIx t2 0 (by omega)) fI g

end Cert.Proof.KernelIdeal

end
-- ==== Proof.KernelIdealExtract1.lean ====
/-
  The extract loop of row `4 t2 + 1` of the index block: from slot 1 of the gathered rows into slot 1 of the result rows.
  One trip is proved operation by operation with the shared steps; the invariant says which columns are done.
-/
import proofs.«206503_g81295140979383_cont_9to1c4b_414_34_alg».proof.Proof.KernelIdealExtractLib

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 1` of the index block, slot 1 of the gathered rows, slot 1 of the result rows. -/
def extractInv_1 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 1 (by omega) inb_S4x128x128_S1x128x128_1_0_0 1 (by omega) inb_S2x32x128_S1x32x128_1_0_0 (rowIx t2 1 (by omega)) fI g

set_option maxHeartbeats 8000000 in
/-- Trip `bg` of the extract loop of row `4 t2 + 1`: sixteen more columns of every row of the result slot. -/
theorem extract_region_1 (d : Dev nD) (L : grid0.Coords) (v3 : IVec S16 32) (hv3 : ∀ l : Fin 16, v3 (ix1 l) = BitVec.ofNat 32 l.val)
    (t2 : Fin k0_t2_loop.trips) (v39 v64 : BitVec 32)
    (fI : Buf (Elt F) ((thr d L).loc cc0_scratch0)) (g : Buf (Elt F) ((thr d L).loc cc0_scratch2)) :
    ∀ (bg : Fin k0_t4_loop.trips) (acc : Unit),
      extractInv_1 (F := F) d L t2 fI g bg.val acc
      ⊢ wp frame (wpE (defs₀ (F := F)) 𝒱₀ (thr d L) none) Set.univ (k0_t4_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 t2 v39 v64 bg acc)
          (extractInv_1 (F := F) d L t2 fI g (bg.val + 1)) := by
  intro bg acc
  have ht2 : t2.val < 50 := t2_lt t2
  have hbg : bg.val < 8 := Nat.lt_of_lt_of_le bg.isLt k0_t4_abs.2.1
  simp only [k0_t4_body, k0_part20_eq_skeleton]
  unfold k0_part20_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part11_skel k0_part12_skel k0_part13_skel k0_part14_skel k0_part15_skel k0_part16_skel k0_part17_skel k0_part18_skel k0_part19_skel
  simp only [Prog.bind_assoc, Prog.pure_eq_ret, Prog.bind_ret, Prog.bind_lift, SparseCore.vectorLoadIdx_bind (thr d L), Prog.bind_op]
  unfold extractInv_1 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off41 t2 bg) S1x16.size (k0_off41_inb t2 bg)).toLoadRect fI = ld
  have hldv : ∀ l : Fin 16, ld (ix2 (⟨0, Nat.one_pos⟩ : Fin 1) l)
      = fI (ix2 (⟨4 * t2.val + 1, by omega⟩ : Fin 200) (⟨16 * bg.val + l.val, by have := l.isLt; omega⟩ : Fin 128)) := by
    intro l; rw [← hld]
    exact read_sI d L fI _ (4 * t2.val + 1) bg.val (by omega) hbg (k0_off41_eq t2 bg) _ l
  have hrowv : ∀ l : Fin 16, ((k0_pay36 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay35 ld) (broadcast S16 (BitVec.ofNat 32 n))) (ix1 l)).toNat
      = (fI (ix2 (⟨4 * t2.val + 1, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay36 v3 (0#32) (1#32) bg, addi (k0_pay35 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay36 v3 (0#32) (1#32) bg) (ix1 (x 0))).toNat < 128
      exact lt_of_eq_of_lt (hrowv (x 0)) (by omega)
    | ⟨1, _⟩ =>
      show ((addi (k0_pay35 ld) (broadcast S16 (BitVec.ofNat 32 n))) (ix1 (x 0))).toNat < 128
      exact lt_of_eq_of_lt (hcolv n hn (x 0)) (by omega)
  iapply (gather_step d L 1 inb_S4x128x128_S1x128x128_1_0_0 g _ _ (hchk 0 (by omega))) $$ HG; iintro HG
  iapply (gather_step d L 1 inb_S4x128x128_S1x128x128_1_0_0 g _ _ (hchk 1 (by omega))) $$ HG; iintro HG
  iapply (gather_step d L 1 inb_S4x128x128_S1x128x128_1_0_0 g _ _ (hchk 2 (by omega))) $$ HG; iintro HG
  iapply (gather_step d L 1 inb_S4x128x128_S1x128x128_1_0_0 g _ _ (hchk 3 (by omega))) $$ HG; iintro HG
  iapply (gather_step d L 1 inb_S4x128x128_S1x128x128_1_0_0 g _ _ (hchk 4 (by omega))) $$ HG; iintro HG
  iapply (gather_step d L 1 inb_S4x128x128_S1x128x128_1_0_0 g _ _ (hchk 5 (by omega))) $$ HG; iintro HG
  iapply (gather_step d L 1 inb_S4x128x128_S1x128x128_1_0_0 g _ _ (hchk 6 (by omega))) $$ HG; iintro HG
  iapply (gather_step d L 1 inb_S4x128x128_S1x128x128_1_0_0 g _ _ (hchk 7 (by omega))) $$ HG; iintro HG
  iapply (gather_step d L 1 inb_S4x128x128_S1x128x128_1_0_0 g _ _ (hchk 8 (by omega))) $$ HG; iintro HG
  iapply (gather_step d L 1 inb_S4x128x128_S1x128x128_1_0_0 g _ _ (hchk 9 (by omega))) $$ HG; iintro HG
  iapply (gather_step d L 1 inb_S4x128x128_S1x128x128_1_0_0 g _ _ (hchk 10 (by omega))) $$ HG; iintro HG
  iapply (gather_step d L 1 inb_S4x128x128_S1x128x128_1_0_0 g _ _ (hchk 11 (by omega))) $$ HG; iintro HG
  iapply (gather_step d L 1 inb_S4x128x128_S1x128x128_1_0_0 g _ _ (hchk 12 (by omega))) $$ HG; iintro HG
  iapply (gather_step d L 1 inb_S4x128x128_S1x128x128_1_0_0 g _ _ (hchk 13 (by omega))) $$ HG; iintro HG
  iapply (gather_step d L 1 inb_S4x128x128_S1x128x128_1_0_0 g _ _ (hchk 14 (by omega))) $$ HG; iintro HG
  iapply (gather_step d L 1 inb_S4x128x128_S1x128x128_1_0_0 g _ _ (hchk 15 (by omega))) $$ HG; iintro HG
  iapply (store_step d L 1 (by omega) inb_S2x32x128_S1x32x128_1_0_0 1 (by omega) inb_S4x128x128_S1x128x128_1_0_0 fI g ⟨4 * t2.val + 1, by omega⟩ bg.val hbg 0 (by omega) _ (k0_off42_eq bg) _ _ _ _ hrowv (hcolv 0 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 1 (by omega) _ (k0_off43_eq bg) _ _ _ _ hrowv (hcolv 1 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 2 (by omega) _ (k0_off44_eq bg) _ _ _ _ hrowv (hcolv 2 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 3 (by omega) _ (k0_off45_eq bg) _ _ _ _ hrowv (hcolv 3 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 4 (by omega) _ (k0_off46_eq bg) _ _ _ _ hrowv (hcolv 4 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 5 (by omega) _ (k0_off47_eq bg) _ _ _ _ hrowv (hcolv 5 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 6 (by omega) _ (k0_off48_eq bg) _ _ _ _ hrowv (hcolv 6 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 7 (by omega) _ (k0_off49_eq bg) _ _ _ _ hrowv (hcolv 7 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 8 (by omega) _ (k0_off50_eq bg) _ _ _ _ hrowv (hcolv 8 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 9 (by omega) _ (k0_off51_eq bg) _ _ _ _ hrowv (hcolv 9 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 10 (by omega) _ (k0_off52_eq bg) _ _ _ _ hrowv (hcolv 10 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 11 (by omega) _ (k0_off53_eq bg) _ _ _ _ hrowv (hcolv 11 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 12 (by omega) _ (k0_off54_eq bg) _ _ _ _ hrowv (hcolv 12 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 13 (by omega) _ (k0_off55_eq bg) _ _ _ _ hrowv (hcolv 13 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 14 (by omega) _ (k0_off56_eq bg) _ _ _ _ hrowv (hcolv 14 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 15 (by omega) _ (k0_off57_eq bg) _ _ _ _ hrowv (hcolv 15 (by omega)) o hJ) $$ HO; iintro %o %hJ HO
  iapply (gather_step d L 1 inb_S4x128x128_S1x128x128_1_0_0 g _ _ (hchk 16 (by omega))) $$ HG; iintro HG
  iapply (gather_step d L 1 inb_S4x128x128_S1x128x128_1_0_0 g _ _ (hchk 17 (by omega))) $$ HG; iintro HG
  iapply (gather_step d L 1 inb_S4x128x128_S1x128x128_1_0_0 g _ _ (hchk 18 (by omega))) $$ HG; iintro HG
  iapply (gather_step d L 1 inb_S4x128x128_S1x128x128_1_0_0 g _ _ (hchk 19 (by omega))) $$ HG; iintro HG
  iapply (gather_step d L 1 inb_S4x128x128_S1x128x128_1_0_0 g _ _ (hchk 20 (by omega))) $$ HG; iintro HG
  iapply (gather_step d L 1 inb_S4x128x128_S1x128x128_1_0_0 g _ _ (hchk 21 (by omega))) $$ HG; iintro HG
  iapply (gather_step d L 1 inb_S4x128x128_S1x128x128_1_0_0 g _ _ (hchk 22 (by omega))) $$ HG; iintro HG
  iapply (gather_step d L 1 inb_S4x128x128_S1x128x128_1_0_0 g _ _ (hchk 23 (by omega))) $$ HG; iintro HG
  iapply (gather_step d L 1 inb_S4x128x128_S1x128x128_1_0_0 g _ _ (hchk 24 (by omega))) $$ HG; iintro HG
  iapply (gather_step d L 1 inb_S4x128x128_S1x128x128_1_0_0 g _ _ (hchk 25 (by omega))) $$ HG; iintro HG
  iapply (gather_step d L 1 inb_S4x128x128_S1x128x128_1_0_0 g _ _ (hchk 26 (by omega))) $$ HG; iintro HG
  iapply (gather_step d L 1 inb_S4x128x128_S1x128x128_1_0_0 g _ _ (hchk 27 (by omega))) $$ HG; iintro HG
  iapply (gather_step d L 1 inb_S4x128x128_S1x128x128_1_0_0 g _ _ (hchk 28 (by omega))) $$ HG; iintro HG
  iapply (gather_step d L 1 inb_S4x128x128_S1x128x128_1_0_0 g _ _ (hchk 29 (by omega))) $$ HG; iintro HG
  iapply (gather_step d L 1 inb_S4x128x128_S1x128x128_1_0_0 g _ _ (hchk 30 (by omega))) $$ HG; iintro HG
  iapply (gather_step d L 1 inb_S4x128x128_S1x128x128_1_0_0 g _ _ (hchk 31 (by omega))) $$ HG; iintro HG
  iapply (store_step d L 1 (by omega) inb_S2x32x128_S1x32x128_1_0_0 1 (by omega) inb_S4x128x128_S1x128x128_1_0_0 fI g ⟨4 * t2.val + 1, by omega⟩ bg.val hbg 16 (by omega) _ (k0_off58_eq bg) _ _ _ _ hrowv (hcolv 16 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 17 (by omega) _ (k0_off59_eq bg) _ _ _ _ hrowv (hcolv 17 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 18 (by omega) _ (k0_off60_eq bg) _ _ _ _ hrowv (hcolv 18 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 19 (by omega) _ (k0_off61_eq bg) _ _ _ _ hrowv (hcolv 19 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 20 (by omega) _ (k0_off62_eq bg) _ _ _ _ hrowv (hcolv 20 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 21 (by omega) _ (k0_off63_eq bg) _ _ _ _ hrowv (hcolv 21 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 22 (by omega) _ (k0_off64_eq bg) _ _ _ _ hrowv (hcolv 22 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 23 (by omega) _ (k0_off65_eq bg) _ _ _ _ hrowv (hcolv 23 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 24 (by omega) _ (k0_off66_eq bg) _ _ _ _ hrowv (hcolv 24 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 25 (by omega) _ (k0_off67_eq bg) _ _ _ _ hrowv (hcolv 25 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 26 (by omega) _ (k0_off68_eq bg) _ _ _ _ hrowv (hcolv 26 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 27 (by omega) _ (k0_off69_eq bg) _ _ _ _ hrowv (hcolv 27 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 28 (by omega) _ (k0_off70_eq bg) _ _ _ _ hrowv (hcolv 28 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 29 (by omega) _ (k0_off71_eq bg) _ _ _ _ hrowv (hcolv 29 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 30 (by omega) _ (k0_off72_eq bg) _ _ _ _ hrowv (hcolv 30 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 31 (by omega) _ (k0_off73_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_1 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 1 inb_S4x128x128_S1x128x128_1_0_0).view.set]{fullShare} g)
      ∗ ((sO).view.loc (thr d L) ↦[(slotOn 1 inb_S2x32x128_S1x32x128_1_0_0).view.set]{fullShare} o))
    ⊢ extractInv_1 (F := F) d L t2 fI g 0 () :=
  extract_intro d L 1 (by omega) inb_S4x128x128_S1x128x128_1_0_0 1 (by omega) inb_S2x32x128_S1x32x128_1_0_0 (rowIx t2 1 (by omega)) fI g o

theorem extract_elim_1 (d : Dev nD) (L : grid0.Coords) (t2 : Fin k0_t2_loop.trips)
    (fI : Buf (Elt F) ((thr d L).loc cc0_scratch0)) (g : Buf (Elt F) ((thr d L).loc cc0_scratch2)) :
    extractInv_1 (F := F) d L t2 fI g 8 ()
    ⊢ iprop(((sI).view.loc (thr d L) ↦{fullShare} fI)
      ∗ ((sG).view.loc (thr d L) ↦[(slotGn 1 inb_S4x128x128_S1x128x128_1_0_0).view.set]{fullShare} g)
      ∗ ∃ o' : Buf (Elt F) ((thr d L).loc cc0_scratch3), ((sO).view.loc (thr d L) ↦[(slotOn 1 inb_S2x32x128_S1x32x128_1_0_0).view.set]{fullShare} o')
          ∗ ⌜∀ (dd : Fin 32) (col : Fin 128), o' (ix3 (1 : Fin 2) dd col)
              = g (ix3 (1 : Fin 4) col ⟨(fI (ix2 (rowIx t2 1 (by omega)) col)).toNat % 4 * 32 + dd.val, by have := dd.isLt; omega⟩)⌝) :=
  extract_elim d L 1 (by omega) inb_S4x128x128_S1x128x128_1_0_0 1 (by omega) inb_S2x32x128_S1x32x128_1_0_0 (rowIx t2 1 (by omega)) fI g

end Cert.Proof.KernelIdeal

end
-- ==== Proof.KernelIdealExtract2.lean ====
/-
  The extract loop of row `4 t2 + 2` of the index block: from slot 2 of the gathered rows into slot 0 of the result rows.
  One trip is proved operation by operation with the shared steps; the invariant says which columns are done.
-/
import proofs.«206503_g81295140979383_cont_9to1c4b_414_34_alg».proof.Proof.KernelIdealExtractLib

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 2` of the index block, slot 2 of the gathered rows, slot 0 of the result rows. -/
def extractInv_2 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 2 (by omega) inb_S4x128x128_S1x128x128_2_0_0 0 (by omega) inb_S2x32x128_S1x32x128_0_0_0 (rowIx t2 2 (by omega)) fI g

set_option maxHeartbeats 8000000 in
/-- Trip `bg` of the extract loop of row `4 t2 + 2`: sixteen more columns of every row of the result slot. -/
theorem extract_region_2 (d : Dev nD) (L : grid0.Coords) (v3 : IVec S16 32) (hv3 : ∀ l : Fin 16, v3 (ix1 l) = BitVec.ofNat 32 l.val)
    (t2 : Fin k0_t2_loop.trips) (v39 v88 c3 : BitVec 32)
    (fI : Buf (Elt F) ((thr d L).loc cc0_scratch0)) (g : Buf (Elt F) ((thr d L).loc cc0_scratch2)) :
    ∀ (bg : Fin k0_t5_loop.trips) (acc : Unit),
      extractInv_2 (F := F) d L t2 fI g bg.val acc
      ⊢ wp frame (wpE (defs₀ (F := F)) 𝒱₀ (thr d L) none) Set.univ (k0_t5_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 t2 v39 v88 c3 bg acc)
          (extractInv_2 (F := F) d L t2 fI g (bg.val + 1)) := by
  intro bg acc
  have ht2 : t2.val < 50 := t2_lt t2
  have hbg : bg.val < 8 := Nat.lt_of_lt_of_le bg.isLt k0_t5_abs.2.1
  simp only [k0_t5_body, k0_part30_eq_skeleton]
  unfold k0_part30_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part21_skel k0_part22_skel k0_part23_skel k0_part24_skel k0_part25_skel k0_part26_skel k0_part27_skel k0_part28_skel k0_part29_skel
  simp only [Prog.bind_assoc, Prog.pure_eq_ret, Prog.bind_ret, Prog.bind_lift, SparseCore.vectorLoadIdx_bind (thr d L), Prog.bind_op]
  unfold extractInv_2 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off76 t2 bg) S1x16.size (k0_off76_inb t2 bg)).toLoadRect fI = ld
  have hldv : ∀ l : Fin 16, ld (ix2 (⟨0, Nat.one_pos⟩ : Fin 1) l)
      = fI (ix2 (⟨4 * t2.val + 2, by omega⟩ : Fin 200) (⟨16 * bg.val + l.val, by have := l.isLt; omega⟩ : Fin 128)) := by
    intro l; rw [← hld]
    exact read_sI d L fI _ (4 * t2.val + 2) bg.val (by omega) hbg (k0_off76_eq t2 bg) _ l
  have hrowv : ∀ l : Fin 16, ((k0_pay70 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay69 ld) (broadcast S16 (BitVec.ofNat 32 n))) (ix1 l)).toNat
      = (fI (ix2 (⟨4 * t2.val + 2, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay70 v3 (0#32) (1#32) bg, addi (k0_pay69 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay70 v3 (0#32) (1#32) bg) (ix1 (x 0))).toNat < 128
      exact lt_of_eq_of_lt (hrowv (x 0)) (by omega)
    | ⟨1, _⟩ =>
      show ((addi (k0_pay69 ld) (broadcast S16 (BitVec.ofNat 32 n))) (ix1 (x 0))).toNat < 128
      exact lt_of_eq_of_lt (hcolv n hn (x 0)) (by omega)
  iapply (gather_step d L 2 inb_S4x128x128_S1x128x128_2_0_0 g _ _ (hchk 0 (by omega))) $$ HG; iintro HG
  iapply (gather_step d L 2 inb_S4x128x128_S1x128x128_2_0_0 g _ _ (hchk 1 (by omega))) $$ HG; iintro HG
  iapply (gather_step d L 2 inb_S4x128x128_S1x128x128_2_0_0 g _ _ (hchk 2 (by omega))) $$ HG; iintro HG
  iapply (gather_step d L 2 inb_S4x128x128_S1x128x128_2_0_0 g _ _ (hchk 3 (by omega))) $$ HG; iintro HG
  iapply (gather_step d L 2 inb_S4x128x128_S1x128x128_2_0_0 g _ _ (hchk 4 (by omega))) $$ HG; iintro HG
  iapply (gather_step d L 2 inb_S4x128x128_S1x128x128_2_0_0 g _ _ (hchk 5 (by omega))) $$ HG; iintro HG
  iapply (gather_step d L 2 inb_S4x128x128_S1x128x128_2_0_0 g _ _ (hchk 6 (by omega))) $$ HG; iintro HG
  iapply (gather_step d L 2 inb_S4x128x128_S1x128x128_2_0_0 g _ _ (hchk 7 (by omega))) $$ HG; iintro HG
  iapply (gather_step d L 2 inb_S4x128x128_S1x128x128_2_0_0 g _ _ (hchk 8 (by omega))) $$ HG; iintro HG
  iapply (gather_step d L 2 inb_S4x128x128_S1x128x128_2_0_0 g _ _ (hchk 9 (by omega))) $$ HG; iintro HG
  iapply (gather_step d L 2 inb_S4x128x128_S1x128x128_2_0_0 g _ _ (hchk 10 (by omega))) $$ HG; iintro HG
  iapply (gather_step d L 2 inb_S4x128x128_S1x128x128_2_0_0 g _ _ (hchk 11 (by omega))) $$ HG; iintro HG
  iapply (gather_step d L 2 inb_S4x128x128_S1x128x128_2_0_0 g _ _ (hchk 12 (by omega))) $$ HG; iintro HG
  iapply (gather_step d L 2 inb_S4x128x128_S1x128x128_2_0_0 g _ _ (hchk 13 (by omega))) $$ HG; iintro HG
  iapply (gather_step d L 2 inb_S4x128x128_S1x128x128_2_0_0 g _ _ (hchk 14 (by omega))) $$ HG; iintro HG
  iapply (gather_step d L 2 inb_S4x128x128_S1x128x128_2_0_0 g _ _ (hchk 15 (by omega))) $$ HG; iintro HG
  iapply (store_step d L 0 (by omega) inb_S2x32x128_S1x32x128_0_0_0 2 (by omega) inb_S4x128x128_S1x128x128_2_0_0 fI g ⟨4 * t2.val + 2, by omega⟩ bg.val hbg 0 (by omega) _ (k0_off77_eq bg) _ _ _ _ hrowv (hcolv 0 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 1 (by omega) _ (k0_off78_eq bg) _ _ _ _ hrowv (hcolv 1 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 2 (by omega) _ (k0_off79_eq bg) _ _ _ _ hrowv (hcolv 2 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 3 (by omega) _ (k0_off80_eq bg) _ _ _ _ hrowv (hcolv 3 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 4 (by omega) _ (k0_off81_eq bg) _ _ _ _ hrowv (hcolv 4 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 5 (by omega) _ (k0_off82_eq bg) _ _ _ _ hrowv (hcolv 5 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 6 (by omega) _ (k0_off83_eq bg) _ _ _ _ hrowv (hcolv 6 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 7 (by omega) _ (k0_off84_eq bg) _ _ _ _ hrowv (hcolv 7 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 8 (by omega) _ (k0_off85_eq bg) _ _ _ _ hrowv (hcolv 8 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 9 (by omega) _ (k0_off86_eq bg) _ _ _ _ hrowv (hcolv 9 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 10 (by omega) _ (k0_off87_eq bg) _ _ _ _ hrowv (hcolv 10 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 11 (by omega) _ (k0_off88_eq bg) _ _ _ _ hrowv (hcolv 11 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 12 (by omega) _ (k0_off89_eq bg) _ _ _ _ hrowv (hcolv 12 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 13 (by omega) _ (k0_off90_eq bg) _ _ _ _ hrowv (hcolv 13 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 14 (by omega) _ (k0_off91_eq bg) _ _ _ _ hrowv (hcolv 14 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 15 (by omega) _ (k0_off92_eq bg) _ _ _ _ hrowv (hcolv 15 (by omega)) o hJ) $$ HO; iintro %o %hJ HO
  iapply (gather_step d L 2 inb_S4x128x128_S1x128x128_2_0_0 g _ _ (hchk 16 (by omega))) $$ HG; iintro HG
  iapply (gather_step d L 2 inb_S4x128x128_S1x128x128_2_0_0 g _ _ (hchk 17 (by omega))) $$ HG; iintro HG
  iapply (gather_step d L 2 inb_S4x128x128_S1x128x128_2_0_0 g _ _ (hchk 18 (by omega))) $$ HG; iintro HG
  iapply (gather_step d L 2 inb_S4x128x128_S1x128x128_2_0_0 g _ _ (hchk 19 (by omega))) $$ HG; iintro HG
  iapply (gather_step d L 2 inb_S4x128x128_S1x128x128_2_0_0 g _ _ (hchk 20 (by omega))) $$ HG; iintro HG
  iapply (gather_step d L 2 inb_S4x128x128_S1x128x128_2_0_0 g _ _ (hchk 21 (by omega))) $$ HG; iintro HG
  iapply (gather_step d L 2 inb_S4x128x128_S1x128x128_2_0_0 g _ _ (hchk 22 (by omega))) $$ HG; iintro HG
  iapply (gather_step d L 2 inb_S4x128x128_S1x128x128_2_0_0 g _ _ (hchk 23 (by omega))) $$ HG; iintro HG
  iapply (gather_step d L 2 inb_S4x128x128_S1x128x128_2_0_0 g _ _ (hchk 24 (by omega))) $$ HG; iintro HG
  iapply (gather_step d L 2 inb_S4x128x128_S1x128x128_2_0_0 g _ _ (hchk 25 (by omega))) $$ HG; iintro HG
  iapply (gather_step d L 2 inb_S4x128x128_S1x128x128_2_0_0 g _ _ (hchk 26 (by omega))) $$ HG; iintro HG
  iapply (gather_step d L 2 inb_S4x128x128_S1x128x128_2_0_0 g _ _ (hchk 27 (by omega))) $$ HG; iintro HG
  iapply (gather_step d L 2 inb_S4x128x128_S1x128x128_2_0_0 g _ _ (hchk 28 (by omega))) $$ HG; iintro HG
  iapply (gather_step d L 2 inb_S4x128x128_S1x128x128_2_0_0 g _ _ (hchk 29 (by omega))) $$ HG; iintro HG
  iapply (gather_step d L 2 inb_S4x128x128_S1x128x128_2_0_0 g _ _ (hchk 30 (by omega))) $$ HG; iintro HG
  iapply (gather_step d L 2 inb_S4x128x128_S1x128x128_2_0_0 g _ _ (hchk 31 (by omega))) $$ HG; iintro HG
  iapply (store_step d L 0 (by omega) inb_S2x32x128_S1x32x128_0_0_0 2 (by omega) inb_S4x128x128_S1x128x128_2_0_0 fI g ⟨4 * t2.val + 2, by omega⟩ bg.val hbg 16 (by omega) _ (k0_off93_eq bg) _ _ _ _ hrowv (hcolv 16 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 17 (by omega) _ (k0_off94_eq bg) _ _ _ _ hrowv (hcolv 17 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 18 (by omega) _ (k0_off95_eq bg) _ _ _ _ hrowv (hcolv 18 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 19 (by omega) _ (k0_off96_eq bg) _ _ _ _ hrowv (hcolv 19 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 20 (by omega) _ (k0_off97_eq bg) _ _ _ _ hrowv (hcolv 20 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 21 (by omega) _ (k0_off98_eq bg) _ _ _ _ hrowv (hcolv 21 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 22 (by omega) _ (k0_off99_eq bg) _ _ _ _ hrowv (hcolv 22 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 23 (by omega) _ (k0_off100_eq bg) _ _ _ _ hrowv (hcolv 23 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 24 (by omega) _ (k0_off101_eq bg) _ _ _ _ hrowv (hcolv 24 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 25 (by omega) _ (k0_off102_eq bg) _ _ _ _ hrowv (hcolv 25 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 26 (by omega) _ (k0_off103_eq bg) _ _ _ _ hrowv (hcolv 26 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 27 (by omega) _ (k0_off104_eq bg) _ _ _ _ hrowv (hcolv 27 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 28 (by omega) _ (k0_off105_eq bg) _ _ _ _ hrowv (hcolv 28 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 29 (by omega) _ (k0_off106_eq bg) _ _ _ _ hrowv (hcolv 29 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 30 (by omega) _ (k0_off107_eq bg) _ _ _ _ hrowv (hcolv 30 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 31 (by omega) _ (k0_off108_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_2 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 2 inb_S4x128x128_S1x128x128_2_0_0).view.set]{fullShare} g)
      ∗ ((sO).view.loc (thr d L) ↦[(slotOn 0 inb_S2x32x128_S1x32x128_0_0_0).view.set]{fullShare} o))
    ⊢ extractInv_2 (F := F) d L t2 fI g 0 () :=
  extract_intro d L 2 (by omega) inb_S4x128x128_S1x128x128_2_0_0 0 (by omega) inb_S2x32x128_S1x32x128_0_0_0 (rowIx t2 2 (by omega)) fI g o

theorem extract_elim_2 (d : Dev nD) (L : grid0.Coords) (t2 : Fin k0_t2_loop.trips)
    (fI : Buf (Elt F) ((thr d L).loc cc0_scratch0)) (g : Buf (Elt F) ((thr d L).loc cc0_scratch2)) :
    extractInv_2 (F := F) d L t2 fI g 8 ()
    ⊢ iprop(((sI).view.loc (thr d L) ↦{fullShare} fI)
      ∗ ((sG).view.loc (thr d L) ↦[(slotGn 2 inb_S4x128x128_S1x128x128_2_0_0).view.set]{fullShare} g)
      ∗ ∃ o' : Buf (Elt F) ((thr d L).loc cc0_scratch3), ((sO).view.loc (thr d L) ↦[(slotOn 0 inb_S2x32x128_S1x32x128_0_0_0).view.set]{fullShare} o')
          ∗ ⌜∀ (dd : Fin 32) (col : Fin 128), o' (ix3 (0 : Fin 2) dd col)
              = g (ix3 (2 : Fin 4) col ⟨(fI (ix2 (rowIx t2 2 (by omega)) col)).toNat % 4 * 32 + dd.val, by have := dd.isLt; omega⟩)⌝) :=
  extract_elim d L 2 (by omega) inb_S4x128x128_S1x128x128_2_0_0 0 (by omega) inb_S2x32x128_S1x32x128_0_0_0 (rowIx t2 2 (by omega)) fI g

end Cert.Proof.KernelIdeal

end
-- ==== Proof.KernelIdealExtract3.lean ====
/-
  The extract loop of row `4 t2 + 3` of the index block: from slot 3 of the gathered rows into slot 1 of the result rows.
  One trip is proved operation by operation with the shared steps; the invariant says which columns are done.
-/
import proofs.«206503_g81295140979383_cont_9to1c4b_414_34_alg».proof.Proof.KernelIdealExtractLib

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 3` of the index block, slot 3 of the gathered rows, slot 1 of the result rows. -/
def extractInv_3 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 3 (by omega) inb_S4x128x128_S1x128x128_3_0_0 1 (by omega) inb_S2x32x128_S1x32x128_1_0_0 (rowIx t2 3 (by omega)) fI g

set_option maxHeartbeats 8000000 in
/-- Trip `bg` of the extract loop of row `4 t2 + 3`: sixteen more columns of every row of the result slot. -/
theorem extract_region_3 (d : Dev nD) (L : grid0.Coords) (v3 : IVec S16 32) (hv3 : ∀ l : Fin 16, v3 (ix1 l) = BitVec.ofNat 32 l.val)
    (t2 : Fin k0_t2_loop.trips) (v112 : BitVec 32)
    (fI : Buf (Elt F) ((thr d L).loc cc0_scratch0)) (g : Buf (Elt F) ((thr d L).loc cc0_scratch2)) :
    ∀ (bg : Fin k0_t6_loop.trips) (acc : Unit),
      extractInv_3 (F := F) d L t2 fI g bg.val acc
      ⊢ wp frame (wpE (defs₀ (F := F)) 𝒱₀ (thr d L) none) Set.univ (k0_t6_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 t2 v112 bg acc)
          (extractInv_3 (F := F) d L t2 fI g (bg.val + 1)) := by
  intro bg acc
  have ht2 : t2.val < 50 := t2_lt t2
  have hbg : bg.val < 8 := Nat.lt_of_lt_of_le bg.isLt k0_t6_abs.2.1
  simp only [k0_t6_body, k0_part40_eq_skeleton]
  unfold k0_part40_skel
  simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold k0_part31_skel k0_part32_skel k0_part33_skel k0_part34_skel k0_part35_skel k0_part36_skel k0_part37_skel k0_part38_skel k0_part39_skel
  simp only [Prog.bind_assoc, Prog.pure_eq_ret, Prog.bind_ret, Prog.bind_lift, SparseCore.vectorLoadIdx_bind (thr d L), Prog.bind_op]
  unfold extractInv_3 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off111 t2 bg) S1x16.size (k0_off111_inb t2 bg)).toLoadRect fI = ld
  have hldv : ∀ l : Fin 16, ld (ix2 (⟨0, Nat.one_pos⟩ : Fin 1) l)
      = fI (ix2 (⟨4 * t2.val + 3, by omega⟩ : Fin 200) (⟨16 * bg.val + l.val, by have := l.isLt; omega⟩ : Fin 128)) := by
    intro l; rw [← hld]
    exact read_sI d L fI _ (4 * t2.val + 3) bg.val (by omega) hbg (k0_off111_eq t2 bg) _ l
  have hrowv : ∀ l : Fin 16, ((k0_pay104 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay103 ld) (broadcast S16 (BitVec.ofNat 32 n))) (ix1 l)).toNat
      = (fI (ix2 (⟨4 * t2.val + 3, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay104 v3 (0#32) (1#32) bg, addi (k0_pay103 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay104 v3 (0#32) (1#32) bg) (ix1 (x 0))).toNat < 128
      exact lt_of_eq_of_lt (hrowv (x 0)) (by omega)
    | ⟨1, _⟩ =>
      show ((addi (k0_pay103 ld) (broadcast S16 (BitVec.ofNat 32 n))) (ix1 (x 0))).toNat < 128
      exact lt_of_eq_of_lt (hcolv n hn (x 0)) (by omega)
  iapply (gather_step d L 3 inb_S4x128x128_S1x128x128_3_0_0 g _ _ (hchk 0 (by omega))) $$ HG; iintro HG
  iapply (gather_step d L 3 inb_S4x128x128_S1x128x128_3_0_0 g _ _ (hchk 1 (by omega))) $$ HG; iintro HG
  iapply (gather_step d L 3 inb_S4x128x128_S1x128x128_3_0_0 g _ _ (hchk 2 (by omega))) $$ HG; iintro HG
  iapply (gather_step d L 3 inb_S4x128x128_S1x128x128_3_0_0 g _ _ (hchk 3 (by omega))) $$ HG; iintro HG
  iapply (gather_step d L 3 inb_S4x128x128_S1x128x128_3_0_0 g _ _ (hchk 4 (by omega))) $$ HG; iintro HG
  iapply (gather_step d L 3 inb_S4x128x128_S1x128x128_3_0_0 g _ _ (hchk 5 (by omega))) $$ HG; iintro HG
  iapply (gather_step d L 3 inb_S4x128x128_S1x128x128_3_0_0 g _ _ (hchk 6 (by omega))) $$ HG; iintro HG
  iapply (gather_step d L 3 inb_S4x128x128_S1x128x128_3_0_0 g _ _ (hchk 7 (by omega))) $$ HG; iintro HG
  iapply (gather_step d L 3 inb_S4x128x128_S1x128x128_3_0_0 g _ _ (hchk 8 (by omega))) $$ HG; iintro HG
  iapply (gather_step d L 3 inb_S4x128x128_S1x128x128_3_0_0 g _ _ (hchk 9 (by omega))) $$ HG; iintro HG
  iapply (gather_step d L 3 inb_S4x128x128_S1x128x128_3_0_0 g _ _ (hchk 10 (by omega))) $$ HG; iintro HG
  iapply (gather_step d L 3 inb_S4x128x128_S1x128x128_3_0_0 g _ _ (hchk 11 (by omega))) $$ HG; iintro HG
  iapply (gather_step d L 3 inb_S4x128x128_S1x128x128_3_0_0 g _ _ (hchk 12 (by omega))) $$ HG; iintro HG
  iapply (gather_step d L 3 inb_S4x128x128_S1x128x128_3_0_0 g _ _ (hchk 13 (by omega))) $$ HG; iintro HG
  iapply (gather_step d L 3 inb_S4x128x128_S1x128x128_3_0_0 g _ _ (hchk 14 (by omega))) $$ HG; iintro HG
  iapply (gather_step d L 3 inb_S4x128x128_S1x128x128_3_0_0 g _ _ (hchk 15 (by omega))) $$ HG; iintro HG
  iapply (store_step d L 1 (by omega) inb_S2x32x128_S1x32x128_1_0_0 3 (by omega) inb_S4x128x128_S1x128x128_3_0_0 fI g ⟨4 * t2.val + 3, by omega⟩ bg.val hbg 0 (by omega) _ (k0_off112_eq bg) _ _ _ _ hrowv (hcolv 0 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 1 (by omega) _ (k0_off113_eq bg) _ _ _ _ hrowv (hcolv 1 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 2 (by omega) _ (k0_off114_eq bg) _ _ _ _ hrowv (hcolv 2 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 3 (by omega) _ (k0_off115_eq bg) _ _ _ _ hrowv (hcolv 3 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 4 (by omega) _ (k0_off116_eq bg) _ _ _ _ hrowv (hcolv 4 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 5 (by omega) _ (k0_off117_eq bg) _ _ _ _ hrowv (hcolv 5 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 6 (by omega) _ (k0_off118_eq bg) _ _ _ _ hrowv (hcolv 6 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 7 (by omega) _ (k0_off119_eq bg) _ _ _ _ hrowv (hcolv 7 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 8 (by omega) _ (k0_off120_eq bg) _ _ _ _ hrowv (hcolv 8 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 9 (by omega) _ (k0_off121_eq bg) _ _ _ _ hrowv (hcolv 9 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 10 (by omega) _ (k0_off122_eq bg) _ _ _ _ hrowv (hcolv 10 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 11 (by omega) _ (k0_off123_eq bg) _ _ _ _ hrowv (hcolv 11 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 12 (by omega) _ (k0_off124_eq bg) _ _ _ _ hrowv (hcolv 12 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 13 (by omega) _ (k0_off125_eq bg) _ _ _ _ hrowv (hcolv 13 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 14 (by omega) _ (k0_off126_eq bg) _ _ _ _ hrowv (hcolv 14 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 15 (by omega) _ (k0_off127_eq bg) _ _ _ _ hrowv (hcolv 15 (by omega)) o hJ) $$ HO; iintro %o %hJ HO
  iapply (gather_step d L 3 inb_S4x128x128_S1x128x128_3_0_0 g _ _ (hchk 16 (by omega))) $$ HG; iintro HG
  iapply (gather_step d L 3 inb_S4x128x128_S1x128x128_3_0_0 g _ _ (hchk 17 (by omega))) $$ HG; iintro HG
  iapply (gather_step d L 3 inb_S4x128x128_S1x128x128_3_0_0 g _ _ (hchk 18 (by omega))) $$ HG; iintro HG
  iapply (gather_step d L 3 inb_S4x128x128_S1x128x128_3_0_0 g _ _ (hchk 19 (by omega))) $$ HG; iintro HG
  iapply (gather_step d L 3 inb_S4x128x128_S1x128x128_3_0_0 g _ _ (hchk 20 (by omega))) $$ HG; iintro HG
  iapply (gather_step d L 3 inb_S4x128x128_S1x128x128_3_0_0 g _ _ (hchk 21 (by omega))) $$ HG; iintro HG
  iapply (gather_step d L 3 inb_S4x128x128_S1x128x128_3_0_0 g _ _ (hchk 22 (by omega))) $$ HG; iintro HG
  iapply (gather_step d L 3 inb_S4x128x128_S1x128x128_3_0_0 g _ _ (hchk 23 (by omega))) $$ HG; iintro HG
  iapply (gather_step d L 3 inb_S4x128x128_S1x128x128_3_0_0 g _ _ (hchk 24 (by omega))) $$ HG; iintro HG
  iapply (gather_step d L 3 inb_S4x128x128_S1x128x128_3_0_0 g _ _ (hchk 25 (by omega))) $$ HG; iintro HG
  iapply (gather_step d L 3 inb_S4x128x128_S1x128x128_3_0_0 g _ _ (hchk 26 (by omega))) $$ HG; iintro HG
  iapply (gather_step d L 3 inb_S4x128x128_S1x128x128_3_0_0 g _ _ (hchk 27 (by omega))) $$ HG; iintro HG
  iapply (gather_step d L 3 inb_S4x128x128_S1x128x128_3_0_0 g _ _ (hchk 28 (by omega))) $$ HG; iintro HG
  iapply (gather_step d L 3 inb_S4x128x128_S1x128x128_3_0_0 g _ _ (hchk 29 (by omega))) $$ HG; iintro HG
  iapply (gather_step d L 3 inb_S4x128x128_S1x128x128_3_0_0 g _ _ (hchk 30 (by omega))) $$ HG; iintro HG
  iapply (gather_step d L 3 inb_S4x128x128_S1x128x128_3_0_0 g _ _ (hchk 31 (by omega))) $$ HG; iintro HG
  iapply (store_step d L 1 (by omega) inb_S2x32x128_S1x32x128_1_0_0 3 (by omega) inb_S4x128x128_S1x128x128_3_0_0 fI g ⟨4 * t2.val + 3, by omega⟩ bg.val hbg 16 (by omega) _ (k0_off128_eq bg) _ _ _ _ hrowv (hcolv 16 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 17 (by omega) _ (k0_off129_eq bg) _ _ _ _ hrowv (hcolv 17 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 18 (by omega) _ (k0_off130_eq bg) _ _ _ _ hrowv (hcolv 18 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 19 (by omega) _ (k0_off131_eq bg) _ _ _ _ hrowv (hcolv 19 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 20 (by omega) _ (k0_off132_eq bg) _ _ _ _ hrowv (hcolv 20 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 21 (by omega) _ (k0_off133_eq bg) _ _ _ _ hrowv (hcolv 21 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 22 (by omega) _ (k0_off134_eq bg) _ _ _ _ hrowv (hcolv 22 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 23 (by omega) _ (k0_off135_eq bg) _ _ _ _ hrowv (hcolv 23 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 24 (by omega) _ (k0_off136_eq bg) _ _ _ _ hrowv (hcolv 24 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 25 (by omega) _ (k0_off137_eq bg) _ _ _ _ hrowv (hcolv 25 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 26 (by omega) _ (k0_off138_eq bg) _ _ _ _ hrowv (hcolv 26 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 27 (by omega) _ (k0_off139_eq bg) _ _ _ _ hrowv (hcolv 27 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 28 (by omega) _ (k0_off140_eq bg) _ _ _ _ hrowv (hcolv 28 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 29 (by omega) _ (k0_off141_eq bg) _ _ _ _ hrowv (hcolv 29 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 30 (by omega) _ (k0_off142_eq bg) _ _ _ _ hrowv (hcolv 30 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 31 (by omega) _ (k0_off143_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_3 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 3 inb_S4x128x128_S1x128x128_3_0_0).view.set]{fullShare} g)
      ∗ ((sO).view.loc (thr d L) ↦[(slotOn 1 inb_S2x32x128_S1x32x128_1_0_0).view.set]{fullShare} o))
    ⊢ extractInv_3 (F := F) d L t2 fI g 0 () :=
  extract_intro d L 3 (by omega) inb_S4x128x128_S1x128x128_3_0_0 1 (by omega) inb_S2x32x128_S1x32x128_1_0_0 (rowIx t2 3 (by omega)) fI g o

theorem extract_elim_3 (d : Dev nD) (L : grid0.Coords) (t2 : Fin k0_t2_loop.trips)
    (fI : Buf (Elt F) ((thr d L).loc cc0_scratch0)) (g : Buf (Elt F) ((thr d L).loc cc0_scratch2)) :
    extractInv_3 (F := F) d L t2 fI g 8 ()
    ⊢ iprop(((sI).view.loc (thr d L) ↦{fullShare} fI)
      ∗ ((sG).view.loc (thr d L) ↦[(slotGn 3 inb_S4x128x128_S1x128x128_3_0_0).view.set]{fullShare} g)
      ∗ ∃ o' : Buf (Elt F) ((thr d L).loc cc0_scratch3), ((sO).view.loc (thr d L) ↦[(slotOn 1 inb_S2x32x128_S1x32x128_1_0_0).view.set]{fullShare} o')
          ∗ ⌜∀ (dd : Fin 32) (col : Fin 128), o' (ix3 (1 : Fin 2) dd col)
              = g (ix3 (3 : Fin 4) col ⟨(fI (ix2 (rowIx t2 3 (by omega)) col)).toNat % 4 * 32 + dd.val, by have := dd.isLt; omega⟩)⌝) :=
  extract_elim d L 3 (by omega) inb_S4x128x128_S1x128x128_3_0_0 1 (by omega) inb_S2x32x128_S1x32x128_1_0_0 (rowIx t2 3 (by omega)) fI g

end Cert.Proof.KernelIdeal

end
-- ==== Proof.KernelIdealRingInv.lean ====
/-
  The state of a tile's pipeline between two trips of its main loop. Before trip `t` (positions `4t … 4t+3`):
  the gathers of positions `4t, 4t+1, 4t+2` are in flight into slots 0, 1, 2 and slot 3 is free; the write-outs
  of positions `4t-2` and `4t-1` are in flight out of result slots 0 and 1 (none before the first trip); the
  result's rows below `4t-2` hold their final values. After the last trip nothing is gathering and the last two
  write-outs are in flight. Each gather slot keeps, for as long as the loop runs, its own read share of the table
  and of the row-number scratch, and its own piece of the gathered-rows scratch.
-/
import proofs.«206503_g81295140979383_cont_9to1c4b_414_34_alg».proof.Proof.KernelIdealGeom
import proofs.«206503_g81295140979383_cont_9to1c4b_414_34_alg».proof.Proof.KernelIdealWords

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

theorem lt4_0 : 0 < 4 := by omega
theorem lt4_1 : 1 < 4 := by omega
theorem lt4_2 : 2 < 4 := by omega
theorem lt4_3 : 3 < 4 := by omega
theorem lt2_0 : 0 < 2 := by omega
theorem lt2_1 : 1 < 2 := by omega

/-- The data the invariant is stated over: the shares, the table, the row numbers, the indices. -/
structure RingData (d : Dev nD) (L : grid0.Coords) where
  q1 : PosShare TreeShare
  qQ : PosShare TreeShare
  tb : Buf (Elt F) (tLoc d)
  ix : Buf (Elt F) (iLoc d)
  fI : Buf (Elt F) ((thr d L).loc cc0_scratch0)
  fq : Buf (Elt F) ((thr d L).loc cc0_scratch1)
  O : CellTallies nD τ sig (HIx 1)
  W : Waits sig (HIx 1)

variable {d L} (D : RingData (F := F) d L)

/-- Slot `s`'s share of the row-number scratch. -/
def RingData.qs (s : Nat) : PosShare TreeShare :=
  match s with
  | 0 => Transfers.shareDrop D.qQ 3
  | (n + 1) => Transfers.shareTokN D.qQ n

/-- The gathered rows of position `h`: row `r` is the table's row the row-number scratch names at `(h, r)`. -/
def RingData.gathered (s : Nat) (hs : s < 4) (h : Nat) (hh : h < 200) (c : Buf (Elt F) ((thr d L).loc cc0_scratch2)) : Prop :=
  ∀ (r cc : Fin 128) (row : Fin 250000), row.val = (D.fq (ix2 (⟨h, hh⟩ : Fin 200) r)).toNat →
    c (ix3 (⟨s, hs⟩ : Fin 4) r cc) = D.tb (ix2 row cc)

/-- The gather of position `h` into slot `s` in flight, with what the slot keeps beside it. -/
def RingData.busy (s : Nat) (hs : s < 4) (sem : DmaSems sig S_) (h : Nat) (hh : h < 200) : sProp 𝕄 :=
  iprop((∃ c, ⌜D.gathered s hs h hh c⌝ ∗
      Transfers.Flight countersEmb (thr d L) (SemLoc.dma sem.sem) default 524288
        iprop((((slotG s hs).view.loc (thr d L) ↦[(slotG s hs).view.set]{fullShare} c)
            ∗ ((sQ).view.loc (thr d L) ↦[(rowQ h hh).view.set]{D.qs s} D.fq))
          ∗ ((tV).view.loc (thr d L) ↦[(tW).view.set]{Transfers.shareTokN D.q1 s} D.tb)))
    ∗ ((tV).view.loc (thr d L) ↦[Finset.univ \ (tW).view.set]{Transfers.shareTokN D.q1 s} D.tb)
    ∗ ((sQ).view.loc (thr d L) ↦[Finset.univ \ (rowQ h hh).view.set]{D.qs s} D.fq))

/-- Slot `s` free: its semaphore at zero, its piece of the scratch at anything, its two read shares whole. -/
def RingData.free (s : Nat) (hs : s < 4) (sem : DmaSems sig S_) : sProp 𝕄 :=
  iprop(semVal (cell d L sem) 0
    ∗ (∃ c, (slotG s hs).view.loc (thr d L) ↦[(slotG s hs).view.set]{fullShare} c)
    ∗ ((tV).view.loc (thr d L) ↦{Transfers.shareTokN D.q1 s} D.tb)
    ∗ ((sQ).view.loc (thr d L) ↦{D.qs s} D.fq))

/-- What position `h`'s row of the result holds once written: `tileVal` there. -/
def RingData.rowDone (h : Nat) (hh : h < 200) (og : Buf (Elt F) (oLoc d)) : Prop :=
  ∀ (dd : Fin 32) (col : Fin 128), og (ix3 (⟨h, hh⟩ : Fin 200) dd (tcol L col)) = tileVal D.tb D.ix (ix3 (⟨h, hh⟩ : Fin 200) dd (tcol L col))

/-- The write-out of position `h` from result slot `b` in flight. -/
def RingData.writing (b : Nat) (hb : b < 2) (sem : DmaSems sig S_) (h : Nat) (hh : h < 200) : sProp 𝕄 :=
  iprop(∃ (c : Buf (Elt F) (oLoc d)) (o : Buf (Elt F) ((thr d L).loc cc0_scratch3)), ⌜D.rowDone h hh c⌝ ∗
    Transfers.Flight countersEmb (thr d L) (SemLoc.dma sem.sem) default 131072
      iprop(((oV).view.loc (thr d L) ↦[(outRow L h hh).view.set]{fullShare} c)
        ∗ ((slotO b hb).view.loc (thr d L) ↦[(slotO b hb).view.set]{fullShare} o)))

/-- Result slot `b` free. -/
def idleSlot (d : Dev nD) (L : grid0.Coords) (b : Nat) (hb : b < 2) (sem : DmaSems sig S_) : sProp 𝕄 :=
  iprop(semVal (cell d L sem) 0 ∗ ∃ o, (slotO b hb).view.loc (thr d L) ↦[(slotO b hb).view.set]{fullShare} o)

/-- The gathers' side before trip `t`. -/
def RingData.gPart (t : Nat) : sProp 𝕄 :=
  if h : t < 50 then
    iprop(D.busy 0 lt4_0 cc0_scratch4 (4 * t) (by omega) ∗ D.busy 1 lt4_1 cc0_scratch5 (4 * t + 1) (by omega)
      ∗ D.busy 2 lt4_2 cc0_scratch6 (4 * t + 2) (by omega) ∗ D.free 3 lt4_3 cc0_scratch7)
  else
    iprop(D.free 0 lt4_0 cc0_scratch4 ∗ D.free 1 lt4_1 cc0_scratch5 ∗ D.free 2 lt4_2 cc0_scratch6 ∗ D.free 3 lt4_3 cc0_scratch7)

/-- The result's rows the tile holds itself before trip `t`: all of its part but the two rows being written,
    the rows below those at their final values. -/
def RingData.outRest (t : Nat) (h1 : 4 * t - 2 < 200) (h2 : 4 * t - 1 < 200) : sProp 𝕄 :=
  iprop(∃ og : Buf (Elt F) (oLoc d),
    ⌜∀ (h : Nat) (hh : h < 200), h + 2 < 4 * t → D.rowDone h hh og⌝ ∗
    ((oV).view.loc (thr d L) ↦[(oSet L \ (outRow L (4 * t - 2) h1).view.set) \ (outRow L (4 * t - 1) h2).view.set]{fullShare} og))

/-- The write-outs' side before trip `t`. -/
def RingData.wPart (t : Nat) : sProp 𝕄 :=
  if h0 : t = 0 then
    iprop(idleSlot (F := F) d L 0 lt2_0 cc0_scratch8 ∗ idleSlot (F := F) d L 1 lt2_1 cc0_scratch9 ∗ ∃ og, (oV).view.loc (thr d L) ↦[oSet L]{fullShare} og)
  else if h : t ≤ 50 then
    iprop(D.writing 0 lt2_0 cc0_scratch8 (4 * t - 2) (by omega) ∗ D.writing 1 lt2_1 cc0_scratch9 (4 * t - 1) (by omega)
      ∗ D.outRest t (by omega) (by omega))
  else iprop(False)

/-- The pipeline's invariant. -/
def ringInv : Nat → Unit → sProp 𝕄 := fun t _ =>
  iprop(Transfers.MayWaits (thr d L) none D.O
    ∗ ((sI).view.loc (thr d L) ↦{fullShare} D.fI)
    ∗ D.gPart t ∗ D.wPart t
    ∗ ∃ W', ⌜∀ p ∈ W', p ∈ D.W ∨ p.2 = none⌝ ∗ owes (thr d L) D.O W')

end Cert.Proof.KernelIdeal

end
-- ==== Proof.KernelIdealRingInit.lean ====
/-
  The pipeline before its first trip. The gathered-rows scratch is its four slots and the result-rows scratch
  its two (the pieces are told apart by their first coordinate), so each gather lands in a piece of its own. A
  whole write of a gather's payload through a slot leaves there the rows of the table that the row-number
  scratch names; with the three gathers of positions 0, 1, 2 in flight, slot 3 and the two result slots free and
  the tile's part of the result untouched, the pipeline's invariant holds before trip 0.
-/
import proofs.«206503_g81295140979383_cont_9to1c4b_414_34_alg».proof.Proof.KernelIdealRingInv

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The scratch arrays cut into their slots -/

/-- The elements of slot `s` of the gathered-rows scratch, of slot `b` of the result-rows scratch. -/
def gSet (s : Fin 4) : Finset (Idx ((sG).view.loc (thr d L))) := (slotG s.val s.isLt).view.set
def rSet (b : Fin 2) : Finset (Idx ((sO).view.loc (thr d L))) := (slotO b.val b.isLt).view.set

theorem gSet_disjoint : ∀ s ∈ (Finset.univ : Finset (Fin 4)), ∀ s' ∈ (Finset.univ : Finset (Fin 4)), s ≠ s' → Disjoint (gSet d L s) (gSet d L s') := by
  intro s _ s' _ hne
  refine Finset.disjoint_left.mpr fun i hi hi' => hne (Fin.ext ?_)
  have a := (slotG_mem s.val s.isLt i).mp hi
  have b := (slotG_mem s'.val s'.isLt i).mp hi'
  omega
theorem gSet_cover : (Finset.univ : Finset (Fin 4)).biUnion (gSet d L) = Finset.univ := by
  ext i
  simp only [Finset.mem_biUnion, Finset.mem_univ, true_and, iff_true]
  exact ⟨⟨(i 0).val, (i 0).isLt⟩, (slotG_mem _ _ i).mpr rfl⟩
theorem rSet_disjoint : ∀ s ∈ (Finset.univ : Finset (Fin 2)), ∀ s' ∈ (Finset.univ : Finset (Fin 2)), s ≠ s' → Disjoint (rSet d L s) (rSet d L s') := by
  intro s _ s' _ hne
  refine Finset.disjoint_left.mpr fun i hi hi' => hne (Fin.ext ?_)
  have a := (slotO_mem s.val s.isLt i).mp hi
  have b := (slotO_mem s'.val s'.isLt i).mp hi'
  omega
theorem rSet_cover : (Finset.univ : Finset (Fin 2)).biUnion (rSet d L) = Finset.univ := by
  ext i
  simp only [Finset.mem_biUnion, Finset.mem_univ, true_and, iff_true]
  exact ⟨⟨(i 0).val, (i 0).isLt⟩, (slotO_mem _ _ i).mpr rfl⟩

/-- The gathered-rows scratch is its four slots. -/
theorem sG_pieces (f2 : Buf (Elt F) ((thr d L).loc cc0_scratch2)) :
    ((sG).view.loc (thr d L) ↦{fullShare} f2 : sProp 𝕄)
      = iprop(((slotG 0 lt4_0).view.loc (thr d L) ↦[(slotG 0 lt4_0).view.set]{fullShare} f2)
        ∗ ((slotG 1 lt4_1).view.loc (thr d L) ↦[(slotG 1 lt4_1).view.set]{fullShare} f2)
        ∗ ((slotG 2 lt4_2).view.loc (thr d L) ↦[(slotG 2 lt4_2).view.set]{fullShare} f2)
        ∗ ((slotG 3 lt4_3).view.loc (thr d L) ↦[(slotG 3 lt4_3).view.set]{fullShare} f2)) := by
  have e := pointsTo_biUnion (Ix := HIx 1) (Val := Elt F) (Name := ℕ) (U := UU) (Lvl := ℕ) (ℓ := (sG).view.loc (thr d L)) (q := fullShare) (f := f2)
    (Finset.univ : Finset (Fin 4)) (gSet d L) (gSet_disjoint d L)
  rw [gSet_cover, show (Finset.univ : Finset (Fin 4)) = {0, 1, 2, 3} by decide, SparseCore.bigSep_insert' (by decide), SparseCore.bigSep_insert' (by decide),
    SparseCore.bigSep_insert' (by decide), bigSep_singleton] at e
  exact e

/-- The result-rows scratch is its two slots. -/
theorem sO_pieces (f3 : Buf (Elt F) ((thr d L).loc cc0_scratch3)) :
    ((sO).view.loc (thr d L) ↦{fullShare} f3 : sProp 𝕄)
      = iprop(((slotO 0 lt2_0).view.loc (thr d L) ↦[(slotO 0 lt2_0).view.set]{fullShare} f3)
        ∗ ((slotO 1 lt2_1).view.loc (thr d L) ↦[(slotO 1 lt2_1).view.set]{fullShare} f3)) := by
  have e := pointsTo_biUnion (Ix := HIx 1) (Val := Elt F) (Name := ℕ) (U := UU) (Lvl := ℕ) (ℓ := (sO).view.loc (thr d L)) (q := fullShare) (f := f3)
    (Finset.univ : Finset (Fin 2)) (rSet d L) (rSet_disjoint d L)
  rw [rSet_cover, show (Finset.univ : Finset (Fin 2)) = {0, 1} by decide, SparseCore.bigSep_insert' (by decide), bigSep_singleton] at e
  exact e

/-- The gathered slot at `(r, c)`, the table read through any function that agrees with it. -/
theorem gather_rowQ_apply' (tb g : S250000x128.Idx → Elt F .f32) (hg : ∀ x, g x = tb x) (h : Nat) (hh : h < 200) (fq : S200x128.Idx → BitVec 32)
    (hn : S128.numel = S128x128.size (gathers_S250000x128_S128x128).axis')
    (hin : ∀ x, ((rowQ h hh).view.read (Elt F) fq x).toNat < S250000x128.size (gathers_S250000x128_S128x128).axis)
    (r c : Fin 128) (row : Fin 250000) (hrow : row.val = (fq (ix2 (⟨h, hh⟩ : Fin 200) r)).toNat) :
    SparseCore.gatherPayload gathers_S250000x128_S128x128 g (SparseCore.rows ((rowQ h hh).view.read (Elt F) fq) hn hin) (ix2 r c)
      = tb (ix2 row c) := by
  rw [gatherPayload_apply, hg]
  refine congrArg (fun q => tb (ix2 q c)) (Fin.ext ?_)
  rw [hrow]; exact rows_rowQ h hh fq hn hin r

/-! ## The pipeline's invariant before the first trip -/

/-- A whole write of a gather's payload through slot `s` leaves the gathered rows there. -/
theorem gathered_of (D : RingData (F := F) d L) (s : Nat) (hs : s < 4) (h : Nat) (hh : h < 200) (c0 : Buf (Elt F) ((thr d L).loc cc0_scratch2))
    (pay : S128x128.Idx → Elt F .f32)
    (hp : ∀ (r cc : Fin 128) (row : Fin 250000), row.val = (D.fq (ix2 (⟨h, hh⟩ : Fin 200) r)).toNat → pay (ix2 r cc) = D.tb (ix2 row cc)) :
    D.gathered s hs h hh ((slotG s hs).view.writes (Elt F) c0 [⟨Rect.whole S128x128, pay⟩]) := by
  intro r cc row hrow
  have h1 := View.read_writes_cons_emb (slotG s hs).view (Val := Elt F) c0 (Rect.whole S128x128) pay [] (ix2 r cc)
  rw [Rect.emb_whole_apply, View.read_apply, slotG_emb] at h1
  exact h1.trans (hp r cc row hrow)

theorem busy_intro (D : RingData (F := F) d L) (s : Nat) (hs : s < 4) (sem : DmaSems sig S_) (h : Nat) (hh : h < 200)
    (c : Buf (Elt F) ((thr d L).loc cc0_scratch2)) (hg : D.gathered s hs h hh c) :
    iprop(Transfers.Flight countersEmb (thr d L) (SemLoc.dma sem.sem) default 524288
        iprop((((slotG s hs).view.loc (thr d L) ↦[(slotG s hs).view.set]{fullShare} c)
            ∗ ((sQ).view.loc (thr d L) ↦[(rowQ h hh).view.set]{D.qs s} D.fq))
          ∗ ((tV).view.loc (thr d L) ↦[(tW).view.set]{Transfers.shareTokN D.q1 s} D.tb))
      ∗ ((tV).view.loc (thr d L) ↦[Finset.univ \ (tW).view.set]{Transfers.shareTokN D.q1 s} D.tb)
      ∗ ((sQ).view.loc (thr d L) ↦[Finset.univ \ (rowQ h hh).view.set]{D.qs s} D.fq))
      ⊢ (D.busy s hs sem h hh : sProp 𝕄) := by
  unfold RingData.busy
  iintro ⟨Hg, Ht, Hq⟩
  isplitl [Hg]
  · iexists c
    isplitr; · ipureintro; exact hg
    iexact Hg
  isplitl [Ht]; · iexact Ht
  iexact Hq

/-- The invariant before the first trip, spelt out. -/
theorem ringInv_zero (D : RingData (F := F) d L) :
    (ringInv D 0 () : sProp 𝕄) = iprop(Transfers.MayWaits (thr d L) none D.O
      ∗ ((sI).view.loc (thr d L) ↦{fullShare} D.fI)
      ∗ (D.busy 0 lt4_0 cc0_scratch4 (4 * 0) (by omega) ∗ D.busy 1 lt4_1 cc0_scratch5 (4 * 0 + 1) (by omega)
        ∗ D.busy 2 lt4_2 cc0_scratch6 (4 * 0 + 2) (by omega) ∗ D.free 3 lt4_3 cc0_scratch7)
      ∗ (idleSlot (F := F) d L 0 lt2_0 cc0_scratch8 ∗ idleSlot (F := F) d L 1 lt2_1 cc0_scratch9 ∗ ∃ og, (oV).view.loc (thr d L) ↦[oSet L]{fullShare} og)
      ∗ ∃ W', ⌜∀ p ∈ W', p ∈ D.W ∨ p.2 = none⌝ ∗ owes (thr d L) D.O W') := by
  unfold ringInv RingData.gPart RingData.wPart
  rw [dif_pos (by omega : 0 < 50), dif_pos rfl]

end Cert.Proof.KernelIdeal

end
-- ==== Proof.KernelIdealRowVal.lean ====
/-
  Why a written row of the result holds its final value. The gathered slot holds, at row `col`, the table's
  128-wide row number `index / 4` (the row-number scratch); the extract step picks, for every `dd < 32`, its entry
  `(index mod 4) * 32 + dd`; the write-out copies the result slot to the tile's columns of position `h`. Together:
  entry `(h, dd, column)` of the result is the table's entry `(index / 4, (index mod 4) * 32 + dd)`.
-/
import proofs.«206503_g81295140979383_cont_9to1c4b_414_34_alg».proof.Proof.KernelIdealRingInv

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords} (D : RingData (F := F) d L)

theorem rowDone_of
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000)
    (s : Nat) (hs : s < 4) (b : Nat) (hb : b < 2) (h : Nat) (hh : h < 200)
    (c : Buf (Elt F) ((thr d L).loc cc0_scratch2)) (hg : D.gathered s hs h hh c)
    (o' : Buf (Elt F) ((thr d L).loc cc0_scratch3))
    (hval : ∀ (dd : Fin 32) (col : Fin 128) (q : Fin 128), q.val = (D.fI (ix2 (⟨h, hh⟩ : Fin 200) col)).toNat % 4 * 32 + dd.val →
      o' (ix3 (⟨b, hb⟩ : Fin 2) dd col) = c (ix3 (⟨s, hs⟩ : Fin 4) col q))
    (cw : Buf (Elt F) (oLoc d))
    (hpay : ∀ (dd : Fin 32) (col : Fin 128), cw (ix3 (⟨h, hh⟩ : Fin 200) dd (tcol L col)) = o' (ix3 (⟨b, hb⟩ : Fin 2) dd col)) :
    D.rowDone h hh cw := by
  intro dd col
  have hw := hix (ix2 (⟨h, hh⟩ : Fin 200) (tcol L col))
  have e1 : (D.fI (ix2 (⟨h, hh⟩ : Fin 200) col)).toNat = (D.ix (ix2 (⟨h, hh⟩ : Fin 200) (tcol L col))).toNat := by rw [hfI]
  have e2 : (D.fq (ix2 (⟨h, hh⟩ : Fin 200) col)).toNat = (D.ix (ix2 (⟨h, hh⟩ : Fin 200) (tcol L col))).toNat / 4 := by rw [hq, e1]
  have hq4 : (D.ix (ix2 (⟨h, hh⟩ : Fin 200) (tcol L col))).toNat % 4 * 32 + dd.val < 128 := by
    have := dd.isLt; omega
  rw [hpay, hval dd col ⟨(D.ix (ix2 (⟨h, hh⟩ : Fin 200) (tcol L col))).toNat % 4 * 32 + dd.val, hq4⟩ (by rw [e1]),
    hg col _ ⟨(D.ix (ix2 (⟨h, hh⟩ : Fin 200) (tcol L col))).toNat / 4, by omega⟩ e2.symm]
  show _ = D.tb (ix2 _ _)
  congr 1
  apply congrArg₂ ix2
  · exact Fin.ext (Nat.mod_eq_of_lt (by omega)).symm
  · exact Fin.ext (Nat.mod_eq_of_lt hq4).symm

end Cert.Proof.KernelIdeal

end
-- ==== Proof.KernelIdealEpilogue.lean ====
/-
  After the pipeline's loop. Nothing is gathering any more and the last two write-outs are in flight: the program
  waits for both and ends. What the tile then holds is put back together into what it was lent: the four slots of
  the gathered rows and the two of the result rows into their arrays, the four read shares of the table and of the
  row numbers into the shares they were cut from, and the rows of the result the tile kept together with the two
  rows just landed into the tile's part of the result, which holds the tile's value everywhere: the kept rows and
  each landed row do.
-/
import proofs.«206503_g81295140979383_cont_9to1c4b_414_34_alg».proof.Proof.KernelIdealRingInv

noncomputable section

namespace Cert.Proof.KernelIdeal.Epilogue

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- A read share cut into three tokens and a remainder. -/
theorem toks3 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 3} f) ∗ (ℓ ↦[S]{Transfers.shareTokN q 0} f) ∗ (ℓ ↦[S]{Transfers.shareTokN q 1} f)
      ∗ (ℓ ↦[S]{Transfers.shareTokN q 2} f)) := by
  have h0 := pointsTo_share (Ix := HIx 1) (Val := Elt F) (Name := ℕ) (U := UU) (Lvl := ℕ) (ℓ := ℓ) (I := S) (f := f) (q := q) (q₁ := Transfers.shareDrop q 1) (q₂ := Transfers.shareTokN q 0) (PosShare.mem_left_op_right _)
  have h1 := pointsTo_share (Ix := HIx 1) (Val := Elt F) (Name := ℕ) (U := UU) (Lvl := ℕ) (ℓ := ℓ) (I := S) (f := f) (q := Transfers.shareDrop q 1) (q₁ := Transfers.shareDrop q 2) (q₂ := Transfers.shareTokN q 1) (PosShare.mem_left_op_right _)
  have h2 := pointsTo_share (Ix := HIx 1) (Val := Elt F) (Name := ℕ) (U := UU) (Lvl := ℕ) (ℓ := ℓ) (I := S) (f := f) (q := Transfers.shareDrop q 2) (q₁ := Transfers.shareDrop q 3) (q₂ := Transfers.shareTokN q 2) (PosShare.mem_left_op_right _)
  constructor
  · iintro H
    ihave H := h0.1 $$ H
    icases H with ⟨H, H0⟩
    ihave H := h1.1 $$ H
    icases H with ⟨H, H1⟩
    ihave H := h2.1 $$ H
    icases H with ⟨H, H2⟩
    isplitl [H]; · iexact H
    isplitl [H0]; · iexact H0
    isplitl [H1]; · iexact H1
    iexact H2
  · iintro ⟨H, H0, H1, H2⟩
    iapply h0.2
    isplitr [H0]
    · iapply h1.2
      isplitr [H1]
      · iapply h2.2
        isplitl [H]; · iexact H
        iexact H2
      · iexact H1
    · iexact H0

variable [FloatOps F]

/-- What runs after the pipeline's loop: the waits for the last two write-outs. -/
abbrev tailProg (L : grid0.Coords) : Prog (TpuEff nD τ sig (Elt F) Λ₀ (.scVector (cV L) (jV L))) PUnit := do
  Prog.lift (.waitDma2 cc0_scratch8.sem
    ((sO.slice (Rect.unit (s := S2x32x128) ![0, 0, 0] S1x32x128.size inb_S2x32x128_S1x32x128_0_0_0) (fun _ => rfl)).squeeze S32x128 squeezes_S1x32x128_S32x128)
    ((oV.slice (Rect.unit (s := S200x32x4096) (k0_off144 L) S1x32x128.size (k0_off144_inb L)) (fun _ => rfl)).squeeze S32x128 squeezes_S1x32x128_S32x128)
    ((View.wordExact_bits rfl).reshape _ _) ((View.wordExact_bits rfl).reshape _ _))
  Prog.lift (.waitDma2 cc0_scratch9.sem
    ((sO.slice (Rect.unit (s := S2x32x128) ![1, 0, 0] S1x32x128.size inb_S2x32x128_S1x32x128_1_0_0) (fun _ => rfl)).squeeze S32x128 squeezes_S1x32x128_S32x128)
    ((oV.slice (Rect.unit (s := S200x32x4096) (k0_off144 L) S1x32x128.size (k0_off144_inb L)) (fun _ => rfl)).squeeze S32x128 squeezes_S1x32x128_S32x128)
    ((View.wordExact_bits rfl).reshape _ _) ((View.wordExact_bits rfl).reshape _ _))
  pure ⟨⟩

/-- The tile's postcondition, as the obligation states it once the tile's own arrays and cells are named. -/
abbrev tilePost (D : RingData (F := F) d L) (q2 : PosShare TreeShare) (W0 : Waits sig (HIx 1)) : sProp 𝕄 :=
  iprop(((tLoc d ↦{D.q1} D.tb) ∗ (iLoc d ↦{q2} D.ix) ∗ (oLoc d ↦[oSet L]{fullShare} (tileVal D.tb D.ix : Buf (Elt F) (oLoc d))))
    ∗ ((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ bigSep (((((ownRefs (τ := τ) (sig := sig) (.scVector (cV L) (jV L))).erase (sref L cc0_scratch0)).erase (sref L cc0_scratch1)).erase (sref L cc0_scratch2)).erase (sref L cc0_scratch3))
            (fun b : DevRef τ sig => iprop(∃ f, (d, b) ↦{fullShare} f)))
    ∗ (semVal (cell d L cc0_scratch4) 0 ∗ semVal (cell d L cc0_scratch5) 0 ∗ semVal (cell d L cc0_scratch6) 0 ∗ semVal (cell d L cc0_scratch7) 0
        ∗ semVal (cell d L cc0_scratch8) 0 ∗ semVal (cell d L cc0_scratch9) 0 ∗ semVal (cell d L cc0_scoped0) 0
        ∗ bigSep (((((((ownCells (thr d L)).erase (cell d L cc0_scratch4)).erase (cell d L cc0_scratch5)).erase (cell d L cc0_scratch6)).erase (cell d L cc0_scratch7)).erase
              (cell d L cc0_scratch8)).erase (cell d L cc0_scratch9) |>.erase (cell d L cc0_scoped0))
            (fun g : GSem nD τ sig => semVal g 0))
    ∗ ∃ W', ⌜∀ p ∈ W', p ∈ W0 ∨ p.2 = none⌝ ∗ owes (thr d L) D.O W')

omit [FloatOps F] in
/-- Four pieces of an array, pairwise apart and covering it, are the array at some contents. -/
theorem join4 {ℓ : Loc nD τ sig} {A B C E : Finset (Idx ℓ)} {q : PosShare TreeShare} {f0 f1 f2 f3 : Buf (Elt F) ℓ}
    (hAB : Disjoint A B) (hC : Disjoint (A ∪ B) C) (hE : Disjoint ((A ∪ B) ∪ C) E) (hU : ((A ∪ B) ∪ C) ∪ E = Finset.univ) :
    iprop((ℓ ↦[A]{q} f0) ∗ (ℓ ↦[B]{q} f1) ∗ (ℓ ↦[C]{q} f2) ∗ (ℓ ↦[E]{q} f3)) ⊢ (∃ f, ℓ ↦{q} f : sProp 𝕄) := by
  iintro ⟨H0, H1, H2, H3⟩
  ihave H := (pointsTo_join (Ix := HIx 1) (Val := Elt F) (Name := ℕ) (U := UU) (Lvl := ℕ) hAB) $$ [H0 H1]
  · isplitl [H0]; · iexact H0
    iexact H1
  ihave H := (pointsTo_join (Ix := HIx 1) (Val := Elt F) (Name := ℕ) (U := UU) (Lvl := ℕ) hC) $$ [H H2]
  · isplitl [H]; · iexact H
    iexact H2
  ihave H := (pointsTo_join (Ix := HIx 1) (Val := Elt F) (Name := ℕ) (U := UU) (Lvl := ℕ) hE) $$ [H H3]
  · isplitl [H]; · iexact H
    iexact H3
  rw [hU]
  iexists _
  iexact H

omit [FloatOps F] in
/-- Two pieces of an array, apart and covering it, are the array at some contents. -/
theorem join2 {ℓ : Loc nD τ sig} {A B : Finset (Idx ℓ)} {q : PosShare TreeShare} {f0 f1 : Buf (Elt F) ℓ}
    (hAB : Disjoint A B) (hU : A ∪ B = Finset.univ) :
    iprop((ℓ ↦[A]{q} f0) ∗ (ℓ ↦[B]{q} f1)) ⊢ (∃ f, ℓ ↦{q} f : sProp 𝕄) := by
  iintro ⟨H0, H1⟩
  ihave H := (pointsTo_join (Ix := HIx 1) (Val := Elt F) (Name := ℕ) (U := UU) (Lvl := ℕ) hAB) $$ [H0 H1]
  · isplitl [H0]; · iexact H0
    iexact H1
  rw [hU]
  iexists _
  iexact H

/-! ## The sets -/

theorem slotG_disj {a b : Nat} (ha : a < 4) (hb : b < 4) (hab : a ≠ b) : Disjoint (slotG a ha).view.set (slotG b hb).view.set := by
  rw [Finset.disjoint_left]
  intro i hi hj
  rw [slotG_mem] at hi hj
  omega

theorem slotG_cover :
    (((slotG 0 lt4_0).view.set ∪ (slotG 1 lt4_1).view.set) ∪ (slotG 2 lt4_2).view.set) ∪ (slotG 3 lt4_3).view.set = Finset.univ := by
  refine Finset.eq_univ_of_forall (fun (i : S4x128x128.Idx) => ?_)
  have h : (i 0).val < 4 := (i 0).isLt
  rw [Finset.mem_union, Finset.mem_union, Finset.mem_union, slotG_mem, slotG_mem, slotG_mem, slotG_mem]
  omega

theorem slotG_disj2 : Disjoint ((slotG 0 lt4_0).view.set ∪ (slotG 1 lt4_1).view.set) (slotG 2 lt4_2).view.set :=
  Finset.disjoint_union_left.mpr ⟨slotG_disj _ _ (by decide), slotG_disj _ _ (by decide)⟩
theorem slotG_disj3 : Disjoint (((slotG 0 lt4_0).view.set ∪ (slotG 1 lt4_1).view.set) ∪ (slotG 2 lt4_2).view.set) (slotG 3 lt4_3).view.set :=
  Finset.disjoint_union_left.mpr ⟨Finset.disjoint_union_left.mpr ⟨slotG_disj _ _ (by decide), slotG_disj _ _ (by decide)⟩, slotG_disj _ _ (by decide)⟩

theorem slotO_disj : Disjoint (slotO 0 lt2_0).view.set (slotO 1 lt2_1).view.set := by
  rw [Finset.disjoint_left]
  intro i hi hj
  rw [slotO_mem] at hi hj
  omega

theorem slotO_cover : (slotO 0 lt2_0).view.set ∪ (slotO 1 lt2_1).view.set = Finset.univ := by
  refine Finset.eq_univ_of_forall (fun (i : S2x32x128.Idx) => ?_)
  have h : (i 0).val < 2 := (i 0).isLt
  rw [Finset.mem_union, slotO_mem, slotO_mem]
  omega

/-- The tile's part of the result: every position, every `d`, the tile's 128 columns. -/
theorem oSet_mem (i : S200x32x4096.Idx) : i ∈ oSet L ↔ col0 L ≤ (i 2).val ∧ (i 2).val < col0 L + 128 := by
  rw [Rect.mem_set_unit]
  have h0 : (i 0).val < 200 := (i 0).isLt
  have h1 : (i 1).val < 32 := (i 1).isLt
  constructor
  · intro hm; have m2 := hm 2
    exact ⟨m2.1, m2.2⟩
  · intro hm a
    match a with
    | ⟨0, _⟩ => exact ⟨by show 0 ≤ (i 0).val; omega, by show (i 0).val < 0 + 200; omega⟩
    | ⟨1, _⟩ => exact ⟨by show 0 ≤ (i 1).val; omega, by show (i 1).val < 0 + 32; omega⟩
    | ⟨2, _⟩ => exact ⟨by show col0 L ≤ (i 2).val; exact hm.1, by show (i 2).val < col0 L + 128; exact hm.2⟩

/-- A finished row holds the tile's value at every element of it. -/
theorem rowDone_at (D : RingData (F := F) d L) (h : Nat) (hh : h < 200) (og : Buf (Elt F) (oLoc d)) (hd : D.rowDone h hh og)
    (i : S200x32x4096.Idx) (hi0 : (i 0).val = h) (h2 : col0 L ≤ (i 2).val) (h3 : (i 2).val < col0 L + 128) :
    og i = tileVal D.tb D.ix i := by
  obtain ⟨col, hcol⟩ : ∃ col : Fin 128, col.val = (i 2).val - col0 L := ⟨⟨(i 2).val - col0 L, by omega⟩, rfl⟩
  have e : i = ix3 (⟨h, hh⟩ : Fin 200) (i 1) (tcol L col) := by
    funext a
    match a with
    | ⟨0, _⟩ => exact Fin.ext hi0
    | ⟨1, _⟩ => rfl
    | ⟨2, _⟩ => exact Fin.ext (by rw [tcol_val, hcol]; show (i 2).val = col0 L + ((i 2).val - col0 L); omega)
  exact (congrArg og e).trans ((hd (i 1) col).trans (congrArg (tileVal D.tb D.ix) e).symm)

/-- The rows the tile holds itself and the two rows just landed are the tile's part of the result at its value. -/
theorem result_join (D : RingData (F := F) d L) (og og0 og1 : Buf (Elt F) (oLoc d)) (ha : Nat) (hha : ha < 200) (hb : Nat) (hhb : hb < 200)
    (hab : ha ≠ hb)
    (hog : ∀ (i : S200x32x4096.Idx), i ∈ oSet L → (i 0).val ≠ ha → (i 0).val ≠ hb → og i = tileVal D.tb D.ix i)
    (hd0 : D.rowDone ha hha og0) (hd1 : D.rowDone hb hhb og1) :
    iprop(((oV).view.loc (thr d L) ↦[(oSet L \ (outRow L ha hha).view.set) \ (outRow L hb hhb).view.set]{fullShare} og)
        ∗ ((oV).view.loc (thr d L) ↦[(outRow L ha hha).view.set]{fullShare} og0)
        ∗ ((oV).view.loc (thr d L) ↦[(outRow L hb hhb).view.set]{fullShare} og1))
      ⊢ (oLoc d ↦[oSet L]{fullShare} (tileVal D.tb D.ix : Buf (Elt F) (oLoc d)) : sProp 𝕄) := by
  have hA : (outRow L ha hha).view.set ⊆ oSet L := by
    intro i hi; rw [outRow_mem] at hi; rw [oSet_mem]; exact ⟨hi.2.1, hi.2.2⟩
  have hB : (outRow L hb hhb).view.set ⊆ oSet L \ (outRow L ha hha).view.set := by
    intro i hi
    rw [Finset.mem_sdiff, oSet_mem, outRow_mem]
    rw [outRow_mem] at hi
    exact ⟨⟨hi.2.1, hi.2.2⟩, fun hj => hab (hj.1.symm.trans hi.1)⟩
  have e0 : (((oV).view.loc (thr d L) ↦[(oSet L \ (outRow L ha hha).view.set) \ (outRow L hb hhb).view.set]{fullShare} og : sProp 𝕄))
      = ((oV).view.loc (thr d L) ↦[(oSet L \ (outRow L ha hha).view.set) \ (outRow L hb hhb).view.set]{fullShare} (tileVal D.tb D.ix : Buf (Elt F) (oLoc d))) :=
    pointsTo_congr (fun i hi => by
      rw [Finset.mem_sdiff, Finset.mem_sdiff, outRow_mem, outRow_mem] at hi
      have hiO := hi.1.1
      have hc := (oSet_mem L i).mp hiO
      exact hog i hiO (fun e => hi.1.2 ⟨e, hc.1, hc.2⟩) (fun e => hi.2 ⟨e, hc.1, hc.2⟩))
  have e1 : (((oV).view.loc (thr d L) ↦[(outRow L ha hha).view.set]{fullShare} og0 : sProp 𝕄))
      = ((oV).view.loc (thr d L) ↦[(outRow L ha hha).view.set]{fullShare} (tileVal D.tb D.ix : Buf (Elt F) (oLoc d))) :=
    pointsTo_congr (fun i hi => by
      rw [outRow_mem] at hi
      exact rowDone_at d L D ha hha og0 hd0 i hi.1 hi.2.1 hi.2.2)
  have e2 : (((oV).view.loc (thr d L) ↦[(outRow L hb hhb).view.set]{fullShare} og1 : sProp 𝕄))
      = ((oV).view.loc (thr d L) ↦[(outRow L hb hhb).view.set]{fullShare} (tileVal D.tb D.ix : Buf (Elt F) (oLoc d))) :=
    pointsTo_congr (fun i hi => by
      rw [outRow_mem] at hi
      exact rowDone_at d L D hb hhb og1 hd1 i hi.1 hi.2.1 hi.2.2)
  rw [e0, e1, e2]
  iintro ⟨Hx1, Hx2, Hx3⟩
  ihave H := (pointsTo_split_subset (Ix := HIx 1) (Val := Elt F) (Name := ℕ) (U := UU) (Lvl := ℕ) (ℓ := (oV).view.loc (thr d L)) (q := fullShare) (f := (tileVal D.tb D.ix : Buf (Elt F) (oLoc d))) hB).2 $$ [Hx3 Hx1]
  · isplitl [Hx3]; · iexact Hx3
    iexact Hx1
  ihave H := (pointsTo_split_subset (Ix := HIx 1) (Val := Elt F) (Name := ℕ) (U := UU) (Lvl := ℕ) (ℓ := (oV).view.loc (thr d L)) (q := fullShare) (f := (tileVal D.tb D.ix : Buf (Elt F) (oLoc d))) hA).2 $$ [Hx2 H]
  · isplitl [Hx2]; · iexact Hx2
    iexact H
  iexact H

set_option maxHeartbeats 2000000 in
/-- After the pipeline's loop: the last two write-outs are waited for, and what the tile holds is put back together —
    the four slots of the gathered rows and the two of the result rows into their arrays, the four read shares of the
    table and of the row numbers into the shares the tile was lent, the rows the tile kept and the two rows just landed
    into the tile's part of the result at its value. -/
theorem epilogue (D : RingData (F := F) d L) (q2 : PosShare TreeShare) (hqQ : D.qQ = fullShare)
    (W0 : Waits sig (HIx 1)) (hW0 : ∀ p ∈ D.W, p ∈ W0 ∨ p.2 = none) :
    iprop(ringInv D 50 ()
        ∗ ((tV).view.loc (thr d L) ↦{Transfers.shareDrop D.q1 4} D.tb)
        ∗ ((iV).view.loc (thr d L) ↦{q2} D.ix)
        ∗ semVal (cell d L cc0_scoped0) 0
        ∗ bigSep (((((ownRefs (τ := τ) (sig := sig) (.scVector (cV L) (jV L))).erase (sref L cc0_scratch0)).erase (sref L cc0_scratch1)).erase (sref L cc0_scratch2)).erase (sref L cc0_scratch3))
            (fun b : DevRef τ sig => iprop(∃ f, (d, b) ↦{fullShare} f))
        ∗ bigSep (((((((ownCells (thr d L)).erase (cell d L cc0_scratch4)).erase (cell d L cc0_scratch5)).erase (cell d L cc0_scratch6)).erase (cell d L cc0_scratch7)).erase
              (cell d L cc0_scratch8)).erase (cell d L cc0_scratch9) |>.erase (cell d L cc0_scoped0))
            (fun g : GSem nD τ sig => semVal g 0))
      ⊢ (wp frame (wpE (defs₀ (F := F)) 𝒱₀ (thr d L) none) Set.univ (tailProg (F := F) L) fun _ => tilePost d L D q2 W0 : sProp 𝕄) := by
  unfold ringInv RingData.gPart RingData.wPart
  rw [dif_neg (by decide : ¬ (50 < 50)), dif_neg (by decide : ¬ (50 = 0)), dif_pos (by decide : 50 ≤ 50)]
  unfold RingData.free RingData.writing RingData.outRest
  iintro ⟨⟨#Hmw, HsI, ⟨⟨Hc0, ⟨%c0, Hp0⟩, Ht0, Hq0⟩, ⟨Hc1, ⟨%c1, Hp1⟩, Ht1, Hq1⟩, ⟨Hc2, ⟨%c2, Hp2⟩, Ht2, Hq2⟩, ⟨Hc3, ⟨%c3, Hp3⟩, Ht3, Hq3⟩⟩,
      ⟨⟨%og0, %o0, %hd0, Hf0⟩, ⟨%og1, %o1, %hd1, Hf1⟩, ⟨%og, %hog, Hrest⟩⟩, ⟨%W', %hW', HO⟩⟩, Htd, Hi, Hsc, Hbufs, Hsems⟩
  sl_exec
  rw [wp_ret]; imodintro
  -- the table's four tokens and the remainder: the share the tile was lent
  ihave HT := (toks4 (F := F) D.q1).2 $$ [Htd Ht0 Ht1 Ht2 Ht3]
  · isplitl [Htd]; · iexact Htd
    isplitl [Ht0]; · iexact Ht0
    isplitl [Ht1]; · iexact Ht1
    isplitl [Ht2]; · iexact Ht2
    iexact Ht3
  -- the row numbers' four shares: the full share
  ihave HQ := (toks3 (F := F) D.qQ).2 $$ [Hq0 Hq1 Hq2 Hq3]
  · isplitl [Hq0]; · iexact Hq0
    isplitl [Hq1]; · iexact Hq1
    isplitl [Hq2]; · iexact Hq2
    iexact Hq3
  ihave HQ := (Entails.of_eq (congrArg (fun q => ((sQ).view.loc (thr d L) ↦{q} D.fq : sProp 𝕄)) hqQ)) $$ HQ
  -- the four slots of the gathered rows, the two of the result rows
  ihave HG := (join4 (F := F) (ℓ := (sG).view.loc (thr d L)) (slotG_disj lt4_0 lt4_1 (by decide)) slotG_disj2 slotG_disj3 slotG_cover) $$ [Hp0 Hp1 Hp2 Hp3]
  · isplitl [Hp0]; · iexact Hp0
    isplitl [Hp1]; · iexact Hp1
    isplitl [Hp2]; · iexact Hp2
    iexact Hp3
  ihave HS := (join2 (F := F) (ℓ := (sO).view.loc (thr d L)) slotO_disj slotO_cover) $$ [Hf0_src Hf1_src]
  · isplitl [Hf0_src]; · iexact Hf0_src
    iexact Hf1_src
  -- the result: the rows kept and the two rows landed
  ihave HR := (result_join d L D og og0 og1 (4 * 50 - 2) (by omega) (4 * 50 - 1) (by omega) (by omega)
      (fun i hi h1 h2 => by
        have hc := (oSet_mem L i).mp hi
        have hlt : (i 0).val < 200 := (i 0).isLt
        exact rowDone_at d L D (i 0).val hlt og (hog _ hlt (by omega)) i rfl hc.1 hc.2)
      hd0 hd1) $$ [Hrest Hf0_dst Hf1_dst]
  · isplitl [Hrest]; · iexact Hrest
    isplitl [Hf0_dst]; · iexact Hf0_dst
    iexact Hf1_dst
  -- the postcondition
  isplitl [HT Hi HR]
  · isplitl [HT]; · iexact HT
    isplitl [Hi]; · iexact Hi
    iexact HR
  isplitl [HsI HQ HG HS Hbufs]
  · isplitl [HsI]; · iexists _; iexact HsI
    isplitl [HQ]; · iexists _; iexact HQ
    isplitl [HG]; · iexact HG
    isplitl [HS]; · iexact HS
    iexact Hbufs
  isplitl [Hc0 Hc1 Hc2 Hc3 Hf0 Hf1 Hsc Hsems]
  · isplitl [Hc0]; · iexact Hc0
    isplitl [Hc1]; · iexact Hc1
    isplitl [Hc2]; · iexact Hc2
    isplitl [Hc3]; · iexact Hc3
    isplitl [Hf0]; · iexact Hf0
    isplitl [Hf1]; · iexact Hf1
    isplitl [Hsc]; · iexact Hsc
    iexact Hsems
  iexists (insert ((SemLoc.dma cc0_scratch9.sem : SemLoc sig), (default : HIx 1)) (insert ((SemLoc.dma cc0_scratch8.sem : SemLoc sig), (default : HIx 1)) W'))
  isplitr [HO]
  · ipureintro
    intro p hp
    rcases Finset.mem_insert.mp hp with h1 | hp
    · right; rw [h1]; rfl
    rcases Finset.mem_insert.mp hp with h1 | hp
    · right; rw [h1]; rfl
    exact (hW' p hp).elim (hW0 p) Or.inr
  iexact HO

end Cert.Proof.KernelIdeal.Epilogue

end
-- ==== Proof.KernelIdealRingLib.lean ====
/-
  The pipeline's pieces as the program spells them. A trip of the main loop names the rows it gathers by and the rows it
  writes out through word chains in the trip number; each chain has a closed form. Here: a squeezed slice at such an
  offset IS the invariant's row (of the row numbers, of the result), so that a transfer the run issued at the program's
  spelling is the invariant's busy slot, writing slot, or rest of the result.
-/
import proofs.«206503_g81295140979383_cont_9to1c4b_414_34_alg».proof.Proof.KernelIdealRingInv
import proofs.«206503_g81295140979383_cont_9to1c4b_414_34_alg».proof.Proof.KernelIdealRowVal
import proofs.«206503_g81295140979383_cont_9to1c4b_414_34_alg».proof.Proof.KernelIdealRingInit

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

theorem row_eq (L : grid0.Coords) (off : Fin 3 → Nat) (h : Nat) (hh : h < 200) (hoff : off = ![h, 0, col0 L])
    (inb : ∀ a, off a + S1x32x128.size a ≤ S200x32x4096.size a) (hr) :
    ((oV.slice (Rect.unit (s := S200x32x4096) off S1x32x128.size inb) hr).squeeze S32x128 squeezes_S1x32x128_S32x128) = outRow L h hh := by
  subst hoff; rfl

theorem rowQ_eq (off : Fin 2 → Nat) (h : Nat) (hh : h < 200) (hoff : off = ![h, 0])
    (inb : ∀ a, off a + S1x128.size a ≤ S200x128.size a) (hr) :
    ((sQ.slice (Rect.unit (s := S200x128) off S1x128.size inb) hr).squeeze S128 squeezes_S1x128_S128) = rowQ h hh := by
  subst hoff; rfl

/-- The elements of a row of the result, the row's offset given as a word chain with its closed form. -/
theorem prow_mem (L : grid0.Coords) (off : Fin 3 → Nat) (h : Nat) (hh : h < 200) (hoff : off = ![h, 0, col0 L])
    (inb : ∀ a, off a + S1x32x128.size a ≤ S200x32x4096.size a) (hr) (i : S200x32x4096.Idx) :
    i ∈ ((oV.slice (Rect.unit (s := S200x32x4096) off S1x32x128.size inb) hr).squeeze S32x128 squeezes_S1x32x128_S32x128).view.set
      ↔ (i 0).val = h ∧ col0 L ≤ (i 2).val ∧ (i 2).val < col0 L + 128 := by
  subst hoff; exact outRow_mem L h hh i

theorem oSet_mem' (L : grid0.Coords) (i : S200x32x4096.Idx) : i ∈ oSet L ↔ col0 L ≤ (i 2).val ∧ (i 2).val < col0 L + 128 := by
  show i ∈ (Rect.unit (s := S200x32x4096) ![0, 0, col0 L] ![200, 32, 128] (oBlk_inb L)).set ↔ _
  rw [Rect.mem_set_unit]
  have h0 : (i 0).val < 200 := (i 0).isLt
  have h1 : (i 1).val < 32 := (i 1).isLt
  constructor
  · intro hm; have m2 := hm 2
    have b1 : col0 L ≤ (i 2).val := m2.1
    have b2 : (i 2).val < col0 L + 128 := m2.2
    exact ⟨b1, b2⟩
  · intro hm a
    match a with
    | ⟨0, _⟩ => exact ⟨by show 0 ≤ (i 0).val; omega, by show (i 0).val < 0 + 200; omega⟩
    | ⟨1, _⟩ => exact ⟨by show 0 ≤ (i 1).val; omega, by show (i 1).val < 0 + 32; omega⟩
    | ⟨2, _⟩ => exact ⟨by show col0 L ≤ (i 2).val; exact hm.1, by show (i 2).val < col0 L + 128; exact hm.2⟩

variable [FloatOps F]

/-- A gather in flight whose offset list is spelt by the program's word chain, with the slot's two rests, is the slot busy. -/
theorem busy_of_prog (D : RingData (F := F) d L) (s : Nat) (hs : s < 4) (sem : DmaSems sig S_) (off : Fin 2 → Nat) (h : Nat) (hh : h < 200)
    (hoff : off = ![h, 0]) (inb : ∀ a, off a + S1x128.size a ≤ S200x128.size a) (hr)
    (c : Buf (Elt F) ((thr d L).loc cc0_scratch2)) (hg : D.gathered s hs h hh c) :
    iprop(Transfers.Flight countersEmb (thr d L) (SemLoc.dma sem.sem) default 524288
        iprop((((slotG s hs).view.loc (thr d L) ↦[(slotG s hs).view.set]{fullShare} c)
            ∗ ((sQ).view.loc (thr d L) ↦[((sQ.slice (Rect.unit (s := S200x128) off S1x128.size inb) hr).squeeze S128 squeezes_S1x128_S128).view.set]{D.qs s} D.fq))
          ∗ ((tV).view.loc (thr d L) ↦[(tW).view.set]{Transfers.shareTokN D.q1 s} D.tb))
      ∗ ((tV).view.loc (thr d L) ↦[Finset.univ \ (tW).view.set]{Transfers.shareTokN D.q1 s} D.tb)
      ∗ ((sQ).view.loc (thr d L) ↦[Finset.univ \ ((sQ.slice (Rect.unit (s := S200x128) off S1x128.size inb) hr).squeeze S128 squeezes_S1x128_S128).view.set]{D.qs s} D.fq))
      ⊢ (D.busy s hs sem h hh : sProp 𝕄) := by
  subst hoff
  exact busy_intro d L D s hs sem h hh c hg

/-- A write-out in flight whose destination row is spelt by the program's word chain is the result slot writing. -/
theorem writing_of_prog (D : RingData (F := F) d L) (b : Nat) (hb : b < 2) (sem : DmaSems sig S_) (off : Fin 3 → Nat) (h : Nat) (hh : h < 200)
    (hoff : off = ![h, 0, col0 L]) (inb : ∀ a, off a + S1x32x128.size a ≤ S200x32x4096.size a) (hr)
    (c : Buf (Elt F) (oLoc d)) (o : Buf (Elt F) ((thr d L).loc cc0_scratch3)) (hd : D.rowDone h hh c) :
    (Transfers.Flight countersEmb (thr d L) (SemLoc.dma sem.sem) default 131072
        iprop(((oV).view.loc (thr d L) ↦[((oV.slice (Rect.unit (s := S200x32x4096) off S1x32x128.size inb) hr).squeeze S32x128 squeezes_S1x32x128_S32x128).view.set]{fullShare} c)
          ∗ ((slotO b hb).view.loc (thr d L) ↦[(slotO b hb).view.set]{fullShare} o)) : sProp 𝕄)
      ⊢ (D.writing b hb sem h hh : sProp 𝕄) := by
  subst hoff
  unfold RingData.writing
  iintro H
  iexists c; iexists o
  isplitr; · ipureintro; exact hd
  iexact H

/-- The rest of the tile's part of the result, the two rows in flight spelt by the program's word chains. -/
theorem outRest_of_prog (D : RingData (F := F) d L) (t : Nat) (h1 : 4 * t - 2 < 200) (h2 : 4 * t - 1 < 200) (off1 off2 : Fin 3 → Nat)
    (hoff1 : off1 = ![4 * t - 2, 0, col0 L]) (hoff2 : off2 = ![4 * t - 1, 0, col0 L])
    (inb1 : ∀ a, off1 a + S1x32x128.size a ≤ S200x32x4096.size a) (hr1) (inb2 : ∀ a, off2 a + S1x32x128.size a ≤ S200x32x4096.size a) (hr2)
    (og : Buf (Elt F) (oLoc d)) (hdone : ∀ (h : Nat) (hh : h < 200), h + 2 < 4 * t → D.rowDone h hh og) :
    ((oV).view.loc (thr d L) ↦[((oSet L : Finset S200x32x4096.Idx) \ ((oV.slice (Rect.unit (s := S200x32x4096) off1 S1x32x128.size inb1) hr1).squeeze S32x128 squeezes_S1x32x128_S32x128).view.set)
        \ ((oV.slice (Rect.unit (s := S200x32x4096) off2 S1x32x128.size inb2) hr2).squeeze S32x128 squeezes_S1x32x128_S32x128).view.set]{fullShare} og : sProp 𝕄)
      ⊢ (D.outRest t h1 h2 : sProp 𝕄) := by
  subst hoff1 hoff2
  unfold RingData.outRest
  iintro H
  iexists og
  isplitr; · ipureintro; exact hdone
  iexact H

end Cert.Proof.KernelIdeal

end
-- ==== Proof.KernelIdealRingFacts.lean ====
/-
  Bookkeeping shared by the trips of the tile's pipeline. A row of the result is told by its position: whether a
  row is done depends only on the row's own elements, so it survives writes to other rows and the rejoining of
  the result's pieces; a whole write of a row's payload through the row leaves the payload there. After a trip
  the result's part outside the two rows being written is the part before, minus the rows written this trip,
  plus the rows that came back: every row below the two being written is done. A gather through a row of the
  row-number scratch named by its offset leaves the rows the scratch names.
-/
import proofs.«206503_g81295140979383_cont_9to1c4b_414_34_alg».proof.Proof.KernelIdealRingInit
import proofs.«206503_g81295140979383_cont_9to1c4b_414_34_alg».proof.Proof.KernelIdealRowVal
import proofs.«206503_g81295140979383_cont_9to1c4b_414_34_alg».proof.Proof.KernelIdealEpilogue

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

/-! ## A row is told by its own elements -/

/-- The element `(h, dd, col0 + col)` is one of row `h`'s. -/
theorem rowElt_mem (h : Nat) (hh : h < 200) (dd : Fin 32) (col : Fin 128) :
    (ix3 (⟨h, hh⟩ : Fin 200) dd (tcol L col) : S200x32x4096.Idx) ∈ (outRow L h hh).view.set := by
  rw [outRow_mem]
  have := col.isLt
  exact ⟨rfl, by show col0 L ≤ (tcol L col).val; rw [tcol_val]; omega, by show (tcol L col).val < col0 L + 128; rw [tcol_val]; omega⟩

/-- Whether row `h` is done depends only on row `h`'s elements. -/
theorem rowDone_congr (D : RingData (F := F) d L) (h : Nat) (hh : h < 200) (g g' : Buf (Elt F) (oLoc d))
    (hag : ∀ i ∈ (outRow L h hh).view.set, g' i = g i) (hd : D.rowDone h hh g) : D.rowDone h hh g' := by
  intro dd col
  rw [hag _ (rowElt_mem h hh dd col)]
  exact hd dd col

/-- Elements of different rows are different: a row's elements are not another row's. -/
theorem outRow_not_mem {h h' : Nat} (hh : h < 200) (hh' : h' < 200) (hne : h ≠ h') (i : S200x32x4096.Idx)
    (hi : i ∈ (outRow L h hh).view.set) : i ∉ (outRow L h' hh').view.set := by
  intro hi'
  have a := ((outRow_mem L h hh i).1 hi).1
  have b := ((outRow_mem L h' hh' i).1 hi').1
  omega

/-- A done row stays done under a whole write through another row, -/
theorem rowDone_write_other (D : RingData (F := F) d L) {h h' : Nat} (hh : h < 200) (hh' : h' < 200) (hne : h ≠ h')
    (og : Buf (Elt F) (oLoc d)) (pay : S32x128.Idx → Elt F .f32) (hd : D.rowDone h hh og) :
    D.rowDone h hh (View.write (Elt F) (outRow L h' hh').view og pay Finset.univ) :=
  rowDone_congr D h hh og _ (fun i hi => outRow_write_off L h' hh' og pay i (fun hc => by
    have a := ((outRow_mem L h hh i).1 hi).1
    omega)) hd

/-- under the list form of that write, -/
theorem rowDone_writes_other (D : RingData (F := F) d L) {h h' : Nat} (hh : h < 200) (hh' : h' < 200) (hne : h ≠ h')
    (og : Buf (Elt F) (oLoc d)) (pay : S32x128.Idx → Elt F .f32) (hd : D.rowDone h hh og) :
    D.rowDone h hh ((outRow L h' hh').view.writes (Elt F) og [⟨Rect.whole S32x128, pay⟩]) := by
  refine rowDone_congr D h hh og _ (fun i hi => ?_) hd
  have hnm : i ∉ (outRow L h' hh').view.set := outRow_not_mem hh hh' hne i hi
  exact View.writes_apply_of_forall_ne (outRow L h' hh').view og _ (fun y e => hnm (e ▸ View.emb_mem_set _ y))

/-- and under a join that takes other elements from elsewhere. -/
theorem rowDone_piecewise (D : RingData (F := F) d L) (h : Nat) (hh : h < 200) (J : Finset (Idx (oLoc d))) (g og : Buf (Elt F) (oLoc d))
    (hJ : ∀ i ∈ (outRow L h hh).view.set, i ∉ J) (hd : D.rowDone h hh og) : D.rowDone h hh (J.piecewise g og) :=
  rowDone_congr D h hh og _ (fun i hi => Finset.piecewise_eq_of_notMem _ _ _ (hJ i hi)) hd
theorem rowDone_piecewise_in (D : RingData (F := F) d L) (h : Nat) (hh : h < 200) (J : Finset (Idx (oLoc d))) (g og : Buf (Elt F) (oLoc d))
    (hJ : ∀ i ∈ (outRow L h hh).view.set, i ∈ J) (hd : D.rowDone h hh g) : D.rowDone h hh (J.piecewise g og) :=
  rowDone_congr D h hh g _ (fun i hi => Finset.piecewise_eq_of_mem _ _ _ (hJ i hi)) hd

/-! ## A whole write of a row's payload, read back -/

/-- What the list form of a whole write through row `h` leaves at `(h, dd, col0 + col)`: the payload's `(dd, col)`. -/
theorem outRow_writes_at (h : Nat) (hh : h < 200) (og : Buf (Elt F) (oLoc d)) (pay : S32x128.Idx → Elt F .f32) (dd : Fin 32) (col : Fin 128) :
    ((outRow L h hh).view.writes (Elt F) og [⟨Rect.whole S32x128, pay⟩]) (ix3 (⟨h, hh⟩ : Fin 200) dd (tcol L col)) = pay (ix2 dd col) := by
  have h1 := View.read_writes_cons_emb (outRow L h hh).view (Val := Elt F) og (Rect.whole S32x128) pay [] (ix2 dd col)
  rw [Rect.emb_whole_apply, View.read_apply, outRow_emb] at h1
  exact h1

/-- Slot `b` of the result rows reads `(b, dd, col)` at `(dd, col)`. -/
theorem slotO_read (b : Nat) (hb : b < 2) (o : Buf (Elt F) ((thr d L).loc cc0_scratch3)) (dd : Fin 32) (col : Fin 128) :
    (slotO b hb).view.read (Elt F) o (ix2 dd col) = o (ix3 (⟨b, hb⟩ : Fin 2) dd col) := by
  rw [View.read_apply, slotO_emb b hb dd col]
  rfl

/-- The row written this trip is done: the result slot held the quarters of the gathered rows, the gathered rows the
    table's rows the row-number scratch names, and the write-out moved the slot to the row. -/
theorem rowDone_written (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000)
    (s : Nat) (hs : s < 4) (b : Nat) (hb : b < 2) (h : Nat) (hh : h < 200)
    (c : Buf (Elt F) ((thr d L).loc cc0_scratch2)) (hg : D.gathered s hs h hh c)
    (o' : Buf (Elt F) ((thr d L).loc cc0_scratch3))
    (hval : ∀ (dd : Fin 32) (col : Fin 128) (q : Fin 128), q.val = (D.fI (ix2 (⟨h, hh⟩ : Fin 200) col)).toNat % 4 * 32 + dd.val →
      o' (ix3 (⟨b, hb⟩ : Fin 2) dd col) = c (ix3 (⟨s, hs⟩ : Fin 4) col q))
    (og : Buf (Elt F) (oLoc d)) (pay : S32x128.Idx → Elt F .f32) (hpay : ∀ (dd : Fin 32) (col : Fin 128), pay (ix2 dd col) = o' (ix3 (⟨b, hb⟩ : Fin 2) dd col)) :
    D.rowDone h hh ((outRow L h hh).view.writes (Elt F) og [⟨Rect.whole S32x128, pay⟩]) :=
  rowDone_of D hfI hq hix s hs b hb h hh c hg o' hval _ (fun dd col => (outRow_writes_at h hh og pay dd col).trans (hpay dd col))

/-! ## The same through a row named by its offset -/

/-- A done row stays done under a whole write through another row, the row named by its offset. -/
theorem rowDone_writes_other_off (D : RingData (F := F) d L) {h h' : Nat} (hh : h < 200) (hh' : h' < 200) (hne : h ≠ h')
    (off' : Fin 3 → Nat) (hoff' : off' = ![h', 0, col0 L]) (inb : ∀ a, off' a + S1x32x128.size a ≤ S200x32x4096.size a)
    (og : Buf (Elt F) (oLoc d)) (pay : S32x128.Idx → Elt F .f32) (hd : D.rowDone h hh og) :
    D.rowDone h hh (((oV.slice (Rect.unit (s := S200x32x4096) off' S1x32x128.size inb) (fun _ => rfl)).squeeze S32x128 squeezes_S1x32x128_S32x128).view.writes
      (Elt F) og [⟨Rect.whole S32x128, pay⟩]) := by
  subst hoff'
  exact rowDone_writes_other D hh hh' hne og pay hd

/-- The row written this trip is done, the row named by its offset. -/
theorem rowDone_written_off (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000)
    (s : Nat) (hs : s < 4) (b : Nat) (hb : b < 2) (h : Nat) (hh : h < 200)
    (off : Fin 3 → Nat) (hoff : off = ![h, 0, col0 L]) (inb : ∀ a, off a + S1x32x128.size a ≤ S200x32x4096.size a)
    (c : Buf (Elt F) ((thr d L).loc cc0_scratch2)) (hg : D.gathered s hs h hh c)
    (o' : Buf (Elt F) ((thr d L).loc cc0_scratch3))
    (hval : ∀ (dd : Fin 32) (col : Fin 128) (q : Fin 128), q.val = (D.fI (ix2 (⟨h, hh⟩ : Fin 200) col)).toNat % 4 * 32 + dd.val →
      o' (ix3 (⟨b, hb⟩ : Fin 2) dd col) = c (ix3 (⟨s, hs⟩ : Fin 4) col q))
    (og : Buf (Elt F) (oLoc d)) (pay : S32x128.Idx → Elt F .f32) (hpay : ∀ (dd : Fin 32) (col : Fin 128), pay (ix2 dd col) = o' (ix3 (⟨b, hb⟩ : Fin 2) dd col)) :
    D.rowDone h hh (((oV.slice (Rect.unit (s := S200x32x4096) off S1x32x128.size inb) (fun _ => rfl)).squeeze S32x128 squeezes_S1x32x128_S32x128).view.writes
      (Elt F) og [⟨Rect.whole S32x128, pay⟩]) := by
  subst hoff
  exact rowDone_written D hfI hq hix s hs b hb h hh c hg o' hval og pay hpay

/-! ## A fresh gather through a row of the row-number scratch named by its offset -/

/-- The gathered slot at `(r, c)`, the list's row named by its offset. -/
theorem gather_off_apply (tb g : S250000x128.Idx → Elt F .f32) (hg : ∀ x, g x = tb x) (h : Nat) (hh : h < 200)
    (off : Fin 2 → Nat) (hoff : off = ![h, 0]) (inb : ∀ a, off a + S1x128.size a ≤ S200x128.size a) (fq : S200x128.Idx → BitVec 32)
    (hn : S128.numel = S128x128.size (gathers_S250000x128_S128x128).axis')
    (hin : ∀ x, ((((sQ).slice (Rect.unit (s := S200x128) off S1x128.size inb) (fun _ => rfl)).squeeze S128 squeezes_S1x128_S128).view.read (Elt F) fq x).toNat
      < S250000x128.size (gathers_S250000x128_S128x128).axis)
    (r c : Fin 128) (row : Fin 250000) (hrow : row.val = (fq (ix2 (⟨h, hh⟩ : Fin 200) r)).toNat) :
    SparseCore.gatherPayload gathers_S250000x128_S128x128 g
      (SparseCore.rows ((((sQ).slice (Rect.unit (s := S200x128) off S1x128.size inb) (fun _ => rfl)).squeeze S128 squeezes_S1x128_S128).view.read (Elt F) fq) hn hin) (ix2 r c)
      = tb (ix2 row c) := by
  subst hoff
  exact gather_rowQ_apply' tb g hg h hh fq hn hin r c row hrow

/-- A fresh gather into slot `s` through the row at `off = (h, 0)`, the table read through its whole rectangle: the slot
    holds the gathered rows of position `h`. -/
theorem gathered_off (D : RingData (F := F) d L) (s : Nat) (hs : s < 4) (h : Nat) (hh : h < 200)
    (off : Fin 2 → Nat) (hoff : off = ![h, 0]) (inb : ∀ a, off a + S1x128.size a ≤ S200x128.size a)
    (hn : S128.numel = S128x128.size (gathers_S250000x128_S128x128).axis')
    (hin : ∀ x, ((((sQ).slice (Rect.unit (s := S200x128) off S1x128.size inb) (fun _ => rfl)).squeeze S128 squeezes_S1x128_S128).view.read (Elt F) D.fq x).toNat
      < S250000x128.size (gathers_S250000x128_S128x128).axis)
    (c0 : Buf (Elt F) ((thr d L).loc cc0_scratch2)) :
    D.gathered s hs h hh ((slotG s hs).view.writes (Elt F) c0 [⟨Rect.whole S128x128,
      SparseCore.gatherPayload gathers_S250000x128_S128x128 ((tW).view.read (Elt F) D.tb)
        (SparseCore.rows ((((sQ).slice (Rect.unit (s := S200x128) off S1x128.size inb) (fun _ => rfl)).squeeze S128 squeezes_S1x128_S128).view.read (Elt F) D.fq) hn hin)⟩]) :=
  gathered_of d L D s hs h hh c0 _ (fun r cc row hrow => gather_off_apply D.tb _ (tW_read D.tb) h hh off hoff inb D.fq hn hin r cc row hrow)

/-! ## The extract loop's value fact, in the form the row's value lemma takes -/

/-- The result slot holds, at `(dd, col)`, the gathered row `col` at the column the index word's remainder by four
    and `dd` name: said for whichever column number equals that. -/
theorem hval_of_extract (fI : Buf (Elt F) ((thr d L).loc cc0_scratch0)) (g : Buf (Elt F) ((thr d L).loc cc0_scratch2))
    (o' : Buf (Elt F) ((thr d L).loc cc0_scratch3)) (s : Nat) (hs : s < 4) (b : Nat) (hb : b < 2) (h : Nat) (hh : h < 200)
    (he : ∀ (dd : Fin 32) (col : Fin 128), o' (ix3 (⟨b, hb⟩ : Fin 2) dd col)
      = g (ix3 (⟨s, hs⟩ : Fin 4) col ⟨(fI (ix2 (⟨h, hh⟩ : Fin 200) col)).toNat % 4 * 32 + dd.val, by have := dd.isLt; omega⟩)) :
    ∀ (dd : Fin 32) (col : Fin 128) (q : Fin 128), q.val = (fI (ix2 (⟨h, hh⟩ : Fin 200) col)).toNat % 4 * 32 + dd.val →
      o' (ix3 (⟨b, hb⟩ : Fin 2) dd col) = g (ix3 (⟨s, hs⟩ : Fin 4) col q) := by
  intro dd col q hq
  rw [he dd col]
  exact congrArg (fun q => g (ix3 (⟨s, hs⟩ : Fin 4) col q)) (Fin.ext hq.symm)

end Cert.Proof.KernelIdeal

end
-- ==== Proof.KernelIdealRingFirst.lean ====
/-
  The first trip of the tile's pipeline. On entry the gathers of positions 0, 1, 2 are in flight into slots 0, 1, 2,
  slot 3 and both result slots are free, and the tile holds its whole part of the result. The trip does four steps.
  Step `j` starts the gather of position `j + 3` into the slot that is free, waits for position `j`'s gather,
  (from the third step on) waits for the write-out two positions back, picks the quarter `index mod 4` of every
  gathered row into a result slot, and starts writing that slot out to position `j` of the tile's columns, whose
  elements are taken out of the part of the result the tile still holds. At the end the gathers of positions 4, 5, 6
  are in flight, slot 3 is free again, the write-outs of positions 2 and 3 are in flight, and the rows the tile
  holds itself are the rest together with the two rows that landed, positions 0 and 1, at their final values.
-/
import proofs.«206503_g81295140979383_cont_9to1c4b_414_34_alg».proof.Proof.KernelIdealRingInv
import proofs.«206503_g81295140979383_cont_9to1c4b_414_34_alg».proof.Proof.KernelIdealRingInit
import proofs.«206503_g81295140979383_cont_9to1c4b_414_34_alg».proof.Proof.KernelIdealRowVal
import proofs.«206503_g81295140979383_cont_9to1c4b_414_34_alg».proof.Proof.KernelIdealGeom
import proofs.«206503_g81295140979383_cont_9to1c4b_414_34_alg».proof.Proof.KernelIdealQLoop
import proofs.«206503_g81295140979383_cont_9to1c4b_414_34_alg».proof.Proof.KernelIdealExtract0
import proofs.«206503_g81295140979383_cont_9to1c4b_414_34_alg».proof.Proof.KernelIdealExtract1
import proofs.«206503_g81295140979383_cont_9to1c4b_414_34_alg».proof.Proof.KernelIdealExtract2
import proofs.«206503_g81295140979383_cont_9to1c4b_414_34_alg».proof.Proof.KernelIdealExtract3
import proofs.«206503_g81295140979383_cont_9to1c4b_414_34_alg».proof.Proof.KernelIdealEpilogue
import proofs.«206503_g81295140979383_cont_9to1c4b_414_34_alg».proof.Proof.KernelIdealRingLib
import proofs.«206503_g81295140979383_cont_9to1c4b_414_34_alg».proof.Proof.KernelIdealRingFacts

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

variable [FloatOps F]

/-- Every word the gathers' offset lists hold names a row of the table. -/
theorem RingFirst.hin_of (fq : Buf (Elt F) ((thr d L).loc cc0_scratch1)) (h : ∀ p : S200x128.Idx, (fq p).toNat < 250000) :
    ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) fq x).toNat < 250000 := by
  intro off inb x
  exact h _

omit [FloatOps F] in
/-- The same slot busy with the same position, the position's number written another way. -/
theorem RingFirst.busy_cast (D : RingData (F := F) d L) (s : Nat) (hs : s < 4) (sem : DmaSems sig S_) {h h' : Nat} (hh : h < 200) (hh' : h' < 200) (e : h = h') :
    (D.busy s hs sem h hh : sProp 𝕄) ⊢ D.busy s hs sem h' hh' := by
  subst e; exact Entails.of_eq rfl

omit [FloatOps F] in
/-- The same write-out of the same position, the position's number written another way. -/
theorem RingFirst.writing_cast (D : RingData (F := F) d L) (b : Nat) (hb : b < 2) (sem : DmaSems sig S_) {h h' : Nat} (hh : h < 200) (hh' : h' < 200) (e : h = h') :
    (D.writing b hb sem h hh : sProp 𝕄) ⊢ D.writing b hb sem h' hh' := by
  subst e; exact Entails.of_eq rfl

set_option maxHeartbeats 8000000 in
set_option sl_exec.dmaWindow true in
set_option sl_exec.dmaWindowLent true in
set_option sl_exec.rejoinStated true in
theorem ring_first (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000)
    (k : Fin (Scf.trips k0_t2_loop.lb k0_t2_loop.ub k0_t2_loop.st)) (hk : k.val = 0) (acc : Unit) :
    ringInv D k.val acc ⊢ wp frame (wpE (defs₀ (F := F)) 𝒱₀ (thr d L) none) Set.univ
      (k0_t2_body (F := F) L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 (iota .scVector S16 32 [0] iota_S16_d0_w32_scVector) k acc)
      (ringInv D (k.val + 1)) := by
  have hpost : ringInv D (k.val + 1) = fun (a : Unit) => (iprop(Transfers.MayWaits (thr d L) none D.O
      ∗ ((sI).view.loc (thr d L) ↦{fullShare} D.fI)
      ∗ (D.busy 0 lt4_0 cc0_scratch4 (4 * (k.val + 1)) (by omega) ∗ D.busy 1 lt4_1 cc0_scratch5 (4 * (k.val + 1) + 1) (by omega)
        ∗ D.busy 2 lt4_2 cc0_scratch6 (4 * (k.val + 1) + 2) (by omega) ∗ D.free 3 lt4_3 cc0_scratch7)
      ∗ (D.writing 0 lt2_0 cc0_scratch8 (4 * (k.val + 1) - 2) (by omega) ∗ D.writing 1 lt2_1 cc0_scratch9 (4 * (k.val + 1) - 1) (by omega)
        ∗ D.outRest (k.val + 1) (by omega) (by omega))
      ∗ ∃ W', ⌜∀ p ∈ W', p ∈ D.W ∨ p.2 = none⌝ ∗ owes (thr d L) D.O W') : sProp 𝕄) := by
    funext a
    unfold ringInv RingData.gPart RingData.wPart
    rw [dif_pos (by omega : k.val + 1 < 50), dif_neg (by omega : ¬ (k.val + 1 = 0)), dif_pos (by omega : k.val + 1 ≤ 50)]
  generalize ringInv D (k.val + 1) = POST at hpost ⊢
  sl_respell [k0_t2_body]
  simp only [k0_part41_eq_skeleton, k0_part42_eq_skeleton, k0_part43_eq_skeleton]
  unfold k0_part41_skel k0_part42_skel k0_part43_skel
  simp only [Prog.bind_assoc]
  unfold ringInv RingData.gPart RingData.wPart
  rw [dif_pos (by omega : k.val < 50), dif_pos hk]
  unfold RingData.busy RingData.free idleSlot
  iintro ⟨#Hmw, HsI, ⟨⟨⟨%c0, %hg0, Hg0⟩, Ht0, Hq0⟩, ⟨⟨%c1, %hg1, Hg1⟩, Ht1, Hq1⟩, ⟨⟨%c2, %hg2, Hg2⟩, Ht2, Hq2⟩, ⟨Hc3, ⟨%c3, Hp3⟩, Ht3, Hq3⟩⟩,
      ⟨⟨Hw0, ⟨%o0, Ho0⟩⟩, ⟨Hw1, ⟨%o1, Ho1⟩⟩, ⟨%og, Hres⟩⟩, ⟨%W', %hW', HO⟩⟩
  have k0_h1 : k0_cond1 k = 1#1 := cond1_eq k
  have k0_h2 : ¬ k0_cond2 k = 1#1 := fun h => by have := (cond2_eq k).1 h; omega
  have k0_h3 : k0_cond3 k = 1#1 := (cond3_eq k).2 (by omega)
  have k0_h4 : ¬ k0_cond4 k = 1#1 := fun h => by have := (cond4_eq k).1 h; omega
  have k0_h5 : k0_cond5 k = 1#1 := (cond5_eq k).2 (by omega)
  have k0_h6 : k0_cond6 k = 1#1 := cond6_eq k
  have k0_h7 : k0_cond7 k = 1#1 := (cond7_eq k).2 (by omega)
  have k0_h8 : k0_cond8 k = 1#1 := cond8_eq k
  have hin := RingFirst.hin_of (F := F) d L D.fq hfq
  have hv3 : ∀ l : Fin 16, (iota Kind.scVector S16 32 [0] iota_S16_d0_w32_scVector) (ix1 l) = BitVec.ofNat 32 l.val :=
    fun l => iota_single_apply .scVector S16 32 0 iota_S16_d0_w32_scVector (ix1 l)
  have pts_g : ∀ (s : Nat) (hs : s < 4) (inb) (c : Buf (Elt F) ((thr d L).loc cc0_scratch2)), ((sG).view.loc (thr d L) ↦[(slotGn s inb).view.set]{fullShare} c : sProp 𝕄)
      = ((slotG s hs).view.loc (thr d L) ↦[(slotG s hs).view.set]{fullShare} c) := fun _ _ _ _ => rfl
  have pts_o : ∀ (b : Nat) (hb : b < 2) (inb) (c : Buf (Elt F) ((thr d L).loc cc0_scratch3)), ((sO).view.loc (thr d L) ↦[(slotOn b inb).view.set]{fullShare} c : sProp 𝕄)
      = ((slotO b hb).view.loc (thr d L) ↦[(slotO b hb).view.set]{fullShare} c) := fun _ _ _ _ => rfl
  sl_exec
  -- step 0
  sl_rw [Prog.bind_assoc]
  sl_for (extractInv_0 (F := F) d L k D.fI c0) $$ [HsI Hg0_dst Ho0]
  case region => exact extract_region_0 d L _ hv3 _ _ k _ D.fI c0
  · iapply (extract_intro_0 d L k D.fI c0 _)
    isplitl [HsI]; · iexact HsI
    isplitl [Hg0_dst]; · iexact Hg0_dst
    iexact Ho0
  iintro %accX0 HInv
  have h8_0 : Scf.trips k0_t3_loop.lb k0_t3_loop.ub k0_t3_loop.st = 8 := by decide
  have e8_0 : extractInv_0 (F := F) d L k D.fI c0 (Scf.trips k0_t3_loop.lb k0_t3_loop.ub k0_t3_loop.st) accX0 = extractInv_0 (F := F) d L k D.fI c0 8 () := by rw [h8_0]
  ihave HInv := (Entails.of_eq e8_0) $$ HInv
  ihave HInv := (extract_elim_0 d L k D.fI c0) $$ HInv
  icases HInv with ⟨HsI, Hg0_dst, %o0', HO0, %hval0⟩
  ihave Hg0_dst := (Entails.of_eq (pts_g 0 lt4_0 _ c0)) $$ Hg0_dst
  ihave HO0 := (Entails.of_eq (pts_o 0 lt2_0 _ o0')) $$ HO0
  have hsubR0 : (((oV.slice (Rect.unit (s := S200x32x4096) (k0_off38 L k 0#32) S1x32x128.size (k0_off38_inb L k 0)) (fun _ => rfl)).squeeze S32x128 squeezes_S1x32x128_S32x128).view.set : Finset S200x32x4096.Idx) ⊆ (oSet L : Finset S200x32x4096.Idx) := by
    intro i hi
    have hm := (prow_mem L _ (4 * k.val + 0) (by omega) (k0_off38_eq L k 0) _ _ i).1 hi
    exact (oSet_mem' L i).2 ⟨hm.2.1, hm.2.2⟩
  ihave Hres := (pointsTo_split_subset (ℓ := (oV).view.loc (thr d L)) hsubR0).1 $$ Hres
  icases Hres with ⟨HR0, Hres⟩
  have pts_r0 : ∀ c : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} c : sProp 𝕄)
      = (((oV.slice (Rect.unit (s := S200x32x4096) (k0_off38 L k 0#32) S1x32x128.size (k0_off38_inb L k 0)) (fun _ => rfl)).squeeze S32x128 squeezes_S1x32x128_S32x128).view.loc (thr d L) ↦[((oV.slice (Rect.unit (s := S200x32x4096) (k0_off38 L k 0#32) S1x32x128.size (k0_off38_inb L k 0)) (fun _ => rfl)).squeeze S32x128 squeezes_S1x32x128_S32x128).view.set]{fullShare} c) := fun _ => rfl
  ihave HR0 := (Entails.of_eq (pts_r0 og)) $$ HR0
  sl_exec
  -- step 1
  sl_rw [Prog.bind_assoc]
  sl_for (extractInv_1 (F := F) d L k D.fI c1) $$ [HsI Hg1_dst Ho1]
  case region => exact extract_region_1 d L _ hv3 k _ _ D.fI c1
  · iapply (extract_intro_1 d L k D.fI c1 _)
    isplitl [HsI]; · iexact HsI
    isplitl [Hg1_dst]; · iexact Hg1_dst
    iexact Ho1
  iintro %accX1 HInv
  have h8_1 : Scf.trips k0_t4_loop.lb k0_t4_loop.ub k0_t4_loop.st = 8 := by decide
  have e8_1 : extractInv_1 (F := F) d L k D.fI c1 (Scf.trips k0_t4_loop.lb k0_t4_loop.ub k0_t4_loop.st) accX1 = extractInv_1 (F := F) d L k D.fI c1 8 () := by rw [h8_1]
  ihave HInv := (Entails.of_eq e8_1) $$ HInv
  ihave HInv := (extract_elim_1 d L k D.fI c1) $$ HInv
  icases HInv with ⟨HsI, Hg1_dst, %o1', HO1, %hval1⟩
  ihave Hg1_dst := (Entails.of_eq (pts_g 1 lt4_1 _ c1)) $$ Hg1_dst
  ihave HO1 := (Entails.of_eq (pts_o 1 lt2_1 _ o1')) $$ HO1
  have hsubR1 : (((oV.slice (Rect.unit (s := S200x32x4096) (k0_off38 L k 1#32) S1x32x128.size (k0_off38_inb L k 1)) (fun _ => rfl)).squeeze S32x128 squeezes_S1x32x128_S32x128).view.set : Finset S200x32x4096.Idx) ⊆ ((oSet L \ ((oV.slice (Rect.unit (s := S200x32x4096) (k0_off38 L k 0#32) S1x32x128.size (k0_off38_inb L k 0)) (fun _ => rfl)).squeeze S32x128 squeezes_S1x32x128_S32x128).view.set) : Finset S200x32x4096.Idx) := by
    intro i hi
    have hm := (prow_mem L _ (4 * k.val + 1) (by omega) (k0_off38_eq L k 1) _ _ i).1 hi
    refine Finset.mem_sdiff.2 ⟨(oSet_mem' L i).2 ⟨hm.2.1, hm.2.2⟩, ?_⟩
    · intro h'; have := ((prow_mem L _ (4 * k.val + 0) (by omega) (k0_off38_eq L k 0) _ _ i).1 h').1; omega
  ihave Hres := (pointsTo_split_subset (ℓ := (oV).view.loc (thr d L)) hsubR1).1 $$ Hres
  icases Hres with ⟨HR1, Hres⟩
  have pts_r1 : ∀ c : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} c : sProp 𝕄)
      = (((oV.slice (Rect.unit (s := S200x32x4096) (k0_off38 L k 1#32) S1x32x128.size (k0_off38_inb L k 1)) (fun _ => rfl)).squeeze S32x128 squeezes_S1x32x128_S32x128).view.loc (thr d L) ↦[((oV.slice (Rect.unit (s := S200x32x4096) (k0_off38 L k 1#32) S1x32x128.size (k0_off38_inb L k 1)) (fun _ => rfl)).squeeze S32x128 squeezes_S1x32x128_S32x128).view.set]{fullShare} c) := fun _ => rfl
  ihave HR1 := (Entails.of_eq (pts_r1 og)) $$ HR1
  sl_exec
  -- step 2
  sl_rw [Prog.bind_assoc]
  sl_for (extractInv_2 (F := F) d L k D.fI c2) $$ [HsI Hg2_dst HO0]
  case region => exact extract_region_2 d L _ hv3 k _ _ _ D.fI c2
  · iapply (extract_intro_2 d L k D.fI c2 _)
    isplitl [HsI]; · iexact HsI
    isplitl [Hg2_dst]; · iexact Hg2_dst
    iexact HO0
  iintro %accX2 HInv
  have h8_2 : Scf.trips k0_t5_loop.lb k0_t5_loop.ub k0_t5_loop.st = 8 := by decide
  have e8_2 : extractInv_2 (F := F) d L k D.fI c2 (Scf.trips k0_t5_loop.lb k0_t5_loop.ub k0_t5_loop.st) accX2 = extractInv_2 (F := F) d L k D.fI c2 8 () := by rw [h8_2]
  ihave HInv := (Entails.of_eq e8_2) $$ HInv
  ihave HInv := (extract_elim_2 d L k D.fI c2) $$ HInv
  icases HInv with ⟨HsI, Hg2_dst, %o2', HO2, %hval2⟩
  ihave Hg2_dst := (Entails.of_eq (pts_g 2 lt4_2 _ c2)) $$ Hg2_dst
  ihave HO2 := (Entails.of_eq (pts_o 0 lt2_0 _ o2')) $$ HO2
  have hsubR2 : (((oV.slice (Rect.unit (s := S200x32x4096) (k0_off38 L k 2#32) S1x32x128.size (k0_off38_inb L k 2)) (fun _ => rfl)).squeeze S32x128 squeezes_S1x32x128_S32x128).view.set : Finset S200x32x4096.Idx) ⊆ (((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) : Finset S200x32x4096.Idx) := by
    intro i hi
    have hm := (prow_mem L _ (4 * k.val + 2) (by omega) (k0_off38_eq L k 2) _ _ i).1 hi
    refine Finset.mem_sdiff.2 ⟨Finset.mem_sdiff.2 ⟨(oSet_mem' L i).2 ⟨hm.2.1, hm.2.2⟩, ?_⟩, ?_⟩
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
  ihave Hres := (pointsTo_split_subset (ℓ := (oV).view.loc (thr d L)) hsubR2).1 $$ Hres
  icases Hres with ⟨HR2, Hres⟩
  have pts_r2 : ∀ c : Buf (Elt F) (oLoc d), ((oV).view.loc (thr d L) ↦[((oV.slice (Rect.unit (s := S200x32x4096) (k0_off38 L k 2#32) S1x32x128.size (k0_off38_inb L k 2)) (fun _ => rfl)).squeeze S32x128 squeezes_S1x32x128_S32x128).view.set]{fullShare} c : sProp 𝕄)
      = (((oV.slice (Rect.unit (s := S200x32x4096) (k0_off38 L k 2#32) S1x32x128.size (k0_off38_inb L k 2)) (fun _ => rfl)).squeeze S32x128 squeezes_S1x32x128_S32x128).view.loc (thr d L) ↦[((oV.slice (Rect.unit (s := S200x32x4096) (k0_off38 L k 2#32) S1x32x128.size (k0_off38_inb L k 2)) (fun _ => rfl)).squeeze S32x128 squeezes_S1x32x128_S32x128).view.set]{fullShare} c) := fun _ => rfl
  ihave HR2 := (Entails.of_eq (pts_r2 og)) $$ HR2
  sl_exec
  -- step 3: slot 3's gathered rows, named
  ihave Hg3_dst : iprop(∃ c3n : Buf (Elt F) ((thr d L).loc cc0_scratch2), ((sG).view.loc (thr d L) ↦[(slotGn 3 inb_S4x128x128_S1x128x128_3_0_0).view.set]{fullShare} c3n) ∗ ⌜D.gathered 3 lt4_3 (4 * k.val + 3) (by omega) c3n⌝) $$ [Hp3]
  · iexists _
    isplitl [Hp3]; · iexact Hp3
    ipureintro
    unfold ring_first.sl.gather0
    exact gathered_off D 3 lt4_3 (4 * k.val + 3) (by omega) _ (k0_off3_eq k) _ _ _ _
  icases Hg3_dst with ⟨%c3n, Hg3_dst, %hgath3⟩
  sl_for (extractInv_3 (F := F) d L k D.fI c3n) $$ [HsI Hg3_dst HO1]
  case region => exact extract_region_3 d L _ hv3 k _ D.fI c3n
  · iapply (extract_intro_3 d L k D.fI c3n _)
    isplitl [HsI]; · iexact HsI
    isplitl [Hg3_dst]; · iexact Hg3_dst
    iexact HO1
  iintro %accX3 HInv
  have h8_3 : Scf.trips k0_t6_loop.lb k0_t6_loop.ub k0_t6_loop.st = 8 := by decide
  have e8_3 : extractInv_3 (F := F) d L k D.fI c3n (Scf.trips k0_t6_loop.lb k0_t6_loop.ub k0_t6_loop.st) accX3 = extractInv_3 (F := F) d L k D.fI c3n 8 () := by rw [h8_3]
  ihave HInv := (Entails.of_eq e8_3) $$ HInv
  ihave HInv := (extract_elim_3 d L k D.fI c3n) $$ HInv
  icases HInv with ⟨HsI, Hg3_dst, %o3', HO3, %hval3⟩
  ihave Hg3_dst := (Entails.of_eq (pts_g 3 lt4_3 _ c3n)) $$ Hg3_dst
  ihave HO3 := (Entails.of_eq (pts_o 1 lt2_1 _ o3')) $$ HO3
  have hsubR3 : (((oV.slice (Rect.unit (s := S200x32x4096) (k0_off38 L k 3#32) S1x32x128.size (k0_off38_inb L k 3)) (fun _ => rfl)).squeeze S32x128 squeezes_S1x32x128_S32x128).view.set : Finset S200x32x4096.Idx) ⊆ ((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) : Finset S200x32x4096.Idx) := by
    intro i hi
    have hm := (prow_mem L _ (4 * k.val + 3) (by omega) (k0_off38_eq L k 3) _ _ i).1 hi
    refine Finset.mem_sdiff.2 ⟨Finset.mem_sdiff.2 ⟨Finset.mem_sdiff.2 ⟨(oSet_mem' L i).2 ⟨hm.2.1, hm.2.2⟩, ?_⟩, ?_⟩, ?_⟩
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
    · intro h'; have := ((prow_mem L _ (4 * k.val + 2) (by omega) (k0_off38_eq L k 2) _ _ i).1 h').1; omega
  ihave Hres := (pointsTo_split_subset (ℓ := (oV).view.loc (thr d L)) hsubR3).1 $$ Hres
  icases Hres with ⟨HR3, Hres⟩
  have pts_r3 : ∀ c : Buf (Elt F) (oLoc d), ((oV).view.loc (thr d L) ↦[((oV.slice (Rect.unit (s := S200x32x4096) (k0_off38 L k 3#32) S1x32x128.size (k0_off38_inb L k 3)) (fun _ => rfl)).squeeze S32x128 squeezes_S1x32x128_S32x128).view.set]{fullShare} c : sProp 𝕄)
      = (((oV.slice (Rect.unit (s := S200x32x4096) (k0_off38 L k 3#32) S1x32x128.size (k0_off38_inb L k 3)) (fun _ => rfl)).squeeze S32x128 squeezes_S1x32x128_S32x128).view.loc (thr d L) ↦[((oV.slice (Rect.unit (s := S200x32x4096) (k0_off38 L k 3#32) S1x32x128.size (k0_off38_inb L k 3)) (fun _ => rfl)).squeeze S32x128 squeezes_S1x32x128_S32x128).view.set]{fullShare} c) := fun _ => rfl
  ihave HR3 := (Entails.of_eq (pts_r3 og)) $$ HR3
  sl_exec
  rw [wp_ret]; imodintro
  rw [hpost]
  iclear Hg0_dst
  iclear Hg1_dst
  iclear Hg2_dst
  -- the three gathers in flight
  have hG0 : D.gathered 0 lt4_0 (4 * k.val + 4) (by omega) ((slotG 0 lt4_0).view.writes (Elt F) c0 [⟨Rect.whole S128x128, ring_first.sl.gather1 d L D k k0_h3 hin⟩]) := by
    unfold ring_first.sl.gather1
    exact gathered_off D 0 lt4_0 (4 * k.val + 4) (by omega) _ (k0_off39_eq k) _ _ _ c0
  have hG1 : D.gathered 1 lt4_1 (4 * k.val + 5) (by omega) ((slotG 1 lt4_1).view.writes (Elt F) c1 [⟨Rect.whole S128x128, ring_first.sl.gather1_1 d L D k k0_h5 hin⟩]) := by
    unfold ring_first.sl.gather1_1
    exact gathered_off D 1 lt4_1 (4 * k.val + 5) (by omega) _ (k0_off74_eq k) _ _ _ c1
  have hG2 : D.gathered 2 lt4_2 (4 * k.val + 6) (by omega) ((slotG 2 lt4_2).view.writes (Elt F) c2 [⟨Rect.whole S128x128, ring_first.sl.gather1_2 d L D k k0_h7 hin⟩]) := by
    unfold ring_first.sl.gather1_2
    exact gathered_off D 2 lt4_2 (4 * k.val + 6) (by omega) _ (k0_off109_eq k) _ _ _ c2
  ihave Hb0 := (busy_of_prog D 0 lt4_0 cc0_scratch4 (k0_off39 k) (4 * k.val + 4) (by omega) (k0_off39_eq k) _ _ _ hG0) $$ [Hg0 Ht0 Hq0]
  · isplitl [Hg0]; · iexact Hg0
    isplitl [Ht0]; · iexact Ht0
    iexact Hq0
  ihave Hb0 := (RingFirst.busy_cast d L D 0 lt4_0 cc0_scratch4 _ (by omega) (by omega : 4 * k.val + 4 = 4 * (k.val + 1))) $$ Hb0
  ihave Hb1 := (busy_of_prog D 1 lt4_1 cc0_scratch5 (k0_off74 k) (4 * k.val + 5) (by omega) (k0_off74_eq k) _ _ _ hG1) $$ [Hg1 Ht1 Hq1]
  · isplitl [Hg1]; · iexact Hg1
    isplitl [Ht1]; · iexact Ht1
    iexact Hq1
  ihave Hb1 := (RingFirst.busy_cast d L D 1 lt4_1 cc0_scratch5 _ (by omega) (by omega : 4 * k.val + 5 = 4 * (k.val + 1) + 1)) $$ Hb1
  ihave Hb2 := (busy_of_prog D 2 lt4_2 cc0_scratch6 (k0_off109 k) (4 * k.val + 6) (by omega) (k0_off109_eq k) _ _ _ hG2) $$ [Hg2 Ht2 Hq2]
  · isplitl [Hg2]; · iexact Hg2
    isplitl [Ht2]; · iexact Ht2
    iexact Hq2
  ihave Hb2 := (RingFirst.busy_cast d L D 2 lt4_2 cc0_scratch6 _ (by omega) (by omega : 4 * k.val + 6 = 4 * (k.val + 1) + 2)) $$ Hb2
  -- the two write-outs in flight: positions 4k+2 and 4k+3
  have hpay2 : ∀ (dd : Fin 32) (col : Fin 128), ring_first.sl.dma0_2 d L o2' (ix2 dd col) = o2' (ix3 (⟨0, lt2_0⟩ : Fin 2) dd col) := by
    intro dd col; unfold ring_first.sl.dma0_2; exact slotO_read 0 lt2_0 o2' dd col
  have hpay3 : ∀ (dd : Fin 32) (col : Fin 128), ring_first.sl.dma0_3 d L o3' (ix2 dd col) = o3' (ix3 (⟨1, lt2_1⟩ : Fin 2) dd col) := by
    intro dd col; unfold ring_first.sl.dma0_3; exact slotO_read 1 lt2_1 o3' dd col
  have hD2 : D.rowDone (4 * k.val + 2) (by omega) (((oV.slice (Rect.unit (s := S200x32x4096) (k0_off38 L k 2#32) S1x32x128.size (k0_off38_inb L k 2)) (fun _ => rfl)).squeeze S32x128 squeezes_S1x32x128_S32x128).view.writes (Elt F) og [⟨Rect.whole S32x128, ring_first.sl.dma0_2 d L o2'⟩]) :=
    rowDone_written_off D hfI hq hix 2 lt4_2 0 lt2_0 (4 * k.val + 2) (by omega) (k0_off38 L k 2#32) (k0_off38_eq L k 2) (k0_off38_inb L k 2) c2 hg2 o2'
      (fun dd col q hq' => (hval2 dd col).trans (congrArg (fun x => c2 (ix3 (2 : Fin 4) col x)) (Fin.ext hq'.symm))) og _ hpay2
  have hD3 : D.rowDone (4 * k.val + 3) (by omega) (((oV.slice (Rect.unit (s := S200x32x4096) (k0_off38 L k 3#32) S1x32x128.size (k0_off38_inb L k 3)) (fun _ => rfl)).squeeze S32x128 squeezes_S1x32x128_S32x128).view.writes (Elt F) og [⟨Rect.whole S32x128, ring_first.sl.dma0_3 d L o3'⟩]) :=
    rowDone_written_off D hfI hq hix 3 lt4_3 1 lt2_1 (4 * k.val + 3) (by omega) (k0_off38 L k 3#32) (k0_off38_eq L k 3) (k0_off38_inb L k 3) c3n hgath3 o3'
      (fun dd col q hq' => (hval3 dd col).trans (congrArg (fun x => c3n (ix3 (3 : Fin 4) col x)) (Fin.ext hq'.symm))) og _ hpay3
  ihave Hwr0 := (writing_of_prog D 0 lt2_0 cc0_scratch8 (k0_off38 L k 2#32) (4 * k.val + 2) (by omega) (k0_off38_eq L k 2) (k0_off38_inb L k 2) (fun _ => rfl) _ o2' hD2) $$ [Hw0]
  · iexact Hw0
  ihave Hwr0 := (RingFirst.writing_cast d L D 0 lt2_0 cc0_scratch8 _ (by omega) (by omega : 4 * k.val + 2 = 4 * (k.val + 1) - 2)) $$ Hwr0
  ihave Hwr1 := (writing_of_prog D 1 lt2_1 cc0_scratch9 (k0_off38 L k 3#32) (4 * k.val + 3) (by omega) (k0_off38_eq L k 3) (k0_off38_inb L k 3) (fun _ => rfl) _ o3' hD3) $$ [Hw1]
  · iexact Hw1
  ihave Hwr1 := (RingFirst.writing_cast d L D 1 lt2_1 cc0_scratch9 _ (by omega) (by omega : 4 * k.val + 3 = 4 * (k.val + 1) - 1)) $$ Hwr1
  -- the rows the tile holds itself: the rest and the two rows landed (positions 4k and 4k+1)
  have hpay0 : ∀ (dd : Fin 32) (col : Fin 128), ring_first.sl.dma0 d L o0' (ix2 dd col) = o0' (ix3 (⟨0, lt2_0⟩ : Fin 2) dd col) := by
    intro dd col; unfold ring_first.sl.dma0; exact slotO_read 0 lt2_0 o0' dd col
  have hpay1 : ∀ (dd : Fin 32) (col : Fin 128), ring_first.sl.dma0_1 d L o1' (ix2 dd col) = o1' (ix3 (⟨1, lt2_1⟩ : Fin 2) dd col) := by
    intro dd col; unfold ring_first.sl.dma0_1; exact slotO_read 1 lt2_1 o1' dd col
  have hD0 : D.rowDone (4 * k.val + 0) (by omega) (((oV.slice (Rect.unit (s := S200x32x4096) (k0_off38 L k 0#32) S1x32x128.size (k0_off38_inb L k 0)) (fun _ => rfl)).squeeze S32x128 squeezes_S1x32x128_S32x128).view.writes (Elt F) ((oV.slice (Rect.unit (s := S200x32x4096) (k0_off38 L k 0#32) S1x32x128.size (k0_off38_inb L k 0)) (fun _ => rfl)).squeeze S32x128 squeezes_S1x32x128_S32x128).view.junk [⟨Rect.whole S32x128, ring_first.sl.dma0 d L o0'⟩]) :=
    rowDone_written_off D hfI hq hix 0 lt4_0 0 lt2_0 (4 * k.val + 0) (by omega) (k0_off38 L k 0#32) (k0_off38_eq L k 0) (k0_off38_inb L k 0) c0 hg0 o0'
      (fun dd col q hq' => (hval0 dd col).trans (congrArg (fun x => c0 (ix3 (0 : Fin 4) col x)) (Fin.ext hq'.symm))) _ _ hpay0
  have hD1 : D.rowDone (4 * k.val + 1) (by omega) (((oV.slice (Rect.unit (s := S200x32x4096) (k0_off38 L k 1#32) S1x32x128.size (k0_off38_inb L k 1)) (fun _ => rfl)).squeeze S32x128 squeezes_S1x32x128_S32x128).view.writes (Elt F) ((oV.slice (Rect.unit (s := S200x32x4096) (k0_off38 L k 1#32) S1x32x128.size (k0_off38_inb L k 1)) (fun _ => rfl)).squeeze S32x128 squeezes_S1x32x128_S32x128).view.junk [⟨Rect.whole S32x128, ring_first.sl.dma0_1 d L o1'⟩]) :=
    rowDone_written_off D hfI hq hix 1 lt4_1 1 lt2_1 (4 * k.val + 1) (by omega) (k0_off38 L k 1#32) (k0_off38_eq L k 1) (k0_off38_inb L k 1) c1 hg1 o1'
      (fun dd col q hq' => (hval1 dd col).trans (congrArg (fun x => c1 (ix3 (1 : Fin 4) col x)) (Fin.ext hq'.symm))) _ _ hpay1
  have hm0 := fun i => prow_mem L (k0_off38 L k 0#32) (4 * k.val + 0) (by omega) (k0_off38_eq L k 0) (k0_off38_inb L k 0) (fun _ => rfl) i
  have hm1 := fun i => prow_mem L (k0_off38 L k 1#32) (4 * k.val + 1) (by omega) (k0_off38_eq L k 1) (k0_off38_inb L k 1) (fun _ => rfl) i
  have hm2 := fun i => prow_mem L (k0_off38 L k 2#32) (4 * k.val + 2) (by omega) (k0_off38_eq L k 2) (k0_off38_inb L k 2) (fun _ => rfl) i
  have hm3 := fun i => prow_mem L (k0_off38 L k 3#32) (4 * k.val + 3) (by omega) (k0_off38_eq L k 3) (k0_off38_inb L k 3) (fun _ => rfl) i
  have hdisjA : Disjoint (((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) : Finset S200x32x4096.Idx) (((oV.slice (Rect.unit (s := S200x32x4096) (k0_off38 L k 0#32) S1x32x128.size (k0_off38_inb L k 0)) (fun _ => rfl)).squeeze S32x128 squeezes_S1x32x128_S32x128).view.set : Finset S200x32x4096.Idx) := by
    rw [Finset.disjoint_left]
    intro i hi hi0
    simp only [Finset.mem_sdiff] at hi
    exact hi.1.1.1.2 hi0
  have hdisjB : Disjoint ((((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) : Finset S200x32x4096.Idx) ∪ (((oV.slice (Rect.unit (s := S200x32x4096) (k0_off38 L k 0#32) S1x32x128.size (k0_off38_inb L k 0)) (fun _ => rfl)).squeeze S32x128 squeezes_S1x32x128_S32x128).view.set : Finset S200x32x4096.Idx)) (((oV.slice (Rect.unit (s := S200x32x4096) (k0_off38 L k 1#32) S1x32x128.size (k0_off38_inb L k 1)) (fun _ => rfl)).squeeze S32x128 squeezes_S1x32x128_S32x128).view.set : Finset S200x32x4096.Idx) := by
    rw [Finset.disjoint_left]
    intro i hi hi1
    rcases Finset.mem_union.mp hi with hi | hi
    · simp only [Finset.mem_sdiff] at hi
      exact hi.1.1.2 hi1
    · have a := (hm0 i).1 hi; have b := (hm1 i).1 hi1; omega
  ihave Hj := (pointsTo_join (Ix := HIx 1) (Val := Elt F) (Name := ℕ) (U := UU) (Lvl := ℕ) (ℓ := (oV).view.loc (thr d L)) (q := fullShare) hdisjA) $$ [Hres HR0]
  · isplitl [Hres]; · iexact Hres
    iexact HR0
  ihave Hj := (pointsTo_join (Ix := HIx 1) (Val := Elt F) (Name := ℕ) (U := UU) (Lvl := ℕ) (ℓ := (oV).view.loc (thr d L)) (q := fullShare) hdisjB) $$ [Hj HR1]
  · isplitl [Hj]; · iexact Hj
    iexact HR1
  have hset : (((((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) : Finset S200x32x4096.Idx) ∪ (((oV.slice (Rect.unit (s := S200x32x4096) (k0_off38 L k 0#32) S1x32x128.size (k0_off38_inb L k 0)) (fun _ => rfl)).squeeze S32x128 squeezes_S1x32x128_S32x128).view.set : Finset S200x32x4096.Idx)) ∪ (((oV.slice (Rect.unit (s := S200x32x4096) (k0_off38 L k 1#32) S1x32x128.size (k0_off38_inb L k 1)) (fun _ => rfl)).squeeze S32x128 squeezes_S1x32x128_S32x128).view.set : Finset S200x32x4096.Idx))
      = (((oSet L : Finset S200x32x4096.Idx) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) := by
    ext i
    simp only [Finset.mem_union, Finset.mem_sdiff, hm0, hm1, hm2, hm3, oSet_mem']
    omega
  rw [hset]
  ihave Hor := (outRest_of_prog D (k.val + 1) (by omega) (by omega) (k0_off38 L k 2#32) (k0_off38 L k 3#32)
      ((k0_off38_eq L k 2).trans (congrArg (fun n => (![n, 0, col0 L] : Fin 3 → Nat)) (by show 4 * k.val + 2 = 4 * (k.val + 1) - 2; omega)))
      ((k0_off38_eq L k 3).trans (congrArg (fun n => (![n, 0, col0 L] : Fin 3 → Nat)) (by show 4 * k.val + 3 = 4 * (k.val + 1) - 1; omega)))
      (k0_off38_inb L k 2) (fun _ => rfl) (k0_off38_inb L k 3) (fun _ => rfl) _
      (fun h hh hlt => by
        have hcase : h = 4 * k.val + 0 ∨ h = 4 * k.val + 1 := by omega
        rcases hcase with rfl | rfl
        · exact rowDone_piecewise D _ _ _ _ _ (fun i hi h1 => by
            have a := (outRow_mem L _ _ i).1 hi; have b := (hm1 i).1 h1; omega)
            (rowDone_piecewise_in D _ _ _ _ _ (fun i hi => (hm0 i).2 ((outRow_mem L _ _ i).1 hi)) hD0)
        · exact rowDone_piecewise_in D _ _ _ _ _ (fun i hi => (hm1 i).2 ((outRow_mem L _ _ i).1 hi)) hD1)) $$ Hj
  -- the invariant before the next trip
  isplitl []; · iexact Hmw
  isplitl [HsI]; · iexact HsI
  isplitl [Hb0 Hb1 Hb2 Hc3 Hg3_dst Ht3 Hq3]
  · isplitl [Hb0]; · iexact Hb0
    isplitl [Hb1]; · iexact Hb1
    isplitl [Hb2]; · iexact Hb2
    unfold RingData.free
    isplitl [Hc3]; · iexact Hc3
    isplitl [Hg3_dst]; · iexists _; iexact Hg3_dst
    isplitl [Ht3]; · iexact Ht3
    iexact Hq3
  isplitl [Hwr0 Hwr1 Hor]
  · isplitl [Hwr0]; · iexact Hwr0
    isplitl [Hwr1]; · iexact Hwr1
    iexact Hor
  iexists (insert ((SemLoc.dma cc0_scratch9.sem : SemLoc sig), (default : HIx 1)) (insert ((SemLoc.dma cc0_scratch7.sem : SemLoc sig), (default : HIx 1))
    (insert ((SemLoc.dma cc0_scratch8.sem : SemLoc sig), (default : HIx 1)) (insert ((SemLoc.dma cc0_scratch6.sem : SemLoc sig), (default : HIx 1))
      (insert ((SemLoc.dma cc0_scratch5.sem : SemLoc sig), (default : HIx 1)) (insert ((SemLoc.dma cc0_scratch4.sem : SemLoc sig), (default : HIx 1)) W'))))))
  isplitr [HO]
  · ipureintro
    intro p hp
    simp only [Finset.mem_insert] at hp
    rcases hp with h | h | h | h | h | h | h
    · right; rw [h]; rfl
    · right; rw [h]; rfl
    · right; rw [h]; rfl
    · right; rw [h]; rfl
    · right; rw [h]; rfl
    · right; rw [h]; rfl
    · exact hW' p h
  iexact HO

end Cert.Proof.KernelIdeal

end
-- ==== Proof.KernelIdealRingMid.lean ====
/-
  A middle trip of a tile's pipeline (trips 1 to 48 of 50): positions `4k … 4k+3`. Step `s` issues the gather of a later
  position into the slot that is free, waits for the gather of position `4k+s` and for the write-out that still holds
  the result slot it needs, extracts position `4k+s` into that slot and starts its write-out. The write-outs of rows
  `4k-2, 4k-1` (started by the trip before) and `4k, 4k+1` (started here) land during the trip; rows `4k+2, 4k+3` are in
  flight at its end. Each destination row is taken out of the tile's part of the result before its write-out and put
  back once it has landed; at the end the pieces in hand are put side by side again.
-/
import proofs.«206503_g81295140979383_cont_9to1c4b_414_34_alg».proof.Proof.KernelIdealRingInv
import proofs.«206503_g81295140979383_cont_9to1c4b_414_34_alg».proof.Proof.KernelIdealRowVal
import proofs.«206503_g81295140979383_cont_9to1c4b_414_34_alg».proof.Proof.KernelIdealQLoop
import proofs.«206503_g81295140979383_cont_9to1c4b_414_34_alg».proof.Proof.KernelIdealRingLib
import proofs.«206503_g81295140979383_cont_9to1c4b_414_34_alg».proof.Proof.KernelIdealRingFacts
import proofs.«206503_g81295140979383_cont_9to1c4b_414_34_alg».proof.Proof.KernelIdealExtract0
import proofs.«206503_g81295140979383_cont_9to1c4b_414_34_alg».proof.Proof.KernelIdealExtract1
import proofs.«206503_g81295140979383_cont_9to1c4b_414_34_alg».proof.Proof.KernelIdealExtract2
import proofs.«206503_g81295140979383_cont_9to1c4b_414_34_alg».proof.Proof.KernelIdealExtract3

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

variable [FloatOps F]
set_option maxHeartbeats 2000000 in
/-- The rows of the result a middle trip has in hand at its end — the rest it kept, the two rows whose write-outs it
    waited for first and the two it wrote and waited for — are the rest of the tile's part before the next trip. -/
theorem mid_rejoin (D : RingData (F := F) d L) (k : Fin (Scf.trips k0_t2_loop.lb k0_t2_loop.ub k0_t2_loop.st)) (hk : 0 < k.val ∧ k.val < 49)
    (hA : 4 * k.val - 2 < 200) (hB : 4 * k.val - 1 < 200) (og cw0 cw1 cC cD : Buf (Elt F) (oLoc d))
    (hog : ∀ (h : Nat) (hh : h < 200), h + 2 < 4 * k.val → D.rowDone h hh og)
    (hdA : D.rowDone (4 * k.val - 2) hA cw0) (hdB : D.rowDone (4 * k.val - 1) hB cw1)
    (hdC : D.rowDone (4 * k.val + 0) (by omega) cC) (hdD : D.rowDone (4 * k.val + 1) (by omega) cD) :
    iprop(((oV).view.loc (thr d L) ↦[(((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set]{fullShare} og) ∗ ((oV).view.loc (thr d L) ↦[(outRow L (4 * k.val - 2) hA).view.set]{fullShare} cw0) ∗ ((oV).view.loc (thr d L) ↦[(outRow L (4 * k.val - 1) hB).view.set]{fullShare} cw1)
      ∗ ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} cC) ∗ ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} cD))
      ⊢ (D.outRest (k.val + 1) (by omega) (by omega) : sProp 𝕄) := by
  have hk50 := t2_lt k
  have b2 : k0_off38 L k 2#32 = ![4 * (k.val + 1) - 2, 0, col0 L] := by rw [show 4 * (k.val + 1) - 2 = 4 * k.val + 2 by omega]; exact k0_off38_eq L k 2
  have b3 : k0_off38 L k 3#32 = ![4 * (k.val + 1) - 1, 0, col0 L] := by rw [show 4 * (k.val + 1) - 1 = 4 * k.val + 3 by omega]; exact k0_off38_eq L k 3
  -- one contents for all the pieces: row by row
  let fS : Buf (Elt F) (oLoc d) := fun i =>
    if (i 0).val = 4 * k.val - 2 then cw0 i else if (i 0).val = 4 * k.val - 1 then cw1 i
    else if (i 0).val = 4 * k.val then cC i else if (i 0).val = 4 * k.val + 1 then cD i else og i
  have mA : ∀ i : S200x32x4096.Idx, i ∈ (outRow L (4 * k.val - 2) hA).view.set ↔ (i 0).val = 4 * k.val - 2 ∧ col0 L ≤ (i 2).val ∧ (i 2).val < col0 L + 128 := fun i => outRow_mem L _ _ i
  have mB : ∀ i : S200x32x4096.Idx, i ∈ (outRow L (4 * k.val - 1) hB).view.set ↔ (i 0).val = 4 * k.val - 1 ∧ col0 L ≤ (i 2).val ∧ (i 2).val < col0 L + 128 := fun i => outRow_mem L _ _ i
  have m0 : ∀ i : S200x32x4096.Idx, i ∈ ((oV.slice (Rect.unit (s := S200x32x4096) (k0_off38 L k 0#32) S1x32x128.size (k0_off38_inb L k 0)) (fun _ => rfl)).squeeze S32x128 squeezes_S1x32x128_S32x128).view.set ↔ (i 0).val = 4 * k.val + 0 ∧ col0 L ≤ (i 2).val ∧ (i 2).val < col0 L + 128 := fun i => (prow_mem L _ (4 * k.val + 0) (by omega) (k0_off38_eq L k 0) _ _ i)
  have m1 : ∀ i : S200x32x4096.Idx, i ∈ ((oV.slice (Rect.unit (s := S200x32x4096) (k0_off38 L k 1#32) S1x32x128.size (k0_off38_inb L k 1)) (fun _ => rfl)).squeeze S32x128 squeezes_S1x32x128_S32x128).view.set ↔ (i 0).val = 4 * k.val + 1 ∧ col0 L ≤ (i 2).val ∧ (i 2).val < col0 L + 128 := fun i => (prow_mem L _ (4 * k.val + 1) (by omega) (k0_off38_eq L k 1) _ _ i)
  have m2 : ∀ i : S200x32x4096.Idx, i ∈ ((oV.slice (Rect.unit (s := S200x32x4096) (k0_off38 L k 2#32) S1x32x128.size (k0_off38_inb L k 2)) (fun _ => rfl)).squeeze S32x128 squeezes_S1x32x128_S32x128).view.set ↔ (i 0).val = 4 * k.val + 2 ∧ col0 L ≤ (i 2).val ∧ (i 2).val < col0 L + 128 := fun i => (prow_mem L _ (4 * k.val + 2) (by omega) (k0_off38_eq L k 2) _ _ i)
  have m3 : ∀ i : S200x32x4096.Idx, i ∈ ((oV.slice (Rect.unit (s := S200x32x4096) (k0_off38 L k 3#32) S1x32x128.size (k0_off38_inb L k 3)) (fun _ => rfl)).squeeze S32x128 squeezes_S1x32x128_S32x128).view.set ↔ (i 0).val = 4 * k.val + 3 ∧ col0 L ≤ (i 2).val ∧ (i 2).val < col0 L + 128 := fun i => (prow_mem L _ (4 * k.val + 3) (by omega) (k0_off38_eq L k 3) _ _ i)
  have mO := oSet_mem' L
  have eO : (((oV).view.loc (thr d L) ↦[(((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set]{fullShare} og : sProp 𝕄)) = ((oV).view.loc (thr d L) ↦[(((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set]{fullShare} fS) :=
    pointsTo_congr (fun i hi => by
      simp only [Finset.mem_sdiff, mA, mB, m0, m1, m2, m3, mO] at hi
      show og i = (if (i 0).val = 4 * k.val - 2 then cw0 i else if (i 0).val = 4 * k.val - 1 then cw1 i
        else if (i 0).val = 4 * k.val then cC i else if (i 0).val = 4 * k.val + 1 then cD i else og i)
      rw [if_neg (by omega), if_neg (by omega), if_neg (by omega), if_neg (by omega)])
  have eA : (((oV).view.loc (thr d L) ↦[(outRow L (4 * k.val - 2) hA).view.set]{fullShare} cw0 : sProp 𝕄)) = ((oV).view.loc (thr d L) ↦[(outRow L (4 * k.val - 2) hA).view.set]{fullShare} fS) :=
    pointsTo_congr (fun i hi => by
      have h1 := ((mA i).1 hi).1
      show cw0 i = (if (i 0).val = 4 * k.val - 2 then cw0 i else _)
      rw [if_pos h1])
  have eB : (((oV).view.loc (thr d L) ↦[(outRow L (4 * k.val - 1) hB).view.set]{fullShare} cw1 : sProp 𝕄)) = ((oV).view.loc (thr d L) ↦[(outRow L (4 * k.val - 1) hB).view.set]{fullShare} fS) :=
    pointsTo_congr (fun i hi => by
      have h1 := ((mB i).1 hi).1
      show cw1 i = (if (i 0).val = 4 * k.val - 2 then cw0 i else if (i 0).val = 4 * k.val - 1 then cw1 i else _)
      rw [if_neg (by omega), if_pos h1])
  have eC : (((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} cC : sProp 𝕄)) = ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} fS) :=
    pointsTo_congr (fun i hi => by
      have h1 := ((m0 i).1 hi).1
      show cC i = (if (i 0).val = 4 * k.val - 2 then cw0 i else if (i 0).val = 4 * k.val - 1 then cw1 i
        else if (i 0).val = 4 * k.val then cC i else _)
      rw [if_neg (by omega), if_neg (by omega), if_pos (by omega)])
  have eD : (((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} cD : sProp 𝕄)) = ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} fS) :=
    pointsTo_congr (fun i hi => by
      have h1 := ((m1 i).1 hi).1
      show cD i = (if (i 0).val = 4 * k.val - 2 then cw0 i else if (i 0).val = 4 * k.val - 1 then cw1 i
        else if (i 0).val = 4 * k.val then cC i else if (i 0).val = 4 * k.val + 1 then cD i else og i)
      rw [if_neg (by omega), if_neg (by omega), if_neg (by omega), if_pos h1])
  rw [eO, eA, eB, eC, eD]
  -- the pieces side by side are the tile's part less the two rows being written
  have d1 : Disjoint ((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set : Finset S200x32x4096.Idx) ((outRow L (4 * k.val - 2) hA).view.set) := Finset.disjoint_left.2 fun i h1 h2 => by
    simp only [Finset.mem_sdiff, mA, mB, m0, m1, m2, m3, mO] at h1 h2; omega
  have d2 : Disjoint (((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set : Finset S200x32x4096.Idx) ((outRow L (4 * k.val - 1) hB).view.set) := Finset.disjoint_left.2 fun i h1 h2 => by
    simp only [Finset.mem_union, Finset.mem_sdiff, mA, mB, m0, m1, m2, m3, mO] at h1 h2; omega
  have d3 : Disjoint ((((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set) ∪ (outRow L (4 * k.val - 1) hB).view.set : Finset S200x32x4096.Idx) (((oV.slice (Rect.unit (s := S200x32x4096) (k0_off38 L k 0#32) S1x32x128.size (k0_off38_inb L k 0)) (fun _ => rfl)).squeeze S32x128 squeezes_S1x32x128_S32x128).view.set) := Finset.disjoint_left.2 fun i h1 h2 => by
    simp only [Finset.mem_union, Finset.mem_sdiff, mA, mB, m0, m1, m2, m3, mO] at h1 h2; omega
  have d4 : Disjoint (((((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set) ∪ (outRow L (4 * k.val - 1) hB).view.set) ∪ ((oV.slice (Rect.unit (s := S200x32x4096) (k0_off38 L k 0#32) S1x32x128.size (k0_off38_inb L k 0)) (fun _ => rfl)).squeeze S32x128 squeezes_S1x32x128_S32x128).view.set : Finset S200x32x4096.Idx) (((oV.slice (Rect.unit (s := S200x32x4096) (k0_off38 L k 1#32) S1x32x128.size (k0_off38_inb L k 1)) (fun _ => rfl)).squeeze S32x128 squeezes_S1x32x128_S32x128).view.set) := Finset.disjoint_left.2 fun i h1 h2 => by
    simp only [Finset.mem_union, Finset.mem_sdiff, mA, mB, m0, m1, m2, m3, mO] at h1 h2; omega
  have hU : (((((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set) ∪ (outRow L (4 * k.val - 1) hB).view.set) ∪ ((oV.slice (Rect.unit (s := S200x32x4096) (k0_off38 L k 0#32) S1x32x128.size (k0_off38_inb L k 0)) (fun _ => rfl)).squeeze S32x128 squeezes_S1x32x128_S32x128).view.set) ∪ ((oV.slice (Rect.unit (s := S200x32x4096) (k0_off38 L k 1#32) S1x32x128.size (k0_off38_inb L k 1)) (fun _ => rfl)).squeeze S32x128 squeezes_S1x32x128_S32x128).view.set
      = ((oSet L : Finset S200x32x4096.Idx) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set := by
    ext i
    simp only [Finset.mem_union, Finset.mem_sdiff, mA, mB, m0, m1, m2, m3, mO]
    omega
  -- every row below the two being written is done
  have hdoneAll : ∀ (h : Nat) (hh : h < 200), h + 2 < 4 * (k.val + 1) → D.rowDone h hh fS := by
    intro h hh hlt
    by_cases c1 : h = 4 * k.val - 2
    · subst c1
      exact rowDone_congr D _ hh cw0 fS (fun i hi => by
        have h1 := ((outRow_mem L _ _ i).1 hi).1
        show (if (i 0).val = 4 * k.val - 2 then cw0 i else _) = cw0 i
        rw [if_pos h1]) hdA
    by_cases c2 : h = 4 * k.val - 1
    · subst c2
      exact rowDone_congr D _ hh cw1 fS (fun i hi => by
        have h1 := ((outRow_mem L _ _ i).1 hi).1
        show (if (i 0).val = 4 * k.val - 2 then cw0 i else if (i 0).val = 4 * k.val - 1 then cw1 i else _) = cw1 i
        rw [if_neg (by omega), if_pos h1]) hdB
    by_cases c3 : h = 4 * k.val + 0
    · subst c3
      exact rowDone_congr D _ hh cC fS (fun i hi => by
        have h1 := ((outRow_mem L _ _ i).1 hi).1
        show (if (i 0).val = 4 * k.val - 2 then cw0 i else if (i 0).val = 4 * k.val - 1 then cw1 i
          else if (i 0).val = 4 * k.val then cC i else _) = cC i
        rw [if_neg (by omega), if_neg (by omega), if_pos (by omega)]) hdC
    by_cases c4 : h = 4 * k.val + 1
    · subst c4
      exact rowDone_congr D _ hh cD fS (fun i hi => by
        have h1 := ((outRow_mem L _ _ i).1 hi).1
        show (if (i 0).val = 4 * k.val - 2 then cw0 i else if (i 0).val = 4 * k.val - 1 then cw1 i
          else if (i 0).val = 4 * k.val then cC i else if (i 0).val = 4 * k.val + 1 then cD i else og i) = cD i
        rw [if_neg (by omega), if_neg (by omega), if_neg (by omega), if_pos h1]) hdD
    exact rowDone_congr D h hh og fS (fun i hi => by
      have h1 := ((outRow_mem L _ _ i).1 hi).1
      show (if (i 0).val = 4 * k.val - 2 then cw0 i else if (i 0).val = 4 * k.val - 1 then cw1 i
        else if (i 0).val = 4 * k.val then cC i else if (i 0).val = 4 * k.val + 1 then cD i else og i) = og i
      rw [if_neg (by omega), if_neg (by omega), if_neg (by omega), if_neg (by omega)]) (hog h hh (by omega))

  iintro ⟨H, HA, HB, HC, HD⟩
  ihave H := (pointsTo_union (Ix := HIx 1) (Val := Elt F) (Name := ℕ) (U := UU) (Lvl := ℕ) (ℓ := (oV).view.loc (thr d L)) (q := fullShare) (f := fS) d1).2 $$ [H HA]
  · isplitl [H]; · iexact H
    iexact HA
  ihave H := (pointsTo_union (Ix := HIx 1) (Val := Elt F) (Name := ℕ) (U := UU) (Lvl := ℕ) (ℓ := (oV).view.loc (thr d L)) (q := fullShare) (f := fS) d2).2 $$ [H HB]
  · isplitl [H]; · iexact H
    iexact HB
  ihave H := (pointsTo_union (Ix := HIx 1) (Val := Elt F) (Name := ℕ) (U := UU) (Lvl := ℕ) (ℓ := (oV).view.loc (thr d L)) (q := fullShare) (f := fS) d3).2 $$ [H HC]
  · isplitl [H]; · iexact H
    iexact HC
  ihave H := (pointsTo_union (Ix := HIx 1) (Val := Elt F) (Name := ℕ) (U := UU) (Lvl := ℕ) (ℓ := (oV).view.loc (thr d L)) (q := fullShare) (f := fS) d4).2 $$ [H HD]
  · isplitl [H]; · iexact H
    iexact HD
  ihave H := (Entails.of_eq (congrArg (fun T => ((oV).view.loc (thr d L) ↦[T]{fullShare} fS : sProp 𝕄)) hU)) $$ H
  iapply (outRest_of_prog D (k.val + 1) _ _ (k0_off38 L k 2#32) (k0_off38 L k 3#32) b2 b3 _ _ _ _ fS hdoneAll)
  iexact H

set_option maxHeartbeats 16000000 in
/-- A middle trip of the pipeline: four positions gathered, extracted and written out, every wait paired with its flight. -/
theorem ring_mid (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000)
    (k : Fin (Scf.trips k0_t2_loop.lb k0_t2_loop.ub k0_t2_loop.st)) (hk : 0 < k.val ∧ k.val < 49) (acc : Unit) :
    ringInv D k.val acc ⊢ wp frame (wpE (defs₀ (F := F)) 𝒱₀ (thr d L) none) Set.univ
      (k0_t2_body (F := F) L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 (iota .scVector S16 32 [0] iota_S16_d0_w32_scVector) k acc)
      (ringInv D (k.val + 1)) := by
  have hk50 : k.val < 50 := t2_lt k
  have hk0 : ¬ k.val = 0 := by omega
  sl_respell [k0_t2_body]
  simp only [k0_part41_eq_skeleton, k0_part42_eq_skeleton, k0_part43_eq_skeleton]
  unfold k0_part41_skel k0_part42_skel k0_part43_skel
  simp only [Prog.bind_assoc]
  have k0_h1 : k0_cond1 k = 1#1 := cond1_eq k
  have k0_h2 : k0_cond2 k = 1#1 := (cond2_eq k).2 (by omega)
  have k0_h3 : k0_cond3 k = 1#1 := (cond3_eq k).2 (by omega)
  have k0_h4 : k0_cond4 k = 1#1 := (cond4_eq k).2 (by omega)
  have k0_h5 : k0_cond5 k = 1#1 := (cond5_eq k).2 (by omega)
  have k0_h6 : k0_cond6 k = 1#1 := cond6_eq k
  have k0_h7 : k0_cond7 k = 1#1 := (cond7_eq k).2 (by omega)
  have k0_h8 : k0_cond8 k = 1#1 := cond8_eq k
  have hin : ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) D.fq x).toNat < 250000 :=
    fun off inb x => hfq _
  have rd_cast : ∀ (h h' : Nat) (hh : h < 200) (hh' : h' < 200) (c : Buf (Elt F) (oLoc d)), h = h' → D.rowDone h hh c → D.rowDone h' hh' c := by
    intro h h' hh hh' c e hd; subst e; exact hd
  have qs0 : D.qs 0 = Transfers.shareDrop D.qQ 3 := rfl
  have qs1 : D.qs 1 = Transfers.shareTokN D.qQ 0 := rfl
  have qs2 : D.qs 2 = Transfers.shareTokN D.qQ 1 := rfl
  have qs3 : D.qs 3 = Transfers.shareTokN D.qQ 2 := rfl
  unfold ringInv RingData.gPart RingData.wPart
  rw [dif_pos hk50, dif_neg hk0, dif_pos (by omega : k.val ≤ 50), dif_pos (by omega : k.val + 1 < 50), dif_neg (by omega : ¬ k.val + 1 = 0), dif_pos (by omega : k.val + 1 ≤ 50)]
  unfold RingData.busy RingData.free RingData.writing RingData.outRest
  rw [qs0, qs1, qs2, qs3]
  iintro ⟨#Hmw, Hs0, ⟨⟨⟨%c0, %hgath0, Hg0⟩, Ht0, Hq0⟩, ⟨⟨%c1, %hgath1, Hg1⟩, Ht1, Hq1⟩, ⟨⟨%c2, %hgath2, Hg2⟩, Ht2, Hq2⟩, ⟨Hg3, ⟨%c3f, Hs2⟩, Ht3, Hq3⟩⟩, ⟨⟨%cw0, %ow0, %hdone0, Hw0⟩, ⟨%cw1, %ow1, %hdone1, Hw1⟩, ⟨%og, %hog, Ho⟩⟩, %W', %hW', HO⟩
  have hv3 : ∀ l : Fin 16, (iota Kind.scVector S16 32 [0] iota_S16_d0_w32_scVector) (ix1 l) = BitVec.ofNat 32 l.val :=
    fun l => iota_single_apply .scVector S16 32 0 iota_S16_d0_w32_scVector (ix1 l)
  have e38_0 : ((oV.slice (Rect.unit (s := S200x32x4096) (k0_off38 L k 0#32) S1x32x128.size (k0_off38_inb L k 0)) (fun _ => rfl)).squeeze S32x128 squeezes_S1x32x128_S32x128) = outRow L (4 * k.val + 0) (by omega) := row_eq L _ _ _ (k0_off38_eq L k 0) _ _
  have e38_1 : ((oV.slice (Rect.unit (s := S200x32x4096) (k0_off38 L k 1#32) S1x32x128.size (k0_off38_inb L k 1)) (fun _ => rfl)).squeeze S32x128 squeezes_S1x32x128_S32x128) = outRow L (4 * k.val + 1) (by omega) := row_eq L _ _ _ (k0_off38_eq L k 1) _ _
  have e38_2 : ((oV.slice (Rect.unit (s := S200x32x4096) (k0_off38 L k 2#32) S1x32x128.size (k0_off38_inb L k 2)) (fun _ => rfl)).squeeze S32x128 squeezes_S1x32x128_S32x128) = outRow L (4 * k.val + 2) (by omega) := row_eq L _ _ _ (k0_off38_eq L k 2) _ _
  have e38_3 : ((oV.slice (Rect.unit (s := S200x32x4096) (k0_off38 L k 3#32) S1x32x128.size (k0_off38_inb L k 3)) (fun _ => rfl)).squeeze S32x128 squeezes_S1x32x128_S32x128) = outRow L (4 * k.val + 3) (by omega) := row_eq L _ _ _ (k0_off38_eq L k 3) _ _
  have pts_g : ∀ (s : Nat) (hs : s < 4) (inb) (c : Buf (Elt F) ((thr d L).loc cc0_scratch2)), ((sG).view.loc (thr d L) ↦[(slotGn s inb).view.set]{fullShare} c : sProp 𝕄)
      = ((slotG s hs).view.loc (thr d L) ↦[(slotG s hs).view.set]{fullShare} c) := fun _ _ _ _ => rfl
  have pts_o : ∀ (b : Nat) (hb : b < 2) (inb) (c : Buf (Elt F) ((thr d L).loc cc0_scratch3)), ((sO).view.loc (thr d L) ↦[(slotOn b inb).view.set]{fullShare} c : sProp 𝕄)
      = ((slotO b hb).view.loc (thr d L) ↦[(slotO b hb).view.set]{fullShare} c) := fun _ _ _ _ => rfl
  have hA : 4 * k.val - 2 < 200 := by omega
  have hB : 4 * k.val - 1 < 200 := by omega
  sl_exec
  irename Hw0_dst => HrA
  sl_rw [Prog.bind_assoc]
  sl_for (extractInv_0 (F := F) d L k D.fI c0) $$ [Hs0 Hg0_dst Hw0_src]
  case region => exact extract_region_0 d L _ hv3 _ _ k _ D.fI c0
  · iapply (extract_intro_0 d L k D.fI c0 ow0)
    isplitl [Hs0]; · iexact Hs0
    isplitl [Hg0_dst]; · iexact Hg0_dst
    iexact Hw0_src
  iintro %acc0x HInv
  have h8_0 : Scf.trips k0_t3_loop.lb k0_t3_loop.ub k0_t3_loop.st = 8 := by decide
  have e8_0 : extractInv_0 (F := F) d L k D.fI c0 (Scf.trips k0_t3_loop.lb k0_t3_loop.ub k0_t3_loop.st) acc0x = extractInv_0 (F := F) d L k D.fI c0 8 () := by rw [h8_0]
  ihave HInv := (Entails.of_eq e8_0) $$ HInv
  ihave HInv := (extract_elim_0 d L k D.fI c0) $$ HInv
  icases HInv with ⟨Hs0, Hg0_dst, %o0', HO0, %hval0⟩
  ihave Hg0_dst := (Entails.of_eq (pts_g 0 lt4_0 _ c0)) $$ Hg0_dst
  ihave HO0 := (Entails.of_eq (pts_o 0 lt2_0 _ o0')) $$ HO0
  have hsubR0 : (((oV.slice (Rect.unit (s := S200x32x4096) (k0_off38 L k 0#32) S1x32x128.size (k0_off38_inb L k 0)) (fun _ => rfl)).squeeze S32x128 squeezes_S1x32x128_S32x128).view.set : Finset S200x32x4096.Idx) ⊆ ((oSet L \ (outRow L (4 * k.val - 2) hA).view.set) \ (outRow L (4 * k.val - 1) hB).view.set : Finset S200x32x4096.Idx) := by
    intro i hi
    have hm := (prow_mem L _ (4 * k.val + 0) (by omega) (k0_off38_eq L k 0) _ _ i).1 hi
    refine Finset.mem_sdiff.2 ⟨Finset.mem_sdiff.2 ⟨(oSet_mem' L i).2 ⟨hm.2.1, hm.2.2⟩, ?_⟩, ?_⟩
    · intro h'; have := ((outRow_mem L _ _ i).1 h').1; omega
    · intro h'; have := ((outRow_mem L _ _ i).1 h').1; omega

  ihave Ho := (pointsTo_split_subset (ℓ := (oV).view.loc (thr d L)) hsubR0).1 $$ Ho
  icases Ho with ⟨HR0, Ho⟩
  have pts_r0 : ∀ c : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} c : sProp 𝕄)
      = (((oV.slice (Rect.unit (s := S200x32x4096) (k0_off38 L k 0#32) S1x32x128.size (k0_off38_inb L k 0)) (fun _ => rfl)).squeeze S32x128 squeezes_S1x32x128_S32x128).view.loc (thr d L) ↦[((oV.slice (Rect.unit (s := S200x32x4096) (k0_off38 L k 0#32) S1x32x128.size (k0_off38_inb L k 0)) (fun _ => rfl)).squeeze S32x128 squeezes_S1x32x128_S32x128).view.set]{fullShare} c) := fun _ => rfl
  ihave HR0 := (Entails.of_eq (pts_r0 og)) $$ HR0
  sl_exec
  irename Hw1_dst => HrB
  sl_rw [Prog.bind_assoc]
  sl_for (extractInv_1 (F := F) d L k D.fI c1) $$ [Hs0 Hg1_dst Hw1_src]
  case region => exact extract_region_1 d L _ hv3 k _ _ D.fI c1
  · iapply (extract_intro_1 d L k D.fI c1 ow1)
    isplitl [Hs0]; · iexact Hs0
    isplitl [Hg1_dst]; · iexact Hg1_dst
    iexact Hw1_src
  iintro %acc1x HInv
  have h8_1 : Scf.trips k0_t4_loop.lb k0_t4_loop.ub k0_t4_loop.st = 8 := by decide
  have e8_1 : extractInv_1 (F := F) d L k D.fI c1 (Scf.trips k0_t4_loop.lb k0_t4_loop.ub k0_t4_loop.st) acc1x = extractInv_1 (F := F) d L k D.fI c1 8 () := by rw [h8_1]
  ihave HInv := (Entails.of_eq e8_1) $$ HInv
  ihave HInv := (extract_elim_1 d L k D.fI c1) $$ HInv
  icases HInv with ⟨Hs0, Hg1_dst, %o1', HO1, %hval1⟩
  ihave Hg1_dst := (Entails.of_eq (pts_g 1 lt4_1 _ c1)) $$ Hg1_dst
  ihave HO1 := (Entails.of_eq (pts_o 1 lt2_1 _ o1')) $$ HO1
  have hsubR1 : (((oV.slice (Rect.unit (s := S200x32x4096) (k0_off38 L k 1#32) S1x32x128.size (k0_off38_inb L k 1)) (fun _ => rfl)).squeeze S32x128 squeezes_S1x32x128_S32x128).view.set : Finset S200x32x4096.Idx) ⊆ (((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set : Finset S200x32x4096.Idx) := by
    intro i hi
    have hm := (prow_mem L _ (4 * k.val + 1) (by omega) (k0_off38_eq L k 1) _ _ i).1 hi
    refine Finset.mem_sdiff.2 ⟨Finset.mem_sdiff.2 ⟨Finset.mem_sdiff.2 ⟨(oSet_mem' L i).2 ⟨hm.2.1, hm.2.2⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
  ihave Ho := (pointsTo_split_subset (ℓ := (oV).view.loc (thr d L)) hsubR1).1 $$ Ho
  icases Ho with ⟨HR1, Ho⟩
  have pts_r1 : ∀ c : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} c : sProp 𝕄)
      = (((oV.slice (Rect.unit (s := S200x32x4096) (k0_off38 L k 1#32) S1x32x128.size (k0_off38_inb L k 1)) (fun _ => rfl)).squeeze S32x128 squeezes_S1x32x128_S32x128).view.loc (thr d L) ↦[((oV.slice (Rect.unit (s := S200x32x4096) (k0_off38 L k 1#32) S1x32x128.size (k0_off38_inb L k 1)) (fun _ => rfl)).squeeze S32x128 squeezes_S1x32x128_S32x128).view.set]{fullShare} c) := fun _ => rfl
  ihave HR1 := (Entails.of_eq (pts_r1 og)) $$ HR1
  sl_exec
  sl_rw [Prog.bind_assoc]
  sl_for (extractInv_2 (F := F) d L k D.fI c2) $$ [Hs0 Hg2_dst HO0]
  case region => exact extract_region_2 d L _ hv3 k _ _ _ D.fI c2
  · iapply (extract_intro_2 d L k D.fI c2 _)
    isplitl [Hs0]; · iexact Hs0
    isplitl [Hg2_dst]; · iexact Hg2_dst
    iexact HO0
  iintro %acc2x HInv
  have h8_2 : Scf.trips k0_t5_loop.lb k0_t5_loop.ub k0_t5_loop.st = 8 := by decide
  have e8_2 : extractInv_2 (F := F) d L k D.fI c2 (Scf.trips k0_t5_loop.lb k0_t5_loop.ub k0_t5_loop.st) acc2x = extractInv_2 (F := F) d L k D.fI c2 8 () := by rw [h8_2]
  ihave HInv := (Entails.of_eq e8_2) $$ HInv
  ihave HInv := (extract_elim_2 d L k D.fI c2) $$ HInv
  icases HInv with ⟨Hs0, Hg2_dst, %o2', HO2, %hval2⟩
  ihave Hg2_dst := (Entails.of_eq (pts_g 2 lt4_2 _ c2)) $$ Hg2_dst
  ihave HO2 := (Entails.of_eq (pts_o 0 lt2_0 _ o2')) $$ HO2
  have hsubR2 : (((oV.slice (Rect.unit (s := S200x32x4096) (k0_off38 L k 2#32) S1x32x128.size (k0_off38_inb L k 2)) (fun _ => rfl)).squeeze S32x128 squeezes_S1x32x128_S32x128).view.set : Finset S200x32x4096.Idx) ⊆ ((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set : Finset S200x32x4096.Idx) := by
    intro i hi
    have hm := (prow_mem L _ (4 * k.val + 2) (by omega) (k0_off38_eq L k 2) _ _ i).1 hi
    refine Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
  ihave Ho := (pointsTo_split_subset (ℓ := (oV).view.loc (thr d L)) hsubR2).1 $$ Ho
  icases Ho with ⟨HR2, Ho⟩
  have pts_r2 : ∀ c : Buf (Elt F) (oLoc d), ((oV).view.loc (thr d L) ↦[((oV.slice (Rect.unit (s := S200x32x4096) (k0_off38 L k 2#32) S1x32x128.size (k0_off38_inb L k 2)) (fun _ => rfl)).squeeze S32x128 squeezes_S1x32x128_S32x128).view.set]{fullShare} c : sProp 𝕄)
      = (((oV.slice (Rect.unit (s := S200x32x4096) (k0_off38 L k 2#32) S1x32x128.size (k0_off38_inb L k 2)) (fun _ => rfl)).squeeze S32x128 squeezes_S1x32x128_S32x128).view.loc (thr d L) ↦[((oV.slice (Rect.unit (s := S200x32x4096) (k0_off38 L k 2#32) S1x32x128.size (k0_off38_inb L k 2)) (fun _ => rfl)).squeeze S32x128 squeezes_S1x32x128_S32x128).view.set]{fullShare} c) := fun _ => rfl
  ihave HR2 := (Entails.of_eq (pts_r2 og)) $$ HR2
  sl_exec
  ihave Hg3_dst : iprop(∃ c3 : Buf (Elt F) ((thr d L).loc cc0_scratch2), ((sG).view.loc (thr d L) ↦[(slotGn 3 inb_S4x128x128_S1x128x128_3_0_0).view.set]{fullShare} c3) ∗ ⌜D.gathered 3 lt4_3 (4 * k.val + 3) (by omega) c3⌝) $$ [Hs2]
  · iexists _
    isplitl [Hs2]; · iexact Hs2
    ipureintro
    exact gathered_off D 3 lt4_3 (4 * k.val + 3) (by omega) (k0_off3 k) (k0_off3_eq k) (k0_off3_inb k k0_h1) rfl (hin _ _) _
  icases Hg3_dst with ⟨%c3, Hg3_dst, %hgath3⟩
  sl_for (extractInv_3 (F := F) d L k D.fI c3) $$ [Hs0 Hg3_dst HO1]
  case region => exact extract_region_3 d L _ hv3 k _ D.fI c3
  · iapply (extract_intro_3 d L k D.fI c3 _)
    isplitl [Hs0]; · iexact Hs0
    isplitl [Hg3_dst]; · iexact Hg3_dst
    iexact HO1
  iintro %acc3x HInv
  have h8_3 : Scf.trips k0_t6_loop.lb k0_t6_loop.ub k0_t6_loop.st = 8 := by decide
  have e8_3 : extractInv_3 (F := F) d L k D.fI c3 (Scf.trips k0_t6_loop.lb k0_t6_loop.ub k0_t6_loop.st) acc3x = extractInv_3 (F := F) d L k D.fI c3 8 () := by rw [h8_3]
  ihave HInv := (Entails.of_eq e8_3) $$ HInv
  ihave HInv := (extract_elim_3 d L k D.fI c3) $$ HInv
  icases HInv with ⟨Hs0, Hg3_dst, %o3', HO3, %hval3⟩
  ihave Hg3_dst := (Entails.of_eq (pts_g 3 lt4_3 _ c3)) $$ Hg3_dst
  ihave HO3 := (Entails.of_eq (pts_o 1 lt2_1 _ o3')) $$ HO3
  have hsubR3 : (((oV.slice (Rect.unit (s := S200x32x4096) (k0_off38 L k 3#32) S1x32x128.size (k0_off38_inb L k 3)) (fun _ => rfl)).squeeze S32x128 squeezes_S1x32x128_S32x128).view.set : Finset S200x32x4096.Idx) ⊆ (((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set : Finset S200x32x4096.Idx) := by
    intro i hi
    have hm := (prow_mem L _ (4 * k.val + 3) (by omega) (k0_off38_eq L k 3) _ _ i).1 hi
    refine Finset.mem_sdiff.2 ⟨Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
    · intro h'; have := ((prow_mem L _ (4 * k.val + 2) (by omega) (k0_off38_eq L k 2) _ _ i).1 h').1; omega
  ihave Ho := (pointsTo_split_subset (ℓ := (oV).view.loc (thr d L)) hsubR3).1 $$ Ho
  icases Ho with ⟨HR3, Ho⟩
  have pts_r3 : ∀ c : Buf (Elt F) (oLoc d), ((oV).view.loc (thr d L) ↦[((oV.slice (Rect.unit (s := S200x32x4096) (k0_off38 L k 3#32) S1x32x128.size (k0_off38_inb L k 3)) (fun _ => rfl)).squeeze S32x128 squeezes_S1x32x128_S32x128).view.set]{fullShare} c : sProp 𝕄)
      = (((oV.slice (Rect.unit (s := S200x32x4096) (k0_off38 L k 3#32) S1x32x128.size (k0_off38_inb L k 3)) (fun _ => rfl)).squeeze S32x128 squeezes_S1x32x128_S32x128).view.loc (thr d L) ↦[((oV.slice (Rect.unit (s := S200x32x4096) (k0_off38 L k 3#32) S1x32x128.size (k0_off38_inb L k 3)) (fun _ => rfl)).squeeze S32x128 squeezes_S1x32x128_S32x128).view.set]{fullShare} c) := fun _ => rfl
  ihave HR3 := (Entails.of_eq (pts_r3 og)) $$ HR3
  sl_exec
  -- the end of the trip
  have a39 : k0_off39 k = ![4 * (k.val + 1), 0] := by rw [k0_off39_eq, show 4 * (k.val + 1) = 4 * k.val + 4 by omega]
  have a74 : k0_off74 k = ![4 * (k.val + 1) + 1, 0] := by rw [k0_off74_eq, show 4 * (k.val + 1) + 1 = 4 * k.val + 5 by omega]
  have a109 : k0_off109 k = ![4 * (k.val + 1) + 2, 0] := by rw [k0_off109_eq, show 4 * (k.val + 1) + 2 = 4 * k.val + 6 by omega]
  have b2 : k0_off38 L k 2#32 = ![4 * (k.val + 1) - 2, 0, col0 L] := by rw [show 4 * (k.val + 1) - 2 = 4 * k.val + 2 by omega]; exact k0_off38_eq L k 2
  have b3 : k0_off38 L k 3#32 = ![4 * (k.val + 1) - 1, 0, col0 L] := by rw [show 4 * (k.val + 1) - 1 = 4 * k.val + 3 by omega]; exact k0_off38_eq L k 3
  iclear Hg0_dst Hg1_dst Hg2_dst
  ihave HR0 : iprop(∃ cC : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} cC) ∗ ⌜D.rowDone (4 * k.val + 0) (by omega) cC⌝) $$ [HR0]
  · iexists _
    isplitl [HR0]; · iexact HR0
    ipureintro
    exact (rowDone_written_off D hfI hq hix 0 lt4_0 0 lt2_0 (4 * k.val + 0) (by omega) (k0_off38 L k 0#32) (k0_off38_eq L k 0) _ c0 hgath0 o0' (hval_of_extract D.fI c0 o0' 0 lt4_0 0 lt2_0 (4 * k.val + 0) (by omega) hval0) _ _ (fun dd col => slotO_read 0 lt2_0 o0' dd col))
  icases HR0 with ⟨%cC, HR0, %hdC⟩
  ihave HR1 : iprop(∃ cD : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} cD) ∗ ⌜D.rowDone (4 * k.val + 1) (by omega) cD⌝) $$ [HR1]
  · iexists _
    isplitl [HR1]; · iexact HR1
    ipureintro
    exact (rowDone_written_off D hfI hq hix 1 lt4_1 1 lt2_1 (4 * k.val + 1) (by omega) (k0_off38 L k 1#32) (k0_off38_eq L k 1) _ c1 hgath1 o1' (hval_of_extract D.fI c1 o1' 1 lt4_1 1 lt2_1 (4 * k.val + 1) (by omega) hval1) _ _ (fun dd col => slotO_read 1 lt2_1 o1' dd col))
  icases HR1 with ⟨%cD, HR1, %hdD⟩
  irw [wp_ret]
  imodintro
  isplitr; · iexact Hmw
  isplitl [Hs0]; · iexact Hs0
  isplitl [Hg0 Ht0 Hq0 Hg1 Ht1 Hq1 Hg2 Ht2 Hq2 Hg3 Hg3_dst Ht3 Hq3]
  · isplitl [Hg0 Ht0 Hq0]
    · have hb0 := busy_of_prog D 0 lt4_0 cc0_scratch4 (k0_off39 k) (4 * (k.val + 1)) (by omega) a39 (k0_off39_inb k k0_h3) (fun _ => rfl) _
        (gathered_off D 0 lt4_0 (4 * (k.val + 1)) (by omega) (k0_off39 k) a39 (k0_off39_inb k k0_h3) rfl (hin _ _) c0)
      unfold RingData.busy at hb0
      rw [qs0] at hb0
      iapply hb0
      isplitl [Hg0]; · iexact Hg0
      isplitl [Ht0]; · iexact Ht0
      iexact Hq0
    isplitl [Hg1 Ht1 Hq1]
    · have hb1 := busy_of_prog D 1 lt4_1 cc0_scratch5 (k0_off74 k) (4 * (k.val + 1) + 1) (by omega) a74 (k0_off74_inb k k0_h5) (fun _ => rfl) _
        (gathered_off D 1 lt4_1 (4 * (k.val + 1) + 1) (by omega) (k0_off74 k) a74 (k0_off74_inb k k0_h5) rfl (hin _ _) c1)
      unfold RingData.busy at hb1
      rw [qs1] at hb1
      iapply hb1
      isplitl [Hg1]; · iexact Hg1
      isplitl [Ht1]; · iexact Ht1
      iexact Hq1
    isplitl [Hg2 Ht2 Hq2]
    · have hb2 := busy_of_prog D 2 lt4_2 cc0_scratch6 (k0_off109 k) (4 * (k.val + 1) + 2) (by omega) a109 (k0_off109_inb k k0_h7) (fun _ => rfl) _
        (gathered_off D 2 lt4_2 (4 * (k.val + 1) + 2) (by omega) (k0_off109 k) a109 (k0_off109_inb k k0_h7) rfl (hin _ _) c2)
      unfold RingData.busy at hb2
      rw [qs2] at hb2
      iapply hb2
      isplitl [Hg2]; · iexact Hg2
      isplitl [Ht2]; · iexact Ht2
      iexact Hq2
    isplitl [Hg3]; · iexact Hg3
    isplitl [Hg3_dst]; · iexists _; iexact Hg3_dst
    isplitl [Ht3]; · iexact Ht3
    iexact Hq3
  isplitr [HO]
  · isplitl [Hw0]
    · have hd2 := (rowDone_written_off D hfI hq hix 2 lt4_2 0 lt2_0 (4 * k.val + 2) (by omega) (k0_off38 L k 2#32) (k0_off38_eq L k 2) (k0_off38_inb L k 2) c2 hgath2 o2' (hval_of_extract D.fI c2 o2' 2 lt4_2 0 lt2_0 (4 * k.val + 2) (by omega) hval2) og _ (fun dd col => slotO_read 0 lt2_0 o2' dd col))
      have hw0 := writing_of_prog D 0 lt2_0 cc0_scratch8 (k0_off38 L k 2#32) (4 * (k.val + 1) - 2) (by omega) b2 (k0_off38_inb L k 2) (fun _ => rfl) _ o2'
        (rd_cast (4 * k.val + 2) (4 * (k.val + 1) - 2) (by omega) (by omega) _ (by omega) hd2)
      unfold RingData.writing at hw0
      iapply hw0
      iexact Hw0
    isplitl [Hw1]
    · have hd3 := (rowDone_written_off D hfI hq hix 3 lt4_3 1 lt2_1 (4 * k.val + 3) (by omega) (k0_off38 L k 3#32) (k0_off38_eq L k 3) (k0_off38_inb L k 3) c3 hgath3 o3' (hval_of_extract D.fI c3 o3' 3 lt4_3 1 lt2_1 (4 * k.val + 3) (by omega) hval3) og _ (fun dd col => slotO_read 1 lt2_1 o3' dd col))
      have hw1 := writing_of_prog D 1 lt2_1 cc0_scratch9 (k0_off38 L k 3#32) (4 * (k.val + 1) - 1) (by omega) b3 (k0_off38_inb L k 3) (fun _ => rfl) _ o3'
        (rd_cast (4 * k.val + 3) (4 * (k.val + 1) - 1) (by omega) (by omega) _ (by omega) hd3)
      unfold RingData.writing at hw1
      iapply hw1
      iexact Hw1
    have hj := mid_rejoin D k hk hA hB og cw0 cw1 cC cD hog hdone0 hdone1 hdC hdD
    unfold RingData.outRest at hj
    iapply hj
    isplitl [Ho]; · iexact Ho
    isplitl [HrA]; · iexact HrA
    isplitl [HrB]; · iexact HrB
    isplitl [HR0]; · iexact HR0
    iexact HR1
  · iexists _
    isplitr
    rotate_left
    · iexact HO
    · ipureintro
      intro p hp
      rcases Finset.mem_insert.mp hp with h0 | hp
      · exact .inr (by rw [h0]; rfl)
      rcases Finset.mem_insert.mp hp with h1 | hp
      · exact .inr (by rw [h1]; rfl)
      rcases Finset.mem_insert.mp hp with h2 | hp
      · exact .inr (by rw [h2]; rfl)
      rcases Finset.mem_insert.mp hp with h3 | hp
      · exact .inr (by rw [h3]; rfl)
      rcases Finset.mem_insert.mp hp with h4 | hp
      · exact .inr (by rw [h4]; rfl)
      rcases Finset.mem_insert.mp hp with h5 | hp
      · exact .inr (by rw [h5]; rfl)
      rcases Finset.mem_insert.mp hp with h6 | hp
      · exact .inr (by rw [h6]; rfl)
      rcases Finset.mem_insert.mp hp with h7 | hp
      · exact .inr (by rw [h7]; rfl)
      exact hW' p hp

end Cert.Proof.KernelIdeal

end
-- ==== Proof.KernelIdealRingRejoin.lean ====
/-
  The result's rest, rejoined. After a trip of the pipeline the tile holds the rest of its part of the result —
  the part minus the two rows that were being written, minus the four rows written this trip — and the rows that
  came back, each at its own contents. Joined, they are the part minus the two rows now being written, and every
  row below those two is done: a row is told by its position, so the joins change no row but the one joined in.
-/
import proofs.«206503_g81295140979383_cont_9to1c4b_414_34_alg».proof.Proof.KernelIdealRingFacts

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

/-! ## The result's rest, rejoined -/

/-- A piece joined in: the joined contents are the piece's on the piece and the old ones elsewhere. -/
theorem join_in {ℓ : Loc nD τ sig} {q : PosShare TreeShare} {R A : Finset (Idx ℓ)} {g f : Buf (Elt F) ℓ} (hd : Disjoint R A) :
    iprop((ℓ ↦[R]{q} g) ∗ (ℓ ↦[A]{q} f))
      ⊢ (iprop(∃ g', ⌜(∀ i ∈ A, g' i = f i) ∧ (∀ i ∈ R, g' i = g i)⌝ ∗ ℓ ↦[R ∪ A]{q} g') : sProp 𝕄) := by
  iintro ⟨H1, H2⟩
  iexists (A.piecewise f g)
  isplitr
  · ipureintro
    exact ⟨fun i hi => Finset.piecewise_eq_of_mem _ _ _ hi, fun i hi => Finset.piecewise_eq_of_notMem _ _ _ (Finset.disjoint_left.mp hd hi)⟩
  iapply (pointsTo_join hd)
  isplitl [H1]; · iexact H1
  iexact H2

/-- Six pieces of a set `S`, told apart by a key (piece `j` is the elements of `S` with key `r0 + j`): the set minus all
    six, with the first four joined back in, is the set minus the last two; the joined contents are each piece's on
    the piece and the old ones at the keys below `r0`. -/
theorem rejoin4_abs {ℓ : Loc nD τ sig} {q : PosShare TreeShare} (key : Idx ℓ → Nat) (S A0 A1 A2 A3 A4 A5 : Finset (Idx ℓ)) (r0 : Nat)
    (m0 : ∀ i, i ∈ A0 ↔ i ∈ S ∧ key i = r0) (m1 : ∀ i, i ∈ A1 ↔ i ∈ S ∧ key i = r0 + 1) (m2 : ∀ i, i ∈ A2 ↔ i ∈ S ∧ key i = r0 + 2)
    (m3 : ∀ i, i ∈ A3 ↔ i ∈ S ∧ key i = r0 + 3) (m4 : ∀ i, i ∈ A4 ↔ i ∈ S ∧ key i = r0 + 4) (m5 : ∀ i, i ∈ A5 ↔ i ∈ S ∧ key i = r0 + 5)
    (g f0 f1 f2 f3 : Buf (Elt F) ℓ) :
    iprop((ℓ ↦[((((((S \ A0) \ A1) \ A2) \ A3) \ A4) \ A5)]{q} g) ∗ (ℓ ↦[A0]{q} f0) ∗ (ℓ ↦[A1]{q} f1) ∗ (ℓ ↦[A2]{q} f2) ∗ (ℓ ↦[A3]{q} f3))
      ⊢ (iprop(∃ g', ⌜(∀ i ∈ A0, g' i = f0 i) ∧ (∀ i ∈ A1, g' i = f1 i) ∧ (∀ i ∈ A2, g' i = f2 i) ∧ (∀ i ∈ A3, g' i = f3 i)
            ∧ (∀ i ∈ S, key i < r0 → g' i = g i)⌝ ∗ ℓ ↦[(S \ A4) \ A5]{q} g') : sProp 𝕄) := by
  have hR : ∀ i, i ∈ ((((((S \ A0) \ A1) \ A2) \ A3) \ A4) \ A5)
      ↔ i ∈ S ∧ key i ≠ r0 ∧ key i ≠ r0 + 1 ∧ key i ≠ r0 + 2 ∧ key i ≠ r0 + 3 ∧ key i ≠ r0 + 4 ∧ key i ≠ r0 + 5 := by
    intro i
    simp only [Finset.mem_sdiff, m0, m1, m2, m3, m4, m5]
    constructor
    · rintro ⟨⟨⟨⟨⟨⟨ho, n0⟩, n1⟩, n2⟩, n3⟩, n4⟩, n5⟩
      exact ⟨ho, fun e => n0 ⟨ho, e⟩, fun e => n1 ⟨ho, e⟩, fun e => n2 ⟨ho, e⟩, fun e => n3 ⟨ho, e⟩, fun e => n4 ⟨ho, e⟩, fun e => n5 ⟨ho, e⟩⟩
    · rintro ⟨ho, n0, n1, n2, n3, n4, n5⟩
      exact ⟨⟨⟨⟨⟨⟨ho, fun m => n0 m.2⟩, fun m => n1 m.2⟩, fun m => n2 m.2⟩, fun m => n3 m.2⟩, fun m => n4 m.2⟩, fun m => n5 m.2⟩
  generalize ((((((S \ A0) \ A1) \ A2) \ A3) \ A4) \ A5) = R at hR ⊢
  have D1 : Disjoint R A0 := Finset.disjoint_left.mpr fun i hi m => ((hR i).1 hi).2.1 ((m0 i).1 m).2
  have D2 : Disjoint (R ∪ A0) A1 := Finset.disjoint_left.mpr fun i hi m => by
    have e := ((m1 i).1 m).2
    rcases Finset.mem_union.1 hi with hi | hi
    · exact ((hR i).1 hi).2.2.1 e
    · have := ((m0 i).1 hi).2; omega
  have D3 : Disjoint ((R ∪ A0) ∪ A1) A2 := Finset.disjoint_left.mpr fun i hi m => by
    have e := ((m2 i).1 m).2
    rcases Finset.mem_union.1 hi with hi | hi
    · rcases Finset.mem_union.1 hi with hi | hi
      · exact ((hR i).1 hi).2.2.2.1 e
      · have := ((m0 i).1 hi).2; omega
    · have := ((m1 i).1 hi).2; omega
  have D4 : Disjoint (((R ∪ A0) ∪ A1) ∪ A2) A3 := Finset.disjoint_left.mpr fun i hi m => by
    have e := ((m3 i).1 m).2
    rcases Finset.mem_union.1 hi with hi | hi
    · rcases Finset.mem_union.1 hi with hi | hi
      · rcases Finset.mem_union.1 hi with hi | hi
        · exact ((hR i).1 hi).2.2.2.2.1 e
        · have := ((m0 i).1 hi).2; omega
      · have := ((m1 i).1 hi).2; omega
    · have := ((m2 i).1 hi).2; omega
  have hT : (((R ∪ A0) ∪ A1) ∪ A2) ∪ A3 = (S \ A4) \ A5 := by
    ext i
    simp only [Finset.mem_union, Finset.mem_sdiff]
    constructor
    · rintro ((((hi | hi) | hi) | hi) | hi)
      · have a := (hR i).1 hi
        exact ⟨⟨a.1, fun m => a.2.2.2.2.2.1 ((m4 i).1 m).2⟩, fun m => a.2.2.2.2.2.2 ((m5 i).1 m).2⟩
      · have e := (m0 i).1 hi
        exact ⟨⟨e.1, fun m => by have := ((m4 i).1 m).2; omega⟩, fun m => by have := ((m5 i).1 m).2; omega⟩
      · have e := (m1 i).1 hi
        exact ⟨⟨e.1, fun m => by have := ((m4 i).1 m).2; omega⟩, fun m => by have := ((m5 i).1 m).2; omega⟩
      · have e := (m2 i).1 hi
        exact ⟨⟨e.1, fun m => by have := ((m4 i).1 m).2; omega⟩, fun m => by have := ((m5 i).1 m).2; omega⟩
      · have e := (m3 i).1 hi
        exact ⟨⟨e.1, fun m => by have := ((m4 i).1 m).2; omega⟩, fun m => by have := ((m5 i).1 m).2; omega⟩
    · rintro ⟨⟨ho, n4⟩, n5⟩
      by_cases c0 : key i = r0
      · exact .inl (.inl (.inl (.inr ((m0 i).2 ⟨ho, c0⟩))))
      by_cases c1 : key i = r0 + 1
      · exact .inl (.inl (.inr ((m1 i).2 ⟨ho, c1⟩)))
      by_cases c2 : key i = r0 + 2
      · exact .inl (.inr ((m2 i).2 ⟨ho, c2⟩))
      by_cases c3 : key i = r0 + 3
      · exact .inr ((m3 i).2 ⟨ho, c3⟩)
      exact .inl (.inl (.inl (.inl ((hR i).2 ⟨ho, c0, c1, c2, c3, fun e => n4 ((m4 i).2 ⟨ho, e⟩), fun e => n5 ((m5 i).2 ⟨ho, e⟩)⟩))))
  iintro ⟨HR, H0, H1, H2, H3⟩
  ihave J := (join_in (F := F) D1) $$ [HR H0]
  · isplitl [HR]; · iexact HR
    iexact H0
  icases J with ⟨%g1, %a1, J⟩
  ihave J := (join_in (F := F) D2) $$ [J H1]
  · isplitl [J]; · iexact J
    iexact H1
  icases J with ⟨%g2, %a2, J⟩
  ihave J := (join_in (F := F) D3) $$ [J H2]
  · isplitl [J]; · iexact J
    iexact H2
  icases J with ⟨%g3, %a3, J⟩
  ihave J := (join_in (F := F) D4) $$ [J H3]
  · isplitl [J]; · iexact J
    iexact H3
  icases J with ⟨%g4, %a4, J⟩
  iexists g4
  isplitr
  · ipureintro
    refine ⟨fun i m => ?_, fun i m => ?_, fun i m => ?_, fun i m => a4.1 i m, fun i hS hlt => ?_⟩
    · rw [a4.2 i (Finset.mem_union.2 (.inl (Finset.mem_union.2 (.inl (Finset.mem_union.2 (.inr m)))))),
        a3.2 i (Finset.mem_union.2 (.inl (Finset.mem_union.2 (.inr m)))), a2.2 i (Finset.mem_union.2 (.inr m)), a1.1 i m]
    · rw [a4.2 i (Finset.mem_union.2 (.inl (Finset.mem_union.2 (.inr m)))), a3.2 i (Finset.mem_union.2 (.inr m)), a2.1 i m]
    · rw [a4.2 i (Finset.mem_union.2 (.inr m)), a3.1 i m]
    · have hiR : i ∈ R := (hR i).2 ⟨hS, by omega, by omega, by omega, by omega, by omega, by omega⟩
      rw [a4.2 i (Finset.mem_union.2 (.inl (Finset.mem_union.2 (.inl (Finset.mem_union.2 (.inl hiR)))))),
        a3.2 i (Finset.mem_union.2 (.inl (Finset.mem_union.2 (.inl hiR)))), a2.2 i (Finset.mem_union.2 (.inl hiR)), a1.2 i hiR]
  rw [← hT]
  iexact J

/-- A row of the tile's columns is the elements of the tile's part at that position. -/
theorem outRow_iff (h : Nat) (hh : h < 200) (i : S200x32x4096.Idx) : i ∈ (outRow L h hh).view.set ↔ i ∈ oSet L ∧ (i 0).val = h := by
  rw [outRow_mem, Epilogue.oSet_mem L i]
  constructor
  · rintro ⟨a, b, c⟩; exact ⟨⟨b, c⟩, a⟩
  · rintro ⟨⟨b, c⟩, a⟩; exact ⟨a, b, c⟩

/-- After a trip: the rest of the tile's part, with the four rows that came back joined in, is the part outside the
    two rows now being written; every row below those two is done. Rows `r0 … r5` are consecutive positions. -/
theorem outRest_rejoin4 (D : RingData (F := F) d L) (r0 r1 r2 r3 r4 r5 : Nat)
    (e1 : r1 = r0 + 1) (e2 : r2 = r0 + 2) (e3 : r3 = r0 + 3) (e4 : r4 = r0 + 4) (e5 : r5 = r0 + 5)
    (h0 : r0 < 200) (h1 : r1 < 200) (h2 : r2 < 200) (h3 : r3 < 200) (h4 : r4 < 200) (h5 : r5 < 200)
    (og f0 f1 f2 f3 : Buf (Elt F) (oLoc d))
    (hog : ∀ (h : Nat) (hh : h < 200), h < r0 → D.rowDone h hh og)
    (d0 : D.rowDone r0 h0 f0) (d1 : D.rowDone r1 h1 f1) (d2 : D.rowDone r2 h2 f2) (d3 : D.rowDone r3 h3 f3) :
    iprop(((oV).view.loc (thr d L) ↦[(((((((oSet L : Finset S200x32x4096.Idx) \ (outRow L r0 h0).view.set) \ (outRow L r1 h1).view.set) \ (outRow L r2 h2).view.set)
            \ (outRow L r3 h3).view.set) \ (outRow L r4 h4).view.set) \ (outRow L r5 h5).view.set)]{fullShare} og)
        ∗ ((oV).view.loc (thr d L) ↦[(outRow L r0 h0).view.set]{fullShare} f0)
        ∗ ((oV).view.loc (thr d L) ↦[(outRow L r1 h1).view.set]{fullShare} f1)
        ∗ ((oV).view.loc (thr d L) ↦[(outRow L r2 h2).view.set]{fullShare} f2)
        ∗ ((oV).view.loc (thr d L) ↦[(outRow L r3 h3).view.set]{fullShare} f3))
      ⊢ (iprop(∃ og', ⌜∀ (h : Nat) (hh : h < 200), h < r4 → D.rowDone h hh og'⌝
          ∗ ((oV).view.loc (thr d L) ↦[((oSet L : Finset S200x32x4096.Idx) \ (outRow L r4 h4).view.set) \ (outRow L r5 h5).view.set]{fullShare} og')) : sProp 𝕄) := by
  subst e1 e2 e3 e4 e5
  refine (rejoin4_abs (F := F) (ℓ := (oV).view.loc (thr d L)) (q := fullShare) (fun (i : S200x32x4096.Idx) => (i 0).val) (oSet L)
    (outRow L r0 h0).view.set (outRow L (r0 + 1) h1).view.set (outRow L (r0 + 2) h2).view.set (outRow L (r0 + 3) h3).view.set
    (outRow L (r0 + 4) h4).view.set (outRow L (r0 + 5) h5).view.set r0
    (outRow_iff _ h0) (outRow_iff _ h1) (outRow_iff _ h2) (outRow_iff _ h3) (outRow_iff _ h4) (outRow_iff _ h5) og f0 f1 f2 f3).trans ?_
  iintro ⟨%g', %hg, H⟩
  iexists g'
  isplitr
  · ipureintro
    obtain ⟨a0, a1, a2, a3, alow⟩ := hg
    intro h hh hlt
    rcases (by omega : h < r0 ∨ h = r0 ∨ h = r0 + 1 ∨ h = r0 + 2 ∨ h = r0 + 3) with c | c | c | c | c
    · exact rowDone_congr D h hh og g' (fun i m => alow i ((outRow_iff h hh i).1 m).1 (by have := ((outRow_iff h hh i).1 m).2; omega)) (hog h hh c)
    · subst c; exact rowDone_congr D _ hh f0 g' (fun i m => a0 i m) d0
    · subst c; exact rowDone_congr D _ hh f1 g' (fun i m => a1 i m) d1
    · subst c; exact rowDone_congr D _ hh f2 g' (fun i m => a2 i m) d2
    · subst c; exact rowDone_congr D _ hh f3 g' (fun i m => a3 i m) d3
  iexact H

/-- The same with two pieces coming back (the first trip: nothing was being written before it). -/
theorem rejoin2_abs {ℓ : Loc nD τ sig} {q : PosShare TreeShare} (key : Idx ℓ → Nat) (S A0 A1 A2 A3 : Finset (Idx ℓ)) (r0 : Nat)
    (m0 : ∀ i, i ∈ A0 ↔ i ∈ S ∧ key i = r0) (m1 : ∀ i, i ∈ A1 ↔ i ∈ S ∧ key i = r0 + 1) (m2 : ∀ i, i ∈ A2 ↔ i ∈ S ∧ key i = r0 + 2)
    (m3 : ∀ i, i ∈ A3 ↔ i ∈ S ∧ key i = r0 + 3)
    (g f0 f1 : Buf (Elt F) ℓ) :
    iprop((ℓ ↦[((((S \ A0) \ A1) \ A2) \ A3)]{q} g) ∗ (ℓ ↦[A0]{q} f0) ∗ (ℓ ↦[A1]{q} f1))
      ⊢ (iprop(∃ g', ⌜(∀ i ∈ A0, g' i = f0 i) ∧ (∀ i ∈ A1, g' i = f1 i) ∧ (∀ i ∈ S, key i < r0 → g' i = g i)⌝ ∗ ℓ ↦[(S \ A2) \ A3]{q} g') : sProp 𝕄) := by
  have hR : ∀ i, i ∈ ((((S \ A0) \ A1) \ A2) \ A3) ↔ i ∈ S ∧ key i ≠ r0 ∧ key i ≠ r0 + 1 ∧ key i ≠ r0 + 2 ∧ key i ≠ r0 + 3 := by
    intro i
    simp only [Finset.mem_sdiff, m0, m1, m2, m3]
    constructor
    · rintro ⟨⟨⟨⟨ho, n0⟩, n1⟩, n2⟩, n3⟩
      exact ⟨ho, fun e => n0 ⟨ho, e⟩, fun e => n1 ⟨ho, e⟩, fun e => n2 ⟨ho, e⟩, fun e => n3 ⟨ho, e⟩⟩
    · rintro ⟨ho, n0, n1, n2, n3⟩
      exact ⟨⟨⟨⟨ho, fun m => n0 m.2⟩, fun m => n1 m.2⟩, fun m => n2 m.2⟩, fun m => n3 m.2⟩
  generalize ((((S \ A0) \ A1) \ A2) \ A3) = R at hR ⊢
  have D1 : Disjoint R A0 := Finset.disjoint_left.mpr fun i hi m => ((hR i).1 hi).2.1 ((m0 i).1 m).2
  have D2 : Disjoint (R ∪ A0) A1 := Finset.disjoint_left.mpr fun i hi m => by
    have e := ((m1 i).1 m).2
    rcases Finset.mem_union.1 hi with hi | hi
    · exact ((hR i).1 hi).2.2.1 e
    · have := ((m0 i).1 hi).2; omega
  have hT : (R ∪ A0) ∪ A1 = (S \ A2) \ A3 := by
    ext i
    simp only [Finset.mem_union, Finset.mem_sdiff]
    constructor
    · rintro ((hi | hi) | hi)
      · have a := (hR i).1 hi
        exact ⟨⟨a.1, fun m => a.2.2.2.1 ((m2 i).1 m).2⟩, fun m => a.2.2.2.2 ((m3 i).1 m).2⟩
      · have e := (m0 i).1 hi
        exact ⟨⟨e.1, fun m => by have := ((m2 i).1 m).2; omega⟩, fun m => by have := ((m3 i).1 m).2; omega⟩
      · have e := (m1 i).1 hi
        exact ⟨⟨e.1, fun m => by have := ((m2 i).1 m).2; omega⟩, fun m => by have := ((m3 i).1 m).2; omega⟩
    · rintro ⟨⟨ho, n2⟩, n3⟩
      by_cases c0 : key i = r0
      · exact .inl (.inr ((m0 i).2 ⟨ho, c0⟩))
      by_cases c1 : key i = r0 + 1
      · exact .inr ((m1 i).2 ⟨ho, c1⟩)
      exact .inl (.inl ((hR i).2 ⟨ho, c0, c1, fun e => n2 ((m2 i).2 ⟨ho, e⟩), fun e => n3 ((m3 i).2 ⟨ho, e⟩)⟩))
  iintro ⟨HR, H0, H1⟩
  ihave J := (join_in (F := F) D1) $$ [HR H0]
  · isplitl [HR]; · iexact HR
    iexact H0
  icases J with ⟨%g1, %a1, J⟩
  ihave J := (join_in (F := F) D2) $$ [J H1]
  · isplitl [J]; · iexact J
    iexact H1
  icases J with ⟨%g2, %a2, J⟩
  iexists g2
  isplitr
  · ipureintro
    refine ⟨fun i m => ?_, fun i m => a2.1 i m, fun i hS hlt => ?_⟩
    · rw [a2.2 i (Finset.mem_union.2 (.inr m)), a1.1 i m]
    · have hiR : i ∈ R := (hR i).2 ⟨hS, by omega, by omega, by omega, by omega⟩
      rw [a2.2 i (Finset.mem_union.2 (.inl hiR)), a1.2 i hiR]
  rw [← hT]
  iexact J

/-- After the first trip (or any trip before which nothing was being written): rows `r0, r0 + 1` came back, rows
    `r0 + 2, r0 + 3` are being written. -/
theorem outRest_rejoin2 (D : RingData (F := F) d L) (r0 r1 r2 r3 : Nat)
    (e1 : r1 = r0 + 1) (e2 : r2 = r0 + 2) (e3 : r3 = r0 + 3)
    (h0 : r0 < 200) (h1 : r1 < 200) (h2 : r2 < 200) (h3 : r3 < 200)
    (og f0 f1 : Buf (Elt F) (oLoc d))
    (hog : ∀ (h : Nat) (hh : h < 200), h < r0 → D.rowDone h hh og)
    (d0 : D.rowDone r0 h0 f0) (d1 : D.rowDone r1 h1 f1) :
    iprop(((oV).view.loc (thr d L) ↦[(((((oSet L : Finset S200x32x4096.Idx) \ (outRow L r0 h0).view.set) \ (outRow L r1 h1).view.set) \ (outRow L r2 h2).view.set)
            \ (outRow L r3 h3).view.set)]{fullShare} og)
        ∗ ((oV).view.loc (thr d L) ↦[(outRow L r0 h0).view.set]{fullShare} f0)
        ∗ ((oV).view.loc (thr d L) ↦[(outRow L r1 h1).view.set]{fullShare} f1))
      ⊢ (iprop(∃ og', ⌜∀ (h : Nat) (hh : h < 200), h < r2 → D.rowDone h hh og'⌝
          ∗ ((oV).view.loc (thr d L) ↦[((oSet L : Finset S200x32x4096.Idx) \ (outRow L r2 h2).view.set) \ (outRow L r3 h3).view.set]{fullShare} og')) : sProp 𝕄) := by
  subst e1 e2 e3
  refine (rejoin2_abs (F := F) (ℓ := (oV).view.loc (thr d L)) (q := fullShare) (fun (i : S200x32x4096.Idx) => (i 0).val) (oSet L)
    (outRow L r0 h0).view.set (outRow L (r0 + 1) h1).view.set (outRow L (r0 + 2) h2).view.set (outRow L (r0 + 3) h3).view.set r0
    (outRow_iff _ h0) (outRow_iff _ h1) (outRow_iff _ h2) (outRow_iff _ h3) og f0 f1).trans ?_
  iintro ⟨%g', %hg, H⟩
  iexists g'
  isplitr
  · ipureintro
    obtain ⟨a0, a1, alow⟩ := hg
    intro h hh hlt
    rcases (by omega : h < r0 ∨ h = r0 ∨ h = r0 + 1) with c | c | c
    · exact rowDone_congr D h hh og g' (fun i m => alow i ((outRow_iff h hh i).1 m).1 (by have := ((outRow_iff h hh i).1 m).2; omega)) (hog h hh c)
    · subst c; exact rowDone_congr D _ hh f0 g' (fun i m => a0 i m) d0
    · subst c; exact rowDone_congr D _ hh f1 g' (fun i m => a1 i m) d1
  iexact H

end Cert.Proof.KernelIdeal

end
-- ==== Proof.KernelIdealRingLast.lean ====
/-
  The last trip of the tile's pipeline (trip 49: positions 196 … 199). Nothing new is gathered but position 199,
  into the free slot; each of the four steps waits for its slot's gather and for the write-out two positions
  back, picks the quarters of the gathered rows into a result slot, and starts writing that slot out to its
  position of the tile's columns of the result. Afterwards all four gather slots are free, the write-outs of
  positions 198 and 199 are in flight, and the rest of the tile's part of the result — the rest before, minus the
  four rows written this trip, plus the four rows that came back — holds every position below 198 done.
-/
import proofs.«206503_g81295140979383_cont_9to1c4b_414_34_alg».proof.Proof.KernelIdealRingLib
import proofs.«206503_g81295140979383_cont_9to1c4b_414_34_alg».proof.Proof.KernelIdealRingRejoin
import proofs.«206503_g81295140979383_cont_9to1c4b_414_34_alg».proof.Proof.KernelIdealQLoop
import proofs.«206503_g81295140979383_cont_9to1c4b_414_34_alg».proof.Proof.KernelIdealExtract0
import proofs.«206503_g81295140979383_cont_9to1c4b_414_34_alg».proof.Proof.KernelIdealExtract1
import proofs.«206503_g81295140979383_cont_9to1c4b_414_34_alg».proof.Proof.KernelIdealExtract2
import proofs.«206503_g81295140979383_cont_9to1c4b_414_34_alg».proof.Proof.KernelIdealExtract3

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

/-- Every word an offset list of the gathers holds names a row of the table. -/
theorem RingLast.hin_fq (fq : Buf (Elt F) ((thr d L).loc cc0_scratch1)) (h : ∀ p : S200x128.Idx, (fq p).toNat < 250000) :
    ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) fq x).toNat < 250000 := by
  intro off inb x
  exact h _

variable [FloatOps F]

/-! ## The program's rows, respelt -/

/-- A row held by its own elements through the program's memref is the row held through the array. -/
theorem RingLast.pts_row_off (off : Fin 3 → Nat) (h : Nat) (hh : h < 200) (hoff : off = ![h, 0, col0 L])
    (inb : ∀ a, off a + S1x32x128.size a ≤ S200x32x4096.size a) (X : Buf (Elt F) (oLoc d)) :
    ((((oV.slice (Rect.unit (s := S200x32x4096) off S1x32x128.size inb) (fun _ => rfl)).squeeze S32x128 squeezes_S1x32x128_S32x128).view.loc (thr d L)
        ↦[((oV.slice (Rect.unit (s := S200x32x4096) off S1x32x128.size inb) (fun _ => rfl)).squeeze S32x128 squeezes_S1x32x128_S32x128).view.set]{fullShare} X) : sProp 𝕄)
      = ((oV).view.loc (thr d L) ↦[(outRow L h hh).view.set]{fullShare} X) := by
  subst hoff; rfl

/-- What a whole write through the program's row leaves is what the same write through the row leaves. -/
theorem RingLast.writes_row_off (off : Fin 3 → Nat) (h : Nat) (hh : h < 200) (hoff : off = ![h, 0, col0 L])
    (inb : ∀ a, off a + S1x32x128.size a ≤ S200x32x4096.size a) (pay : S32x128.Idx → Elt F .f32) :
    ((((oV.slice (Rect.unit (s := S200x32x4096) off S1x32x128.size inb) (fun _ => rfl)).squeeze S32x128 squeezes_S1x32x128_S32x128).view.writes (Elt F)
        ((oV.slice (Rect.unit (s := S200x32x4096) off S1x32x128.size inb) (fun _ => rfl)).squeeze S32x128 squeezes_S1x32x128_S32x128).view.junk
        [⟨Rect.whole S32x128, pay⟩]) : Buf (Elt F) (oLoc d))
      = (outRow L h hh).view.writes (Elt F) (outRow L h hh).view.junk [⟨Rect.whole S32x128, pay⟩] := by
  subst hoff; rfl

/-- A part of the result minus four of the program's rows is the part minus the four rows. -/
theorem RingLast.rest_off (A : Finset S200x32x4096.Idx) (o0 o1 o2 o3 : Fin 3 → Nat) (r0 r1 r2 r3 : Nat) (h0 : r0 < 200) (h1 : r1 < 200) (h2 : r2 < 200) (h3 : r3 < 200)
    (e0 : o0 = ![r0, 0, col0 L]) (e1 : o1 = ![r1, 0, col0 L]) (e2 : o2 = ![r2, 0, col0 L]) (e3 : o3 = ![r3, 0, col0 L])
    (i0 : ∀ a, o0 a + S1x32x128.size a ≤ S200x32x4096.size a) (i1 : ∀ a, o1 a + S1x32x128.size a ≤ S200x32x4096.size a)
    (i2 : ∀ a, o2 a + S1x32x128.size a ≤ S200x32x4096.size a) (i3 : ∀ a, o3 a + S1x32x128.size a ≤ S200x32x4096.size a)
    (og : Buf (Elt F) (oLoc d)) :
    ((oV).view.loc (thr d L) ↦[((((A
        \ ((oV.slice (Rect.unit (s := S200x32x4096) o0 S1x32x128.size i0) (fun _ => rfl)).squeeze S32x128 squeezes_S1x32x128_S32x128).view.set)
        \ ((oV.slice (Rect.unit (s := S200x32x4096) o1 S1x32x128.size i1) (fun _ => rfl)).squeeze S32x128 squeezes_S1x32x128_S32x128).view.set)
        \ ((oV.slice (Rect.unit (s := S200x32x4096) o2 S1x32x128.size i2) (fun _ => rfl)).squeeze S32x128 squeezes_S1x32x128_S32x128).view.set)
        \ ((oV.slice (Rect.unit (s := S200x32x4096) o3 S1x32x128.size i3) (fun _ => rfl)).squeeze S32x128 squeezes_S1x32x128_S32x128).view.set)]{fullShare} og : sProp 𝕄)
      = ((oV).view.loc (thr d L) ↦[((((A \ (outRow L r0 h0).view.set) \ (outRow L r1 h1).view.set) \ (outRow L r2 h2).view.set) \ (outRow L r3 h3).view.set)]{fullShare} og) := by
  subst e0 e1 e2 e3; rfl

set_option maxHeartbeats 8000000 in
/-- The last trip keeps the pipeline's invariant. -/
theorem ring_last (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000)
    (k : Fin (Scf.trips k0_t2_loop.lb k0_t2_loop.ub k0_t2_loop.st)) (hk : k.val = 49) (acc : Unit) :
    (ringInv D k.val acc : sProp 𝕄) ⊢ wp frame (wpE (defs₀ (F := F)) 𝒱₀ (thr d L) none) Set.univ
      (k0_t2_body (F := F) L tV (Memref.isWhole_whole _) iV (Memref.isWhole_whole _) oV (Memref.isWhole_whole _) sI (Memref.isWhole_whole _)
        sQ (Memref.isWhole_whole _) sG (Memref.isWhole_whole _) sO (Memref.isWhole_whole _)
        cc0_scratch4 cc0_scratch5 cc0_scratch6 cc0_scratch7 cc0_scratch8 cc0_scratch9 cc0_scoped0 (iota .scVector S16 32 [0] iota_S16_d0_w32_scVector) k acc)
      (ringInv D (k.val + 1)) := by
  have hk50 : k.val < 50 := by omega
  have hk0 : ¬ k.val = 0 := by omega
  sl_respell [k0_t2_body]
  simp only [k0_part41_eq_skeleton, k0_part42_eq_skeleton, k0_part43_eq_skeleton]
  unfold k0_part41_skel k0_part42_skel k0_part43_skel
  simp only [Prog.bind_assoc]
  have k0_h1 : k0_cond1 k = 1#1 := cond1_eq k
  have k0_h2 : k0_cond2 k = 1#1 := (cond2_eq k).2 (by omega)
  have k0_h3 : ¬ k0_cond3 k = 1#1 := fun h => by have := (cond3_eq k).1 h; omega
  have k0_h4 : k0_cond4 k = 1#1 := (cond4_eq k).2 (by omega)
  have k0_h5 : ¬ k0_cond5 k = 1#1 := fun h => by have := (cond5_eq k).1 h; omega
  have k0_h6 : k0_cond6 k = 1#1 := cond6_eq k
  have k0_h7 : ¬ k0_cond7 k = 1#1 := fun h => by have := (cond7_eq k).1 h; omega
  have k0_h8 : k0_cond8 k = 1#1 := cond8_eq k
  have hin := RingLast.hin_fq (F := F) D.fq hfq
  have qs0 : D.qs 0 = Transfers.shareDrop D.qQ 3 := rfl
  have qs1 : D.qs 1 = Transfers.shareTokN D.qQ 0 := rfl
  have qs2 : D.qs 2 = Transfers.shareTokN D.qQ 1 := rfl
  have qs3 : D.qs 3 = Transfers.shareTokN D.qQ 2 := rfl
  generalize hQ : (ringInv D (k.val + 1) : Unit → sProp 𝕄) = Q
  unfold ringInv RingData.gPart RingData.wPart
  rw [dif_pos hk50, dif_neg hk0, dif_pos (by omega : k.val ≤ 50)]
  unfold RingData.busy RingData.free RingData.writing RingData.outRest
  rw [qs0, qs1, qs2, qs3]
  iintro ⟨#Hmw, Hs0, ⟨⟨⟨%c0, %hgath0, Hg0⟩, Ht0, Hq0⟩, ⟨⟨%c1, %hgath1, Hg1⟩, Ht1, Hq1⟩, ⟨⟨%c2, %hgath2, Hg2⟩, Ht2, Hq2⟩, ⟨Hg3, ⟨%c3f, Hs2⟩, Ht3, Hq3⟩⟩, ⟨⟨%cw0, %ow0, %hdone0, Hw0⟩, ⟨%cw1, %ow1, %hdone1, Hw1⟩, ⟨%og, %hog, Ho⟩⟩, %W', %hW', HO⟩
  have hv3 : ∀ l : Fin 16, (iota Kind.scVector S16 32 [0] iota_S16_d0_w32_scVector) (ix1 l) = BitVec.ofNat 32 l.val :=
    fun l => iota_single_apply .scVector S16 32 0 iota_S16_d0_w32_scVector (ix1 l)
  have e38_0 : ((oV.slice (Rect.unit (s := S200x32x4096) (k0_off38 L k 0#32) S1x32x128.size (k0_off38_inb L k 0)) (fun _ => rfl)).squeeze S32x128 squeezes_S1x32x128_S32x128) = outRow L (4 * k.val + 0) (by omega) := row_eq L _ _ _ (k0_off38_eq L k 0) _ _
  have e38_1 : ((oV.slice (Rect.unit (s := S200x32x4096) (k0_off38 L k 1#32) S1x32x128.size (k0_off38_inb L k 1)) (fun _ => rfl)).squeeze S32x128 squeezes_S1x32x128_S32x128) = outRow L (4 * k.val + 1) (by omega) := row_eq L _ _ _ (k0_off38_eq L k 1) _ _
  have e38_2 : ((oV.slice (Rect.unit (s := S200x32x4096) (k0_off38 L k 2#32) S1x32x128.size (k0_off38_inb L k 2)) (fun _ => rfl)).squeeze S32x128 squeezes_S1x32x128_S32x128) = outRow L (4 * k.val + 2) (by omega) := row_eq L _ _ _ (k0_off38_eq L k 2) _ _
  have e38_3 : ((oV.slice (Rect.unit (s := S200x32x4096) (k0_off38 L k 3#32) S1x32x128.size (k0_off38_inb L k 3)) (fun _ => rfl)).squeeze S32x128 squeezes_S1x32x128_S32x128) = outRow L (4 * k.val + 3) (by omega) := row_eq L _ _ _ (k0_off38_eq L k 3) _ _
  have pts_g : ∀ (s : Nat) (hs : s < 4) (inb) (c : Buf (Elt F) ((thr d L).loc cc0_scratch2)), ((sG).view.loc (thr d L) ↦[(slotGn s inb).view.set]{fullShare} c : sProp 𝕄)
      = ((slotG s hs).view.loc (thr d L) ↦[(slotG s hs).view.set]{fullShare} c) := fun _ _ _ _ => rfl
  have pts_o : ∀ (b : Nat) (hb : b < 2) (inb) (c : Buf (Elt F) ((thr d L).loc cc0_scratch3)), ((sO).view.loc (thr d L) ↦[(slotOn b inb).view.set]{fullShare} c : sProp 𝕄)
      = ((slotO b hb).view.loc (thr d L) ↦[(slotO b hb).view.set]{fullShare} c) := fun _ _ _ _ => rfl
  have hA : 4 * k.val - 2 < 200 := by omega
  have hB : 4 * k.val - 1 < 200 := by omega
  sl_exec
  irename Hw0_dst => HrA
  sl_rw [Prog.bind_assoc]
  sl_for (extractInv_0 (F := F) d L k D.fI c0) $$ [Hs0 Hg0_dst Hw0_src]
  case region => exact extract_region_0 d L _ hv3 _ _ k _ D.fI c0
  · iapply (extract_intro_0 d L k D.fI c0 ow0)
    isplitl [Hs0]; · iexact Hs0
    isplitl [Hg0_dst]; · iexact Hg0_dst
    iexact Hw0_src
  iintro %acc0x HInv
  have h8_0 : Scf.trips k0_t3_loop.lb k0_t3_loop.ub k0_t3_loop.st = 8 := by decide
  have e8_0 : extractInv_0 (F := F) d L k D.fI c0 (Scf.trips k0_t3_loop.lb k0_t3_loop.ub k0_t3_loop.st) acc0x = extractInv_0 (F := F) d L k D.fI c0 8 () := by rw [h8_0]
  ihave HInv := (Entails.of_eq e8_0) $$ HInv
  ihave HInv := (extract_elim_0 d L k D.fI c0) $$ HInv
  icases HInv with ⟨Hs0, Hg0_dst, %o0', HO0, %hval0⟩
  ihave Hg0_dst := (Entails.of_eq (pts_g 0 lt4_0 _ c0)) $$ Hg0_dst
  ihave HO0 := (Entails.of_eq (pts_o 0 lt2_0 _ o0')) $$ HO0
  have hsubR0 : (((oV.slice (Rect.unit (s := S200x32x4096) (k0_off38 L k 0#32) S1x32x128.size (k0_off38_inb L k 0)) (fun _ => rfl)).squeeze S32x128 squeezes_S1x32x128_S32x128).view.set : Finset S200x32x4096.Idx) ⊆ ((oSet L \ (outRow L (4 * k.val - 2) hA).view.set) \ (outRow L (4 * k.val - 1) hB).view.set : Finset S200x32x4096.Idx) := by
    intro i hi
    have hm := (prow_mem L _ (4 * k.val + 0) (by omega) (k0_off38_eq L k 0) _ _ i).1 hi
    refine Finset.mem_sdiff.2 ⟨Finset.mem_sdiff.2 ⟨(oSet_mem' L i).2 ⟨hm.2.1, hm.2.2⟩, ?_⟩, ?_⟩
    · intro h'; have := ((outRow_mem L _ _ i).1 h').1; omega
    · intro h'; have := ((outRow_mem L _ _ i).1 h').1; omega

  ihave Ho := (pointsTo_split_subset (ℓ := (oV).view.loc (thr d L)) hsubR0).1 $$ Ho
  icases Ho with ⟨HR0, Ho⟩
  have pts_r0 : ∀ c : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} c : sProp 𝕄)
      = (((oV.slice (Rect.unit (s := S200x32x4096) (k0_off38 L k 0#32) S1x32x128.size (k0_off38_inb L k 0)) (fun _ => rfl)).squeeze S32x128 squeezes_S1x32x128_S32x128).view.loc (thr d L) ↦[((oV.slice (Rect.unit (s := S200x32x4096) (k0_off38 L k 0#32) S1x32x128.size (k0_off38_inb L k 0)) (fun _ => rfl)).squeeze S32x128 squeezes_S1x32x128_S32x128).view.set]{fullShare} c) := fun _ => rfl
  ihave HR0 := (Entails.of_eq (pts_r0 og)) $$ HR0
  sl_exec
  irename Hw1_dst => HrB
  sl_rw [Prog.bind_assoc]
  sl_for (extractInv_1 (F := F) d L k D.fI c1) $$ [Hs0 Hg1_dst Hw1_src]
  case region => exact extract_region_1 d L _ hv3 k _ _ D.fI c1
  · iapply (extract_intro_1 d L k D.fI c1 ow1)
    isplitl [Hs0]; · iexact Hs0
    isplitl [Hg1_dst]; · iexact Hg1_dst
    iexact Hw1_src
  iintro %acc1x HInv
  have h8_1 : Scf.trips k0_t4_loop.lb k0_t4_loop.ub k0_t4_loop.st = 8 := by decide
  have e8_1 : extractInv_1 (F := F) d L k D.fI c1 (Scf.trips k0_t4_loop.lb k0_t4_loop.ub k0_t4_loop.st) acc1x = extractInv_1 (F := F) d L k D.fI c1 8 () := by rw [h8_1]
  ihave HInv := (Entails.of_eq e8_1) $$ HInv
  ihave HInv := (extract_elim_1 d L k D.fI c1) $$ HInv
  icases HInv with ⟨Hs0, Hg1_dst, %o1', HO1, %hval1⟩
  ihave Hg1_dst := (Entails.of_eq (pts_g 1 lt4_1 _ c1)) $$ Hg1_dst
  ihave HO1 := (Entails.of_eq (pts_o 1 lt2_1 _ o1')) $$ HO1
  have hsubR1 : (((oV.slice (Rect.unit (s := S200x32x4096) (k0_off38 L k 1#32) S1x32x128.size (k0_off38_inb L k 1)) (fun _ => rfl)).squeeze S32x128 squeezes_S1x32x128_S32x128).view.set : Finset S200x32x4096.Idx) ⊆ (((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set : Finset S200x32x4096.Idx) := by
    intro i hi
    have hm := (prow_mem L _ (4 * k.val + 1) (by omega) (k0_off38_eq L k 1) _ _ i).1 hi
    refine Finset.mem_sdiff.2 ⟨Finset.mem_sdiff.2 ⟨Finset.mem_sdiff.2 ⟨(oSet_mem' L i).2 ⟨hm.2.1, hm.2.2⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
  ihave Ho := (pointsTo_split_subset (ℓ := (oV).view.loc (thr d L)) hsubR1).1 $$ Ho
  icases Ho with ⟨HR1, Ho⟩
  have pts_r1 : ∀ c : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} c : sProp 𝕄)
      = (((oV.slice (Rect.unit (s := S200x32x4096) (k0_off38 L k 1#32) S1x32x128.size (k0_off38_inb L k 1)) (fun _ => rfl)).squeeze S32x128 squeezes_S1x32x128_S32x128).view.loc (thr d L) ↦[((oV.slice (Rect.unit (s := S200x32x4096) (k0_off38 L k 1#32) S1x32x128.size (k0_off38_inb L k 1)) (fun _ => rfl)).squeeze S32x128 squeezes_S1x32x128_S32x128).view.set]{fullShare} c) := fun _ => rfl
  ihave HR1 := (Entails.of_eq (pts_r1 og)) $$ HR1
  sl_exec
  sl_rw [Prog.bind_assoc]
  sl_for (extractInv_2 (F := F) d L k D.fI c2) $$ [Hs0 Hg2_dst HO0]
  case region => exact extract_region_2 d L _ hv3 k _ _ _ D.fI c2
  · iapply (extract_intro_2 d L k D.fI c2 _)
    isplitl [Hs0]; · iexact Hs0
    isplitl [Hg2_dst]; · iexact Hg2_dst
    iexact HO0
  iintro %acc2x HInv
  have h8_2 : Scf.trips k0_t5_loop.lb k0_t5_loop.ub k0_t5_loop.st = 8 := by decide
  have e8_2 : extractInv_2 (F := F) d L k D.fI c2 (Scf.trips k0_t5_loop.lb k0_t5_loop.ub k0_t5_loop.st) acc2x = extractInv_2 (F := F) d L k D.fI c2 8 () := by rw [h8_2]
  ihave HInv := (Entails.of_eq e8_2) $$ HInv
  ihave HInv := (extract_elim_2 d L k D.fI c2) $$ HInv
  icases HInv with ⟨Hs0, Hg2_dst, %o2', HO2, %hval2⟩
  ihave Hg2_dst := (Entails.of_eq (pts_g 2 lt4_2 _ c2)) $$ Hg2_dst
  ihave HO2 := (Entails.of_eq (pts_o 0 lt2_0 _ o2')) $$ HO2
  have hsubR2 : (((oV.slice (Rect.unit (s := S200x32x4096) (k0_off38 L k 2#32) S1x32x128.size (k0_off38_inb L k 2)) (fun _ => rfl)).squeeze S32x128 squeezes_S1x32x128_S32x128).view.set : Finset S200x32x4096.Idx) ⊆ ((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set : Finset S200x32x4096.Idx) := by
    intro i hi
    have hm := (prow_mem L _ (4 * k.val + 2) (by omega) (k0_off38_eq L k 2) _ _ i).1 hi
    refine Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
  ihave Ho := (pointsTo_split_subset (ℓ := (oV).view.loc (thr d L)) hsubR2).1 $$ Ho
  icases Ho with ⟨HR2, Ho⟩
  have pts_r2 : ∀ c : Buf (Elt F) (oLoc d), ((oV).view.loc (thr d L) ↦[((oV.slice (Rect.unit (s := S200x32x4096) (k0_off38 L k 2#32) S1x32x128.size (k0_off38_inb L k 2)) (fun _ => rfl)).squeeze S32x128 squeezes_S1x32x128_S32x128).view.set]{fullShare} c : sProp 𝕄)
      = (((oV.slice (Rect.unit (s := S200x32x4096) (k0_off38 L k 2#32) S1x32x128.size (k0_off38_inb L k 2)) (fun _ => rfl)).squeeze S32x128 squeezes_S1x32x128_S32x128).view.loc (thr d L) ↦[((oV.slice (Rect.unit (s := S200x32x4096) (k0_off38 L k 2#32) S1x32x128.size (k0_off38_inb L k 2)) (fun _ => rfl)).squeeze S32x128 squeezes_S1x32x128_S32x128).view.set]{fullShare} c) := fun _ => rfl
  ihave HR2 := (Entails.of_eq (pts_r2 og)) $$ HR2
  sl_exec
  -- step 3: the gathered rows of position 4k+3, their quarters into result slot 1, the write-out of row 4k+3
  have hgath3 : D.gathered 3 lt4_3 (4 * k.val + 3) (by omega)
      ((slotG 3 lt4_3).view.writes (Elt F) (slotG 3 lt4_3).view.junk [⟨Rect.whole S128x128, ring_last.sl.gather0 D k k0_h1 hin⟩]) := by
    unfold ring_last.sl.gather0
    exact gathered_off D 3 lt4_3 (4 * k.val + 3) (by omega) _ (k0_off3_eq k) _ _ _ _
  generalize (slotG 3 lt4_3).view.writes (Elt F) (slotG 3 lt4_3).view.junk [⟨Rect.whole S128x128, ring_last.sl.gather0 D k k0_h1 hin⟩] = c3 at hgath3 ⊢
  ihave Hg3_dst := (Entails.of_eq (pts_g 3 lt4_3 inb_S4x128x128_S1x128x128_3_0_0 c3).symm) $$ Hs2
  sl_for (extractInv_3 (F := F) d L k D.fI c3) $$ [Hs0 Hg3_dst HO1]
  case region => exact extract_region_3 d L _ hv3 k _ D.fI c3
  · iapply (extract_intro_3 d L k D.fI c3 _)
    isplitl [Hs0]; · iexact Hs0
    isplitl [Hg3_dst]; · iexact Hg3_dst
    iexact HO1
  iintro %acc3x HInv
  have h8_3 : Scf.trips k0_t6_loop.lb k0_t6_loop.ub k0_t6_loop.st = 8 := by decide
  have e8_3 : extractInv_3 (F := F) d L k D.fI c3 (Scf.trips k0_t6_loop.lb k0_t6_loop.ub k0_t6_loop.st) acc3x = extractInv_3 (F := F) d L k D.fI c3 8 () := by rw [h8_3]
  ihave HInv := (Entails.of_eq e8_3) $$ HInv
  ihave HInv := (extract_elim_3 d L k D.fI c3) $$ HInv
  icases HInv with ⟨Hs0, Hg3_dst, %o3', HO3, %hval3⟩
  ihave Hg3_dst := (Entails.of_eq (pts_g 3 lt4_3 _ c3)) $$ Hg3_dst
  ihave HO3 := (Entails.of_eq (pts_o 1 lt2_1 _ o3')) $$ HO3
  have hsubR3 : (((oV.slice (Rect.unit (s := S200x32x4096) (k0_off38 L k 3#32) S1x32x128.size (k0_off38_inb L k 3)) (fun _ => rfl)).squeeze S32x128 squeezes_S1x32x128_S32x128).view.set : Finset S200x32x4096.Idx) ⊆ (((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set : Finset S200x32x4096.Idx) := by
    intro i hi
    have hm := (prow_mem L _ (4 * k.val + 3) (by omega) (k0_off38_eq L k 3) _ _ i).1 hi
    refine Finset.mem_sdiff.2 ⟨Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
    · intro h'; have := ((prow_mem L _ (4 * k.val + 2) (by omega) (k0_off38_eq L k 2) _ _ i).1 h').1; omega
  ihave Ho := (pointsTo_split_subset (ℓ := (oV).view.loc (thr d L)) hsubR3).1 $$ Ho
  icases Ho with ⟨HR3, Ho⟩
  have pts_r3 : ∀ c : Buf (Elt F) (oLoc d), ((oV).view.loc (thr d L) ↦[((oV.slice (Rect.unit (s := S200x32x4096) (k0_off38 L k 3#32) S1x32x128.size (k0_off38_inb L k 3)) (fun _ => rfl)).squeeze S32x128 squeezes_S1x32x128_S32x128).view.set]{fullShare} c : sProp 𝕄)
      = ((((oV.slice (Rect.unit (s := S200x32x4096) (k0_off38 L k 3#32) S1x32x128.size (k0_off38_inb L k 3)) (fun _ => rfl)).squeeze S32x128 squeezes_S1x32x128_S32x128)).view.loc (thr d L) ↦[((oV.slice (Rect.unit (s := S200x32x4096) (k0_off38 L k 3#32) S1x32x128.size (k0_off38_inb L k 3)) (fun _ => rfl)).squeeze S32x128 squeezes_S1x32x128_S32x128).view.set]{fullShare} c) := fun _ => rfl
  ihave HR3 := (Entails.of_eq (pts_r3 og)) $$ HR3
  sl_exec
  rw [wp_ret]; imodintro
  subst hQ
  -- the positions' bounds, by name
  have h40 : 4 * k.val + 0 < 200 := by omega
  have h41 : 4 * k.val + 1 < 200 := by omega
  have h42 : 4 * k.val + 2 < 200 := by omega
  have h43 : 4 * k.val + 3 < 200 := by omega
  -- what the four write-outs carried: the result slots, read through their own pieces
  have hpay0 : ∀ (dd : Fin 32) (col : Fin 128), ring_last.sl.dma0 o0' (ix2 dd col) = o0' (ix3 (⟨0, lt2_0⟩ : Fin 2) dd col) := by
    intro dd col; unfold ring_last.sl.dma0; exact slotO_read 0 lt2_0 o0' dd col
  have hpay1 : ∀ (dd : Fin 32) (col : Fin 128), ring_last.sl.dma0_1 o1' (ix2 dd col) = o1' (ix3 (⟨1, lt2_1⟩ : Fin 2) dd col) := by
    intro dd col; unfold ring_last.sl.dma0_1; exact slotO_read 1 lt2_1 o1' dd col
  have hpay2 : ∀ (dd : Fin 32) (col : Fin 128), ring_last.sl.dma0_2 o2' (ix2 dd col) = o2' (ix3 (⟨0, lt2_0⟩ : Fin 2) dd col) := by
    intro dd col; unfold ring_last.sl.dma0_2; exact slotO_read 0 lt2_0 o2' dd col
  have hpay3 : ∀ (dd : Fin 32) (col : Fin 128), ring_last.sl.dma0_3 o3' (ix2 dd col) = o3' (ix3 (⟨1, lt2_1⟩ : Fin 2) dd col) := by
    intro dd col; unfold ring_last.sl.dma0_3; exact slotO_read 1 lt2_1 o3' dd col
  -- the four rows written this trip are done
  have hD0 : D.rowDone (4 * k.val + 0) h40 ((outRow L (4 * k.val + 0) h40).view.writes (Elt F) (outRow L (4 * k.val + 0) h40).view.junk [⟨Rect.whole S32x128, ring_last.sl.dma0 o0'⟩]) :=
    rowDone_written D hfI hq hix 0 lt4_0 0 lt2_0 (4 * k.val + 0) h40 c0 hgath0 o0' (hval_of_extract D.fI c0 o0' 0 lt4_0 0 lt2_0 (4 * k.val + 0) h40 hval0) _ _ hpay0
  have hD1 : D.rowDone (4 * k.val + 1) h41 ((outRow L (4 * k.val + 1) h41).view.writes (Elt F) (outRow L (4 * k.val + 1) h41).view.junk [⟨Rect.whole S32x128, ring_last.sl.dma0_1 o1'⟩]) :=
    rowDone_written D hfI hq hix 1 lt4_1 1 lt2_1 (4 * k.val + 1) h41 c1 hgath1 o1' (hval_of_extract D.fI c1 o1' 1 lt4_1 1 lt2_1 (4 * k.val + 1) h41 hval1) _ _ hpay1
  have hD2 : D.rowDone (4 * k.val + 2) h42 (((oV.slice (Rect.unit (s := S200x32x4096) (k0_off38 L k 2#32) S1x32x128.size (k0_off38_inb L k 2)) (fun _ => rfl)).squeeze S32x128 squeezes_S1x32x128_S32x128).view.writes (Elt F) og [⟨Rect.whole S32x128, ring_last.sl.dma0_2 o2'⟩]) :=
    rowDone_written_off D hfI hq hix 2 lt4_2 0 lt2_0 (4 * k.val + 2) h42 (k0_off38 L k 2#32) (k0_off38_eq L k 2) (k0_off38_inb L k 2) c2 hgath2 o2'
      (hval_of_extract D.fI c2 o2' 2 lt4_2 0 lt2_0 (4 * k.val + 2) h42 hval2) og _ hpay2
  have hD3 : D.rowDone (4 * k.val + 3) h43 (((oV.slice (Rect.unit (s := S200x32x4096) (k0_off38 L k 3#32) S1x32x128.size (k0_off38_inb L k 3)) (fun _ => rfl)).squeeze S32x128 squeezes_S1x32x128_S32x128).view.writes (Elt F) og [⟨Rect.whole S32x128, ring_last.sl.dma0_3 o3'⟩]) :=
    rowDone_written_off D hfI hq hix 3 lt4_3 1 lt2_1 (4 * k.val + 3) h43 (k0_off38 L k 3#32) (k0_off38_eq L k 3) (k0_off38_inb L k 3) c3 hgath3 o3'
      (hval_of_extract D.fI c3 o3' 3 lt4_3 1 lt2_1 (4 * k.val + 3) h43 hval3) og _ hpay3
  -- the two write-outs in flight: positions 4k+2 and 4k+3
  ihave Hwr0 := (writing_of_prog D 0 lt2_0 cc0_scratch8 (k0_off38 L k 2#32) (4 * k.val + 2) h42 (k0_off38_eq L k 2) (k0_off38_inb L k 2) (fun _ => rfl) _ o2' hD2) $$ [Hw0]
  · iexact Hw0
  ihave Hwr1 := (writing_of_prog D 1 lt2_1 cc0_scratch9 (k0_off38 L k 3#32) (4 * k.val + 3) h43 (k0_off38_eq L k 3) (k0_off38_inb L k 3) (fun _ => rfl) _ o3' hD3) $$ [Hw1]
  · iexact Hw1
  -- the rest of the tile's part and the four rows that came back, in the rows' own spelling
  ihave Ho := (Entails.of_eq (RingLast.rest_off (F := F) (d := d) ((oSet L \ (outRow L (4 * k.val - 2) hA).view.set) \ (outRow L (4 * k.val - 1) hB).view.set)
      (k0_off38 L k 0#32) (k0_off38 L k 1#32) (k0_off38 L k 2#32) (k0_off38 L k 3#32) (4 * k.val + 0) (4 * k.val + 1) (4 * k.val + 2) (4 * k.val + 3) h40 h41 h42 h43
      (k0_off38_eq L k 0) (k0_off38_eq L k 1) (k0_off38_eq L k 2) (k0_off38_eq L k 3) (k0_off38_inb L k 0) (k0_off38_inb L k 1) (k0_off38_inb L k 2) (k0_off38_inb L k 3) og)) $$ Ho
  ihave HR0 := (Entails.of_eq ((RingLast.pts_row_off (F := F) (d := d) (k0_off38 L k 0#32) (4 * k.val + 0) h40 (k0_off38_eq L k 0) (k0_off38_inb L k 0) _).trans
      (congrArg (fun X => ((oV).view.loc (thr d L) ↦[(outRow L (4 * k.val + 0) h40).view.set]{fullShare} X : sProp 𝕄))
        (RingLast.writes_row_off (F := F) (k0_off38 L k 0#32) (4 * k.val + 0) h40 (k0_off38_eq L k 0) (k0_off38_inb L k 0) (ring_last.sl.dma0 o0'))))) $$ HR0
  ihave HR1 := (Entails.of_eq ((RingLast.pts_row_off (F := F) (d := d) (k0_off38 L k 1#32) (4 * k.val + 1) h41 (k0_off38_eq L k 1) (k0_off38_inb L k 1) _).trans
      (congrArg (fun X => ((oV).view.loc (thr d L) ↦[(outRow L (4 * k.val + 1) h41).view.set]{fullShare} X : sProp 𝕄))
        (RingLast.writes_row_off (F := F) (k0_off38 L k 1#32) (4 * k.val + 1) h41 (k0_off38_eq L k 1) (k0_off38_inb L k 1) (ring_last.sl.dma0_1 o1'))))) $$ HR1
  ihave Hjoin := (outRest_rejoin4 D (4 * k.val - 2) (4 * k.val - 1) (4 * k.val + 0) (4 * k.val + 1) (4 * k.val + 2) (4 * k.val + 3)
      (by omega) (by omega) (by omega) (by omega) (by omega) hA hB h40 h41 h42 h43 og cw0 cw1 _ _
      (fun h hh hlt => hog h hh (by omega)) hdone0 hdone1 hD0 hD1) $$ [Ho HrA HrB HR0 HR1]
  · isplitl [Ho]; · iexact Ho
    isplitl [HrA]; · iexact HrA
    isplitl [HrB]; · iexact HrB
    isplitl [HR0]; · iexact HR0
    iexact HR1
  icases Hjoin with ⟨%og', %hog', Hrest⟩
  -- the invariant before trip 50: nothing gathering, the last two write-outs in flight
  unfold ringInv RingData.gPart RingData.wPart
  rw [dif_neg (by omega : ¬ k.val + 1 < 50), dif_neg (by omega : ¬ k.val + 1 = 0), dif_pos (by omega : k.val + 1 ≤ 50)]
  unfold RingData.free RingData.outRest
  rw [qs0, qs1, qs2, qs3]
  isplitr; · iexact Hmw
  isplitl [Hs0]; · iexact Hs0
  isplitl [Hg0 Hg0_dst Ht0 Hq0 Hg1 Hg1_dst Ht1 Hq1 Hg2 Hg2_dst Ht2 Hq2 Hg3 Hg3_dst Ht3 Hq3]
  · isplitl [Hg0 Hg0_dst Ht0 Hq0]
    · isplitl [Hg0]; · iexact Hg0
      isplitl [Hg0_dst]; · iexists _; iexact Hg0_dst
      isplitl [Ht0]; · iexact Ht0
      iexact Hq0
    isplitl [Hg1 Hg1_dst Ht1 Hq1]
    · isplitl [Hg1]; · iexact Hg1
      isplitl [Hg1_dst]; · iexists _; iexact Hg1_dst
      isplitl [Ht1]; · iexact Ht1
      iexact Hq1
    isplitl [Hg2 Hg2_dst Ht2 Hq2]
    · isplitl [Hg2]; · iexact Hg2
      isplitl [Hg2_dst]; · iexists _; iexact Hg2_dst
      isplitl [Ht2]; · iexact Ht2
      iexact Hq2
    isplitl [Hg3]; · iexact Hg3
    isplitl [Hg3_dst]; · iexists _; iexact Hg3_dst
    isplitl [Ht3]; · iexact Ht3
    iexact Hq3
  isplitl [Hwr0 Hwr1 Hrest]
  · isplitl [Hwr0]
    · iapply (Entails.of_eq (congrArg (fun (p : {n : Nat // n < 200}) => (D.writing 0 lt2_0 cc0_scratch8 p.1 p.2 : sProp 𝕄))
        (Subtype.ext (by show 4 * k.val + 2 = 4 * (k.val + 1) - 2; omega) : (⟨4 * k.val + 2, h42⟩ : {n : Nat // n < 200}) = ⟨4 * (k.val + 1) - 2, by omega⟩)))
      iexact Hwr0
    isplitl [Hwr1]
    · iapply (Entails.of_eq (congrArg (fun (p : {n : Nat // n < 200}) => (D.writing 1 lt2_1 cc0_scratch9 p.1 p.2 : sProp 𝕄))
        (Subtype.ext (by show 4 * k.val + 3 = 4 * (k.val + 1) - 1; omega) : (⟨4 * k.val + 3, h43⟩ : {n : Nat // n < 200}) = ⟨4 * (k.val + 1) - 1, by omega⟩)))
      iexact Hwr1
    iexists og'
    isplitr
    · ipureintro; exact fun h hh hlt => hog' h hh (by omega)
    iapply (Entails.of_eq (congrArg (fun (p : {n : Nat // n < 200} × {n : Nat // n < 200}) =>
        ((oV).view.loc (thr d L) ↦[((oSet L : Finset S200x32x4096.Idx) \ (outRow L p.1.1 p.1.2).view.set) \ (outRow L p.2.1 p.2.2).view.set]{fullShare} og' : sProp 𝕄))
      (Prod.ext (Subtype.ext (by show 4 * k.val + 2 = 4 * (k.val + 1) - 2; omega)) (Subtype.ext (by show 4 * k.val + 3 = 4 * (k.val + 1) - 1; omega))
        : ((⟨4 * k.val + 2, h42⟩, ⟨4 * k.val + 3, h43⟩) : {n : Nat // n < 200} × {n : Nat // n < 200}) = (⟨4 * (k.val + 1) - 2, by omega⟩, ⟨4 * (k.val + 1) - 1, by omega⟩))))
    iexact Hrest
  iexists _
  isplitr
  rotate_left
  · iexact HO
  ipureintro
  intro p hp
  simp only [Finset.mem_insert] at hp
  rcases hp with h | h | h | h | h | h | h | h | h
  all_goals first | exact hW' p h | (right; rw [h]; rfl)

end Cert.Proof.KernelIdeal

end
-- ==== Proof.KernelIdealRing.lean ====
/-
  One trip of the pipeline keeps its invariant: the first trip (no write-out in flight yet), the last trip (no
  position left to gather after the 200th), and every trip between them.
-/
import proofs.«206503_g81295140979383_cont_9to1c4b_414_34_alg».proof.Proof.KernelIdealRingFirst
import proofs.«206503_g81295140979383_cont_9to1c4b_414_34_alg».proof.Proof.KernelIdealRingMid
import proofs.«206503_g81295140979383_cont_9to1c4b_414_34_alg».proof.Proof.KernelIdealRingLast

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords} [FloatOps F]

theorem trips_t2 : Scf.trips k0_t2_loop.lb k0_t2_loop.ub k0_t2_loop.st = 50 := by decide

set_option maxHeartbeats 8000000 in
theorem ring_region (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000) :
    ∀ (k : Fin (Scf.trips k0_t2_loop.lb k0_t2_loop.ub k0_t2_loop.st)) (acc : Unit),
      ringInv D k.val acc ⊢ wp frame (wpE (defs₀ (F := F)) 𝒱₀ (thr d L) none) Set.univ
        (k0_t2_body (F := F) L tV (Memref.isWhole_whole _) iV (Memref.isWhole_whole _) oV (Memref.isWhole_whole _) sI (Memref.isWhole_whole _)
          sQ (Memref.isWhole_whole _) sG (Memref.isWhole_whole _) sO (Memref.isWhole_whole _) cc0_scratch4 cc0_scratch5 cc0_scratch6 cc0_scratch7
          cc0_scratch8 cc0_scratch9 cc0_scoped0 (iota .scVector S16 32 [0] iota_S16_d0_w32_scVector) k acc)
        (ringInv D (k.val + 1)) := by
  intro k acc
  have hk : k.val < 50 := trips_t2 ▸ k.isLt
  by_cases h0 : k.val = 0
  · exact ring_first (d := d) (L := L) D hfI hq hix hfq k h0 acc
  by_cases h49 : k.val = 49
  · exact ring_last (d := d) (L := L) D hfI hq hix hfq k h49 acc
  · exact ring_mid (d := d) (L := L) D hfI hq hix hfq k ⟨by omega, by omega⟩ acc

end Cert.Proof.KernelIdeal

end
-- ==== Proof.KernelIdealTile.lean ====
/-
  The tile's obligation. The tile copies its 128 columns of the transposed index array into its index scratch,
  shifts every index right by two into the row-number scratch (the row of the table of 128-wide rows that holds
  the index's 32-wide row), starts the gathers of positions 0, 1, 2 into slots 0, 1, 2, and then runs the
  pipeline: for each position `h`, start the gather of position `h + 3` into the free slot, wait for position
  `h`'s gather, wait for the write-out two positions back, pick the quarter `index mod 4` of every gathered row
  into a result slot, and start writing that slot out to position `h` of the tile's columns of the result.
-/
import proofs.«206503_g81295140979383_cont_9to1c4b_414_34_alg».proof.Proof.KernelIdealGeom
import proofs.«206503_g81295140979383_cont_9to1c4b_414_34_alg».proof.Proof.KernelIdealWords
import proofs.«206503_g81295140979383_cont_9to1c4b_414_34_alg».proof.Proof.KernelIdealQLoop
import proofs.«206503_g81295140979383_cont_9to1c4b_414_34_alg».proof.Proof.KernelIdealExtract0
import proofs.«206503_g81295140979383_cont_9to1c4b_414_34_alg».proof.Proof.KernelIdealExtract1
import proofs.«206503_g81295140979383_cont_9to1c4b_414_34_alg».proof.Proof.KernelIdealExtract2
import proofs.«206503_g81295140979383_cont_9to1c4b_414_34_alg».proof.Proof.KernelIdealExtract3
import proofs.«206503_g81295140979383_cont_9to1c4b_414_34_alg».proof.Proof.KernelIdealRingInit
import proofs.«206503_g81295140979383_cont_9to1c4b_414_34_alg».proof.Proof.KernelIdealRowVal
import proofs.«206503_g81295140979383_cont_9to1c4b_414_34_alg».proof.Proof.KernelIdealEpilogue
import proofs.«206503_g81295140979383_cont_9to1c4b_414_34_alg».proof.Proof.KernelIdealRing

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- Every word the gathers' offset lists hold names a row of the table. -/
theorem hin_of (fq : Buf (Elt F) ((thr d L).loc cc0_scratch1)) (h : ∀ p : S200x128.Idx, (fq p).toNat < 250000) :
    ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) fq x).toNat < 250000 := by
  intro off inb x
  exact h _

/-- A read share cut into three tokens and a remainder: one piece per gather slot. -/
theorem toks3 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 3} f) ∗ (ℓ ↦[S]{Transfers.shareTokN q 0} f) ∗ (ℓ ↦[S]{Transfers.shareTokN q 1} f)
      ∗ (ℓ ↦[S]{Transfers.shareTokN q 2} f)) := by
  have h0 := pointsTo_share (Ix := HIx 1) (Val := Elt F) (Name := ℕ) (U := UU) (Lvl := ℕ) (ℓ := ℓ) (I := S) (f := f) (q := q) (q₁ := Transfers.shareDrop q 1) (q₂ := Transfers.shareTokN q 0) (PosShare.mem_left_op_right _)
  have h1 := pointsTo_share (Ix := HIx 1) (Val := Elt F) (Name := ℕ) (U := UU) (Lvl := ℕ) (ℓ := ℓ) (I := S) (f := f) (q := Transfers.shareDrop q 1) (q₁ := Transfers.shareDrop q 2) (q₂ := Transfers.shareTokN q 1) (PosShare.mem_left_op_right _)
  have h2 := pointsTo_share (Ix := HIx 1) (Val := Elt F) (Name := ℕ) (U := UU) (Lvl := ℕ) (ℓ := ℓ) (I := S) (f := f) (q := Transfers.shareDrop q 2) (q₁ := Transfers.shareDrop q 3) (q₂ := Transfers.shareTokN q 2) (PosShare.mem_left_op_right _)
  constructor
  · iintro H
    ihave H := h0.1 $$ H
    icases H with ⟨H, H0⟩
    ihave H := h1.1 $$ H
    icases H with ⟨H, H1⟩
    ihave H := h2.1 $$ H
    icases H with ⟨H, H2⟩
    isplitl [H]; · iexact H
    isplitl [H0]; · iexact H0
    isplitl [H1]; · iexact H1
    iexact H2
  · iintro ⟨H, H0, H1, H2⟩
    iapply h0.2
    isplitr [H0]
    · iapply h1.2
      isplitr [H1]
      · iapply h2.2
        isplitl [H]; · iexact H
        iexact H2
      · iexact H1
    · iexact H0

/-- The result array's elements a tile holds, as the tile's memref addresses them. -/
theorem pts_oSet (f : Buf (Elt F) (oLoc d)) :
    ((oV).view.loc (thr d L) ↦[oSet L]{fullShare} f : sProp 𝕄) = (oLoc d ↦[oSet L]{fullShare} f) := rfl

variable [FloatOps F]

set_option maxHeartbeats 4000000 in
/-- The tile's obligation. -/
theorem tile_spec : TileSpec (F := F) := by
  intro hF d L O W hO q1 q2 tb ix o0 hix
  unfold tileProg
  simp only [cc0_emb_kernel_eq_skeleton]; unfold cc0_emb_kernel_skel
  simp only [k0_part44_eq_skeleton]; unfold k0_part44_skel
  simp only [Prog.bind_assoc]
  rw [(K (F := F)).scopedBufs_V hF d (cV L) (jV L), SparseCore.Cfg.scopedSems0_V (Val := Elt F) d (cV L) (jV L), ownSems0_tile, ownBufs_tile]
  iintro ⟨#Hlv, -, ⟨Ht, Hi, Ho⟩, ⟨⟨%f0, Hs0⟩, ⟨%f1, Hs1⟩, ⟨%f2, Hs2⟩, ⟨%f3, Hs3⟩, Hbufs⟩, ⟨Hg0, Hg1, Hg2, Hg3, Hw0, Hw1, Hsc, Hsems⟩, HO⟩
  ihave Hmw := ((K (F := F)).mayWaits_none (thr := thr d L) hO) $$ Hlv
  ihave Ht := (Entails.of_eq (pts_t (F := F) d L _ _).symm) $$ Ht
  ihave Ht := (toks4 (F := F) q1).1 $$ Ht
  icases Ht with ⟨Htd, Ht0, Ht1, Ht2, Ht3⟩
  ihave Hi := (Entails.of_eq (pts_i (F := F) d L _ _).symm) $$ Hi
  ihave Ho := (Entails.of_eq (pts_oSet (F := F) d L _).symm) $$ Ho
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  -- the first copy: the tile's columns of the index array into the index scratch
  sl_exec
  -- the row numbers: every index shifted right by two
  sl_for (qInv d L (View.write (Elt F) sI.view f0 (tile_spec.sl.dma0 d L ix) Finset.univ)) $$ [Hs0 Hs1]
  case region => exact q_region d L _
  · iapply (q_intro d L _ f1)
    isplitl [Hs0]; · iexact Hs0
    iexact Hs1
  iintro %acc HI
  ihave H := (q_elim_trips d L _ acc) $$ HI
  icases H with ⟨Hs0, %fq, Hs1, %hq⟩
  -- what the scratches hold: the tile's columns of the index array, and their row numbers
  have hfI : ∀ (h : Fin 200) (col : Fin 128),
      (View.write (Elt F) sI.view f0 (tile_spec.sl.dma0 d L ix) Finset.univ) (ix2 h col) = ix (ix2 h (tcol L col)) := by
    intro h col
    refine (View.write_emb_of_mem (v := (sI : Memref sig .scVector .vmem S200x128 .i32).view) f0 _ (Finset.mem_univ (ix2 h col))).trans ?_
    unfold tile_spec.sl.dma0
    exact iBlk_read (F := F) L ix h col
  have hfq : ∀ p : S200x128.Idx, (fq p).toNat < 250000 := by
    intro p
    obtain ⟨h, col, rfl⟩ : ∃ (h : Fin 200) (col : Fin 128), p = ix2 h col := ⟨p 0, p 1, eq_ix2 p⟩
    rw [hq, hfI]
    have := hix (ix2 h (tcol L col))
    omega
  obtain ⟨qQ, hqQ⟩ : ∃ qQ : PosShare TreeShare, qQ = fullShare := ⟨_, rfl⟩
  ihave Hs1 := (Entails.of_eq (congrArg (fun q => ((sQ).view.loc (thr d L) ↦{q} fq : sProp 𝕄)) hqQ.symm)) $$ Hs1
  ihave Hs1 := (toks3 (F := F) qQ).1 $$ Hs1
  icases Hs1 with ⟨Hqa, Hqb, Hqc, Hqd⟩
  have hin := hin_of (F := F) d L fq hfq
  -- the scratch arrays by slot: each gather lands in a piece of its own, each write-out reads one
  ihave Hs2 := (Entails.of_eq (sG_pieces (F := F) d L f2)) $$ Hs2
  icases Hs2 with ⟨Hp0, Hp1, Hp2, Hp3⟩
  ihave Hs3 := (Entails.of_eq (sO_pieces (F := F) d L f3)) $$ Hs3
  icases Hs3 with ⟨Hr0, Hr1⟩
  -- the gathers of positions 0, 1, 2
  sl_exec
  -- the pipeline, by its invariant
  let D : RingData (F := F) d L :=
    { q1 := q1, qQ := qQ, tb := tb, ix := ix, fI := View.write (Elt F) sI.view f0 (tile_spec.sl.dma0 d L ix) Finset.univ, fq := fq, O := O,
      W := insert (SemLoc.dma cc0_scoped0.sem, (default : HIx 1)) W }
  have hga0 := gathered_of (F := F) d L D 0 lt4_0 (4 * 0) (by omega) f2 (tile_spec.sl.gather0 d L tb fq hin)
    (fun r cc row hrow => by unfold tile_spec.sl.gather0; exact gather_rowQ_apply' tb _ (tW_read tb) 0 (by omega) fq _ _ r cc row hrow)
  have hga1 := gathered_of (F := F) d L D 1 lt4_1 (4 * 0 + 1) (by omega) f2 (tile_spec.sl.gather1 d L tb fq hin)
    (fun r cc row hrow => by unfold tile_spec.sl.gather1; exact gather_rowQ_apply' tb _ (tW_read tb) 1 (by omega) fq _ _ r cc row hrow)
  have hga2 := gathered_of (F := F) d L D 2 lt4_2 (4 * 0 + 2) (by omega) f2 (tile_spec.sl.gather2 d L tb fq hin)
    (fun r cc row hrow => by unfold tile_spec.sl.gather2; exact gather_rowQ_apply' tb _ (tW_read tb) 2 (by omega) fq _ _ r cc row hrow)
  sl_for (ringInv D) $$ [Hs0 Hg0 Ht0 Hqa Hg1 Ht1 Hqb Hg2 Ht2 Hqc Hg3 Hp3 Ht3 Hqd Hw0 Hw1 Hr0 Hr1 Ho HO]
  case region => exact ring_region D hfI hq hix hfq
  · rw [ringInv_zero]
    isplitr; · iexact Hmw
    isplitl [Hs0]; · iexact Hs0
    isplitl [Hg0 Ht0 Hqa Hg1 Ht1 Hqb Hg2 Ht2 Hqc Hg3 Hp3 Ht3 Hqd]
    · isplitl [Hg0 Ht0 Hqa]
      · iapply (busy_intro (F := F) d L D 0 lt4_0 cc0_scratch4 (4 * 0) _ _ hga0)
        isplitl [Hg0]; · iexact Hg0
        isplitl [Ht0]; · iexact Ht0
        iexact Hqa
      isplitl [Hg1 Ht1 Hqb]
      · iapply (busy_intro (F := F) d L D 1 lt4_1 cc0_scratch5 (4 * 0 + 1) _ _ hga1)
        isplitl [Hg1]; · iexact Hg1
        isplitl [Ht1]; · iexact Ht1
        iexact Hqb
      isplitl [Hg2 Ht2 Hqc]
      · iapply (busy_intro (F := F) d L D 2 lt4_2 cc0_scratch6 (4 * 0 + 2) _ _ hga2)
        isplitl [Hg2]; · iexact Hg2
        isplitl [Ht2]; · iexact Ht2
        iexact Hqc
      unfold RingData.free
      isplitl [Hg3]; · iexact Hg3
      isplitl [Hp3]; · iexists f2; iexact Hp3
      isplitl [Ht3]; · iexact Ht3
      iexact Hqd
    isplitl [Hw0 Hw1 Hr0 Hr1 Ho]
    · unfold idleSlot
      isplitl [Hw0 Hr0]
      · isplitl [Hw0]; · iexact Hw0
        iexists f3; iexact Hr0
      isplitl [Hw1 Hr1]
      · isplitl [Hw1]; · iexact Hw1
        iexists f3; iexact Hr1
      iexists o0; iexact Ho
    iexists _
    isplitr
    · ipureintro; exact fun p hp => Or.inl hp
    iexact HO
  -- after the last trip: the last two write-outs are waited for and everything is handed back
  iintro %acc HI
  have h50 : Scf.trips k0_t2_loop.lb k0_t2_loop.ub k0_t2_loop.st = 50 := by decide
  ihave HI := (Entails.of_eq (show ringInv D (Scf.trips k0_t2_loop.lb k0_t2_loop.ub k0_t2_loop.st) acc = ringInv D 50 () from by rw [h50])) $$ HI
  have hW0 : ∀ p ∈ D.W, p ∈ W ∨ p.2 = none := fun p hp =>
    (Finset.mem_insert.mp hp).elim (fun e => Or.inr (by rw [e]; rfl)) Or.inl
  iapply (Epilogue.epilogue d L D q2 hqQ W hW0) $$ [HI Htd Hi Hsc Hbufs Hsems]
  isplitl [HI]; · iexact HI
  isplitl [Htd]; · iexact Htd
  isplitl [Hi]; · iexact Hi
  isplitl [Hsc]; · iexact Hsc
  isplitl [Hbufs]; · iexact Hbufs
  iexact Hsems

end Cert.Proof.KernelIdeal

end
-- ==== Proof.KernelTileRes.lean ====
/-
  What a tile holds while it runs: its seven transfer semaphores and four scratch arrays taken out of the
  bundle the launch hands it, the three arrays in HBM respelt as the tile's memrefs address them, and a read
  share cut into one token per gather slot.
-/
import proofs.«206503_g81295140979383_cont_9to1c4b_414_34_alg».proof.Proof.KernelTileSpec

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The tile's own semaphores and scratch arrays, taken out of what the launch hands it -/

/-- The cell of one of the tile's transfer semaphores. -/
abbrev cell (s : DmaSems sig S_) : GSem nD τ sig := (thr d L, .dma s.sem)

theorem cell_mem (s : DmaSems sig S_) (h : (SemLoc.dma s.sem : SemLoc sig).isScoped .scVector = true) : cell d L s ∈ ownCells (thr d L) :=
  (mem_ownCells (g := cell d L s)).mpr ⟨rfl, h⟩

theorem cell_ne {a b : DmaSems sig S_} (h : (a.sem : DmaSem sig) ≠ b.sem) : cell d L a ≠ cell d L b :=
  fun e => h (SemLoc.dma.inj (Prod.mk.inj e).2)

/-- The seven transfer semaphores — four for the gathers' slots, two for the write-outs' slots, one for the
    first copy — are among the tile's own, at zero. -/
theorem ownSems0_tile :
    (ownSems0 (thr d L) : sProp 𝕄)
      = iprop(semVal (cell d L cc0_scratch4) 0 ∗ semVal (cell d L cc0_scratch5) 0 ∗ semVal (cell d L cc0_scratch6) 0 ∗ semVal (cell d L cc0_scratch7) 0
          ∗ semVal (cell d L cc0_scratch8) 0 ∗ semVal (cell d L cc0_scratch9) 0 ∗ semVal (cell d L cc0_scoped0) 0
          ∗ bigSep (((((((ownCells (thr d L)).erase (cell d L cc0_scratch4)).erase (cell d L cc0_scratch5)).erase (cell d L cc0_scratch6)).erase (cell d L cc0_scratch7)).erase
              (cell d L cc0_scratch8)).erase (cell d L cc0_scratch9) |>.erase (cell d L cc0_scoped0))
              fun g => semVal g 0) := by
  unfold SparseCore.Cfg.ownSems0
  rw [SparseCore.bigSep_erase' (cell_mem d L cc0_scratch4 (by decide)),
    SparseCore.bigSep_erase' (Finset.mem_erase.mpr ⟨cell_ne d L (by decide), cell_mem d L cc0_scratch5 (by decide)⟩),
    SparseCore.bigSep_erase' (Finset.mem_erase.mpr ⟨cell_ne d L (by decide), Finset.mem_erase.mpr ⟨cell_ne d L (by decide), cell_mem d L cc0_scratch6 (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scratch7 (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch8 (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch9 (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped0 (by decide)⟩⟩⟩⟩⟩⟩)]

abbrev sref (b : Ref sig .scVector) : DevRef τ sig := (Proc.scVector (cV L) (jV L)).devRef b

theorem sref_mem0 : sref L cc0_scratch0 ∈ ownRefs (τ := τ) (sig := sig) (.scVector (cV L) (jV L)) :=
  SparseCore.Cfg.mem_ownRefs_of_owner (p := Proc.scVector (cV L) (jV L)) (b := sref L cc0_scratch0) rfl
theorem sref_mem1 : sref L cc0_scratch1 ∈ ownRefs (τ := τ) (sig := sig) (.scVector (cV L) (jV L)) :=
  SparseCore.Cfg.mem_ownRefs_of_owner (p := Proc.scVector (cV L) (jV L)) (b := sref L cc0_scratch1) rfl
theorem sref_mem2 : sref L cc0_scratch2 ∈ ownRefs (τ := τ) (sig := sig) (.scVector (cV L) (jV L)) :=
  SparseCore.Cfg.mem_ownRefs_of_owner (p := Proc.scVector (cV L) (jV L)) (b := sref L cc0_scratch2) rfl
theorem sref_mem3 : sref L cc0_scratch3 ∈ ownRefs (τ := τ) (sig := sig) (.scVector (cV L) (jV L)) :=
  SparseCore.Cfg.mem_ownRefs_of_owner (p := Proc.scVector (cV L) (jV L)) (b := sref L cc0_scratch3) rfl

theorem sref_ne {a b : Ref sig .scVector} (h : a ≠ b) : sref L a ≠ sref L b := fun e => h (Proc.devRef_injective _ e)

/-- The four scratch arrays are among the tile's own, at some contents. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (sig := sig) (.scVector (cV L) (jV L))).erase (sref L cc0_scratch0)).erase (sref L cc0_scratch1)).erase (sref L cc0_scratch2)).erase (sref L cc0_scratch3))
              fun b => iprop(∃ f, ((d, b) : Loc nD τ sig) ↦{fullShare} f)) := by
  unfold SparseCore.Cfg.ownBufs
  refine (SparseCore.bigSep_erase' (sref_mem0 L)).trans ?_
  rw [SparseCore.bigSep_erase' (Finset.mem_erase.mpr ⟨sref_ne L (by decide), sref_mem1 L⟩),
    SparseCore.bigSep_erase' (Finset.mem_erase.mpr ⟨sref_ne L (by decide), Finset.mem_erase.mpr ⟨sref_ne L (by decide), sref_mem2 L⟩⟩),
    SparseCore.bigSep_erase' (Finset.mem_erase.mpr ⟨sref_ne L (by decide), Finset.mem_erase.mpr ⟨sref_ne L (by decide), Finset.mem_erase.mpr ⟨sref_ne L (by decide), sref_mem3 L⟩⟩⟩)]

/-! ## The arrays as the tile's memrefs address them -/

theorem pts_t (q : PosShare TreeShare) (f : Buf (Elt F) (tLoc d)) : ((tV).view.loc (thr d L) ↦{q} f : sProp 𝕄) = (tLoc d ↦{q} f) := rfl
theorem pts_i (q : PosShare TreeShare) (f : Buf (Elt F) (iLoc d)) : ((iV).view.loc (thr d L) ↦{q} f : sProp 𝕄) = (iLoc d ↦{q} f) := rfl
theorem pts_s0 (f : Buf (Elt F) ((thr d L).loc cc0_scratch0)) : ((sI).view.loc (thr d L) ↦{fullShare} f : sProp 𝕄) = ((thr d L).loc cc0_scratch0 ↦{fullShare} f) := rfl
theorem pts_s1 (f : Buf (Elt F) ((thr d L).loc cc0_scratch1)) : ((sQ).view.loc (thr d L) ↦{fullShare} f : sProp 𝕄) = ((thr d L).loc cc0_scratch1 ↦{fullShare} f) := rfl
theorem pts_s2 (f : Buf (Elt F) ((thr d L).loc cc0_scratch2)) : ((sG).view.loc (thr d L) ↦{fullShare} f : sProp 𝕄) = ((thr d L).loc cc0_scratch2 ↦{fullShare} f) := rfl
theorem pts_s3 (f : Buf (Elt F) ((thr d L).loc cc0_scratch3)) : ((sO).view.loc (thr d L) ↦{fullShare} f : sProp 𝕄) = ((thr d L).loc cc0_scratch3 ↦{fullShare} f) := rfl

/-- A read share cut into four tokens, one per gather slot, and a remainder. -/
theorem toks4 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 4} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f)) := by
  have h0 := pointsTo_share (Ix := HIx 1) (Val := Elt F) (Name := ℕ) (U := UU) (Lvl := ℕ) (ℓ := ℓ) (I := S) (f := f) (q := q) (q₁ := Transfers.shareDrop q 1) (q₂ := Transfers.shareTokN q 0) (PosShare.mem_left_op_right _)
  have h1 := pointsTo_share (Ix := HIx 1) (Val := Elt F) (Name := ℕ) (U := UU) (Lvl := ℕ) (ℓ := ℓ) (I := S) (f := f) (q := Transfers.shareDrop q 1) (q₁ := Transfers.shareDrop q 2) (q₂ := Transfers.shareTokN q 1) (PosShare.mem_left_op_right _)
  have h2 := pointsTo_share (Ix := HIx 1) (Val := Elt F) (Name := ℕ) (U := UU) (Lvl := ℕ) (ℓ := ℓ) (I := S) (f := f) (q := Transfers.shareDrop q 2) (q₁ := Transfers.shareDrop q 3) (q₂ := Transfers.shareTokN q 2) (PosShare.mem_left_op_right _)
  have h3 := pointsTo_share (Ix := HIx 1) (Val := Elt F) (Name := ℕ) (U := UU) (Lvl := ℕ) (ℓ := ℓ) (I := S) (f := f) (q := Transfers.shareDrop q 3) (q₁ := Transfers.shareDrop q 4) (q₂ := Transfers.shareTokN q 3) (PosShare.mem_left_op_right _)
  constructor
  · iintro H
    ihave H := h0.1 $$ H
    icases H with ⟨H, H0⟩
    ihave H := h1.1 $$ H
    icases H with ⟨H, H1⟩
    ihave H := h2.1 $$ H
    icases H with ⟨H, H2⟩
    ihave H := h3.1 $$ H
    icases H with ⟨H, H3⟩
    isplitl [H]; · iexact H
    isplitl [H0]; · iexact H0
    isplitl [H1]; · iexact H1
    isplitl [H2]; · iexact H2
    iexact H3
  · iintro ⟨H, H0, H1, H2, H3⟩
    iapply h0.2
    isplitr [H0]
    · iapply h1.2
      isplitr [H1]
      · iapply h2.2
        isplitr [H2]
        · iapply h3.2
          isplitl [H]; · iexact H
          iexact H3
        · iexact H2
      · iexact H1
    · iexact H0

end Cert.Proof.Kernel

end
-- ==== Proof.KernelRingDefs.lean ====
/-
  The pieces of the tile's pipeline, in the program's own spelling: slot `s` of the gathered-rows scratch, row `h`
  of the row-number scratch (the offset list of position `h`'s gather), the table as a gather's source, slot `b`
  of the result-rows scratch, and the tile's columns of position `h` of the result (one write-out's destination);
  the pipeline's conditions and the first loop's offsets in closed form; and a gather in flight.
-/
import proofs.«206503_g81295140979383_cont_9to1c4b_414_34_alg».proof.Proof.KernelTileRes

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxRecDepth 100000 in
theorem off2_eq : ∀ t : Fin k0_t1_loop.trips, k0_off2 t = ![t.val / 8, t.val % 8 * 16] := by decide +kernel
theorem cond1_eq : ∀ t : Fin k0_t2_loop.trips, k0_cond1 t = 1#1 := by decide +kernel
theorem cond2_eq : ∀ t : Fin k0_t2_loop.trips, (k0_cond2 t = 1#1) ↔ 0 < t.val := by decide +kernel
theorem cond3_eq : ∀ t : Fin k0_t2_loop.trips, (k0_cond3 t = 1#1) ↔ t.val < 49 := by decide +kernel
theorem cond4_eq : ∀ t : Fin k0_t2_loop.trips, (k0_cond4 t = 1#1) ↔ 0 < t.val := by decide +kernel
theorem cond5_eq : ∀ t : Fin k0_t2_loop.trips, (k0_cond5 t = 1#1) ↔ t.val < 49 := by decide +kernel
theorem cond6_eq : ∀ t : Fin k0_t2_loop.trips, k0_cond6 t = 1#1 := by decide +kernel
theorem cond7_eq : ∀ t : Fin k0_t2_loop.trips, (k0_cond7 t = 1#1) ↔ t.val < 49 := by decide +kernel
theorem cond8_eq : ∀ t : Fin k0_t2_loop.trips, k0_cond8 t = 1#1 := by decide +kernel

variable (d : Dev nD) (L : grid0.Coords)

/-! ## The program's spellings of the pieces -/

theorem slotG_inb (s : Nat) (hs : s < 4) : ∀ a, (![s, 0, 0] : Fin 3 → Nat) a + S1x128x128.size a ≤ S4x128x128.size a := by
  intro a; match a with
  | ⟨0, _⟩ => show s + 1 ≤ 4; omega
  | ⟨1, _⟩ => exact Nat.le_refl _
  | ⟨2, _⟩ => exact Nat.le_refl _
/-- Slot `s` of the gathered-rows scratch, as the program slices it. -/
abbrev slotG (s : Nat) (hs : s < 4) : Memref sig .scVector .vmem S128x128 .f32 :=
  (sG.slice (Rect.unit (s := S4x128x128) ![s, 0, 0] S1x128x128.size (slotG_inb s hs)) (fun _ => rfl)).squeeze S128x128 squeezes_S1x128x128_S128x128

theorem rowQ_inb (h : Nat) (hh : h < 200) : ∀ a, (![h, 0] : Fin 2 → Nat) a + S1x128.size a ≤ S200x128.size a := by
  intro a; match a with
  | ⟨0, _⟩ => show h + 1 ≤ 200; omega
  | ⟨1, _⟩ => exact Nat.le_refl _
/-- Row `h` of the row-number scratch: the offset list of position `h`'s gather. -/
abbrev rowQ (h : Nat) (hh : h < 200) : Memref sig .scVector .vmem S128 .i32 :=
  (sQ.slice (Rect.unit (s := S200x128) ![h, 0] S1x128.size (rowQ_inb h hh)) (fun _ => rfl)).squeeze S128 squeezes_S1x128_S128

/-- The table as a gather's source: all of it. -/
abbrev tW : Memref sig .scVector .hbm S250000x128 .f32 :=
  tV.slice (Rect.unit (s := S250000x128) ![0, 0] S250000x128.size inb_S250000x128_S250000x128_0_0) (fun _ => rfl)

theorem slotO_inb (b : Nat) (hb : b < 2) : ∀ a, (![b, 0, 0] : Fin 3 → Nat) a + S1x32x128.size a ≤ S2x32x128.size a := by
  intro a; match a with
  | ⟨0, _⟩ => show b + 1 ≤ 2; omega
  | ⟨1, _⟩ => exact Nat.le_refl _
  | ⟨2, _⟩ => exact Nat.le_refl _
/-- Slot `b` of the result-rows scratch. -/
abbrev slotO (b : Nat) (hb : b < 2) : Memref sig .scVector .vmem S32x128 .f32 :=
  (sO.slice (Rect.unit (s := S2x32x128) ![b, 0, 0] S1x32x128.size (slotO_inb b hb)) (fun _ => rfl)).squeeze S32x128 squeezes_S1x32x128_S32x128

theorem outRow_inb (h : Nat) (hh : h < 200) : ∀ a, (![h, 0, col0 L] : Fin 3 → Nat) a + S1x32x128.size a ≤ S200x32x4096.size a := by
  have h0 := core_lt L; have h1 := sub_lt L
  intro a; match a with
  | ⟨0, _⟩ => show h + 1 ≤ 200; omega
  | ⟨1, _⟩ => exact Nat.le_refl _
  | ⟨2, _⟩ => show col0 L + 128 ≤ 4096; unfold col0; omega
/-- The tile's columns of position `h` of the result: one write-out's destination. -/
abbrev outRow (h : Nat) (hh : h < 200) : Memref sig .scVector .hbm S32x128 .f32 :=
  (oV.slice (Rect.unit (s := S200x32x4096) ![h, 0, col0 L] S1x32x128.size (outRow_inb L h hh)) (fun _ => rfl)).squeeze S32x128 squeezes_S1x32x128_S32x128

/-- The gathers' semaphores by slot, the write-outs' by slot. -/
abbrev gsem : Fin 4 → DmaSems sig S_ := ![cc0_scratch4, cc0_scratch5, cc0_scratch6, cc0_scratch7]
abbrev wsem : Fin 2 → DmaSems sig S_ := ![cc0_scratch8, cc0_scratch9]

variable (q1 : PosShare TreeShare) (tb : Buf (Elt F) (tLoc d)) (fq : Buf (Elt F) ((thr d L).loc cc0_scratch1))

/-- The gather of position `h` into slot `s`, in flight: what its wait will hand back. -/
abbrev GF (s : Nat) (hs : s < 4) (sem : DmaSems sig S_) (h : Nat) (hh : h < 200) (g : Buf (Elt F) ((thr d L).loc cc0_scratch2)) (pay : S128x128.Idx → Elt F .f32) : sProp 𝕄 :=
  Transfers.Flight countersEmb (thr d L) (SemLoc.dma sem.sem) default 524288
    iprop((((sG).view.loc (thr d L) ↦[(slotG s hs).view.set]{fullShare} View.write (Elt F) (slotG s hs).view g pay Finset.univ)
        ∗ ((sQ).view.loc (thr d L) ↦[(rowQ h hh).view.set]{Transfers.shareTokN fullShare s} fq))
      ∗ ((tV).view.loc (thr d L) ↦[(tW).view.set]{Transfers.shareTokN q1 s} tb))

end Cert.Proof.Kernel

end
-- ==== Proof.KernelGeom.lean ====
/-
  The tile's pieces read at coordinates. Each piece is a rectangle of one of the tile's arrays with its unit axes
  dropped: slot `s` of the gathered rows is the elements `(s, r, c)`, row `h` of the row numbers the elements
  `(h, r)`, slot `b` of the result rows the elements `(b, dd, col)`, the tile's columns of position `h` of the
  result the elements `(h, dd, col0 + col)`, the tile's block of the index array the elements `(h, col0 + col)`.
  Stated here: where each piece puts a coordinate, which elements it covers, what a whole write through it leaves
  at a coordinate and off the piece, and what a gather through a row of row numbers delivers at a coordinate.
-/
import proofs.«206503_g81295140979383_cont_9to1c4b_414_34_alg».proof.Proof.KernelRingDefs
import Idealize.ShloMosaic.Lib.ValueLayout

noncomputable section

namespace Cert.Proof.Kernel

open Cert.Kernel Cert.Kernel.Gen

open Idealize.ShloMosaic Idealize.ShloMosaic.ValueIdx
open Idealize.ShloMosaic.SparseCore (S V T)
open Idealize.SL.Sem

variable {F : FTy → Type}

/-! ## A unit axis put back -/

/-- An index `r` matched with shape `[1, a]` is `(0, r)`. -/
theorem reshapeEquiv_ix1_1a {a : ℕ} (h : (⟨1, ![a]⟩ : Shape).numel = (⟨2, ![1, a]⟩ : Shape).numel) (r : Fin a) :
    Shape.reshapeEquiv h (ix1 r) = ix2 (⟨0, Nat.one_pos⟩ : Fin 1) r :=
  Shape.reshapeEquiv_eq_of_rowMajor h (by
    rw [Shape.rowMajor_val_two, Shape.rowMajor_val_one]
    show 0 * a + r.val = r.val
    simp only [Nat.zero_mul, Nat.zero_add])

/-! ## Where each piece puts a coordinate -/

/-- Slot `s` of the gathered rows puts `(r, c)` at `(s, r, c)`. -/
theorem slotG_emb (s : Nat) (hs : s < 4) (r c : Fin 128) :
    (slotG s hs).view.emb (ix2 r c) = (ix3 (⟨s, hs⟩ : Fin 4) r c : S4x128x128.Idx) := by
  have e1 : Shape.reshapeEquiv (squeezes_S1x128x128_S128x128).numel_eq (ix2 r c) = ix3 (⟨0, Nat.one_pos⟩ : Fin 1) r c :=
    reshapeEquiv_ix2_1ab _ r c
  show (Rect.unit (s := S4x128x128) ![s, 0, 0] S1x128x128.size (slotG_inb s hs)).emb (Shape.reshapeEquiv _ (ix2 r c)) = _
  rw [e1]
  funext a; apply Fin.ext
  match a with
  | ⟨0, _⟩ => show s + 1 * 0 = s; omega
  | ⟨1, _⟩ => show 0 + 1 * r.val = r.val; omega
  | ⟨2, _⟩ => show 0 + 1 * c.val = c.val; omega

/-- Slot `b` of the result rows puts `(dd, col)` at `(b, dd, col)`. -/
theorem slotO_emb (b : Nat) (hb : b < 2) (dd : Fin 32) (col : Fin 128) :
    (slotO b hb).view.emb (ix2 dd col) = (ix3 (⟨b, hb⟩ : Fin 2) dd col : S2x32x128.Idx) := by
  have e1 : Shape.reshapeEquiv (squeezes_S1x32x128_S32x128).numel_eq (ix2 dd col) = ix3 (⟨0, Nat.one_pos⟩ : Fin 1) dd col :=
    reshapeEquiv_ix2_1ab _ dd col
  show (Rect.unit (s := S2x32x128) ![b, 0, 0] S1x32x128.size (slotO_inb b hb)).emb (Shape.reshapeEquiv _ (ix2 dd col)) = _
  rw [e1]
  funext a; apply Fin.ext
  match a with
  | ⟨0, _⟩ => show b + 1 * 0 = b; omega
  | ⟨1, _⟩ => show 0 + 1 * dd.val = dd.val; omega
  | ⟨2, _⟩ => show 0 + 1 * col.val = col.val; omega

/-- Row `h` of the row numbers puts `r` at `(h, r)`. -/
theorem rowQ_emb (h : Nat) (hh : h < 200) (r : Fin 128) :
    (rowQ h hh).view.emb (ix1 r) = (ix2 (⟨h, hh⟩ : Fin 200) r : S200x128.Idx) := by
  have e1 : Shape.reshapeEquiv (squeezes_S1x128_S128).numel_eq (ix1 r) = ix2 (⟨0, Nat.one_pos⟩ : Fin 1) r :=
    reshapeEquiv_ix1_1a _ r
  show (Rect.unit (s := S200x128) ![h, 0] S1x128.size (rowQ_inb h hh)).emb (Shape.reshapeEquiv _ (ix1 r)) = _
  rw [e1]
  funext a; apply Fin.ext
  match a with
  | ⟨0, _⟩ => show h + 1 * 0 = h; omega
  | ⟨1, _⟩ => show 0 + 1 * r.val = r.val; omega

/-! ## Which elements each piece covers -/

/-- Slot `s` of the gathered rows covers the elements whose first coordinate is `s`. -/
theorem slotG_mem (s : Nat) (hs : s < 4) (i : S4x128x128.Idx) : i ∈ (slotG s hs).view.set ↔ (i 0).val = s := by
  rw [Memref.set_view_squeeze]
  show i ∈ ((View.whole (cc0_scratch2 : Ref sig .scVector)).slice (Rect.unit (s := S4x128x128) ![s, 0, 0] S1x128x128.size (slotG_inb s hs))).set ↔ _
  rw [View.set_slice_whole, Rect.mem_set_unit]
  have h1 : (i 1).val < 128 := (i 1).isLt
  have h2 : (i 2).val < 128 := (i 2).isLt
  constructor
  · intro h; have := h 0
    have a1 : s ≤ (i 0).val := this.1
    have a2 : (i 0).val < s + 1 := this.2
    omega
  · intro h a
    match a with
    | ⟨0, _⟩ => exact ⟨by show s ≤ (i 0).val; omega, by show (i 0).val < s + 1; omega⟩
    | ⟨1, _⟩ => exact ⟨by show 0 ≤ (i 1).val; omega, by show (i 1).val < 0 + 128; omega⟩
    | ⟨2, _⟩ => exact ⟨by show 0 ≤ (i 2).val; omega, by show (i 2).val < 0 + 128; omega⟩

/-- Slot `b` of the result rows covers the elements whose first coordinate is `b`. -/
theorem slotO_mem (b : Nat) (hb : b < 2) (i : S2x32x128.Idx) : i ∈ (slotO b hb).view.set ↔ (i 0).val = b := by
  rw [Memref.set_view_squeeze]
  show i ∈ ((View.whole (cc0_scratch3 : Ref sig .scVector)).slice (Rect.unit (s := S2x32x128) ![b, 0, 0] S1x32x128.size (slotO_inb b hb))).set ↔ _
  rw [View.set_slice_whole, Rect.mem_set_unit]
  have h1 : (i 1).val < 32 := (i 1).isLt
  have h2 : (i 2).val < 128 := (i 2).isLt
  constructor
  · intro h; have := h 0
    have a1 : b ≤ (i 0).val := this.1
    have a2 : (i 0).val < b + 1 := this.2
    omega
  · intro h a
    match a with
    | ⟨0, _⟩ => exact ⟨by show b ≤ (i 0).val; omega, by show (i 0).val < b + 1; omega⟩
    | ⟨1, _⟩ => exact ⟨by show 0 ≤ (i 1).val; omega, by show (i 1).val < 0 + 32; omega⟩
    | ⟨2, _⟩ => exact ⟨by show 0 ≤ (i 2).val; omega, by show (i 2).val < 0 + 128; omega⟩

/-- Row `h` of the row numbers covers the elements whose first coordinate is `h`. -/
theorem rowQ_mem (h : Nat) (hh : h < 200) (i : S200x128.Idx) : i ∈ (rowQ h hh).view.set ↔ (i 0).val = h := by
  rw [Memref.set_view_squeeze]
  show i ∈ ((View.whole (cc0_scratch1 : Ref sig .scVector)).slice (Rect.unit (s := S200x128) ![h, 0] S1x128.size (rowQ_inb h hh))).set ↔ _
  rw [View.set_slice_whole, Rect.mem_set_unit]
  have h1 : (i 1).val < 128 := (i 1).isLt
  constructor
  · intro hm; have := hm 0
    have a1 : h ≤ (i 0).val := this.1
    have a2 : (i 0).val < h + 1 := this.2
    omega
  · intro hm a
    match a with
    | ⟨0, _⟩ => exact ⟨by show h ≤ (i 0).val; omega, by show (i 0).val < h + 1; omega⟩
    | ⟨1, _⟩ => exact ⟨by show 0 ≤ (i 1).val; omega, by show (i 1).val < 0 + 128; omega⟩

/-! ## A whole write through a piece, read back -/

/-- A whole write through slot `s` of the gathered rows leaves the payload's `(r, c)` at `(s, r, c)` … -/
theorem slotG_write_at (s : Nat) (hs : s < 4) (g : S4x128x128.Idx → Elt F .f32) (pay : S128x128.Idx → Elt F .f32) (r c : Fin 128) :
    View.write (Elt F) (slotG s hs).view g pay Finset.univ (ix3 (⟨s, hs⟩ : Fin 4) r c) = pay (ix2 r c) := by
  rw [← slotG_emb s hs r c, View.write_emb_of_mem (v := (slotG s hs).view) g pay (Finset.mem_univ _)]
  rfl
/-- … and every element outside the slot as it was. -/
theorem slotG_write_off (s : Nat) (hs : s < 4) (g : S4x128x128.Idx → Elt F .f32) (pay : S128x128.Idx → Elt F .f32)
    (i : S4x128x128.Idx) (hi : (i 0).val ≠ s) : View.write (Elt F) (slotG s hs).view g pay Finset.univ i = g i :=
  View.write_of_not_mem (v := (slotG s hs).view) g pay Finset.univ (by rw [View.setOn_univ, slotG_mem]; exact hi)

/-- A whole write through slot `b` of the result rows leaves the payload's `(dd, col)` at `(b, dd, col)` … -/
theorem slotO_write_at (b : Nat) (hb : b < 2) (o : S2x32x128.Idx → Elt F .f32) (pay : S32x128.Idx → Elt F .f32) (dd : Fin 32) (col : Fin 128) :
    View.write (Elt F) (slotO b hb).view o pay Finset.univ (ix3 (⟨b, hb⟩ : Fin 2) dd col) = pay (ix2 dd col) := by
  rw [← slotO_emb b hb dd col, View.write_emb_of_mem (v := (slotO b hb).view) o pay (Finset.mem_univ _)]
  rfl
/-- … and every element outside the slot as it was. -/
theorem slotO_write_off (b : Nat) (hb : b < 2) (o : S2x32x128.Idx → Elt F .f32) (pay : S32x128.Idx → Elt F .f32)
    (i : S2x32x128.Idx) (hi : (i 0).val ≠ b) : View.write (Elt F) (slotO b hb).view o pay Finset.univ i = o i :=
  View.write_of_not_mem (v := (slotO b hb).view) o pay Finset.univ (by rw [View.setOn_univ, slotO_mem]; exact hi)

/-- Row `h` of the row numbers reads `(h, r)` at `r`. -/
theorem rowQ_read (h : Nat) (hh : h < 200) (fq : S200x128.Idx → BitVec 32) (r : Fin 128) :
    (rowQ h hh).view.read (Elt F) fq (ix1 r) = fq (ix2 (⟨h, hh⟩ : Fin 200) r) := by
  rw [View.read_apply, rowQ_emb h hh r]
  rfl

/-! ## The table as a gather's source: all of it -/

/-- The table's whole rectangle puts every coordinate where it is. -/
theorem tW_emb (x : S250000x128.Idx) : (tW).view.emb x = x := by
  show (Rect.unit (s := S250000x128) ![0, 0] S250000x128.size inb_S250000x128_S250000x128_0_0).emb x = x
  funext a; apply Fin.ext
  match a with
  | ⟨0, _⟩ => show 0 + 1 * (x 0).val = (x 0).val; omega
  | ⟨1, _⟩ => show 0 + 1 * (x 1).val = (x 1).val; omega

/-- It covers every element. -/
theorem tW_mem (i : S250000x128.Idx) : i ∈ (tW).view.set := by
  rw [← tW_emb i]; exact View.emb_mem_set _ _

/-- Read through it, the table is the table. -/
theorem tW_read (tb : S250000x128.Idx → Elt F .f32) (x : S250000x128.Idx) : (tW).view.read (Elt F) tb x = tb x := by
  rw [View.read_apply, tW_emb x]
  rfl

/-! ## The tile's columns of the result and of the index array -/

/-- Column `col` of the tile's 128, as a column of the array's 4096. -/
def tcol (L : grid0.Coords) (col : Fin 128) : Fin 4096 :=
  ⟨col0 L + col.val, by have h0 := core_lt L; have h1 := sub_lt L; have := col.isLt; unfold col0; omega⟩

theorem tcol_val (L : grid0.Coords) (col : Fin 128) : (tcol L col).val = col0 L + col.val := rfl

/-- The tile's columns of position `h` of the result put `(dd, col)` at `(h, dd, col0 + col)`. -/
theorem outRow_emb (L : grid0.Coords) (h : Nat) (hh : h < 200) (dd : Fin 32) (col : Fin 128) :
    (outRow L h hh).view.emb (ix2 dd col) = (ix3 (⟨h, hh⟩ : Fin 200) dd (tcol L col) : S200x32x4096.Idx) := by
  have e1 : Shape.reshapeEquiv (squeezes_S1x32x128_S32x128).numel_eq (ix2 dd col) = ix3 (⟨0, Nat.one_pos⟩ : Fin 1) dd col :=
    reshapeEquiv_ix2_1ab _ dd col
  show (Rect.unit (s := S200x32x4096) ![h, 0, col0 L] S1x32x128.size (outRow_inb L h hh)).emb (Shape.reshapeEquiv _ (ix2 dd col)) = _
  rw [e1]
  funext a; apply Fin.ext
  match a with
  | ⟨0, _⟩ => show h + 1 * 0 = h; omega
  | ⟨1, _⟩ => show 0 + 1 * dd.val = dd.val; omega
  | ⟨2, _⟩ => show col0 L + 1 * col.val = col0 L + col.val; omega

/-- They cover the elements of position `h` in the tile's columns. -/
theorem outRow_mem (L : grid0.Coords) (h : Nat) (hh : h < 200) (i : S200x32x4096.Idx) :
    i ∈ (outRow L h hh).view.set ↔ (i 0).val = h ∧ col0 L ≤ (i 2).val ∧ (i 2).val < col0 L + 128 := by
  rw [Memref.set_view_squeeze]
  show i ∈ ((View.whole (main_v2_scv : Ref sig .scVector)).slice (Rect.unit (s := S200x32x4096) ![h, 0, col0 L] S1x32x128.size (outRow_inb L h hh))).set ↔ _
  rw [View.set_slice_whole, Rect.mem_set_unit]
  have h1 : (i 1).val < 32 := (i 1).isLt
  constructor
  · intro hm
    have m0 := hm 0; have m2 := hm 2
    have a1 : h ≤ (i 0).val := m0.1
    have a2 : (i 0).val < h + 1 := m0.2
    have b1 : col0 L ≤ (i 2).val := m2.1
    have b2 : (i 2).val < col0 L + 128 := m2.2
    exact ⟨by omega, b1, b2⟩
  · intro hm a
    match a with
    | ⟨0, _⟩ => exact ⟨by show h ≤ (i 0).val; omega, by show (i 0).val < h + 1; omega⟩
    | ⟨1, _⟩ => exact ⟨by show 0 ≤ (i 1).val; omega, by show (i 1).val < 0 + 32; omega⟩
    | ⟨2, _⟩ => exact ⟨by show col0 L ≤ (i 2).val; exact hm.2.1, by show (i 2).val < col0 L + 128; exact hm.2.2⟩

/-- A whole write through them leaves the payload's `(dd, col)` at `(h, dd, col0 + col)` … -/
theorem outRow_write_at (L : grid0.Coords) (h : Nat) (hh : h < 200) (o : S200x32x4096.Idx → Elt F .f32) (pay : S32x128.Idx → Elt F .f32)
    (dd : Fin 32) (col : Fin 128) :
    View.write (Elt F) (outRow L h hh).view o pay Finset.univ (ix3 (⟨h, hh⟩ : Fin 200) dd (tcol L col)) = pay (ix2 dd col) := by
  rw [← outRow_emb L h hh dd col, View.write_emb_of_mem (v := (outRow L h hh).view) o pay (Finset.mem_univ _)]
  rfl
/-- … and every other element as it was. -/
theorem outRow_write_off (L : grid0.Coords) (h : Nat) (hh : h < 200) (o : S200x32x4096.Idx → Elt F .f32) (pay : S32x128.Idx → Elt F .f32)
    (i : S200x32x4096.Idx) (hi : ¬((i 0).val = h ∧ col0 L ≤ (i 2).val ∧ (i 2).val < col0 L + 128)) :
    View.write (Elt F) (outRow L h hh).view o pay Finset.univ i = o i :=
  View.write_of_not_mem (v := (outRow L h hh).view) o pay Finset.univ (by rw [View.setOn_univ, outRow_mem]; exact hi)

/-- The first column of the tile's block of the index array, as the program computes it. -/
theorem k0_off1_eq : ∀ L : grid0.Coords, k0_off1 L = ![0, 256 * (L 1).val + 128 * (L 0).val] := by decide +kernel

/-- The tile's block of the index array: every position, the tile's 128 columns. -/
abbrev iBlk (L : grid0.Coords) : Memref sig .scVector .hbm S200x128 .i32 :=
  (iV).slice (Rect.unit (s := S200x4096) (k0_off1 L) S200x128.size (k0_off1_inb L)) (fun _ => rfl)

/-- It puts `(h, col)` at `(h, col0 + col)`. -/
theorem iBlk_emb (L : grid0.Coords) (h : Fin 200) (col : Fin 128) :
    (iBlk L).view.emb (ix2 h col) = (ix2 h (tcol L col) : S200x4096.Idx) := by
  show (Rect.unit (s := S200x4096) (k0_off1 L) S200x128.size (k0_off1_inb L)).emb (ix2 h col) = _
  funext a; apply Fin.ext
  match a with
  | ⟨0, _⟩ => show k0_off1 L 0 + 1 * h.val = h.val; rw [k0_off1_eq L]; show 0 + 1 * h.val = h.val; omega
  | ⟨1, _⟩ =>
    show k0_off1 L 1 + 1 * col.val = col0 L + col.val
    rw [k0_off1_eq L]; show 256 * (L 1).val + 128 * (L 0).val + 1 * col.val = col0 L + col.val
    unfold col0; omega

/-- Read through it, the index array at `(h, col0 + col)`. -/
theorem iBlk_read (L : grid0.Coords) (ix : S200x4096.Idx → BitVec 32) (h : Fin 200) (col : Fin 128) :
    (iBlk L).view.read (Elt F) ix (ix2 h col) = ix (ix2 h (tcol L col)) := by
  rw [View.read_apply, iBlk_emb L h col]
  rfl

/-! ## A gather through a row of row numbers -/

/-- The gather's payload at `(a, c)`: the source's row that the list names for `a`, at column `c`. -/
theorem gatherPayload_apply (g : S250000x128.Idx → Elt F .f32)
    (r : Fin (S128x128.size (gathers_S250000x128_S128x128).axis') → Fin (S250000x128.size (gathers_S250000x128_S128x128).axis))
    (a c : Fin 128) :
    SparseCore.gatherPayload gathers_S250000x128_S128x128 g r (ix2 a c) = g (ix2 (r a) c) := by
  unfold SparseCore.gatherPayload
  refine congrArg g (funext fun b => Fin.ext ?_)
  match b with
  | ⟨0, _⟩ => unfold Shape.Gathers.idx; rw [dif_pos rfl]; rfl
  | ⟨1, _⟩ => unfold Shape.Gathers.idx; rw [dif_neg (Nat.succ_ne_zero 0)]; rfl

/-- Entry `k` of a rank-one list, in row-major order, is its entry at `k`. -/
theorem rowMajor_symm_ix1 {n : Nat} (hn : S128.numel = n) (k : Fin n) (hk : k.val < 128) :
    S128.rowMajor.symm (k.cast hn.symm) = ix1 (⟨k.val, hk⟩ : Fin 128) := by
  rw [Equiv.symm_apply_eq]
  apply Fin.ext
  rw [Shape.rowMajor_val_one]
  rfl

/-- The rows that row `h` of the row numbers names: entry `k` is the word at `(h, k)`. -/
theorem rows_rowQ (h : Nat) (hh : h < 200) (fq : S200x128.Idx → BitVec 32)
    (hn : S128.numel = S128x128.size (gathers_S250000x128_S128x128).axis')
    (hin : ∀ x, ((rowQ h hh).view.read (Elt F) fq x).toNat < S250000x128.size (gathers_S250000x128_S128x128).axis)
    (k : Fin (S128x128.size (gathers_S250000x128_S128x128).axis')) :
    (SparseCore.rows ((rowQ h hh).view.read (Elt F) fq) hn hin k).val = (fq (ix2 (⟨h, hh⟩ : Fin 200) (⟨k.val, k.isLt⟩ : Fin 128))).toNat := by
  show ((rowQ h hh).view.read (Elt F) fq (S128.rowMajor.symm (Fin.cast hn.symm k))).toNat = _
  rw [rowMajor_symm_ix1 hn k k.isLt, rowQ_read]

/-- The gathered slot at `(r, c)`: the table's row numbered by the word at `(h, r)`, at column `c`. -/
theorem gather_rowQ_apply (tb : S250000x128.Idx → Elt F .f32) (h : Nat) (hh : h < 200) (fq : S200x128.Idx → BitVec 32)
    (hn : S128.numel = S128x128.size (gathers_S250000x128_S128x128).axis')
    (hin : ∀ x, ((rowQ h hh).view.read (Elt F) fq x).toNat < S250000x128.size (gathers_S250000x128_S128x128).axis)
    (r c : Fin 128) (row : Fin 250000) (hrow : row.val = (fq (ix2 (⟨h, hh⟩ : Fin 200) r)).toNat) :
    SparseCore.gatherPayload gathers_S250000x128_S128x128 tb (SparseCore.rows ((rowQ h hh).view.read (Elt F) fq) hn hin) (ix2 r c)
      = tb (ix2 row c) := by
  rw [gatherPayload_apply]
  refine congrArg (fun q => tb (ix2 q c)) (Fin.ext ?_)
  rw [hrow]; exact rows_rowQ h hh fq hn hin r

end Cert.Proof.Kernel

end
-- ==== Proof.KernelWords.lean ====
/-
  Word arithmetic of the lookup's tile. A table of a million rows of 32 entries is held as 250000 rows of 128:
  row `w` is the quarter `w % 4` of row `w / 4`. On 32-bit words `w / 4` is the logical shift right by two and
  `w % 4` the conjunction with 3; the column `(w % 4) * 32 + d` of entry `d < 32` stays below 128, so the word
  operations that compute it do not wrap.
-/
import Idealize.ShloMosaic.PureOps.Vector

namespace Cert.Proof.Kernel

open Idealize.ShloMosaic

/-- The logical shift right by two is the quotient by four; -/
theorem toNat_shr2 (w : BitVec 32) : (w >>> 2).toNat = w.toNat / 4 := by
  rw [BitVec.toNat_ushiftRight, Nat.shiftRight_eq_div_pow]

/-- so is the shift by the word two, -/
theorem toNat_shr2' (w : BitVec 32) : (w >>> (2#32 : BitVec 32)).toNat = w.toNat / 4 := by
  rw [BitVec.ushiftRight_eq']; exact toNat_shr2 w

/-- and a vector lane's shift by a lane holding two: the amount is below the width, no corner. -/
theorem toNat_shrui_two (u : ArithUnit) (w : BitVec 32) : (IntOp.shrui u w (2#32)).toNat = w.toNat / 4 := by
  unfold IntOp.shrui
  rw [if_pos (by decide), toNat_shr2']

/-- The row of 128 that holds row `w` of the table exists: a quarter of a million bounds it. -/
theorem shr2_lt (w : BitVec 32) (h : w.toNat < 1000000) : (w >>> 2).toNat < 250000 := by
  rw [toNat_shr2]; omega

/-- The conjunction with 3 is the remainder by four. -/
theorem toNat_and3 (w : BitVec 32) : (w &&& 3#32).toNat = w.toNat % 4 := by
  rw [BitVec.toNat_and]
  exact Nat.and_two_pow_sub_one_eq_mod w.toNat 2

/-- The column of entry `dd` of row `w` inside its row of 128, as the words compute it: nothing wraps. -/
theorem toNat_quarterCol (w : BitVec 32) (dd : Nat) (h : dd < 32) :
    ((w &&& 3#32) * 32#32 + BitVec.ofNat 32 dd).toNat = w.toNat % 4 * 32 + dd := by
  have h3 := toNat_and3 w
  have hlt : w.toNat % 4 < 4 := Nat.mod_lt _ (by decide)
  rw [BitVec.toNat_add, BitVec.toNat_mul, BitVec.toNat_ofNat, h3]
  show (w.toNat % 4 * 32 % 2 ^ 32 + dd % 2 ^ 32) % 2 ^ 32 = w.toNat % 4 * 32 + dd
  omega

/-- It is a column of the row of 128. -/
theorem quarterCol_lt (w : BitVec 32) (dd : Nat) (h : dd < 32) :
    ((w &&& 3#32) * 32#32 + BitVec.ofNat 32 dd).toNat < 128 := by
  rw [toNat_quarterCol w dd h]
  have hlt : w.toNat % 4 < 4 := Nat.mod_lt _ (by decide)
  omega

end Cert.Proof.Kernel
-- ==== Proof.KernelQLoop.lean ====
/-
  The tile's first counted loop: 1600 trips, trip `t` reading the sixteen index words at row `t / 8`, columns
  `[16 * (t % 8), + 16)` of the index scratch and storing them, shifted right by two, at the same place of the
  row-number scratch. A word's group of sixteen is number `8 * row + column / 16`; the groups are passed in order,
  so before trip `t` the groups below `t` hold the quotients by four of the index words and after the last trip
  the whole scratch does: the row of 128 that holds table row `w` is row `w / 4`.
-/
import proofs.«206503_g81295140979383_cont_9to1c4b_414_34_alg».proof.Proof.KernelTileRes
import proofs.«206503_g81295140979383_cont_9to1c4b_414_34_alg».proof.Proof.KernelWords
import Idealize.ShloMosaic.Lib.Writes
import Idealize.ShloMosaic.Lib.Pipeline.Value

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The loop's offsets -/

set_option maxRecDepth 100000 in
/-- Trip `t` works on the sixteen words at row `t / 8`, columns `[16 * (t % 8), + 16)`. -/
theorem off2_eq : ∀ t : Fin k0_t1_loop.trips, k0_off2 t = ![t.val / 8, t.val % 8 * 16] := by decide +kernel

theorem trips_eq : Scf.trips k0_t1_loop.lb k0_t1_loop.ub k0_t1_loop.st = 1600 := by decide

variable (d : Dev nD) (L : grid0.Coords)

/-- Before trip `t`: the index scratch unchanged, and every word of the row-number scratch whose group of sixteen
    has been passed — group number `8 * row + column / 16` below `t` — is the quotient by four of the index word
    at the same place. -/
def qInv (fI : Buf (Elt F) ((thr d L).loc cc0_scratch0)) : Nat → Unit → sProp 𝕄 := fun t _ =>
  iprop(((sI).view.loc (thr d L) ↦{fullShare} fI)
    ∗ ∃ f, ((sQ).view.loc (thr d L) ↦{fullShare} f) ∗ ⌜∀ p : S200x128.Idx, (p 0).val * 8 + (p 1).val / 16 < t → (f p).toNat = (fI p).toNat / 4⌝)

/-! ## One trip's store, read back -/

/-- The sixteen words trip `k` works on. -/
abbrev qRect (k : Fin (Scf.trips k0_t1_loop.lb k0_t1_loop.ub k0_t1_loop.st)) : Rect S200x128 :=
  Rect.unit (s := S200x128) (k0_off2 k) S1x16.size (k0_off2_inb k)

theorem off2_zero (k : Fin (Scf.trips k0_t1_loop.lb k0_t1_loop.ub k0_t1_loop.st)) : k0_off2 k 0 = k.val / 8 := by rw [off2_eq]; rfl
theorem off2_one (k : Fin (Scf.trips k0_t1_loop.lb k0_t1_loop.ub k0_t1_loop.st)) : k0_off2 k 1 = k.val % 8 * 16 := by rw [off2_eq]; rfl

/-- A word is among trip `k`'s sixteen exactly when its group of sixteen is number `k`. -/
theorem mem_qRect (k : Fin (Scf.trips k0_t1_loop.lb k0_t1_loop.ub k0_t1_loop.st)) (p : S200x128.Idx) :
    p ∈ (qRect k).set ↔ (p 0).val * 8 + (p 1).val / 16 = k.val := by
  have h1 : (p 1).val < 128 := (p 1).isLt
  rw [Rect.mem_set_unit]
  constructor
  · intro h
    have a0 := h 0; have a1 := h 1
    rw [off2_zero] at a0; rw [off2_one] at a1
    have s0 : S1x16.size 0 = 1 := rfl
    have s1 : S1x16.size 1 = 16 := rfl
    rw [s0] at a0; rw [s1] at a1
    omega
  · intro h a
    match a with
    | ⟨0, _⟩ =>
      show k0_off2 k 0 ≤ (p 0).val ∧ (p 0).val < k0_off2 k 0 + 1
      rw [off2_zero]; omega
    | ⟨1, _⟩ =>
      show k0_off2 k 1 ≤ (p 1).val ∧ (p 1).val < k0_off2 k 1 + 16
      rw [off2_one]; omega

/-- What the trip stores at one of its sixteen words: the index word there shifted right by two. -/
theorem qPay_apply (fI : S200x128.Idx → BitVec 32) (k : Fin (Scf.trips k0_t1_loop.lb k0_t1_loop.ub k0_t1_loop.st)) (x : (qRect k).shape.Idx) :
    (shapeCast S1x16 (k0_pay137 (F := F) (View.readAt (Elt F) (sI).view (qRect k).toLoadRect fI)) shapeCasts_S16_S1x16 x : BitVec 32)
      = IntOp.shrui .vector (fI ((qRect k).emb x)) (2#32) := by
  have hx0 : (x 0).val < 1 := (x 0).isLt
  let j : S16.Idx := ix1 (⟨(x 1).val, (x 1).isLt⟩ : Fin 16)
  have hj : (S16.rowMajor j).val = (S1x16.rowMajor x).val := by
    rw [Shape.rowMajor_val_one, Shape.rowMajor_val_two]
    show (x 1).val = (x 0).val * 16 + (x 1).val
    omega
  rw [shapeCast_apply _ shapeCasts_S16_S1x16 x j hj]
  show IntOp.shrui .vector (shapeCast S16 (View.readAt (Elt F) (sI).view (qRect k).toLoadRect fI) shapeCasts_S1x16_S16 j) (2#32) = _
  rw [shapeCast_apply _ shapeCasts_S1x16_S16 j x hj.symm]
  rfl

/-- After trip `k`'s store the groups up to `k` hold the quotients. -/
theorem q_step (fI : Buf (Elt F) ((thr d L).loc cc0_scratch0)) (g : Buf (Elt F) ((thr d L).loc cc0_scratch1))
    (k : Fin (Scf.trips k0_t1_loop.lb k0_t1_loop.ub k0_t1_loop.st))
    (hg : ∀ p : S200x128.Idx, (p 0).val * 8 + (p 1).val / 16 < k.val → (g p).toNat = (fI p).toNat / 4)
    (p : S200x128.Idx) (hp : (p 0).val * 8 + (p 1).val / 16 < k.val + 1) :
    (((sQ).view.writes (Elt F) g
        [⟨qRect k, shapeCast S1x16 (k0_pay137 (F := F) (View.readAt (Elt F) (sI).view (qRect k).toLoadRect fI)) shapeCasts_S16_S1x16⟩] : Buf (Elt F) ((thr d L).loc cc0_scratch1)) p).toNat
      = (fI p).toNat / 4 := by
  by_cases hk : (p 0).val * 8 + (p 1).val / 16 = k.val
  · -- one of the trip's sixteen: the stored word
    have hm : p ∈ (qRect k).set := (mem_qRect k p).mpr hk
    rw [← (qRect k).map_emb_univ] at hm
    obtain ⟨x, -, rfl⟩ := Finset.mem_map.mp hm
    have h1 := View.read_writes_cons_emb (sQ).view (Val := Elt F) g (qRect k)
      (shapeCast S1x16 (k0_pay137 (F := F) (View.readAt (Elt F) (sI).view (qRect k).toLoadRect fI)) shapeCasts_S16_S1x16) [] x
    simp only [Memref.view_whole, View.read_whole] at h1
    rw [h1, qPay_apply, toNat_shrui_two]
  · -- a word of another group: untouched
    have hm : p ∉ (qRect k).set := fun h => hk ((mem_qRect k p).mp h)
    have h1 := View.read_writes_apply_of_forall_not_mem (sQ).view (Val := Elt F) g p
      [⟨qRect k, shapeCast S1x16 (k0_pay137 (F := F) (View.readAt (Elt F) (sI).view (qRect k).toLoadRect fI)) shapeCasts_S16_S1x16⟩]
      (by intro q hq; rw [List.mem_singleton] at hq; subst hq; exact hm)
    simp only [Memref.view_whole, View.read_whole] at h1
    rw [h1]
    exact hg p (by omega)

/-! ## The loop by its invariant -/

theorem q_intro (fI : Buf (Elt F) ((thr d L).loc cc0_scratch0)) (f : Buf (Elt F) ((thr d L).loc cc0_scratch1)) :
    iprop(((sI).view.loc (thr d L) ↦{fullShare} fI) ∗ ((sQ).view.loc (thr d L) ↦{fullShare} f)) ⊢ (qInv d L fI 0 () : sProp 𝕄) := by
  unfold qInv
  iintro ⟨H0, H1⟩
  isplitl [H0]; · iexact H0
  iexists f
  isplitl [H1]; · iexact H1
  ipureintro
  intro p hp
  exact absurd hp (Nat.not_lt_zero _)

/-- After the last trip every group has been passed: the row-number scratch holds the quotients everywhere. -/
theorem q_elim (fI : Buf (Elt F) ((thr d L).loc cc0_scratch0)) (acc : Unit) :
    (qInv d L fI 1600 acc : sProp 𝕄) ⊢ iprop(((sI).view.loc (thr d L) ↦{fullShare} fI)
      ∗ ∃ fq, ((sQ).view.loc (thr d L) ↦{fullShare} fq) ∗ ⌜∀ p : S200x128.Idx, (fq p).toNat = (fI p).toNat / 4⌝) := by
  unfold qInv
  iintro ⟨H0, %g, H1, %hg⟩
  isplitl [H0]; · iexact H0
  iexists g
  isplitl [H1]; · iexact H1
  ipureintro
  intro p
  have h0 : (p 0).val < 200 := (p 0).isLt
  have h1 : (p 1).val < 128 := (p 1).isLt
  exact hg p (by omega)

/-- The same at the loop's own trip count. -/
theorem q_elim_trips (fI : Buf (Elt F) ((thr d L).loc cc0_scratch0)) (acc : Unit) :
    (qInv d L fI (Scf.trips k0_t1_loop.lb k0_t1_loop.ub k0_t1_loop.st) acc : sProp 𝕄) ⊢ iprop(((sI).view.loc (thr d L) ↦{fullShare} fI)
      ∗ ∃ fq, ((sQ).view.loc (thr d L) ↦{fullShare} fq) ∗ ⌜∀ p : S200x128.Idx, (fq p).toNat = (fI p).toNat / 4⌝) := by
  rw [trips_eq]; exact q_elim d L fI acc

variable [FloatOps F]

/-- One trip keeps the invariant: a load of the sixteen index words, a load of the sixteen row-number words (not
    used), the store of the index words shifted right by two. -/
theorem q_region (fI : Buf (Elt F) ((thr d L).loc cc0_scratch0)) :
    ∀ (k : Fin (Scf.trips k0_t1_loop.lb k0_t1_loop.ub k0_t1_loop.st)) (acc : Unit),
      (qInv d L fI k.val acc : sProp 𝕄) ⊢ wp frame (wpE (defs₀ (F := F)) 𝒱₀ (thr d L) none) Set.univ
        (k0_t1_body (F := F) L tV (Memref.isWhole_whole _) iV (Memref.isWhole_whole _) oV (Memref.isWhole_whole _)
          sI (Memref.isWhole_whole _) sQ (Memref.isWhole_whole _) sG (Memref.isWhole_whole _) sO (Memref.isWhole_whole _)
          cc0_scratch4 cc0_scratch5 cc0_scratch6 cc0_scratch7 cc0_scratch8 cc0_scratch9 cc0_scoped0 k acc)
        (qInv d L fI (k.val + 1)) := by
  intro k acc
  unfold qInv
  unfold k0_t1_body
  iintro ⟨Hs0, %g, Hs1, %hg⟩
  sl_exec
  sl_step
  isplitl [Hs0]; · iexact Hs0
  iexists _
  isplitl [Hs1]; · iexact Hs1
  ipureintro
  exact q_step d L fI g k hg

end Cert.Proof.Kernel

end
-- ==== Proof.KernelExtractLib.lean ====
/-
  The inner loops of a tile: for one row `h` of the tile's index block and one slot of gathered 128-wide table rows,
  every column `c < 128` and every `dd < 32` get `result[dd, c] = gathered[c, (w % 4) * 32 + dd]`, `w` the index word
  at `(h, c)`: the table's row `w` of 32 elements is the quarter `w % 4` of the gathered row of 128. A trip of the loop
  does sixteen columns: one load of sixteen index words, thirty-two indexed loads (one per `dd`), thirty-two stores of
  sixteen elements. This file has what the four copies of the loop share: the two slots as sets of elements, what the
  indexed load reads, the words' arithmetic, one indexed load and one store as steps, and the loop's invariant.
-/
import proofs.«206503_g81295140979383_cont_9to1c4b_414_34_alg».proof.Proof.KernelTileSpec
import Idealize.ShloMosaic.Lib.ValueLayout

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The two slots, in the program's spelling -/

/-- Slot `kk` of the gathered rows: the 128 x 128 block at `(kk, 0, 0)`, its unit axis dropped. -/
abbrev slotGn (kk : Nat) (inb : ∀ a, (![kk, 0, 0] : Fin 3 → Nat) a + S1x128x128.size a ≤ S4x128x128.size a) :
    Memref sig .scVector .vmem S128x128 .f32 :=
  (sG.slice (Rect.unit (s := S4x128x128) ![kk, 0, 0] S1x128x128.size inb) (fun _ => rfl)).squeeze S128x128 squeezes_S1x128x128_S128x128

/-- Slot `bb` of the result rows: the 32 x 128 block at `(bb, 0, 0)`, its unit axis dropped. -/
abbrev slotOn (bb : Nat) (inb : ∀ a, (![bb, 0, 0] : Fin 3 → Nat) a + S1x32x128.size a ≤ S2x32x128.size a) :
    Memref sig .scVector .vmem S32x128 .f32 :=
  (sO.slice (Rect.unit (s := S2x32x128) ![bb, 0, 0] S1x32x128.size inb) (fun _ => rfl)).squeeze S32x128 squeezes_S1x32x128_S32x128

omit [FloatOps F] in
theorem mem_slotG (kk : Nat) (inb) (i : S4x128x128.Idx) : i ∈ (slotGn kk inb).view.set ↔ (i 0).val = kk := by
  rw [Memref.set_view_squeeze]
  show i ∈ ((View.whole (cc0_scratch2 : Ref sig .scVector)).slice (Rect.unit (s := S4x128x128) ![kk, 0, 0] S1x128x128.size inb)).set ↔ _
  rw [View.set_slice_whole, Rect.mem_set_unit]
  have h1 : (i 1).val < 128 := (i 1).isLt
  have h2 : (i 2).val < 128 := (i 2).isLt
  constructor
  · intro h; have := h 0
    have a1 : kk ≤ (i 0).val := this.1
    have a2 : (i 0).val < kk + 1 := this.2
    omega
  · intro h a
    match a with
    | ⟨0, _⟩ => exact ⟨by show kk ≤ (i 0).val; omega, by show (i 0).val < kk + 1; omega⟩
    | ⟨1, _⟩ => exact ⟨by show 0 ≤ (i 1).val; omega, by show (i 1).val < 0 + 128; omega⟩
    | ⟨2, _⟩ => exact ⟨by show 0 ≤ (i 2).val; omega, by show (i 2).val < 0 + 128; omega⟩

omit [FloatOps F] in
theorem mem_slotO (bb : Nat) (inb) (i : S2x32x128.Idx) : i ∈ (slotOn bb inb).view.set ↔ (i 0).val = bb := by
  rw [Memref.set_view_squeeze]
  show i ∈ ((View.whole (cc0_scratch3 : Ref sig .scVector)).slice (Rect.unit (s := S2x32x128) ![bb, 0, 0] S1x32x128.size inb)).set ↔ _
  rw [View.set_slice_whole, Rect.mem_set_unit]
  have h1 : (i 1).val < 32 := (i 1).isLt
  have h2 : (i 2).val < 128 := (i 2).isLt
  constructor
  · intro h; have := h 0
    have a1 : bb ≤ (i 0).val := this.1
    have a2 : (i 0).val < bb + 1 := this.2
    omega
  · intro h a
    match a with
    | ⟨0, _⟩ => exact ⟨by show bb ≤ (i 0).val; omega, by show (i 0).val < bb + 1; omega⟩
    | ⟨1, _⟩ => exact ⟨by show 0 ≤ (i 1).val; omega, by show (i 1).val < 0 + 32; omega⟩
    | ⟨2, _⟩ => exact ⟨by show 0 ≤ (i 2).val; omega, by show (i 2).val < 0 + 128; omega⟩

omit [FloatOps F] in
/-- Where the whole-slot view of slot `kk` puts `(r, c)`: at `(kk, r, c)` of the scratch. -/
theorem emb_slotG (kk : Nat) (hk : kk < 4) (inb) (r c : Fin 128) :
    ((slotGn kk inb).access (Rect.whole S128x128)).emb (ix2 r c) = (ix3 (⟨kk, hk⟩ : Fin 4) r c : S4x128x128.Idx) := by
  have e1 : Shape.reshapeEquiv (squeezes_S1x128x128_S128x128).numel_eq ((Rect.whole S128x128).emb (ix2 r c)) = ix3 (⟨0, Nat.one_pos⟩ : Fin 1) r c := by
    rw [Rect.emb_whole_apply]; exact reshapeEquiv_ix2_1ab _ r c
  show (Rect.unit (s := S4x128x128) ![kk, 0, 0] S1x128x128.size inb).emb (Shape.reshapeEquiv _ ((Rect.whole S128x128).emb (ix2 r c))) = _
  rw [e1]
  funext a; apply Fin.ext
  match a with
  | ⟨0, _⟩ => show kk + 1 * 0 = kk; omega
  | ⟨1, _⟩ => show 0 + 1 * r.val = r.val; omega
  | ⟨2, _⟩ => show 0 + 1 * c.val = c.val; omega

/-- What the whole-slot view of slot `kk` reads at `(r, c)`: the scratch at `(kk, r, c)`. -/
theorem read_slotG (d : Dev nD) (L : grid0.Coords) (kk : Nat) (hk : kk < 4) (inb) (g : Buf (Elt F) ((thr d L).loc cc0_scratch2)) (r c : Fin 128) :
    ((slotGn kk inb).access (Rect.whole S128x128)).read (Elt F) g (ix2 r c) = g (ix3 (⟨kk, hk⟩ : Fin 4) r c) := by
  rw [View.read_apply, emb_slotG kk hk inb r c]
  rfl

/-! ## Words -/

/-- The column a gather reads in lane `l`: the index word's low two bits pick the quarter of the 128-wide row,
    `n < 32` the element within the quarter. -/
theorem col_word (w : BitVec 32) (n : Nat) (hn : n < 32) :
    (IntOp.addi (IntOp.muli (IntOp.andi w 3#32) 32#32) (BitVec.ofNat 32 n)).toNat = w.toNat % 4 * 32 + n := by
  show ((w &&& 3#32) * 32#32 + BitVec.ofNat 32 n).toNat = _
  have h3 : (w &&& 3#32).toNat = w.toNat % 4 := by
    rw [BitVec.toNat_and]
    show w.toNat &&& 3 = w.toNat % 4
    exact Nat.and_two_pow_sub_one_eq_mod w.toNat 2
  rw [BitVec.toNat_add, BitVec.toNat_mul, h3, BitVec.toNat_ofNat]
  show (w.toNat % 4 * 32 % 2 ^ 32 + n % 2 ^ 32) % 2 ^ 32 = _
  omega

/-- The row a gather reads in lane `l` of trip `t`: lane plus sixteen times the trip. -/
theorem row_word (l t : Nat) (hl : l < 16) (ht : t < 8) :
    (IntOp.addi (BitVec.ofNat 32 l) (Scalar.muli (Scalar.addi (0#32) (Scalar.muli (Scf.iv 0#32 1#32 t) 1#32)) 16#32)).toNat = l + 16 * t := by
  show (BitVec.ofNat 32 l + (0#32 + (0#32 + BitVec.ofNat 32 t * 1#32) * 1#32) * 16#32).toNat = _
  simp only [BitVec.toNat_add, BitVec.toNat_mul, BitVec.toNat_ofNat]
  omega

/-! ## One trip's state, and its two kinds of step -/

/-- What the result slot `bb` holds once trip `t` has stored its rows `dd < n`: at every column before the trip's
    sixteen, and at the trip's sixteen in the rows already stored, the gathered row's element the index word names —
    column `cl`'s word `w` picks quarter `w % 4` of the 128-wide row gathered for it. -/
def TripInv (fI : S200x128.Idx → BitVec 32) (g : S4x128x128.Idx → Elt F .f32) (hrow : Fin 200) (kk : Fin 4) (bb : Fin 2)
    (t n : Nat) (o : S2x32x128.Idx → Elt F .f32) : Prop :=
  ∀ (dd : Fin 32) (cl : Fin 128), (cl.val < 16 * t ∨ (cl.val < 16 * t + 16 ∧ dd.val < n)) →
    o (ix3 bb dd cl) = g (ix3 kk cl ⟨(fI (ix2 hrow cl)).toNat % 4 * 32 + dd.val, by have := dd.isLt; omega⟩)

omit [FloatOps F] in
theorem storeRect_sub (bb n t : Nat) (inbO : ∀ a, (![bb, n, 16 * t] : Fin 3 → Nat) a + S1x1x16.size a ≤ S2x32x128.size a) (inbS)
    (i : S2x32x128.Idx) (hi : i ∈ (Rect.unit (s := S2x32x128) ![bb, n, 16 * t] S1x1x16.size inbO).set) : i ∈ (slotOn bb inbS).view.set := by
  rw [mem_slotO]
  have h0 := (Rect.mem_set_unit.1 hi) 0
  have a1 : bb ≤ (i 0).val := h0.1
  have a2 : (i 0).val < bb + 1 := h0.2
  omega

omit [FloatOps F] in
theorem mem_storeRect (bb n t : Nat) (inbO : ∀ a, (![bb, n, 16 * t] : Fin 3 → Nat) a + S1x1x16.size a ≤ S2x32x128.size a)
    (i : S2x32x128.Idx) : i ∈ (Rect.unit (s := S2x32x128) ![bb, n, 16 * t] S1x1x16.size inbO).set ↔
      (i 0).val = bb ∧ (i 1).val = n ∧ 16 * t ≤ (i 2).val ∧ (i 2).val < 16 * t + 16 := by
  rw [Rect.mem_set_unit]
  constructor
  · intro h
    have h0 := h 0; have h1 := h 1; have h2 := h 2
    have a1 : bb ≤ (i 0).val := h0.1
    have a2 : (i 0).val < bb + 1 := h0.2
    have b1 : n ≤ (i 1).val := h1.1
    have b2 : (i 1).val < n + 1 := h1.2
    have c1 : 16 * t ≤ (i 2).val := h2.1
    have c2 : (i 2).val < 16 * t + 16 := h2.2
    omega
  · intro h a
    match a with
    | ⟨0, _⟩ => exact ⟨by show bb ≤ (i 0).val; omega, by show (i 0).val < bb + 1; omega⟩
    | ⟨1, _⟩ => exact ⟨by show n ≤ (i 1).val; omega, by show (i 1).val < n + 1; omega⟩
    | ⟨2, _⟩ => exact ⟨by show 16 * t ≤ (i 2).val; omega, by show (i 2).val < 16 * t + 16; omega⟩

/-- One row's store: the load the store is printed behind, then the sixteen gathered elements written at
    `(bb, n, 16 t …)`. The state advances from `n` rows stored to `n + 1`. -/
theorem store_step (d : Dev nD) (L : grid0.Coords) (bb : Nat) (hb : bb < 2) (inbS) (kk : Nat) (hk : kk < 4) (inbG)
    (fI : Buf (Elt F) ((thr d L).loc cc0_scratch0)) (g : Buf (Elt F) ((thr d L).loc cc0_scratch2))
    (hrow : Fin 200) (t : Nat) (ht : t < 8) (n : Nat) (hn : n < 32)
    (off : Fin 3 → Nat) (hoff : off = ![bb, n, 16 * t]) (inbO : ∀ a, off a + S1x1x16.size a ≤ S2x32x128.size a)
    (row col : IVec S16 32) (hrc : ∀ a x, ((![row, col] : Fin 2 → IVec S16 32) a x).toNat < S128x128.size a)
    (hr : ∀ l : Fin 16, (row (ix1 l)).toNat = l.val + 16 * t)
    (hc : ∀ l : Fin 16, (col (ix1 l)).toNat = (fI (ix2 hrow (⟨16 * t + l.val, by have := l.isLt; omega⟩ : Fin 128))).toNat % 4 * 32 + n)
    {hl} {hx} {hm} {hsc} {α : Type} {K : PUnit → Prog (TpuEff nD τ sig (Elt F) Λ₀ (thr d L).2) α} {Q : α → sProp 𝕄}
    (o : Buf (Elt F) ((thr d L).loc cc0_scratch3)) (hJ : TripInv fI g hrow ⟨kk, hk⟩ ⟨bb, hb⟩ t n o) :
    ((sO).view.loc (thr d L) ↦[(slotOn bb inbS).view.set]{fullShare} o : sProp 𝕄)
      ⊢ iprop((∀ o' : Buf (Elt F) ((thr d L).loc cc0_scratch3), ⌜TripInv fI g hrow ⟨kk, hk⟩ ⟨bb, hb⟩ t (n + 1) o'⌝
              -∗ ((sO).view.loc (thr d L) ↦[(slotOn bb inbS).view.set]{fullShare} o')
              -∗ wp frame (wpE (defs₀ (F := F)) 𝒱₀ (thr d L) none) Set.univ (K ⟨⟩) Q)
          -∗ wp frame (wpE (defs₀ (F := F)) 𝒱₀ (thr d L) none) Set.univ
              (.op (.load sO (Rect.unit (s := S2x32x128) off S1x1x16.size inbO).toLoadRect hl) fun _ =>
                .op (.store sO (Rect.unit (s := S2x32x128) off S1x1x16.size inbO)
                  (shapeCast S1x1x16 (loadIdx (((slotGn kk inbG).access (Rect.whole S128x128)).read (Elt F) g) ![row, col] hrc) hsc)
                  Finset.univ hx hm) K) Q) := by
  subst hoff
  have hsub1 : (sO : Memref sig .scVector .vmem S2x32x128 .f32).view.setOn (Rect.unit (s := S2x32x128) ![bb, n, 16 * t] S1x1x16.size inbO).toLoadRect.set ⊆ (slotOn bb inbS).view.set := by
    intro i hi
    obtain ⟨x, hx, rfl⟩ := Finset.mem_map.1 hi
    exact storeRect_sub bb n t inbO inbS x hx
  have hsub2 : ((sO : Memref sig .scVector .vmem S2x32x128 .f32).access (Rect.unit (s := S2x32x128) ![bb, n, 16 * t] S1x1x16.size inbO)).setOn Finset.univ ⊆ (slotOn bb inbS).view.set := by
    intro i hi
    have h' : i ∈ ((View.whole (cc0_scratch3 : Ref sig .scVector)).slice (Rect.unit (s := S2x32x128) ![bb, n, 16 * t] S1x1x16.size inbO)).set := hi
    rw [View.set_slice_whole] at h'
    exact storeRect_sub bb n t inbO inbS i h'
  iintro HO HK
  iapply (wp_load 𝒱₀ (thr d L) none Set.univ (m := sO) (S := (slotOn bb inbS).view.set) hsub1) $$ HO; iintro HO
  iapply (wp_store 𝒱₀ (thr d L) none Set.univ (m := sO) (r := Rect.unit (s := S2x32x128) ![bb, n, 16 * t] S1x1x16.size inbO) (Mk := Finset.univ) (S := (slotOn bb inbS).view.set) hsub2) $$ HO; iintro HO
  iapply HK $$ [] HO
  ipureintro
  intro dd cl hcl
  have hdd := dd.isLt
  by_cases hin : dd.val = n ∧ 16 * t ≤ cl.val ∧ cl.val < 16 * t + 16
  · -- the element is one of the sixteen this store writes
    obtain ⟨h1, h2, h3⟩ := hin
    let l : Fin 16 := ⟨cl.val - 16 * t, by omega⟩
    let x : S1x1x16.Idx := ix3 (⟨0, Nat.one_pos⟩ : Fin 1) (⟨0, Nat.one_pos⟩ : Fin 1) l
    have hx : ((sO : Memref sig .scVector .vmem S2x32x128 .f32).access (Rect.unit (s := S2x32x128) ![bb, n, 16 * t] S1x1x16.size inbO)).emb x
        = (ix3 (⟨bb, hb⟩ : Fin 2) dd cl : S2x32x128.Idx) := by
      funext a; apply Fin.ext
      match a with
      | ⟨0, _⟩ => show bb + 1 * 0 = bb; omega
      | ⟨1, _⟩ => show n + 1 * 0 = dd.val; omega
      | ⟨2, _⟩ => show 16 * t + 1 * (cl.val - 16 * t) = cl.val; omega
    rw [← hx, View.write_emb_of_mem _ _ (Finset.mem_univ x)]
    have hv : shapeCast S1x1x16 (loadIdx (((slotGn kk inbG).access (Rect.whole S128x128)).read (Elt F) g) ![row, col] hrc) hsc x
        = g (ix3 (⟨kk, hk⟩ : Fin 4) cl ⟨(fI (ix2 hrow cl)).toNat % 4 * 32 + dd.val, by omega⟩) := by
      rw [shapeCast_apply _ hsc x (ix1 l) (by
        rw [Shape.rowMajor_val_three, Shape.rowMajor_val_one]
        show l.val = (0 * 1 + 0) * 16 + l.val
        omega)]
      show ((slotGn kk inbG).access (Rect.whole S128x128)).read (Elt F) g (idxAt ![row, col] hrc (ix1 l)) = _
      have hi : idxAt ![row, col] hrc (ix1 l) = ix2 (⟨(row (ix1 l)).toNat, hrc 0 (ix1 l)⟩ : Fin 128) (⟨(col (ix1 l)).toNat, hrc 1 (ix1 l)⟩ : Fin 128) := by
        funext a
        match a with
        | ⟨0, _⟩ => rfl
        | ⟨1, _⟩ => rfl
      rw [hi, read_slotG d L kk hk inbG g]
      have e1 : (⟨(row (ix1 l)).toNat, hrc 0 (ix1 l)⟩ : Fin 128) = cl := Fin.ext (by show (row (ix1 l)).toNat = cl.val; rw [hr l]; show cl.val - 16 * t + 16 * t = cl.val; omega)
      have ecl : (⟨16 * t + l.val, by have := l.isLt; omega⟩ : Fin 128) = cl := Fin.ext (by show 16 * t + (cl.val - 16 * t) = cl.val; omega)
      have e2 : (⟨(col (ix1 l)).toNat, hrc 1 (ix1 l)⟩ : Fin 128) = ⟨(fI (ix2 hrow cl)).toNat % 4 * 32 + dd.val, by omega⟩ :=
        Fin.ext (by
          show (col (ix1 l)).toNat = (fI (ix2 hrow cl)).toNat % 4 * 32 + dd.val
          rw [hc l, ecl, h1])
      rw [e1, e2]
    exact hv
  · -- the store leaves the element as it was
    have hnot : (ix3 (⟨bb, hb⟩ : Fin 2) dd cl : S2x32x128.Idx) ∉ ((sO : Memref sig .scVector .vmem S2x32x128 .f32).access (Rect.unit (s := S2x32x128) ![bb, n, 16 * t] S1x1x16.size inbO)).setOn Finset.univ := by
      intro hi
      have h' : (ix3 (⟨bb, hb⟩ : Fin 2) dd cl : S2x32x128.Idx) ∈ ((View.whole (cc0_scratch3 : Ref sig .scVector)).slice (Rect.unit (s := S2x32x128) ![bb, n, 16 * t] S1x1x16.size inbO)).set := hi
      rw [View.set_slice_whole, mem_storeRect] at h'
      obtain ⟨-, b1, b2, b3⟩ := h'
      exact hin ⟨b1, b2, b3⟩
    rw [View.write_of_not_mem _ _ _ hnot]
    exact hJ dd cl (by omega)

/-- One gather: the check that its indices are in range, then the indexed load off slot `kk`, which reads what the
    whole-slot view reads. -/
theorem gather_step (d : Dev nD) (L : grid0.Coords) (kk : Nat) (inbG) (g : Buf (Elt F) ((thr d L).loc cc0_scratch2))
    (P : Prop) (dec : Decidable P) (hP : P) {hl} {α : Type}
    {K : PLift P → Vec F S128x128 .f32 → Prog (TpuEff nD τ sig (Elt F) Λ₀ (thr d L).2) α} {Q : α → sProp 𝕄} :
    ((sG).view.loc (thr d L) ↦[(slotGn kk inbG).view.set]{fullShare} g : sProp 𝕄)
      ⊢ iprop((((sG).view.loc (thr d L) ↦[(slotGn kk inbG).view.set]{fullShare} g)
              -∗ wp frame (wpE (defs₀ (F := F)) 𝒱₀ (thr d L) none) Set.univ (K ⟨hP⟩ (((slotGn kk inbG).access (Rect.whole S128x128)).read (Elt F) g)) Q)
          -∗ wp frame (wpE (defs₀ (F := F)) 𝒱₀ (thr d L) none) Set.univ
              (.op (.assume P dec) fun hw => .op (.load (slotGn kk inbG) (.whole S128x128) hl) (K hw)) Q) := by
  iintro HG HK
  iapply (wp_assume 𝒱₀ (thr d L) none Set.univ hP)
  iapply (wp_load_rect 𝒱₀ (thr d L) none Set.univ (m := slotGn kk inbG) (r := Rect.whole S128x128) (S := (slotGn kk inbG).view.set)
    (View.set_slice_subset _ _)) $$ HG
  iintro HG
  iapply HK $$ HG

omit [FloatOps F] in
/-- What the load of sixteen index words reads in lane `l`: the word at `(h, 16 t + l)`. -/
theorem read_sI (d : Dev nD) (L : grid0.Coords) (fI : Buf (Elt F) ((thr d L).loc cc0_scratch0)) (off : Fin 2 → Nat) (h t : Nat) (hh : h < 200) (ht : t < 8)
    (hoff : off = ![h, 16 * t]) (inb : ∀ a, off a + S1x16.size a ≤ S200x128.size a) (l : Fin 16) :
    ((sI : Memref sig .scVector .vmem S200x128 .i32).view.readAt (Elt F) (Rect.unit (s := S200x128) off S1x16.size inb).toLoadRect fI) (ix2 (⟨0, Nat.one_pos⟩ : Fin 1) l)
      = fI (ix2 (⟨h, hh⟩ : Fin 200) (⟨16 * t + l.val, by have := l.isLt; omega⟩ : Fin 128)) := by
  subst hoff
  rw [View.readAt_apply, View.read_apply]
  show fI _ = fI _
  congr 1
  funext a; apply Fin.ext
  match a with
  | ⟨0, _⟩ => show h + 1 * 0 = h; omega
  | ⟨1, _⟩ => show 16 * t + 1 * l.val = 16 * t + l.val; omega

omit [FloatOps F] in
/-- The column vector of the gather for row `n` of the result, in lane `l`. -/
theorem col_val (ld : Vec F S1x16 .i32) (hsc) (n : Nat) (hn : n < 32) (l : Fin 16) :
    ((addi (muli (andi (shapeCast S16 ld hsc) (broadcast S16 3#32)) (broadcast S16 32#32)) (broadcast S16 (BitVec.ofNat 32 n))) (ix1 l)).toNat
      = (ld (ix2 (⟨0, Nat.one_pos⟩ : Fin 1) l)).toNat % 4 * 32 + n := by
  show (IntOp.addi (IntOp.muli (IntOp.andi (shapeCast S16 ld hsc (ix1 l)) 3#32) 32#32) (BitVec.ofNat 32 n)).toNat = _
  rw [col_word _ n hn, shapeCast_1a_a_apply]
  rfl

/-! ## The loop's invariant -/

/-- Before trip `bg` of an extract loop: the index block whole, slot `kk` of the gathered rows, and slot `bb` of the
    result rows holding, in every row, the first `16 bg` columns of what the loop leaves there. -/
def extractInv (d : Dev nD) (L : grid0.Coords) (kk : Nat) (hk : kk < 4) (inbG : ∀ a, (![kk, 0, 0] : Fin 3 → Nat) a + S1x128x128.size a ≤ S4x128x128.size a) (bb : Nat) (hb : bb < 2) (inbS : ∀ a, (![bb, 0, 0] : Fin 3 → Nat) a + S1x32x128.size a ≤ S2x32x128.size a) (hrow : Fin 200)
    (fI : Buf (Elt F) ((thr d L).loc cc0_scratch0)) (g : Buf (Elt F) ((thr d L).loc cc0_scratch2)) : Nat → Unit → sProp 𝕄 :=
  fun bg _ => iprop(((sI).view.loc (thr d L) ↦{fullShare} fI)
    ∗ ((sG).view.loc (thr d L) ↦[(slotGn kk inbG).view.set]{fullShare} g)
    ∗ ∃ o : Buf (Elt F) ((thr d L).loc cc0_scratch3), ((sO).view.loc (thr d L) ↦[(slotOn bb inbS).view.set]{fullShare} o)
        ∗ ⌜TripInv fI g hrow ⟨kk, hk⟩ ⟨bb, hb⟩ bg 0 o⌝)

theorem extract_intro (d : Dev nD) (L : grid0.Coords) (kk : Nat) (hk : kk < 4) (inbG : ∀ a, (![kk, 0, 0] : Fin 3 → Nat) a + S1x128x128.size a ≤ S4x128x128.size a) (bb : Nat) (hb : bb < 2) (inbS : ∀ a, (![bb, 0, 0] : Fin 3 → Nat) a + S1x32x128.size a ≤ S2x32x128.size a) (hrow : Fin 200)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn kk inbG).view.set]{fullShare} g)
      ∗ ((sO).view.loc (thr d L) ↦[(slotOn bb inbS).view.set]{fullShare} o))
    ⊢ extractInv (F := F) d L kk hk inbG bb hb inbS hrow fI g 0 () := by
  unfold extractInv
  iintro ⟨HI, HG, HO⟩
  isplitl [HI]; · iexact HI
  isplitl [HG]; · iexact HG
  iexists o
  isplitl [HO]; · iexact HO
  ipureintro
  intro dd cl h
  omega

theorem extract_elim (d : Dev nD) (L : grid0.Coords) (kk : Nat) (hk : kk < 4) (inbG : ∀ a, (![kk, 0, 0] : Fin 3 → Nat) a + S1x128x128.size a ≤ S4x128x128.size a) (bb : Nat) (hb : bb < 2) (inbS : ∀ a, (![bb, 0, 0] : Fin 3 → Nat) a + S1x32x128.size a ≤ S2x32x128.size a) (hrow : Fin 200)
    (fI : Buf (Elt F) ((thr d L).loc cc0_scratch0)) (g : Buf (Elt F) ((thr d L).loc cc0_scratch2)) :
    extractInv (F := F) d L kk hk inbG bb hb inbS hrow fI g 8 ()
    ⊢ iprop(((sI).view.loc (thr d L) ↦{fullShare} fI)
      ∗ ((sG).view.loc (thr d L) ↦[(slotGn kk inbG).view.set]{fullShare} g)
      ∗ ∃ o' : Buf (Elt F) ((thr d L).loc cc0_scratch3), ((sO).view.loc (thr d L) ↦[(slotOn bb inbS).view.set]{fullShare} o')
          ∗ ⌜∀ (dd : Fin 32) (col : Fin 128), o' (ix3 (⟨bb, hb⟩ : Fin 2) dd col)
              = g (ix3 (⟨kk, hk⟩ : Fin 4) col ⟨(fI (ix2 hrow col)).toNat % 4 * 32 + dd.val, by have := dd.isLt; omega⟩)⌝) := by
  unfold extractInv
  iintro ⟨HI, HG, %o, HO, %hO⟩
  isplitl [HI]; · iexact HI
  isplitl [HG]; · iexact HG
  iexists o
  isplitl [HO]; · iexact HO
  ipureintro
  intro dd cl
  exact hO dd cl (Or.inl (by have := cl.isLt; omega))

omit [FloatOps F] in
theorem t2_lt (t2 : Fin k0_t2_loop.trips) : t2.val < 50 := Nat.lt_of_lt_of_le t2.isLt k0_t2_abs.2.1

/-- Row `4 t2 + k` of the index block: the row the `k`-th extract loop of trip `t2` of the pipeline reads. -/
abbrev rowIx (t2 : Fin k0_t2_loop.trips) (k : Nat) (hk : k < 4) : Fin 200 := ⟨4 * t2.val + k, by have := t2_lt t2; omega⟩

end Cert.Proof.Kernel

end
-- ==== Proof.KernelExtract0.lean ====
/-
  The extract loop of row `4 t2 + 0` of the index block: from slot 0 of the gathered rows into slot 0 of the result rows.
  One trip is proved operation by operation with the shared steps; the invariant says which columns are done.
-/
import proofs.«206503_g81295140979383_cont_9to1c4b_414_34_alg».proof.Proof.KernelExtractLib

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 0` of the index block, slot 0 of the gathered rows, slot 0 of the result rows. -/
def extractInv_0 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 0 (by omega) inb_S4x128x128_S1x128x128_0_0_0 0 (by omega) inb_S2x32x128_S1x32x128_0_0_0 (rowIx t2 0 (by omega)) fI g

set_option maxHeartbeats 8000000 in
/-- Trip `bg` of the extract loop of row `4 t2 + 0`: sixteen more columns of every row of the result slot. -/
theorem extract_region_0 (d : Dev nD) (L : grid0.Coords) (v3 : IVec S16 32) (hv3 : ∀ l : Fin 16, v3 (ix1 l) = BitVec.ofNat 32 l.val)
    (c0 c1 : BitVec 32) (t2 : Fin k0_t2_loop.trips) (v40 : BitVec 32)
    (fI : Buf (Elt F) ((thr d L).loc cc0_scratch0)) (g : Buf (Elt F) ((thr d L).loc cc0_scratch2)) :
    ∀ (bg : Fin k0_t3_loop.trips) (acc : Unit),
      extractInv_0 (F := F) d L t2 fI g bg.val acc
      ⊢ wp frame (wpE (defs₀ (F := F)) 𝒱₀ (thr d L) none) Set.univ (k0_t3_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 c0 c1 t2 v40 bg acc)
          (extractInv_0 (F := F) d L t2 fI g (bg.val + 1)) := by
  intro bg acc
  have ht2 : t2.val < 50 := t2_lt t2
  have hbg : bg.val < 8 := Nat.lt_of_lt_of_le bg.isLt k0_t3_abs.2.1
  simp only [k0_t3_body, k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.bind_assoc, Prog.pure_eq_ret, Prog.bind_ret, Prog.bind_lift, SparseCore.vectorLoadIdx_bind (thr d L), Prog.bind_op]
  unfold extractInv_0 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off5 t2 bg) S1x16.size (k0_off5_inb t2 bg)).toLoadRect fI = ld
  have hldv : ∀ l : Fin 16, ld (ix2 (⟨0, Nat.one_pos⟩ : Fin 1) l)
      = fI (ix2 (⟨4 * t2.val + 0, by omega⟩ : Fin 200) (⟨16 * bg.val + l.val, by have := l.isLt; omega⟩ : Fin 128)) := by
    intro l; rw [← hld]
    exact read_sI d L fI _ (4 * t2.val + 0) bg.val (by omega) hbg (k0_off5_eq t2 bg) _ l
  have hrowv : ∀ l : Fin 16, ((k0_pay2 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay1 ld) (broadcast S16 (BitVec.ofNat 32 n))) (ix1 l)).toNat
      = (fI (ix2 (⟨4 * t2.val + 0, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay2 v3 (0#32) (1#32) bg, addi (k0_pay1 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay2 v3 (0#32) (1#32) bg) (ix1 (x 0))).toNat < 128
      exact lt_of_eq_of_lt (hrowv (x 0)) (by omega)
    | ⟨1, _⟩ =>
      show ((addi (k0_pay1 ld) (broadcast S16 (BitVec.ofNat 32 n))) (ix1 (x 0))).toNat < 128
      exact lt_of_eq_of_lt (hcolv n hn (x 0)) (by omega)
  iapply (gather_step d L 0 inb_S4x128x128_S1x128x128_0_0_0 g _ _ (hchk 0 (by omega))) $$ HG; iintro HG
  iapply (gather_step d L 0 inb_S4x128x128_S1x128x128_0_0_0 g _ _ (hchk 1 (by omega))) $$ HG; iintro HG
  iapply (gather_step d L 0 inb_S4x128x128_S1x128x128_0_0_0 g _ _ (hchk 2 (by omega))) $$ HG; iintro HG
  iapply (gather_step d L 0 inb_S4x128x128_S1x128x128_0_0_0 g _ _ (hchk 3 (by omega))) $$ HG; iintro HG
  iapply (gather_step d L 0 inb_S4x128x128_S1x128x128_0_0_0 g _ _ (hchk 4 (by omega))) $$ HG; iintro HG
  iapply (gather_step d L 0 inb_S4x128x128_S1x128x128_0_0_0 g _ _ (hchk 5 (by omega))) $$ HG; iintro HG
  iapply (gather_step d L 0 inb_S4x128x128_S1x128x128_0_0_0 g _ _ (hchk 6 (by omega))) $$ HG; iintro HG
  iapply (gather_step d L 0 inb_S4x128x128_S1x128x128_0_0_0 g _ _ (hchk 7 (by omega))) $$ HG; iintro HG
  iapply (gather_step d L 0 inb_S4x128x128_S1x128x128_0_0_0 g _ _ (hchk 8 (by omega))) $$ HG; iintro HG
  iapply (gather_step d L 0 inb_S4x128x128_S1x128x128_0_0_0 g _ _ (hchk 9 (by omega))) $$ HG; iintro HG
  iapply (gather_step d L 0 inb_S4x128x128_S1x128x128_0_0_0 g _ _ (hchk 10 (by omega))) $$ HG; iintro HG
  iapply (gather_step d L 0 inb_S4x128x128_S1x128x128_0_0_0 g _ _ (hchk 11 (by omega))) $$ HG; iintro HG
  iapply (gather_step d L 0 inb_S4x128x128_S1x128x128_0_0_0 g _ _ (hchk 12 (by omega))) $$ HG; iintro HG
  iapply (gather_step d L 0 inb_S4x128x128_S1x128x128_0_0_0 g _ _ (hchk 13 (by omega))) $$ HG; iintro HG
  iapply (gather_step d L 0 inb_S4x128x128_S1x128x128_0_0_0 g _ _ (hchk 14 (by omega))) $$ HG; iintro HG
  iapply (gather_step d L 0 inb_S4x128x128_S1x128x128_0_0_0 g _ _ (hchk 15 (by omega))) $$ HG; iintro HG
  iapply (store_step d L 0 (by omega) inb_S2x32x128_S1x32x128_0_0_0 0 (by omega) inb_S4x128x128_S1x128x128_0_0_0 fI g ⟨4 * t2.val + 0, by omega⟩ bg.val hbg 0 (by omega) _ (k0_off6_eq bg) _ _ _ _ hrowv (hcolv 0 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 1 (by omega) _ (k0_off7_eq bg) _ _ _ _ hrowv (hcolv 1 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 2 (by omega) _ (k0_off8_eq bg) _ _ _ _ hrowv (hcolv 2 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 3 (by omega) _ (k0_off9_eq bg) _ _ _ _ hrowv (hcolv 3 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 4 (by omega) _ (k0_off10_eq bg) _ _ _ _ hrowv (hcolv 4 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 5 (by omega) _ (k0_off11_eq bg) _ _ _ _ hrowv (hcolv 5 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 6 (by omega) _ (k0_off12_eq bg) _ _ _ _ hrowv (hcolv 6 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 7 (by omega) _ (k0_off13_eq bg) _ _ _ _ hrowv (hcolv 7 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 8 (by omega) _ (k0_off14_eq bg) _ _ _ _ hrowv (hcolv 8 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 9 (by omega) _ (k0_off15_eq bg) _ _ _ _ hrowv (hcolv 9 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 10 (by omega) _ (k0_off16_eq bg) _ _ _ _ hrowv (hcolv 10 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 11 (by omega) _ (k0_off17_eq bg) _ _ _ _ hrowv (hcolv 11 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 12 (by omega) _ (k0_off18_eq bg) _ _ _ _ hrowv (hcolv 12 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 13 (by omega) _ (k0_off19_eq bg) _ _ _ _ hrowv (hcolv 13 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 14 (by omega) _ (k0_off20_eq bg) _ _ _ _ hrowv (hcolv 14 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 15 (by omega) _ (k0_off21_eq bg) _ _ _ _ hrowv (hcolv 15 (by omega)) o hJ) $$ HO; iintro %o %hJ HO
  iapply (gather_step d L 0 inb_S4x128x128_S1x128x128_0_0_0 g _ _ (hchk 16 (by omega))) $$ HG; iintro HG
  iapply (gather_step d L 0 inb_S4x128x128_S1x128x128_0_0_0 g _ _ (hchk 17 (by omega))) $$ HG; iintro HG
  iapply (gather_step d L 0 inb_S4x128x128_S1x128x128_0_0_0 g _ _ (hchk 18 (by omega))) $$ HG; iintro HG
  iapply (gather_step d L 0 inb_S4x128x128_S1x128x128_0_0_0 g _ _ (hchk 19 (by omega))) $$ HG; iintro HG
  iapply (gather_step d L 0 inb_S4x128x128_S1x128x128_0_0_0 g _ _ (hchk 20 (by omega))) $$ HG; iintro HG
  iapply (gather_step d L 0 inb_S4x128x128_S1x128x128_0_0_0 g _ _ (hchk 21 (by omega))) $$ HG; iintro HG
  iapply (gather_step d L 0 inb_S4x128x128_S1x128x128_0_0_0 g _ _ (hchk 22 (by omega))) $$ HG; iintro HG
  iapply (gather_step d L 0 inb_S4x128x128_S1x128x128_0_0_0 g _ _ (hchk 23 (by omega))) $$ HG; iintro HG
  iapply (gather_step d L 0 inb_S4x128x128_S1x128x128_0_0_0 g _ _ (hchk 24 (by omega))) $$ HG; iintro HG
  iapply (gather_step d L 0 inb_S4x128x128_S1x128x128_0_0_0 g _ _ (hchk 25 (by omega))) $$ HG; iintro HG
  iapply (gather_step d L 0 inb_S4x128x128_S1x128x128_0_0_0 g _ _ (hchk 26 (by omega))) $$ HG; iintro HG
  iapply (gather_step d L 0 inb_S4x128x128_S1x128x128_0_0_0 g _ _ (hchk 27 (by omega))) $$ HG; iintro HG
  iapply (gather_step d L 0 inb_S4x128x128_S1x128x128_0_0_0 g _ _ (hchk 28 (by omega))) $$ HG; iintro HG
  iapply (gather_step d L 0 inb_S4x128x128_S1x128x128_0_0_0 g _ _ (hchk 29 (by omega))) $$ HG; iintro HG
  iapply (gather_step d L 0 inb_S4x128x128_S1x128x128_0_0_0 g _ _ (hchk 30 (by omega))) $$ HG; iintro HG
  iapply (gather_step d L 0 inb_S4x128x128_S1x128x128_0_0_0 g _ _ (hchk 31 (by omega))) $$ HG; iintro HG
  iapply (store_step d L 0 (by omega) inb_S2x32x128_S1x32x128_0_0_0 0 (by omega) inb_S4x128x128_S1x128x128_0_0_0 fI g ⟨4 * t2.val + 0, by omega⟩ bg.val hbg 16 (by omega) _ (k0_off22_eq bg) _ _ _ _ hrowv (hcolv 16 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 17 (by omega) _ (k0_off23_eq bg) _ _ _ _ hrowv (hcolv 17 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 18 (by omega) _ (k0_off24_eq bg) _ _ _ _ hrowv (hcolv 18 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 19 (by omega) _ (k0_off25_eq bg) _ _ _ _ hrowv (hcolv 19 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 20 (by omega) _ (k0_off26_eq bg) _ _ _ _ hrowv (hcolv 20 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 21 (by omega) _ (k0_off27_eq bg) _ _ _ _ hrowv (hcolv 21 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 22 (by omega) _ (k0_off28_eq bg) _ _ _ _ hrowv (hcolv 22 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 23 (by omega) _ (k0_off29_eq bg) _ _ _ _ hrowv (hcolv 23 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 24 (by omega) _ (k0_off30_eq bg) _ _ _ _ hrowv (hcolv 24 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 25 (by omega) _ (k0_off31_eq bg) _ _ _ _ hrowv (hcolv 25 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 26 (by omega) _ (k0_off32_eq bg) _ _ _ _ hrowv (hcolv 26 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 27 (by omega) _ (k0_off33_eq bg) _ _ _ _ hrowv (hcolv 27 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 28 (by omega) _ (k0_off34_eq bg) _ _ _ _ hrowv (hcolv 28 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 29 (by omega) _ (k0_off35_eq bg) _ _ _ _ hrowv (hcolv 29 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 30 (by omega) _ (k0_off36_eq bg) _ _ _ _ hrowv (hcolv 30 (by omega)) o hJ) $$ HO; iintro %o %hJ HO
  iapply (store_step d L 0 (by omega) inb_S2x32x128_S1x32x128_0_0_0 0 (by omega) inb_S4x128x128_S1x128x128_0_0_0 fI g ⟨4 * t2.val + 0, by omega⟩ bg.val hbg 31 (by omega) _ (k0_off37_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_0 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 0 inb_S4x128x128_S1x128x128_0_0_0).view.set]{fullShare} g)
      ∗ ((sO).view.loc (thr d L) ↦[(slotOn 0 inb_S2x32x128_S1x32x128_0_0_0).view.set]{fullShare} o))
    ⊢ extractInv_0 (F := F) d L t2 fI g 0 () :=
  extract_intro d L 0 (by omega) inb_S4x128x128_S1x128x128_0_0_0 0 (by omega) inb_S2x32x128_S1x32x128_0_0_0 (rowIx t2 0 (by omega)) fI g o

theorem extract_elim_0 (d : Dev nD) (L : grid0.Coords) (t2 : Fin k0_t2_loop.trips)
    (fI : Buf (Elt F) ((thr d L).loc cc0_scratch0)) (g : Buf (Elt F) ((thr d L).loc cc0_scratch2)) :
    extractInv_0 (F := F) d L t2 fI g 8 ()
    ⊢ iprop(((sI).view.loc (thr d L) ↦{fullShare} fI)
      ∗ ((sG).view.loc (thr d L) ↦[(slotGn 0 inb_S4x128x128_S1x128x128_0_0_0).view.set]{fullShare} g)
      ∗ ∃ o' : Buf (Elt F) ((thr d L).loc cc0_scratch3), ((sO).view.loc (thr d L) ↦[(slotOn 0 inb_S2x32x128_S1x32x128_0_0_0).view.set]{fullShare} o')
          ∗ ⌜∀ (dd : Fin 32) (col : Fin 128), o' (ix3 (0 : Fin 2) dd col)
              = g (ix3 (0 : Fin 4) col ⟨(fI (ix2 (rowIx t2 0 (by omega)) col)).toNat % 4 * 32 + dd.val, by have := dd.isLt; omega⟩)⌝) :=
  extract_elim d L 0 (by omega) inb_S4x128x128_S1x128x128_0_0_0 0 (by omega) inb_S2x32x128_S1x32x128_0_0_0 (rowIx t2 0 (by omega)) fI g

end Cert.Proof.Kernel

end
-- ==== Proof.KernelExtract1.lean ====
/-
  The extract loop of row `4 t2 + 1` of the index block: from slot 1 of the gathered rows into slot 1 of the result rows.
  One trip is proved operation by operation with the shared steps; the invariant says which columns are done.
-/
import proofs.«206503_g81295140979383_cont_9to1c4b_414_34_alg».proof.Proof.KernelExtractLib

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 1` of the index block, slot 1 of the gathered rows, slot 1 of the result rows. -/
def extractInv_1 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 1 (by omega) inb_S4x128x128_S1x128x128_1_0_0 1 (by omega) inb_S2x32x128_S1x32x128_1_0_0 (rowIx t2 1 (by omega)) fI g

set_option maxHeartbeats 8000000 in
/-- Trip `bg` of the extract loop of row `4 t2 + 1`: sixteen more columns of every row of the result slot. -/
theorem extract_region_1 (d : Dev nD) (L : grid0.Coords) (v3 : IVec S16 32) (hv3 : ∀ l : Fin 16, v3 (ix1 l) = BitVec.ofNat 32 l.val)
    (t2 : Fin k0_t2_loop.trips) (v39 v64 : BitVec 32)
    (fI : Buf (Elt F) ((thr d L).loc cc0_scratch0)) (g : Buf (Elt F) ((thr d L).loc cc0_scratch2)) :
    ∀ (bg : Fin k0_t4_loop.trips) (acc : Unit),
      extractInv_1 (F := F) d L t2 fI g bg.val acc
      ⊢ wp frame (wpE (defs₀ (F := F)) 𝒱₀ (thr d L) none) Set.univ (k0_t4_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 t2 v39 v64 bg acc)
          (extractInv_1 (F := F) d L t2 fI g (bg.val + 1)) := by
  intro bg acc
  have ht2 : t2.val < 50 := t2_lt t2
  have hbg : bg.val < 8 := Nat.lt_of_lt_of_le bg.isLt k0_t4_abs.2.1
  simp only [k0_t4_body, k0_part20_eq_skeleton]
  unfold k0_part20_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part11_skel k0_part12_skel k0_part13_skel k0_part14_skel k0_part15_skel k0_part16_skel k0_part17_skel k0_part18_skel k0_part19_skel
  simp only [Prog.bind_assoc, Prog.pure_eq_ret, Prog.bind_ret, Prog.bind_lift, SparseCore.vectorLoadIdx_bind (thr d L), Prog.bind_op]
  unfold extractInv_1 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off41 t2 bg) S1x16.size (k0_off41_inb t2 bg)).toLoadRect fI = ld
  have hldv : ∀ l : Fin 16, ld (ix2 (⟨0, Nat.one_pos⟩ : Fin 1) l)
      = fI (ix2 (⟨4 * t2.val + 1, by omega⟩ : Fin 200) (⟨16 * bg.val + l.val, by have := l.isLt; omega⟩ : Fin 128)) := by
    intro l; rw [← hld]
    exact read_sI d L fI _ (4 * t2.val + 1) bg.val (by omega) hbg (k0_off41_eq t2 bg) _ l
  have hrowv : ∀ l : Fin 16, ((k0_pay36 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay35 ld) (broadcast S16 (BitVec.ofNat 32 n))) (ix1 l)).toNat
      = (fI (ix2 (⟨4 * t2.val + 1, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay36 v3 (0#32) (1#32) bg, addi (k0_pay35 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay36 v3 (0#32) (1#32) bg) (ix1 (x 0))).toNat < 128
      exact lt_of_eq_of_lt (hrowv (x 0)) (by omega)
    | ⟨1, _⟩ =>
      show ((addi (k0_pay35 ld) (broadcast S16 (BitVec.ofNat 32 n))) (ix1 (x 0))).toNat < 128
      exact lt_of_eq_of_lt (hcolv n hn (x 0)) (by omega)
  iapply (gather_step d L 1 inb_S4x128x128_S1x128x128_1_0_0 g _ _ (hchk 0 (by omega))) $$ HG; iintro HG
  iapply (gather_step d L 1 inb_S4x128x128_S1x128x128_1_0_0 g _ _ (hchk 1 (by omega))) $$ HG; iintro HG
  iapply (gather_step d L 1 inb_S4x128x128_S1x128x128_1_0_0 g _ _ (hchk 2 (by omega))) $$ HG; iintro HG
  iapply (gather_step d L 1 inb_S4x128x128_S1x128x128_1_0_0 g _ _ (hchk 3 (by omega))) $$ HG; iintro HG
  iapply (gather_step d L 1 inb_S4x128x128_S1x128x128_1_0_0 g _ _ (hchk 4 (by omega))) $$ HG; iintro HG
  iapply (gather_step d L 1 inb_S4x128x128_S1x128x128_1_0_0 g _ _ (hchk 5 (by omega))) $$ HG; iintro HG
  iapply (gather_step d L 1 inb_S4x128x128_S1x128x128_1_0_0 g _ _ (hchk 6 (by omega))) $$ HG; iintro HG
  iapply (gather_step d L 1 inb_S4x128x128_S1x128x128_1_0_0 g _ _ (hchk 7 (by omega))) $$ HG; iintro HG
  iapply (gather_step d L 1 inb_S4x128x128_S1x128x128_1_0_0 g _ _ (hchk 8 (by omega))) $$ HG; iintro HG
  iapply (gather_step d L 1 inb_S4x128x128_S1x128x128_1_0_0 g _ _ (hchk 9 (by omega))) $$ HG; iintro HG
  iapply (gather_step d L 1 inb_S4x128x128_S1x128x128_1_0_0 g _ _ (hchk 10 (by omega))) $$ HG; iintro HG
  iapply (gather_step d L 1 inb_S4x128x128_S1x128x128_1_0_0 g _ _ (hchk 11 (by omega))) $$ HG; iintro HG
  iapply (gather_step d L 1 inb_S4x128x128_S1x128x128_1_0_0 g _ _ (hchk 12 (by omega))) $$ HG; iintro HG
  iapply (gather_step d L 1 inb_S4x128x128_S1x128x128_1_0_0 g _ _ (hchk 13 (by omega))) $$ HG; iintro HG
  iapply (gather_step d L 1 inb_S4x128x128_S1x128x128_1_0_0 g _ _ (hchk 14 (by omega))) $$ HG; iintro HG
  iapply (gather_step d L 1 inb_S4x128x128_S1x128x128_1_0_0 g _ _ (hchk 15 (by omega))) $$ HG; iintro HG
  iapply (store_step d L 1 (by omega) inb_S2x32x128_S1x32x128_1_0_0 1 (by omega) inb_S4x128x128_S1x128x128_1_0_0 fI g ⟨4 * t2.val + 1, by omega⟩ bg.val hbg 0 (by omega) _ (k0_off42_eq bg) _ _ _ _ hrowv (hcolv 0 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 1 (by omega) _ (k0_off43_eq bg) _ _ _ _ hrowv (hcolv 1 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 2 (by omega) _ (k0_off44_eq bg) _ _ _ _ hrowv (hcolv 2 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 3 (by omega) _ (k0_off45_eq bg) _ _ _ _ hrowv (hcolv 3 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 4 (by omega) _ (k0_off46_eq bg) _ _ _ _ hrowv (hcolv 4 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 5 (by omega) _ (k0_off47_eq bg) _ _ _ _ hrowv (hcolv 5 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 6 (by omega) _ (k0_off48_eq bg) _ _ _ _ hrowv (hcolv 6 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 7 (by omega) _ (k0_off49_eq bg) _ _ _ _ hrowv (hcolv 7 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 8 (by omega) _ (k0_off50_eq bg) _ _ _ _ hrowv (hcolv 8 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 9 (by omega) _ (k0_off51_eq bg) _ _ _ _ hrowv (hcolv 9 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 10 (by omega) _ (k0_off52_eq bg) _ _ _ _ hrowv (hcolv 10 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 11 (by omega) _ (k0_off53_eq bg) _ _ _ _ hrowv (hcolv 11 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 12 (by omega) _ (k0_off54_eq bg) _ _ _ _ hrowv (hcolv 12 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 13 (by omega) _ (k0_off55_eq bg) _ _ _ _ hrowv (hcolv 13 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 14 (by omega) _ (k0_off56_eq bg) _ _ _ _ hrowv (hcolv 14 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 15 (by omega) _ (k0_off57_eq bg) _ _ _ _ hrowv (hcolv 15 (by omega)) o hJ) $$ HO; iintro %o %hJ HO
  iapply (gather_step d L 1 inb_S4x128x128_S1x128x128_1_0_0 g _ _ (hchk 16 (by omega))) $$ HG; iintro HG
  iapply (gather_step d L 1 inb_S4x128x128_S1x128x128_1_0_0 g _ _ (hchk 17 (by omega))) $$ HG; iintro HG
  iapply (gather_step d L 1 inb_S4x128x128_S1x128x128_1_0_0 g _ _ (hchk 18 (by omega))) $$ HG; iintro HG
  iapply (gather_step d L 1 inb_S4x128x128_S1x128x128_1_0_0 g _ _ (hchk 19 (by omega))) $$ HG; iintro HG
  iapply (gather_step d L 1 inb_S4x128x128_S1x128x128_1_0_0 g _ _ (hchk 20 (by omega))) $$ HG; iintro HG
  iapply (gather_step d L 1 inb_S4x128x128_S1x128x128_1_0_0 g _ _ (hchk 21 (by omega))) $$ HG; iintro HG
  iapply (gather_step d L 1 inb_S4x128x128_S1x128x128_1_0_0 g _ _ (hchk 22 (by omega))) $$ HG; iintro HG
  iapply (gather_step d L 1 inb_S4x128x128_S1x128x128_1_0_0 g _ _ (hchk 23 (by omega))) $$ HG; iintro HG
  iapply (gather_step d L 1 inb_S4x128x128_S1x128x128_1_0_0 g _ _ (hchk 24 (by omega))) $$ HG; iintro HG
  iapply (gather_step d L 1 inb_S4x128x128_S1x128x128_1_0_0 g _ _ (hchk 25 (by omega))) $$ HG; iintro HG
  iapply (gather_step d L 1 inb_S4x128x128_S1x128x128_1_0_0 g _ _ (hchk 26 (by omega))) $$ HG; iintro HG
  iapply (gather_step d L 1 inb_S4x128x128_S1x128x128_1_0_0 g _ _ (hchk 27 (by omega))) $$ HG; iintro HG
  iapply (gather_step d L 1 inb_S4x128x128_S1x128x128_1_0_0 g _ _ (hchk 28 (by omega))) $$ HG; iintro HG
  iapply (gather_step d L 1 inb_S4x128x128_S1x128x128_1_0_0 g _ _ (hchk 29 (by omega))) $$ HG; iintro HG
  iapply (gather_step d L 1 inb_S4x128x128_S1x128x128_1_0_0 g _ _ (hchk 30 (by omega))) $$ HG; iintro HG
  iapply (gather_step d L 1 inb_S4x128x128_S1x128x128_1_0_0 g _ _ (hchk 31 (by omega))) $$ HG; iintro HG
  iapply (store_step d L 1 (by omega) inb_S2x32x128_S1x32x128_1_0_0 1 (by omega) inb_S4x128x128_S1x128x128_1_0_0 fI g ⟨4 * t2.val + 1, by omega⟩ bg.val hbg 16 (by omega) _ (k0_off58_eq bg) _ _ _ _ hrowv (hcolv 16 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 17 (by omega) _ (k0_off59_eq bg) _ _ _ _ hrowv (hcolv 17 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 18 (by omega) _ (k0_off60_eq bg) _ _ _ _ hrowv (hcolv 18 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 19 (by omega) _ (k0_off61_eq bg) _ _ _ _ hrowv (hcolv 19 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 20 (by omega) _ (k0_off62_eq bg) _ _ _ _ hrowv (hcolv 20 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 21 (by omega) _ (k0_off63_eq bg) _ _ _ _ hrowv (hcolv 21 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 22 (by omega) _ (k0_off64_eq bg) _ _ _ _ hrowv (hcolv 22 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 23 (by omega) _ (k0_off65_eq bg) _ _ _ _ hrowv (hcolv 23 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 24 (by omega) _ (k0_off66_eq bg) _ _ _ _ hrowv (hcolv 24 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 25 (by omega) _ (k0_off67_eq bg) _ _ _ _ hrowv (hcolv 25 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 26 (by omega) _ (k0_off68_eq bg) _ _ _ _ hrowv (hcolv 26 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 27 (by omega) _ (k0_off69_eq bg) _ _ _ _ hrowv (hcolv 27 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 28 (by omega) _ (k0_off70_eq bg) _ _ _ _ hrowv (hcolv 28 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 29 (by omega) _ (k0_off71_eq bg) _ _ _ _ hrowv (hcolv 29 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 30 (by omega) _ (k0_off72_eq bg) _ _ _ _ hrowv (hcolv 30 (by omega)) o hJ) $$ HO; iintro %o %hJ HO
  iapply (store_step d L 1 (by omega) inb_S2x32x128_S1x32x128_1_0_0 1 (by omega) inb_S4x128x128_S1x128x128_1_0_0 fI g ⟨4 * t2.val + 1, by omega⟩ bg.val hbg 31 (by omega) _ (k0_off73_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_1 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 1 inb_S4x128x128_S1x128x128_1_0_0).view.set]{fullShare} g)
      ∗ ((sO).view.loc (thr d L) ↦[(slotOn 1 inb_S2x32x128_S1x32x128_1_0_0).view.set]{fullShare} o))
    ⊢ extractInv_1 (F := F) d L t2 fI g 0 () :=
  extract_intro d L 1 (by omega) inb_S4x128x128_S1x128x128_1_0_0 1 (by omega) inb_S2x32x128_S1x32x128_1_0_0 (rowIx t2 1 (by omega)) fI g o

theorem extract_elim_1 (d : Dev nD) (L : grid0.Coords) (t2 : Fin k0_t2_loop.trips)
    (fI : Buf (Elt F) ((thr d L).loc cc0_scratch0)) (g : Buf (Elt F) ((thr d L).loc cc0_scratch2)) :
    extractInv_1 (F := F) d L t2 fI g 8 ()
    ⊢ iprop(((sI).view.loc (thr d L) ↦{fullShare} fI)
      ∗ ((sG).view.loc (thr d L) ↦[(slotGn 1 inb_S4x128x128_S1x128x128_1_0_0).view.set]{fullShare} g)
      ∗ ∃ o' : Buf (Elt F) ((thr d L).loc cc0_scratch3), ((sO).view.loc (thr d L) ↦[(slotOn 1 inb_S2x32x128_S1x32x128_1_0_0).view.set]{fullShare} o')
          ∗ ⌜∀ (dd : Fin 32) (col : Fin 128), o' (ix3 (1 : Fin 2) dd col)
              = g (ix3 (1 : Fin 4) col ⟨(fI (ix2 (rowIx t2 1 (by omega)) col)).toNat % 4 * 32 + dd.val, by have := dd.isLt; omega⟩)⌝) :=
  extract_elim d L 1 (by omega) inb_S4x128x128_S1x128x128_1_0_0 1 (by omega) inb_S2x32x128_S1x32x128_1_0_0 (rowIx t2 1 (by omega)) fI g

end Cert.Proof.Kernel

end
-- ==== Proof.KernelExtract2.lean ====
/-
  The extract loop of row `4 t2 + 2` of the index block: from slot 2 of the gathered rows into slot 0 of the result rows.
  One trip is proved operation by operation with the shared steps; the invariant says which columns are done.
-/
import proofs.«206503_g81295140979383_cont_9to1c4b_414_34_alg».proof.Proof.KernelExtractLib

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 2` of the index block, slot 2 of the gathered rows, slot 0 of the result rows. -/
def extractInv_2 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 2 (by omega) inb_S4x128x128_S1x128x128_2_0_0 0 (by omega) inb_S2x32x128_S1x32x128_0_0_0 (rowIx t2 2 (by omega)) fI g

set_option maxHeartbeats 8000000 in
/-- Trip `bg` of the extract loop of row `4 t2 + 2`: sixteen more columns of every row of the result slot. -/
theorem extract_region_2 (d : Dev nD) (L : grid0.Coords) (v3 : IVec S16 32) (hv3 : ∀ l : Fin 16, v3 (ix1 l) = BitVec.ofNat 32 l.val)
    (t2 : Fin k0_t2_loop.trips) (v39 v88 c3 : BitVec 32)
    (fI : Buf (Elt F) ((thr d L).loc cc0_scratch0)) (g : Buf (Elt F) ((thr d L).loc cc0_scratch2)) :
    ∀ (bg : Fin k0_t5_loop.trips) (acc : Unit),
      extractInv_2 (F := F) d L t2 fI g bg.val acc
      ⊢ wp frame (wpE (defs₀ (F := F)) 𝒱₀ (thr d L) none) Set.univ (k0_t5_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 t2 v39 v88 c3 bg acc)
          (extractInv_2 (F := F) d L t2 fI g (bg.val + 1)) := by
  intro bg acc
  have ht2 : t2.val < 50 := t2_lt t2
  have hbg : bg.val < 8 := Nat.lt_of_lt_of_le bg.isLt k0_t5_abs.2.1
  simp only [k0_t5_body, k0_part30_eq_skeleton]
  unfold k0_part30_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part21_skel k0_part22_skel k0_part23_skel k0_part24_skel k0_part25_skel k0_part26_skel k0_part27_skel k0_part28_skel k0_part29_skel
  simp only [Prog.bind_assoc, Prog.pure_eq_ret, Prog.bind_ret, Prog.bind_lift, SparseCore.vectorLoadIdx_bind (thr d L), Prog.bind_op]
  unfold extractInv_2 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off76 t2 bg) S1x16.size (k0_off76_inb t2 bg)).toLoadRect fI = ld
  have hldv : ∀ l : Fin 16, ld (ix2 (⟨0, Nat.one_pos⟩ : Fin 1) l)
      = fI (ix2 (⟨4 * t2.val + 2, by omega⟩ : Fin 200) (⟨16 * bg.val + l.val, by have := l.isLt; omega⟩ : Fin 128)) := by
    intro l; rw [← hld]
    exact read_sI d L fI _ (4 * t2.val + 2) bg.val (by omega) hbg (k0_off76_eq t2 bg) _ l
  have hrowv : ∀ l : Fin 16, ((k0_pay70 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay69 ld) (broadcast S16 (BitVec.ofNat 32 n))) (ix1 l)).toNat
      = (fI (ix2 (⟨4 * t2.val + 2, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay70 v3 (0#32) (1#32) bg, addi (k0_pay69 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay70 v3 (0#32) (1#32) bg) (ix1 (x 0))).toNat < 128
      exact lt_of_eq_of_lt (hrowv (x 0)) (by omega)
    | ⟨1, _⟩ =>
      show ((addi (k0_pay69 ld) (broadcast S16 (BitVec.ofNat 32 n))) (ix1 (x 0))).toNat < 128
      exact lt_of_eq_of_lt (hcolv n hn (x 0)) (by omega)
  iapply (gather_step d L 2 inb_S4x128x128_S1x128x128_2_0_0 g _ _ (hchk 0 (by omega))) $$ HG; iintro HG
  iapply (gather_step d L 2 inb_S4x128x128_S1x128x128_2_0_0 g _ _ (hchk 1 (by omega))) $$ HG; iintro HG
  iapply (gather_step d L 2 inb_S4x128x128_S1x128x128_2_0_0 g _ _ (hchk 2 (by omega))) $$ HG; iintro HG
  iapply (gather_step d L 2 inb_S4x128x128_S1x128x128_2_0_0 g _ _ (hchk 3 (by omega))) $$ HG; iintro HG
  iapply (gather_step d L 2 inb_S4x128x128_S1x128x128_2_0_0 g _ _ (hchk 4 (by omega))) $$ HG; iintro HG
  iapply (gather_step d L 2 inb_S4x128x128_S1x128x128_2_0_0 g _ _ (hchk 5 (by omega))) $$ HG; iintro HG
  iapply (gather_step d L 2 inb_S4x128x128_S1x128x128_2_0_0 g _ _ (hchk 6 (by omega))) $$ HG; iintro HG
  iapply (gather_step d L 2 inb_S4x128x128_S1x128x128_2_0_0 g _ _ (hchk 7 (by omega))) $$ HG; iintro HG
  iapply (gather_step d L 2 inb_S4x128x128_S1x128x128_2_0_0 g _ _ (hchk 8 (by omega))) $$ HG; iintro HG
  iapply (gather_step d L 2 inb_S4x128x128_S1x128x128_2_0_0 g _ _ (hchk 9 (by omega))) $$ HG; iintro HG
  iapply (gather_step d L 2 inb_S4x128x128_S1x128x128_2_0_0 g _ _ (hchk 10 (by omega))) $$ HG; iintro HG
  iapply (gather_step d L 2 inb_S4x128x128_S1x128x128_2_0_0 g _ _ (hchk 11 (by omega))) $$ HG; iintro HG
  iapply (gather_step d L 2 inb_S4x128x128_S1x128x128_2_0_0 g _ _ (hchk 12 (by omega))) $$ HG; iintro HG
  iapply (gather_step d L 2 inb_S4x128x128_S1x128x128_2_0_0 g _ _ (hchk 13 (by omega))) $$ HG; iintro HG
  iapply (gather_step d L 2 inb_S4x128x128_S1x128x128_2_0_0 g _ _ (hchk 14 (by omega))) $$ HG; iintro HG
  iapply (gather_step d L 2 inb_S4x128x128_S1x128x128_2_0_0 g _ _ (hchk 15 (by omega))) $$ HG; iintro HG
  iapply (store_step d L 0 (by omega) inb_S2x32x128_S1x32x128_0_0_0 2 (by omega) inb_S4x128x128_S1x128x128_2_0_0 fI g ⟨4 * t2.val + 2, by omega⟩ bg.val hbg 0 (by omega) _ (k0_off77_eq bg) _ _ _ _ hrowv (hcolv 0 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 1 (by omega) _ (k0_off78_eq bg) _ _ _ _ hrowv (hcolv 1 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 2 (by omega) _ (k0_off79_eq bg) _ _ _ _ hrowv (hcolv 2 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 3 (by omega) _ (k0_off80_eq bg) _ _ _ _ hrowv (hcolv 3 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 4 (by omega) _ (k0_off81_eq bg) _ _ _ _ hrowv (hcolv 4 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 5 (by omega) _ (k0_off82_eq bg) _ _ _ _ hrowv (hcolv 5 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 6 (by omega) _ (k0_off83_eq bg) _ _ _ _ hrowv (hcolv 6 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 7 (by omega) _ (k0_off84_eq bg) _ _ _ _ hrowv (hcolv 7 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 8 (by omega) _ (k0_off85_eq bg) _ _ _ _ hrowv (hcolv 8 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 9 (by omega) _ (k0_off86_eq bg) _ _ _ _ hrowv (hcolv 9 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 10 (by omega) _ (k0_off87_eq bg) _ _ _ _ hrowv (hcolv 10 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 11 (by omega) _ (k0_off88_eq bg) _ _ _ _ hrowv (hcolv 11 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 12 (by omega) _ (k0_off89_eq bg) _ _ _ _ hrowv (hcolv 12 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 13 (by omega) _ (k0_off90_eq bg) _ _ _ _ hrowv (hcolv 13 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 14 (by omega) _ (k0_off91_eq bg) _ _ _ _ hrowv (hcolv 14 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 15 (by omega) _ (k0_off92_eq bg) _ _ _ _ hrowv (hcolv 15 (by omega)) o hJ) $$ HO; iintro %o %hJ HO
  iapply (gather_step d L 2 inb_S4x128x128_S1x128x128_2_0_0 g _ _ (hchk 16 (by omega))) $$ HG; iintro HG
  iapply (gather_step d L 2 inb_S4x128x128_S1x128x128_2_0_0 g _ _ (hchk 17 (by omega))) $$ HG; iintro HG
  iapply (gather_step d L 2 inb_S4x128x128_S1x128x128_2_0_0 g _ _ (hchk 18 (by omega))) $$ HG; iintro HG
  iapply (gather_step d L 2 inb_S4x128x128_S1x128x128_2_0_0 g _ _ (hchk 19 (by omega))) $$ HG; iintro HG
  iapply (gather_step d L 2 inb_S4x128x128_S1x128x128_2_0_0 g _ _ (hchk 20 (by omega))) $$ HG; iintro HG
  iapply (gather_step d L 2 inb_S4x128x128_S1x128x128_2_0_0 g _ _ (hchk 21 (by omega))) $$ HG; iintro HG
  iapply (gather_step d L 2 inb_S4x128x128_S1x128x128_2_0_0 g _ _ (hchk 22 (by omega))) $$ HG; iintro HG
  iapply (gather_step d L 2 inb_S4x128x128_S1x128x128_2_0_0 g _ _ (hchk 23 (by omega))) $$ HG; iintro HG
  iapply (gather_step d L 2 inb_S4x128x128_S1x128x128_2_0_0 g _ _ (hchk 24 (by omega))) $$ HG; iintro HG
  iapply (gather_step d L 2 inb_S4x128x128_S1x128x128_2_0_0 g _ _ (hchk 25 (by omega))) $$ HG; iintro HG
  iapply (gather_step d L 2 inb_S4x128x128_S1x128x128_2_0_0 g _ _ (hchk 26 (by omega))) $$ HG; iintro HG
  iapply (gather_step d L 2 inb_S4x128x128_S1x128x128_2_0_0 g _ _ (hchk 27 (by omega))) $$ HG; iintro HG
  iapply (gather_step d L 2 inb_S4x128x128_S1x128x128_2_0_0 g _ _ (hchk 28 (by omega))) $$ HG; iintro HG
  iapply (gather_step d L 2 inb_S4x128x128_S1x128x128_2_0_0 g _ _ (hchk 29 (by omega))) $$ HG; iintro HG
  iapply (gather_step d L 2 inb_S4x128x128_S1x128x128_2_0_0 g _ _ (hchk 30 (by omega))) $$ HG; iintro HG
  iapply (gather_step d L 2 inb_S4x128x128_S1x128x128_2_0_0 g _ _ (hchk 31 (by omega))) $$ HG; iintro HG
  iapply (store_step d L 0 (by omega) inb_S2x32x128_S1x32x128_0_0_0 2 (by omega) inb_S4x128x128_S1x128x128_2_0_0 fI g ⟨4 * t2.val + 2, by omega⟩ bg.val hbg 16 (by omega) _ (k0_off93_eq bg) _ _ _ _ hrowv (hcolv 16 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 17 (by omega) _ (k0_off94_eq bg) _ _ _ _ hrowv (hcolv 17 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 18 (by omega) _ (k0_off95_eq bg) _ _ _ _ hrowv (hcolv 18 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 19 (by omega) _ (k0_off96_eq bg) _ _ _ _ hrowv (hcolv 19 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 20 (by omega) _ (k0_off97_eq bg) _ _ _ _ hrowv (hcolv 20 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 21 (by omega) _ (k0_off98_eq bg) _ _ _ _ hrowv (hcolv 21 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 22 (by omega) _ (k0_off99_eq bg) _ _ _ _ hrowv (hcolv 22 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 23 (by omega) _ (k0_off100_eq bg) _ _ _ _ hrowv (hcolv 23 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 24 (by omega) _ (k0_off101_eq bg) _ _ _ _ hrowv (hcolv 24 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 25 (by omega) _ (k0_off102_eq bg) _ _ _ _ hrowv (hcolv 25 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 26 (by omega) _ (k0_off103_eq bg) _ _ _ _ hrowv (hcolv 26 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 27 (by omega) _ (k0_off104_eq bg) _ _ _ _ hrowv (hcolv 27 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 28 (by omega) _ (k0_off105_eq bg) _ _ _ _ hrowv (hcolv 28 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 29 (by omega) _ (k0_off106_eq bg) _ _ _ _ hrowv (hcolv 29 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 30 (by omega) _ (k0_off107_eq bg) _ _ _ _ hrowv (hcolv 30 (by omega)) o hJ) $$ HO; iintro %o %hJ HO
  iapply (store_step d L 0 (by omega) inb_S2x32x128_S1x32x128_0_0_0 2 (by omega) inb_S4x128x128_S1x128x128_2_0_0 fI g ⟨4 * t2.val + 2, by omega⟩ bg.val hbg 31 (by omega) _ (k0_off108_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_2 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 2 inb_S4x128x128_S1x128x128_2_0_0).view.set]{fullShare} g)
      ∗ ((sO).view.loc (thr d L) ↦[(slotOn 0 inb_S2x32x128_S1x32x128_0_0_0).view.set]{fullShare} o))
    ⊢ extractInv_2 (F := F) d L t2 fI g 0 () :=
  extract_intro d L 2 (by omega) inb_S4x128x128_S1x128x128_2_0_0 0 (by omega) inb_S2x32x128_S1x32x128_0_0_0 (rowIx t2 2 (by omega)) fI g o

theorem extract_elim_2 (d : Dev nD) (L : grid0.Coords) (t2 : Fin k0_t2_loop.trips)
    (fI : Buf (Elt F) ((thr d L).loc cc0_scratch0)) (g : Buf (Elt F) ((thr d L).loc cc0_scratch2)) :
    extractInv_2 (F := F) d L t2 fI g 8 ()
    ⊢ iprop(((sI).view.loc (thr d L) ↦{fullShare} fI)
      ∗ ((sG).view.loc (thr d L) ↦[(slotGn 2 inb_S4x128x128_S1x128x128_2_0_0).view.set]{fullShare} g)
      ∗ ∃ o' : Buf (Elt F) ((thr d L).loc cc0_scratch3), ((sO).view.loc (thr d L) ↦[(slotOn 0 inb_S2x32x128_S1x32x128_0_0_0).view.set]{fullShare} o')
          ∗ ⌜∀ (dd : Fin 32) (col : Fin 128), o' (ix3 (0 : Fin 2) dd col)
              = g (ix3 (2 : Fin 4) col ⟨(fI (ix2 (rowIx t2 2 (by omega)) col)).toNat % 4 * 32 + dd.val, by have := dd.isLt; omega⟩)⌝) :=
  extract_elim d L 2 (by omega) inb_S4x128x128_S1x128x128_2_0_0 0 (by omega) inb_S2x32x128_S1x32x128_0_0_0 (rowIx t2 2 (by omega)) fI g

end Cert.Proof.Kernel

end
-- ==== Proof.KernelExtract3.lean ====
/-
  The extract loop of row `4 t2 + 3` of the index block: from slot 3 of the gathered rows into slot 1 of the result rows.
  One trip is proved operation by operation with the shared steps; the invariant says which columns are done.
-/
import proofs.«206503_g81295140979383_cont_9to1c4b_414_34_alg».proof.Proof.KernelExtractLib

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The loop's invariant for row `4 t2 + 3` of the index block, slot 3 of the gathered rows, slot 1 of the result rows. -/
def extractInv_3 (d : Dev nD) (L : grid0.Coords) (t2 : Fin k0_t2_loop.trips)
    (fI : Buf (Elt F) ((thr d L).loc cc0_scratch0)) (g : Buf (Elt F) ((thr d L).loc cc0_scratch2)) : Nat → Unit → sProp 𝕄 :=
  extractInv (F := F) d L 3 (by omega) inb_S4x128x128_S1x128x128_3_0_0 1 (by omega) inb_S2x32x128_S1x32x128_1_0_0 (rowIx t2 3 (by omega)) fI g

set_option maxHeartbeats 8000000 in
/-- Trip `bg` of the extract loop of row `4 t2 + 3`: sixteen more columns of every row of the result slot. -/
theorem extract_region_3 (d : Dev nD) (L : grid0.Coords) (v3 : IVec S16 32) (hv3 : ∀ l : Fin 16, v3 (ix1 l) = BitVec.ofNat 32 l.val)
    (t2 : Fin k0_t2_loop.trips) (v112 : BitVec 32)
    (fI : Buf (Elt F) ((thr d L).loc cc0_scratch0)) (g : Buf (Elt F) ((thr d L).loc cc0_scratch2)) :
    ∀ (bg : Fin k0_t6_loop.trips) (acc : Unit),
      extractInv_3 (F := F) d L t2 fI g bg.val acc
      ⊢ wp frame (wpE (defs₀ (F := F)) 𝒱₀ (thr d L) none) Set.univ (k0_t6_body L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 v3 t2 v112 bg acc)
          (extractInv_3 (F := F) d L t2 fI g (bg.val + 1)) := by
  intro bg acc
  have ht2 : t2.val < 50 := t2_lt t2
  have hbg : bg.val < 8 := Nat.lt_of_lt_of_le bg.isLt k0_t6_abs.2.1
  simp only [k0_t6_body, k0_part40_eq_skeleton]
  unfold k0_part40_skel
  simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold k0_part31_skel k0_part32_skel k0_part33_skel k0_part34_skel k0_part35_skel k0_part36_skel k0_part37_skel k0_part38_skel k0_part39_skel
  simp only [Prog.bind_assoc, Prog.pure_eq_ret, Prog.bind_ret, Prog.bind_lift, SparseCore.vectorLoadIdx_bind (thr d L), Prog.bind_op]
  unfold extractInv_3 extractInv
  iintro ⟨HI, HG, %o, HO, %hJ⟩
  iapply (wp_load 𝒱₀ (thr d L) none Set.univ (m := sI) (S := Finset.univ) (Finset.subset_univ _)) $$ HI; iintro HI
  generalize hld : View.readAt (Elt F) (sI : Memref sig .scVector .vmem S200x128 .i32).view (Rect.unit (s := S200x128) (k0_off111 t2 bg) S1x16.size (k0_off111_inb t2 bg)).toLoadRect fI = ld
  have hldv : ∀ l : Fin 16, ld (ix2 (⟨0, Nat.one_pos⟩ : Fin 1) l)
      = fI (ix2 (⟨4 * t2.val + 3, by omega⟩ : Fin 200) (⟨16 * bg.val + l.val, by have := l.isLt; omega⟩ : Fin 128)) := by
    intro l; rw [← hld]
    exact read_sI d L fI _ (4 * t2.val + 3) bg.val (by omega) hbg (k0_off111_eq t2 bg) _ l
  have hrowv : ∀ l : Fin 16, ((k0_pay104 v3 (0#32) (1#32) bg) (ix1 l)).toNat = l.val + 16 * bg.val := by
    intro l
    show (IntOp.addi (v3 (ix1 l)) (Scalar.muli (Scalar.addi (0#32) (Scalar.muli (Scf.iv 0#32 1#32 bg) 1#32)) 16#32)).toNat = _
    rw [hv3 l]; exact row_word l.val bg.val l.isLt hbg
  have hcolv : ∀ n, n < 32 → ∀ l : Fin 16, ((addi (k0_pay103 ld) (broadcast S16 (BitVec.ofNat 32 n))) (ix1 l)).toNat
      = (fI (ix2 (⟨4 * t2.val + 3, by omega⟩ : Fin 200) (⟨16 * bg.val + l.val, by have := l.isLt; omega⟩ : Fin 128))).toNat % 4 * 32 + n := by
    intro n hn l; rw [← hldv l]
    exact col_val ld shapeCasts_S1x16_S16 n hn l
  have hchk : ∀ n, n < 32 → ∀ a x, ((![k0_pay104 v3 (0#32) (1#32) bg, addi (k0_pay103 ld) (broadcast S16 (BitVec.ofNat 32 n))] : Fin 2 → IVec S16 32) a x).toNat < S128x128.size a := by
    intro n hn a x
    rw [eq_ix1 x]
    have hx0 : (x 0).val < 16 := (x 0).isLt
    match a with
    | ⟨0, _⟩ =>
      show ((k0_pay104 v3 (0#32) (1#32) bg) (ix1 (x 0))).toNat < 128
      exact lt_of_eq_of_lt (hrowv (x 0)) (by omega)
    | ⟨1, _⟩ =>
      show ((addi (k0_pay103 ld) (broadcast S16 (BitVec.ofNat 32 n))) (ix1 (x 0))).toNat < 128
      exact lt_of_eq_of_lt (hcolv n hn (x 0)) (by omega)
  iapply (gather_step d L 3 inb_S4x128x128_S1x128x128_3_0_0 g _ _ (hchk 0 (by omega))) $$ HG; iintro HG
  iapply (gather_step d L 3 inb_S4x128x128_S1x128x128_3_0_0 g _ _ (hchk 1 (by omega))) $$ HG; iintro HG
  iapply (gather_step d L 3 inb_S4x128x128_S1x128x128_3_0_0 g _ _ (hchk 2 (by omega))) $$ HG; iintro HG
  iapply (gather_step d L 3 inb_S4x128x128_S1x128x128_3_0_0 g _ _ (hchk 3 (by omega))) $$ HG; iintro HG
  iapply (gather_step d L 3 inb_S4x128x128_S1x128x128_3_0_0 g _ _ (hchk 4 (by omega))) $$ HG; iintro HG
  iapply (gather_step d L 3 inb_S4x128x128_S1x128x128_3_0_0 g _ _ (hchk 5 (by omega))) $$ HG; iintro HG
  iapply (gather_step d L 3 inb_S4x128x128_S1x128x128_3_0_0 g _ _ (hchk 6 (by omega))) $$ HG; iintro HG
  iapply (gather_step d L 3 inb_S4x128x128_S1x128x128_3_0_0 g _ _ (hchk 7 (by omega))) $$ HG; iintro HG
  iapply (gather_step d L 3 inb_S4x128x128_S1x128x128_3_0_0 g _ _ (hchk 8 (by omega))) $$ HG; iintro HG
  iapply (gather_step d L 3 inb_S4x128x128_S1x128x128_3_0_0 g _ _ (hchk 9 (by omega))) $$ HG; iintro HG
  iapply (gather_step d L 3 inb_S4x128x128_S1x128x128_3_0_0 g _ _ (hchk 10 (by omega))) $$ HG; iintro HG
  iapply (gather_step d L 3 inb_S4x128x128_S1x128x128_3_0_0 g _ _ (hchk 11 (by omega))) $$ HG; iintro HG
  iapply (gather_step d L 3 inb_S4x128x128_S1x128x128_3_0_0 g _ _ (hchk 12 (by omega))) $$ HG; iintro HG
  iapply (gather_step d L 3 inb_S4x128x128_S1x128x128_3_0_0 g _ _ (hchk 13 (by omega))) $$ HG; iintro HG
  iapply (gather_step d L 3 inb_S4x128x128_S1x128x128_3_0_0 g _ _ (hchk 14 (by omega))) $$ HG; iintro HG
  iapply (gather_step d L 3 inb_S4x128x128_S1x128x128_3_0_0 g _ _ (hchk 15 (by omega))) $$ HG; iintro HG
  iapply (store_step d L 1 (by omega) inb_S2x32x128_S1x32x128_1_0_0 3 (by omega) inb_S4x128x128_S1x128x128_3_0_0 fI g ⟨4 * t2.val + 3, by omega⟩ bg.val hbg 0 (by omega) _ (k0_off112_eq bg) _ _ _ _ hrowv (hcolv 0 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 1 (by omega) _ (k0_off113_eq bg) _ _ _ _ hrowv (hcolv 1 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 2 (by omega) _ (k0_off114_eq bg) _ _ _ _ hrowv (hcolv 2 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 3 (by omega) _ (k0_off115_eq bg) _ _ _ _ hrowv (hcolv 3 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 4 (by omega) _ (k0_off116_eq bg) _ _ _ _ hrowv (hcolv 4 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 5 (by omega) _ (k0_off117_eq bg) _ _ _ _ hrowv (hcolv 5 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 6 (by omega) _ (k0_off118_eq bg) _ _ _ _ hrowv (hcolv 6 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 7 (by omega) _ (k0_off119_eq bg) _ _ _ _ hrowv (hcolv 7 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 8 (by omega) _ (k0_off120_eq bg) _ _ _ _ hrowv (hcolv 8 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 9 (by omega) _ (k0_off121_eq bg) _ _ _ _ hrowv (hcolv 9 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 10 (by omega) _ (k0_off122_eq bg) _ _ _ _ hrowv (hcolv 10 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 11 (by omega) _ (k0_off123_eq bg) _ _ _ _ hrowv (hcolv 11 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 12 (by omega) _ (k0_off124_eq bg) _ _ _ _ hrowv (hcolv 12 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 13 (by omega) _ (k0_off125_eq bg) _ _ _ _ hrowv (hcolv 13 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 14 (by omega) _ (k0_off126_eq bg) _ _ _ _ hrowv (hcolv 14 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 15 (by omega) _ (k0_off127_eq bg) _ _ _ _ hrowv (hcolv 15 (by omega)) o hJ) $$ HO; iintro %o %hJ HO
  iapply (gather_step d L 3 inb_S4x128x128_S1x128x128_3_0_0 g _ _ (hchk 16 (by omega))) $$ HG; iintro HG
  iapply (gather_step d L 3 inb_S4x128x128_S1x128x128_3_0_0 g _ _ (hchk 17 (by omega))) $$ HG; iintro HG
  iapply (gather_step d L 3 inb_S4x128x128_S1x128x128_3_0_0 g _ _ (hchk 18 (by omega))) $$ HG; iintro HG
  iapply (gather_step d L 3 inb_S4x128x128_S1x128x128_3_0_0 g _ _ (hchk 19 (by omega))) $$ HG; iintro HG
  iapply (gather_step d L 3 inb_S4x128x128_S1x128x128_3_0_0 g _ _ (hchk 20 (by omega))) $$ HG; iintro HG
  iapply (gather_step d L 3 inb_S4x128x128_S1x128x128_3_0_0 g _ _ (hchk 21 (by omega))) $$ HG; iintro HG
  iapply (gather_step d L 3 inb_S4x128x128_S1x128x128_3_0_0 g _ _ (hchk 22 (by omega))) $$ HG; iintro HG
  iapply (gather_step d L 3 inb_S4x128x128_S1x128x128_3_0_0 g _ _ (hchk 23 (by omega))) $$ HG; iintro HG
  iapply (gather_step d L 3 inb_S4x128x128_S1x128x128_3_0_0 g _ _ (hchk 24 (by omega))) $$ HG; iintro HG
  iapply (gather_step d L 3 inb_S4x128x128_S1x128x128_3_0_0 g _ _ (hchk 25 (by omega))) $$ HG; iintro HG
  iapply (gather_step d L 3 inb_S4x128x128_S1x128x128_3_0_0 g _ _ (hchk 26 (by omega))) $$ HG; iintro HG
  iapply (gather_step d L 3 inb_S4x128x128_S1x128x128_3_0_0 g _ _ (hchk 27 (by omega))) $$ HG; iintro HG
  iapply (gather_step d L 3 inb_S4x128x128_S1x128x128_3_0_0 g _ _ (hchk 28 (by omega))) $$ HG; iintro HG
  iapply (gather_step d L 3 inb_S4x128x128_S1x128x128_3_0_0 g _ _ (hchk 29 (by omega))) $$ HG; iintro HG
  iapply (gather_step d L 3 inb_S4x128x128_S1x128x128_3_0_0 g _ _ (hchk 30 (by omega))) $$ HG; iintro HG
  iapply (gather_step d L 3 inb_S4x128x128_S1x128x128_3_0_0 g _ _ (hchk 31 (by omega))) $$ HG; iintro HG
  iapply (store_step d L 1 (by omega) inb_S2x32x128_S1x32x128_1_0_0 3 (by omega) inb_S4x128x128_S1x128x128_3_0_0 fI g ⟨4 * t2.val + 3, by omega⟩ bg.val hbg 16 (by omega) _ (k0_off128_eq bg) _ _ _ _ hrowv (hcolv 16 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 17 (by omega) _ (k0_off129_eq bg) _ _ _ _ hrowv (hcolv 17 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 18 (by omega) _ (k0_off130_eq bg) _ _ _ _ hrowv (hcolv 18 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 19 (by omega) _ (k0_off131_eq bg) _ _ _ _ hrowv (hcolv 19 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 20 (by omega) _ (k0_off132_eq bg) _ _ _ _ hrowv (hcolv 20 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 21 (by omega) _ (k0_off133_eq bg) _ _ _ _ hrowv (hcolv 21 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 22 (by omega) _ (k0_off134_eq bg) _ _ _ _ hrowv (hcolv 22 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 23 (by omega) _ (k0_off135_eq bg) _ _ _ _ hrowv (hcolv 23 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 24 (by omega) _ (k0_off136_eq bg) _ _ _ _ hrowv (hcolv 24 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 25 (by omega) _ (k0_off137_eq bg) _ _ _ _ hrowv (hcolv 25 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 26 (by omega) _ (k0_off138_eq bg) _ _ _ _ hrowv (hcolv 26 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 27 (by omega) _ (k0_off139_eq bg) _ _ _ _ hrowv (hcolv 27 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 28 (by omega) _ (k0_off140_eq bg) _ _ _ _ hrowv (hcolv 28 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 29 (by omega) _ (k0_off141_eq bg) _ _ _ _ hrowv (hcolv 29 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 30 (by omega) _ (k0_off142_eq bg) _ _ _ _ hrowv (hcolv 30 (by omega)) o hJ) $$ HO; iintro %o %hJ HO
  iapply (store_step d L 1 (by omega) inb_S2x32x128_S1x32x128_1_0_0 3 (by omega) inb_S4x128x128_S1x128x128_3_0_0 fI g ⟨4 * t2.val + 3, by omega⟩ bg.val hbg 31 (by omega) _ (k0_off143_eq bg) _ _ _ _ hrowv (hcolv 31 (by omega)) o hJ) $$ HO; iintro %o %hJ HO
  irw [wp_ret]
  imodintro
  isplitl [HI]; · iexact HI
  isplitl [HG]; · iexact HG
  iexists o
  isplitl [HO]; · iexact HO
  ipureintro
  intro dd cl h
  exact hJ dd cl (by have := dd.isLt; omega)

theorem extract_intro_3 (d : Dev nD) (L : grid0.Coords) (t2 : Fin k0_t2_loop.trips)
    (fI : Buf (Elt F) ((thr d L).loc cc0_scratch0)) (g : Buf (Elt F) ((thr d L).loc cc0_scratch2)) (o : Buf (Elt F) ((thr d L).loc cc0_scratch3)) :
    iprop(((sI).view.loc (thr d L) ↦{fullShare} fI)
      ∗ ((sG).view.loc (thr d L) ↦[(slotGn 3 inb_S4x128x128_S1x128x128_3_0_0).view.set]{fullShare} g)
      ∗ ((sO).view.loc (thr d L) ↦[(slotOn 1 inb_S2x32x128_S1x32x128_1_0_0).view.set]{fullShare} o))
    ⊢ extractInv_3 (F := F) d L t2 fI g 0 () :=
  extract_intro d L 3 (by omega) inb_S4x128x128_S1x128x128_3_0_0 1 (by omega) inb_S2x32x128_S1x32x128_1_0_0 (rowIx t2 3 (by omega)) fI g o

theorem extract_elim_3 (d : Dev nD) (L : grid0.Coords) (t2 : Fin k0_t2_loop.trips)
    (fI : Buf (Elt F) ((thr d L).loc cc0_scratch0)) (g : Buf (Elt F) ((thr d L).loc cc0_scratch2)) :
    extractInv_3 (F := F) d L t2 fI g 8 ()
    ⊢ iprop(((sI).view.loc (thr d L) ↦{fullShare} fI)
      ∗ ((sG).view.loc (thr d L) ↦[(slotGn 3 inb_S4x128x128_S1x128x128_3_0_0).view.set]{fullShare} g)
      ∗ ∃ o' : Buf (Elt F) ((thr d L).loc cc0_scratch3), ((sO).view.loc (thr d L) ↦[(slotOn 1 inb_S2x32x128_S1x32x128_1_0_0).view.set]{fullShare} o')
          ∗ ⌜∀ (dd : Fin 32) (col : Fin 128), o' (ix3 (1 : Fin 2) dd col)
              = g (ix3 (3 : Fin 4) col ⟨(fI (ix2 (rowIx t2 3 (by omega)) col)).toNat % 4 * 32 + dd.val, by have := dd.isLt; omega⟩)⌝) :=
  extract_elim d L 3 (by omega) inb_S4x128x128_S1x128x128_3_0_0 1 (by omega) inb_S2x32x128_S1x32x128_1_0_0 (rowIx t2 3 (by omega)) fI g

end Cert.Proof.Kernel

end
-- ==== Proof.KernelRingInv.lean ====
/-
  The state of a tile's pipeline between two trips of its main loop. Before trip `t` (positions `4t … 4t+3`):
  the gathers of positions `4t, 4t+1, 4t+2` are in flight into slots 0, 1, 2 and slot 3 is free; the write-outs
  of positions `4t-2` and `4t-1` are in flight out of result slots 0 and 1 (none before the first trip); the
  result's rows below `4t-2` hold their final values. After the last trip nothing is gathering and the last two
  write-outs are in flight. Each gather slot keeps, for as long as the loop runs, its own read share of the table
  and of the row-number scratch, and its own piece of the gathered-rows scratch.
-/
import proofs.«206503_g81295140979383_cont_9to1c4b_414_34_alg».proof.Proof.KernelGeom
import proofs.«206503_g81295140979383_cont_9to1c4b_414_34_alg».proof.Proof.KernelWords

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

theorem lt4_0 : 0 < 4 := by omega
theorem lt4_1 : 1 < 4 := by omega
theorem lt4_2 : 2 < 4 := by omega
theorem lt4_3 : 3 < 4 := by omega
theorem lt2_0 : 0 < 2 := by omega
theorem lt2_1 : 1 < 2 := by omega

/-- The data the invariant is stated over: the shares, the table, the row numbers, the indices. -/
structure RingData (d : Dev nD) (L : grid0.Coords) where
  q1 : PosShare TreeShare
  qQ : PosShare TreeShare
  tb : Buf (Elt F) (tLoc d)
  ix : Buf (Elt F) (iLoc d)
  fI : Buf (Elt F) ((thr d L).loc cc0_scratch0)
  fq : Buf (Elt F) ((thr d L).loc cc0_scratch1)
  O : CellTallies nD τ sig (HIx 1)
  W : Waits sig (HIx 1)

variable {d L} (D : RingData (F := F) d L)

/-- Slot `s`'s share of the row-number scratch. -/
def RingData.qs (s : Nat) : PosShare TreeShare :=
  match s with
  | 0 => Transfers.shareDrop D.qQ 3
  | (n + 1) => Transfers.shareTokN D.qQ n

/-- The gathered rows of position `h`: row `r` is the table's row the row-number scratch names at `(h, r)`. -/
def RingData.gathered (s : Nat) (hs : s < 4) (h : Nat) (hh : h < 200) (c : Buf (Elt F) ((thr d L).loc cc0_scratch2)) : Prop :=
  ∀ (r cc : Fin 128) (row : Fin 250000), row.val = (D.fq (ix2 (⟨h, hh⟩ : Fin 200) r)).toNat →
    c (ix3 (⟨s, hs⟩ : Fin 4) r cc) = D.tb (ix2 row cc)

/-- The gather of position `h` into slot `s` in flight, with what the slot keeps beside it. -/
def RingData.busy (s : Nat) (hs : s < 4) (sem : DmaSems sig S_) (h : Nat) (hh : h < 200) : sProp 𝕄 :=
  iprop((∃ c, ⌜D.gathered s hs h hh c⌝ ∗
      Transfers.Flight countersEmb (thr d L) (SemLoc.dma sem.sem) default 524288
        iprop((((slotG s hs).view.loc (thr d L) ↦[(slotG s hs).view.set]{fullShare} c)
            ∗ ((sQ).view.loc (thr d L) ↦[(rowQ h hh).view.set]{D.qs s} D.fq))
          ∗ ((tV).view.loc (thr d L) ↦[(tW).view.set]{Transfers.shareTokN D.q1 s} D.tb)))
    ∗ ((tV).view.loc (thr d L) ↦[Finset.univ \ (tW).view.set]{Transfers.shareTokN D.q1 s} D.tb)
    ∗ ((sQ).view.loc (thr d L) ↦[Finset.univ \ (rowQ h hh).view.set]{D.qs s} D.fq))

/-- Slot `s` free: its semaphore at zero, its piece of the scratch at anything, its two read shares whole. -/
def RingData.free (s : Nat) (hs : s < 4) (sem : DmaSems sig S_) : sProp 𝕄 :=
  iprop(semVal (cell d L sem) 0
    ∗ (∃ c, (slotG s hs).view.loc (thr d L) ↦[(slotG s hs).view.set]{fullShare} c)
    ∗ ((tV).view.loc (thr d L) ↦{Transfers.shareTokN D.q1 s} D.tb)
    ∗ ((sQ).view.loc (thr d L) ↦{D.qs s} D.fq))

/-- What position `h`'s row of the result holds once written: `tileVal` there. -/
def RingData.rowDone (h : Nat) (hh : h < 200) (og : Buf (Elt F) (oLoc d)) : Prop :=
  ∀ (dd : Fin 32) (col : Fin 128), og (ix3 (⟨h, hh⟩ : Fin 200) dd (tcol L col)) = tileVal D.tb D.ix (ix3 (⟨h, hh⟩ : Fin 200) dd (tcol L col))

/-- The write-out of position `h` from result slot `b` in flight. -/
def RingData.writing (b : Nat) (hb : b < 2) (sem : DmaSems sig S_) (h : Nat) (hh : h < 200) : sProp 𝕄 :=
  iprop(∃ (c : Buf (Elt F) (oLoc d)) (o : Buf (Elt F) ((thr d L).loc cc0_scratch3)), ⌜D.rowDone h hh c⌝ ∗
    Transfers.Flight countersEmb (thr d L) (SemLoc.dma sem.sem) default 131072
      iprop(((oV).view.loc (thr d L) ↦[(outRow L h hh).view.set]{fullShare} c)
        ∗ ((slotO b hb).view.loc (thr d L) ↦[(slotO b hb).view.set]{fullShare} o)))

/-- Result slot `b` free. -/
def idleSlot (d : Dev nD) (L : grid0.Coords) (b : Nat) (hb : b < 2) (sem : DmaSems sig S_) : sProp 𝕄 :=
  iprop(semVal (cell d L sem) 0 ∗ ∃ o, (slotO b hb).view.loc (thr d L) ↦[(slotO b hb).view.set]{fullShare} o)

/-- The gathers' side before trip `t`. -/
def RingData.gPart (t : Nat) : sProp 𝕄 :=
  if h : t < 50 then
    iprop(D.busy 0 lt4_0 cc0_scratch4 (4 * t) (by omega) ∗ D.busy 1 lt4_1 cc0_scratch5 (4 * t + 1) (by omega)
      ∗ D.busy 2 lt4_2 cc0_scratch6 (4 * t + 2) (by omega) ∗ D.free 3 lt4_3 cc0_scratch7)
  else
    iprop(D.free 0 lt4_0 cc0_scratch4 ∗ D.free 1 lt4_1 cc0_scratch5 ∗ D.free 2 lt4_2 cc0_scratch6 ∗ D.free 3 lt4_3 cc0_scratch7)

/-- The result's rows the tile holds itself before trip `t`: all of its part but the two rows being written,
    the rows below those at their final values. -/
def RingData.outRest (t : Nat) (h1 : 4 * t - 2 < 200) (h2 : 4 * t - 1 < 200) : sProp 𝕄 :=
  iprop(∃ og : Buf (Elt F) (oLoc d),
    ⌜∀ (h : Nat) (hh : h < 200), h + 2 < 4 * t → D.rowDone h hh og⌝ ∗
    ((oV).view.loc (thr d L) ↦[(oSet L \ (outRow L (4 * t - 2) h1).view.set) \ (outRow L (4 * t - 1) h2).view.set]{fullShare} og))

/-- The write-outs' side before trip `t`. -/
def RingData.wPart (t : Nat) : sProp 𝕄 :=
  if h0 : t = 0 then
    iprop(idleSlot (F := F) d L 0 lt2_0 cc0_scratch8 ∗ idleSlot (F := F) d L 1 lt2_1 cc0_scratch9 ∗ ∃ og, (oV).view.loc (thr d L) ↦[oSet L]{fullShare} og)
  else if h : t ≤ 50 then
    iprop(D.writing 0 lt2_0 cc0_scratch8 (4 * t - 2) (by omega) ∗ D.writing 1 lt2_1 cc0_scratch9 (4 * t - 1) (by omega)
      ∗ D.outRest t (by omega) (by omega))
  else iprop(False)

/-- The pipeline's invariant. -/
def ringInv : Nat → Unit → sProp 𝕄 := fun t _ =>
  iprop(Transfers.MayWaits (thr d L) none D.O
    ∗ ((sI).view.loc (thr d L) ↦{fullShare} D.fI)
    ∗ D.gPart t ∗ D.wPart t
    ∗ ∃ W', ⌜∀ p ∈ W', p ∈ D.W ∨ p.2 = none⌝ ∗ owes (thr d L) D.O W')

end Cert.Proof.Kernel

end
-- ==== Proof.KernelRingInit.lean ====
/-
  The pipeline before its first trip. The gathered-rows scratch is its four slots and the result-rows scratch
  its two (the pieces are told apart by their first coordinate), so each gather lands in a piece of its own. A
  whole write of a gather's payload through a slot leaves there the rows of the table that the row-number
  scratch names; with the three gathers of positions 0, 1, 2 in flight, slot 3 and the two result slots free and
  the tile's part of the result untouched, the pipeline's invariant holds before trip 0.
-/
import proofs.«206503_g81295140979383_cont_9to1c4b_414_34_alg».proof.Proof.KernelRingInv

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The scratch arrays cut into their slots -/

/-- The elements of slot `s` of the gathered-rows scratch, of slot `b` of the result-rows scratch. -/
def gSet (s : Fin 4) : Finset (Idx ((sG).view.loc (thr d L))) := (slotG s.val s.isLt).view.set
def rSet (b : Fin 2) : Finset (Idx ((sO).view.loc (thr d L))) := (slotO b.val b.isLt).view.set

theorem gSet_disjoint : ∀ s ∈ (Finset.univ : Finset (Fin 4)), ∀ s' ∈ (Finset.univ : Finset (Fin 4)), s ≠ s' → Disjoint (gSet d L s) (gSet d L s') := by
  intro s _ s' _ hne
  refine Finset.disjoint_left.mpr fun i hi hi' => hne (Fin.ext ?_)
  have a := (slotG_mem s.val s.isLt i).mp hi
  have b := (slotG_mem s'.val s'.isLt i).mp hi'
  omega
theorem gSet_cover : (Finset.univ : Finset (Fin 4)).biUnion (gSet d L) = Finset.univ := by
  ext i
  simp only [Finset.mem_biUnion, Finset.mem_univ, true_and, iff_true]
  exact ⟨⟨(i 0).val, (i 0).isLt⟩, (slotG_mem _ _ i).mpr rfl⟩
theorem rSet_disjoint : ∀ s ∈ (Finset.univ : Finset (Fin 2)), ∀ s' ∈ (Finset.univ : Finset (Fin 2)), s ≠ s' → Disjoint (rSet d L s) (rSet d L s') := by
  intro s _ s' _ hne
  refine Finset.disjoint_left.mpr fun i hi hi' => hne (Fin.ext ?_)
  have a := (slotO_mem s.val s.isLt i).mp hi
  have b := (slotO_mem s'.val s'.isLt i).mp hi'
  omega
theorem rSet_cover : (Finset.univ : Finset (Fin 2)).biUnion (rSet d L) = Finset.univ := by
  ext i
  simp only [Finset.mem_biUnion, Finset.mem_univ, true_and, iff_true]
  exact ⟨⟨(i 0).val, (i 0).isLt⟩, (slotO_mem _ _ i).mpr rfl⟩

/-- The gathered-rows scratch is its four slots. -/
theorem sG_pieces (f2 : Buf (Elt F) ((thr d L).loc cc0_scratch2)) :
    ((sG).view.loc (thr d L) ↦{fullShare} f2 : sProp 𝕄)
      = iprop(((slotG 0 lt4_0).view.loc (thr d L) ↦[(slotG 0 lt4_0).view.set]{fullShare} f2)
        ∗ ((slotG 1 lt4_1).view.loc (thr d L) ↦[(slotG 1 lt4_1).view.set]{fullShare} f2)
        ∗ ((slotG 2 lt4_2).view.loc (thr d L) ↦[(slotG 2 lt4_2).view.set]{fullShare} f2)
        ∗ ((slotG 3 lt4_3).view.loc (thr d L) ↦[(slotG 3 lt4_3).view.set]{fullShare} f2)) := by
  have e := pointsTo_biUnion (Ix := HIx 1) (Val := Elt F) (Name := ℕ) (U := UU) (Lvl := ℕ) (ℓ := (sG).view.loc (thr d L)) (q := fullShare) (f := f2)
    (Finset.univ : Finset (Fin 4)) (gSet d L) (gSet_disjoint d L)
  rw [gSet_cover, show (Finset.univ : Finset (Fin 4)) = {0, 1, 2, 3} by decide, SparseCore.bigSep_insert' (by decide), SparseCore.bigSep_insert' (by decide),
    SparseCore.bigSep_insert' (by decide), bigSep_singleton] at e
  exact e

/-- The result-rows scratch is its two slots. -/
theorem sO_pieces (f3 : Buf (Elt F) ((thr d L).loc cc0_scratch3)) :
    ((sO).view.loc (thr d L) ↦{fullShare} f3 : sProp 𝕄)
      = iprop(((slotO 0 lt2_0).view.loc (thr d L) ↦[(slotO 0 lt2_0).view.set]{fullShare} f3)
        ∗ ((slotO 1 lt2_1).view.loc (thr d L) ↦[(slotO 1 lt2_1).view.set]{fullShare} f3)) := by
  have e := pointsTo_biUnion (Ix := HIx 1) (Val := Elt F) (Name := ℕ) (U := UU) (Lvl := ℕ) (ℓ := (sO).view.loc (thr d L)) (q := fullShare) (f := f3)
    (Finset.univ : Finset (Fin 2)) (rSet d L) (rSet_disjoint d L)
  rw [rSet_cover, show (Finset.univ : Finset (Fin 2)) = {0, 1} by decide, SparseCore.bigSep_insert' (by decide), bigSep_singleton] at e
  exact e

/-- The gathered slot at `(r, c)`, the table read through any function that agrees with it. -/
theorem gather_rowQ_apply' (tb g : S250000x128.Idx → Elt F .f32) (hg : ∀ x, g x = tb x) (h : Nat) (hh : h < 200) (fq : S200x128.Idx → BitVec 32)
    (hn : S128.numel = S128x128.size (gathers_S250000x128_S128x128).axis')
    (hin : ∀ x, ((rowQ h hh).view.read (Elt F) fq x).toNat < S250000x128.size (gathers_S250000x128_S128x128).axis)
    (r c : Fin 128) (row : Fin 250000) (hrow : row.val = (fq (ix2 (⟨h, hh⟩ : Fin 200) r)).toNat) :
    SparseCore.gatherPayload gathers_S250000x128_S128x128 g (SparseCore.rows ((rowQ h hh).view.read (Elt F) fq) hn hin) (ix2 r c)
      = tb (ix2 row c) := by
  rw [gatherPayload_apply, hg]
  refine congrArg (fun q => tb (ix2 q c)) (Fin.ext ?_)
  rw [hrow]; exact rows_rowQ h hh fq hn hin r

/-! ## The pipeline's invariant before the first trip -/

/-- A whole write of a gather's payload through slot `s` leaves the gathered rows there. -/
theorem gathered_of (D : RingData (F := F) d L) (s : Nat) (hs : s < 4) (h : Nat) (hh : h < 200) (c0 : Buf (Elt F) ((thr d L).loc cc0_scratch2))
    (pay : S128x128.Idx → Elt F .f32)
    (hp : ∀ (r cc : Fin 128) (row : Fin 250000), row.val = (D.fq (ix2 (⟨h, hh⟩ : Fin 200) r)).toNat → pay (ix2 r cc) = D.tb (ix2 row cc)) :
    D.gathered s hs h hh ((slotG s hs).view.writes (Elt F) c0 [⟨Rect.whole S128x128, pay⟩]) := by
  intro r cc row hrow
  have h1 := View.read_writes_cons_emb (slotG s hs).view (Val := Elt F) c0 (Rect.whole S128x128) pay [] (ix2 r cc)
  rw [Rect.emb_whole_apply, View.read_apply, slotG_emb] at h1
  exact h1.trans (hp r cc row hrow)

theorem busy_intro (D : RingData (F := F) d L) (s : Nat) (hs : s < 4) (sem : DmaSems sig S_) (h : Nat) (hh : h < 200)
    (c : Buf (Elt F) ((thr d L).loc cc0_scratch2)) (hg : D.gathered s hs h hh c) :
    iprop(Transfers.Flight countersEmb (thr d L) (SemLoc.dma sem.sem) default 524288
        iprop((((slotG s hs).view.loc (thr d L) ↦[(slotG s hs).view.set]{fullShare} c)
            ∗ ((sQ).view.loc (thr d L) ↦[(rowQ h hh).view.set]{D.qs s} D.fq))
          ∗ ((tV).view.loc (thr d L) ↦[(tW).view.set]{Transfers.shareTokN D.q1 s} D.tb))
      ∗ ((tV).view.loc (thr d L) ↦[Finset.univ \ (tW).view.set]{Transfers.shareTokN D.q1 s} D.tb)
      ∗ ((sQ).view.loc (thr d L) ↦[Finset.univ \ (rowQ h hh).view.set]{D.qs s} D.fq))
      ⊢ (D.busy s hs sem h hh : sProp 𝕄) := by
  unfold RingData.busy
  iintro ⟨Hg, Ht, Hq⟩
  isplitl [Hg]
  · iexists c
    isplitr; · ipureintro; exact hg
    iexact Hg
  isplitl [Ht]; · iexact Ht
  iexact Hq

/-- The invariant before the first trip, spelt out. -/
theorem ringInv_zero (D : RingData (F := F) d L) :
    (ringInv D 0 () : sProp 𝕄) = iprop(Transfers.MayWaits (thr d L) none D.O
      ∗ ((sI).view.loc (thr d L) ↦{fullShare} D.fI)
      ∗ (D.busy 0 lt4_0 cc0_scratch4 (4 * 0) (by omega) ∗ D.busy 1 lt4_1 cc0_scratch5 (4 * 0 + 1) (by omega)
        ∗ D.busy 2 lt4_2 cc0_scratch6 (4 * 0 + 2) (by omega) ∗ D.free 3 lt4_3 cc0_scratch7)
      ∗ (idleSlot (F := F) d L 0 lt2_0 cc0_scratch8 ∗ idleSlot (F := F) d L 1 lt2_1 cc0_scratch9 ∗ ∃ og, (oV).view.loc (thr d L) ↦[oSet L]{fullShare} og)
      ∗ ∃ W', ⌜∀ p ∈ W', p ∈ D.W ∨ p.2 = none⌝ ∗ owes (thr d L) D.O W') := by
  unfold ringInv RingData.gPart RingData.wPart
  rw [dif_pos (by omega : 0 < 50), dif_pos rfl]

end Cert.Proof.Kernel

end
-- ==== Proof.KernelRowVal.lean ====
/-
  Why a written row of the result holds its final value. The gathered slot holds, at row `col`, the table's
  128-wide row number `index / 4` (the row-number scratch); the extract step picks, for every `dd < 32`, its entry
  `(index mod 4) * 32 + dd`; the write-out copies the result slot to the tile's columns of position `h`. Together:
  entry `(h, dd, column)` of the result is the table's entry `(index / 4, (index mod 4) * 32 + dd)`.
-/
import proofs.«206503_g81295140979383_cont_9to1c4b_414_34_alg».proof.Proof.KernelRingInv

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords} (D : RingData (F := F) d L)

theorem rowDone_of
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000)
    (s : Nat) (hs : s < 4) (b : Nat) (hb : b < 2) (h : Nat) (hh : h < 200)
    (c : Buf (Elt F) ((thr d L).loc cc0_scratch2)) (hg : D.gathered s hs h hh c)
    (o' : Buf (Elt F) ((thr d L).loc cc0_scratch3))
    (hval : ∀ (dd : Fin 32) (col : Fin 128) (q : Fin 128), q.val = (D.fI (ix2 (⟨h, hh⟩ : Fin 200) col)).toNat % 4 * 32 + dd.val →
      o' (ix3 (⟨b, hb⟩ : Fin 2) dd col) = c (ix3 (⟨s, hs⟩ : Fin 4) col q))
    (cw : Buf (Elt F) (oLoc d))
    (hpay : ∀ (dd : Fin 32) (col : Fin 128), cw (ix3 (⟨h, hh⟩ : Fin 200) dd (tcol L col)) = o' (ix3 (⟨b, hb⟩ : Fin 2) dd col)) :
    D.rowDone h hh cw := by
  intro dd col
  have hw := hix (ix2 (⟨h, hh⟩ : Fin 200) (tcol L col))
  have e1 : (D.fI (ix2 (⟨h, hh⟩ : Fin 200) col)).toNat = (D.ix (ix2 (⟨h, hh⟩ : Fin 200) (tcol L col))).toNat := by rw [hfI]
  have e2 : (D.fq (ix2 (⟨h, hh⟩ : Fin 200) col)).toNat = (D.ix (ix2 (⟨h, hh⟩ : Fin 200) (tcol L col))).toNat / 4 := by rw [hq, e1]
  have hq4 : (D.ix (ix2 (⟨h, hh⟩ : Fin 200) (tcol L col))).toNat % 4 * 32 + dd.val < 128 := by
    have := dd.isLt; omega
  rw [hpay, hval dd col ⟨(D.ix (ix2 (⟨h, hh⟩ : Fin 200) (tcol L col))).toNat % 4 * 32 + dd.val, hq4⟩ (by rw [e1]),
    hg col _ ⟨(D.ix (ix2 (⟨h, hh⟩ : Fin 200) (tcol L col))).toNat / 4, by omega⟩ e2.symm]
  show _ = D.tb (ix2 _ _)
  congr 1
  apply congrArg₂ ix2
  · exact Fin.ext (Nat.mod_eq_of_lt (by omega)).symm
  · exact Fin.ext (Nat.mod_eq_of_lt hq4).symm

end Cert.Proof.Kernel

end
-- ==== Proof.KernelEpilogue.lean ====
/-
  After the pipeline's loop. Nothing is gathering any more and the last two write-outs are in flight: the program
  waits for both and ends. What the tile then holds is put back together into what it was lent: the four slots of
  the gathered rows and the two of the result rows into their arrays, the four read shares of the table and of the
  row numbers into the shares they were cut from, and the rows of the result the tile kept together with the two
  rows just landed into the tile's part of the result, which holds the tile's value everywhere: the kept rows and
  each landed row do.
-/
import proofs.«206503_g81295140979383_cont_9to1c4b_414_34_alg».proof.Proof.KernelRingInv

noncomputable section

namespace Cert.Proof.Kernel.Epilogue

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- A read share cut into three tokens and a remainder. -/
theorem toks3 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 3} f) ∗ (ℓ ↦[S]{Transfers.shareTokN q 0} f) ∗ (ℓ ↦[S]{Transfers.shareTokN q 1} f)
      ∗ (ℓ ↦[S]{Transfers.shareTokN q 2} f)) := by
  have h0 := pointsTo_share (Ix := HIx 1) (Val := Elt F) (Name := ℕ) (U := UU) (Lvl := ℕ) (ℓ := ℓ) (I := S) (f := f) (q := q) (q₁ := Transfers.shareDrop q 1) (q₂ := Transfers.shareTokN q 0) (PosShare.mem_left_op_right _)
  have h1 := pointsTo_share (Ix := HIx 1) (Val := Elt F) (Name := ℕ) (U := UU) (Lvl := ℕ) (ℓ := ℓ) (I := S) (f := f) (q := Transfers.shareDrop q 1) (q₁ := Transfers.shareDrop q 2) (q₂ := Transfers.shareTokN q 1) (PosShare.mem_left_op_right _)
  have h2 := pointsTo_share (Ix := HIx 1) (Val := Elt F) (Name := ℕ) (U := UU) (Lvl := ℕ) (ℓ := ℓ) (I := S) (f := f) (q := Transfers.shareDrop q 2) (q₁ := Transfers.shareDrop q 3) (q₂ := Transfers.shareTokN q 2) (PosShare.mem_left_op_right _)
  constructor
  · iintro H
    ihave H := h0.1 $$ H
    icases H with ⟨H, H0⟩
    ihave H := h1.1 $$ H
    icases H with ⟨H, H1⟩
    ihave H := h2.1 $$ H
    icases H with ⟨H, H2⟩
    isplitl [H]; · iexact H
    isplitl [H0]; · iexact H0
    isplitl [H1]; · iexact H1
    iexact H2
  · iintro ⟨H, H0, H1, H2⟩
    iapply h0.2
    isplitr [H0]
    · iapply h1.2
      isplitr [H1]
      · iapply h2.2
        isplitl [H]; · iexact H
        iexact H2
      · iexact H1
    · iexact H0

variable [FloatOps F]

/-- What runs after the pipeline's loop: the waits for the last two write-outs. -/
abbrev tailProg (L : grid0.Coords) : Prog (TpuEff nD τ sig (Elt F) Λ₀ (.scVector (cV L) (jV L))) PUnit := do
  Prog.lift (.waitDma2 cc0_scratch8.sem
    ((sO.slice (Rect.unit (s := S2x32x128) ![0, 0, 0] S1x32x128.size inb_S2x32x128_S1x32x128_0_0_0) (fun _ => rfl)).squeeze S32x128 squeezes_S1x32x128_S32x128)
    ((oV.slice (Rect.unit (s := S200x32x4096) (k0_off144 L) S1x32x128.size (k0_off144_inb L)) (fun _ => rfl)).squeeze S32x128 squeezes_S1x32x128_S32x128)
    ((View.wordExact_bits rfl).reshape _ _) ((View.wordExact_bits rfl).reshape _ _))
  Prog.lift (.waitDma2 cc0_scratch9.sem
    ((sO.slice (Rect.unit (s := S2x32x128) ![1, 0, 0] S1x32x128.size inb_S2x32x128_S1x32x128_1_0_0) (fun _ => rfl)).squeeze S32x128 squeezes_S1x32x128_S32x128)
    ((oV.slice (Rect.unit (s := S200x32x4096) (k0_off144 L) S1x32x128.size (k0_off144_inb L)) (fun _ => rfl)).squeeze S32x128 squeezes_S1x32x128_S32x128)
    ((View.wordExact_bits rfl).reshape _ _) ((View.wordExact_bits rfl).reshape _ _))
  pure ⟨⟩

/-- The tile's postcondition, as the obligation states it once the tile's own arrays and cells are named. -/
abbrev tilePost (D : RingData (F := F) d L) (q2 : PosShare TreeShare) (W0 : Waits sig (HIx 1)) : sProp 𝕄 :=
  iprop(((tLoc d ↦{D.q1} D.tb) ∗ (iLoc d ↦{q2} D.ix) ∗ (oLoc d ↦[oSet L]{fullShare} (tileVal D.tb D.ix : Buf (Elt F) (oLoc d))))
    ∗ ((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ bigSep (((((ownRefs (τ := τ) (sig := sig) (.scVector (cV L) (jV L))).erase (sref L cc0_scratch0)).erase (sref L cc0_scratch1)).erase (sref L cc0_scratch2)).erase (sref L cc0_scratch3))
            (fun b : DevRef τ sig => iprop(∃ f, (d, b) ↦{fullShare} f)))
    ∗ (semVal (cell d L cc0_scratch4) 0 ∗ semVal (cell d L cc0_scratch5) 0 ∗ semVal (cell d L cc0_scratch6) 0 ∗ semVal (cell d L cc0_scratch7) 0
        ∗ semVal (cell d L cc0_scratch8) 0 ∗ semVal (cell d L cc0_scratch9) 0 ∗ semVal (cell d L cc0_scoped0) 0
        ∗ bigSep (((((((ownCells (thr d L)).erase (cell d L cc0_scratch4)).erase (cell d L cc0_scratch5)).erase (cell d L cc0_scratch6)).erase (cell d L cc0_scratch7)).erase
              (cell d L cc0_scratch8)).erase (cell d L cc0_scratch9) |>.erase (cell d L cc0_scoped0))
            (fun g : GSem nD τ sig => semVal g 0))
    ∗ ∃ W', ⌜∀ p ∈ W', p ∈ W0 ∨ p.2 = none⌝ ∗ owes (thr d L) D.O W')

omit [FloatOps F] in
/-- Four pieces of an array, pairwise apart and covering it, are the array at some contents. -/
theorem join4 {ℓ : Loc nD τ sig} {A B C E : Finset (Idx ℓ)} {q : PosShare TreeShare} {f0 f1 f2 f3 : Buf (Elt F) ℓ}
    (hAB : Disjoint A B) (hC : Disjoint (A ∪ B) C) (hE : Disjoint ((A ∪ B) ∪ C) E) (hU : ((A ∪ B) ∪ C) ∪ E = Finset.univ) :
    iprop((ℓ ↦[A]{q} f0) ∗ (ℓ ↦[B]{q} f1) ∗ (ℓ ↦[C]{q} f2) ∗ (ℓ ↦[E]{q} f3)) ⊢ (∃ f, ℓ ↦{q} f : sProp 𝕄) := by
  iintro ⟨H0, H1, H2, H3⟩
  ihave H := (pointsTo_join (Ix := HIx 1) (Val := Elt F) (Name := ℕ) (U := UU) (Lvl := ℕ) hAB) $$ [H0 H1]
  · isplitl [H0]; · iexact H0
    iexact H1
  ihave H := (pointsTo_join (Ix := HIx 1) (Val := Elt F) (Name := ℕ) (U := UU) (Lvl := ℕ) hC) $$ [H H2]
  · isplitl [H]; · iexact H
    iexact H2
  ihave H := (pointsTo_join (Ix := HIx 1) (Val := Elt F) (Name := ℕ) (U := UU) (Lvl := ℕ) hE) $$ [H H3]
  · isplitl [H]; · iexact H
    iexact H3
  rw [hU]
  iexists _
  iexact H

omit [FloatOps F] in
/-- Two pieces of an array, apart and covering it, are the array at some contents. -/
theorem join2 {ℓ : Loc nD τ sig} {A B : Finset (Idx ℓ)} {q : PosShare TreeShare} {f0 f1 : Buf (Elt F) ℓ}
    (hAB : Disjoint A B) (hU : A ∪ B = Finset.univ) :
    iprop((ℓ ↦[A]{q} f0) ∗ (ℓ ↦[B]{q} f1)) ⊢ (∃ f, ℓ ↦{q} f : sProp 𝕄) := by
  iintro ⟨H0, H1⟩
  ihave H := (pointsTo_join (Ix := HIx 1) (Val := Elt F) (Name := ℕ) (U := UU) (Lvl := ℕ) hAB) $$ [H0 H1]
  · isplitl [H0]; · iexact H0
    iexact H1
  rw [hU]
  iexists _
  iexact H

/-! ## The sets -/

theorem slotG_disj {a b : Nat} (ha : a < 4) (hb : b < 4) (hab : a ≠ b) : Disjoint (slotG a ha).view.set (slotG b hb).view.set := by
  rw [Finset.disjoint_left]
  intro i hi hj
  rw [slotG_mem] at hi hj
  omega

theorem slotG_cover :
    (((slotG 0 lt4_0).view.set ∪ (slotG 1 lt4_1).view.set) ∪ (slotG 2 lt4_2).view.set) ∪ (slotG 3 lt4_3).view.set = Finset.univ := by
  refine Finset.eq_univ_of_forall (fun (i : S4x128x128.Idx) => ?_)
  have h : (i 0).val < 4 := (i 0).isLt
  rw [Finset.mem_union, Finset.mem_union, Finset.mem_union, slotG_mem, slotG_mem, slotG_mem, slotG_mem]
  omega

theorem slotG_disj2 : Disjoint ((slotG 0 lt4_0).view.set ∪ (slotG 1 lt4_1).view.set) (slotG 2 lt4_2).view.set :=
  Finset.disjoint_union_left.mpr ⟨slotG_disj _ _ (by decide), slotG_disj _ _ (by decide)⟩
theorem slotG_disj3 : Disjoint (((slotG 0 lt4_0).view.set ∪ (slotG 1 lt4_1).view.set) ∪ (slotG 2 lt4_2).view.set) (slotG 3 lt4_3).view.set :=
  Finset.disjoint_union_left.mpr ⟨Finset.disjoint_union_left.mpr ⟨slotG_disj _ _ (by decide), slotG_disj _ _ (by decide)⟩, slotG_disj _ _ (by decide)⟩

theorem slotO_disj : Disjoint (slotO 0 lt2_0).view.set (slotO 1 lt2_1).view.set := by
  rw [Finset.disjoint_left]
  intro i hi hj
  rw [slotO_mem] at hi hj
  omega

theorem slotO_cover : (slotO 0 lt2_0).view.set ∪ (slotO 1 lt2_1).view.set = Finset.univ := by
  refine Finset.eq_univ_of_forall (fun (i : S2x32x128.Idx) => ?_)
  have h : (i 0).val < 2 := (i 0).isLt
  rw [Finset.mem_union, slotO_mem, slotO_mem]
  omega

/-- The tile's part of the result: every position, every `d`, the tile's 128 columns. -/
theorem oSet_mem (i : S200x32x4096.Idx) : i ∈ oSet L ↔ col0 L ≤ (i 2).val ∧ (i 2).val < col0 L + 128 := by
  rw [Rect.mem_set_unit]
  have h0 : (i 0).val < 200 := (i 0).isLt
  have h1 : (i 1).val < 32 := (i 1).isLt
  constructor
  · intro hm; have m2 := hm 2
    exact ⟨m2.1, m2.2⟩
  · intro hm a
    match a with
    | ⟨0, _⟩ => exact ⟨by show 0 ≤ (i 0).val; omega, by show (i 0).val < 0 + 200; omega⟩
    | ⟨1, _⟩ => exact ⟨by show 0 ≤ (i 1).val; omega, by show (i 1).val < 0 + 32; omega⟩
    | ⟨2, _⟩ => exact ⟨by show col0 L ≤ (i 2).val; exact hm.1, by show (i 2).val < col0 L + 128; exact hm.2⟩

/-- A finished row holds the tile's value at every element of it. -/
theorem rowDone_at (D : RingData (F := F) d L) (h : Nat) (hh : h < 200) (og : Buf (Elt F) (oLoc d)) (hd : D.rowDone h hh og)
    (i : S200x32x4096.Idx) (hi0 : (i 0).val = h) (h2 : col0 L ≤ (i 2).val) (h3 : (i 2).val < col0 L + 128) :
    og i = tileVal D.tb D.ix i := by
  obtain ⟨col, hcol⟩ : ∃ col : Fin 128, col.val = (i 2).val - col0 L := ⟨⟨(i 2).val - col0 L, by omega⟩, rfl⟩
  have e : i = ix3 (⟨h, hh⟩ : Fin 200) (i 1) (tcol L col) := by
    funext a
    match a with
    | ⟨0, _⟩ => exact Fin.ext hi0
    | ⟨1, _⟩ => rfl
    | ⟨2, _⟩ => exact Fin.ext (by rw [tcol_val, hcol]; show (i 2).val = col0 L + ((i 2).val - col0 L); omega)
  exact (congrArg og e).trans ((hd (i 1) col).trans (congrArg (tileVal D.tb D.ix) e).symm)

/-- The rows the tile holds itself and the two rows just landed are the tile's part of the result at its value. -/
theorem result_join (D : RingData (F := F) d L) (og og0 og1 : Buf (Elt F) (oLoc d)) (ha : Nat) (hha : ha < 200) (hb : Nat) (hhb : hb < 200)
    (hab : ha ≠ hb)
    (hog : ∀ (i : S200x32x4096.Idx), i ∈ oSet L → (i 0).val ≠ ha → (i 0).val ≠ hb → og i = tileVal D.tb D.ix i)
    (hd0 : D.rowDone ha hha og0) (hd1 : D.rowDone hb hhb og1) :
    iprop(((oV).view.loc (thr d L) ↦[(oSet L \ (outRow L ha hha).view.set) \ (outRow L hb hhb).view.set]{fullShare} og)
        ∗ ((oV).view.loc (thr d L) ↦[(outRow L ha hha).view.set]{fullShare} og0)
        ∗ ((oV).view.loc (thr d L) ↦[(outRow L hb hhb).view.set]{fullShare} og1))
      ⊢ (oLoc d ↦[oSet L]{fullShare} (tileVal D.tb D.ix : Buf (Elt F) (oLoc d)) : sProp 𝕄) := by
  have hA : (outRow L ha hha).view.set ⊆ oSet L := by
    intro i hi; rw [outRow_mem] at hi; rw [oSet_mem]; exact ⟨hi.2.1, hi.2.2⟩
  have hB : (outRow L hb hhb).view.set ⊆ oSet L \ (outRow L ha hha).view.set := by
    intro i hi
    rw [Finset.mem_sdiff, oSet_mem, outRow_mem]
    rw [outRow_mem] at hi
    exact ⟨⟨hi.2.1, hi.2.2⟩, fun hj => hab (hj.1.symm.trans hi.1)⟩
  have e0 : (((oV).view.loc (thr d L) ↦[(oSet L \ (outRow L ha hha).view.set) \ (outRow L hb hhb).view.set]{fullShare} og : sProp 𝕄))
      = ((oV).view.loc (thr d L) ↦[(oSet L \ (outRow L ha hha).view.set) \ (outRow L hb hhb).view.set]{fullShare} (tileVal D.tb D.ix : Buf (Elt F) (oLoc d))) :=
    pointsTo_congr (fun i hi => by
      rw [Finset.mem_sdiff, Finset.mem_sdiff, outRow_mem, outRow_mem] at hi
      have hiO := hi.1.1
      have hc := (oSet_mem L i).mp hiO
      exact hog i hiO (fun e => hi.1.2 ⟨e, hc.1, hc.2⟩) (fun e => hi.2 ⟨e, hc.1, hc.2⟩))
  have e1 : (((oV).view.loc (thr d L) ↦[(outRow L ha hha).view.set]{fullShare} og0 : sProp 𝕄))
      = ((oV).view.loc (thr d L) ↦[(outRow L ha hha).view.set]{fullShare} (tileVal D.tb D.ix : Buf (Elt F) (oLoc d))) :=
    pointsTo_congr (fun i hi => by
      rw [outRow_mem] at hi
      exact rowDone_at d L D ha hha og0 hd0 i hi.1 hi.2.1 hi.2.2)
  have e2 : (((oV).view.loc (thr d L) ↦[(outRow L hb hhb).view.set]{fullShare} og1 : sProp 𝕄))
      = ((oV).view.loc (thr d L) ↦[(outRow L hb hhb).view.set]{fullShare} (tileVal D.tb D.ix : Buf (Elt F) (oLoc d))) :=
    pointsTo_congr (fun i hi => by
      rw [outRow_mem] at hi
      exact rowDone_at d L D hb hhb og1 hd1 i hi.1 hi.2.1 hi.2.2)
  rw [e0, e1, e2]
  iintro ⟨Hx1, Hx2, Hx3⟩
  ihave H := (pointsTo_split_subset (Ix := HIx 1) (Val := Elt F) (Name := ℕ) (U := UU) (Lvl := ℕ) (ℓ := (oV).view.loc (thr d L)) (q := fullShare) (f := (tileVal D.tb D.ix : Buf (Elt F) (oLoc d))) hB).2 $$ [Hx3 Hx1]
  · isplitl [Hx3]; · iexact Hx3
    iexact Hx1
  ihave H := (pointsTo_split_subset (Ix := HIx 1) (Val := Elt F) (Name := ℕ) (U := UU) (Lvl := ℕ) (ℓ := (oV).view.loc (thr d L)) (q := fullShare) (f := (tileVal D.tb D.ix : Buf (Elt F) (oLoc d))) hA).2 $$ [Hx2 H]
  · isplitl [Hx2]; · iexact Hx2
    iexact H
  iexact H

set_option maxHeartbeats 2000000 in
/-- After the pipeline's loop: the last two write-outs are waited for, and what the tile holds is put back together —
    the four slots of the gathered rows and the two of the result rows into their arrays, the four read shares of the
    table and of the row numbers into the shares the tile was lent, the rows the tile kept and the two rows just landed
    into the tile's part of the result at its value. -/
theorem epilogue (D : RingData (F := F) d L) (q2 : PosShare TreeShare) (hqQ : D.qQ = fullShare)
    (W0 : Waits sig (HIx 1)) (hW0 : ∀ p ∈ D.W, p ∈ W0 ∨ p.2 = none) :
    iprop(ringInv D 50 ()
        ∗ ((tV).view.loc (thr d L) ↦{Transfers.shareDrop D.q1 4} D.tb)
        ∗ ((iV).view.loc (thr d L) ↦{q2} D.ix)
        ∗ semVal (cell d L cc0_scoped0) 0
        ∗ bigSep (((((ownRefs (τ := τ) (sig := sig) (.scVector (cV L) (jV L))).erase (sref L cc0_scratch0)).erase (sref L cc0_scratch1)).erase (sref L cc0_scratch2)).erase (sref L cc0_scratch3))
            (fun b : DevRef τ sig => iprop(∃ f, (d, b) ↦{fullShare} f))
        ∗ bigSep (((((((ownCells (thr d L)).erase (cell d L cc0_scratch4)).erase (cell d L cc0_scratch5)).erase (cell d L cc0_scratch6)).erase (cell d L cc0_scratch7)).erase
              (cell d L cc0_scratch8)).erase (cell d L cc0_scratch9) |>.erase (cell d L cc0_scoped0))
            (fun g : GSem nD τ sig => semVal g 0))
      ⊢ (wp frame (wpE (defs₀ (F := F)) 𝒱₀ (thr d L) none) Set.univ (tailProg (F := F) L) fun _ => tilePost d L D q2 W0 : sProp 𝕄) := by
  unfold ringInv RingData.gPart RingData.wPart
  rw [dif_neg (by decide : ¬ (50 < 50)), dif_neg (by decide : ¬ (50 = 0)), dif_pos (by decide : 50 ≤ 50)]
  unfold RingData.free RingData.writing RingData.outRest
  iintro ⟨⟨#Hmw, HsI, ⟨⟨Hc0, ⟨%c0, Hp0⟩, Ht0, Hq0⟩, ⟨Hc1, ⟨%c1, Hp1⟩, Ht1, Hq1⟩, ⟨Hc2, ⟨%c2, Hp2⟩, Ht2, Hq2⟩, ⟨Hc3, ⟨%c3, Hp3⟩, Ht3, Hq3⟩⟩,
      ⟨⟨%og0, %o0, %hd0, Hf0⟩, ⟨%og1, %o1, %hd1, Hf1⟩, ⟨%og, %hog, Hrest⟩⟩, ⟨%W', %hW', HO⟩⟩, Htd, Hi, Hsc, Hbufs, Hsems⟩
  sl_exec
  rw [wp_ret]; imodintro
  -- the table's four tokens and the remainder: the share the tile was lent
  ihave HT := (toks4 (F := F) D.q1).2 $$ [Htd Ht0 Ht1 Ht2 Ht3]
  · isplitl [Htd]; · iexact Htd
    isplitl [Ht0]; · iexact Ht0
    isplitl [Ht1]; · iexact Ht1
    isplitl [Ht2]; · iexact Ht2
    iexact Ht3
  -- the row numbers' four shares: the full share
  ihave HQ := (toks3 (F := F) D.qQ).2 $$ [Hq0 Hq1 Hq2 Hq3]
  · isplitl [Hq0]; · iexact Hq0
    isplitl [Hq1]; · iexact Hq1
    isplitl [Hq2]; · iexact Hq2
    iexact Hq3
  ihave HQ := (Entails.of_eq (congrArg (fun q => ((sQ).view.loc (thr d L) ↦{q} D.fq : sProp 𝕄)) hqQ)) $$ HQ
  -- the four slots of the gathered rows, the two of the result rows
  ihave HG := (join4 (F := F) (ℓ := (sG).view.loc (thr d L)) (slotG_disj lt4_0 lt4_1 (by decide)) slotG_disj2 slotG_disj3 slotG_cover) $$ [Hp0 Hp1 Hp2 Hp3]
  · isplitl [Hp0]; · iexact Hp0
    isplitl [Hp1]; · iexact Hp1
    isplitl [Hp2]; · iexact Hp2
    iexact Hp3
  ihave HS := (join2 (F := F) (ℓ := (sO).view.loc (thr d L)) slotO_disj slotO_cover) $$ [Hf0_src Hf1_src]
  · isplitl [Hf0_src]; · iexact Hf0_src
    iexact Hf1_src
  -- the result: the rows kept and the two rows landed
  ihave HR := (result_join d L D og og0 og1 (4 * 50 - 2) (by omega) (4 * 50 - 1) (by omega) (by omega)
      (fun i hi h1 h2 => by
        have hc := (oSet_mem L i).mp hi
        have hlt : (i 0).val < 200 := (i 0).isLt
        exact rowDone_at d L D (i 0).val hlt og (hog _ hlt (by omega)) i rfl hc.1 hc.2)
      hd0 hd1) $$ [Hrest Hf0_dst Hf1_dst]
  · isplitl [Hrest]; · iexact Hrest
    isplitl [Hf0_dst]; · iexact Hf0_dst
    iexact Hf1_dst
  -- the postcondition
  isplitl [HT Hi HR]
  · isplitl [HT]; · iexact HT
    isplitl [Hi]; · iexact Hi
    iexact HR
  isplitl [HsI HQ HG HS Hbufs]
  · isplitl [HsI]; · iexists _; iexact HsI
    isplitl [HQ]; · iexists _; iexact HQ
    isplitl [HG]; · iexact HG
    isplitl [HS]; · iexact HS
    iexact Hbufs
  isplitl [Hc0 Hc1 Hc2 Hc3 Hf0 Hf1 Hsc Hsems]
  · isplitl [Hc0]; · iexact Hc0
    isplitl [Hc1]; · iexact Hc1
    isplitl [Hc2]; · iexact Hc2
    isplitl [Hc3]; · iexact Hc3
    isplitl [Hf0]; · iexact Hf0
    isplitl [Hf1]; · iexact Hf1
    isplitl [Hsc]; · iexact Hsc
    iexact Hsems
  iexists (insert ((SemLoc.dma cc0_scratch9.sem : SemLoc sig), (default : HIx 1)) (insert ((SemLoc.dma cc0_scratch8.sem : SemLoc sig), (default : HIx 1)) W'))
  isplitr [HO]
  · ipureintro
    intro p hp
    rcases Finset.mem_insert.mp hp with h1 | hp
    · right; rw [h1]; rfl
    rcases Finset.mem_insert.mp hp with h1 | hp
    · right; rw [h1]; rfl
    exact (hW' p hp).elim (hW0 p) Or.inr
  iexact HO

end Cert.Proof.Kernel.Epilogue

end
-- ==== Proof.KernelRingLib.lean ====
/-
  The pipeline's pieces as the program spells them. A trip of the main loop names the rows it gathers by and the rows it
  writes out through word chains in the trip number; each chain has a closed form. Here: a squeezed slice at such an
  offset IS the invariant's row (of the row numbers, of the result), so that a transfer the run issued at the program's
  spelling is the invariant's busy slot, writing slot, or rest of the result.
-/
import proofs.«206503_g81295140979383_cont_9to1c4b_414_34_alg».proof.Proof.KernelRingInv
import proofs.«206503_g81295140979383_cont_9to1c4b_414_34_alg».proof.Proof.KernelRowVal
import proofs.«206503_g81295140979383_cont_9to1c4b_414_34_alg».proof.Proof.KernelRingInit

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

theorem row_eq (L : grid0.Coords) (off : Fin 3 → Nat) (h : Nat) (hh : h < 200) (hoff : off = ![h, 0, col0 L])
    (inb : ∀ a, off a + S1x32x128.size a ≤ S200x32x4096.size a) (hr) :
    ((oV.slice (Rect.unit (s := S200x32x4096) off S1x32x128.size inb) hr).squeeze S32x128 squeezes_S1x32x128_S32x128) = outRow L h hh := by
  subst hoff; rfl

theorem rowQ_eq (off : Fin 2 → Nat) (h : Nat) (hh : h < 200) (hoff : off = ![h, 0])
    (inb : ∀ a, off a + S1x128.size a ≤ S200x128.size a) (hr) :
    ((sQ.slice (Rect.unit (s := S200x128) off S1x128.size inb) hr).squeeze S128 squeezes_S1x128_S128) = rowQ h hh := by
  subst hoff; rfl

/-- The elements of a row of the result, the row's offset given as a word chain with its closed form. -/
theorem prow_mem (L : grid0.Coords) (off : Fin 3 → Nat) (h : Nat) (hh : h < 200) (hoff : off = ![h, 0, col0 L])
    (inb : ∀ a, off a + S1x32x128.size a ≤ S200x32x4096.size a) (hr) (i : S200x32x4096.Idx) :
    i ∈ ((oV.slice (Rect.unit (s := S200x32x4096) off S1x32x128.size inb) hr).squeeze S32x128 squeezes_S1x32x128_S32x128).view.set
      ↔ (i 0).val = h ∧ col0 L ≤ (i 2).val ∧ (i 2).val < col0 L + 128 := by
  subst hoff; exact outRow_mem L h hh i

theorem oSet_mem' (L : grid0.Coords) (i : S200x32x4096.Idx) : i ∈ oSet L ↔ col0 L ≤ (i 2).val ∧ (i 2).val < col0 L + 128 := by
  show i ∈ (Rect.unit (s := S200x32x4096) ![0, 0, col0 L] ![200, 32, 128] (oBlk_inb L)).set ↔ _
  rw [Rect.mem_set_unit]
  have h0 : (i 0).val < 200 := (i 0).isLt
  have h1 : (i 1).val < 32 := (i 1).isLt
  constructor
  · intro hm; have m2 := hm 2
    have b1 : col0 L ≤ (i 2).val := m2.1
    have b2 : (i 2).val < col0 L + 128 := m2.2
    exact ⟨b1, b2⟩
  · intro hm a
    match a with
    | ⟨0, _⟩ => exact ⟨by show 0 ≤ (i 0).val; omega, by show (i 0).val < 0 + 200; omega⟩
    | ⟨1, _⟩ => exact ⟨by show 0 ≤ (i 1).val; omega, by show (i 1).val < 0 + 32; omega⟩
    | ⟨2, _⟩ => exact ⟨by show col0 L ≤ (i 2).val; exact hm.1, by show (i 2).val < col0 L + 128; exact hm.2⟩

variable [FloatOps F]

/-- A gather in flight whose offset list is spelt by the program's word chain, with the slot's two rests, is the slot busy. -/
theorem busy_of_prog (D : RingData (F := F) d L) (s : Nat) (hs : s < 4) (sem : DmaSems sig S_) (off : Fin 2 → Nat) (h : Nat) (hh : h < 200)
    (hoff : off = ![h, 0]) (inb : ∀ a, off a + S1x128.size a ≤ S200x128.size a) (hr)
    (c : Buf (Elt F) ((thr d L).loc cc0_scratch2)) (hg : D.gathered s hs h hh c) :
    iprop(Transfers.Flight countersEmb (thr d L) (SemLoc.dma sem.sem) default 524288
        iprop((((slotG s hs).view.loc (thr d L) ↦[(slotG s hs).view.set]{fullShare} c)
            ∗ ((sQ).view.loc (thr d L) ↦[((sQ.slice (Rect.unit (s := S200x128) off S1x128.size inb) hr).squeeze S128 squeezes_S1x128_S128).view.set]{D.qs s} D.fq))
          ∗ ((tV).view.loc (thr d L) ↦[(tW).view.set]{Transfers.shareTokN D.q1 s} D.tb))
      ∗ ((tV).view.loc (thr d L) ↦[Finset.univ \ (tW).view.set]{Transfers.shareTokN D.q1 s} D.tb)
      ∗ ((sQ).view.loc (thr d L) ↦[Finset.univ \ ((sQ.slice (Rect.unit (s := S200x128) off S1x128.size inb) hr).squeeze S128 squeezes_S1x128_S128).view.set]{D.qs s} D.fq))
      ⊢ (D.busy s hs sem h hh : sProp 𝕄) := by
  subst hoff
  exact busy_intro d L D s hs sem h hh c hg

/-- A write-out in flight whose destination row is spelt by the program's word chain is the result slot writing. -/
theorem writing_of_prog (D : RingData (F := F) d L) (b : Nat) (hb : b < 2) (sem : DmaSems sig S_) (off : Fin 3 → Nat) (h : Nat) (hh : h < 200)
    (hoff : off = ![h, 0, col0 L]) (inb : ∀ a, off a + S1x32x128.size a ≤ S200x32x4096.size a) (hr)
    (c : Buf (Elt F) (oLoc d)) (o : Buf (Elt F) ((thr d L).loc cc0_scratch3)) (hd : D.rowDone h hh c) :
    (Transfers.Flight countersEmb (thr d L) (SemLoc.dma sem.sem) default 131072
        iprop(((oV).view.loc (thr d L) ↦[((oV.slice (Rect.unit (s := S200x32x4096) off S1x32x128.size inb) hr).squeeze S32x128 squeezes_S1x32x128_S32x128).view.set]{fullShare} c)
          ∗ ((slotO b hb).view.loc (thr d L) ↦[(slotO b hb).view.set]{fullShare} o)) : sProp 𝕄)
      ⊢ (D.writing b hb sem h hh : sProp 𝕄) := by
  subst hoff
  unfold RingData.writing
  iintro H
  iexists c; iexists o
  isplitr; · ipureintro; exact hd
  iexact H

/-- The rest of the tile's part of the result, the two rows in flight spelt by the program's word chains. -/
theorem outRest_of_prog (D : RingData (F := F) d L) (t : Nat) (h1 : 4 * t - 2 < 200) (h2 : 4 * t - 1 < 200) (off1 off2 : Fin 3 → Nat)
    (hoff1 : off1 = ![4 * t - 2, 0, col0 L]) (hoff2 : off2 = ![4 * t - 1, 0, col0 L])
    (inb1 : ∀ a, off1 a + S1x32x128.size a ≤ S200x32x4096.size a) (hr1) (inb2 : ∀ a, off2 a + S1x32x128.size a ≤ S200x32x4096.size a) (hr2)
    (og : Buf (Elt F) (oLoc d)) (hdone : ∀ (h : Nat) (hh : h < 200), h + 2 < 4 * t → D.rowDone h hh og) :
    ((oV).view.loc (thr d L) ↦[((oSet L : Finset S200x32x4096.Idx) \ ((oV.slice (Rect.unit (s := S200x32x4096) off1 S1x32x128.size inb1) hr1).squeeze S32x128 squeezes_S1x32x128_S32x128).view.set)
        \ ((oV.slice (Rect.unit (s := S200x32x4096) off2 S1x32x128.size inb2) hr2).squeeze S32x128 squeezes_S1x32x128_S32x128).view.set]{fullShare} og : sProp 𝕄)
      ⊢ (D.outRest t h1 h2 : sProp 𝕄) := by
  subst hoff1 hoff2
  unfold RingData.outRest
  iintro H
  iexists og
  isplitr; · ipureintro; exact hdone
  iexact H

end Cert.Proof.Kernel

end
-- ==== Proof.KernelRingFacts.lean ====
/-
  Bookkeeping shared by the trips of the tile's pipeline. A row of the result is told by its position: whether a
  row is done depends only on the row's own elements, so it survives writes to other rows and the rejoining of
  the result's pieces; a whole write of a row's payload through the row leaves the payload there. After a trip
  the result's part outside the two rows being written is the part before, minus the rows written this trip,
  plus the rows that came back: every row below the two being written is done. A gather through a row of the
  row-number scratch named by its offset leaves the rows the scratch names.
-/
import proofs.«206503_g81295140979383_cont_9to1c4b_414_34_alg».proof.Proof.KernelRingInit
import proofs.«206503_g81295140979383_cont_9to1c4b_414_34_alg».proof.Proof.KernelRowVal
import proofs.«206503_g81295140979383_cont_9to1c4b_414_34_alg».proof.Proof.KernelEpilogue

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

/-! ## A row is told by its own elements -/

/-- The element `(h, dd, col0 + col)` is one of row `h`'s. -/
theorem rowElt_mem (h : Nat) (hh : h < 200) (dd : Fin 32) (col : Fin 128) :
    (ix3 (⟨h, hh⟩ : Fin 200) dd (tcol L col) : S200x32x4096.Idx) ∈ (outRow L h hh).view.set := by
  rw [outRow_mem]
  have := col.isLt
  exact ⟨rfl, by show col0 L ≤ (tcol L col).val; rw [tcol_val]; omega, by show (tcol L col).val < col0 L + 128; rw [tcol_val]; omega⟩

/-- Whether row `h` is done depends only on row `h`'s elements. -/
theorem rowDone_congr (D : RingData (F := F) d L) (h : Nat) (hh : h < 200) (g g' : Buf (Elt F) (oLoc d))
    (hag : ∀ i ∈ (outRow L h hh).view.set, g' i = g i) (hd : D.rowDone h hh g) : D.rowDone h hh g' := by
  intro dd col
  rw [hag _ (rowElt_mem h hh dd col)]
  exact hd dd col

/-- Elements of different rows are different: a row's elements are not another row's. -/
theorem outRow_not_mem {h h' : Nat} (hh : h < 200) (hh' : h' < 200) (hne : h ≠ h') (i : S200x32x4096.Idx)
    (hi : i ∈ (outRow L h hh).view.set) : i ∉ (outRow L h' hh').view.set := by
  intro hi'
  have a := ((outRow_mem L h hh i).1 hi).1
  have b := ((outRow_mem L h' hh' i).1 hi').1
  omega

/-- A done row stays done under a whole write through another row, -/
theorem rowDone_write_other (D : RingData (F := F) d L) {h h' : Nat} (hh : h < 200) (hh' : h' < 200) (hne : h ≠ h')
    (og : Buf (Elt F) (oLoc d)) (pay : S32x128.Idx → Elt F .f32) (hd : D.rowDone h hh og) :
    D.rowDone h hh (View.write (Elt F) (outRow L h' hh').view og pay Finset.univ) :=
  rowDone_congr D h hh og _ (fun i hi => outRow_write_off L h' hh' og pay i (fun hc => by
    have a := ((outRow_mem L h hh i).1 hi).1
    omega)) hd

/-- under the list form of that write, -/
theorem rowDone_writes_other (D : RingData (F := F) d L) {h h' : Nat} (hh : h < 200) (hh' : h' < 200) (hne : h ≠ h')
    (og : Buf (Elt F) (oLoc d)) (pay : S32x128.Idx → Elt F .f32) (hd : D.rowDone h hh og) :
    D.rowDone h hh ((outRow L h' hh').view.writes (Elt F) og [⟨Rect.whole S32x128, pay⟩]) := by
  refine rowDone_congr D h hh og _ (fun i hi => ?_) hd
  have hnm : i ∉ (outRow L h' hh').view.set := outRow_not_mem hh hh' hne i hi
  exact View.writes_apply_of_forall_ne (outRow L h' hh').view og _ (fun y e => hnm (e ▸ View.emb_mem_set _ y))

/-- and under a join that takes other elements from elsewhere. -/
theorem rowDone_piecewise (D : RingData (F := F) d L) (h : Nat) (hh : h < 200) (J : Finset (Idx (oLoc d))) (g og : Buf (Elt F) (oLoc d))
    (hJ : ∀ i ∈ (outRow L h hh).view.set, i ∉ J) (hd : D.rowDone h hh og) : D.rowDone h hh (J.piecewise g og) :=
  rowDone_congr D h hh og _ (fun i hi => Finset.piecewise_eq_of_notMem _ _ _ (hJ i hi)) hd
theorem rowDone_piecewise_in (D : RingData (F := F) d L) (h : Nat) (hh : h < 200) (J : Finset (Idx (oLoc d))) (g og : Buf (Elt F) (oLoc d))
    (hJ : ∀ i ∈ (outRow L h hh).view.set, i ∈ J) (hd : D.rowDone h hh g) : D.rowDone h hh (J.piecewise g og) :=
  rowDone_congr D h hh g _ (fun i hi => Finset.piecewise_eq_of_mem _ _ _ (hJ i hi)) hd

/-! ## A whole write of a row's payload, read back -/

/-- What the list form of a whole write through row `h` leaves at `(h, dd, col0 + col)`: the payload's `(dd, col)`. -/
theorem outRow_writes_at (h : Nat) (hh : h < 200) (og : Buf (Elt F) (oLoc d)) (pay : S32x128.Idx → Elt F .f32) (dd : Fin 32) (col : Fin 128) :
    ((outRow L h hh).view.writes (Elt F) og [⟨Rect.whole S32x128, pay⟩]) (ix3 (⟨h, hh⟩ : Fin 200) dd (tcol L col)) = pay (ix2 dd col) := by
  have h1 := View.read_writes_cons_emb (outRow L h hh).view (Val := Elt F) og (Rect.whole S32x128) pay [] (ix2 dd col)
  rw [Rect.emb_whole_apply, View.read_apply, outRow_emb] at h1
  exact h1

/-- Slot `b` of the result rows reads `(b, dd, col)` at `(dd, col)`. -/
theorem slotO_read (b : Nat) (hb : b < 2) (o : Buf (Elt F) ((thr d L).loc cc0_scratch3)) (dd : Fin 32) (col : Fin 128) :
    (slotO b hb).view.read (Elt F) o (ix2 dd col) = o (ix3 (⟨b, hb⟩ : Fin 2) dd col) := by
  rw [View.read_apply, slotO_emb b hb dd col]
  rfl

/-- The row written this trip is done: the result slot held the quarters of the gathered rows, the gathered rows the
    table's rows the row-number scratch names, and the write-out moved the slot to the row. -/
theorem rowDone_written (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000)
    (s : Nat) (hs : s < 4) (b : Nat) (hb : b < 2) (h : Nat) (hh : h < 200)
    (c : Buf (Elt F) ((thr d L).loc cc0_scratch2)) (hg : D.gathered s hs h hh c)
    (o' : Buf (Elt F) ((thr d L).loc cc0_scratch3))
    (hval : ∀ (dd : Fin 32) (col : Fin 128) (q : Fin 128), q.val = (D.fI (ix2 (⟨h, hh⟩ : Fin 200) col)).toNat % 4 * 32 + dd.val →
      o' (ix3 (⟨b, hb⟩ : Fin 2) dd col) = c (ix3 (⟨s, hs⟩ : Fin 4) col q))
    (og : Buf (Elt F) (oLoc d)) (pay : S32x128.Idx → Elt F .f32) (hpay : ∀ (dd : Fin 32) (col : Fin 128), pay (ix2 dd col) = o' (ix3 (⟨b, hb⟩ : Fin 2) dd col)) :
    D.rowDone h hh ((outRow L h hh).view.writes (Elt F) og [⟨Rect.whole S32x128, pay⟩]) :=
  rowDone_of D hfI hq hix s hs b hb h hh c hg o' hval _ (fun dd col => (outRow_writes_at h hh og pay dd col).trans (hpay dd col))

/-! ## The same through a row named by its offset -/

/-- A done row stays done under a whole write through another row, the row named by its offset. -/
theorem rowDone_writes_other_off (D : RingData (F := F) d L) {h h' : Nat} (hh : h < 200) (hh' : h' < 200) (hne : h ≠ h')
    (off' : Fin 3 → Nat) (hoff' : off' = ![h', 0, col0 L]) (inb : ∀ a, off' a + S1x32x128.size a ≤ S200x32x4096.size a)
    (og : Buf (Elt F) (oLoc d)) (pay : S32x128.Idx → Elt F .f32) (hd : D.rowDone h hh og) :
    D.rowDone h hh (((oV.slice (Rect.unit (s := S200x32x4096) off' S1x32x128.size inb) (fun _ => rfl)).squeeze S32x128 squeezes_S1x32x128_S32x128).view.writes
      (Elt F) og [⟨Rect.whole S32x128, pay⟩]) := by
  subst hoff'
  exact rowDone_writes_other D hh hh' hne og pay hd

/-- The row written this trip is done, the row named by its offset. -/
theorem rowDone_written_off (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000)
    (s : Nat) (hs : s < 4) (b : Nat) (hb : b < 2) (h : Nat) (hh : h < 200)
    (off : Fin 3 → Nat) (hoff : off = ![h, 0, col0 L]) (inb : ∀ a, off a + S1x32x128.size a ≤ S200x32x4096.size a)
    (c : Buf (Elt F) ((thr d L).loc cc0_scratch2)) (hg : D.gathered s hs h hh c)
    (o' : Buf (Elt F) ((thr d L).loc cc0_scratch3))
    (hval : ∀ (dd : Fin 32) (col : Fin 128) (q : Fin 128), q.val = (D.fI (ix2 (⟨h, hh⟩ : Fin 200) col)).toNat % 4 * 32 + dd.val →
      o' (ix3 (⟨b, hb⟩ : Fin 2) dd col) = c (ix3 (⟨s, hs⟩ : Fin 4) col q))
    (og : Buf (Elt F) (oLoc d)) (pay : S32x128.Idx → Elt F .f32) (hpay : ∀ (dd : Fin 32) (col : Fin 128), pay (ix2 dd col) = o' (ix3 (⟨b, hb⟩ : Fin 2) dd col)) :
    D.rowDone h hh (((oV.slice (Rect.unit (s := S200x32x4096) off S1x32x128.size inb) (fun _ => rfl)).squeeze S32x128 squeezes_S1x32x128_S32x128).view.writes
      (Elt F) og [⟨Rect.whole S32x128, pay⟩]) := by
  subst hoff
  exact rowDone_written D hfI hq hix s hs b hb h hh c hg o' hval og pay hpay

/-! ## A fresh gather through a row of the row-number scratch named by its offset -/

/-- The gathered slot at `(r, c)`, the list's row named by its offset. -/
theorem gather_off_apply (tb g : S250000x128.Idx → Elt F .f32) (hg : ∀ x, g x = tb x) (h : Nat) (hh : h < 200)
    (off : Fin 2 → Nat) (hoff : off = ![h, 0]) (inb : ∀ a, off a + S1x128.size a ≤ S200x128.size a) (fq : S200x128.Idx → BitVec 32)
    (hn : S128.numel = S128x128.size (gathers_S250000x128_S128x128).axis')
    (hin : ∀ x, ((((sQ).slice (Rect.unit (s := S200x128) off S1x128.size inb) (fun _ => rfl)).squeeze S128 squeezes_S1x128_S128).view.read (Elt F) fq x).toNat
      < S250000x128.size (gathers_S250000x128_S128x128).axis)
    (r c : Fin 128) (row : Fin 250000) (hrow : row.val = (fq (ix2 (⟨h, hh⟩ : Fin 200) r)).toNat) :
    SparseCore.gatherPayload gathers_S250000x128_S128x128 g
      (SparseCore.rows ((((sQ).slice (Rect.unit (s := S200x128) off S1x128.size inb) (fun _ => rfl)).squeeze S128 squeezes_S1x128_S128).view.read (Elt F) fq) hn hin) (ix2 r c)
      = tb (ix2 row c) := by
  subst hoff
  exact gather_rowQ_apply' tb g hg h hh fq hn hin r c row hrow

/-- A fresh gather into slot `s` through the row at `off = (h, 0)`, the table read through its whole rectangle: the slot
    holds the gathered rows of position `h`. -/
theorem gathered_off (D : RingData (F := F) d L) (s : Nat) (hs : s < 4) (h : Nat) (hh : h < 200)
    (off : Fin 2 → Nat) (hoff : off = ![h, 0]) (inb : ∀ a, off a + S1x128.size a ≤ S200x128.size a)
    (hn : S128.numel = S128x128.size (gathers_S250000x128_S128x128).axis')
    (hin : ∀ x, ((((sQ).slice (Rect.unit (s := S200x128) off S1x128.size inb) (fun _ => rfl)).squeeze S128 squeezes_S1x128_S128).view.read (Elt F) D.fq x).toNat
      < S250000x128.size (gathers_S250000x128_S128x128).axis)
    (c0 : Buf (Elt F) ((thr d L).loc cc0_scratch2)) :
    D.gathered s hs h hh ((slotG s hs).view.writes (Elt F) c0 [⟨Rect.whole S128x128,
      SparseCore.gatherPayload gathers_S250000x128_S128x128 ((tW).view.read (Elt F) D.tb)
        (SparseCore.rows ((((sQ).slice (Rect.unit (s := S200x128) off S1x128.size inb) (fun _ => rfl)).squeeze S128 squeezes_S1x128_S128).view.read (Elt F) D.fq) hn hin)⟩]) :=
  gathered_of d L D s hs h hh c0 _ (fun r cc row hrow => gather_off_apply D.tb _ (tW_read D.tb) h hh off hoff inb D.fq hn hin r cc row hrow)

/-! ## The extract loop's value fact, in the form the row's value lemma takes -/

/-- The result slot holds, at `(dd, col)`, the gathered row `col` at the column the index word's remainder by four
    and `dd` name: said for whichever column number equals that. -/
theorem hval_of_extract (fI : Buf (Elt F) ((thr d L).loc cc0_scratch0)) (g : Buf (Elt F) ((thr d L).loc cc0_scratch2))
    (o' : Buf (Elt F) ((thr d L).loc cc0_scratch3)) (s : Nat) (hs : s < 4) (b : Nat) (hb : b < 2) (h : Nat) (hh : h < 200)
    (he : ∀ (dd : Fin 32) (col : Fin 128), o' (ix3 (⟨b, hb⟩ : Fin 2) dd col)
      = g (ix3 (⟨s, hs⟩ : Fin 4) col ⟨(fI (ix2 (⟨h, hh⟩ : Fin 200) col)).toNat % 4 * 32 + dd.val, by have := dd.isLt; omega⟩)) :
    ∀ (dd : Fin 32) (col : Fin 128) (q : Fin 128), q.val = (fI (ix2 (⟨h, hh⟩ : Fin 200) col)).toNat % 4 * 32 + dd.val →
      o' (ix3 (⟨b, hb⟩ : Fin 2) dd col) = g (ix3 (⟨s, hs⟩ : Fin 4) col q) := by
  intro dd col q hq
  rw [he dd col]
  exact congrArg (fun q => g (ix3 (⟨s, hs⟩ : Fin 4) col q)) (Fin.ext hq.symm)

end Cert.Proof.Kernel

end
-- ==== Proof.KernelRingFirst.lean ====
/-
  The first trip of the tile's pipeline. On entry the gathers of positions 0, 1, 2 are in flight into slots 0, 1, 2,
  slot 3 and both result slots are free, and the tile holds its whole part of the result. The trip does four steps.
  Step `j` starts the gather of position `j + 3` into the slot that is free, waits for position `j`'s gather,
  (from the third step on) waits for the write-out two positions back, picks the quarter `index mod 4` of every
  gathered row into a result slot, and starts writing that slot out to position `j` of the tile's columns, whose
  elements are taken out of the part of the result the tile still holds. At the end the gathers of positions 4, 5, 6
  are in flight, slot 3 is free again, the write-outs of positions 2 and 3 are in flight, and the rows the tile
  holds itself are the rest together with the two rows that landed, positions 0 and 1, at their final values.
-/
import proofs.«206503_g81295140979383_cont_9to1c4b_414_34_alg».proof.Proof.KernelRingInv
import proofs.«206503_g81295140979383_cont_9to1c4b_414_34_alg».proof.Proof.KernelRingInit
import proofs.«206503_g81295140979383_cont_9to1c4b_414_34_alg».proof.Proof.KernelRowVal
import proofs.«206503_g81295140979383_cont_9to1c4b_414_34_alg».proof.Proof.KernelGeom
import proofs.«206503_g81295140979383_cont_9to1c4b_414_34_alg».proof.Proof.KernelQLoop
import proofs.«206503_g81295140979383_cont_9to1c4b_414_34_alg».proof.Proof.KernelExtract0
import proofs.«206503_g81295140979383_cont_9to1c4b_414_34_alg».proof.Proof.KernelExtract1
import proofs.«206503_g81295140979383_cont_9to1c4b_414_34_alg».proof.Proof.KernelExtract2
import proofs.«206503_g81295140979383_cont_9to1c4b_414_34_alg».proof.Proof.KernelExtract3
import proofs.«206503_g81295140979383_cont_9to1c4b_414_34_alg».proof.Proof.KernelEpilogue
import proofs.«206503_g81295140979383_cont_9to1c4b_414_34_alg».proof.Proof.KernelRingLib
import proofs.«206503_g81295140979383_cont_9to1c4b_414_34_alg».proof.Proof.KernelRingFacts

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

variable [FloatOps F]

/-- Every word the gathers' offset lists hold names a row of the table. -/
theorem RingFirst.hin_of (fq : Buf (Elt F) ((thr d L).loc cc0_scratch1)) (h : ∀ p : S200x128.Idx, (fq p).toNat < 250000) :
    ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) fq x).toNat < 250000 := by
  intro off inb x
  exact h _

omit [FloatOps F] in
/-- The same slot busy with the same position, the position's number written another way. -/
theorem RingFirst.busy_cast (D : RingData (F := F) d L) (s : Nat) (hs : s < 4) (sem : DmaSems sig S_) {h h' : Nat} (hh : h < 200) (hh' : h' < 200) (e : h = h') :
    (D.busy s hs sem h hh : sProp 𝕄) ⊢ D.busy s hs sem h' hh' := by
  subst e; exact Entails.of_eq rfl

omit [FloatOps F] in
/-- The same write-out of the same position, the position's number written another way. -/
theorem RingFirst.writing_cast (D : RingData (F := F) d L) (b : Nat) (hb : b < 2) (sem : DmaSems sig S_) {h h' : Nat} (hh : h < 200) (hh' : h' < 200) (e : h = h') :
    (D.writing b hb sem h hh : sProp 𝕄) ⊢ D.writing b hb sem h' hh' := by
  subst e; exact Entails.of_eq rfl

set_option maxHeartbeats 8000000 in
set_option sl_exec.dmaWindow true in
set_option sl_exec.dmaWindowLent true in
set_option sl_exec.rejoinStated true in
theorem ring_first (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000)
    (k : Fin (Scf.trips k0_t2_loop.lb k0_t2_loop.ub k0_t2_loop.st)) (hk : k.val = 0) (acc : Unit) :
    ringInv D k.val acc ⊢ wp frame (wpE (defs₀ (F := F)) 𝒱₀ (thr d L) none) Set.univ
      (k0_t2_body (F := F) L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 (iota .scVector S16 32 [0] iota_S16_d0_w32_scVector) k acc)
      (ringInv D (k.val + 1)) := by
  have hpost : ringInv D (k.val + 1) = fun (a : Unit) => (iprop(Transfers.MayWaits (thr d L) none D.O
      ∗ ((sI).view.loc (thr d L) ↦{fullShare} D.fI)
      ∗ (D.busy 0 lt4_0 cc0_scratch4 (4 * (k.val + 1)) (by omega) ∗ D.busy 1 lt4_1 cc0_scratch5 (4 * (k.val + 1) + 1) (by omega)
        ∗ D.busy 2 lt4_2 cc0_scratch6 (4 * (k.val + 1) + 2) (by omega) ∗ D.free 3 lt4_3 cc0_scratch7)
      ∗ (D.writing 0 lt2_0 cc0_scratch8 (4 * (k.val + 1) - 2) (by omega) ∗ D.writing 1 lt2_1 cc0_scratch9 (4 * (k.val + 1) - 1) (by omega)
        ∗ D.outRest (k.val + 1) (by omega) (by omega))
      ∗ ∃ W', ⌜∀ p ∈ W', p ∈ D.W ∨ p.2 = none⌝ ∗ owes (thr d L) D.O W') : sProp 𝕄) := by
    funext a
    unfold ringInv RingData.gPart RingData.wPart
    rw [dif_pos (by omega : k.val + 1 < 50), dif_neg (by omega : ¬ (k.val + 1 = 0)), dif_pos (by omega : k.val + 1 ≤ 50)]
  generalize ringInv D (k.val + 1) = POST at hpost ⊢
  sl_respell [k0_t2_body]
  simp only [k0_part41_eq_skeleton, k0_part42_eq_skeleton, k0_part43_eq_skeleton]
  unfold k0_part41_skel k0_part42_skel k0_part43_skel
  simp only [Prog.bind_assoc]
  unfold ringInv RingData.gPart RingData.wPart
  rw [dif_pos (by omega : k.val < 50), dif_pos hk]
  unfold RingData.busy RingData.free idleSlot
  iintro ⟨#Hmw, HsI, ⟨⟨⟨%c0, %hg0, Hg0⟩, Ht0, Hq0⟩, ⟨⟨%c1, %hg1, Hg1⟩, Ht1, Hq1⟩, ⟨⟨%c2, %hg2, Hg2⟩, Ht2, Hq2⟩, ⟨Hc3, ⟨%c3, Hp3⟩, Ht3, Hq3⟩⟩,
      ⟨⟨Hw0, ⟨%o0, Ho0⟩⟩, ⟨Hw1, ⟨%o1, Ho1⟩⟩, ⟨%og, Hres⟩⟩, ⟨%W', %hW', HO⟩⟩
  have k0_h1 : k0_cond1 k = 1#1 := cond1_eq k
  have k0_h2 : ¬ k0_cond2 k = 1#1 := fun h => by have := (cond2_eq k).1 h; omega
  have k0_h3 : k0_cond3 k = 1#1 := (cond3_eq k).2 (by omega)
  have k0_h4 : ¬ k0_cond4 k = 1#1 := fun h => by have := (cond4_eq k).1 h; omega
  have k0_h5 : k0_cond5 k = 1#1 := (cond5_eq k).2 (by omega)
  have k0_h6 : k0_cond6 k = 1#1 := cond6_eq k
  have k0_h7 : k0_cond7 k = 1#1 := (cond7_eq k).2 (by omega)
  have k0_h8 : k0_cond8 k = 1#1 := cond8_eq k
  have hin := RingFirst.hin_of (F := F) d L D.fq hfq
  have hv3 : ∀ l : Fin 16, (iota Kind.scVector S16 32 [0] iota_S16_d0_w32_scVector) (ix1 l) = BitVec.ofNat 32 l.val :=
    fun l => iota_single_apply .scVector S16 32 0 iota_S16_d0_w32_scVector (ix1 l)
  have pts_g : ∀ (s : Nat) (hs : s < 4) (inb) (c : Buf (Elt F) ((thr d L).loc cc0_scratch2)), ((sG).view.loc (thr d L) ↦[(slotGn s inb).view.set]{fullShare} c : sProp 𝕄)
      = ((slotG s hs).view.loc (thr d L) ↦[(slotG s hs).view.set]{fullShare} c) := fun _ _ _ _ => rfl
  have pts_o : ∀ (b : Nat) (hb : b < 2) (inb) (c : Buf (Elt F) ((thr d L).loc cc0_scratch3)), ((sO).view.loc (thr d L) ↦[(slotOn b inb).view.set]{fullShare} c : sProp 𝕄)
      = ((slotO b hb).view.loc (thr d L) ↦[(slotO b hb).view.set]{fullShare} c) := fun _ _ _ _ => rfl
  sl_exec
  -- step 0
  sl_rw [Prog.bind_assoc]
  sl_for (extractInv_0 (F := F) d L k D.fI c0) $$ [HsI Hg0_dst Ho0]
  case region => exact extract_region_0 d L _ hv3 _ _ k _ D.fI c0
  · iapply (extract_intro_0 d L k D.fI c0 _)
    isplitl [HsI]; · iexact HsI
    isplitl [Hg0_dst]; · iexact Hg0_dst
    iexact Ho0
  iintro %accX0 HInv
  have h8_0 : Scf.trips k0_t3_loop.lb k0_t3_loop.ub k0_t3_loop.st = 8 := by decide
  have e8_0 : extractInv_0 (F := F) d L k D.fI c0 (Scf.trips k0_t3_loop.lb k0_t3_loop.ub k0_t3_loop.st) accX0 = extractInv_0 (F := F) d L k D.fI c0 8 () := by rw [h8_0]
  ihave HInv := (Entails.of_eq e8_0) $$ HInv
  ihave HInv := (extract_elim_0 d L k D.fI c0) $$ HInv
  icases HInv with ⟨HsI, Hg0_dst, %o0', HO0, %hval0⟩
  ihave Hg0_dst := (Entails.of_eq (pts_g 0 lt4_0 _ c0)) $$ Hg0_dst
  ihave HO0 := (Entails.of_eq (pts_o 0 lt2_0 _ o0')) $$ HO0
  have hsubR0 : (((oV.slice (Rect.unit (s := S200x32x4096) (k0_off38 L k 0#32) S1x32x128.size (k0_off38_inb L k 0)) (fun _ => rfl)).squeeze S32x128 squeezes_S1x32x128_S32x128).view.set : Finset S200x32x4096.Idx) ⊆ (oSet L : Finset S200x32x4096.Idx) := by
    intro i hi
    have hm := (prow_mem L _ (4 * k.val + 0) (by omega) (k0_off38_eq L k 0) _ _ i).1 hi
    exact (oSet_mem' L i).2 ⟨hm.2.1, hm.2.2⟩
  ihave Hres := (pointsTo_split_subset (ℓ := (oV).view.loc (thr d L)) hsubR0).1 $$ Hres
  icases Hres with ⟨HR0, Hres⟩
  have pts_r0 : ∀ c : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} c : sProp 𝕄)
      = (((oV.slice (Rect.unit (s := S200x32x4096) (k0_off38 L k 0#32) S1x32x128.size (k0_off38_inb L k 0)) (fun _ => rfl)).squeeze S32x128 squeezes_S1x32x128_S32x128).view.loc (thr d L) ↦[((oV.slice (Rect.unit (s := S200x32x4096) (k0_off38 L k 0#32) S1x32x128.size (k0_off38_inb L k 0)) (fun _ => rfl)).squeeze S32x128 squeezes_S1x32x128_S32x128).view.set]{fullShare} c) := fun _ => rfl
  ihave HR0 := (Entails.of_eq (pts_r0 og)) $$ HR0
  sl_exec
  -- step 1
  sl_rw [Prog.bind_assoc]
  sl_for (extractInv_1 (F := F) d L k D.fI c1) $$ [HsI Hg1_dst Ho1]
  case region => exact extract_region_1 d L _ hv3 k _ _ D.fI c1
  · iapply (extract_intro_1 d L k D.fI c1 _)
    isplitl [HsI]; · iexact HsI
    isplitl [Hg1_dst]; · iexact Hg1_dst
    iexact Ho1
  iintro %accX1 HInv
  have h8_1 : Scf.trips k0_t4_loop.lb k0_t4_loop.ub k0_t4_loop.st = 8 := by decide
  have e8_1 : extractInv_1 (F := F) d L k D.fI c1 (Scf.trips k0_t4_loop.lb k0_t4_loop.ub k0_t4_loop.st) accX1 = extractInv_1 (F := F) d L k D.fI c1 8 () := by rw [h8_1]
  ihave HInv := (Entails.of_eq e8_1) $$ HInv
  ihave HInv := (extract_elim_1 d L k D.fI c1) $$ HInv
  icases HInv with ⟨HsI, Hg1_dst, %o1', HO1, %hval1⟩
  ihave Hg1_dst := (Entails.of_eq (pts_g 1 lt4_1 _ c1)) $$ Hg1_dst
  ihave HO1 := (Entails.of_eq (pts_o 1 lt2_1 _ o1')) $$ HO1
  have hsubR1 : (((oV.slice (Rect.unit (s := S200x32x4096) (k0_off38 L k 1#32) S1x32x128.size (k0_off38_inb L k 1)) (fun _ => rfl)).squeeze S32x128 squeezes_S1x32x128_S32x128).view.set : Finset S200x32x4096.Idx) ⊆ ((oSet L \ ((oV.slice (Rect.unit (s := S200x32x4096) (k0_off38 L k 0#32) S1x32x128.size (k0_off38_inb L k 0)) (fun _ => rfl)).squeeze S32x128 squeezes_S1x32x128_S32x128).view.set) : Finset S200x32x4096.Idx) := by
    intro i hi
    have hm := (prow_mem L _ (4 * k.val + 1) (by omega) (k0_off38_eq L k 1) _ _ i).1 hi
    refine Finset.mem_sdiff.2 ⟨(oSet_mem' L i).2 ⟨hm.2.1, hm.2.2⟩, ?_⟩
    · intro h'; have := ((prow_mem L _ (4 * k.val + 0) (by omega) (k0_off38_eq L k 0) _ _ i).1 h').1; omega
  ihave Hres := (pointsTo_split_subset (ℓ := (oV).view.loc (thr d L)) hsubR1).1 $$ Hres
  icases Hres with ⟨HR1, Hres⟩
  have pts_r1 : ∀ c : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} c : sProp 𝕄)
      = (((oV.slice (Rect.unit (s := S200x32x4096) (k0_off38 L k 1#32) S1x32x128.size (k0_off38_inb L k 1)) (fun _ => rfl)).squeeze S32x128 squeezes_S1x32x128_S32x128).view.loc (thr d L) ↦[((oV.slice (Rect.unit (s := S200x32x4096) (k0_off38 L k 1#32) S1x32x128.size (k0_off38_inb L k 1)) (fun _ => rfl)).squeeze S32x128 squeezes_S1x32x128_S32x128).view.set]{fullShare} c) := fun _ => rfl
  ihave HR1 := (Entails.of_eq (pts_r1 og)) $$ HR1
  sl_exec
  -- step 2
  sl_rw [Prog.bind_assoc]
  sl_for (extractInv_2 (F := F) d L k D.fI c2) $$ [HsI Hg2_dst HO0]
  case region => exact extract_region_2 d L _ hv3 k _ _ _ D.fI c2
  · iapply (extract_intro_2 d L k D.fI c2 _)
    isplitl [HsI]; · iexact HsI
    isplitl [Hg2_dst]; · iexact Hg2_dst
    iexact HO0
  iintro %accX2 HInv
  have h8_2 : Scf.trips k0_t5_loop.lb k0_t5_loop.ub k0_t5_loop.st = 8 := by decide
  have e8_2 : extractInv_2 (F := F) d L k D.fI c2 (Scf.trips k0_t5_loop.lb k0_t5_loop.ub k0_t5_loop.st) accX2 = extractInv_2 (F := F) d L k D.fI c2 8 () := by rw [h8_2]
  ihave HInv := (Entails.of_eq e8_2) $$ HInv
  ihave HInv := (extract_elim_2 d L k D.fI c2) $$ HInv
  icases HInv with ⟨HsI, Hg2_dst, %o2', HO2, %hval2⟩
  ihave Hg2_dst := (Entails.of_eq (pts_g 2 lt4_2 _ c2)) $$ Hg2_dst
  ihave HO2 := (Entails.of_eq (pts_o 0 lt2_0 _ o2')) $$ HO2
  have hsubR2 : (((oV.slice (Rect.unit (s := S200x32x4096) (k0_off38 L k 2#32) S1x32x128.size (k0_off38_inb L k 2)) (fun _ => rfl)).squeeze S32x128 squeezes_S1x32x128_S32x128).view.set : Finset S200x32x4096.Idx) ⊆ (((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) : Finset S200x32x4096.Idx) := by
    intro i hi
    have hm := (prow_mem L _ (4 * k.val + 2) (by omega) (k0_off38_eq L k 2) _ _ i).1 hi
    refine Finset.mem_sdiff.2 ⟨Finset.mem_sdiff.2 ⟨(oSet_mem' L i).2 ⟨hm.2.1, hm.2.2⟩, ?_⟩, ?_⟩
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
  ihave Hres := (pointsTo_split_subset (ℓ := (oV).view.loc (thr d L)) hsubR2).1 $$ Hres
  icases Hres with ⟨HR2, Hres⟩
  have pts_r2 : ∀ c : Buf (Elt F) (oLoc d), ((oV).view.loc (thr d L) ↦[((oV.slice (Rect.unit (s := S200x32x4096) (k0_off38 L k 2#32) S1x32x128.size (k0_off38_inb L k 2)) (fun _ => rfl)).squeeze S32x128 squeezes_S1x32x128_S32x128).view.set]{fullShare} c : sProp 𝕄)
      = (((oV.slice (Rect.unit (s := S200x32x4096) (k0_off38 L k 2#32) S1x32x128.size (k0_off38_inb L k 2)) (fun _ => rfl)).squeeze S32x128 squeezes_S1x32x128_S32x128).view.loc (thr d L) ↦[((oV.slice (Rect.unit (s := S200x32x4096) (k0_off38 L k 2#32) S1x32x128.size (k0_off38_inb L k 2)) (fun _ => rfl)).squeeze S32x128 squeezes_S1x32x128_S32x128).view.set]{fullShare} c) := fun _ => rfl
  ihave HR2 := (Entails.of_eq (pts_r2 og)) $$ HR2
  sl_exec
  -- step 3: slot 3's gathered rows, named
  ihave Hg3_dst : iprop(∃ c3n : Buf (Elt F) ((thr d L).loc cc0_scratch2), ((sG).view.loc (thr d L) ↦[(slotGn 3 inb_S4x128x128_S1x128x128_3_0_0).view.set]{fullShare} c3n) ∗ ⌜D.gathered 3 lt4_3 (4 * k.val + 3) (by omega) c3n⌝) $$ [Hp3]
  · iexists _
    isplitl [Hp3]; · iexact Hp3
    ipureintro
    unfold ring_first.sl.gather0
    exact gathered_off D 3 lt4_3 (4 * k.val + 3) (by omega) _ (k0_off3_eq k) _ _ _ _
  icases Hg3_dst with ⟨%c3n, Hg3_dst, %hgath3⟩
  sl_for (extractInv_3 (F := F) d L k D.fI c3n) $$ [HsI Hg3_dst HO1]
  case region => exact extract_region_3 d L _ hv3 k _ D.fI c3n
  · iapply (extract_intro_3 d L k D.fI c3n _)
    isplitl [HsI]; · iexact HsI
    isplitl [Hg3_dst]; · iexact Hg3_dst
    iexact HO1
  iintro %accX3 HInv
  have h8_3 : Scf.trips k0_t6_loop.lb k0_t6_loop.ub k0_t6_loop.st = 8 := by decide
  have e8_3 : extractInv_3 (F := F) d L k D.fI c3n (Scf.trips k0_t6_loop.lb k0_t6_loop.ub k0_t6_loop.st) accX3 = extractInv_3 (F := F) d L k D.fI c3n 8 () := by rw [h8_3]
  ihave HInv := (Entails.of_eq e8_3) $$ HInv
  ihave HInv := (extract_elim_3 d L k D.fI c3n) $$ HInv
  icases HInv with ⟨HsI, Hg3_dst, %o3', HO3, %hval3⟩
  ihave Hg3_dst := (Entails.of_eq (pts_g 3 lt4_3 _ c3n)) $$ Hg3_dst
  ihave HO3 := (Entails.of_eq (pts_o 1 lt2_1 _ o3')) $$ HO3
  have hsubR3 : (((oV.slice (Rect.unit (s := S200x32x4096) (k0_off38 L k 3#32) S1x32x128.size (k0_off38_inb L k 3)) (fun _ => rfl)).squeeze S32x128 squeezes_S1x32x128_S32x128).view.set : Finset S200x32x4096.Idx) ⊆ ((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) : Finset S200x32x4096.Idx) := by
    intro i hi
    have hm := (prow_mem L _ (4 * k.val + 3) (by omega) (k0_off38_eq L k 3) _ _ i).1 hi
    refine Finset.mem_sdiff.2 ⟨Finset.mem_sdiff.2 ⟨Finset.mem_sdiff.2 ⟨(oSet_mem' L i).2 ⟨hm.2.1, hm.2.2⟩, ?_⟩, ?_⟩, ?_⟩
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
    · intro h'; have := ((prow_mem L _ (4 * k.val + 2) (by omega) (k0_off38_eq L k 2) _ _ i).1 h').1; omega
  ihave Hres := (pointsTo_split_subset (ℓ := (oV).view.loc (thr d L)) hsubR3).1 $$ Hres
  icases Hres with ⟨HR3, Hres⟩
  have pts_r3 : ∀ c : Buf (Elt F) (oLoc d), ((oV).view.loc (thr d L) ↦[((oV.slice (Rect.unit (s := S200x32x4096) (k0_off38 L k 3#32) S1x32x128.size (k0_off38_inb L k 3)) (fun _ => rfl)).squeeze S32x128 squeezes_S1x32x128_S32x128).view.set]{fullShare} c : sProp 𝕄)
      = (((oV.slice (Rect.unit (s := S200x32x4096) (k0_off38 L k 3#32) S1x32x128.size (k0_off38_inb L k 3)) (fun _ => rfl)).squeeze S32x128 squeezes_S1x32x128_S32x128).view.loc (thr d L) ↦[((oV.slice (Rect.unit (s := S200x32x4096) (k0_off38 L k 3#32) S1x32x128.size (k0_off38_inb L k 3)) (fun _ => rfl)).squeeze S32x128 squeezes_S1x32x128_S32x128).view.set]{fullShare} c) := fun _ => rfl
  ihave HR3 := (Entails.of_eq (pts_r3 og)) $$ HR3
  sl_exec
  rw [wp_ret]; imodintro
  rw [hpost]
  iclear Hg0_dst
  iclear Hg1_dst
  iclear Hg2_dst
  -- the three gathers in flight
  have hG0 : D.gathered 0 lt4_0 (4 * k.val + 4) (by omega) ((slotG 0 lt4_0).view.writes (Elt F) c0 [⟨Rect.whole S128x128, ring_first.sl.gather1 d L D k k0_h3 hin⟩]) := by
    unfold ring_first.sl.gather1
    exact gathered_off D 0 lt4_0 (4 * k.val + 4) (by omega) _ (k0_off39_eq k) _ _ _ c0
  have hG1 : D.gathered 1 lt4_1 (4 * k.val + 5) (by omega) ((slotG 1 lt4_1).view.writes (Elt F) c1 [⟨Rect.whole S128x128, ring_first.sl.gather1_1 d L D k k0_h5 hin⟩]) := by
    unfold ring_first.sl.gather1_1
    exact gathered_off D 1 lt4_1 (4 * k.val + 5) (by omega) _ (k0_off74_eq k) _ _ _ c1
  have hG2 : D.gathered 2 lt4_2 (4 * k.val + 6) (by omega) ((slotG 2 lt4_2).view.writes (Elt F) c2 [⟨Rect.whole S128x128, ring_first.sl.gather1_2 d L D k k0_h7 hin⟩]) := by
    unfold ring_first.sl.gather1_2
    exact gathered_off D 2 lt4_2 (4 * k.val + 6) (by omega) _ (k0_off109_eq k) _ _ _ c2
  ihave Hb0 := (busy_of_prog D 0 lt4_0 cc0_scratch4 (k0_off39 k) (4 * k.val + 4) (by omega) (k0_off39_eq k) _ _ _ hG0) $$ [Hg0 Ht0 Hq0]
  · isplitl [Hg0]; · iexact Hg0
    isplitl [Ht0]; · iexact Ht0
    iexact Hq0
  ihave Hb0 := (RingFirst.busy_cast d L D 0 lt4_0 cc0_scratch4 _ (by omega) (by omega : 4 * k.val + 4 = 4 * (k.val + 1))) $$ Hb0
  ihave Hb1 := (busy_of_prog D 1 lt4_1 cc0_scratch5 (k0_off74 k) (4 * k.val + 5) (by omega) (k0_off74_eq k) _ _ _ hG1) $$ [Hg1 Ht1 Hq1]
  · isplitl [Hg1]; · iexact Hg1
    isplitl [Ht1]; · iexact Ht1
    iexact Hq1
  ihave Hb1 := (RingFirst.busy_cast d L D 1 lt4_1 cc0_scratch5 _ (by omega) (by omega : 4 * k.val + 5 = 4 * (k.val + 1) + 1)) $$ Hb1
  ihave Hb2 := (busy_of_prog D 2 lt4_2 cc0_scratch6 (k0_off109 k) (4 * k.val + 6) (by omega) (k0_off109_eq k) _ _ _ hG2) $$ [Hg2 Ht2 Hq2]
  · isplitl [Hg2]; · iexact Hg2
    isplitl [Ht2]; · iexact Ht2
    iexact Hq2
  ihave Hb2 := (RingFirst.busy_cast d L D 2 lt4_2 cc0_scratch6 _ (by omega) (by omega : 4 * k.val + 6 = 4 * (k.val + 1) + 2)) $$ Hb2
  -- the two write-outs in flight: positions 4k+2 and 4k+3
  have hpay2 : ∀ (dd : Fin 32) (col : Fin 128), ring_first.sl.dma0_2 d L o2' (ix2 dd col) = o2' (ix3 (⟨0, lt2_0⟩ : Fin 2) dd col) := by
    intro dd col; unfold ring_first.sl.dma0_2; exact slotO_read 0 lt2_0 o2' dd col
  have hpay3 : ∀ (dd : Fin 32) (col : Fin 128), ring_first.sl.dma0_3 d L o3' (ix2 dd col) = o3' (ix3 (⟨1, lt2_1⟩ : Fin 2) dd col) := by
    intro dd col; unfold ring_first.sl.dma0_3; exact slotO_read 1 lt2_1 o3' dd col
  have hD2 : D.rowDone (4 * k.val + 2) (by omega) (((oV.slice (Rect.unit (s := S200x32x4096) (k0_off38 L k 2#32) S1x32x128.size (k0_off38_inb L k 2)) (fun _ => rfl)).squeeze S32x128 squeezes_S1x32x128_S32x128).view.writes (Elt F) og [⟨Rect.whole S32x128, ring_first.sl.dma0_2 d L o2'⟩]) :=
    rowDone_written_off D hfI hq hix 2 lt4_2 0 lt2_0 (4 * k.val + 2) (by omega) (k0_off38 L k 2#32) (k0_off38_eq L k 2) (k0_off38_inb L k 2) c2 hg2 o2'
      (fun dd col q hq' => (hval2 dd col).trans (congrArg (fun x => c2 (ix3 (2 : Fin 4) col x)) (Fin.ext hq'.symm))) og _ hpay2
  have hD3 : D.rowDone (4 * k.val + 3) (by omega) (((oV.slice (Rect.unit (s := S200x32x4096) (k0_off38 L k 3#32) S1x32x128.size (k0_off38_inb L k 3)) (fun _ => rfl)).squeeze S32x128 squeezes_S1x32x128_S32x128).view.writes (Elt F) og [⟨Rect.whole S32x128, ring_first.sl.dma0_3 d L o3'⟩]) :=
    rowDone_written_off D hfI hq hix 3 lt4_3 1 lt2_1 (4 * k.val + 3) (by omega) (k0_off38 L k 3#32) (k0_off38_eq L k 3) (k0_off38_inb L k 3) c3n hgath3 o3'
      (fun dd col q hq' => (hval3 dd col).trans (congrArg (fun x => c3n (ix3 (3 : Fin 4) col x)) (Fin.ext hq'.symm))) og _ hpay3
  ihave Hwr0 := (writing_of_prog D 0 lt2_0 cc0_scratch8 (k0_off38 L k 2#32) (4 * k.val + 2) (by omega) (k0_off38_eq L k 2) (k0_off38_inb L k 2) (fun _ => rfl) _ o2' hD2) $$ [Hw0]
  · iexact Hw0
  ihave Hwr0 := (RingFirst.writing_cast d L D 0 lt2_0 cc0_scratch8 _ (by omega) (by omega : 4 * k.val + 2 = 4 * (k.val + 1) - 2)) $$ Hwr0
  ihave Hwr1 := (writing_of_prog D 1 lt2_1 cc0_scratch9 (k0_off38 L k 3#32) (4 * k.val + 3) (by omega) (k0_off38_eq L k 3) (k0_off38_inb L k 3) (fun _ => rfl) _ o3' hD3) $$ [Hw1]
  · iexact Hw1
  ihave Hwr1 := (RingFirst.writing_cast d L D 1 lt2_1 cc0_scratch9 _ (by omega) (by omega : 4 * k.val + 3 = 4 * (k.val + 1) - 1)) $$ Hwr1
  -- the rows the tile holds itself: the rest and the two rows landed (positions 4k and 4k+1)
  have hpay0 : ∀ (dd : Fin 32) (col : Fin 128), ring_first.sl.dma0 d L o0' (ix2 dd col) = o0' (ix3 (⟨0, lt2_0⟩ : Fin 2) dd col) := by
    intro dd col; unfold ring_first.sl.dma0; exact slotO_read 0 lt2_0 o0' dd col
  have hpay1 : ∀ (dd : Fin 32) (col : Fin 128), ring_first.sl.dma0_1 d L o1' (ix2 dd col) = o1' (ix3 (⟨1, lt2_1⟩ : Fin 2) dd col) := by
    intro dd col; unfold ring_first.sl.dma0_1; exact slotO_read 1 lt2_1 o1' dd col
  have hD0 : D.rowDone (4 * k.val + 0) (by omega) (((oV.slice (Rect.unit (s := S200x32x4096) (k0_off38 L k 0#32) S1x32x128.size (k0_off38_inb L k 0)) (fun _ => rfl)).squeeze S32x128 squeezes_S1x32x128_S32x128).view.writes (Elt F) ((oV.slice (Rect.unit (s := S200x32x4096) (k0_off38 L k 0#32) S1x32x128.size (k0_off38_inb L k 0)) (fun _ => rfl)).squeeze S32x128 squeezes_S1x32x128_S32x128).view.junk [⟨Rect.whole S32x128, ring_first.sl.dma0 d L o0'⟩]) :=
    rowDone_written_off D hfI hq hix 0 lt4_0 0 lt2_0 (4 * k.val + 0) (by omega) (k0_off38 L k 0#32) (k0_off38_eq L k 0) (k0_off38_inb L k 0) c0 hg0 o0'
      (fun dd col q hq' => (hval0 dd col).trans (congrArg (fun x => c0 (ix3 (0 : Fin 4) col x)) (Fin.ext hq'.symm))) _ _ hpay0
  have hD1 : D.rowDone (4 * k.val + 1) (by omega) (((oV.slice (Rect.unit (s := S200x32x4096) (k0_off38 L k 1#32) S1x32x128.size (k0_off38_inb L k 1)) (fun _ => rfl)).squeeze S32x128 squeezes_S1x32x128_S32x128).view.writes (Elt F) ((oV.slice (Rect.unit (s := S200x32x4096) (k0_off38 L k 1#32) S1x32x128.size (k0_off38_inb L k 1)) (fun _ => rfl)).squeeze S32x128 squeezes_S1x32x128_S32x128).view.junk [⟨Rect.whole S32x128, ring_first.sl.dma0_1 d L o1'⟩]) :=
    rowDone_written_off D hfI hq hix 1 lt4_1 1 lt2_1 (4 * k.val + 1) (by omega) (k0_off38 L k 1#32) (k0_off38_eq L k 1) (k0_off38_inb L k 1) c1 hg1 o1'
      (fun dd col q hq' => (hval1 dd col).trans (congrArg (fun x => c1 (ix3 (1 : Fin 4) col x)) (Fin.ext hq'.symm))) _ _ hpay1
  have hm0 := fun i => prow_mem L (k0_off38 L k 0#32) (4 * k.val + 0) (by omega) (k0_off38_eq L k 0) (k0_off38_inb L k 0) (fun _ => rfl) i
  have hm1 := fun i => prow_mem L (k0_off38 L k 1#32) (4 * k.val + 1) (by omega) (k0_off38_eq L k 1) (k0_off38_inb L k 1) (fun _ => rfl) i
  have hm2 := fun i => prow_mem L (k0_off38 L k 2#32) (4 * k.val + 2) (by omega) (k0_off38_eq L k 2) (k0_off38_inb L k 2) (fun _ => rfl) i
  have hm3 := fun i => prow_mem L (k0_off38 L k 3#32) (4 * k.val + 3) (by omega) (k0_off38_eq L k 3) (k0_off38_inb L k 3) (fun _ => rfl) i
  have hdisjA : Disjoint (((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) : Finset S200x32x4096.Idx) (((oV.slice (Rect.unit (s := S200x32x4096) (k0_off38 L k 0#32) S1x32x128.size (k0_off38_inb L k 0)) (fun _ => rfl)).squeeze S32x128 squeezes_S1x32x128_S32x128).view.set : Finset S200x32x4096.Idx) := by
    rw [Finset.disjoint_left]
    intro i hi hi0
    simp only [Finset.mem_sdiff] at hi
    exact hi.1.1.1.2 hi0
  have hdisjB : Disjoint ((((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) : Finset S200x32x4096.Idx) ∪ (((oV.slice (Rect.unit (s := S200x32x4096) (k0_off38 L k 0#32) S1x32x128.size (k0_off38_inb L k 0)) (fun _ => rfl)).squeeze S32x128 squeezes_S1x32x128_S32x128).view.set : Finset S200x32x4096.Idx)) (((oV.slice (Rect.unit (s := S200x32x4096) (k0_off38 L k 1#32) S1x32x128.size (k0_off38_inb L k 1)) (fun _ => rfl)).squeeze S32x128 squeezes_S1x32x128_S32x128).view.set : Finset S200x32x4096.Idx) := by
    rw [Finset.disjoint_left]
    intro i hi hi1
    rcases Finset.mem_union.mp hi with hi | hi
    · simp only [Finset.mem_sdiff] at hi
      exact hi.1.1.2 hi1
    · have a := (hm0 i).1 hi; have b := (hm1 i).1 hi1; omega
  ihave Hj := (pointsTo_join (Ix := HIx 1) (Val := Elt F) (Name := ℕ) (U := UU) (Lvl := ℕ) (ℓ := (oV).view.loc (thr d L)) (q := fullShare) hdisjA) $$ [Hres HR0]
  · isplitl [Hres]; · iexact Hres
    iexact HR0
  ihave Hj := (pointsTo_join (Ix := HIx 1) (Val := Elt F) (Name := ℕ) (U := UU) (Lvl := ℕ) (ℓ := (oV).view.loc (thr d L)) (q := fullShare) hdisjB) $$ [Hj HR1]
  · isplitl [Hj]; · iexact Hj
    iexact HR1
  have hset : (((((((oSet L \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) : Finset S200x32x4096.Idx) ∪ (((oV.slice (Rect.unit (s := S200x32x4096) (k0_off38 L k 0#32) S1x32x128.size (k0_off38_inb L k 0)) (fun _ => rfl)).squeeze S32x128 squeezes_S1x32x128_S32x128).view.set : Finset S200x32x4096.Idx)) ∪ (((oV.slice (Rect.unit (s := S200x32x4096) (k0_off38 L k 1#32) S1x32x128.size (k0_off38_inb L k 1)) (fun _ => rfl)).squeeze S32x128 squeezes_S1x32x128_S32x128).view.set : Finset S200x32x4096.Idx))
      = (((oSet L : Finset S200x32x4096.Idx) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) := by
    ext i
    simp only [Finset.mem_union, Finset.mem_sdiff, hm0, hm1, hm2, hm3, oSet_mem']
    omega
  rw [hset]
  ihave Hor := (outRest_of_prog D (k.val + 1) (by omega) (by omega) (k0_off38 L k 2#32) (k0_off38 L k 3#32)
      ((k0_off38_eq L k 2).trans (congrArg (fun n => (![n, 0, col0 L] : Fin 3 → Nat)) (by show 4 * k.val + 2 = 4 * (k.val + 1) - 2; omega)))
      ((k0_off38_eq L k 3).trans (congrArg (fun n => (![n, 0, col0 L] : Fin 3 → Nat)) (by show 4 * k.val + 3 = 4 * (k.val + 1) - 1; omega)))
      (k0_off38_inb L k 2) (fun _ => rfl) (k0_off38_inb L k 3) (fun _ => rfl) _
      (fun h hh hlt => by
        have hcase : h = 4 * k.val + 0 ∨ h = 4 * k.val + 1 := by omega
        rcases hcase with rfl | rfl
        · exact rowDone_piecewise D _ _ _ _ _ (fun i hi h1 => by
            have a := (outRow_mem L _ _ i).1 hi; have b := (hm1 i).1 h1; omega)
            (rowDone_piecewise_in D _ _ _ _ _ (fun i hi => (hm0 i).2 ((outRow_mem L _ _ i).1 hi)) hD0)
        · exact rowDone_piecewise_in D _ _ _ _ _ (fun i hi => (hm1 i).2 ((outRow_mem L _ _ i).1 hi)) hD1)) $$ Hj
  -- the invariant before the next trip
  isplitl []; · iexact Hmw
  isplitl [HsI]; · iexact HsI
  isplitl [Hb0 Hb1 Hb2 Hc3 Hg3_dst Ht3 Hq3]
  · isplitl [Hb0]; · iexact Hb0
    isplitl [Hb1]; · iexact Hb1
    isplitl [Hb2]; · iexact Hb2
    unfold RingData.free
    isplitl [Hc3]; · iexact Hc3
    isplitl [Hg3_dst]; · iexists _; iexact Hg3_dst
    isplitl [Ht3]; · iexact Ht3
    iexact Hq3
  isplitl [Hwr0 Hwr1 Hor]
  · isplitl [Hwr0]; · iexact Hwr0
    isplitl [Hwr1]; · iexact Hwr1
    iexact Hor
  iexists (insert ((SemLoc.dma cc0_scratch9.sem : SemLoc sig), (default : HIx 1)) (insert ((SemLoc.dma cc0_scratch7.sem : SemLoc sig), (default : HIx 1))
    (insert ((SemLoc.dma cc0_scratch8.sem : SemLoc sig), (default : HIx 1)) (insert ((SemLoc.dma cc0_scratch6.sem : SemLoc sig), (default : HIx 1))
      (insert ((SemLoc.dma cc0_scratch5.sem : SemLoc sig), (default : HIx 1)) (insert ((SemLoc.dma cc0_scratch4.sem : SemLoc sig), (default : HIx 1)) W'))))))
  isplitr [HO]
  · ipureintro
    intro p hp
    simp only [Finset.mem_insert] at hp
    rcases hp with h | h | h | h | h | h | h
    · right; rw [h]; rfl
    · right; rw [h]; rfl
    · right; rw [h]; rfl
    · right; rw [h]; rfl
    · right; rw [h]; rfl
    · right; rw [h]; rfl
    · exact hW' p h
  iexact HO

end Cert.Proof.Kernel

end
-- ==== Proof.KernelRingMid.lean ====
/-
  A middle trip of a tile's pipeline (trips 1 to 48 of 50): positions `4k … 4k+3`. Step `s` issues the gather of a later
  position into the slot that is free, waits for the gather of position `4k+s` and for the write-out that still holds
  the result slot it needs, extracts position `4k+s` into that slot and starts its write-out. The write-outs of rows
  `4k-2, 4k-1` (started by the trip before) and `4k, 4k+1` (started here) land during the trip; rows `4k+2, 4k+3` are in
  flight at its end. Each destination row is taken out of the tile's part of the result before its write-out and put
  back once it has landed; at the end the pieces in hand are put side by side again.
-/
import proofs.«206503_g81295140979383_cont_9to1c4b_414_34_alg».proof.Proof.KernelRingInv
import proofs.«206503_g81295140979383_cont_9to1c4b_414_34_alg».proof.Proof.KernelRowVal
import proofs.«206503_g81295140979383_cont_9to1c4b_414_34_alg».proof.Proof.KernelQLoop
import proofs.«206503_g81295140979383_cont_9to1c4b_414_34_alg».proof.Proof.KernelRingLib
import proofs.«206503_g81295140979383_cont_9to1c4b_414_34_alg».proof.Proof.KernelRingFacts
import proofs.«206503_g81295140979383_cont_9to1c4b_414_34_alg».proof.Proof.KernelExtract0
import proofs.«206503_g81295140979383_cont_9to1c4b_414_34_alg».proof.Proof.KernelExtract1
import proofs.«206503_g81295140979383_cont_9to1c4b_414_34_alg».proof.Proof.KernelExtract2
import proofs.«206503_g81295140979383_cont_9to1c4b_414_34_alg».proof.Proof.KernelExtract3

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

variable [FloatOps F]
set_option maxHeartbeats 2000000 in
/-- The rows of the result a middle trip has in hand at its end — the rest it kept, the two rows whose write-outs it
    waited for first and the two it wrote and waited for — are the rest of the tile's part before the next trip. -/
theorem mid_rejoin (D : RingData (F := F) d L) (k : Fin (Scf.trips k0_t2_loop.lb k0_t2_loop.ub k0_t2_loop.st)) (hk : 0 < k.val ∧ k.val < 49)
    (hA : 4 * k.val - 2 < 200) (hB : 4 * k.val - 1 < 200) (og cw0 cw1 cC cD : Buf (Elt F) (oLoc d))
    (hog : ∀ (h : Nat) (hh : h < 200), h + 2 < 4 * k.val → D.rowDone h hh og)
    (hdA : D.rowDone (4 * k.val - 2) hA cw0) (hdB : D.rowDone (4 * k.val - 1) hB cw1)
    (hdC : D.rowDone (4 * k.val + 0) (by omega) cC) (hdD : D.rowDone (4 * k.val + 1) (by omega) cD) :
    iprop(((oV).view.loc (thr d L) ↦[(((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set]{fullShare} og) ∗ ((oV).view.loc (thr d L) ↦[(outRow L (4 * k.val - 2) hA).view.set]{fullShare} cw0) ∗ ((oV).view.loc (thr d L) ↦[(outRow L (4 * k.val - 1) hB).view.set]{fullShare} cw1)
      ∗ ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} cC) ∗ ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} cD))
      ⊢ (D.outRest (k.val + 1) (by omega) (by omega) : sProp 𝕄) := by
  have hk50 := t2_lt k
  have b2 : k0_off38 L k 2#32 = ![4 * (k.val + 1) - 2, 0, col0 L] := by rw [show 4 * (k.val + 1) - 2 = 4 * k.val + 2 by omega]; exact k0_off38_eq L k 2
  have b3 : k0_off38 L k 3#32 = ![4 * (k.val + 1) - 1, 0, col0 L] := by rw [show 4 * (k.val + 1) - 1 = 4 * k.val + 3 by omega]; exact k0_off38_eq L k 3
  -- one contents for all the pieces: row by row
  let fS : Buf (Elt F) (oLoc d) := fun i =>
    if (i 0).val = 4 * k.val - 2 then cw0 i else if (i 0).val = 4 * k.val - 1 then cw1 i
    else if (i 0).val = 4 * k.val then cC i else if (i 0).val = 4 * k.val + 1 then cD i else og i
  have mA : ∀ i : S200x32x4096.Idx, i ∈ (outRow L (4 * k.val - 2) hA).view.set ↔ (i 0).val = 4 * k.val - 2 ∧ col0 L ≤ (i 2).val ∧ (i 2).val < col0 L + 128 := fun i => outRow_mem L _ _ i
  have mB : ∀ i : S200x32x4096.Idx, i ∈ (outRow L (4 * k.val - 1) hB).view.set ↔ (i 0).val = 4 * k.val - 1 ∧ col0 L ≤ (i 2).val ∧ (i 2).val < col0 L + 128 := fun i => outRow_mem L _ _ i
  have m0 : ∀ i : S200x32x4096.Idx, i ∈ ((oV.slice (Rect.unit (s := S200x32x4096) (k0_off38 L k 0#32) S1x32x128.size (k0_off38_inb L k 0)) (fun _ => rfl)).squeeze S32x128 squeezes_S1x32x128_S32x128).view.set ↔ (i 0).val = 4 * k.val + 0 ∧ col0 L ≤ (i 2).val ∧ (i 2).val < col0 L + 128 := fun i => (prow_mem L _ (4 * k.val + 0) (by omega) (k0_off38_eq L k 0) _ _ i)
  have m1 : ∀ i : S200x32x4096.Idx, i ∈ ((oV.slice (Rect.unit (s := S200x32x4096) (k0_off38 L k 1#32) S1x32x128.size (k0_off38_inb L k 1)) (fun _ => rfl)).squeeze S32x128 squeezes_S1x32x128_S32x128).view.set ↔ (i 0).val = 4 * k.val + 1 ∧ col0 L ≤ (i 2).val ∧ (i 2).val < col0 L + 128 := fun i => (prow_mem L _ (4 * k.val + 1) (by omega) (k0_off38_eq L k 1) _ _ i)
  have m2 : ∀ i : S200x32x4096.Idx, i ∈ ((oV.slice (Rect.unit (s := S200x32x4096) (k0_off38 L k 2#32) S1x32x128.size (k0_off38_inb L k 2)) (fun _ => rfl)).squeeze S32x128 squeezes_S1x32x128_S32x128).view.set ↔ (i 0).val = 4 * k.val + 2 ∧ col0 L ≤ (i 2).val ∧ (i 2).val < col0 L + 128 := fun i => (prow_mem L _ (4 * k.val + 2) (by omega) (k0_off38_eq L k 2) _ _ i)
  have m3 : ∀ i : S200x32x4096.Idx, i ∈ ((oV.slice (Rect.unit (s := S200x32x4096) (k0_off38 L k 3#32) S1x32x128.size (k0_off38_inb L k 3)) (fun _ => rfl)).squeeze S32x128 squeezes_S1x32x128_S32x128).view.set ↔ (i 0).val = 4 * k.val + 3 ∧ col0 L ≤ (i 2).val ∧ (i 2).val < col0 L + 128 := fun i => (prow_mem L _ (4 * k.val + 3) (by omega) (k0_off38_eq L k 3) _ _ i)
  have mO := oSet_mem' L
  have eO : (((oV).view.loc (thr d L) ↦[(((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set]{fullShare} og : sProp 𝕄)) = ((oV).view.loc (thr d L) ↦[(((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set]{fullShare} fS) :=
    pointsTo_congr (fun i hi => by
      simp only [Finset.mem_sdiff, mA, mB, m0, m1, m2, m3, mO] at hi
      show og i = (if (i 0).val = 4 * k.val - 2 then cw0 i else if (i 0).val = 4 * k.val - 1 then cw1 i
        else if (i 0).val = 4 * k.val then cC i else if (i 0).val = 4 * k.val + 1 then cD i else og i)
      rw [if_neg (by omega), if_neg (by omega), if_neg (by omega), if_neg (by omega)])
  have eA : (((oV).view.loc (thr d L) ↦[(outRow L (4 * k.val - 2) hA).view.set]{fullShare} cw0 : sProp 𝕄)) = ((oV).view.loc (thr d L) ↦[(outRow L (4 * k.val - 2) hA).view.set]{fullShare} fS) :=
    pointsTo_congr (fun i hi => by
      have h1 := ((mA i).1 hi).1
      show cw0 i = (if (i 0).val = 4 * k.val - 2 then cw0 i else _)
      rw [if_pos h1])
  have eB : (((oV).view.loc (thr d L) ↦[(outRow L (4 * k.val - 1) hB).view.set]{fullShare} cw1 : sProp 𝕄)) = ((oV).view.loc (thr d L) ↦[(outRow L (4 * k.val - 1) hB).view.set]{fullShare} fS) :=
    pointsTo_congr (fun i hi => by
      have h1 := ((mB i).1 hi).1
      show cw1 i = (if (i 0).val = 4 * k.val - 2 then cw0 i else if (i 0).val = 4 * k.val - 1 then cw1 i else _)
      rw [if_neg (by omega), if_pos h1])
  have eC : (((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} cC : sProp 𝕄)) = ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} fS) :=
    pointsTo_congr (fun i hi => by
      have h1 := ((m0 i).1 hi).1
      show cC i = (if (i 0).val = 4 * k.val - 2 then cw0 i else if (i 0).val = 4 * k.val - 1 then cw1 i
        else if (i 0).val = 4 * k.val then cC i else _)
      rw [if_neg (by omega), if_neg (by omega), if_pos (by omega)])
  have eD : (((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} cD : sProp 𝕄)) = ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} fS) :=
    pointsTo_congr (fun i hi => by
      have h1 := ((m1 i).1 hi).1
      show cD i = (if (i 0).val = 4 * k.val - 2 then cw0 i else if (i 0).val = 4 * k.val - 1 then cw1 i
        else if (i 0).val = 4 * k.val then cC i else if (i 0).val = 4 * k.val + 1 then cD i else og i)
      rw [if_neg (by omega), if_neg (by omega), if_neg (by omega), if_pos h1])
  rw [eO, eA, eB, eC, eD]
  -- the pieces side by side are the tile's part less the two rows being written
  have d1 : Disjoint ((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set : Finset S200x32x4096.Idx) ((outRow L (4 * k.val - 2) hA).view.set) := Finset.disjoint_left.2 fun i h1 h2 => by
    simp only [Finset.mem_sdiff, mA, mB, m0, m1, m2, m3, mO] at h1 h2; omega
  have d2 : Disjoint (((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set : Finset S200x32x4096.Idx) ((outRow L (4 * k.val - 1) hB).view.set) := Finset.disjoint_left.2 fun i h1 h2 => by
    simp only [Finset.mem_union, Finset.mem_sdiff, mA, mB, m0, m1, m2, m3, mO] at h1 h2; omega
  have d3 : Disjoint ((((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set) ∪ (outRow L (4 * k.val - 1) hB).view.set : Finset S200x32x4096.Idx) (((oV.slice (Rect.unit (s := S200x32x4096) (k0_off38 L k 0#32) S1x32x128.size (k0_off38_inb L k 0)) (fun _ => rfl)).squeeze S32x128 squeezes_S1x32x128_S32x128).view.set) := Finset.disjoint_left.2 fun i h1 h2 => by
    simp only [Finset.mem_union, Finset.mem_sdiff, mA, mB, m0, m1, m2, m3, mO] at h1 h2; omega
  have d4 : Disjoint (((((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set) ∪ (outRow L (4 * k.val - 1) hB).view.set) ∪ ((oV.slice (Rect.unit (s := S200x32x4096) (k0_off38 L k 0#32) S1x32x128.size (k0_off38_inb L k 0)) (fun _ => rfl)).squeeze S32x128 squeezes_S1x32x128_S32x128).view.set : Finset S200x32x4096.Idx) (((oV.slice (Rect.unit (s := S200x32x4096) (k0_off38 L k 1#32) S1x32x128.size (k0_off38_inb L k 1)) (fun _ => rfl)).squeeze S32x128 squeezes_S1x32x128_S32x128).view.set) := Finset.disjoint_left.2 fun i h1 h2 => by
    simp only [Finset.mem_union, Finset.mem_sdiff, mA, mB, m0, m1, m2, m3, mO] at h1 h2; omega
  have hU : (((((((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set) ∪ (outRow L (4 * k.val - 2) hA).view.set) ∪ (outRow L (4 * k.val - 1) hB).view.set) ∪ ((oV.slice (Rect.unit (s := S200x32x4096) (k0_off38 L k 0#32) S1x32x128.size (k0_off38_inb L k 0)) (fun _ => rfl)).squeeze S32x128 squeezes_S1x32x128_S32x128).view.set) ∪ ((oV.slice (Rect.unit (s := S200x32x4096) (k0_off38 L k 1#32) S1x32x128.size (k0_off38_inb L k 1)) (fun _ => rfl)).squeeze S32x128 squeezes_S1x32x128_S32x128).view.set
      = ((oSet L : Finset S200x32x4096.Idx) \ ((oV.slice (Rect.unit (s := S200x32x4096) (k0_off38 L k 2#32) S1x32x128.size (k0_off38_inb L k 2)) (fun _ => rfl)).squeeze S32x128 squeezes_S1x32x128_S32x128).view.set) \ ((oV.slice (Rect.unit (s := S200x32x4096) (k0_off38 L k 3#32) S1x32x128.size (k0_off38_inb L k 3)) (fun _ => rfl)).squeeze S32x128 squeezes_S1x32x128_S32x128).view.set := by
    ext i
    simp only [Finset.mem_union, Finset.mem_sdiff, mA, mB, m0, m1, m2, m3, mO]
    omega
  -- every row below the two being written is done
  have hdoneAll : ∀ (h : Nat) (hh : h < 200), h + 2 < 4 * (k.val + 1) → D.rowDone h hh fS := by
    intro h hh hlt
    by_cases c1 : h = 4 * k.val - 2
    · subst c1
      exact rowDone_congr D _ hh cw0 fS (fun i hi => by
        have h1 := ((outRow_mem L _ _ i).1 hi).1
        show (if (i 0).val = 4 * k.val - 2 then cw0 i else _) = cw0 i
        rw [if_pos h1]) hdA
    by_cases c2 : h = 4 * k.val - 1
    · subst c2
      exact rowDone_congr D _ hh cw1 fS (fun i hi => by
        have h1 := ((outRow_mem L _ _ i).1 hi).1
        show (if (i 0).val = 4 * k.val - 2 then cw0 i else if (i 0).val = 4 * k.val - 1 then cw1 i else _) = cw1 i
        rw [if_neg (by omega), if_pos h1]) hdB
    by_cases c3 : h = 4 * k.val + 0
    · subst c3
      exact rowDone_congr D _ hh cC fS (fun i hi => by
        have h1 := ((outRow_mem L _ _ i).1 hi).1
        show (if (i 0).val = 4 * k.val - 2 then cw0 i else if (i 0).val = 4 * k.val - 1 then cw1 i
          else if (i 0).val = 4 * k.val then cC i else _) = cC i
        rw [if_neg (by omega), if_neg (by omega), if_pos (by omega)]) hdC
    by_cases c4 : h = 4 * k.val + 1
    · subst c4
      exact rowDone_congr D _ hh cD fS (fun i hi => by
        have h1 := ((outRow_mem L _ _ i).1 hi).1
        show (if (i 0).val = 4 * k.val - 2 then cw0 i else if (i 0).val = 4 * k.val - 1 then cw1 i
          else if (i 0).val = 4 * k.val then cC i else if (i 0).val = 4 * k.val + 1 then cD i else og i) = cD i
        rw [if_neg (by omega), if_neg (by omega), if_neg (by omega), if_pos h1]) hdD
    exact rowDone_congr D h hh og fS (fun i hi => by
      have h1 := ((outRow_mem L _ _ i).1 hi).1
      show (if (i 0).val = 4 * k.val - 2 then cw0 i else if (i 0).val = 4 * k.val - 1 then cw1 i
        else if (i 0).val = 4 * k.val then cC i else if (i 0).val = 4 * k.val + 1 then cD i else og i) = og i
      rw [if_neg (by omega), if_neg (by omega), if_neg (by omega), if_neg (by omega)]) (hog h hh (by omega))

  iintro ⟨H, HA, HB, HC, HD⟩
  ihave H := (pointsTo_union (Ix := HIx 1) (Val := Elt F) (Name := ℕ) (U := UU) (Lvl := ℕ) (ℓ := (oV).view.loc (thr d L)) (q := fullShare) (f := fS) d1).2 $$ [H HA]
  · isplitl [H]; · iexact H
    iexact HA
  ihave H := (pointsTo_union (Ix := HIx 1) (Val := Elt F) (Name := ℕ) (U := UU) (Lvl := ℕ) (ℓ := (oV).view.loc (thr d L)) (q := fullShare) (f := fS) d2).2 $$ [H HB]
  · isplitl [H]; · iexact H
    iexact HB
  ihave H := (pointsTo_union (Ix := HIx 1) (Val := Elt F) (Name := ℕ) (U := UU) (Lvl := ℕ) (ℓ := (oV).view.loc (thr d L)) (q := fullShare) (f := fS) d3).2 $$ [H HC]
  · isplitl [H]; · iexact H
    iexact HC
  ihave H := (pointsTo_union (Ix := HIx 1) (Val := Elt F) (Name := ℕ) (U := UU) (Lvl := ℕ) (ℓ := (oV).view.loc (thr d L)) (q := fullShare) (f := fS) d4).2 $$ [H HD]
  · isplitl [H]; · iexact H
    iexact HD
  ihave H := (Entails.of_eq (congrArg (fun T => ((oV).view.loc (thr d L) ↦[T]{fullShare} fS : sProp 𝕄)) hU)) $$ H
  iapply (outRest_of_prog D (k.val + 1) _ _ (k0_off38 L k 2#32) (k0_off38 L k 3#32) b2 b3 _ _ _ _ fS hdoneAll)
  iexact H

set_option maxHeartbeats 16000000 in
/-- A middle trip of the pipeline: four positions gathered, extracted and written out, every wait paired with its flight. -/
theorem ring_mid (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000)
    (k : Fin (Scf.trips k0_t2_loop.lb k0_t2_loop.ub k0_t2_loop.st)) (hk : 0 < k.val ∧ k.val < 49) (acc : Unit) :
    ringInv D k.val acc ⊢ wp frame (wpE (defs₀ (F := F)) 𝒱₀ (thr d L) none) Set.univ
      (k0_t2_body (F := F) L tV (Memref.isWhole_whole _) iV (Memref.isWhole_whole _) oV (Memref.isWhole_whole _) sI (Memref.isWhole_whole _) sQ (Memref.isWhole_whole _) sG (Memref.isWhole_whole _) sO (Memref.isWhole_whole _) cc0_scratch4 cc0_scratch5 cc0_scratch6 cc0_scratch7 cc0_scratch8 cc0_scratch9 cc0_scoped0 (iota .scVector S16 32 [0] iota_S16_d0_w32_scVector) k acc)
      (ringInv D (k.val + 1)) := by
  have hk50 : k.val < 50 := t2_lt k
  have hk0 : ¬ k.val = 0 := by omega
  sl_respell [k0_t2_body]
  simp only [k0_part41_eq_skeleton, k0_part42_eq_skeleton, k0_part43_eq_skeleton]
  unfold k0_part41_skel k0_part42_skel k0_part43_skel
  simp only [Prog.bind_assoc]
  have k0_h1 : k0_cond1 k = 1#1 := cond1_eq k
  have k0_h2 : k0_cond2 k = 1#1 := (cond2_eq k).2 (by omega)
  have k0_h3 : k0_cond3 k = 1#1 := (cond3_eq k).2 (by omega)
  have k0_h4 : k0_cond4 k = 1#1 := (cond4_eq k).2 (by omega)
  have k0_h5 : k0_cond5 k = 1#1 := (cond5_eq k).2 (by omega)
  have k0_h6 : k0_cond6 k = 1#1 := cond6_eq k
  have k0_h7 : k0_cond7 k = 1#1 := (cond7_eq k).2 (by omega)
  have k0_h8 : k0_cond8 k = 1#1 := cond8_eq k
  have hin : ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) D.fq x).toNat < 250000 :=
    fun off inb x => hfq _
  have rd_cast : ∀ (h h' : Nat) (hh : h < 200) (hh' : h' < 200) (c : Buf (Elt F) (oLoc d)), h = h' → D.rowDone h hh c → D.rowDone h' hh' c := by
    intro h h' hh hh' c e hd; subst e; exact hd
  have qs0 : D.qs 0 = Transfers.shareDrop D.qQ 3 := rfl
  have qs1 : D.qs 1 = Transfers.shareTokN D.qQ 0 := rfl
  have qs2 : D.qs 2 = Transfers.shareTokN D.qQ 1 := rfl
  have qs3 : D.qs 3 = Transfers.shareTokN D.qQ 2 := rfl
  unfold ringInv RingData.gPart RingData.wPart
  rw [dif_pos hk50, dif_neg hk0, dif_pos (by omega : k.val ≤ 50), dif_pos (by omega : k.val + 1 < 50), dif_neg (by omega : ¬ k.val + 1 = 0), dif_pos (by omega : k.val + 1 ≤ 50)]
  unfold RingData.busy RingData.free RingData.writing RingData.outRest
  rw [qs0, qs1, qs2, qs3]
  iintro ⟨#Hmw, Hs0, ⟨⟨⟨%c0, %hgath0, Hg0⟩, Ht0, Hq0⟩, ⟨⟨%c1, %hgath1, Hg1⟩, Ht1, Hq1⟩, ⟨⟨%c2, %hgath2, Hg2⟩, Ht2, Hq2⟩, ⟨Hg3, ⟨%c3f, Hs2⟩, Ht3, Hq3⟩⟩, ⟨⟨%cw0, %ow0, %hdone0, Hw0⟩, ⟨%cw1, %ow1, %hdone1, Hw1⟩, ⟨%og, %hog, Ho⟩⟩, %W', %hW', HO⟩
  have hv3 : ∀ l : Fin 16, (iota Kind.scVector S16 32 [0] iota_S16_d0_w32_scVector) (ix1 l) = BitVec.ofNat 32 l.val :=
    fun l => iota_single_apply .scVector S16 32 0 iota_S16_d0_w32_scVector (ix1 l)
  have e38_0 : ((oV.slice (Rect.unit (s := S200x32x4096) (k0_off38 L k 0#32) S1x32x128.size (k0_off38_inb L k 0)) (fun _ => rfl)).squeeze S32x128 squeezes_S1x32x128_S32x128) = outRow L (4 * k.val + 0) (by omega) := row_eq L _ _ _ (k0_off38_eq L k 0) _ _
  have e38_1 : ((oV.slice (Rect.unit (s := S200x32x4096) (k0_off38 L k 1#32) S1x32x128.size (k0_off38_inb L k 1)) (fun _ => rfl)).squeeze S32x128 squeezes_S1x32x128_S32x128) = outRow L (4 * k.val + 1) (by omega) := row_eq L _ _ _ (k0_off38_eq L k 1) _ _
  have e38_2 : ((oV.slice (Rect.unit (s := S200x32x4096) (k0_off38 L k 2#32) S1x32x128.size (k0_off38_inb L k 2)) (fun _ => rfl)).squeeze S32x128 squeezes_S1x32x128_S32x128) = outRow L (4 * k.val + 2) (by omega) := row_eq L _ _ _ (k0_off38_eq L k 2) _ _
  have e38_3 : ((oV.slice (Rect.unit (s := S200x32x4096) (k0_off38 L k 3#32) S1x32x128.size (k0_off38_inb L k 3)) (fun _ => rfl)).squeeze S32x128 squeezes_S1x32x128_S32x128) = outRow L (4 * k.val + 3) (by omega) := row_eq L _ _ _ (k0_off38_eq L k 3) _ _
  have pts_g : ∀ (s : Nat) (hs : s < 4) (inb) (c : Buf (Elt F) ((thr d L).loc cc0_scratch2)), ((sG).view.loc (thr d L) ↦[(slotGn s inb).view.set]{fullShare} c : sProp 𝕄)
      = ((slotG s hs).view.loc (thr d L) ↦[(slotG s hs).view.set]{fullShare} c) := fun _ _ _ _ => rfl
  have pts_o : ∀ (b : Nat) (hb : b < 2) (inb) (c : Buf (Elt F) ((thr d L).loc cc0_scratch3)), ((sO).view.loc (thr d L) ↦[(slotOn b inb).view.set]{fullShare} c : sProp 𝕄)
      = ((slotO b hb).view.loc (thr d L) ↦[(slotO b hb).view.set]{fullShare} c) := fun _ _ _ _ => rfl
  have hA : 4 * k.val - 2 < 200 := by omega
  have hB : 4 * k.val - 1 < 200 := by omega
  sl_exec
  irename Hw0_dst => HrA
  sl_rw [Prog.bind_assoc]
  sl_for (extractInv_0 (F := F) d L k D.fI c0) $$ [Hs0 Hg0_dst Hw0_src]
  case region => exact extract_region_0 d L _ hv3 _ _ k _ D.fI c0
  · iapply (extract_intro_0 d L k D.fI c0 ow0)
    isplitl [Hs0]; · iexact Hs0
    isplitl [Hg0_dst]; · iexact Hg0_dst
    iexact Hw0_src
  iintro %acc0x HInv
  have h8_0 : Scf.trips k0_t3_loop.lb k0_t3_loop.ub k0_t3_loop.st = 8 := by decide
  have e8_0 : extractInv_0 (F := F) d L k D.fI c0 (Scf.trips k0_t3_loop.lb k0_t3_loop.ub k0_t3_loop.st) acc0x = extractInv_0 (F := F) d L k D.fI c0 8 () := by rw [h8_0]
  ihave HInv := (Entails.of_eq e8_0) $$ HInv
  ihave HInv := (extract_elim_0 d L k D.fI c0) $$ HInv
  icases HInv with ⟨Hs0, Hg0_dst, %o0', HO0, %hval0⟩
  ihave Hg0_dst := (Entails.of_eq (pts_g 0 lt4_0 _ c0)) $$ Hg0_dst
  ihave HO0 := (Entails.of_eq (pts_o 0 lt2_0 _ o0')) $$ HO0
  have hsubR0 : (((oV.slice (Rect.unit (s := S200x32x4096) (k0_off38 L k 0#32) S1x32x128.size (k0_off38_inb L k 0)) (fun _ => rfl)).squeeze S32x128 squeezes_S1x32x128_S32x128).view.set : Finset S200x32x4096.Idx) ⊆ ((oSet L \ (outRow L (4 * k.val - 2) hA).view.set) \ (outRow L (4 * k.val - 1) hB).view.set : Finset S200x32x4096.Idx) := by
    intro i hi
    have hm := (prow_mem L _ (4 * k.val + 0) (by omega) (k0_off38_eq L k 0) _ _ i).1 hi
    refine Finset.mem_sdiff.2 ⟨Finset.mem_sdiff.2 ⟨(oSet_mem' L i).2 ⟨hm.2.1, hm.2.2⟩, ?_⟩, ?_⟩
    · intro h'; have := ((outRow_mem L _ _ i).1 h').1; omega
    · intro h'; have := ((outRow_mem L _ _ i).1 h').1; omega

  ihave Ho := (pointsTo_split_subset (ℓ := (oV).view.loc (thr d L)) hsubR0).1 $$ Ho
  icases Ho with ⟨HR0, Ho⟩
  have pts_r0 : ∀ c : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} c : sProp 𝕄)
      = (((oV.slice (Rect.unit (s := S200x32x4096) (k0_off38 L k 0#32) S1x32x128.size (k0_off38_inb L k 0)) (fun _ => rfl)).squeeze S32x128 squeezes_S1x32x128_S32x128).view.loc (thr d L) ↦[((oV.slice (Rect.unit (s := S200x32x4096) (k0_off38 L k 0#32) S1x32x128.size (k0_off38_inb L k 0)) (fun _ => rfl)).squeeze S32x128 squeezes_S1x32x128_S32x128).view.set]{fullShare} c) := fun _ => rfl
  ihave HR0 := (Entails.of_eq (pts_r0 og)) $$ HR0
  sl_exec
  irename Hw1_dst => HrB
  sl_rw [Prog.bind_assoc]
  sl_for (extractInv_1 (F := F) d L k D.fI c1) $$ [Hs0 Hg1_dst Hw1_src]
  case region => exact extract_region_1 d L _ hv3 k _ _ D.fI c1
  · iapply (extract_intro_1 d L k D.fI c1 ow1)
    isplitl [Hs0]; · iexact Hs0
    isplitl [Hg1_dst]; · iexact Hg1_dst
    iexact Hw1_src
  iintro %acc1x HInv
  have h8_1 : Scf.trips k0_t4_loop.lb k0_t4_loop.ub k0_t4_loop.st = 8 := by decide
  have e8_1 : extractInv_1 (F := F) d L k D.fI c1 (Scf.trips k0_t4_loop.lb k0_t4_loop.ub k0_t4_loop.st) acc1x = extractInv_1 (F := F) d L k D.fI c1 8 () := by rw [h8_1]
  ihave HInv := (Entails.of_eq e8_1) $$ HInv
  ihave HInv := (extract_elim_1 d L k D.fI c1) $$ HInv
  icases HInv with ⟨Hs0, Hg1_dst, %o1', HO1, %hval1⟩
  ihave Hg1_dst := (Entails.of_eq (pts_g 1 lt4_1 _ c1)) $$ Hg1_dst
  ihave HO1 := (Entails.of_eq (pts_o 1 lt2_1 _ o1')) $$ HO1
  have hsubR1 : (((oV.slice (Rect.unit (s := S200x32x4096) (k0_off38 L k 1#32) S1x32x128.size (k0_off38_inb L k 1)) (fun _ => rfl)).squeeze S32x128 squeezes_S1x32x128_S32x128).view.set : Finset S200x32x4096.Idx) ⊆ (((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set : Finset S200x32x4096.Idx) := by
    intro i hi
    have hm := (prow_mem L _ (4 * k.val + 1) (by omega) (k0_off38_eq L k 1) _ _ i).1 hi
    refine Finset.mem_sdiff.2 ⟨Finset.mem_sdiff.2 ⟨Finset.mem_sdiff.2 ⟨(oSet_mem' L i).2 ⟨hm.2.1, hm.2.2⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
  ihave Ho := (pointsTo_split_subset (ℓ := (oV).view.loc (thr d L)) hsubR1).1 $$ Ho
  icases Ho with ⟨HR1, Ho⟩
  have pts_r1 : ∀ c : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} c : sProp 𝕄)
      = (((oV.slice (Rect.unit (s := S200x32x4096) (k0_off38 L k 1#32) S1x32x128.size (k0_off38_inb L k 1)) (fun _ => rfl)).squeeze S32x128 squeezes_S1x32x128_S32x128).view.loc (thr d L) ↦[((oV.slice (Rect.unit (s := S200x32x4096) (k0_off38 L k 1#32) S1x32x128.size (k0_off38_inb L k 1)) (fun _ => rfl)).squeeze S32x128 squeezes_S1x32x128_S32x128).view.set]{fullShare} c) := fun _ => rfl
  ihave HR1 := (Entails.of_eq (pts_r1 og)) $$ HR1
  sl_exec
  sl_rw [Prog.bind_assoc]
  sl_for (extractInv_2 (F := F) d L k D.fI c2) $$ [Hs0 Hg2_dst HO0]
  case region => exact extract_region_2 d L _ hv3 k _ _ _ D.fI c2
  · iapply (extract_intro_2 d L k D.fI c2 _)
    isplitl [Hs0]; · iexact Hs0
    isplitl [Hg2_dst]; · iexact Hg2_dst
    iexact HO0
  iintro %acc2x HInv
  have h8_2 : Scf.trips k0_t5_loop.lb k0_t5_loop.ub k0_t5_loop.st = 8 := by decide
  have e8_2 : extractInv_2 (F := F) d L k D.fI c2 (Scf.trips k0_t5_loop.lb k0_t5_loop.ub k0_t5_loop.st) acc2x = extractInv_2 (F := F) d L k D.fI c2 8 () := by rw [h8_2]
  ihave HInv := (Entails.of_eq e8_2) $$ HInv
  ihave HInv := (extract_elim_2 d L k D.fI c2) $$ HInv
  icases HInv with ⟨Hs0, Hg2_dst, %o2', HO2, %hval2⟩
  ihave Hg2_dst := (Entails.of_eq (pts_g 2 lt4_2 _ c2)) $$ Hg2_dst
  ihave HO2 := (Entails.of_eq (pts_o 0 lt2_0 _ o2')) $$ HO2
  have hsubR2 : (((oV.slice (Rect.unit (s := S200x32x4096) (k0_off38 L k 2#32) S1x32x128.size (k0_off38_inb L k 2)) (fun _ => rfl)).squeeze S32x128 squeezes_S1x32x128_S32x128).view.set : Finset S200x32x4096.Idx) ⊆ ((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set : Finset S200x32x4096.Idx) := by
    intro i hi
    have hm := (prow_mem L _ (4 * k.val + 2) (by omega) (k0_off38_eq L k 2) _ _ i).1 hi
    refine Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
  ihave Ho := (pointsTo_split_subset (ℓ := (oV).view.loc (thr d L)) hsubR2).1 $$ Ho
  icases Ho with ⟨HR2, Ho⟩
  have pts_r2 : ∀ c : Buf (Elt F) (oLoc d), ((oV).view.loc (thr d L) ↦[((oV.slice (Rect.unit (s := S200x32x4096) (k0_off38 L k 2#32) S1x32x128.size (k0_off38_inb L k 2)) (fun _ => rfl)).squeeze S32x128 squeezes_S1x32x128_S32x128).view.set]{fullShare} c : sProp 𝕄)
      = (((oV.slice (Rect.unit (s := S200x32x4096) (k0_off38 L k 2#32) S1x32x128.size (k0_off38_inb L k 2)) (fun _ => rfl)).squeeze S32x128 squeezes_S1x32x128_S32x128).view.loc (thr d L) ↦[((oV.slice (Rect.unit (s := S200x32x4096) (k0_off38 L k 2#32) S1x32x128.size (k0_off38_inb L k 2)) (fun _ => rfl)).squeeze S32x128 squeezes_S1x32x128_S32x128).view.set]{fullShare} c) := fun _ => rfl
  ihave HR2 := (Entails.of_eq (pts_r2 og)) $$ HR2
  sl_exec
  ihave Hg3_dst : iprop(∃ c3 : Buf (Elt F) ((thr d L).loc cc0_scratch2), ((sG).view.loc (thr d L) ↦[(slotGn 3 inb_S4x128x128_S1x128x128_3_0_0).view.set]{fullShare} c3) ∗ ⌜D.gathered 3 lt4_3 (4 * k.val + 3) (by omega) c3⌝) $$ [Hs2]
  · iexists _
    isplitl [Hs2]; · iexact Hs2
    ipureintro
    exact gathered_off D 3 lt4_3 (4 * k.val + 3) (by omega) (k0_off3 k) (k0_off3_eq k) (k0_off3_inb k k0_h1) rfl (hin _ _) _
  icases Hg3_dst with ⟨%c3, Hg3_dst, %hgath3⟩
  sl_for (extractInv_3 (F := F) d L k D.fI c3) $$ [Hs0 Hg3_dst HO1]
  case region => exact extract_region_3 d L _ hv3 k _ D.fI c3
  · iapply (extract_intro_3 d L k D.fI c3 _)
    isplitl [Hs0]; · iexact Hs0
    isplitl [Hg3_dst]; · iexact Hg3_dst
    iexact HO1
  iintro %acc3x HInv
  have h8_3 : Scf.trips k0_t6_loop.lb k0_t6_loop.ub k0_t6_loop.st = 8 := by decide
  have e8_3 : extractInv_3 (F := F) d L k D.fI c3 (Scf.trips k0_t6_loop.lb k0_t6_loop.ub k0_t6_loop.st) acc3x = extractInv_3 (F := F) d L k D.fI c3 8 () := by rw [h8_3]
  ihave HInv := (Entails.of_eq e8_3) $$ HInv
  ihave HInv := (extract_elim_3 d L k D.fI c3) $$ HInv
  icases HInv with ⟨Hs0, Hg3_dst, %o3', HO3, %hval3⟩
  ihave Hg3_dst := (Entails.of_eq (pts_g 3 lt4_3 _ c3)) $$ Hg3_dst
  ihave HO3 := (Entails.of_eq (pts_o 1 lt2_1 _ o3')) $$ HO3
  have hsubR3 : (((oV.slice (Rect.unit (s := S200x32x4096) (k0_off38 L k 3#32) S1x32x128.size (k0_off38_inb L k 3)) (fun _ => rfl)).squeeze S32x128 squeezes_S1x32x128_S32x128).view.set : Finset S200x32x4096.Idx) ⊆ (((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set : Finset S200x32x4096.Idx) := by
    intro i hi
    have hm := (prow_mem L _ (4 * k.val + 3) (by omega) (k0_off38_eq L k 3) _ _ i).1 hi
    refine Finset.mem_sdiff.2 ⟨Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
    · intro h'; have := ((prow_mem L _ (4 * k.val + 2) (by omega) (k0_off38_eq L k 2) _ _ i).1 h').1; omega
  ihave Ho := (pointsTo_split_subset (ℓ := (oV).view.loc (thr d L)) hsubR3).1 $$ Ho
  icases Ho with ⟨HR3, Ho⟩
  have pts_r3 : ∀ c : Buf (Elt F) (oLoc d), ((oV).view.loc (thr d L) ↦[((oV.slice (Rect.unit (s := S200x32x4096) (k0_off38 L k 3#32) S1x32x128.size (k0_off38_inb L k 3)) (fun _ => rfl)).squeeze S32x128 squeezes_S1x32x128_S32x128).view.set]{fullShare} c : sProp 𝕄)
      = (((oV.slice (Rect.unit (s := S200x32x4096) (k0_off38 L k 3#32) S1x32x128.size (k0_off38_inb L k 3)) (fun _ => rfl)).squeeze S32x128 squeezes_S1x32x128_S32x128).view.loc (thr d L) ↦[((oV.slice (Rect.unit (s := S200x32x4096) (k0_off38 L k 3#32) S1x32x128.size (k0_off38_inb L k 3)) (fun _ => rfl)).squeeze S32x128 squeezes_S1x32x128_S32x128).view.set]{fullShare} c) := fun _ => rfl
  ihave HR3 := (Entails.of_eq (pts_r3 og)) $$ HR3
  sl_exec
  -- the end of the trip
  have a39 : k0_off39 k = ![4 * (k.val + 1), 0] := by rw [k0_off39_eq, show 4 * (k.val + 1) = 4 * k.val + 4 by omega]
  have a74 : k0_off74 k = ![4 * (k.val + 1) + 1, 0] := by rw [k0_off74_eq, show 4 * (k.val + 1) + 1 = 4 * k.val + 5 by omega]
  have a109 : k0_off109 k = ![4 * (k.val + 1) + 2, 0] := by rw [k0_off109_eq, show 4 * (k.val + 1) + 2 = 4 * k.val + 6 by omega]
  have b2 : k0_off38 L k 2#32 = ![4 * (k.val + 1) - 2, 0, col0 L] := by rw [show 4 * (k.val + 1) - 2 = 4 * k.val + 2 by omega]; exact k0_off38_eq L k 2
  have b3 : k0_off38 L k 3#32 = ![4 * (k.val + 1) - 1, 0, col0 L] := by rw [show 4 * (k.val + 1) - 1 = 4 * k.val + 3 by omega]; exact k0_off38_eq L k 3
  iclear Hg0_dst Hg1_dst Hg2_dst
  ihave HR0 : iprop(∃ cC : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} cC) ∗ ⌜D.rowDone (4 * k.val + 0) (by omega) cC⌝) $$ [HR0]
  · iexists _
    isplitl [HR0]; · iexact HR0
    ipureintro
    exact (rowDone_written_off D hfI hq hix 0 lt4_0 0 lt2_0 (4 * k.val + 0) (by omega) (k0_off38 L k 0#32) (k0_off38_eq L k 0) _ c0 hgath0 o0' (hval_of_extract D.fI c0 o0' 0 lt4_0 0 lt2_0 (4 * k.val + 0) (by omega) hval0) _ _ (fun dd col => slotO_read 0 lt2_0 o0' dd col))
  icases HR0 with ⟨%cC, HR0, %hdC⟩
  ihave HR1 : iprop(∃ cD : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} cD) ∗ ⌜D.rowDone (4 * k.val + 1) (by omega) cD⌝) $$ [HR1]
  · iexists _
    isplitl [HR1]; · iexact HR1
    ipureintro
    exact (rowDone_written_off D hfI hq hix 1 lt4_1 1 lt2_1 (4 * k.val + 1) (by omega) (k0_off38 L k 1#32) (k0_off38_eq L k 1) _ c1 hgath1 o1' (hval_of_extract D.fI c1 o1' 1 lt4_1 1 lt2_1 (4 * k.val + 1) (by omega) hval1) _ _ (fun dd col => slotO_read 1 lt2_1 o1' dd col))
  icases HR1 with ⟨%cD, HR1, %hdD⟩
  irw [wp_ret]
  imodintro
  isplitr; · iexact Hmw
  isplitl [Hs0]; · iexact Hs0
  isplitl [Hg0 Ht0 Hq0 Hg1 Ht1 Hq1 Hg2 Ht2 Hq2 Hg3 Hg3_dst Ht3 Hq3]
  · isplitl [Hg0 Ht0 Hq0]
    · have hb0 := busy_of_prog D 0 lt4_0 cc0_scratch4 (k0_off39 k) (4 * (k.val + 1)) (by omega) a39 (k0_off39_inb k k0_h3) (fun _ => rfl) _
        (gathered_off D 0 lt4_0 (4 * (k.val + 1)) (by omega) (k0_off39 k) a39 (k0_off39_inb k k0_h3) rfl (hin _ _) c0)
      unfold RingData.busy at hb0
      rw [qs0] at hb0
      iapply hb0
      isplitl [Hg0]; · iexact Hg0
      isplitl [Ht0]; · iexact Ht0
      iexact Hq0
    isplitl [Hg1 Ht1 Hq1]
    · have hb1 := busy_of_prog D 1 lt4_1 cc0_scratch5 (k0_off74 k) (4 * (k.val + 1) + 1) (by omega) a74 (k0_off74_inb k k0_h5) (fun _ => rfl) _
        (gathered_off D 1 lt4_1 (4 * (k.val + 1) + 1) (by omega) (k0_off74 k) a74 (k0_off74_inb k k0_h5) rfl (hin _ _) c1)
      unfold RingData.busy at hb1
      rw [qs1] at hb1
      iapply hb1
      isplitl [Hg1]; · iexact Hg1
      isplitl [Ht1]; · iexact Ht1
      iexact Hq1
    isplitl [Hg2 Ht2 Hq2]
    · have hb2 := busy_of_prog D 2 lt4_2 cc0_scratch6 (k0_off109 k) (4 * (k.val + 1) + 2) (by omega) a109 (k0_off109_inb k k0_h7) (fun _ => rfl) _
        (gathered_off D 2 lt4_2 (4 * (k.val + 1) + 2) (by omega) (k0_off109 k) a109 (k0_off109_inb k k0_h7) rfl (hin _ _) c2)
      unfold RingData.busy at hb2
      rw [qs2] at hb2
      iapply hb2
      isplitl [Hg2]; · iexact Hg2
      isplitl [Ht2]; · iexact Ht2
      iexact Hq2
    isplitl [Hg3]; · iexact Hg3
    isplitl [Hg3_dst]; · iexists _; iexact Hg3_dst
    isplitl [Ht3]; · iexact Ht3
    iexact Hq3
  isplitr [HO]
  · isplitl [Hw0]
    · have hd2 := (rowDone_written_off D hfI hq hix 2 lt4_2 0 lt2_0 (4 * k.val + 2) (by omega) (k0_off38 L k 2#32) (k0_off38_eq L k 2) (k0_off38_inb L k 2) c2 hgath2 o2' (hval_of_extract D.fI c2 o2' 2 lt4_2 0 lt2_0 (4 * k.val + 2) (by omega) hval2) og _ (fun dd col => slotO_read 0 lt2_0 o2' dd col))
      have hw0 := writing_of_prog D 0 lt2_0 cc0_scratch8 (k0_off38 L k 2#32) (4 * (k.val + 1) - 2) (by omega) b2 (k0_off38_inb L k 2) (fun _ => rfl) _ o2'
        (rd_cast (4 * k.val + 2) (4 * (k.val + 1) - 2) (by omega) (by omega) _ (by omega) hd2)
      unfold RingData.writing at hw0
      iapply hw0
      iexact Hw0
    isplitl [Hw1]
    · have hd3 := (rowDone_written_off D hfI hq hix 3 lt4_3 1 lt2_1 (4 * k.val + 3) (by omega) (k0_off38 L k 3#32) (k0_off38_eq L k 3) (k0_off38_inb L k 3) c3 hgath3 o3' (hval_of_extract D.fI c3 o3' 3 lt4_3 1 lt2_1 (4 * k.val + 3) (by omega) hval3) og _ (fun dd col => slotO_read 1 lt2_1 o3' dd col))
      have hw1 := writing_of_prog D 1 lt2_1 cc0_scratch9 (k0_off38 L k 3#32) (4 * (k.val + 1) - 1) (by omega) b3 (k0_off38_inb L k 3) (fun _ => rfl) _ o3'
        (rd_cast (4 * k.val + 3) (4 * (k.val + 1) - 1) (by omega) (by omega) _ (by omega) hd3)
      unfold RingData.writing at hw1
      iapply hw1
      iexact Hw1
    have hj := mid_rejoin D k hk hA hB og cw0 cw1 cC cD hog hdone0 hdone1 hdC hdD
    unfold RingData.outRest at hj
    iapply hj
    isplitl [Ho]; · iexact Ho
    isplitl [HrA]; · iexact HrA
    isplitl [HrB]; · iexact HrB
    isplitl [HR0]; · iexact HR0
    iexact HR1
  · iexists _
    isplitr
    rotate_left
    · iexact HO
    · ipureintro
      intro p hp
      rcases Finset.mem_insert.mp hp with h0 | hp
      · exact .inr (by rw [h0]; rfl)
      rcases Finset.mem_insert.mp hp with h1 | hp
      · exact .inr (by rw [h1]; rfl)
      rcases Finset.mem_insert.mp hp with h2 | hp
      · exact .inr (by rw [h2]; rfl)
      rcases Finset.mem_insert.mp hp with h3 | hp
      · exact .inr (by rw [h3]; rfl)
      rcases Finset.mem_insert.mp hp with h4 | hp
      · exact .inr (by rw [h4]; rfl)
      rcases Finset.mem_insert.mp hp with h5 | hp
      · exact .inr (by rw [h5]; rfl)
      rcases Finset.mem_insert.mp hp with h6 | hp
      · exact .inr (by rw [h6]; rfl)
      rcases Finset.mem_insert.mp hp with h7 | hp
      · exact .inr (by rw [h7]; rfl)
      exact hW' p hp

end Cert.Proof.Kernel

end
-- ==== Proof.KernelRingRejoin.lean ====
/-
  The result's rest, rejoined. After a trip of the pipeline the tile holds the rest of its part of the result —
  the part minus the two rows that were being written, minus the four rows written this trip — and the rows that
  came back, each at its own contents. Joined, they are the part minus the two rows now being written, and every
  row below those two is done: a row is told by its position, so the joins change no row but the one joined in.
-/
import proofs.«206503_g81295140979383_cont_9to1c4b_414_34_alg».proof.Proof.KernelRingFacts

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

/-! ## The result's rest, rejoined -/

/-- A piece joined in: the joined contents are the piece's on the piece and the old ones elsewhere. -/
theorem join_in {ℓ : Loc nD τ sig} {q : PosShare TreeShare} {R A : Finset (Idx ℓ)} {g f : Buf (Elt F) ℓ} (hd : Disjoint R A) :
    iprop((ℓ ↦[R]{q} g) ∗ (ℓ ↦[A]{q} f))
      ⊢ (iprop(∃ g', ⌜(∀ i ∈ A, g' i = f i) ∧ (∀ i ∈ R, g' i = g i)⌝ ∗ ℓ ↦[R ∪ A]{q} g') : sProp 𝕄) := by
  iintro ⟨H1, H2⟩
  iexists (A.piecewise f g)
  isplitr
  · ipureintro
    exact ⟨fun i hi => Finset.piecewise_eq_of_mem _ _ _ hi, fun i hi => Finset.piecewise_eq_of_notMem _ _ _ (Finset.disjoint_left.mp hd hi)⟩
  iapply (pointsTo_join hd)
  isplitl [H1]; · iexact H1
  iexact H2

/-- Six pieces of a set `S`, told apart by a key (piece `j` is the elements of `S` with key `r0 + j`): the set minus all
    six, with the first four joined back in, is the set minus the last two; the joined contents are each piece's on
    the piece and the old ones at the keys below `r0`. -/
theorem rejoin4_abs {ℓ : Loc nD τ sig} {q : PosShare TreeShare} (key : Idx ℓ → Nat) (S A0 A1 A2 A3 A4 A5 : Finset (Idx ℓ)) (r0 : Nat)
    (m0 : ∀ i, i ∈ A0 ↔ i ∈ S ∧ key i = r0) (m1 : ∀ i, i ∈ A1 ↔ i ∈ S ∧ key i = r0 + 1) (m2 : ∀ i, i ∈ A2 ↔ i ∈ S ∧ key i = r0 + 2)
    (m3 : ∀ i, i ∈ A3 ↔ i ∈ S ∧ key i = r0 + 3) (m4 : ∀ i, i ∈ A4 ↔ i ∈ S ∧ key i = r0 + 4) (m5 : ∀ i, i ∈ A5 ↔ i ∈ S ∧ key i = r0 + 5)
    (g f0 f1 f2 f3 : Buf (Elt F) ℓ) :
    iprop((ℓ ↦[((((((S \ A0) \ A1) \ A2) \ A3) \ A4) \ A5)]{q} g) ∗ (ℓ ↦[A0]{q} f0) ∗ (ℓ ↦[A1]{q} f1) ∗ (ℓ ↦[A2]{q} f2) ∗ (ℓ ↦[A3]{q} f3))
      ⊢ (iprop(∃ g', ⌜(∀ i ∈ A0, g' i = f0 i) ∧ (∀ i ∈ A1, g' i = f1 i) ∧ (∀ i ∈ A2, g' i = f2 i) ∧ (∀ i ∈ A3, g' i = f3 i)
            ∧ (∀ i ∈ S, key i < r0 → g' i = g i)⌝ ∗ ℓ ↦[(S \ A4) \ A5]{q} g') : sProp 𝕄) := by
  have hR : ∀ i, i ∈ ((((((S \ A0) \ A1) \ A2) \ A3) \ A4) \ A5)
      ↔ i ∈ S ∧ key i ≠ r0 ∧ key i ≠ r0 + 1 ∧ key i ≠ r0 + 2 ∧ key i ≠ r0 + 3 ∧ key i ≠ r0 + 4 ∧ key i ≠ r0 + 5 := by
    intro i
    simp only [Finset.mem_sdiff, m0, m1, m2, m3, m4, m5]
    constructor
    · rintro ⟨⟨⟨⟨⟨⟨ho, n0⟩, n1⟩, n2⟩, n3⟩, n4⟩, n5⟩
      exact ⟨ho, fun e => n0 ⟨ho, e⟩, fun e => n1 ⟨ho, e⟩, fun e => n2 ⟨ho, e⟩, fun e => n3 ⟨ho, e⟩, fun e => n4 ⟨ho, e⟩, fun e => n5 ⟨ho, e⟩⟩
    · rintro ⟨ho, n0, n1, n2, n3, n4, n5⟩
      exact ⟨⟨⟨⟨⟨⟨ho, fun m => n0 m.2⟩, fun m => n1 m.2⟩, fun m => n2 m.2⟩, fun m => n3 m.2⟩, fun m => n4 m.2⟩, fun m => n5 m.2⟩
  generalize ((((((S \ A0) \ A1) \ A2) \ A3) \ A4) \ A5) = R at hR ⊢
  have D1 : Disjoint R A0 := Finset.disjoint_left.mpr fun i hi m => ((hR i).1 hi).2.1 ((m0 i).1 m).2
  have D2 : Disjoint (R ∪ A0) A1 := Finset.disjoint_left.mpr fun i hi m => by
    have e := ((m1 i).1 m).2
    rcases Finset.mem_union.1 hi with hi | hi
    · exact ((hR i).1 hi).2.2.1 e
    · have := ((m0 i).1 hi).2; omega
  have D3 : Disjoint ((R ∪ A0) ∪ A1) A2 := Finset.disjoint_left.mpr fun i hi m => by
    have e := ((m2 i).1 m).2
    rcases Finset.mem_union.1 hi with hi | hi
    · rcases Finset.mem_union.1 hi with hi | hi
      · exact ((hR i).1 hi).2.2.2.1 e
      · have := ((m0 i).1 hi).2; omega
    · have := ((m1 i).1 hi).2; omega
  have D4 : Disjoint (((R ∪ A0) ∪ A1) ∪ A2) A3 := Finset.disjoint_left.mpr fun i hi m => by
    have e := ((m3 i).1 m).2
    rcases Finset.mem_union.1 hi with hi | hi
    · rcases Finset.mem_union.1 hi with hi | hi
      · rcases Finset.mem_union.1 hi with hi | hi
        · exact ((hR i).1 hi).2.2.2.2.1 e
        · have := ((m0 i).1 hi).2; omega
      · have := ((m1 i).1 hi).2; omega
    · have := ((m2 i).1 hi).2; omega
  have hT : (((R ∪ A0) ∪ A1) ∪ A2) ∪ A3 = (S \ A4) \ A5 := by
    ext i
    simp only [Finset.mem_union, Finset.mem_sdiff]
    constructor
    · rintro ((((hi | hi) | hi) | hi) | hi)
      · have a := (hR i).1 hi
        exact ⟨⟨a.1, fun m => a.2.2.2.2.2.1 ((m4 i).1 m).2⟩, fun m => a.2.2.2.2.2.2 ((m5 i).1 m).2⟩
      · have e := (m0 i).1 hi
        exact ⟨⟨e.1, fun m => by have := ((m4 i).1 m).2; omega⟩, fun m => by have := ((m5 i).1 m).2; omega⟩
      · have e := (m1 i).1 hi
        exact ⟨⟨e.1, fun m => by have := ((m4 i).1 m).2; omega⟩, fun m => by have := ((m5 i).1 m).2; omega⟩
      · have e := (m2 i).1 hi
        exact ⟨⟨e.1, fun m => by have := ((m4 i).1 m).2; omega⟩, fun m => by have := ((m5 i).1 m).2; omega⟩
      · have e := (m3 i).1 hi
        exact ⟨⟨e.1, fun m => by have := ((m4 i).1 m).2; omega⟩, fun m => by have := ((m5 i).1 m).2; omega⟩
    · rintro ⟨⟨ho, n4⟩, n5⟩
      by_cases c0 : key i = r0
      · exact .inl (.inl (.inl (.inr ((m0 i).2 ⟨ho, c0⟩))))
      by_cases c1 : key i = r0 + 1
      · exact .inl (.inl (.inr ((m1 i).2 ⟨ho, c1⟩)))
      by_cases c2 : key i = r0 + 2
      · exact .inl (.inr ((m2 i).2 ⟨ho, c2⟩))
      by_cases c3 : key i = r0 + 3
      · exact .inr ((m3 i).2 ⟨ho, c3⟩)
      exact .inl (.inl (.inl (.inl ((hR i).2 ⟨ho, c0, c1, c2, c3, fun e => n4 ((m4 i).2 ⟨ho, e⟩), fun e => n5 ((m5 i).2 ⟨ho, e⟩)⟩))))
  iintro ⟨HR, H0, H1, H2, H3⟩
  ihave J := (join_in (F := F) D1) $$ [HR H0]
  · isplitl [HR]; · iexact HR
    iexact H0
  icases J with ⟨%g1, %a1, J⟩
  ihave J := (join_in (F := F) D2) $$ [J H1]
  · isplitl [J]; · iexact J
    iexact H1
  icases J with ⟨%g2, %a2, J⟩
  ihave J := (join_in (F := F) D3) $$ [J H2]
  · isplitl [J]; · iexact J
    iexact H2
  icases J with ⟨%g3, %a3, J⟩
  ihave J := (join_in (F := F) D4) $$ [J H3]
  · isplitl [J]; · iexact J
    iexact H3
  icases J with ⟨%g4, %a4, J⟩
  iexists g4
  isplitr
  · ipureintro
    refine ⟨fun i m => ?_, fun i m => ?_, fun i m => ?_, fun i m => a4.1 i m, fun i hS hlt => ?_⟩
    · rw [a4.2 i (Finset.mem_union.2 (.inl (Finset.mem_union.2 (.inl (Finset.mem_union.2 (.inr m)))))),
        a3.2 i (Finset.mem_union.2 (.inl (Finset.mem_union.2 (.inr m)))), a2.2 i (Finset.mem_union.2 (.inr m)), a1.1 i m]
    · rw [a4.2 i (Finset.mem_union.2 (.inl (Finset.mem_union.2 (.inr m)))), a3.2 i (Finset.mem_union.2 (.inr m)), a2.1 i m]
    · rw [a4.2 i (Finset.mem_union.2 (.inr m)), a3.1 i m]
    · have hiR : i ∈ R := (hR i).2 ⟨hS, by omega, by omega, by omega, by omega, by omega, by omega⟩
      rw [a4.2 i (Finset.mem_union.2 (.inl (Finset.mem_union.2 (.inl (Finset.mem_union.2 (.inl hiR)))))),
        a3.2 i (Finset.mem_union.2 (.inl (Finset.mem_union.2 (.inl hiR)))), a2.2 i (Finset.mem_union.2 (.inl hiR)), a1.2 i hiR]
  rw [← hT]
  iexact J

/-- A row of the tile's columns is the elements of the tile's part at that position. -/
theorem outRow_iff (h : Nat) (hh : h < 200) (i : S200x32x4096.Idx) : i ∈ (outRow L h hh).view.set ↔ i ∈ oSet L ∧ (i 0).val = h := by
  rw [outRow_mem, Epilogue.oSet_mem L i]
  constructor
  · rintro ⟨a, b, c⟩; exact ⟨⟨b, c⟩, a⟩
  · rintro ⟨⟨b, c⟩, a⟩; exact ⟨a, b, c⟩

/-- After a trip: the rest of the tile's part, with the four rows that came back joined in, is the part outside the
    two rows now being written; every row below those two is done. Rows `r0 … r5` are consecutive positions. -/
theorem outRest_rejoin4 (D : RingData (F := F) d L) (r0 r1 r2 r3 r4 r5 : Nat)
    (e1 : r1 = r0 + 1) (e2 : r2 = r0 + 2) (e3 : r3 = r0 + 3) (e4 : r4 = r0 + 4) (e5 : r5 = r0 + 5)
    (h0 : r0 < 200) (h1 : r1 < 200) (h2 : r2 < 200) (h3 : r3 < 200) (h4 : r4 < 200) (h5 : r5 < 200)
    (og f0 f1 f2 f3 : Buf (Elt F) (oLoc d))
    (hog : ∀ (h : Nat) (hh : h < 200), h < r0 → D.rowDone h hh og)
    (d0 : D.rowDone r0 h0 f0) (d1 : D.rowDone r1 h1 f1) (d2 : D.rowDone r2 h2 f2) (d3 : D.rowDone r3 h3 f3) :
    iprop(((oV).view.loc (thr d L) ↦[(((((((oSet L : Finset S200x32x4096.Idx) \ (outRow L r0 h0).view.set) \ (outRow L r1 h1).view.set) \ (outRow L r2 h2).view.set)
            \ (outRow L r3 h3).view.set) \ (outRow L r4 h4).view.set) \ (outRow L r5 h5).view.set)]{fullShare} og)
        ∗ ((oV).view.loc (thr d L) ↦[(outRow L r0 h0).view.set]{fullShare} f0)
        ∗ ((oV).view.loc (thr d L) ↦[(outRow L r1 h1).view.set]{fullShare} f1)
        ∗ ((oV).view.loc (thr d L) ↦[(outRow L r2 h2).view.set]{fullShare} f2)
        ∗ ((oV).view.loc (thr d L) ↦[(outRow L r3 h3).view.set]{fullShare} f3))
      ⊢ (iprop(∃ og', ⌜∀ (h : Nat) (hh : h < 200), h < r4 → D.rowDone h hh og'⌝
          ∗ ((oV).view.loc (thr d L) ↦[((oSet L : Finset S200x32x4096.Idx) \ (outRow L r4 h4).view.set) \ (outRow L r5 h5).view.set]{fullShare} og')) : sProp 𝕄) := by
  subst e1 e2 e3 e4 e5
  refine (rejoin4_abs (F := F) (ℓ := (oV).view.loc (thr d L)) (q := fullShare) (fun (i : S200x32x4096.Idx) => (i 0).val) (oSet L)
    (outRow L r0 h0).view.set (outRow L (r0 + 1) h1).view.set (outRow L (r0 + 2) h2).view.set (outRow L (r0 + 3) h3).view.set
    (outRow L (r0 + 4) h4).view.set (outRow L (r0 + 5) h5).view.set r0
    (outRow_iff _ h0) (outRow_iff _ h1) (outRow_iff _ h2) (outRow_iff _ h3) (outRow_iff _ h4) (outRow_iff _ h5) og f0 f1 f2 f3).trans ?_
  iintro ⟨%g', %hg, H⟩
  iexists g'
  isplitr
  · ipureintro
    obtain ⟨a0, a1, a2, a3, alow⟩ := hg
    intro h hh hlt
    rcases (by omega : h < r0 ∨ h = r0 ∨ h = r0 + 1 ∨ h = r0 + 2 ∨ h = r0 + 3) with c | c | c | c | c
    · exact rowDone_congr D h hh og g' (fun i m => alow i ((outRow_iff h hh i).1 m).1 (by have := ((outRow_iff h hh i).1 m).2; omega)) (hog h hh c)
    · subst c; exact rowDone_congr D _ hh f0 g' (fun i m => a0 i m) d0
    · subst c; exact rowDone_congr D _ hh f1 g' (fun i m => a1 i m) d1
    · subst c; exact rowDone_congr D _ hh f2 g' (fun i m => a2 i m) d2
    · subst c; exact rowDone_congr D _ hh f3 g' (fun i m => a3 i m) d3
  iexact H

/-- The same with two pieces coming back (the first trip: nothing was being written before it). -/
theorem rejoin2_abs {ℓ : Loc nD τ sig} {q : PosShare TreeShare} (key : Idx ℓ → Nat) (S A0 A1 A2 A3 : Finset (Idx ℓ)) (r0 : Nat)
    (m0 : ∀ i, i ∈ A0 ↔ i ∈ S ∧ key i = r0) (m1 : ∀ i, i ∈ A1 ↔ i ∈ S ∧ key i = r0 + 1) (m2 : ∀ i, i ∈ A2 ↔ i ∈ S ∧ key i = r0 + 2)
    (m3 : ∀ i, i ∈ A3 ↔ i ∈ S ∧ key i = r0 + 3)
    (g f0 f1 : Buf (Elt F) ℓ) :
    iprop((ℓ ↦[((((S \ A0) \ A1) \ A2) \ A3)]{q} g) ∗ (ℓ ↦[A0]{q} f0) ∗ (ℓ ↦[A1]{q} f1))
      ⊢ (iprop(∃ g', ⌜(∀ i ∈ A0, g' i = f0 i) ∧ (∀ i ∈ A1, g' i = f1 i) ∧ (∀ i ∈ S, key i < r0 → g' i = g i)⌝ ∗ ℓ ↦[(S \ A2) \ A3]{q} g') : sProp 𝕄) := by
  have hR : ∀ i, i ∈ ((((S \ A0) \ A1) \ A2) \ A3) ↔ i ∈ S ∧ key i ≠ r0 ∧ key i ≠ r0 + 1 ∧ key i ≠ r0 + 2 ∧ key i ≠ r0 + 3 := by
    intro i
    simp only [Finset.mem_sdiff, m0, m1, m2, m3]
    constructor
    · rintro ⟨⟨⟨⟨ho, n0⟩, n1⟩, n2⟩, n3⟩
      exact ⟨ho, fun e => n0 ⟨ho, e⟩, fun e => n1 ⟨ho, e⟩, fun e => n2 ⟨ho, e⟩, fun e => n3 ⟨ho, e⟩⟩
    · rintro ⟨ho, n0, n1, n2, n3⟩
      exact ⟨⟨⟨⟨ho, fun m => n0 m.2⟩, fun m => n1 m.2⟩, fun m => n2 m.2⟩, fun m => n3 m.2⟩
  generalize ((((S \ A0) \ A1) \ A2) \ A3) = R at hR ⊢
  have D1 : Disjoint R A0 := Finset.disjoint_left.mpr fun i hi m => ((hR i).1 hi).2.1 ((m0 i).1 m).2
  have D2 : Disjoint (R ∪ A0) A1 := Finset.disjoint_left.mpr fun i hi m => by
    have e := ((m1 i).1 m).2
    rcases Finset.mem_union.1 hi with hi | hi
    · exact ((hR i).1 hi).2.2.1 e
    · have := ((m0 i).1 hi).2; omega
  have hT : (R ∪ A0) ∪ A1 = (S \ A2) \ A3 := by
    ext i
    simp only [Finset.mem_union, Finset.mem_sdiff]
    constructor
    · rintro ((hi | hi) | hi)
      · have a := (hR i).1 hi
        exact ⟨⟨a.1, fun m => a.2.2.2.1 ((m2 i).1 m).2⟩, fun m => a.2.2.2.2 ((m3 i).1 m).2⟩
      · have e := (m0 i).1 hi
        exact ⟨⟨e.1, fun m => by have := ((m2 i).1 m).2; omega⟩, fun m => by have := ((m3 i).1 m).2; omega⟩
      · have e := (m1 i).1 hi
        exact ⟨⟨e.1, fun m => by have := ((m2 i).1 m).2; omega⟩, fun m => by have := ((m3 i).1 m).2; omega⟩
    · rintro ⟨⟨ho, n2⟩, n3⟩
      by_cases c0 : key i = r0
      · exact .inl (.inr ((m0 i).2 ⟨ho, c0⟩))
      by_cases c1 : key i = r0 + 1
      · exact .inr ((m1 i).2 ⟨ho, c1⟩)
      exact .inl (.inl ((hR i).2 ⟨ho, c0, c1, fun e => n2 ((m2 i).2 ⟨ho, e⟩), fun e => n3 ((m3 i).2 ⟨ho, e⟩)⟩))
  iintro ⟨HR, H0, H1⟩
  ihave J := (join_in (F := F) D1) $$ [HR H0]
  · isplitl [HR]; · iexact HR
    iexact H0
  icases J with ⟨%g1, %a1, J⟩
  ihave J := (join_in (F := F) D2) $$ [J H1]
  · isplitl [J]; · iexact J
    iexact H1
  icases J with ⟨%g2, %a2, J⟩
  iexists g2
  isplitr
  · ipureintro
    refine ⟨fun i m => ?_, fun i m => a2.1 i m, fun i hS hlt => ?_⟩
    · rw [a2.2 i (Finset.mem_union.2 (.inr m)), a1.1 i m]
    · have hiR : i ∈ R := (hR i).2 ⟨hS, by omega, by omega, by omega, by omega⟩
      rw [a2.2 i (Finset.mem_union.2 (.inl hiR)), a1.2 i hiR]
  rw [← hT]
  iexact J

/-- After the first trip (or any trip before which nothing was being written): rows `r0, r0 + 1` came back, rows
    `r0 + 2, r0 + 3` are being written. -/
theorem outRest_rejoin2 (D : RingData (F := F) d L) (r0 r1 r2 r3 : Nat)
    (e1 : r1 = r0 + 1) (e2 : r2 = r0 + 2) (e3 : r3 = r0 + 3)
    (h0 : r0 < 200) (h1 : r1 < 200) (h2 : r2 < 200) (h3 : r3 < 200)
    (og f0 f1 : Buf (Elt F) (oLoc d))
    (hog : ∀ (h : Nat) (hh : h < 200), h < r0 → D.rowDone h hh og)
    (d0 : D.rowDone r0 h0 f0) (d1 : D.rowDone r1 h1 f1) :
    iprop(((oV).view.loc (thr d L) ↦[(((((oSet L : Finset S200x32x4096.Idx) \ (outRow L r0 h0).view.set) \ (outRow L r1 h1).view.set) \ (outRow L r2 h2).view.set)
            \ (outRow L r3 h3).view.set)]{fullShare} og)
        ∗ ((oV).view.loc (thr d L) ↦[(outRow L r0 h0).view.set]{fullShare} f0)
        ∗ ((oV).view.loc (thr d L) ↦[(outRow L r1 h1).view.set]{fullShare} f1))
      ⊢ (iprop(∃ og', ⌜∀ (h : Nat) (hh : h < 200), h < r2 → D.rowDone h hh og'⌝
          ∗ ((oV).view.loc (thr d L) ↦[((oSet L : Finset S200x32x4096.Idx) \ (outRow L r2 h2).view.set) \ (outRow L r3 h3).view.set]{fullShare} og')) : sProp 𝕄) := by
  subst e1 e2 e3
  refine (rejoin2_abs (F := F) (ℓ := (oV).view.loc (thr d L)) (q := fullShare) (fun (i : S200x32x4096.Idx) => (i 0).val) (oSet L)
    (outRow L r0 h0).view.set (outRow L (r0 + 1) h1).view.set (outRow L (r0 + 2) h2).view.set (outRow L (r0 + 3) h3).view.set r0
    (outRow_iff _ h0) (outRow_iff _ h1) (outRow_iff _ h2) (outRow_iff _ h3) og f0 f1).trans ?_
  iintro ⟨%g', %hg, H⟩
  iexists g'
  isplitr
  · ipureintro
    obtain ⟨a0, a1, alow⟩ := hg
    intro h hh hlt
    rcases (by omega : h < r0 ∨ h = r0 ∨ h = r0 + 1) with c | c | c
    · exact rowDone_congr D h hh og g' (fun i m => alow i ((outRow_iff h hh i).1 m).1 (by have := ((outRow_iff h hh i).1 m).2; omega)) (hog h hh c)
    · subst c; exact rowDone_congr D _ hh f0 g' (fun i m => a0 i m) d0
    · subst c; exact rowDone_congr D _ hh f1 g' (fun i m => a1 i m) d1
  iexact H

end Cert.Proof.Kernel

end
-- ==== Proof.KernelRingLast.lean ====
/-
  The last trip of the tile's pipeline (trip 49: positions 196 … 199). Nothing new is gathered but position 199,
  into the free slot; each of the four steps waits for its slot's gather and for the write-out two positions
  back, picks the quarters of the gathered rows into a result slot, and starts writing that slot out to its
  position of the tile's columns of the result. Afterwards all four gather slots are free, the write-outs of
  positions 198 and 199 are in flight, and the rest of the tile's part of the result — the rest before, minus the
  four rows written this trip, plus the four rows that came back — holds every position below 198 done.
-/
import proofs.«206503_g81295140979383_cont_9to1c4b_414_34_alg».proof.Proof.KernelRingLib
import proofs.«206503_g81295140979383_cont_9to1c4b_414_34_alg».proof.Proof.KernelRingRejoin
import proofs.«206503_g81295140979383_cont_9to1c4b_414_34_alg».proof.Proof.KernelQLoop
import proofs.«206503_g81295140979383_cont_9to1c4b_414_34_alg».proof.Proof.KernelExtract0
import proofs.«206503_g81295140979383_cont_9to1c4b_414_34_alg».proof.Proof.KernelExtract1
import proofs.«206503_g81295140979383_cont_9to1c4b_414_34_alg».proof.Proof.KernelExtract2
import proofs.«206503_g81295140979383_cont_9to1c4b_414_34_alg».proof.Proof.KernelExtract3

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords}

/-- Every word an offset list of the gathers holds names a row of the table. -/
theorem RingLast.hin_fq (fq : Buf (Elt F) ((thr d L).loc cc0_scratch1)) (h : ∀ p : S200x128.Idx, (fq p).toNat < 250000) :
    ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) fq x).toNat < 250000 := by
  intro off inb x
  exact h _

variable [FloatOps F]

/-! ## The program's rows, respelt -/

/-- A row held by its own elements through the program's memref is the row held through the array. -/
theorem RingLast.pts_row_off (off : Fin 3 → Nat) (h : Nat) (hh : h < 200) (hoff : off = ![h, 0, col0 L])
    (inb : ∀ a, off a + S1x32x128.size a ≤ S200x32x4096.size a) (X : Buf (Elt F) (oLoc d)) :
    ((((oV.slice (Rect.unit (s := S200x32x4096) off S1x32x128.size inb) (fun _ => rfl)).squeeze S32x128 squeezes_S1x32x128_S32x128).view.loc (thr d L)
        ↦[((oV.slice (Rect.unit (s := S200x32x4096) off S1x32x128.size inb) (fun _ => rfl)).squeeze S32x128 squeezes_S1x32x128_S32x128).view.set]{fullShare} X) : sProp 𝕄)
      = ((oV).view.loc (thr d L) ↦[(outRow L h hh).view.set]{fullShare} X) := by
  subst hoff; rfl

/-- What a whole write through the program's row leaves is what the same write through the row leaves. -/
theorem RingLast.writes_row_off (off : Fin 3 → Nat) (h : Nat) (hh : h < 200) (hoff : off = ![h, 0, col0 L])
    (inb : ∀ a, off a + S1x32x128.size a ≤ S200x32x4096.size a) (pay : S32x128.Idx → Elt F .f32) :
    ((((oV.slice (Rect.unit (s := S200x32x4096) off S1x32x128.size inb) (fun _ => rfl)).squeeze S32x128 squeezes_S1x32x128_S32x128).view.writes (Elt F)
        ((oV.slice (Rect.unit (s := S200x32x4096) off S1x32x128.size inb) (fun _ => rfl)).squeeze S32x128 squeezes_S1x32x128_S32x128).view.junk
        [⟨Rect.whole S32x128, pay⟩]) : Buf (Elt F) (oLoc d))
      = (outRow L h hh).view.writes (Elt F) (outRow L h hh).view.junk [⟨Rect.whole S32x128, pay⟩] := by
  subst hoff; rfl

/-- A part of the result minus four of the program's rows is the part minus the four rows. -/
theorem RingLast.rest_off (A : Finset S200x32x4096.Idx) (o0 o1 o2 o3 : Fin 3 → Nat) (r0 r1 r2 r3 : Nat) (h0 : r0 < 200) (h1 : r1 < 200) (h2 : r2 < 200) (h3 : r3 < 200)
    (e0 : o0 = ![r0, 0, col0 L]) (e1 : o1 = ![r1, 0, col0 L]) (e2 : o2 = ![r2, 0, col0 L]) (e3 : o3 = ![r3, 0, col0 L])
    (i0 : ∀ a, o0 a + S1x32x128.size a ≤ S200x32x4096.size a) (i1 : ∀ a, o1 a + S1x32x128.size a ≤ S200x32x4096.size a)
    (i2 : ∀ a, o2 a + S1x32x128.size a ≤ S200x32x4096.size a) (i3 : ∀ a, o3 a + S1x32x128.size a ≤ S200x32x4096.size a)
    (og : Buf (Elt F) (oLoc d)) :
    ((oV).view.loc (thr d L) ↦[((((A
        \ ((oV.slice (Rect.unit (s := S200x32x4096) o0 S1x32x128.size i0) (fun _ => rfl)).squeeze S32x128 squeezes_S1x32x128_S32x128).view.set)
        \ ((oV.slice (Rect.unit (s := S200x32x4096) o1 S1x32x128.size i1) (fun _ => rfl)).squeeze S32x128 squeezes_S1x32x128_S32x128).view.set)
        \ ((oV.slice (Rect.unit (s := S200x32x4096) o2 S1x32x128.size i2) (fun _ => rfl)).squeeze S32x128 squeezes_S1x32x128_S32x128).view.set)
        \ ((oV.slice (Rect.unit (s := S200x32x4096) o3 S1x32x128.size i3) (fun _ => rfl)).squeeze S32x128 squeezes_S1x32x128_S32x128).view.set)]{fullShare} og : sProp 𝕄)
      = ((oV).view.loc (thr d L) ↦[((((A \ (outRow L r0 h0).view.set) \ (outRow L r1 h1).view.set) \ (outRow L r2 h2).view.set) \ (outRow L r3 h3).view.set)]{fullShare} og) := by
  subst e0 e1 e2 e3; rfl

set_option maxHeartbeats 8000000 in
/-- The last trip keeps the pipeline's invariant. -/
theorem ring_last (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000)
    (k : Fin (Scf.trips k0_t2_loop.lb k0_t2_loop.ub k0_t2_loop.st)) (hk : k.val = 49) (acc : Unit) :
    (ringInv D k.val acc : sProp 𝕄) ⊢ wp frame (wpE (defs₀ (F := F)) 𝒱₀ (thr d L) none) Set.univ
      (k0_t2_body (F := F) L tV (Memref.isWhole_whole _) iV (Memref.isWhole_whole _) oV (Memref.isWhole_whole _) sI (Memref.isWhole_whole _)
        sQ (Memref.isWhole_whole _) sG (Memref.isWhole_whole _) sO (Memref.isWhole_whole _)
        cc0_scratch4 cc0_scratch5 cc0_scratch6 cc0_scratch7 cc0_scratch8 cc0_scratch9 cc0_scoped0 (iota .scVector S16 32 [0] iota_S16_d0_w32_scVector) k acc)
      (ringInv D (k.val + 1)) := by
  have hk50 : k.val < 50 := by omega
  have hk0 : ¬ k.val = 0 := by omega
  sl_respell [k0_t2_body]
  simp only [k0_part41_eq_skeleton, k0_part42_eq_skeleton, k0_part43_eq_skeleton]
  unfold k0_part41_skel k0_part42_skel k0_part43_skel
  simp only [Prog.bind_assoc]
  have k0_h1 : k0_cond1 k = 1#1 := cond1_eq k
  have k0_h2 : k0_cond2 k = 1#1 := (cond2_eq k).2 (by omega)
  have k0_h3 : ¬ k0_cond3 k = 1#1 := fun h => by have := (cond3_eq k).1 h; omega
  have k0_h4 : k0_cond4 k = 1#1 := (cond4_eq k).2 (by omega)
  have k0_h5 : ¬ k0_cond5 k = 1#1 := fun h => by have := (cond5_eq k).1 h; omega
  have k0_h6 : k0_cond6 k = 1#1 := cond6_eq k
  have k0_h7 : ¬ k0_cond7 k = 1#1 := fun h => by have := (cond7_eq k).1 h; omega
  have k0_h8 : k0_cond8 k = 1#1 := cond8_eq k
  have hin := RingLast.hin_fq (F := F) D.fq hfq
  have qs0 : D.qs 0 = Transfers.shareDrop D.qQ 3 := rfl
  have qs1 : D.qs 1 = Transfers.shareTokN D.qQ 0 := rfl
  have qs2 : D.qs 2 = Transfers.shareTokN D.qQ 1 := rfl
  have qs3 : D.qs 3 = Transfers.shareTokN D.qQ 2 := rfl
  generalize hQ : (ringInv D (k.val + 1) : Unit → sProp 𝕄) = Q
  unfold ringInv RingData.gPart RingData.wPart
  rw [dif_pos hk50, dif_neg hk0, dif_pos (by omega : k.val ≤ 50)]
  unfold RingData.busy RingData.free RingData.writing RingData.outRest
  rw [qs0, qs1, qs2, qs3]
  iintro ⟨#Hmw, Hs0, ⟨⟨⟨%c0, %hgath0, Hg0⟩, Ht0, Hq0⟩, ⟨⟨%c1, %hgath1, Hg1⟩, Ht1, Hq1⟩, ⟨⟨%c2, %hgath2, Hg2⟩, Ht2, Hq2⟩, ⟨Hg3, ⟨%c3f, Hs2⟩, Ht3, Hq3⟩⟩, ⟨⟨%cw0, %ow0, %hdone0, Hw0⟩, ⟨%cw1, %ow1, %hdone1, Hw1⟩, ⟨%og, %hog, Ho⟩⟩, %W', %hW', HO⟩
  have hv3 : ∀ l : Fin 16, (iota Kind.scVector S16 32 [0] iota_S16_d0_w32_scVector) (ix1 l) = BitVec.ofNat 32 l.val :=
    fun l => iota_single_apply .scVector S16 32 0 iota_S16_d0_w32_scVector (ix1 l)
  have e38_0 : ((oV.slice (Rect.unit (s := S200x32x4096) (k0_off38 L k 0#32) S1x32x128.size (k0_off38_inb L k 0)) (fun _ => rfl)).squeeze S32x128 squeezes_S1x32x128_S32x128) = outRow L (4 * k.val + 0) (by omega) := row_eq L _ _ _ (k0_off38_eq L k 0) _ _
  have e38_1 : ((oV.slice (Rect.unit (s := S200x32x4096) (k0_off38 L k 1#32) S1x32x128.size (k0_off38_inb L k 1)) (fun _ => rfl)).squeeze S32x128 squeezes_S1x32x128_S32x128) = outRow L (4 * k.val + 1) (by omega) := row_eq L _ _ _ (k0_off38_eq L k 1) _ _
  have e38_2 : ((oV.slice (Rect.unit (s := S200x32x4096) (k0_off38 L k 2#32) S1x32x128.size (k0_off38_inb L k 2)) (fun _ => rfl)).squeeze S32x128 squeezes_S1x32x128_S32x128) = outRow L (4 * k.val + 2) (by omega) := row_eq L _ _ _ (k0_off38_eq L k 2) _ _
  have e38_3 : ((oV.slice (Rect.unit (s := S200x32x4096) (k0_off38 L k 3#32) S1x32x128.size (k0_off38_inb L k 3)) (fun _ => rfl)).squeeze S32x128 squeezes_S1x32x128_S32x128) = outRow L (4 * k.val + 3) (by omega) := row_eq L _ _ _ (k0_off38_eq L k 3) _ _
  have pts_g : ∀ (s : Nat) (hs : s < 4) (inb) (c : Buf (Elt F) ((thr d L).loc cc0_scratch2)), ((sG).view.loc (thr d L) ↦[(slotGn s inb).view.set]{fullShare} c : sProp 𝕄)
      = ((slotG s hs).view.loc (thr d L) ↦[(slotG s hs).view.set]{fullShare} c) := fun _ _ _ _ => rfl
  have pts_o : ∀ (b : Nat) (hb : b < 2) (inb) (c : Buf (Elt F) ((thr d L).loc cc0_scratch3)), ((sO).view.loc (thr d L) ↦[(slotOn b inb).view.set]{fullShare} c : sProp 𝕄)
      = ((slotO b hb).view.loc (thr d L) ↦[(slotO b hb).view.set]{fullShare} c) := fun _ _ _ _ => rfl
  have hA : 4 * k.val - 2 < 200 := by omega
  have hB : 4 * k.val - 1 < 200 := by omega
  sl_exec
  irename Hw0_dst => HrA
  sl_rw [Prog.bind_assoc]
  sl_for (extractInv_0 (F := F) d L k D.fI c0) $$ [Hs0 Hg0_dst Hw0_src]
  case region => exact extract_region_0 d L _ hv3 _ _ k _ D.fI c0
  · iapply (extract_intro_0 d L k D.fI c0 ow0)
    isplitl [Hs0]; · iexact Hs0
    isplitl [Hg0_dst]; · iexact Hg0_dst
    iexact Hw0_src
  iintro %acc0x HInv
  have h8_0 : Scf.trips k0_t3_loop.lb k0_t3_loop.ub k0_t3_loop.st = 8 := by decide
  have e8_0 : extractInv_0 (F := F) d L k D.fI c0 (Scf.trips k0_t3_loop.lb k0_t3_loop.ub k0_t3_loop.st) acc0x = extractInv_0 (F := F) d L k D.fI c0 8 () := by rw [h8_0]
  ihave HInv := (Entails.of_eq e8_0) $$ HInv
  ihave HInv := (extract_elim_0 d L k D.fI c0) $$ HInv
  icases HInv with ⟨Hs0, Hg0_dst, %o0', HO0, %hval0⟩
  ihave Hg0_dst := (Entails.of_eq (pts_g 0 lt4_0 _ c0)) $$ Hg0_dst
  ihave HO0 := (Entails.of_eq (pts_o 0 lt2_0 _ o0')) $$ HO0
  have hsubR0 : (((oV.slice (Rect.unit (s := S200x32x4096) (k0_off38 L k 0#32) S1x32x128.size (k0_off38_inb L k 0)) (fun _ => rfl)).squeeze S32x128 squeezes_S1x32x128_S32x128).view.set : Finset S200x32x4096.Idx) ⊆ ((oSet L \ (outRow L (4 * k.val - 2) hA).view.set) \ (outRow L (4 * k.val - 1) hB).view.set : Finset S200x32x4096.Idx) := by
    intro i hi
    have hm := (prow_mem L _ (4 * k.val + 0) (by omega) (k0_off38_eq L k 0) _ _ i).1 hi
    refine Finset.mem_sdiff.2 ⟨Finset.mem_sdiff.2 ⟨(oSet_mem' L i).2 ⟨hm.2.1, hm.2.2⟩, ?_⟩, ?_⟩
    · intro h'; have := ((outRow_mem L _ _ i).1 h').1; omega
    · intro h'; have := ((outRow_mem L _ _ i).1 h').1; omega

  ihave Ho := (pointsTo_split_subset (ℓ := (oV).view.loc (thr d L)) hsubR0).1 $$ Ho
  icases Ho with ⟨HR0, Ho⟩
  have pts_r0 : ∀ c : Buf (Elt F) (oLoc d), ((oV).view.loc (thr d L) ↦[((oV.slice (Rect.unit (s := S200x32x4096) (k0_off38 L k 0#32) S1x32x128.size (k0_off38_inb L k 0)) (fun _ => rfl)).squeeze S32x128 squeezes_S1x32x128_S32x128).view.set]{fullShare} c : sProp 𝕄)
      = (((oV.slice (Rect.unit (s := S200x32x4096) (k0_off38 L k 0#32) S1x32x128.size (k0_off38_inb L k 0)) (fun _ => rfl)).squeeze S32x128 squeezes_S1x32x128_S32x128).view.loc (thr d L) ↦[((oV.slice (Rect.unit (s := S200x32x4096) (k0_off38 L k 0#32) S1x32x128.size (k0_off38_inb L k 0)) (fun _ => rfl)).squeeze S32x128 squeezes_S1x32x128_S32x128).view.set]{fullShare} c) := fun _ => rfl
  ihave HR0 := (Entails.of_eq (pts_r0 og)) $$ HR0
  sl_exec
  irename Hw1_dst => HrB
  sl_rw [Prog.bind_assoc]
  sl_for (extractInv_1 (F := F) d L k D.fI c1) $$ [Hs0 Hg1_dst Hw1_src]
  case region => exact extract_region_1 d L _ hv3 k _ _ D.fI c1
  · iapply (extract_intro_1 d L k D.fI c1 ow1)
    isplitl [Hs0]; · iexact Hs0
    isplitl [Hg1_dst]; · iexact Hg1_dst
    iexact Hw1_src
  iintro %acc1x HInv
  have h8_1 : Scf.trips k0_t4_loop.lb k0_t4_loop.ub k0_t4_loop.st = 8 := by decide
  have e8_1 : extractInv_1 (F := F) d L k D.fI c1 (Scf.trips k0_t4_loop.lb k0_t4_loop.ub k0_t4_loop.st) acc1x = extractInv_1 (F := F) d L k D.fI c1 8 () := by rw [h8_1]
  ihave HInv := (Entails.of_eq e8_1) $$ HInv
  ihave HInv := (extract_elim_1 d L k D.fI c1) $$ HInv
  icases HInv with ⟨Hs0, Hg1_dst, %o1', HO1, %hval1⟩
  ihave Hg1_dst := (Entails.of_eq (pts_g 1 lt4_1 _ c1)) $$ Hg1_dst
  ihave HO1 := (Entails.of_eq (pts_o 1 lt2_1 _ o1')) $$ HO1
  have hsubR1 : (((oV.slice (Rect.unit (s := S200x32x4096) (k0_off38 L k 1#32) S1x32x128.size (k0_off38_inb L k 1)) (fun _ => rfl)).squeeze S32x128 squeezes_S1x32x128_S32x128).view.set : Finset S200x32x4096.Idx) ⊆ (((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set : Finset S200x32x4096.Idx) := by
    intro i hi
    have hm := (prow_mem L _ (4 * k.val + 1) (by omega) (k0_off38_eq L k 1) _ _ i).1 hi
    refine Finset.mem_sdiff.2 ⟨Finset.mem_sdiff.2 ⟨Finset.mem_sdiff.2 ⟨(oSet_mem' L i).2 ⟨hm.2.1, hm.2.2⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
  ihave Ho := (pointsTo_split_subset (ℓ := (oV).view.loc (thr d L)) hsubR1).1 $$ Ho
  icases Ho with ⟨HR1, Ho⟩
  have pts_r1 : ∀ c : Buf (Elt F) (oLoc d), ((oV).view.loc (thr d L) ↦[((oV.slice (Rect.unit (s := S200x32x4096) (k0_off38 L k 1#32) S1x32x128.size (k0_off38_inb L k 1)) (fun _ => rfl)).squeeze S32x128 squeezes_S1x32x128_S32x128).view.set]{fullShare} c : sProp 𝕄)
      = (((oV.slice (Rect.unit (s := S200x32x4096) (k0_off38 L k 1#32) S1x32x128.size (k0_off38_inb L k 1)) (fun _ => rfl)).squeeze S32x128 squeezes_S1x32x128_S32x128).view.loc (thr d L) ↦[((oV.slice (Rect.unit (s := S200x32x4096) (k0_off38 L k 1#32) S1x32x128.size (k0_off38_inb L k 1)) (fun _ => rfl)).squeeze S32x128 squeezes_S1x32x128_S32x128).view.set]{fullShare} c) := fun _ => rfl
  ihave HR1 := (Entails.of_eq (pts_r1 og)) $$ HR1
  sl_exec
  sl_rw [Prog.bind_assoc]
  sl_for (extractInv_2 (F := F) d L k D.fI c2) $$ [Hs0 Hg2_dst HO0]
  case region => exact extract_region_2 d L _ hv3 k _ _ _ D.fI c2
  · iapply (extract_intro_2 d L k D.fI c2 _)
    isplitl [Hs0]; · iexact Hs0
    isplitl [Hg2_dst]; · iexact Hg2_dst
    iexact HO0
  iintro %acc2x HInv
  have h8_2 : Scf.trips k0_t5_loop.lb k0_t5_loop.ub k0_t5_loop.st = 8 := by decide
  have e8_2 : extractInv_2 (F := F) d L k D.fI c2 (Scf.trips k0_t5_loop.lb k0_t5_loop.ub k0_t5_loop.st) acc2x = extractInv_2 (F := F) d L k D.fI c2 8 () := by rw [h8_2]
  ihave HInv := (Entails.of_eq e8_2) $$ HInv
  ihave HInv := (extract_elim_2 d L k D.fI c2) $$ HInv
  icases HInv with ⟨Hs0, Hg2_dst, %o2', HO2, %hval2⟩
  ihave Hg2_dst := (Entails.of_eq (pts_g 2 lt4_2 _ c2)) $$ Hg2_dst
  ihave HO2 := (Entails.of_eq (pts_o 0 lt2_0 _ o2')) $$ HO2
  have hsubR2 : (((oV.slice (Rect.unit (s := S200x32x4096) (k0_off38 L k 2#32) S1x32x128.size (k0_off38_inb L k 2)) (fun _ => rfl)).squeeze S32x128 squeezes_S1x32x128_S32x128).view.set : Finset S200x32x4096.Idx) ⊆ ((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set : Finset S200x32x4096.Idx) := by
    intro i hi
    have hm := (prow_mem L _ (4 * k.val + 2) (by omega) (k0_off38_eq L k 2) _ _ i).1 hi
    refine Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
  ihave Ho := (pointsTo_split_subset (ℓ := (oV).view.loc (thr d L)) hsubR2).1 $$ Ho
  icases Ho with ⟨HR2, Ho⟩
  have pts_r2 : ∀ c : Buf (Elt F) (oLoc d), ((oV).view.loc (thr d L) ↦[((oV.slice (Rect.unit (s := S200x32x4096) (k0_off38 L k 2#32) S1x32x128.size (k0_off38_inb L k 2)) (fun _ => rfl)).squeeze S32x128 squeezes_S1x32x128_S32x128).view.set]{fullShare} c : sProp 𝕄)
      = (((oV.slice (Rect.unit (s := S200x32x4096) (k0_off38 L k 2#32) S1x32x128.size (k0_off38_inb L k 2)) (fun _ => rfl)).squeeze S32x128 squeezes_S1x32x128_S32x128).view.loc (thr d L) ↦[((oV.slice (Rect.unit (s := S200x32x4096) (k0_off38 L k 2#32) S1x32x128.size (k0_off38_inb L k 2)) (fun _ => rfl)).squeeze S32x128 squeezes_S1x32x128_S32x128).view.set]{fullShare} c) := fun _ => rfl
  ihave HR2 := (Entails.of_eq (pts_r2 og)) $$ HR2
  sl_exec
  -- step 3: the gathered rows of position 4k+3, their quarters into result slot 1, the write-out of row 4k+3
  have hgath3 : D.gathered 3 lt4_3 (4 * k.val + 3) (by omega)
      ((slotG 3 lt4_3).view.writes (Elt F) (slotG 3 lt4_3).view.junk [⟨Rect.whole S128x128, ring_last.sl.gather0 D k k0_h1 hin⟩]) := by
    unfold ring_last.sl.gather0
    exact gathered_off D 3 lt4_3 (4 * k.val + 3) (by omega) _ (k0_off3_eq k) _ _ _ _
  generalize (slotG 3 lt4_3).view.writes (Elt F) (slotG 3 lt4_3).view.junk [⟨Rect.whole S128x128, ring_last.sl.gather0 D k k0_h1 hin⟩] = c3 at hgath3 ⊢
  ihave Hg3_dst := (Entails.of_eq (pts_g 3 lt4_3 inb_S4x128x128_S1x128x128_3_0_0 c3).symm) $$ Hs2
  sl_for (extractInv_3 (F := F) d L k D.fI c3) $$ [Hs0 Hg3_dst HO1]
  case region => exact extract_region_3 d L _ hv3 k _ D.fI c3
  · iapply (extract_intro_3 d L k D.fI c3 _)
    isplitl [Hs0]; · iexact Hs0
    isplitl [Hg3_dst]; · iexact Hg3_dst
    iexact HO1
  iintro %acc3x HInv
  have h8_3 : Scf.trips k0_t6_loop.lb k0_t6_loop.ub k0_t6_loop.st = 8 := by decide
  have e8_3 : extractInv_3 (F := F) d L k D.fI c3 (Scf.trips k0_t6_loop.lb k0_t6_loop.ub k0_t6_loop.st) acc3x = extractInv_3 (F := F) d L k D.fI c3 8 () := by rw [h8_3]
  ihave HInv := (Entails.of_eq e8_3) $$ HInv
  ihave HInv := (extract_elim_3 d L k D.fI c3) $$ HInv
  icases HInv with ⟨Hs0, Hg3_dst, %o3', HO3, %hval3⟩
  ihave Hg3_dst := (Entails.of_eq (pts_g 3 lt4_3 _ c3)) $$ Hg3_dst
  ihave HO3 := (Entails.of_eq (pts_o 1 lt2_1 _ o3')) $$ HO3
  have hsubR3 : (((oV.slice (Rect.unit (s := S200x32x4096) (k0_off38 L k 3#32) S1x32x128.size (k0_off38_inb L k 3)) (fun _ => rfl)).squeeze S32x128 squeezes_S1x32x128_S32x128).view.set : Finset S200x32x4096.Idx) ⊆ (((((oSet L \ (outRow L (4 * k.val - 2) hA).view.set) \ (outRow L (4 * k.val - 1) hB).view.set) \ ((oV.slice (Rect.unit (s := S200x32x4096) (k0_off38 L k 0#32) S1x32x128.size (k0_off38_inb L k 0)) (fun _ => rfl)).squeeze S32x128 squeezes_S1x32x128_S32x128).view.set) \ ((oV.slice (Rect.unit (s := S200x32x4096) (k0_off38 L k 1#32) S1x32x128.size (k0_off38_inb L k 1)) (fun _ => rfl)).squeeze S32x128 squeezes_S1x32x128_S32x128).view.set) \ ((oV.slice (Rect.unit (s := S200x32x4096) (k0_off38 L k 2#32) S1x32x128.size (k0_off38_inb L k 2)) (fun _ => rfl)).squeeze S32x128 squeezes_S1x32x128_S32x128).view.set : Finset S200x32x4096.Idx) := by
    intro i hi
    have hm := (prow_mem L _ (4 * k.val + 3) (by omega) (k0_off38_eq L k 3) _ _ i).1 hi
    refine Finset.mem_sdiff.2 ⟨Finset.mem_sdiff.2 ⟨Finset.mem_sdiff.2 ⟨Finset.mem_sdiff.2 ⟨Finset.mem_sdiff.2 ⟨(oSet_mem' L i).2 ⟨hm.2.1, hm.2.2⟩, ?_⟩, ?_⟩, ?_⟩, ?_⟩, ?_⟩
    · intro h'; have := ((outRow_mem L _ _ i).1 h').1; omega
    · intro h'; have := ((outRow_mem L _ _ i).1 h').1; omega
    · intro h'; have := ((prow_mem L _ (4 * k.val + 0) (by omega) (k0_off38_eq L k 0) _ _ i).1 h').1; omega
    · intro h'; have := ((prow_mem L _ (4 * k.val + 1) (by omega) (k0_off38_eq L k 1) _ _ i).1 h').1; omega
    · intro h'; have := ((prow_mem L _ (4 * k.val + 2) (by omega) (k0_off38_eq L k 2) _ _ i).1 h').1; omega
  ihave Ho := (pointsTo_split_subset (ℓ := (oV).view.loc (thr d L)) hsubR3).1 $$ Ho
  icases Ho with ⟨HR3, Ho⟩
  have pts_r3 : ∀ c : Buf (Elt F) (oLoc d), ((oV).view.loc (thr d L) ↦[((oV.slice (Rect.unit (s := S200x32x4096) (k0_off38 L k 3#32) S1x32x128.size (k0_off38_inb L k 3)) (fun _ => rfl)).squeeze S32x128 squeezes_S1x32x128_S32x128).view.set]{fullShare} c : sProp 𝕄)
      = ((((oV.slice (Rect.unit (s := S200x32x4096) (k0_off38 L k 3#32) S1x32x128.size (k0_off38_inb L k 3)) (fun _ => rfl)).squeeze S32x128 squeezes_S1x32x128_S32x128)).view.loc (thr d L) ↦[((oV.slice (Rect.unit (s := S200x32x4096) (k0_off38 L k 3#32) S1x32x128.size (k0_off38_inb L k 3)) (fun _ => rfl)).squeeze S32x128 squeezes_S1x32x128_S32x128).view.set]{fullShare} c) := fun _ => rfl
  ihave HR3 := (Entails.of_eq (pts_r3 og)) $$ HR3
  sl_exec
  rw [wp_ret]; imodintro
  subst hQ
  -- the positions' bounds, by name
  have h40 : 4 * k.val + 0 < 200 := by omega
  have h41 : 4 * k.val + 1 < 200 := by omega
  have h42 : 4 * k.val + 2 < 200 := by omega
  have h43 : 4 * k.val + 3 < 200 := by omega
  -- what the four write-outs carried: the result slots, read through their own pieces
  have hpay0 : ∀ (dd : Fin 32) (col : Fin 128), ring_last.sl.dma0 o0' (ix2 dd col) = o0' (ix3 (⟨0, lt2_0⟩ : Fin 2) dd col) := by
    intro dd col; unfold ring_last.sl.dma0; exact slotO_read 0 lt2_0 o0' dd col
  have hpay1 : ∀ (dd : Fin 32) (col : Fin 128), ring_last.sl.dma0_1 o1' (ix2 dd col) = o1' (ix3 (⟨1, lt2_1⟩ : Fin 2) dd col) := by
    intro dd col; unfold ring_last.sl.dma0_1; exact slotO_read 1 lt2_1 o1' dd col
  have hpay2 : ∀ (dd : Fin 32) (col : Fin 128), ring_last.sl.dma0_2 o2' (ix2 dd col) = o2' (ix3 (⟨0, lt2_0⟩ : Fin 2) dd col) := by
    intro dd col; unfold ring_last.sl.dma0_2; exact slotO_read 0 lt2_0 o2' dd col
  have hpay3 : ∀ (dd : Fin 32) (col : Fin 128), ring_last.sl.dma0_3 o3' (ix2 dd col) = o3' (ix3 (⟨1, lt2_1⟩ : Fin 2) dd col) := by
    intro dd col; unfold ring_last.sl.dma0_3; exact slotO_read 1 lt2_1 o3' dd col
  -- the four rows written this trip are done
  have hD0 : D.rowDone (4 * k.val + 0) h40 ((outRow L (4 * k.val + 0) h40).view.writes (Elt F) (outRow L (4 * k.val + 0) h40).view.junk [⟨Rect.whole S32x128, ring_last.sl.dma0 o0'⟩]) :=
    rowDone_written D hfI hq hix 0 lt4_0 0 lt2_0 (4 * k.val + 0) h40 c0 hgath0 o0' (hval_of_extract D.fI c0 o0' 0 lt4_0 0 lt2_0 (4 * k.val + 0) h40 hval0) _ _ hpay0
  have hD1 : D.rowDone (4 * k.val + 1) h41 ((outRow L (4 * k.val + 1) h41).view.writes (Elt F) (outRow L (4 * k.val + 1) h41).view.junk [⟨Rect.whole S32x128, ring_last.sl.dma0_1 o1'⟩]) :=
    rowDone_written D hfI hq hix 1 lt4_1 1 lt2_1 (4 * k.val + 1) h41 c1 hgath1 o1' (hval_of_extract D.fI c1 o1' 1 lt4_1 1 lt2_1 (4 * k.val + 1) h41 hval1) _ _ hpay1
  have hD2 : D.rowDone (4 * k.val + 2) h42 (((oV.slice (Rect.unit (s := S200x32x4096) (k0_off38 L k 2#32) S1x32x128.size (k0_off38_inb L k 2)) (fun _ => rfl)).squeeze S32x128 squeezes_S1x32x128_S32x128).view.writes (Elt F) og [⟨Rect.whole S32x128, ring_last.sl.dma0_2 o2'⟩]) :=
    rowDone_written_off D hfI hq hix 2 lt4_2 0 lt2_0 (4 * k.val + 2) h42 (k0_off38 L k 2#32) (k0_off38_eq L k 2) (k0_off38_inb L k 2) c2 hgath2 o2'
      (hval_of_extract D.fI c2 o2' 2 lt4_2 0 lt2_0 (4 * k.val + 2) h42 hval2) og _ hpay2
  have hD3 : D.rowDone (4 * k.val + 3) h43 (((oV.slice (Rect.unit (s := S200x32x4096) (k0_off38 L k 3#32) S1x32x128.size (k0_off38_inb L k 3)) (fun _ => rfl)).squeeze S32x128 squeezes_S1x32x128_S32x128).view.writes (Elt F) og [⟨Rect.whole S32x128, ring_last.sl.dma0_3 o3'⟩]) :=
    rowDone_written_off D hfI hq hix 3 lt4_3 1 lt2_1 (4 * k.val + 3) h43 (k0_off38 L k 3#32) (k0_off38_eq L k 3) (k0_off38_inb L k 3) c3 hgath3 o3'
      (hval_of_extract D.fI c3 o3' 3 lt4_3 1 lt2_1 (4 * k.val + 3) h43 hval3) og _ hpay3
  -- the two write-outs in flight: positions 4k+2 and 4k+3
  ihave Hwr0 := (writing_of_prog D 0 lt2_0 cc0_scratch8 (k0_off38 L k 2#32) (4 * k.val + 2) h42 (k0_off38_eq L k 2) (k0_off38_inb L k 2) (fun _ => rfl) _ o2' hD2) $$ [Hw0]
  · iexact Hw0
  ihave Hwr1 := (writing_of_prog D 1 lt2_1 cc0_scratch9 (k0_off38 L k 3#32) (4 * k.val + 3) h43 (k0_off38_eq L k 3) (k0_off38_inb L k 3) (fun _ => rfl) _ o3' hD3) $$ [Hw1]
  · iexact Hw1
  -- the rest of the tile's part and the four rows that came back, in the rows' own spelling
  ihave Ho := (Entails.of_eq (RingLast.rest_off (F := F) (d := d) ((oSet L \ (outRow L (4 * k.val - 2) hA).view.set) \ (outRow L (4 * k.val - 1) hB).view.set)
      (k0_off38 L k 0#32) (k0_off38 L k 1#32) (k0_off38 L k 2#32) (k0_off38 L k 3#32) (4 * k.val + 0) (4 * k.val + 1) (4 * k.val + 2) (4 * k.val + 3) h40 h41 h42 h43
      (k0_off38_eq L k 0) (k0_off38_eq L k 1) (k0_off38_eq L k 2) (k0_off38_eq L k 3) (k0_off38_inb L k 0) (k0_off38_inb L k 1) (k0_off38_inb L k 2) (k0_off38_inb L k 3) og)) $$ Ho
  ihave HR0 := (Entails.of_eq ((RingLast.pts_row_off (F := F) (d := d) (k0_off38 L k 0#32) (4 * k.val + 0) h40 (k0_off38_eq L k 0) (k0_off38_inb L k 0) _).trans
      (congrArg (fun X => ((oV).view.loc (thr d L) ↦[(outRow L (4 * k.val + 0) h40).view.set]{fullShare} X : sProp 𝕄))
        (RingLast.writes_row_off (F := F) (k0_off38 L k 0#32) (4 * k.val + 0) h40 (k0_off38_eq L k 0) (k0_off38_inb L k 0) (ring_last.sl.dma0 o0'))))) $$ HR0
  ihave HR1 := (Entails.of_eq ((RingLast.pts_row_off (F := F) (d := d) (k0_off38 L k 1#32) (4 * k.val + 1) h41 (k0_off38_eq L k 1) (k0_off38_inb L k 1) _).trans
      (congrArg (fun X => ((oV).view.loc (thr d L) ↦[(outRow L (4 * k.val + 1) h41).view.set]{fullShare} X : sProp 𝕄))
        (RingLast.writes_row_off (F := F) (k0_off38 L k 1#32) (4 * k.val + 1) h41 (k0_off38_eq L k 1) (k0_off38_inb L k 1) (ring_last.sl.dma0_1 o1'))))) $$ HR1
  ihave Hjoin := (outRest_rejoin4 D (4 * k.val - 2) (4 * k.val - 1) (4 * k.val + 0) (4 * k.val + 1) (4 * k.val + 2) (4 * k.val + 3)
      (by omega) (by omega) (by omega) (by omega) (by omega) hA hB h40 h41 h42 h43 og cw0 cw1 _ _
      (fun h hh hlt => hog h hh (by omega)) hdone0 hdone1 hD0 hD1) $$ [Ho HrA HrB HR0 HR1]
  · isplitl [Ho]; · iexact Ho
    isplitl [HrA]; · iexact HrA
    isplitl [HrB]; · iexact HrB
    isplitl [HR0]; · iexact HR0
    iexact HR1
  icases Hjoin with ⟨%og', %hog', Hrest⟩
  -- the invariant before trip 50: nothing gathering, the last two write-outs in flight
  unfold ringInv RingData.gPart RingData.wPart
  rw [dif_neg (by omega : ¬ k.val + 1 < 50), dif_neg (by omega : ¬ k.val + 1 = 0), dif_pos (by omega : k.val + 1 ≤ 50)]
  unfold RingData.free RingData.outRest
  rw [qs0, qs1, qs2, qs3]
  isplitr; · iexact Hmw
  isplitl [Hs0]; · iexact Hs0
  isplitl [Hg0 Hg0_dst Ht0 Hq0 Hg1 Hg1_dst Ht1 Hq1 Hg2 Hg2_dst Ht2 Hq2 Hg3 Hg3_dst Ht3 Hq3]
  · isplitl [Hg0 Hg0_dst Ht0 Hq0]
    · isplitl [Hg0]; · iexact Hg0
      isplitl [Hg0_dst]; · iexists _; iexact Hg0_dst
      isplitl [Ht0]; · iexact Ht0
      iexact Hq0
    isplitl [Hg1 Hg1_dst Ht1 Hq1]
    · isplitl [Hg1]; · iexact Hg1
      isplitl [Hg1_dst]; · iexists _; iexact Hg1_dst
      isplitl [Ht1]; · iexact Ht1
      iexact Hq1
    isplitl [Hg2 Hg2_dst Ht2 Hq2]
    · isplitl [Hg2]; · iexact Hg2
      isplitl [Hg2_dst]; · iexists _; iexact Hg2_dst
      isplitl [Ht2]; · iexact Ht2
      iexact Hq2
    isplitl [Hg3]; · iexact Hg3
    isplitl [Hg3_dst]; · iexists _; iexact Hg3_dst
    isplitl [Ht3]; · iexact Ht3
    iexact Hq3
  isplitl [Hwr0 Hwr1 Hrest]
  · isplitl [Hwr0]
    · iapply (Entails.of_eq (congrArg (fun (p : {n : Nat // n < 200}) => (D.writing 0 lt2_0 cc0_scratch8 p.1 p.2 : sProp 𝕄))
        (Subtype.ext (by show 4 * k.val + 2 = 4 * (k.val + 1) - 2; omega) : (⟨4 * k.val + 2, h42⟩ : {n : Nat // n < 200}) = ⟨4 * (k.val + 1) - 2, by omega⟩)))
      iexact Hwr0
    isplitl [Hwr1]
    · iapply (Entails.of_eq (congrArg (fun (p : {n : Nat // n < 200}) => (D.writing 1 lt2_1 cc0_scratch9 p.1 p.2 : sProp 𝕄))
        (Subtype.ext (by show 4 * k.val + 3 = 4 * (k.val + 1) - 1; omega) : (⟨4 * k.val + 3, h43⟩ : {n : Nat // n < 200}) = ⟨4 * (k.val + 1) - 1, by omega⟩)))
      iexact Hwr1
    iexists og'
    isplitr
    · ipureintro; exact fun h hh hlt => hog' h hh (by omega)
    iapply (Entails.of_eq (congrArg (fun (p : {n : Nat // n < 200} × {n : Nat // n < 200}) =>
        ((oV).view.loc (thr d L) ↦[((oSet L : Finset S200x32x4096.Idx) \ (outRow L p.1.1 p.1.2).view.set) \ (outRow L p.2.1 p.2.2).view.set]{fullShare} og' : sProp 𝕄))
      (Prod.ext (Subtype.ext (by show 4 * k.val + 2 = 4 * (k.val + 1) - 2; omega)) (Subtype.ext (by show 4 * k.val + 3 = 4 * (k.val + 1) - 1; omega))
        : ((⟨4 * k.val + 2, h42⟩, ⟨4 * k.val + 3, h43⟩) : {n : Nat // n < 200} × {n : Nat // n < 200}) = (⟨4 * (k.val + 1) - 2, by omega⟩, ⟨4 * (k.val + 1) - 1, by omega⟩))))
    iexact Hrest
  iexists _
  isplitr
  rotate_left
  · iexact HO
  ipureintro
  intro p hp
  simp only [Finset.mem_insert] at hp
  rcases hp with h | h | h | h | h | h | h | h | h
  all_goals first | exact hW' p h | (right; rw [h]; rfl)

end Cert.Proof.Kernel

end
-- ==== Proof.KernelRing.lean ====
/-
  One trip of the pipeline keeps its invariant: the first trip (no write-out in flight yet), the last trip (no
  position left to gather after the 200th), and every trip between them.
-/
import proofs.«206503_g81295140979383_cont_9to1c4b_414_34_alg».proof.Proof.KernelRingFirst
import proofs.«206503_g81295140979383_cont_9to1c4b_414_34_alg».proof.Proof.KernelRingMid
import proofs.«206503_g81295140979383_cont_9to1c4b_414_34_alg».proof.Proof.KernelRingLast

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {L : grid0.Coords} [FloatOps F]

theorem trips_t2 : Scf.trips k0_t2_loop.lb k0_t2_loop.ub k0_t2_loop.st = 50 := by decide

set_option maxHeartbeats 8000000 in
theorem ring_region (D : RingData (F := F) d L)
    (hfI : ∀ (h : Fin 200) (col : Fin 128), D.fI (ix2 h col) = D.ix (ix2 h (tcol L col)))
    (hq : ∀ p : S200x128.Idx, (D.fq p).toNat = (D.fI p).toNat / 4)
    (hix : ∀ j, (D.ix j).toNat < 1000000) (hfq : ∀ p : S200x128.Idx, (D.fq p).toNat < 250000) :
    ∀ (k : Fin (Scf.trips k0_t2_loop.lb k0_t2_loop.ub k0_t2_loop.st)) (acc : Unit),
      ringInv D k.val acc ⊢ wp frame (wpE (defs₀ (F := F)) 𝒱₀ (thr d L) none) Set.univ
        (k0_t2_body (F := F) L tV (Memref.isWhole_whole _) iV (Memref.isWhole_whole _) oV (Memref.isWhole_whole _) sI (Memref.isWhole_whole _)
          sQ (Memref.isWhole_whole _) sG (Memref.isWhole_whole _) sO (Memref.isWhole_whole _) cc0_scratch4 cc0_scratch5 cc0_scratch6 cc0_scratch7
          cc0_scratch8 cc0_scratch9 cc0_scoped0 (iota .scVector S16 32 [0] iota_S16_d0_w32_scVector) k acc)
        (ringInv D (k.val + 1)) := by
  intro k acc
  have hk : k.val < 50 := trips_t2 ▸ k.isLt
  by_cases h0 : k.val = 0
  · exact ring_first (d := d) (L := L) D hfI hq hix hfq k h0 acc
  by_cases h49 : k.val = 49
  · exact ring_last (d := d) (L := L) D hfI hq hix hfq k h49 acc
  · exact ring_mid (d := d) (L := L) D hfI hq hix hfq k ⟨by omega, by omega⟩ acc

end Cert.Proof.Kernel

end
-- ==== Proof.KernelTile.lean ====
/-
  The tile's obligation. The tile copies its 128 columns of the transposed index array into its index scratch,
  shifts every index right by two into the row-number scratch (the row of the table of 128-wide rows that holds
  the index's 32-wide row), starts the gathers of positions 0, 1, 2 into slots 0, 1, 2, and then runs the
  pipeline: for each position `h`, start the gather of position `h + 3` into the free slot, wait for position
  `h`'s gather, wait for the write-out two positions back, pick the quarter `index mod 4` of every gathered row
  into a result slot, and start writing that slot out to position `h` of the tile's columns of the result.
-/
import proofs.«206503_g81295140979383_cont_9to1c4b_414_34_alg».proof.Proof.KernelGeom
import proofs.«206503_g81295140979383_cont_9to1c4b_414_34_alg».proof.Proof.KernelWords
import proofs.«206503_g81295140979383_cont_9to1c4b_414_34_alg».proof.Proof.KernelQLoop
import proofs.«206503_g81295140979383_cont_9to1c4b_414_34_alg».proof.Proof.KernelExtract0
import proofs.«206503_g81295140979383_cont_9to1c4b_414_34_alg».proof.Proof.KernelExtract1
import proofs.«206503_g81295140979383_cont_9to1c4b_414_34_alg».proof.Proof.KernelExtract2
import proofs.«206503_g81295140979383_cont_9to1c4b_414_34_alg».proof.Proof.KernelExtract3
import proofs.«206503_g81295140979383_cont_9to1c4b_414_34_alg».proof.Proof.KernelRingInit
import proofs.«206503_g81295140979383_cont_9to1c4b_414_34_alg».proof.Proof.KernelRowVal
import proofs.«206503_g81295140979383_cont_9to1c4b_414_34_alg».proof.Proof.KernelEpilogue
import proofs.«206503_g81295140979383_cont_9to1c4b_414_34_alg».proof.Proof.KernelRing

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- Every word the gathers' offset lists hold names a row of the table. -/
theorem hin_of (fq : Buf (Elt F) ((thr d L).loc cc0_scratch1)) (h : ∀ p : S200x128.Idx, (fq p).toNat < 250000) :
    ∀ (off : Fin 2 → Nat) (inb : ∀ a, off a + S1x128.size a ≤ S200x128.size a) (x : S128.Idx),
      ((((sQ).slice (Rect.unit (s := S200x128) off S1x128.size inb) (fun _ => rfl)).squeeze S128 squeezes_S1x128_S128).view.read (Elt F) fq x).toNat < 250000 := by
  intro off inb x
  exact h _

/-- A read share cut into three tokens and a remainder: one piece per gather slot. -/
theorem toks3 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 3} f) ∗ (ℓ ↦[S]{Transfers.shareTokN q 0} f) ∗ (ℓ ↦[S]{Transfers.shareTokN q 1} f)
      ∗ (ℓ ↦[S]{Transfers.shareTokN q 2} f)) := by
  have h0 := pointsTo_share (Ix := HIx 1) (Val := Elt F) (Name := ℕ) (U := UU) (Lvl := ℕ) (ℓ := ℓ) (I := S) (f := f) (q := q) (q₁ := Transfers.shareDrop q 1) (q₂ := Transfers.shareTokN q 0) (PosShare.mem_left_op_right _)
  have h1 := pointsTo_share (Ix := HIx 1) (Val := Elt F) (Name := ℕ) (U := UU) (Lvl := ℕ) (ℓ := ℓ) (I := S) (f := f) (q := Transfers.shareDrop q 1) (q₁ := Transfers.shareDrop q 2) (q₂ := Transfers.shareTokN q 1) (PosShare.mem_left_op_right _)
  have h2 := pointsTo_share (Ix := HIx 1) (Val := Elt F) (Name := ℕ) (U := UU) (Lvl := ℕ) (ℓ := ℓ) (I := S) (f := f) (q := Transfers.shareDrop q 2) (q₁ := Transfers.shareDrop q 3) (q₂ := Transfers.shareTokN q 2) (PosShare.mem_left_op_right _)
  constructor
  · iintro H
    ihave H := h0.1 $$ H
    icases H with ⟨H, H0⟩
    ihave H := h1.1 $$ H
    icases H with ⟨H, H1⟩
    ihave H := h2.1 $$ H
    icases H with ⟨H, H2⟩
    isplitl [H]; · iexact H
    isplitl [H0]; · iexact H0
    isplitl [H1]; · iexact H1
    iexact H2
  · iintro ⟨H, H0, H1, H2⟩
    iapply h0.2
    isplitr [H0]
    · iapply h1.2
      isplitr [H1]
      · iapply h2.2
        isplitl [H]; · iexact H
        iexact H2
      · iexact H1
    · iexact H0

/-- The result array's elements a tile holds, as the tile's memref addresses them. -/
theorem pts_oSet (f : Buf (Elt F) (oLoc d)) :
    ((oV).view.loc (thr d L) ↦[oSet L]{fullShare} f : sProp 𝕄) = (oLoc d ↦[oSet L]{fullShare} f) := rfl

variable [FloatOps F]

set_option maxHeartbeats 4000000 in
/-- The tile's obligation. -/
theorem tile_spec : TileSpec (F := F) := by
  intro hF d L O W hO q1 q2 tb ix o0 hix
  unfold tileProg
  simp only [cc0_emb_kernel_eq_skeleton]; unfold cc0_emb_kernel_skel
  simp only [k0_part44_eq_skeleton]; unfold k0_part44_skel
  simp only [Prog.bind_assoc]
  rw [(K (F := F)).scopedBufs_V hF d (cV L) (jV L), SparseCore.Cfg.scopedSems0_V (Val := Elt F) d (cV L) (jV L), ownSems0_tile, ownBufs_tile]
  iintro ⟨#Hlv, -, ⟨Ht, Hi, Ho⟩, ⟨⟨%f0, Hs0⟩, ⟨%f1, Hs1⟩, ⟨%f2, Hs2⟩, ⟨%f3, Hs3⟩, Hbufs⟩, ⟨Hg0, Hg1, Hg2, Hg3, Hw0, Hw1, Hsc, Hsems⟩, HO⟩
  ihave Hmw := ((K (F := F)).mayWaits_none (thr := thr d L) hO) $$ Hlv
  ihave Ht := (Entails.of_eq (pts_t (F := F) d L _ _).symm) $$ Ht
  ihave Ht := (toks4 (F := F) q1).1 $$ Ht
  icases Ht with ⟨Htd, Ht0, Ht1, Ht2, Ht3⟩
  ihave Hi := (Entails.of_eq (pts_i (F := F) d L _ _).symm) $$ Hi
  ihave Ho := (Entails.of_eq (pts_oSet (F := F) d L _).symm) $$ Ho
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  -- the first copy: the tile's columns of the index array into the index scratch
  sl_exec
  -- the row numbers: every index shifted right by two
  sl_for (qInv d L (View.write (Elt F) sI.view f0 (tile_spec.sl.dma0 d L ix) Finset.univ)) $$ [Hs0 Hs1]
  case region => exact q_region d L _
  · iapply (q_intro d L _ f1)
    isplitl [Hs0]; · iexact Hs0
    iexact Hs1
  iintro %acc HI
  ihave H := (q_elim_trips d L _ acc) $$ HI
  icases H with ⟨Hs0, %fq, Hs1, %hq⟩
  -- what the scratches hold: the tile's columns of the index array, and their row numbers
  have hfI : ∀ (h : Fin 200) (col : Fin 128),
      (View.write (Elt F) sI.view f0 (tile_spec.sl.dma0 d L ix) Finset.univ) (ix2 h col) = ix (ix2 h (tcol L col)) := by
    intro h col
    refine (View.write_emb_of_mem (v := (sI : Memref sig .scVector .vmem S200x128 .i32).view) f0 _ (Finset.mem_univ (ix2 h col))).trans ?_
    unfold tile_spec.sl.dma0
    exact iBlk_read (F := F) L ix h col
  have hfq : ∀ p : S200x128.Idx, (fq p).toNat < 250000 := by
    intro p
    obtain ⟨h, col, rfl⟩ : ∃ (h : Fin 200) (col : Fin 128), p = ix2 h col := ⟨p 0, p 1, eq_ix2 p⟩
    rw [hq, hfI]
    have := hix (ix2 h (tcol L col))
    omega
  obtain ⟨qQ, hqQ⟩ : ∃ qQ : PosShare TreeShare, qQ = fullShare := ⟨_, rfl⟩
  ihave Hs1 := (Entails.of_eq (congrArg (fun q => ((sQ).view.loc (thr d L) ↦{q} fq : sProp 𝕄)) hqQ.symm)) $$ Hs1
  ihave Hs1 := (toks3 (F := F) qQ).1 $$ Hs1
  icases Hs1 with ⟨Hqa, Hqb, Hqc, Hqd⟩
  have hin := hin_of (F := F) d L fq hfq
  -- the scratch arrays by slot: each gather lands in a piece of its own, each write-out reads one
  ihave Hs2 := (Entails.of_eq (sG_pieces (F := F) d L f2)) $$ Hs2
  icases Hs2 with ⟨Hp0, Hp1, Hp2, Hp3⟩
  ihave Hs3 := (Entails.of_eq (sO_pieces (F := F) d L f3)) $$ Hs3
  icases Hs3 with ⟨Hr0, Hr1⟩
  -- the gathers of positions 0, 1, 2
  sl_exec
  -- the pipeline, by its invariant
  let D : RingData (F := F) d L :=
    { q1 := q1, qQ := qQ, tb := tb, ix := ix, fI := View.write (Elt F) sI.view f0 (tile_spec.sl.dma0 d L ix) Finset.univ, fq := fq, O := O,
      W := insert (SemLoc.dma cc0_scoped0.sem, (default : HIx 1)) W }
  have hga0 := gathered_of (F := F) d L D 0 lt4_0 (4 * 0) (by omega) f2 (tile_spec.sl.gather0 d L tb fq hin)
    (fun r cc row hrow => by unfold tile_spec.sl.gather0; exact gather_rowQ_apply' tb _ (tW_read tb) 0 (by omega) fq _ _ r cc row hrow)
  have hga1 := gathered_of (F := F) d L D 1 lt4_1 (4 * 0 + 1) (by omega) f2 (tile_spec.sl.gather1 d L tb fq hin)
    (fun r cc row hrow => by unfold tile_spec.sl.gather1; exact gather_rowQ_apply' tb _ (tW_read tb) 1 (by omega) fq _ _ r cc row hrow)
  have hga2 := gathered_of (F := F) d L D 2 lt4_2 (4 * 0 + 2) (by omega) f2 (tile_spec.sl.gather2 d L tb fq hin)
    (fun r cc row hrow => by unfold tile_spec.sl.gather2; exact gather_rowQ_apply' tb _ (tW_read tb) 2 (by omega) fq _ _ r cc row hrow)
  sl_for (ringInv D) $$ [Hs0 Hg0 Ht0 Hqa Hg1 Ht1 Hqb Hg2 Ht2 Hqc Hg3 Hp3 Ht3 Hqd Hw0 Hw1 Hr0 Hr1 Ho HO]
  case region => exact ring_region D hfI hq hix hfq
  · rw [ringInv_zero]
    isplitr; · iexact Hmw
    isplitl [Hs0]; · iexact Hs0
    isplitl [Hg0 Ht0 Hqa Hg1 Ht1 Hqb Hg2 Ht2 Hqc Hg3 Hp3 Ht3 Hqd]
    · isplitl [Hg0 Ht0 Hqa]
      · iapply (busy_intro (F := F) d L D 0 lt4_0 cc0_scratch4 (4 * 0) _ _ hga0)
        isplitl [Hg0]; · iexact Hg0
        isplitl [Ht0]; · iexact Ht0
        iexact Hqa
      isplitl [Hg1 Ht1 Hqb]
      · iapply (busy_intro (F := F) d L D 1 lt4_1 cc0_scratch5 (4 * 0 + 1) _ _ hga1)
        isplitl [Hg1]; · iexact Hg1
        isplitl [Ht1]; · iexact Ht1
        iexact Hqb
      isplitl [Hg2 Ht2 Hqc]
      · iapply (busy_intro (F := F) d L D 2 lt4_2 cc0_scratch6 (4 * 0 + 2) _ _ hga2)
        isplitl [Hg2]; · iexact Hg2
        isplitl [Ht2]; · iexact Ht2
        iexact Hqc
      unfold RingData.free
      isplitl [Hg3]; · iexact Hg3
      isplitl [Hp3]; · iexists f2; iexact Hp3
      isplitl [Ht3]; · iexact Ht3
      iexact Hqd
    isplitl [Hw0 Hw1 Hr0 Hr1 Ho]
    · unfold idleSlot
      isplitl [Hw0 Hr0]
      · isplitl [Hw0]; · iexact Hw0
        iexists f3; iexact Hr0
      isplitl [Hw1 Hr1]
      · isplitl [Hw1]; · iexact Hw1
        iexists f3; iexact Hr1
      iexists o0; iexact Ho
    iexists _
    isplitr
    · ipureintro; exact fun p hp => Or.inl hp
    iexact HO
  -- after the last trip: the last two write-outs are waited for and everything is handed back
  iintro %acc HI
  have h50 : Scf.trips k0_t2_loop.lb k0_t2_loop.ub k0_t2_loop.st = 50 := by decide
  ihave HI := (Entails.of_eq (show ringInv D (Scf.trips k0_t2_loop.lb k0_t2_loop.ub k0_t2_loop.st) acc = ringInv D 50 () from by rw [h50])) $$ HI
  have hW0 : ∀ p ∈ D.W, p ∈ W ∨ p.2 = none := fun p hp =>
    (Finset.mem_insert.mp hp).elim (fun e => Or.inr (by rw [e]; rfl)) Or.inl
  iapply (Epilogue.epilogue d L D q2 hqQ W hW0) $$ [HI Htd Hi Hsc Hbufs Hsems]
  isplitl [HI]; · iexact HI
  isplitl [Htd]; · iexact Htd
  isplitl [Hi]; · iexact Hi
  isplitl [Hsc]; · iexact Hsc
  isplitl [Hbufs]; · iexact Hbufs
  iexact Hsems

end Cert.Proof.Kernel

end
-- ==== Proof.lean ====
/- The proof of the certificate's claim. Both programs are an embedding lookup: the result's entry (b, h, d) is the
   table's entry (inputs[b, h], d). The kernel holds the table as rows of 128 (four table rows each), gathers row
   inputs[b, h] / 4 and picks its quarter inputs[b, h] mod 4; each of its 32 tiles does this for 128 batch columns.
   The claim is assembled from the tile's obligation, read at the word-level and at the extended-real instance. -/
import proofs.«206503_g81295140979383_cont_9to1c4b_414_34_alg».proof.Proof.Assemble
import proofs.«206503_g81295140979383_cont_9to1c4b_414_34_alg».proof.Proof.KernelIdealTile
import proofs.«206503_g81295140979383_cont_9to1c4b_414_34_alg».proof.Proof.KernelTile

noncomputable section

namespace Cert.Proof

theorem claim : Cert.Claim := claim_of_tiles Cert.Proof.KernelIdeal.tile_spec Cert.Proof.Kernel.tile_spec

end Cert.Proof

end
